-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x32x32 : Shape := ⟨4, ![16, 256, 32, 32]⟩
abbrev S16x128x64x64 : Shape := ⟨4, ![16, 128, 64, 64]⟩
abbrev S256x128x2x2 : Shape := ⟨4, ![256, 128, 2, 2]⟩
abbrev S128 : Shape := ⟨1, ![128]⟩
abbrev S128x256x3x3 : Shape := ⟨4, ![128, 256, 3, 3]⟩
abbrev S128x128x3x3 : Shape := ⟨4, ![128, 128, 3, 3]⟩
abbrev S_ : Shape := ⟨0, ![]⟩

class Facts : Prop where
  bcast_S_S16x256x32x32 : S_.BroadcastsInDim S16x256x32x32 (![] : Fin 0 → Fin S16x256x32x32.rank)
  reducesTo_S16x256x32x32_S_d0_1_2_3 : S16x256x32x32.ReducesTo [0, 1, 2, 3] S_
  h_S_ : 0 < S_.numel
  bcast_S_S16x128x64x64 : S_.BroadcastsInDim S16x128x64x64 (![] : Fin 0 → Fin S16x128x64x64.rank)
  reducesTo_S16x128x64x64_S_d0_1_2_3 : S16x128x64x64.ReducesTo [0, 1, 2, 3] S_
  bcast_S_S256x128x2x2 : S_.BroadcastsInDim S256x128x2x2 (![] : Fin 0 → Fin S256x128x2x2.rank)
  reducesTo_S256x128x2x2_S_d0_1_2_3 : S256x128x2x2.ReducesTo [0, 1, 2, 3] S_
  bcast_S_S128 : S_.BroadcastsInDim S128 (![] : Fin 0 → Fin S128.rank)
  reducesTo_S128_S_d0 : S128.ReducesTo [0] S_
  bcast_S_S128x256x3x3 : S_.BroadcastsInDim S128x256x3x3 (![] : Fin 0 → Fin S128x256x3x3.rank)
  reducesTo_S128x256x3x3_S_d0_1_2_3 : S128x256x3x3.ReducesTo [0, 1, 2, 3] S_
  bcast_S_S128x128x3x3 : S_.BroadcastsInDim S128x128x3x3 (![] : Fin 0 → Fin S128x128x3x3.rank)
  reducesTo_S128x128x3x3_S_d0_1_2_3 : S128x128x3x3.ReducesTo [0, 1, 2, 3] S_

variable [Facts]

def fn_part4 {F : FTy → Type} [FloatOps F] (main_arg14 : FVec F S128 .f32) (main_arg15 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  main_v78

def fn_part3 {F : FTy → Type} [FloatOps F] (main_arg11 : FVec F S128 .f32) (main_arg12 : FVec F S128 .f32) (main_arg13 : FVec F S128 .f32) (main_arg14 : FVec F S128 .f32) (main_arg15 : FVec F S128 .f32) (main_v48 : IVec S_ 1) (main_v49 : FVec F S128x128x3x3 .f32) (main_v50 : FVec F S128x128x3x3 .f32) : IVec S_ 1 :=
  let main_v51 : IVec S128x128x3x3 1 := cmpf .olt main_v49 main_v50
  let main_c_19 : IVec S_ 1 := constantI S_ 1 1#1
  let main_v52 : IVec S_ 1 := (fun x v => Host.reduce IntOp.andi x v reducesTo_S128x128x3x3_S_d0_1_2_3 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_v63 main_v67

def fn_part2 {F : FTy → Type} [FloatOps F] (main_arg7 : FVec F S128 .f32) (main_arg8 : FVec F S128 .f32) (main_arg9 : FVec F S128 .f32) (main_arg10 : FVec F S128x128x3x3 .f32) (main_arg11 : FVec F S128 .f32) (main_arg12 : FVec F S128 .f32) (main_arg13 : FVec F S128 .f32) (main_arg14 : FVec F S128 .f32) (main_arg15 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128x3x3 .f32 := Host.absf main_arg10
  let main_cst_18 : FVec F S_ .f32 := constant S_ .f32 0x7F800000#32
  let main_v50 : FVec F S128x128x3x3 .f32 := broadcastInDim S128x128x3x3 ![] bcast_S_S128x128x3x3 main_cst_18
  fn_part3 (F := F) main_arg11 main_arg12 main_arg13 main_arg14 main_arg15 main_v48 main_v49 main_v50

def fn_part1 {F : FTy → Type} [FloatOps F] (main_arg4 : FVec F S128x256x3x3 .f32) (main_arg5 : FVec F S128 .f32) (main_arg6 : FVec F S128 .f32) (main_arg7 : FVec F S128 .f32) (main_arg8 : FVec F S128 .f32) (main_arg9 : FVec F S128 .f32) (main_arg10 : FVec F S128x128x3x3 .f32) (main_arg11 : FVec F S128 .f32) (main_arg12 : FVec F S128 .f32) (main_arg13 : FVec F S128 .f32) (main_arg14 : FVec F S128 .f32) (main_arg15 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256x3x3 .f32 := Host.absf main_arg4
  let main_cst_6 : FVec F S_ .f32 := constant S_ .f32 0x7F800000#32
  let main_v20 : FVec F S128x256x3x3 .f32 := broadcastInDim S128x256x3x3 ![] bcast_S_S128x256x3x3 main_cst_6
  let main_v21 : IVec S128x256x3x3 1 := cmpf .olt main_v19 main_v20
  let main_c_7 : IVec S_ 1 := constantI S_ 1 1#1
  let main_v22 : IVec S_ 1 := (fun x v => Host.reduce IntOp.andi x v reducesTo_S128x256x3x3_S_d0_1_2_3 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S16x256x32x32 .f32) (main_arg1 : FVec F S16x128x64x64 .f32) (main_arg2 : FVec F S256x128x2x2 .f32) (main_arg3 : FVec F S128 .f32) (main_arg4 : FVec F S128x256x3x3 .f32) (main_arg5 : FVec F S128 .f32) (main_arg6 : FVec F S128 .f32) (main_arg7 : FVec F S128 .f32) (main_arg8 : FVec F S128 .f32) (main_arg9 : FVec F S128 .f32) (main_arg10 : FVec F S128x128x3x3 .f32) (main_arg11 : FVec F S128 .f32) (main_arg12 : FVec F S128 .f32) (main_arg13 : FVec F S128 .f32) (main_arg14 : FVec F S128 .f32) (main_arg15 : FVec F S128 .f32) : IVec S_ 1 :=
  let main_v0 : FVec F S16x256x32x32 .f32 := Host.absf main_arg0
  let main_cst : FVec F S_ .f32 := constant S_ .f32 0x7F800000#32
  let main_v1 : FVec F S16x256x32x32 .f32 := broadcastInDim S16x256x32x32 ![] bcast_S_S16x256x32x32 main_cst
  let main_v2 : IVec S16x256x32x32 1 := cmpf .olt main_v0 main_v1
  let main_c : IVec S_ 1 := constantI S_ 1 1#1
  let main_v3 : IVec S_ 1 := (fun x v => Host.reduce IntOp.andi x v reducesTo_S16x256x32x32_S_d0_1_2_3 h_S_) main_v2 main_c
  let main_v4 : FVec F S16x128x64x64 .f32 := Host.absf main_arg1
  let main_cst_0 : FVec F S_ .f32 := constant S_ .f32 0x7F800000#32
  let main_v5 : FVec F S16x128x64x64 .f32 := broadcastInDim S16x128x64x64 ![] bcast_S_S16x128x64x64 main_cst_0
  let main_v6 : IVec S16x128x64x64 1 := cmpf .olt main_v4 main_v5
  let main_c_1 : IVec S_ 1 := constantI S_ 1 1#1
  let main_v7 : IVec S_ 1 := (fun x v => Host.reduce IntOp.andi x v reducesTo_S16x128x64x64_S_d0_1_2_3 h_S_) main_v6 main_c_1
  let main_v8 : IVec S_ 1 := andi main_v3 main_v7
  let main_v9 : FVec F S256x128x2x2 .f32 := Host.absf main_arg2
  let main_cst_2 : FVec F S_ .f32 := constant S_ .f32 0x7F800000#32
  let main_v10 : FVec F S256x128x2x2 .f32 := broadcastInDim S256x128x2x2 ![] bcast_S_S256x128x2x2 main_cst_2
  let main_v11 : IVec S256x128x2x2 1 := cmpf .olt main_v9 main_v10
  let main_c_3 : IVec S_ 1 := constantI S_ 1 1#1
  let main_v12 : IVec S_ 1 := (fun x v => Host.reduce IntOp.andi x v reducesTo_S256x128x2x2_S_d0_1_2_3 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S16x256x32x32 : Shape := ⟨4, ![16, 256, 32, 32]⟩
abbrev S16x128x64x64 : Shape := ⟨4, ![16, 128, 64, 64]⟩
abbrev S256x128x2x2 : Shape := ⟨4, ![256, 128, 2, 2]⟩
abbrev S128 : Shape := ⟨1, ![128]⟩
abbrev S128x256x3x3 : Shape := ⟨4, ![128, 256, 3, 3]⟩
abbrev S128x128x3x3 : Shape := ⟨4, ![128, 128, 3, 3]⟩
abbrev S_ : Shape := ⟨0, ![]⟩
abbrev S128x1x1x1 : Shape := ⟨4, ![128, 1, 1, 1]⟩
abbrev S3x3x128x256 : Shape := ⟨4, ![3, 3, 128, 256]⟩
abbrev S1152x256 : Shape := ⟨2, ![1152, 256]⟩
abbrev S3x3x128x128 : Shape := ⟨4, ![3, 3, 128, 128]⟩
abbrev S1152x128 : Shape := ⟨2, ![1152, 128]⟩
abbrev S256x2x2x128 : Shape := ⟨4, ![256, 2, 2, 128]⟩
abbrev S256x2x256 : Shape := ⟨3, ![256, 2, 256]⟩
abbrev S2x256x256 : Shape := ⟨3, ![2, 256, 256]⟩
abbrev S512x256 : Shape := ⟨2, ![512, 256]⟩
abbrev S1x128 : Shape := ⟨2, ![1, 128]⟩
abbrev S4x128 : Shape := ⟨2, ![4, 128]⟩
abbrev S512 : Shape := ⟨1, ![512]⟩
abbrev S2x256 : Shape := ⟨2, ![2, 256]⟩
abbrev S128x128 : Shape := ⟨2, ![128, 128]⟩
abbrev S128x256 : Shape := ⟨2, ![128, 256]⟩
abbrev S2946x256 : Shape := ⟨2, ![2946, 256]⟩
abbrev S2952x256 : Shape := ⟨2, ![2952, 256]⟩
abbrev S256 : Shape := ⟨1, ![256]⟩
abbrev S256x1 : Shape := ⟨2, ![256, 1]⟩
abbrev S1x256x1x1 : Shape := ⟨4, ![1, 256, 1, 1]⟩
abbrev S1x256x128x1 : Shape := ⟨4, ![1, 256, 128, 1]⟩
abbrev S256x128 : Shape := ⟨2, ![256, 128]⟩
abbrev S16x256x1024 : Shape := ⟨3, ![16, 256, 1024]⟩
abbrev S16x128x4096 : Shape := ⟨3, ![16, 128, 4096]⟩
abbrev S4608 : Shape := ⟨1, ![4608]⟩
abbrev S1x4608 : Shape := ⟨2, ![1, 4608]⟩
abbrev S1x256x1024 : Shape := ⟨3, ![1, 256, 1024]⟩
abbrev S1x128x4096 : Shape := ⟨3, ![1, 128, 4096]⟩
abbrev S256x4864 : Shape := ⟨2, ![256, 4864]⟩
abbrev S128x4864 : Shape := ⟨2, ![128, 4864]⟩
abbrev S1024x512 : Shape := ⟨2, ![1024, 512]⟩
abbrev S4864x128 : Shape := ⟨2, ![4864, 128]⟩
abbrev S256x1024 : Shape := ⟨2, ![256, 1024]⟩
abbrev S256x256 : Shape := ⟨2, ![256, 256]⟩
abbrev S1x256 : Shape := ⟨2, ![1, 256]⟩
abbrev S1024x256 : Shape := ⟨2, ![1024, 256]⟩
abbrev S32x256 : Shape := ⟨2, ![32, 256]⟩
abbrev S64x128 : Shape := ⟨2, ![64, 128]⟩
abbrev S128x4096 : Shape := ⟨2, ![128, 4096]⟩
abbrev S128x64 : Shape := ⟨2, ![128, 64]⟩
abbrev S128x1 : Shape := ⟨2, ![128, 1]⟩
abbrev S128x4608 : Shape := ⟨2, ![128, 4608]⟩
abbrev S256x4608 : Shape := ⟨2, ![256, 4608]⟩
abbrev S1x128x64 : Shape := ⟨3, ![1, 128, 64]⟩

abbrev nBuf : Space → Nat
  | .hbm => 109
  | .vmem => 13
  | .smem => 0
  | _ => 0

abbrev bufTy : (tb : Table) → Fin (tcTables nBuf tb) → BufTy
  | .hbm, ⟨0, _⟩ => ⟨S16x256x32x32, .f32⟩
  | .hbm, ⟨1, _⟩ => ⟨S16x128x64x64, .f32⟩
  | .hbm, ⟨2, _⟩ => ⟨S256x128x2x2, .f32⟩
  | .hbm, ⟨3, _⟩ => ⟨S128, .f32⟩
  | .hbm, ⟨4, _⟩ => ⟨S128x256x3x3, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x128x3x3, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S_, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S128x1x1x1, .f32⟩
  | .hbm, ⟨22, _⟩ => ⟨S128x256x3x3, .f32⟩
  | .hbm, ⟨23, _⟩ => ⟨S128x256x3x3, .f32⟩
  | .hbm, ⟨24, _⟩ => ⟨S128, .f32⟩
  | .hbm, ⟨25, _⟩ => ⟨S128, .f32⟩
  | .hbm, ⟨26, _⟩ => ⟨S128, .f32⟩
  | .hbm, ⟨27, _⟩ => ⟨S_, .f32⟩
  | .hbm, ⟨28, _⟩ => ⟨S128, .f32⟩
  | .hbm, ⟨29, _⟩ => ⟨S128, .f32⟩
  | .hbm, ⟨30, _⟩ => ⟨S128, .f32⟩
  | .hbm, ⟨31, _⟩ => ⟨S128, .f32⟩
  | .hbm, ⟨32, _⟩ => ⟨S128x1x1x1, .f32⟩
  | .hbm, ⟨33, _⟩ => ⟨S128x128x3x3, .f32⟩
  | .hbm, ⟨34, _⟩ => ⟨S128x128x3x3, .f32⟩
  | .hbm, ⟨35, _⟩ => ⟨S128, .f32⟩
  | .hbm, ⟨36, _⟩ => ⟨S128, .f32⟩
  | .hbm, ⟨37, _⟩ => ⟨S128, .f32⟩
  | .hbm, ⟨38, _⟩ => ⟨S3x3x128x256, .f32⟩
  | .hbm, ⟨39, _⟩ => ⟨S1152x256, .f32⟩
  | .hbm, ⟨40, _⟩ => ⟨S3x3x128x128, .f32⟩
  | .hbm, ⟨41, _⟩ => ⟨S1152x128, .f32⟩
  | .hbm, ⟨42, _⟩ => ⟨S_, .i32⟩
  | .hbm, ⟨43, _⟩ => ⟨S_, .f32⟩
  | .hbm, ⟨44, _⟩ => ⟨S1152x256, .f32⟩
  | .hbm, ⟨45, _⟩ => ⟨S256x2x2x128, .f32⟩
  | .hbm, ⟨46, _⟩ => ⟨S256x2x256, .f32⟩
  | .hbm, ⟨47, _⟩ => ⟨S2x256x256, .f32⟩
  | .hbm, ⟨48, _⟩ => ⟨S512x256, .f32⟩
  | .hbm, ⟨49, _⟩ => ⟨S1x128, .f32⟩
  | .hbm, ⟨50, _⟩ => ⟨S4x128, .f32⟩
  | .hbm, ⟨51, _⟩ => ⟨S512, .f32⟩
  | .hbm, ⟨52, _⟩ => ⟨S2x256, .f32⟩
  | .hbm, ⟨53, _⟩ => ⟨S128x128, .i32⟩
  | .hbm, ⟨54, _⟩ => ⟨S128x128, .i32⟩
  | .hbm, ⟨55, _⟩ => ⟨S_, .i32⟩
  | .hbm, ⟨56, _⟩ => ⟨S128x128, .i32⟩
  | .hbm, ⟨57, _⟩ => ⟨S128x128, .i32⟩
  | .hbm, ⟨58, _⟩ => ⟨S128x128, .i1⟩
  | .hbm, ⟨59, _⟩ => ⟨S128x128, .f32⟩
  | .hbm, ⟨60, _⟩ => ⟨S_, .i32⟩
  | .hbm, ⟨61, _⟩ => ⟨S_, .f32⟩
  | .hbm, ⟨62, _⟩ => ⟨S128x256, .f32⟩
  | .hbm, ⟨63, _⟩ => ⟨S2946x256, .f32⟩
  | .hbm, ⟨64, _⟩ => ⟨S2946x256, .bf16⟩
  | .hbm, ⟨65, _⟩ => ⟨S_, .i32⟩
  | .hbm, ⟨66, _⟩ => ⟨S_, .bf16⟩
  | .hbm, ⟨67, _⟩ => ⟨S2952x256, .bf16⟩
  | .hbm, ⟨68, _⟩ => ⟨S256, .f32⟩
  | .hbm, ⟨69, _⟩ => ⟨S256x1, .f32⟩
  | .hbm, ⟨70, _⟩ => ⟨S1x256x1x1, .f32⟩
  | .hbm, ⟨71, _⟩ => ⟨S1x256x128x1, .f32⟩
  | .hbm, ⟨72, _⟩ => ⟨S256x128, .f32⟩
  | .hbm, ⟨73, _⟩ => ⟨S16x256x1024, .f32⟩
  | .hbm, ⟨74, _⟩ => ⟨S16x128x4096, .f32⟩
  | .hbm, ⟨75, _⟩ => ⟨S4608, .i32⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S_, .i1⟩
  | .hbm, ⟨80, _⟩ => ⟨S_, .i32⟩
  | .hbm, ⟨81, _⟩ => ⟨S_, .i32⟩
  | .hbm, ⟨82, _⟩ => ⟨S4608, .i32⟩
  | .hbm, ⟨83, _⟩ => ⟨S4608, .i32⟩
  | .hbm, ⟨84, _⟩ => ⟨S_, .i32⟩
  | .hbm, ⟨85, _⟩ => ⟨S4608, .i32⟩
  | .hbm, ⟨86, _⟩ => ⟨S4608, .i1⟩
  | .hbm, ⟨87, _⟩ => ⟨S_, .i32⟩
  | .hbm, ⟨88, _⟩ => ⟨S4608, .i32⟩
  | .hbm, ⟨89, _⟩ => ⟨S4608, .i1⟩
  | .hbm, ⟨90, _⟩ => ⟨S_, .i32⟩
  | .hbm, ⟨91, _⟩ => ⟨S_, .i1⟩
  | .hbm, ⟨92, _⟩ => ⟨S4608, .i1⟩
  | .hbm, ⟨93, _⟩ => ⟨S4608, .i1⟩
  | .hbm, ⟨94, _⟩ => ⟨S4608, .i1⟩
  | .hbm, ⟨95, _⟩ => ⟨S4608, .i32⟩
  | .hbm, ⟨96, _⟩ => ⟨S4608, .i32⟩
  | .hbm, ⟨97, _⟩ => ⟨S4608, .i32⟩
  | .hbm, ⟨98, _⟩ => ⟨S_, .i32⟩
  | .hbm, ⟨99, _⟩ => ⟨S4608, .i32⟩
  | .hbm, ⟨100, _⟩ => ⟨S4608, .i1⟩
  | .hbm, ⟨101, _⟩ => ⟨S_, .i32⟩
  | .hbm, ⟨102, _⟩ => ⟨S4608, .i32⟩
  | .hbm, ⟨103, _⟩ => ⟨S4608, .i1⟩
  | .hbm, ⟨104, _⟩ => ⟨S4608, .i1⟩
  | .hbm, ⟨105, _⟩ => ⟨S4608, .f32⟩
  | .hbm, ⟨106, _⟩ => ⟨S1x4608, .f32⟩
  | .hbm, ⟨107, _⟩ => ⟨S16x128x4096, .f32⟩
  | .hbm, ⟨108, _⟩ => ⟨S16x128x64x64, .f32⟩
  | .local _ .vmem, ⟨0, _⟩ => ⟨S1x256x1024, .f32⟩
  | .local _ .vmem, ⟨1, _⟩ => ⟨S1x256x1024, .f32⟩
  | .local _ .vmem, ⟨2, _⟩ => ⟨S1x128x4096, .f32⟩
  | .local _ .vmem, ⟨3, _⟩ => ⟨S1x128x4096, .f32⟩
  | .local _ .vmem, ⟨4, _⟩ => ⟨S2952x256, .bf16⟩
  | .local _ .vmem, ⟨5, _⟩ => ⟨S256x128, .f32⟩
  | .local _ .vmem, ⟨6, _⟩ => ⟨S1x4608, .f32⟩
  | .local _ .vmem, ⟨7, _⟩ => ⟨S1x128x4096, .f32⟩
  | .local _ .vmem, ⟨8, _⟩ => ⟨S1x128x4096, .f32⟩
  | .local _ .vmem, ⟨9, _⟩ => ⟨S256x4864, .bf16⟩
  | .local _ .vmem, ⟨10, _⟩ => ⟨S128x4864, .bf16⟩
  | .local _ .vmem, ⟨11, _⟩ => ⟨S1024x512, .f32⟩
  | .local _ .vmem, ⟨12, _⟩ => ⟨S4864x128, .bf16⟩
  | _, _ => ⟨S16x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c : Ref sig .tc := ⟨.hbm, 42, rfl⟩
abbrev main_call0_v0 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_1 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_2 : Ref sig .tc := ⟨.hbm, 60, rfl⟩
abbrev main_call1_v0 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_3 : Ref sig .tc := ⟨.hbm, 65, rfl⟩
abbrev main_call2_v0 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_4 : Ref sig .tc := ⟨.hbm, 76, rfl⟩
abbrev main_call3_v0 : Ref sig .tc := ⟨.hbm, 77, rfl⟩
abbrev main_call3_c : Ref sig .tc := ⟨.hbm, 78, rfl⟩
abbrev main_call3_v1 : Ref sig .tc := ⟨.hbm, 79, rfl⟩
abbrev main_call3_c_0 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_call3_c_1 : Ref sig .tc := ⟨.hbm, 84, rfl⟩
abbrev main_call3_v5 : Ref sig .tc := ⟨.hbm, 85, rfl⟩
abbrev main_call3_v6 : Ref sig .tc := ⟨.hbm, 86, rfl⟩
abbrev main_call3_c_2 : Ref sig .tc := ⟨.hbm, 87, rfl⟩
abbrev main_call3_v7 : Ref sig .tc := ⟨.hbm, 88, rfl⟩
abbrev main_call3_v8 : Ref sig .tc := ⟨.hbm, 89, rfl⟩
abbrev main_call3_c_3 : Ref sig .tc := ⟨.hbm, 90, rfl⟩
abbrev main_call3_v9 : Ref sig .tc := ⟨.hbm, 91, rfl⟩
abbrev main_call3_v10 : Ref sig .tc := ⟨.hbm, 92, rfl⟩
abbrev main_call3_v11 : Ref sig .tc := ⟨.hbm, 93, rfl⟩
abbrev main_call3_v12 : Ref sig .tc := ⟨.hbm, 94, rfl⟩
abbrev main_call3_v13 : Ref sig .tc := ⟨.hbm, 95, rfl⟩
abbrev main_call3_v14 : Ref sig .tc := ⟨.hbm, 96, rfl⟩
abbrev main_v51 : Ref sig .tc := ⟨.hbm, 97, rfl⟩
abbrev main_c_5 : Ref sig .tc := ⟨.hbm, 98, rfl⟩
abbrev main_v52 : Ref sig .tc := ⟨.hbm, 99, rfl⟩
abbrev main_v53 : Ref sig .tc := ⟨.hbm, 100, rfl⟩
abbrev main_c_6 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2952x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4608 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S128 : S_.BroadcastsInDim S128 (![] : Fin 0 → Fin S128.rank)
  bcast_S128_S128x1x1x1_0 : S128.BroadcastsInDim S128x1x1x1 (![0] : Fin 1 → Fin S128x1x1x1.rank)
  bcast_S128x1x1x1_S128x256x3x3_0_1_2_3 : S128x1x1x1.BroadcastsInDim S128x256x3x3 (![0, 1, 2, 3] : Fin 4 → Fin S128x256x3x3.rank)
  bcast_S128x1x1x1_S128x128x3x3_0_1_2_3 : S128x1x1x1.BroadcastsInDim S128x128x3x3 (![0, 1, 2, 3] : Fin 4 → Fin S128x128x3x3.rank)
  transposes_S128x256x3x3_S3x3x128x256_2_3_0_1 : S128x256x3x3.Transposes [2, 3, 0, 1] S3x3x128x256
  shapeCasts_S3x3x128x256_S1152x256 : S3x3x128x256.ShapeCasts S1152x256
  transposes_S128x128x3x3_S3x3x128x128_2_3_0_1 : S128x128x3x3.Transposes [2, 3, 0, 1] S3x3x128x128
  shapeCasts_S3x3x128x128_S1152x128 : S3x3x128x128.ShapeCasts S1152x128
  pads_S1152x128_S1152x256_000_01280 : S1152x128.Pads (![0, 0] : Fin 2 → Nat) ![0, 128] ![0, 0] S1152x256
  h_S_ : 0 < S_.numel
  transposes_S256x128x2x2_S256x2x2x128_0_2_3_1 : S256x128x2x2.Transposes [0, 2, 3, 1] S256x2x2x128
  shapeCasts_S256x2x2x128_S256x2x256 : S256x2x2x128.ShapeCasts S256x2x256
  transposes_S256x2x256_S2x256x256_1_0_2 : S256x2x256.Transposes [1, 0, 2] S2x256x256
  shapeCasts_S2x256x256_S512x256 : S2x256x256.ShapeCasts S512x256
  shapeCasts_S128_S1x128 : S128.ShapeCasts S1x128
  bcast_S1x128_S4x128_0_1 : S1x128.BroadcastsInDim S4x128 (![0, 1] : Fin 2 → Fin S4x128.rank)
  shapeCasts_S4x128_S512 : S4x128.ShapeCasts S512
  shapeCasts_S512_S2x256 : S512.ShapeCasts S2x256
  bcast_S_S128x128 : S_.BroadcastsInDim S128x128 (![] : Fin 0 → Fin S128x128.rank)
  pads_S128x128_S128x256_000_01280 : S128x128.Pads (![0, 0] : Fin 2 → Nat) ![0, 128] ![0, 0] S128x256
  concatenates_S1152x256_S1152x256_S512x256_S2x256_S128x256_S2946x256_d0 : Shape.Concatenates [S1152x256, S1152x256, S512x256, S2x256, S128x256] S2946x256 0
  bitsLt_bf16_f32 : FTy.bits .bf16 < FTy.bits .f32
  pads_S2946x256_S2952x256_060_000 : S2946x256.Pads (![0, 0] : Fin 2 → Nat) ![6, 0] ![0, 0] S2952x256
  concatenates_S128_S128_S256_d0 : Shape.Concatenates [S128, S128] S256 0
  shapeCasts_S256_S256x1 : S256.ShapeCasts S256x1
  shapeCasts_S256x1_S1x256x1x1 : S256x1.ShapeCasts S1x256x1x1
  bcast_S1x256x1x1_S1x256x128x1_0_1_2_3 : S1x256x1x1.BroadcastsInDim S1x256x128x1 (![0, 1, 2, 3] : Fin 4 → Fin S1x256x128x1.rank)
  shapeCasts_S1x256x128x1_S256x128 : S1x256x128x1.ShapeCasts S256x128
  shapeCasts_S16x256x32x32_S16x256x1024 : S16x256x32x32.ShapeCasts S16x256x1024
  shapeCasts_S16x128x64x64_S16x128x4096 : S16x128x64x64.ShapeCasts S16x128x4096
  bcast_S_S4608 : S_.BroadcastsInDim S4608 (![] : Fin 0 → Fin S4608.rank)
  shapeCasts_S4608_S1x4608 : S4608.ShapeCasts S1x4608
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S2952x256_S256x256_2304_0 : ∀ a, (![2304, 0] : Fin 2 → Nat) a + S256x256.size a ≤ S2952x256.size a
  h_S256x256 : 0 < S256x256.numel
  shapeCasts_S256x256_S256x256 : S256x256.ShapeCasts S256x256
  inb_S2952x256_S1x256_2816_0 : ∀ a, (![2816, 0] : Fin 2 → Nat) a + S1x256.size a ≤ S2952x256.size a
  h_S1x256 : 0 < S1x256.numel
  shapeCasts_S1x256_S1x256 : S1x256.ShapeCasts S1x256
  broadcasts_S1x256_S1024x256 : S1x256.Broadcasts S1024x256
  inb_S1024x512_S1024x256_0_0 : ∀ a, (![0, 0] : Fin 2 → Nat) a + S1024x256.size a ≤ S1024x512.size a
  h_S1024x256 : 0 < S1024x256.numel
  shapeCasts_S1024x256_S1024x256 : S1024x256.ShapeCasts S1024x256
  inb_S2952x256_S256x256_2560_0 : ∀ a, (![2560, 0] : Fin 2 → Nat) a + S256x256.size a ≤ S2952x256.size a
  inb_S2952x256_S1x256_2817_0 : ∀ a, (![2817, 0] : Fin 2 → Nat) a + S1x256.size a ≤ S2952x256.size a
  inb_S1024x512_S1024x256_0_256 : ∀ a, (![0, 256] : Fin 2 → Nat) a + S1024x256.size a ≤ S1024x512.size a
  inb_S4864x128_S4864x128_0_0 : ∀ a, (![0, 0] : Fin 2 → Nat) a + S4864x128.size a ≤ S4864x128.size a
  h_S4864x128 : 0 < S4864x128.numel
  shapeCasts_S4864x128_S4864x128 : S4864x128.ShapeCasts S4864x128
  packedbf16_S4864x128_S4864x128_0_0 : (Rect.unit (s := S4864x128) ![0, 0] S4864x128.size inb_S4864x128_S4864x128_0_0).PackedRows (EltTy.packing .bf16)
  inb_S1024x512_S32x256_0_0 : ∀ a, (![0, 0] : Fin 2 → Nat) a + S32x256.size a ≤ S1024x512.size a
  h_S32x256 : 0 < S32x256.numel
  shapeCasts_S32x256_S64x128 : S32x256.ShapeCasts S64x128
  inb_S4864x128_S64x128_132_0 : ∀ a, (![132, 0] : Fin 2 → Nat) a + S64x128.size a ≤ S4864x128.size a
  h_S64x128 : 0 < S64x128.numel
  shapeCasts_S64x128_S64x128 : S64x128.ShapeCasts S64x128
  packedbf16_S4864x128_S64x128_132_0 : (Rect.unit (s := S4864x128) ![132, 0] S64x128.size inb_S4864x128_S64x128_132_0).PackedRows (EltTy.packing .bf16)
  inb_S1024x512_S32x256_0_256 : ∀ a, (![0, 256] : Fin 2 → Nat) a + S32x256.size a ≤ S1024x512.size a
  inb_S4864x128_S64x128_204_0 : ∀ a, (![204, 0] : Fin 2 → Nat) a + S64x128.size a ≤ S4864x128.size a
  packedbf16_S4864x128_S64x128_204_0 : (Rect.unit (s := S4864x128) ![204, 0] S64x128.size inb_S4864x128_S64x128_204_0).PackedRows (EltTy.packing .bf16)
  inb_S1024x512_S32x256_32_0 : ∀ a, (![32, 0] : Fin 2 → Nat) a + S32x256.size a ≤ S1024x512.size a
  inb_S4864x128_S64x128_276_0 : ∀ a, (![276, 0] : Fin 2 → Nat) a + S64x128.size a ≤ S4864x128.size a
  packedbf16_S4864x128_S64x128_276_0 : (Rect.unit (s := S4864x128) ![276, 0] S64x128.size inb_S4864x128_S64x128_276_0).PackedRows (EltTy.packing .bf16)
  inb_S1024x512_S32x256_32_256 : ∀ a, (![32, 256] : Fin 2 → Nat) a + S32x256.size a ≤ S1024x512.size a
  inb_S4864x128_S64x128_348_0 : ∀ a, (![348, 0] : Fin 2 → Nat) a + S64x128.size a ≤ S4864x128.size a
  packedbf16_S4864x128_S64x128_348_0 : (Rect.unit (s := S4864x128) ![348, 0] S64x128.size inb_S4864x128_S64x128_348_0).PackedRows (EltTy.packing .bf16)
  inb_S1024x512_S32x256_64_0 : ∀ a, (![64, 0] : Fin 2 → Nat) a + S32x256.size a ≤ S1024x512.size a
  inb_S4864x128_S64x128_420_0 : ∀ a, (![420, 0] : Fin 2 → Nat) a + S64x128.size a ≤ S4864x128.size a
  packedbf16_S4864x128_S64x128_420_0 : (Rect.unit (s := S4864x128) ![420, 0] S64x128.size inb_S4864x128_S64x128_420_0).PackedRows (EltTy.packing .bf16)
  inb_S1024x512_S32x256_64_256 : ∀ a, (![64, 256] : Fin 2 → Nat) a + S32x256.size a ≤ S1024x512.size a
  inb_S4864x128_S64x128_492_0 : ∀ a, (![492, 0] : Fin 2 → Nat) a + S64x128.size a ≤ S4864x128.size a
  packedbf16_S4864x128_S64x128_492_0 : (Rect.unit (s := S4864x128) ![492, 0] S64x128.size inb_S4864x128_S64x128_492_0).PackedRows (EltTy.packing .bf16)
  inb_S1024x512_S32x256_96_0 : ∀ a, (![96, 0] : Fin 2 → Nat) a + S32x256.size a ≤ S1024x512.size a
  inb_S4864x128_S64x128_564_0 : ∀ a, (![564, 0] : Fin 2 → Nat) a + S64x128.size a ≤ S4864x128.size a
  packedbf16_S4864x128_S64x128_564_0 : (Rect.unit (s := S4864x128) ![564, 0] S64x128.size inb_S4864x128_S64x128_564_0).PackedRows (EltTy.packing .bf16)
  inb_S1024x512_S32x256_96_256 : ∀ a, (![96, 256] : Fin 2 → Nat) a + S32x256.size a ≤ S1024x512.size a
  inb_S4864x128_S64x128_636_0 : ∀ a, (![636, 0] : Fin 2 → Nat) a + S64x128.size a ≤ S4864x128.size a
  packedbf16_S4864x128_S64x128_636_0 : (Rect.unit (s := S4864x128) ![636, 0] S64x128.size inb_S4864x128_S64x128_636_0).PackedRows (EltTy.packing .bf16)
  inb_S1024x512_S32x256_128_0 : ∀ a, (![128, 0] : Fin 2 → Nat) a + S32x256.size a ≤ S1024x512.size a
  inb_S4864x128_S64x128_708_0 : ∀ a, (![708, 0] : Fin 2 → Nat) a + S64x128.size a ≤ S4864x128.size a
  packedbf16_S4864x128_S64x128_708_0 : (Rect.unit (s := S4864x128) ![708, 0] S64x128.size inb_S4864x128_S64x128_708_0).PackedRows (EltTy.packing .bf16)
  inb_S1024x512_S32x256_128_256 : ∀ a, (![128, 256] : Fin 2 → Nat) a + S32x256.size a ≤ S1024x512.size a
  inb_S4864x128_S64x128_780_0 : ∀ a, (![780, 0] : Fin 2 → Nat) a + S64x128.size a ≤ S4864x128.size a
  packedbf16_S4864x128_S64x128_780_0 : (Rect.unit (s := S4864x128) ![780, 0] S64x128.size inb_S4864x128_S64x128_780_0).PackedRows (EltTy.packing .bf16)
  inb_S1024x512_S32x256_160_0 : ∀ a, (![160, 0] : Fin 2 → Nat) a + S32x256.size a ≤ S1024x512.size a
  inb_S4864x128_S64x128_852_0 : ∀ a, (![852, 0] : Fin 2 → Nat) a + S64x128.size a ≤ S4864x128.size a
  packedbf16_S4864x128_S64x128_852_0 : (Rect.unit (s := S4864x128) ![852, 0] S64x128.size inb_S4864x128_S64x128_852_0).PackedRows (EltTy.packing .bf16)
  inb_S1024x512_S32x256_160_256 : ∀ a, (![160, 256] : Fin 2 → Nat) a + S32x256.size a ≤ S1024x512.size a
  inb_S4864x128_S64x128_924_0 : ∀ a, (![924, 0] : Fin 2 → Nat) a + S64x128.size a ≤ S4864x128.size a
  packedbf16_S4864x128_S64x128_924_0 : (Rect.unit (s := S4864x128) ![924, 0] S64x128.size inb_S4864x128_S64x128_924_0).PackedRows (EltTy.packing .bf16)
  inb_S1024x512_S32x256_192_0 : ∀ a, (![192, 0] : Fin 2 → Nat) a + S32x256.size a ≤ S1024x512.size a
  inb_S4864x128_S64x128_996_0 : ∀ a, (![996, 0] : Fin 2 → Nat) a + S64x128.size a ≤ S4864x128.size a
  packedbf16_S4864x128_S64x128_996_0 : (Rect.unit (s := S4864x128) ![996, 0] S64x128.size inb_S4864x128_S64x128_996_0).PackedRows (EltTy.packing .bf16)
  inb_S1024x512_S32x256_192_256 : ∀ a, (![192, 256] : Fin 2 → Nat) a + S32x256.size a ≤ S1024x512.size a
  inb_S4864x128_S64x128_1068_0 : ∀ a, (![1068, 0] : Fin 2 → Nat) a + S64x128.size a ≤ S4864x128.size a
  packedbf16_S4864x128_S64x128_1068_0 : (Rect.unit (s := S4864x128) ![1068, 0] S64x128.size inb_S4864x128_S64x128_1068_0).PackedRows (EltTy.packing .bf16)
  inb_S1024x512_S32x256_224_0 : ∀ a, (![224, 0] : Fin 2 → Nat) a + S32x256.size a ≤ S1024x512.size a
  inb_S4864x128_S64x128_1140_0 : ∀ a, (![1140, 0] : Fin 2 → Nat) a + S64x128.size a ≤ S4864x128.size a
  packedbf16_S4864x128_S64x128_1140_0 : (Rect.unit (s := S4864x128) ![1140, 0] S64x128.size inb_S4864x128_S64x128_1140_0).PackedRows (EltTy.packing .bf16)
  inb_S1024x512_S32x256_224_256 : ∀ a, (![224, 256] : Fin 2 → Nat) a + S32x256.size a ≤ S1024x512.size a
  inb_S4864x128_S64x128_1212_0 : ∀ a, (![1212, 0] : Fin 2 → Nat) a + S64x128.size a ≤ S4864x128.size a
  packedbf16_S4864x128_S64x128_1212_0 : (Rect.unit (s := S4864x128) ![1212, 0] S64x128.size inb_S4864x128_S64x128_1212_0).PackedRows (EltTy.packing .bf16)
  inb_S1024x512_S32x256_256_0 : ∀ a, (![256, 0] : Fin 2 → Nat) a + S32x256.size a ≤ S1024x512.size a
  inb_S4864x128_S64x128_1284_0 : ∀ a, (![1284, 0] : Fin 2 → Nat) a + S64x128.size a ≤ S4864x128.size a
  packedbf16_S4864x128_S64x128_1284_0 : (Rect.unit (s := S4864x128) ![1284, 0] S64x128.size inb_S4864x128_S64x128_1284_0).PackedRows (EltTy.packing .bf16)
  inb_S1024x512_S32x256_256_256 : ∀ a, (![256, 256] : Fin 2 → Nat) a + S32x256.size a ≤ S1024x512.size a
  inb_S4864x128_S64x128_1356_0 : ∀ a, (![1356, 0] : Fin 2 → Nat) a + S64x128.size a ≤ S4864x128.size a
  packedbf16_S4864x128_S64x128_1356_0 : (Rect.unit (s := S4864x128) ![1356, 0] S64x128.size inb_S4864x128_S64x128_1356_0).PackedRows (EltTy.packing .bf16)
  inb_S1024x512_S32x256_288_0 : ∀ a, (![288, 0] : Fin 2 → Nat) a + S32x256.size a ≤ S1024x512.size a
  inb_S4864x128_S64x128_1428_0 : ∀ a, (![1428, 0] : Fin 2 → Nat) a + S64x128.size a ≤ S4864x128.size a
  packedbf16_S4864x128_S64x128_1428_0 : (Rect.unit (s := S4864x128) ![1428, 0] S64x128.size inb_S4864x128_S64x128_1428_0).PackedRows (EltTy.packing .bf16)
  inb_S1024x512_S32x256_288_256 : ∀ a, (![288, 256] : Fin 2 → Nat) a + S32x256.size a ≤ S1024x512.size a
  inb_S4864x128_S64x128_1500_0 : ∀ a, (![1500, 0] : Fin 2 → Nat) a + S64x128.size a ≤ S4864x128.size a
  packedbf16_S4864x128_S64x128_1500_0 : (Rect.unit (s := S4864x128) ![1500, 0] S64x128.size inb_S4864x128_S64x128_1500_0).PackedRows (EltTy.packing .bf16)
  inb_S1024x512_S32x256_320_0 : ∀ a, (![320, 0] : Fin 2 → Nat) a + S32x256.size a ≤ S1024x512.size a
  inb_S4864x128_S64x128_1572_0 : ∀ a, (![1572, 0] : Fin 2 → Nat) a + S64x128.size a ≤ S4864x128.size a
  packedbf16_S4864x128_S64x128_1572_0 : (Rect.unit (s := S4864x128) ![1572, 0] S64x128.size inb_S4864x128_S64x128_1572_0).PackedRows (EltTy.packing .bf16)
  inb_S1024x512_S32x256_320_256 : ∀ a, (![320, 256] : Fin 2 → Nat) a + S32x256.size a ≤ S1024x512.size a
  inb_S4864x128_S64x128_1644_0 : ∀ a, (![1644, 0] : Fin 2 → Nat) a + S64x128.size a ≤ S4864x128.size a
  packedbf16_S4864x128_S64x128_1644_0 : (Rect.unit (s := S4864x128) ![1644, 0] S64x128.size inb_S4864x128_S64x128_1644_0).PackedRows (EltTy.packing .bf16)
  inb_S1024x512_S32x256_352_0 : ∀ a, (![352, 0] : Fin 2 → Nat) a + S32x256.size a ≤ S1024x512.size a
  inb_S4864x128_S64x128_1716_0 : ∀ a, (![1716, 0] : Fin 2 → Nat) a + S64x128.size a ≤ S4864x128.size a
  packedbf16_S4864x128_S64x128_1716_0 : (Rect.unit (s := S4864x128) ![1716, 0] S64x128.size inb_S4864x128_S64x128_1716_0).PackedRows (EltTy.packing .bf16)
  inb_S1024x512_S32x256_352_256 : ∀ a, (![352, 256] : Fin 2 → Nat) a + S32x256.size a ≤ S1024x512.size a
  inb_S4864x128_S64x128_1788_0 : ∀ a, (![1788, 0] : Fin 2 → Nat) a + S64x128.size a ≤ S4864x128.size a
  packedbf16_S4864x128_S64x128_1788_0 : (Rect.unit (s := S4864x128) ![1788, 0] S64x128.size inb_S4864x128_S64x128_1788_0).PackedRows (EltTy.packing .bf16)
  inb_S1024x512_S32x256_384_0 : ∀ a, (![384, 0] : Fin 2 → Nat) a + S32x256.size a ≤ S1024x512.size a
  inb_S4864x128_S64x128_1860_0 : ∀ a, (![1860, 0] : Fin 2 → Nat) a + S64x128.size a ≤ S4864x128.size a
  packedbf16_S4864x128_S64x128_1860_0 : (Rect.unit (s := S4864x128) ![1860, 0] S64x128.size inb_S4864x128_S64x128_1860_0).PackedRows (EltTy.packing .bf16)
  inb_S1024x512_S32x256_384_256 : ∀ a, (![384, 256] : Fin 2 → Nat) a + S32x256.size a ≤ S1024x512.size a
  inb_S4864x128_S64x128_1932_0 : ∀ a, (![1932, 0] : Fin 2 → Nat) a + S64x128.size a ≤ S4864x128.size a
  packedbf16_S4864x128_S64x128_1932_0 : (Rect.unit (s := S4864x128) ![1932, 0] S64x128.size inb_S4864x128_S64x128_1932_0).PackedRows (EltTy.packing .bf16)
  inb_S1024x512_S32x256_416_0 : ∀ a, (![416, 0] : Fin 2 → Nat) a + S32x256.size a ≤ S1024x512.size a
  inb_S4864x128_S64x128_2004_0 : ∀ a, (![2004, 0] : Fin 2 → Nat) a + S64x128.size a ≤ S4864x128.size a
  packedbf16_S4864x128_S64x128_2004_0 : (Rect.unit (s := S4864x128) ![2004, 0] S64x128.size inb_S4864x128_S64x128_2004_0).PackedRows (EltTy.packing .bf16)
  inb_S1024x512_S32x256_416_256 : ∀ a, (![416, 256] : Fin 2 → Nat) a + S32x256.size a ≤ S1024x512.size a
  inb_S4864x128_S64x128_2076_0 : ∀ a, (![2076, 0] : Fin 2 → Nat) a + S64x128.size a ≤ S4864x128.size a
  packedbf16_S4864x128_S64x128_2076_0 : (Rect.unit (s := S4864x128) ![2076, 0] S64x128.size inb_S4864x128_S64x128_2076_0).PackedRows (EltTy.packing .bf16)
  inb_S1024x512_S32x256_448_0 : ∀ a, (![448, 0] : Fin 2 → Nat) a + S32x256.size a ≤ S1024x512.size a
  inb_S4864x128_S64x128_2148_0 : ∀ a, (![2148, 0] : Fin 2 → Nat) a + S64x128.size a ≤ S4864x128.size a
  packedbf16_S4864x128_S64x128_2148_0 : (Rect.unit (s := S4864x128) ![2148, 0] S64x128.size inb_S4864x128_S64x128_2148_0).PackedRows (EltTy.packing .bf16)
  inb_S1024x512_S32x256_448_256 : ∀ a, (![448, 256] : Fin 2 → Nat) a + S32x256.size a ≤ S1024x512.size a
  inb_S4864x128_S64x128_2220_0 : ∀ a, (![2220, 0] : Fin 2 → Nat) a + S64x128.size a ≤ S4864x128.size a
  packedbf16_S4864x128_S64x128_2220_0 : (Rect.unit (s := S4864x128) ![2220, 0] S64x128.size inb_S4864x128_S64x128_2220_0).PackedRows (EltTy.packing .bf16)
  inb_S1024x512_S32x256_480_0 : ∀ a, (![480, 0] : Fin 2 → Nat) a + S32x256.size a ≤ S1024x512.size a
  inb_S4864x128_S64x128_2292_0 : ∀ a, (![2292, 0] : Fin 2 → Nat) a + S64x128.size a ≤ S4864x128.size a
  packedbf16_S4864x128_S64x128_2292_0 : (Rect.unit (s := S4864x128) ![2292, 0] S64x128.size inb_S4864x128_S64x128_2292_0).PackedRows (EltTy.packing .bf16)
  inb_S1024x512_S32x256_480_256 : ∀ a, (![480, 256] : Fin 2 → Nat) a + S32x256.size a ≤ S1024x512.size a
  inb_S4864x128_S64x128_2364_0 : ∀ a, (![2364, 0] : Fin 2 → Nat) a + S64x128.size a ≤ S4864x128.size a
  packedbf16_S4864x128_S64x128_2364_0 : (Rect.unit (s := S4864x128) ![2364, 0] S64x128.size inb_S4864x128_S64x128_2364_0).PackedRows (EltTy.packing .bf16)
  inb_S1024x512_S32x256_512_0 : ∀ a, (![512, 0] : Fin 2 → Nat) a + S32x256.size a ≤ S1024x512.size a
  inb_S4864x128_S64x128_2436_0 : ∀ a, (![2436, 0] : Fin 2 → Nat) a + S64x128.size a ≤ S4864x128.size a
  packedbf16_S4864x128_S64x128_2436_0 : (Rect.unit (s := S4864x128) ![2436, 0] S64x128.size inb_S4864x128_S64x128_2436_0).PackedRows (EltTy.packing .bf16)
  inb_S1024x512_S32x256_512_256 : ∀ a, (![512, 256] : Fin 2 → Nat) a + S32x256.size a ≤ S1024x512.size a
  inb_S4864x128_S64x128_2508_0 : ∀ a, (![2508, 0] : Fin 2 → Nat) a + S64x128.size a ≤ S4864x128.size a
  packedbf16_S4864x128_S64x128_2508_0 : (Rect.unit (s := S4864x128) ![2508, 0] S64x128.size inb_S4864x128_S64x128_2508_0).PackedRows (EltTy.packing .bf16)
  inb_S1024x512_S32x256_544_0 : ∀ a, (![544, 0] : Fin 2 → Nat) a + S32x256.size a ≤ S1024x512.size a
  inb_S4864x128_S64x128_2580_0 : ∀ a, (![2580, 0] : Fin 2 → Nat) a + S64x128.size a ≤ S4864x128.size a
  packedbf16_S4864x128_S64x128_2580_0 : (Rect.unit (s := S4864x128) ![2580, 0] S64x128.size inb_S4864x128_S64x128_2580_0).PackedRows (EltTy.packing .bf16)
  inb_S1024x512_S32x256_544_256 : ∀ a, (![544, 256] : Fin 2 → Nat) a + S32x256.size a ≤ S1024x512.size a
  inb_S4864x128_S64x128_2652_0 : ∀ a, (![2652, 0] : Fin 2 → Nat) a + S64x128.size a ≤ S4864x128.size a
  packedbf16_S4864x128_S64x128_2652_0 : (Rect.unit (s := S4864x128) ![2652, 0] S64x128.size inb_S4864x128_S64x128_2652_0).PackedRows (EltTy.packing .bf16)
  inb_S1024x512_S32x256_576_0 : ∀ a, (![576, 0] : Fin 2 → Nat) a + S32x256.size a ≤ S1024x512.size a
  inb_S4864x128_S64x128_2724_0 : ∀ a, (![2724, 0] : Fin 2 → Nat) a + S64x128.size a ≤ S4864x128.size a
  packedbf16_S4864x128_S64x128_2724_0 : (Rect.unit (s := S4864x128) ![2724, 0] S64x128.size inb_S4864x128_S64x128_2724_0).PackedRows (EltTy.packing .bf16)
  inb_S1024x512_S32x256_576_256 : ∀ a, (![576, 256] : Fin 2 → Nat) a + S32x256.size a ≤ S1024x512.size a
  inb_S4864x128_S64x128_2796_0 : ∀ a, (![2796, 0] : Fin 2 → Nat) a + S64x128.size a ≤ S4864x128.size a
  packedbf16_S4864x128_S64x128_2796_0 : (Rect.unit (s := S4864x128) ![2796, 0] S64x128.size inb_S4864x128_S64x128_2796_0).PackedRows (EltTy.packing .bf16)
  inb_S1024x512_S32x256_608_0 : ∀ a, (![608, 0] : Fin 2 → Nat) a + S32x256.size a ≤ S1024x512.size a
  inb_S4864x128_S64x128_2868_0 : ∀ a, (![2868, 0] : Fin 2 → Nat) a + S64x128.size a ≤ S4864x128.size a
  packedbf16_S4864x128_S64x128_2868_0 : (Rect.unit (s := S4864x128) ![2868, 0] S64x128.size inb_S4864x128_S64x128_2868_0).PackedRows (EltTy.packing .bf16)
  inb_S1024x512_S32x256_608_256 : ∀ a, (![608, 256] : Fin 2 → Nat) a + S32x256.size a ≤ S1024x512.size a
  inb_S4864x128_S64x128_2940_0 : ∀ a, (![2940, 0] : Fin 2 → Nat) a + S64x128.size a ≤ S4864x128.size a
  packedbf16_S4864x128_S64x128_2940_0 : (Rect.unit (s := S4864x128) ![2940, 0] S64x128.size inb_S4864x128_S64x128_2940_0).PackedRows (EltTy.packing .bf16)
  inb_S1024x512_S32x256_640_0 : ∀ a, (![640, 0] : Fin 2 → Nat) a + S32x256.size a ≤ S1024x512.size a
  inb_S4864x128_S64x128_3012_0 : ∀ a, (![3012, 0] : Fin 2 → Nat) a + S64x128.size a ≤ S4864x128.size a
  packedbf16_S4864x128_S64x128_3012_0 : (Rect.unit (s := S4864x128) ![3012, 0] S64x128.size inb_S4864x128_S64x128_3012_0).PackedRows (EltTy.packing .bf16)
  inb_S1024x512_S32x256_640_256 : ∀ a, (![640, 256] : Fin 2 → Nat) a + S32x256.size a ≤ S1024x512.size a
  inb_S4864x128_S64x128_3084_0 : ∀ a, (![3084, 0] : Fin 2 → Nat) a + S64x128.size a ≤ S4864x128.size a
  packedbf16_S4864x128_S64x128_3084_0 : (Rect.unit (s := S4864x128) ![3084, 0] S64x128.size inb_S4864x128_S64x128_3084_0).PackedRows (EltTy.packing .bf16)
  inb_S1024x512_S32x256_672_0 : ∀ a, (![672, 0] : Fin 2 → Nat) a + S32x256.size a ≤ S1024x512.size a
  inb_S4864x128_S64x128_3156_0 : ∀ a, (![3156, 0] : Fin 2 → Nat) a + S64x128.size a ≤ S4864x128.size a
  packedbf16_S4864x128_S64x128_3156_0 : (Rect.unit (s := S4864x128) ![3156, 0] S64x128.size inb_S4864x128_S64x128_3156_0).PackedRows (EltTy.packing .bf16)
  inb_S1024x512_S32x256_672_256 : ∀ a, (![672, 256] : Fin 2 → Nat) a + S32x256.size a ≤ S1024x512.size a
  inb_S4864x128_S64x128_3228_0 : ∀ a, (![3228, 0] : Fin 2 → Nat) a + S64x128.size a ≤ S4864x128.size a
  packedbf16_S4864x128_S64x128_3228_0 : (Rect.unit (s := S4864x128) ![3228, 0] S64x128.size inb_S4864x128_S64x128_3228_0).PackedRows (EltTy.packing .bf16)
  inb_S1024x512_S32x256_704_0 : ∀ a, (![704, 0] : Fin 2 → Nat) a + S32x256.size a ≤ S1024x512.size a
  inb_S4864x128_S64x128_3300_0 : ∀ a, (![3300, 0] : Fin 2 → Nat) a + S64x128.size a ≤ S4864x128.size a
  packedbf16_S4864x128_S64x128_3300_0 : (Rect.unit (s := S4864x128) ![3300, 0] S64x128.size inb_S4864x128_S64x128_3300_0).PackedRows (EltTy.packing .bf16)
  inb_S1024x512_S32x256_704_256 : ∀ a, (![704, 256] : Fin 2 → Nat) a + S32x256.size a ≤ S1024x512.size a
  inb_S4864x128_S64x128_3372_0 : ∀ a, (![3372, 0] : Fin 2 → Nat) a + S64x128.size a ≤ S4864x128.size a
  packedbf16_S4864x128_S64x128_3372_0 : (Rect.unit (s := S4864x128) ![3372, 0] S64x128.size inb_S4864x128_S64x128_3372_0).PackedRows (EltTy.packing .bf16)
  inb_S1024x512_S32x256_736_0 : ∀ a, (![736, 0] : Fin 2 → Nat) a + S32x256.size a ≤ S1024x512.size a
  inb_S4864x128_S64x128_3444_0 : ∀ a, (![3444, 0] : Fin 2 → Nat) a + S64x128.size a ≤ S4864x128.size a
  packedbf16_S4864x128_S64x128_3444_0 : (Rect.unit (s := S4864x128) ![3444, 0] S64x128.size inb_S4864x128_S64x128_3444_0).PackedRows (EltTy.packing .bf16)
  inb_S1024x512_S32x256_736_256 : ∀ a, (![736, 256] : Fin 2 → Nat) a + S32x256.size a ≤ S1024x512.size a
  inb_S4864x128_S64x128_3516_0 : ∀ a, (![3516, 0] : Fin 2 → Nat) a + S64x128.size a ≤ S4864x128.size a
  packedbf16_S4864x128_S64x128_3516_0 : (Rect.unit (s := S4864x128) ![3516, 0] S64x128.size inb_S4864x128_S64x128_3516_0).PackedRows (EltTy.packing .bf16)
  inb_S1024x512_S32x256_768_0 : ∀ a, (![768, 0] : Fin 2 → Nat) a + S32x256.size a ≤ S1024x512.size a
  inb_S4864x128_S64x128_3588_0 : ∀ a, (![3588, 0] : Fin 2 → Nat) a + S64x128.size a ≤ S4864x128.size a
  packedbf16_S4864x128_S64x128_3588_0 : (Rect.unit (s := S4864x128) ![3588, 0] S64x128.size inb_S4864x128_S64x128_3588_0).PackedRows (EltTy.packing .bf16)
  inb_S1024x512_S32x256_768_256 : ∀ a, (![768, 256] : Fin 2 → Nat) a + S32x256.size a ≤ S1024x512.size a
  inb_S4864x128_S64x128_3660_0 : ∀ a, (![3660, 0] : Fin 2 → Nat) a + S64x128.size a ≤ S4864x128.size a
  packedbf16_S4864x128_S64x128_3660_0 : (Rect.unit (s := S4864x128) ![3660, 0] S64x128.size inb_S4864x128_S64x128_3660_0).PackedRows (EltTy.packing .bf16)
  inb_S1024x512_S32x256_800_0 : ∀ a, (![800, 0] : Fin 2 → Nat) a + S32x256.size a ≤ S1024x512.size a
  inb_S4864x128_S64x128_3732_0 : ∀ a, (![3732, 0] : Fin 2 → Nat) a + S64x128.size a ≤ S4864x128.size a
  packedbf16_S4864x128_S64x128_3732_0 : (Rect.unit (s := S4864x128) ![3732, 0] S64x128.size inb_S4864x128_S64x128_3732_0).PackedRows (EltTy.packing .bf16)
  inb_S1024x512_S32x256_800_256 : ∀ a, (![800, 256] : Fin 2 → Nat) a + S32x256.size a ≤ S1024x512.size a
  inb_S4864x128_S64x128_3804_0 : ∀ a, (![3804, 0] : Fin 2 → Nat) a + S64x128.size a ≤ S4864x128.size a
  packedbf16_S4864x128_S64x128_3804_0 : (Rect.unit (s := S4864x128) ![3804, 0] S64x128.size inb_S4864x128_S64x128_3804_0).PackedRows (EltTy.packing .bf16)
  inb_S1024x512_S32x256_832_0 : ∀ a, (![832, 0] : Fin 2 → Nat) a + S32x256.size a ≤ S1024x512.size a
  inb_S4864x128_S64x128_3876_0 : ∀ a, (![3876, 0] : Fin 2 → Nat) a + S64x128.size a ≤ S4864x128.size a
  packedbf16_S4864x128_S64x128_3876_0 : (Rect.unit (s := S4864x128) ![3876, 0] S64x128.size inb_S4864x128_S64x128_3876_0).PackedRows (EltTy.packing .bf16)
  inb_S1024x512_S32x256_832_256 : ∀ a, (![832, 256] : Fin 2 → Nat) a + S32x256.size a ≤ S1024x512.size a
  inb_S4864x128_S64x128_3948_0 : ∀ a, (![3948, 0] : Fin 2 → Nat) a + S64x128.size a ≤ S4864x128.size a
  packedbf16_S4864x128_S64x128_3948_0 : (Rect.unit (s := S4864x128) ![3948, 0] S64x128.size inb_S4864x128_S64x128_3948_0).PackedRows (EltTy.packing .bf16)
  inb_S1024x512_S32x256_864_0 : ∀ a, (![864, 0] : Fin 2 → Nat) a + S32x256.size a ≤ S1024x512.size a
  inb_S4864x128_S64x128_4020_0 : ∀ a, (![4020, 0] : Fin 2 → Nat) a + S64x128.size a ≤ S4864x128.size a
  packedbf16_S4864x128_S64x128_4020_0 : (Rect.unit (s := S4864x128) ![4020, 0] S64x128.size inb_S4864x128_S64x128_4020_0).PackedRows (EltTy.packing .bf16)
  inb_S1024x512_S32x256_864_256 : ∀ a, (![864, 256] : Fin 2 → Nat) a + S32x256.size a ≤ S1024x512.size a
  inb_S4864x128_S64x128_4092_0 : ∀ a, (![4092, 0] : Fin 2 → Nat) a + S64x128.size a ≤ S4864x128.size a
  packedbf16_S4864x128_S64x128_4092_0 : (Rect.unit (s := S4864x128) ![4092, 0] S64x128.size inb_S4864x128_S64x128_4092_0).PackedRows (EltTy.packing .bf16)
  inb_S1024x512_S32x256_896_0 : ∀ a, (![896, 0] : Fin 2 → Nat) a + S32x256.size a ≤ S1024x512.size a
  inb_S4864x128_S64x128_4164_0 : ∀ a, (![4164, 0] : Fin 2 → Nat) a + S64x128.size a ≤ S4864x128.size a
  packedbf16_S4864x128_S64x128_4164_0 : (Rect.unit (s := S4864x128) ![4164, 0] S64x128.size inb_S4864x128_S64x128_4164_0).PackedRows (EltTy.packing .bf16)
  inb_S1024x512_S32x256_896_256 : ∀ a, (![896, 256] : Fin 2 → Nat) a + S32x256.size a ≤ S1024x512.size a
  inb_S4864x128_S64x128_4236_0 : ∀ a, (![4236, 0] : Fin 2 → Nat) a + S64x128.size a ≤ S4864x128.size a
  packedbf16_S4864x128_S64x128_4236_0 : (Rect.unit (s := S4864x128) ![4236, 0] S64x128.size inb_S4864x128_S64x128_4236_0).PackedRows (EltTy.packing .bf16)
  inb_S1024x512_S32x256_928_0 : ∀ a, (![928, 0] : Fin 2 → Nat) a + S32x256.size a ≤ S1024x512.size a
  inb_S4864x128_S64x128_4308_0 : ∀ a, (![4308, 0] : Fin 2 → Nat) a + S64x128.size a ≤ S4864x128.size a
  packedbf16_S4864x128_S64x128_4308_0 : (Rect.unit (s := S4864x128) ![4308, 0] S64x128.size inb_S4864x128_S64x128_4308_0).PackedRows (EltTy.packing .bf16)
  inb_S1024x512_S32x256_928_256 : ∀ a, (![928, 256] : Fin 2 → Nat) a + S32x256.size a ≤ S1024x512.size a
  inb_S4864x128_S64x128_4380_0 : ∀ a, (![4380, 0] : Fin 2 → Nat) a + S64x128.size a ≤ S4864x128.size a
  packedbf16_S4864x128_S64x128_4380_0 : (Rect.unit (s := S4864x128) ![4380, 0] S64x128.size inb_S4864x128_S64x128_4380_0).PackedRows (EltTy.packing .bf16)
  inb_S1024x512_S32x256_960_0 : ∀ a, (![960, 0] : Fin 2 → Nat) a + S32x256.size a ≤ S1024x512.size a
  inb_S4864x128_S64x128_4452_0 : ∀ a, (![4452, 0] : Fin 2 → Nat) a + S64x128.size a ≤ S4864x128.size a
  packedbf16_S4864x128_S64x128_4452_0 : (Rect.unit (s := S4864x128) ![4452, 0] S64x128.size inb_S4864x128_S64x128_4452_0).PackedRows (EltTy.packing .bf16)
  inb_S1024x512_S32x256_960_256 : ∀ a, (![960, 256] : Fin 2 → Nat) a + S32x256.size a ≤ S1024x512.size a
  inb_S4864x128_S64x128_4524_0 : ∀ a, (![4524, 0] : Fin 2 → Nat) a + S64x128.size a ≤ S4864x128.size a
  packedbf16_S4864x128_S64x128_4524_0 : (Rect.unit (s := S4864x128) ![4524, 0] S64x128.size inb_S4864x128_S64x128_4524_0).PackedRows (EltTy.packing .bf16)
  inb_S1024x512_S32x256_992_0 : ∀ a, (![992, 0] : Fin 2 → Nat) a + S32x256.size a ≤ S1024x512.size a
  inb_S4864x128_S64x128_4596_0 : ∀ a, (![4596, 0] : Fin 2 → Nat) a + S64x128.size a ≤ S4864x128.size a
  packedbf16_S4864x128_S64x128_4596_0 : (Rect.unit (s := S4864x128) ![4596, 0] S64x128.size inb_S4864x128_S64x128_4596_0).PackedRows (EltTy.packing .bf16)
  inb_S1024x512_S32x256_992_256 : ∀ a, (![992, 256] : Fin 2 → Nat) a + S32x256.size a ≤ S1024x512.size a
  inb_S4864x128_S64x128_4668_0 : ∀ a, (![4668, 0] : Fin 2 → Nat) a + S64x128.size a ≤ S4864x128.size a
  packedbf16_S4864x128_S64x128_4668_0 : (Rect.unit (s := S4864x128) ![4668, 0] S64x128.size inb_S4864x128_S64x128_4668_0).PackedRows (EltTy.packing .bf16)
  inb_S2952x256_S128x128_2818_0 : ∀ a, (![2818, 0] : Fin 2 → Nat) a + S128x128.size a ≤ S2952x256.size a
  h_S128x128 : 0 < S128x128.numel
  shapeCasts_S128x128_S128x128 : S128x128.ShapeCasts S128x128
  inb_S256x4864_S128x4864_0_0 : ∀ a, (![0, 0] : Fin 2 → Nat) a + S128x4864.size a ≤ S256x4864.size a
  h_S128x4864 : 0 < S128x4864.numel
  shapeCasts_S128x4864_S128x4864 : S128x4864.ShapeCasts S128x4864
  packedbf16_S256x4864_S128x4864_0_0 : (Rect.unit (s := S256x4864) ![0, 0] S128x4864.size inb_S256x4864_S128x4864_0_0).PackedRows (EltTy.packing .bf16)
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  slices_S128x4096_o0_0_S128x64 : S128x4096.Slices ![0, 0] S128x64
  inb_S256x4864_S128x64_0_132 : ∀ a, (![0, 132] : Fin 2 → Nat) a + S128x64.size a ≤ S256x4864.size a
  h_S128x64 : 0 < S128x64.numel
  shapeCasts_S128x64_S128x64 : S128x64.ShapeCasts S128x64
  packedbf16_S256x4864_S128x64_0_132 : (Rect.unit (s := S256x4864) ![0, 132] S128x64.size inb_S256x4864_S128x64_0_132).PackedRows (EltTy.packing .bf16)
  slices_S128x4096_o0_64_S128x64 : S128x4096.Slices ![0, 64] S128x64
  inb_S256x4864_S128x64_0_204 : ∀ a, (![0, 204] : Fin 2 → Nat) a + S128x64.size a ≤ S256x4864.size a
  packedbf16_S256x4864_S128x64_0_204 : (Rect.unit (s := S256x4864) ![0, 204] S128x64.size inb_S256x4864_S128x64_0_204).PackedRows (EltTy.packing .bf16)
  slices_S128x4096_o0_128_S128x64 : S128x4096.Slices ![0, 128] S128x64
  inb_S256x4864_S128x64_0_276 : ∀ a, (![0, 276] : Fin 2 → Nat) a + S128x64.size a ≤ S256x4864.size a
  packedbf16_S256x4864_S128x64_0_276 : (Rect.unit (s := S256x4864) ![0, 276] S128x64.size inb_S256x4864_S128x64_0_276).PackedRows (EltTy.packing .bf16)
  slices_S128x4096_o0_192_S128x64 : S128x4096.Slices ![0, 192] S128x64
  inb_S256x4864_S128x64_0_348 : ∀ a, (![0, 348] : Fin 2 → Nat) a + S128x64.size a ≤ S256x4864.size a
  packedbf16_S256x4864_S128x64_0_348 : (Rect.unit (s := S256x4864) ![0, 348] S128x64.size inb_S256x4864_S128x64_0_348).PackedRows (EltTy.packing .bf16)
  slices_S128x4096_o0_256_S128x64 : S128x4096.Slices ![0, 256] S128x64
  inb_S256x4864_S128x64_0_420 : ∀ a, (![0, 420] : Fin 2 → Nat) a + S128x64.size a ≤ S256x4864.size a
  packedbf16_S256x4864_S128x64_0_420 : (Rect.unit (s := S256x4864) ![0, 420] S128x64.size inb_S256x4864_S128x64_0_420).PackedRows (EltTy.packing .bf16)
  slices_S128x4096_o0_320_S128x64 : S128x4096.Slices ![0, 320] S128x64
  inb_S256x4864_S128x64_0_492 : ∀ a, (![0, 492] : Fin 2 → Nat) a + S128x64.size a ≤ S256x4864.size a
  packedbf16_S256x4864_S128x64_0_492 : (Rect.unit (s := S256x4864) ![0, 492] S128x64.size inb_S256x4864_S128x64_0_492).PackedRows (EltTy.packing .bf16)
  slices_S128x4096_o0_384_S128x64 : S128x4096.Slices ![0, 384] S128x64
  inb_S256x4864_S128x64_0_564 : ∀ a, (![0, 564] : Fin 2 → Nat) a + S128x64.size a ≤ S256x4864.size a
  packedbf16_S256x4864_S128x64_0_564 : (Rect.unit (s := S256x4864) ![0, 564] S128x64.size inb_S256x4864_S128x64_0_564).PackedRows (EltTy.packing .bf16)
  slices_S128x4096_o0_448_S128x64 : S128x4096.Slices ![0, 448] S128x64
  inb_S256x4864_S128x64_0_636 : ∀ a, (![0, 636] : Fin 2 → Nat) a + S128x64.size a ≤ S256x4864.size a
  packedbf16_S256x4864_S128x64_0_636 : (Rect.unit (s := S256x4864) ![0, 636] S128x64.size inb_S256x4864_S128x64_0_636).PackedRows (EltTy.packing .bf16)
  slices_S128x4096_o0_512_S128x64 : S128x4096.Slices ![0, 512] S128x64
  inb_S256x4864_S128x64_0_708 : ∀ a, (![0, 708] : Fin 2 → Nat) a + S128x64.size a ≤ S256x4864.size a
  packedbf16_S256x4864_S128x64_0_708 : (Rect.unit (s := S256x4864) ![0, 708] S128x64.size inb_S256x4864_S128x64_0_708).PackedRows (EltTy.packing .bf16)
  slices_S128x4096_o0_576_S128x64 : S128x4096.Slices ![0, 576] S128x64
  inb_S256x4864_S128x64_0_780 : ∀ a, (![0, 780] : Fin 2 → Nat) a + S128x64.size a ≤ S256x4864.size a
  packedbf16_S256x4864_S128x64_0_780 : (Rect.unit (s := S256x4864) ![0, 780] S128x64.size inb_S256x4864_S128x64_0_780).PackedRows (EltTy.packing .bf16)
  slices_S128x4096_o0_640_S128x64 : S128x4096.Slices ![0, 640] S128x64
  inb_S256x4864_S128x64_0_852 : ∀ a, (![0, 852] : Fin 2 → Nat) a + S128x64.size a ≤ S256x4864.size a
  packedbf16_S256x4864_S128x64_0_852 : (Rect.unit (s := S256x4864) ![0, 852] S128x64.size inb_S256x4864_S128x64_0_852).PackedRows (EltTy.packing .bf16)
  slices_S128x4096_o0_704_S128x64 : S128x4096.Slices ![0, 704] S128x64
  inb_S256x4864_S128x64_0_924 : ∀ a, (![0, 924] : Fin 2 → Nat) a + S128x64.size a ≤ S256x4864.size a
  packedbf16_S256x4864_S128x64_0_924 : (Rect.unit (s := S256x4864) ![0, 924] S128x64.size inb_S256x4864_S128x64_0_924).PackedRows (EltTy.packing .bf16)
  slices_S128x4096_o0_768_S128x64 : S128x4096.Slices ![0, 768] S128x64
  inb_S256x4864_S128x64_0_996 : ∀ a, (![0, 996] : Fin 2 → Nat) a + S128x64.size a ≤ S256x4864.size a
  packedbf16_S256x4864_S128x64_0_996 : (Rect.unit (s := S256x4864) ![0, 996] S128x64.size inb_S256x4864_S128x64_0_996).PackedRows (EltTy.packing .bf16)
  slices_S128x4096_o0_832_S128x64 : S128x4096.Slices ![0, 832] S128x64
  inb_S256x4864_S128x64_0_1068 : ∀ a, (![0, 1068] : Fin 2 → Nat) a + S128x64.size a ≤ S256x4864.size a
  packedbf16_S256x4864_S128x64_0_1068 : (Rect.unit (s := S256x4864) ![0, 1068] S128x64.size inb_S256x4864_S128x64_0_1068).PackedRows (EltTy.packing .bf16)
  slices_S128x4096_o0_896_S128x64 : S128x4096.Slices ![0, 896] S128x64
  inb_S256x4864_S128x64_0_1140 : ∀ a, (![0, 1140] : Fin 2 → Nat) a + S128x64.size a ≤ S256x4864.size a
  packedbf16_S256x4864_S128x64_0_1140 : (Rect.unit (s := S256x4864) ![0, 1140] S128x64.size inb_S256x4864_S128x64_0_1140).PackedRows (EltTy.packing .bf16)
  slices_S128x4096_o0_960_S128x64 : S128x4096.Slices ![0, 960] S128x64
  inb_S256x4864_S128x64_0_1212 : ∀ a, (![0, 1212] : Fin 2 → Nat) a + S128x64.size a ≤ S256x4864.size a
  packedbf16_S256x4864_S128x64_0_1212 : (Rect.unit (s := S256x4864) ![0, 1212] S128x64.size inb_S256x4864_S128x64_0_1212).PackedRows (EltTy.packing .bf16)
  slices_S128x4096_o0_1024_S128x64 : S128x4096.Slices ![0, 1024] S128x64
  inb_S256x4864_S128x64_0_1284 : ∀ a, (![0, 1284] : Fin 2 → Nat) a + S128x64.size a ≤ S256x4864.size a
  packedbf16_S256x4864_S128x64_0_1284 : (Rect.unit (s := S256x4864) ![0, 1284] S128x64.size inb_S256x4864_S128x64_0_1284).PackedRows (EltTy.packing .bf16)
  slices_S128x4096_o0_1088_S128x64 : S128x4096.Slices ![0, 1088] S128x64
  inb_S256x4864_S128x64_0_1356 : ∀ a, (![0, 1356] : Fin 2 → Nat) a + S128x64.size a ≤ S256x4864.size a
  packedbf16_S256x4864_S128x64_0_1356 : (Rect.unit (s := S256x4864) ![0, 1356] S128x64.size inb_S256x4864_S128x64_0_1356).PackedRows (EltTy.packing .bf16)
  slices_S128x4096_o0_1152_S128x64 : S128x4096.Slices ![0, 1152] S128x64
  inb_S256x4864_S128x64_0_1428 : ∀ a, (![0, 1428] : Fin 2 → Nat) a + S128x64.size a ≤ S256x4864.size a
  packedbf16_S256x4864_S128x64_0_1428 : (Rect.unit (s := S256x4864) ![0, 1428] S128x64.size inb_S256x4864_S128x64_0_1428).PackedRows (EltTy.packing .bf16)
  slices_S128x4096_o0_1216_S128x64 : S128x4096.Slices ![0, 1216] S128x64
  inb_S256x4864_S128x64_0_1500 : ∀ a, (![0, 1500] : Fin 2 → Nat) a + S128x64.size a ≤ S256x4864.size a
  packedbf16_S256x4864_S128x64_0_1500 : (Rect.unit (s := S256x4864) ![0, 1500] S128x64.size inb_S256x4864_S128x64_0_1500).PackedRows (EltTy.packing .bf16)
  slices_S128x4096_o0_1280_S128x64 : S128x4096.Slices ![0, 1280] S128x64
  inb_S256x4864_S128x64_0_1572 : ∀ a, (![0, 1572] : Fin 2 → Nat) a + S128x64.size a ≤ S256x4864.size a
  packedbf16_S256x4864_S128x64_0_1572 : (Rect.unit (s := S256x4864) ![0, 1572] S128x64.size inb_S256x4864_S128x64_0_1572).PackedRows (EltTy.packing .bf16)
  slices_S128x4096_o0_1344_S128x64 : S128x4096.Slices ![0, 1344] S128x64
  inb_S256x4864_S128x64_0_1644 : ∀ a, (![0, 1644] : Fin 2 → Nat) a + S128x64.size a ≤ S256x4864.size a
  packedbf16_S256x4864_S128x64_0_1644 : (Rect.unit (s := S256x4864) ![0, 1644] S128x64.size inb_S256x4864_S128x64_0_1644).PackedRows (EltTy.packing .bf16)
  slices_S128x4096_o0_1408_S128x64 : S128x4096.Slices ![0, 1408] S128x64
  inb_S256x4864_S128x64_0_1716 : ∀ a, (![0, 1716] : Fin 2 → Nat) a + S128x64.size a ≤ S256x4864.size a
  packedbf16_S256x4864_S128x64_0_1716 : (Rect.unit (s := S256x4864) ![0, 1716] S128x64.size inb_S256x4864_S128x64_0_1716).PackedRows (EltTy.packing .bf16)
  slices_S128x4096_o0_1472_S128x64 : S128x4096.Slices ![0, 1472] S128x64
  inb_S256x4864_S128x64_0_1788 : ∀ a, (![0, 1788] : Fin 2 → Nat) a + S128x64.size a ≤ S256x4864.size a
  packedbf16_S256x4864_S128x64_0_1788 : (Rect.unit (s := S256x4864) ![0, 1788] S128x64.size inb_S256x4864_S128x64_0_1788).PackedRows (EltTy.packing .bf16)
  slices_S128x4096_o0_1536_S128x64 : S128x4096.Slices ![0, 1536] S128x64
  inb_S256x4864_S128x64_0_1860 : ∀ a, (![0, 1860] : Fin 2 → Nat) a + S128x64.size a ≤ S256x4864.size a
  packedbf16_S256x4864_S128x64_0_1860 : (Rect.unit (s := S256x4864) ![0, 1860] S128x64.size inb_S256x4864_S128x64_0_1860).PackedRows (EltTy.packing .bf16)
  slices_S128x4096_o0_1600_S128x64 : S128x4096.Slices ![0, 1600] S128x64
  inb_S256x4864_S128x64_0_1932 : ∀ a, (![0, 1932] : Fin 2 → Nat) a + S128x64.size a ≤ S256x4864.size a
  packedbf16_S256x4864_S128x64_0_1932 : (Rect.unit (s := S256x4864) ![0, 1932] S128x64.size inb_S256x4864_S128x64_0_1932).PackedRows (EltTy.packing .bf16)
  slices_S128x4096_o0_1664_S128x64 : S128x4096.Slices ![0, 1664] S128x64
  inb_S256x4864_S128x64_0_2004 : ∀ a, (![0, 2004] : Fin 2 → Nat) a + S128x64.size a ≤ S256x4864.size a
  packedbf16_S256x4864_S128x64_0_2004 : (Rect.unit (s := S256x4864) ![0, 2004] S128x64.size inb_S256x4864_S128x64_0_2004).PackedRows (EltTy.packing .bf16)
  slices_S128x4096_o0_1728_S128x64 : S128x4096.Slices ![0, 1728] S128x64
  inb_S256x4864_S128x64_0_2076 : ∀ a, (![0, 2076] : Fin 2 → Nat) a + S128x64.size a ≤ S256x4864.size a
  packedbf16_S256x4864_S128x64_0_2076 : (Rect.unit (s := S256x4864) ![0, 2076] S128x64.size inb_S256x4864_S128x64_0_2076).PackedRows (EltTy.packing .bf16)
  slices_S128x4096_o0_1792_S128x64 : S128x4096.Slices ![0, 1792] S128x64
  inb_S256x4864_S128x64_0_2148 : ∀ a, (![0, 2148] : Fin 2 → Nat) a + S128x64.size a ≤ S256x4864.size a
  packedbf16_S256x4864_S128x64_0_2148 : (Rect.unit (s := S256x4864) ![0, 2148] S128x64.size inb_S256x4864_S128x64_0_2148).PackedRows (EltTy.packing .bf16)
  slices_S128x4096_o0_1856_S128x64 : S128x4096.Slices ![0, 1856] S128x64
  inb_S256x4864_S128x64_0_2220 : ∀ a, (![0, 2220] : Fin 2 → Nat) a + S128x64.size a ≤ S256x4864.size a
  packedbf16_S256x4864_S128x64_0_2220 : (Rect.unit (s := S256x4864) ![0, 2220] S128x64.size inb_S256x4864_S128x64_0_2220).PackedRows (EltTy.packing .bf16)
  slices_S128x4096_o0_1920_S128x64 : S128x4096.Slices ![0, 1920] S128x64
  inb_S256x4864_S128x64_0_2292 : ∀ a, (![0, 2292] : Fin 2 → Nat) a + S128x64.size a ≤ S256x4864.size a
  packedbf16_S256x4864_S128x64_0_2292 : (Rect.unit (s := S256x4864) ![0, 2292] S128x64.size inb_S256x4864_S128x64_0_2292).PackedRows (EltTy.packing .bf16)
  slices_S128x4096_o0_1984_S128x64 : S128x4096.Slices ![0, 1984] S128x64
  inb_S256x4864_S128x64_0_2364 : ∀ a, (![0, 2364] : Fin 2 → Nat) a + S128x64.size a ≤ S256x4864.size a
  packedbf16_S256x4864_S128x64_0_2364 : (Rect.unit (s := S256x4864) ![0, 2364] S128x64.size inb_S256x4864_S128x64_0_2364).PackedRows (EltTy.packing .bf16)
  slices_S128x4096_o0_2048_S128x64 : S128x4096.Slices ![0, 2048] S128x64
  inb_S256x4864_S128x64_0_2436 : ∀ a, (![0, 2436] : Fin 2 → Nat) a + S128x64.size a ≤ S256x4864.size a
  packedbf16_S256x4864_S128x64_0_2436 : (Rect.unit (s := S256x4864) ![0, 2436] S128x64.size inb_S256x4864_S128x64_0_2436).PackedRows (EltTy.packing .bf16)
  slices_S128x4096_o0_2112_S128x64 : S128x4096.Slices ![0, 2112] S128x64
  inb_S256x4864_S128x64_0_2508 : ∀ a, (![0, 2508] : Fin 2 → Nat) a + S128x64.size a ≤ S256x4864.size a
  packedbf16_S256x4864_S128x64_0_2508 : (Rect.unit (s := S256x4864) ![0, 2508] S128x64.size inb_S256x4864_S128x64_0_2508).PackedRows (EltTy.packing .bf16)
  slices_S128x4096_o0_2176_S128x64 : S128x4096.Slices ![0, 2176] S128x64
  inb_S256x4864_S128x64_0_2580 : ∀ a, (![0, 2580] : Fin 2 → Nat) a + S128x64.size a ≤ S256x4864.size a
  packedbf16_S256x4864_S128x64_0_2580 : (Rect.unit (s := S256x4864) ![0, 2580] S128x64.size inb_S256x4864_S128x64_0_2580).PackedRows (EltTy.packing .bf16)
  slices_S128x4096_o0_2240_S128x64 : S128x4096.Slices ![0, 2240] S128x64
  inb_S256x4864_S128x64_0_2652 : ∀ a, (![0, 2652] : Fin 2 → Nat) a + S128x64.size a ≤ S256x4864.size a
  packedbf16_S256x4864_S128x64_0_2652 : (Rect.unit (s := S256x4864) ![0, 2652] S128x64.size inb_S256x4864_S128x64_0_2652).PackedRows (EltTy.packing .bf16)
  slices_S128x4096_o0_2304_S128x64 : S128x4096.Slices ![0, 2304] S128x64
  inb_S256x4864_S128x64_0_2724 : ∀ a, (![0, 2724] : Fin 2 → Nat) a + S128x64.size a ≤ S256x4864.size a
  packedbf16_S256x4864_S128x64_0_2724 : (Rect.unit (s := S256x4864) ![0, 2724] S128x64.size inb_S256x4864_S128x64_0_2724).PackedRows (EltTy.packing .bf16)
  slices_S128x4096_o0_2368_S128x64 : S128x4096.Slices ![0, 2368] S128x64
  inb_S256x4864_S128x64_0_2796 : ∀ a, (![0, 2796] : Fin 2 → Nat) a + S128x64.size a ≤ S256x4864.size a
  packedbf16_S256x4864_S128x64_0_2796 : (Rect.unit (s := S256x4864) ![0, 2796] S128x64.size inb_S256x4864_S128x64_0_2796).PackedRows (EltTy.packing .bf16)
  slices_S128x4096_o0_2432_S128x64 : S128x4096.Slices ![0, 2432] S128x64
  inb_S256x4864_S128x64_0_2868 : ∀ a, (![0, 2868] : Fin 2 → Nat) a + S128x64.size a ≤ S256x4864.size a
  packedbf16_S256x4864_S128x64_0_2868 : (Rect.unit (s := S256x4864) ![0, 2868] S128x64.size inb_S256x4864_S128x64_0_2868).PackedRows (EltTy.packing .bf16)
  slices_S128x4096_o0_2496_S128x64 : S128x4096.Slices ![0, 2496] S128x64
  inb_S256x4864_S128x64_0_2940 : ∀ a, (![0, 2940] : Fin 2 → Nat) a + S128x64.size a ≤ S256x4864.size a
  packedbf16_S256x4864_S128x64_0_2940 : (Rect.unit (s := S256x4864) ![0, 2940] S128x64.size inb_S256x4864_S128x64_0_2940).PackedRows (EltTy.packing .bf16)
  slices_S128x4096_o0_2560_S128x64 : S128x4096.Slices ![0, 2560] S128x64
  inb_S256x4864_S128x64_0_3012 : ∀ a, (![0, 3012] : Fin 2 → Nat) a + S128x64.size a ≤ S256x4864.size a
  packedbf16_S256x4864_S128x64_0_3012 : (Rect.unit (s := S256x4864) ![0, 3012] S128x64.size inb_S256x4864_S128x64_0_3012).PackedRows (EltTy.packing .bf16)
  slices_S128x4096_o0_2624_S128x64 : S128x4096.Slices ![0, 2624] S128x64
  inb_S256x4864_S128x64_0_3084 : ∀ a, (![0, 3084] : Fin 2 → Nat) a + S128x64.size a ≤ S256x4864.size a
  packedbf16_S256x4864_S128x64_0_3084 : (Rect.unit (s := S256x4864) ![0, 3084] S128x64.size inb_S256x4864_S128x64_0_3084).PackedRows (EltTy.packing .bf16)
  slices_S128x4096_o0_2688_S128x64 : S128x4096.Slices ![0, 2688] S128x64
  inb_S256x4864_S128x64_0_3156 : ∀ a, (![0, 3156] : Fin 2 → Nat) a + S128x64.size a ≤ S256x4864.size a
  packedbf16_S256x4864_S128x64_0_3156 : (Rect.unit (s := S256x4864) ![0, 3156] S128x64.size inb_S256x4864_S128x64_0_3156).PackedRows (EltTy.packing .bf16)
  slices_S128x4096_o0_2752_S128x64 : S128x4096.Slices ![0, 2752] S128x64
  inb_S256x4864_S128x64_0_3228 : ∀ a, (![0, 3228] : Fin 2 → Nat) a + S128x64.size a ≤ S256x4864.size a
  packedbf16_S256x4864_S128x64_0_3228 : (Rect.unit (s := S256x4864) ![0, 3228] S128x64.size inb_S256x4864_S128x64_0_3228).PackedRows (EltTy.packing .bf16)
  slices_S128x4096_o0_2816_S128x64 : S128x4096.Slices ![0, 2816] S128x64
  inb_S256x4864_S128x64_0_3300 : ∀ a, (![0, 3300] : Fin 2 → Nat) a + S128x64.size a ≤ S256x4864.size a
  packedbf16_S256x4864_S128x64_0_3300 : (Rect.unit (s := S256x4864) ![0, 3300] S128x64.size inb_S256x4864_S128x64_0_3300).PackedRows (EltTy.packing .bf16)
  slices_S128x4096_o0_2880_S128x64 : S128x4096.Slices ![0, 2880] S128x64
  inb_S256x4864_S128x64_0_3372 : ∀ a, (![0, 3372] : Fin 2 → Nat) a + S128x64.size a ≤ S256x4864.size a
  packedbf16_S256x4864_S128x64_0_3372 : (Rect.unit (s := S256x4864) ![0, 3372] S128x64.size inb_S256x4864_S128x64_0_3372).PackedRows (EltTy.packing .bf16)
  slices_S128x4096_o0_2944_S128x64 : S128x4096.Slices ![0, 2944] S128x64
  inb_S256x4864_S128x64_0_3444 : ∀ a, (![0, 3444] : Fin 2 → Nat) a + S128x64.size a ≤ S256x4864.size a
  packedbf16_S256x4864_S128x64_0_3444 : (Rect.unit (s := S256x4864) ![0, 3444] S128x64.size inb_S256x4864_S128x64_0_3444).PackedRows (EltTy.packing .bf16)
  slices_S128x4096_o0_3008_S128x64 : S128x4096.Slices ![0, 3008] S128x64
  inb_S256x4864_S128x64_0_3516 : ∀ a, (![0, 3516] : Fin 2 → Nat) a + S128x64.size a ≤ S256x4864.size a
  packedbf16_S256x4864_S128x64_0_3516 : (Rect.unit (s := S256x4864) ![0, 3516] S128x64.size inb_S256x4864_S128x64_0_3516).PackedRows (EltTy.packing .bf16)
  slices_S128x4096_o0_3072_S128x64 : S128x4096.Slices ![0, 3072] S128x64
  inb_S256x4864_S128x64_0_3588 : ∀ a, (![0, 3588] : Fin 2 → Nat) a + S128x64.size a ≤ S256x4864.size a
  packedbf16_S256x4864_S128x64_0_3588 : (Rect.unit (s := S256x4864) ![0, 3588] S128x64.size inb_S256x4864_S128x64_0_3588).PackedRows (EltTy.packing .bf16)
  slices_S128x4096_o0_3136_S128x64 : S128x4096.Slices ![0, 3136] S128x64
  inb_S256x4864_S128x64_0_3660 : ∀ a, (![0, 3660] : Fin 2 → Nat) a + S128x64.size a ≤ S256x4864.size a
  packedbf16_S256x4864_S128x64_0_3660 : (Rect.unit (s := S256x4864) ![0, 3660] S128x64.size inb_S256x4864_S128x64_0_3660).PackedRows (EltTy.packing .bf16)
  slices_S128x4096_o0_3200_S128x64 : S128x4096.Slices ![0, 3200] S128x64
  inb_S256x4864_S128x64_0_3732 : ∀ a, (![0, 3732] : Fin 2 → Nat) a + S128x64.size a ≤ S256x4864.size a
  packedbf16_S256x4864_S128x64_0_3732 : (Rect.unit (s := S256x4864) ![0, 3732] S128x64.size inb_S256x4864_S128x64_0_3732).PackedRows (EltTy.packing .bf16)
  slices_S128x4096_o0_3264_S128x64 : S128x4096.Slices ![0, 3264] S128x64
  inb_S256x4864_S128x64_0_3804 : ∀ a, (![0, 3804] : Fin 2 → Nat) a + S128x64.size a ≤ S256x4864.size a
  packedbf16_S256x4864_S128x64_0_3804 : (Rect.unit (s := S256x4864) ![0, 3804] S128x64.size inb_S256x4864_S128x64_0_3804).PackedRows (EltTy.packing .bf16)
  slices_S128x4096_o0_3328_S128x64 : S128x4096.Slices ![0, 3328] S128x64
  inb_S256x4864_S128x64_0_3876 : ∀ a, (![0, 3876] : Fin 2 → Nat) a + S128x64.size a ≤ S256x4864.size a
  packedbf16_S256x4864_S128x64_0_3876 : (Rect.unit (s := S256x4864) ![0, 3876] S128x64.size inb_S256x4864_S128x64_0_3876).PackedRows (EltTy.packing .bf16)
  slices_S128x4096_o0_3392_S128x64 : S128x4096.Slices ![0, 3392] S128x64
  inb_S256x4864_S128x64_0_3948 : ∀ a, (![0, 3948] : Fin 2 → Nat) a + S128x64.size a ≤ S256x4864.size a
  packedbf16_S256x4864_S128x64_0_3948 : (Rect.unit (s := S256x4864) ![0, 3948] S128x64.size inb_S256x4864_S128x64_0_3948).PackedRows (EltTy.packing .bf16)
  slices_S128x4096_o0_3456_S128x64 : S128x4096.Slices ![0, 3456] S128x64
  inb_S256x4864_S128x64_0_4020 : ∀ a, (![0, 4020] : Fin 2 → Nat) a + S128x64.size a ≤ S256x4864.size a
  packedbf16_S256x4864_S128x64_0_4020 : (Rect.unit (s := S256x4864) ![0, 4020] S128x64.size inb_S256x4864_S128x64_0_4020).PackedRows (EltTy.packing .bf16)
  slices_S128x4096_o0_3520_S128x64 : S128x4096.Slices ![0, 3520] S128x64
  inb_S256x4864_S128x64_0_4092 : ∀ a, (![0, 4092] : Fin 2 → Nat) a + S128x64.size a ≤ S256x4864.size a
  packedbf16_S256x4864_S128x64_0_4092 : (Rect.unit (s := S256x4864) ![0, 4092] S128x64.size inb_S256x4864_S128x64_0_4092).PackedRows (EltTy.packing .bf16)
  slices_S128x4096_o0_3584_S128x64 : S128x4096.Slices ![0, 3584] S128x64
  inb_S256x4864_S128x64_0_4164 : ∀ a, (![0, 4164] : Fin 2 → Nat) a + S128x64.size a ≤ S256x4864.size a
  packedbf16_S256x4864_S128x64_0_4164 : (Rect.unit (s := S256x4864) ![0, 4164] S128x64.size inb_S256x4864_S128x64_0_4164).PackedRows (EltTy.packing .bf16)
  slices_S128x4096_o0_3648_S128x64 : S128x4096.Slices ![0, 3648] S128x64
  inb_S256x4864_S128x64_0_4236 : ∀ a, (![0, 4236] : Fin 2 → Nat) a + S128x64.size a ≤ S256x4864.size a
  packedbf16_S256x4864_S128x64_0_4236 : (Rect.unit (s := S256x4864) ![0, 4236] S128x64.size inb_S256x4864_S128x64_0_4236).PackedRows (EltTy.packing .bf16)
  slices_S128x4096_o0_3712_S128x64 : S128x4096.Slices ![0, 3712] S128x64
  inb_S256x4864_S128x64_0_4308 : ∀ a, (![0, 4308] : Fin 2 → Nat) a + S128x64.size a ≤ S256x4864.size a
  packedbf16_S256x4864_S128x64_0_4308 : (Rect.unit (s := S256x4864) ![0, 4308] S128x64.size inb_S256x4864_S128x64_0_4308).PackedRows (EltTy.packing .bf16)
  slices_S128x4096_o0_3776_S128x64 : S128x4096.Slices ![0, 3776] S128x64
  inb_S256x4864_S128x64_0_4380 : ∀ a, (![0, 4380] : Fin 2 → Nat) a + S128x64.size a ≤ S256x4864.size a
  packedbf16_S256x4864_S128x64_0_4380 : (Rect.unit (s := S256x4864) ![0, 4380] S128x64.size inb_S256x4864_S128x64_0_4380).PackedRows (EltTy.packing .bf16)
  slices_S128x4096_o0_3840_S128x64 : S128x4096.Slices ![0, 3840] S128x64
  inb_S256x4864_S128x64_0_4452 : ∀ a, (![0, 4452] : Fin 2 → Nat) a + S128x64.size a ≤ S256x4864.size a
  packedbf16_S256x4864_S128x64_0_4452 : (Rect.unit (s := S256x4864) ![0, 4452] S128x64.size inb_S256x4864_S128x64_0_4452).PackedRows (EltTy.packing .bf16)
  slices_S128x4096_o0_3904_S128x64 : S128x4096.Slices ![0, 3904] S128x64
  inb_S256x4864_S128x64_0_4524 : ∀ a, (![0, 4524] : Fin 2 → Nat) a + S128x64.size a ≤ S256x4864.size a
  packedbf16_S256x4864_S128x64_0_4524 : (Rect.unit (s := S256x4864) ![0, 4524] S128x64.size inb_S256x4864_S128x64_0_4524).PackedRows (EltTy.packing .bf16)
  slices_S128x4096_o0_3968_S128x64 : S128x4096.Slices ![0, 3968] S128x64
  inb_S256x4864_S128x64_0_4596 : ∀ a, (![0, 4596] : Fin 2 → Nat) a + S128x64.size a ≤ S256x4864.size a
  packedbf16_S256x4864_S128x64_0_4596 : (Rect.unit (s := S256x4864) ![0, 4596] S128x64.size inb_S256x4864_S128x64_0_4596).PackedRows (EltTy.packing .bf16)
  slices_S128x4096_o0_4032_S128x64 : S128x4096.Slices ![0, 4032] S128x64
  inb_S256x4864_S128x64_0_4668 : ∀ a, (![0, 4668] : Fin 2 → Nat) a + S128x64.size a ≤ S256x4864.size a
  packedbf16_S256x4864_S128x64_0_4668 : (Rect.unit (s := S256x4864) ![0, 4668] S128x64.size inb_S256x4864_S128x64_0_4668).PackedRows (EltTy.packing .bf16)
  inb_S256x4864_S128x4864_128_0 : ∀ a, (![128, 0] : Fin 2 → Nat) a + S128x4864.size a ≤ S256x4864.size a
  packedbf16_S256x4864_S128x4864_128_0 : (Rect.unit (s := S256x4864) ![128, 0] S128x4864.size inb_S256x4864_S128x4864_128_0).PackedRows (EltTy.packing .bf16)
  inb_S256x128_S128x1_0_0 : ∀ a, (![0, 0] : Fin 2 → Nat) a + S128x1.size a ≤ S256x128.size a
  h_S128x1 : 0 < S128x1.numel
  shapeCasts_S128x1_S128x1 : S128x1.ShapeCasts S128x1
  broadcasts_S128x1_S128x4608 : S128x1.Broadcasts S128x4608
  inb_S2952x256_S128x256_0_0 : ∀ a, (![0, 0] : Fin 2 → Nat) a + S128x256.size a ≤ S2952x256.size a
  h_S128x256 : 0 < S128x256.numel
  shapeCasts_S128x256_S128x256 : S128x256.ShapeCasts S128x256
  inb_S256x4864_S256x4608_0_55 : ∀ a, (![0, 55] : Fin 2 → Nat) a + S256x4608.size a ≤ S256x4864.size a
  h_S256x4608 : 0 < S256x4608.numel
  inb_S2952x256_S128x256_128_0 : ∀ a, (![128, 0] : Fin 2 → Nat) a + S128x256.size a ≤ S2952x256.size a
  inb_S256x4864_S256x4608_0_56 : ∀ a, (![0, 56] : Fin 2 → Nat) a + S256x4608.size a ≤ S256x4864.size a
  inb_S2952x256_S128x256_256_0 : ∀ a, (![256, 0] : Fin 2 → Nat) a + S128x256.size a ≤ S2952x256.size a
  inb_S256x4864_S256x4608_0_57 : ∀ a, (![0, 57] : Fin 2 → Nat) a + S256x4608.size a ≤ S256x4864.size a
  inb_S2952x256_S128x256_384_0 : ∀ a, (![384, 0] : Fin 2 → Nat) a + S128x256.size a ≤ S2952x256.size a
  inb_S256x4864_S256x4608_0_127 : ∀ a, (![0, 127] : Fin 2 → Nat) a + S256x4608.size a ≤ S256x4864.size a
  inb_S2952x256_S128x256_512_0 : ∀ a, (![512, 0] : Fin 2 → Nat) a + S128x256.size a ≤ S2952x256.size a
  inb_S256x4864_S256x4608_0_128 : ∀ a, (![0, 128] : Fin 2 → Nat) a + S256x4608.size a ≤ S256x4864.size a
  inb_S2952x256_S128x256_640_0 : ∀ a, (![640, 0] : Fin 2 → Nat) a + S128x256.size a ≤ S2952x256.size a
  inb_S256x4864_S256x4608_0_129 : ∀ a, (![0, 129] : Fin 2 → Nat) a + S256x4608.size a ≤ S256x4864.size a
  inb_S2952x256_S128x256_768_0 : ∀ a, (![768, 0] : Fin 2 → Nat) a + S128x256.size a ≤ S2952x256.size a
  inb_S256x4864_S256x4608_0_199 : ∀ a, (![0, 199] : Fin 2 → Nat) a + S256x4608.size a ≤ S256x4864.size a
  inb_S2952x256_S128x256_896_0 : ∀ a, (![896, 0] : Fin 2 → Nat) a + S128x256.size a ≤ S2952x256.size a
  inb_S256x4864_S256x4608_0_200 : ∀ a, (![0, 200] : Fin 2 → Nat) a + S256x4608.size a ≤ S256x4864.size a
  inb_S2952x256_S128x256_1024_0 : ∀ a, (![1024, 0] : Fin 2 → Nat) a + S128x256.size a ≤ S2952x256.size a
  inb_S256x4864_S256x4608_0_201 : ∀ a, (![0, 201] : Fin 2 → Nat) a + S256x4608.size a ≤ S256x4864.size a
  inb_S1x4608_S1x4608_0_0 : ∀ a, (![0, 0] : Fin 2 → Nat) a + S1x4608.size a ≤ S1x4608.size a
  h_S1x4608 : 0 < S1x4608.numel
  shapeCasts_S1x4608_S1x4608 : S1x4608.ShapeCasts S1x4608
  broadcasts_S1x4608_S128x4608 : S1x4608.Broadcasts S128x4608
  inb_S128x4864_S128x128_0_0 : ∀ a, (![0, 0] : Fin 2 → Nat) a + S128x128.size a ≤ S128x4864.size a
  packedbf16_S128x4864_S128x128_0_0 : (Rect.unit (s := S128x4864) ![0, 0] S128x128.size inb_S128x4864_S128x128_0_0).PackedRows (EltTy.packing .bf16)
  inb_S128x4864_S128x128_0_4736 : ∀ a, (![0, 4736] : Fin 2 → Nat) a + S128x128.size a ≤ S128x4864.size a
  packedbf16_S128x4864_S128x128_0_4736 : (Rect.unit (s := S128x4864) ![0, 4736] S128x128.size inb_S128x4864_S128x128_0_4736).PackedRows (EltTy.packing .bf16)
  inb_S128x4864_S128x4608_0_128 : ∀ a, (![0, 128] : Fin 2 → Nat) a + S128x4608.size a ≤ S128x4864.size a
  h_S128x4608 : 0 < S128x4608.numel
  shapeCasts_S128x4608_S128x4608 : S128x4608.ShapeCasts S128x4608
  packedbf16_S128x4864_S128x4608_0_128 : (Rect.unit (s := S128x4864) ![0, 128] S128x4608.size inb_S128x4864_S128x4608_0_128).PackedRows (EltTy.packing .bf16)
  inb_S256x128_S128x1_128_0 : ∀ a, (![128, 0] : Fin 2 → Nat) a + S128x1.size a ≤ S256x128.size a
  inb_S2952x256_S128x128_1152_0 : ∀ a, (![1152, 0] : Fin 2 → Nat) a + S128x128.size a ≤ S2952x256.size a
  inb_S128x4864_S128x4608_0_55 : ∀ a, (![0, 55] : Fin 2 → Nat) a + S128x4608.size a ≤ S128x4864.size a
  inb_S2952x256_S128x128_1280_0 : ∀ a, (![1280, 0] : Fin 2 → Nat) a + S128x128.size a ≤ S2952x256.size a
  inb_S128x4864_S128x4608_0_56 : ∀ a, (![0, 56] : Fin 2 → Nat) a + S128x4608.size a ≤ S128x4864.size a
  inb_S2952x256_S128x128_1408_0 : ∀ a, (![1408, 0] : Fin 2 → Nat) a + S128x128.size a ≤ S2952x256.size a
  inb_S128x4864_S128x4608_0_57 : ∀ a, (![0, 57] : Fin 2 → Nat) a + S128x4608.size a ≤ S128x4864.size a
  inb_S2952x256_S128x128_1536_0 : ∀ a, (![1536, 0] : Fin 2 → Nat) a + S128x128.size a ≤ S2952x256.size a
  inb_S128x4864_S128x4608_0_127 : ∀ a, (![0, 127] : Fin 2 → Nat) a + S128x4608.size a ≤ S128x4864.size a
  inb_S2952x256_S128x128_1664_0 : ∀ a, (![1664, 0] : Fin 2 → Nat) a + S128x128.size a ≤ S2952x256.size a
  inb_S2952x256_S128x128_1792_0 : ∀ a, (![1792, 0] : Fin 2 → Nat) a + S128x128.size a ≤ S2952x256.size a
  inb_S128x4864_S128x4608_0_129 : ∀ a, (![0, 129] : Fin 2 → Nat) a + S128x4608.size a ≤ S128x4864.size a
  inb_S2952x256_S128x128_1920_0 : ∀ a, (![1920, 0] : Fin 2 → Nat) a + S128x128.size a ≤ S2952x256.size a
  inb_S128x4864_S128x4608_0_199 : ∀ a, (![0, 199] : Fin 2 → Nat) a + S128x4608.size a ≤ S128x4864.size a
  inb_S2952x256_S128x128_2048_0 : ∀ a, (![2048, 0] : Fin 2 → Nat) a + S128x128.size a ≤ S2952x256.size a
  inb_S128x4864_S128x4608_0_200 : ∀ a, (![0, 200] : Fin 2 → Nat) a + S128x4608.size a ≤ S128x4864.size a
  inb_S2952x256_S128x128_2176_0 : ∀ a, (![2176, 0] : Fin 2 → Nat) a + S128x128.size a ≤ S2952x256.size a
  inb_S128x4864_S128x4608_0_201 : ∀ a, (![0, 201] : Fin 2 → Nat) a + S128x4608.size a ≤ S128x4864.size a
  slices_S128x4608_o0_4_S128x64 : S128x4608.Slices ![0, 4] S128x64
  inb_S1x128x4096_S1x128x64_0_0_0 : ∀ a, (![0, 0, 0] : Fin 3 → Nat) a + S1x128x64.size a ≤ S1x128x4096.size a
  h_S1x128x64 : 0 < S1x128x64.numel
  shapeCasts_S1x128x64_S128x64 : S1x128x64.ShapeCasts S128x64
  shapeCasts_S128x64_S1x128x64 : S128x64.ShapeCasts S1x128x64
  slices_S128x4608_o0_76_S128x64 : S128x4608.Slices ![0, 76] S128x64
  inb_S1x128x4096_S1x128x64_0_0_64 : ∀ a, (![0, 0, 64] : Fin 3 → Nat) a + S1x128x64.size a ≤ S1x128x4096.size a
  slices_S128x4608_o0_148_S128x64 : S128x4608.Slices ![0, 148] S128x64
  inb_S1x128x4096_S1x128x64_0_0_128 : ∀ a, (![0, 0, 128] : Fin 3 → Nat) a + S1x128x64.size a ≤ S1x128x4096.size a
  slices_S128x4608_o0_220_S128x64 : S128x4608.Slices ![0, 220] S128x64
  inb_S1x128x4096_S1x128x64_0_0_192 : ∀ a, (![0, 0, 192] : Fin 3 → Nat) a + S1x128x64.size a ≤ S1x128x4096.size a
  slices_S128x4608_o0_292_S128x64 : S128x4608.Slices ![0, 292] S128x64
  inb_S1x128x4096_S1x128x64_0_0_256 : ∀ a, (![0, 0, 256] : Fin 3 → Nat) a + S1x128x64.size a ≤ S1x128x4096.size a
  slices_S128x4608_o0_364_S128x64 : S128x4608.Slices ![0, 364] S128x64
  inb_S1x128x4096_S1x128x64_0_0_320 : ∀ a, (![0, 0, 320] : Fin 3 → Nat) a + S1x128x64.size a ≤ S1x128x4096.size a
  slices_S128x4608_o0_436_S128x64 : S128x4608.Slices ![0, 436] S128x64
  inb_S1x128x4096_S1x128x64_0_0_384 : ∀ a, (![0, 0, 384] : Fin 3 → Nat) a + S1x128x64.size a ≤ S1x128x4096.size a
  slices_S128x4608_o0_508_S128x64 : S128x4608.Slices ![0, 508] S128x64
  inb_S1x128x4096_S1x128x64_0_0_448 : ∀ a, (![0, 0, 448] : Fin 3 → Nat) a + S1x128x64.size a ≤ S1x128x4096.size a
  slices_S128x4608_o0_580_S128x64 : S128x4608.Slices ![0, 580] S128x64
  inb_S1x128x4096_S1x128x64_0_0_512 : ∀ a, (![0, 0, 512] : Fin 3 → Nat) a + S1x128x64.size a ≤ S1x128x4096.size a
  slices_S128x4608_o0_652_S128x64 : S128x4608.Slices ![0, 652] S128x64
  inb_S1x128x4096_S1x128x64_0_0_576 : ∀ a, (![0, 0, 576] : Fin 3 → Nat) a + S1x128x64.size a ≤ S1x128x4096.size a
  slices_S128x4608_o0_724_S128x64 : S128x4608.Slices ![0, 724] S128x64
  inb_S1x128x4096_S1x128x64_0_0_640 : ∀ a, (![0, 0, 640] : Fin 3 → Nat) a + S1x128x64.size a ≤ S1x128x4096.size a
  slices_S128x4608_o0_796_S128x64 : S128x4608.Slices ![0, 796] S128x64
  inb_S1x128x4096_S1x128x64_0_0_704 : ∀ a, (![0, 0, 704] : Fin 3 → Nat) a + S1x128x64.size a ≤ S1x128x4096.size a
  slices_S128x4608_o0_868_S128x64 : S128x4608.Slices ![0, 868] S128x64
  inb_S1x128x4096_S1x128x64_0_0_768 : ∀ a, (![0, 0, 768] : Fin 3 → Nat) a + S1x128x64.size a ≤ S1x128x4096.size a
  slices_S128x4608_o0_940_S128x64 : S128x4608.Slices ![0, 940] S128x64
  inb_S1x128x4096_S1x128x64_0_0_832 : ∀ a, (![0, 0, 832] : Fin 3 → Nat) a + S1x128x64.size a ≤ S1x128x4096.size a
  slices_S128x4608_o0_1012_S128x64 : S128x4608.Slices ![0, 1012] S128x64
  inb_S1x128x4096_S1x128x64_0_0_896 : ∀ a, (![0, 0, 896] : Fin 3 → Nat) a + S1x128x64.size a ≤ S1x128x4096.size a
  slices_S128x4608_o0_1084_S128x64 : S128x4608.Slices ![0, 1084] S128x64
  inb_S1x128x4096_S1x128x64_0_0_960 : ∀ a, (![0, 0, 960] : Fin 3 → Nat) a + S1x128x64.size a ≤ S1x128x4096.size a
  slices_S128x4608_o0_1156_S128x64 : S128x4608.Slices ![0, 1156] S128x64
  inb_S1x128x4096_S1x128x64_0_0_1024 : ∀ a, (![0, 0, 1024] : Fin 3 → Nat) a + S1x128x64.size a ≤ S1x128x4096.size a
  slices_S128x4608_o0_1228_S128x64 : S128x4608.Slices ![0, 1228] S128x64
  inb_S1x128x4096_S1x128x64_0_0_1088 : ∀ a, (![0, 0, 1088] : Fin 3 → Nat) a + S1x128x64.size a ≤ S1x128x4096.size a
  slices_S128x4608_o0_1300_S128x64 : S128x4608.Slices ![0, 1300] S128x64
  inb_S1x128x4096_S1x128x64_0_0_1152 : ∀ a, (![0, 0, 1152] : Fin 3 → Nat) a + S1x128x64.size a ≤ S1x128x4096.size a
  slices_S128x4608_o0_1372_S128x64 : S128x4608.Slices ![0, 1372] S128x64
  inb_S1x128x4096_S1x128x64_0_0_1216 : ∀ a, (![0, 0, 1216] : Fin 3 → Nat) a + S1x128x64.size a ≤ S1x128x4096.size a
  slices_S128x4608_o0_1444_S128x64 : S128x4608.Slices ![0, 1444] S128x64
  inb_S1x128x4096_S1x128x64_0_0_1280 : ∀ a, (![0, 0, 1280] : Fin 3 → Nat) a + S1x128x64.size a ≤ S1x128x4096.size a
  slices_S128x4608_o0_1516_S128x64 : S128x4608.Slices ![0, 1516] S128x64
  inb_S1x128x4096_S1x128x64_0_0_1344 : ∀ a, (![0, 0, 1344] : Fin 3 → Nat) a + S1x128x64.size a ≤ S1x128x4096.size a
  slices_S128x4608_o0_1588_S128x64 : S128x4608.Slices ![0, 1588] S128x64
  inb_S1x128x4096_S1x128x64_0_0_1408 : ∀ a, (![0, 0, 1408] : Fin 3 → Nat) a + S1x128x64.size a ≤ S1x128x4096.size a
  slices_S128x4608_o0_1660_S128x64 : S128x4608.Slices ![0, 1660] S128x64
  inb_S1x128x4096_S1x128x64_0_0_1472 : ∀ a, (![0, 0, 1472] : Fin 3 → Nat) a + S1x128x64.size a ≤ S1x128x4096.size a
  slices_S128x4608_o0_1732_S128x64 : S128x4608.Slices ![0, 1732] S128x64
  inb_S1x128x4096_S1x128x64_0_0_1536 : ∀ a, (![0, 0, 1536] : Fin 3 → Nat) a + S1x128x64.size a ≤ S1x128x4096.size a
  slices_S128x4608_o0_1804_S128x64 : S128x4608.Slices ![0, 1804] S128x64
  inb_S1x128x4096_S1x128x64_0_0_1600 : ∀ a, (![0, 0, 1600] : Fin 3 → Nat) a + S1x128x64.size a ≤ S1x128x4096.size a
  slices_S128x4608_o0_1876_S128x64 : S128x4608.Slices ![0, 1876] S128x64
  inb_S1x128x4096_S1x128x64_0_0_1664 : ∀ a, (![0, 0, 1664] : Fin 3 → Nat) a + S1x128x64.size a ≤ S1x128x4096.size a
  slices_S128x4608_o0_1948_S128x64 : S128x4608.Slices ![0, 1948] S128x64
  inb_S1x128x4096_S1x128x64_0_0_1728 : ∀ a, (![0, 0, 1728] : Fin 3 → Nat) a + S1x128x64.size a ≤ S1x128x4096.size a
  slices_S128x4608_o0_2020_S128x64 : S128x4608.Slices ![0, 2020] S128x64
  inb_S1x128x4096_S1x128x64_0_0_1792 : ∀ a, (![0, 0, 1792] : Fin 3 → Nat) a + S1x128x64.size a ≤ S1x128x4096.size a
  slices_S128x4608_o0_2092_S128x64 : S128x4608.Slices ![0, 2092] S128x64
  inb_S1x128x4096_S1x128x64_0_0_1856 : ∀ a, (![0, 0, 1856] : Fin 3 → Nat) a + S1x128x64.size a ≤ S1x128x4096.size a
  slices_S128x4608_o0_2164_S128x64 : S128x4608.Slices ![0, 2164] S128x64
  inb_S1x128x4096_S1x128x64_0_0_1920 : ∀ a, (![0, 0, 1920] : Fin 3 → Nat) a + S1x128x64.size a ≤ S1x128x4096.size a
  slices_S128x4608_o0_2236_S128x64 : S128x4608.Slices ![0, 2236] S128x64
  inb_S1x128x4096_S1x128x64_0_0_1984 : ∀ a, (![0, 0, 1984] : Fin 3 → Nat) a + S1x128x64.size a ≤ S1x128x4096.size a
  slices_S128x4608_o0_2308_S128x64 : S128x4608.Slices ![0, 2308] S128x64
  inb_S1x128x4096_S1x128x64_0_0_2048 : ∀ a, (![0, 0, 2048] : Fin 3 → Nat) a + S1x128x64.size a ≤ S1x128x4096.size a
  slices_S128x4608_o0_2380_S128x64 : S128x4608.Slices ![0, 2380] S128x64
  inb_S1x128x4096_S1x128x64_0_0_2112 : ∀ a, (![0, 0, 2112] : Fin 3 → Nat) a + S1x128x64.size a ≤ S1x128x4096.size a
  slices_S128x4608_o0_2452_S128x64 : S128x4608.Slices ![0, 2452] S128x64
  inb_S1x128x4096_S1x128x64_0_0_2176 : ∀ a, (![0, 0, 2176] : Fin 3 → Nat) a + S1x128x64.size a ≤ S1x128x4096.size a
  slices_S128x4608_o0_2524_S128x64 : S128x4608.Slices ![0, 2524] S128x64
  inb_S1x128x4096_S1x128x64_0_0_2240 : ∀ a, (![0, 0, 2240] : Fin 3 → Nat) a + S1x128x64.size a ≤ S1x128x4096.size a
  slices_S128x4608_o0_2596_S128x64 : S128x4608.Slices ![0, 2596] S128x64
  inb_S1x128x4096_S1x128x64_0_0_2304 : ∀ a, (![0, 0, 2304] : Fin 3 → Nat) a + S1x128x64.size a ≤ S1x128x4096.size a
  slices_S128x4608_o0_2668_S128x64 : S128x4608.Slices ![0, 2668] S128x64
  inb_S1x128x4096_S1x128x64_0_0_2368 : ∀ a, (![0, 0, 2368] : Fin 3 → Nat) a + S1x128x64.size a ≤ S1x128x4096.size a
  slices_S128x4608_o0_2740_S128x64 : S128x4608.Slices ![0, 2740] S128x64
  inb_S1x128x4096_S1x128x64_0_0_2432 : ∀ a, (![0, 0, 2432] : Fin 3 → Nat) a + S1x128x64.size a ≤ S1x128x4096.size a
  slices_S128x4608_o0_2812_S128x64 : S128x4608.Slices ![0, 2812] S128x64
  inb_S1x128x4096_S1x128x64_0_0_2496 : ∀ a, (![0, 0, 2496] : Fin 3 → Nat) a + S1x128x64.size a ≤ S1x128x4096.size a
  slices_S128x4608_o0_2884_S128x64 : S128x4608.Slices ![0, 2884] S128x64
  inb_S1x128x4096_S1x128x64_0_0_2560 : ∀ a, (![0, 0, 2560] : Fin 3 → Nat) a + S1x128x64.size a ≤ S1x128x4096.size a
  slices_S128x4608_o0_2956_S128x64 : S128x4608.Slices ![0, 2956] S128x64
  inb_S1x128x4096_S1x128x64_0_0_2624 : ∀ a, (![0, 0, 2624] : Fin 3 → Nat) a + S1x128x64.size a ≤ S1x128x4096.size a
  slices_S128x4608_o0_3028_S128x64 : S128x4608.Slices ![0, 3028] S128x64
  inb_S1x128x4096_S1x128x64_0_0_2688 : ∀ a, (![0, 0, 2688] : Fin 3 → Nat) a + S1x128x64.size a ≤ S1x128x4096.size a
  slices_S128x4608_o0_3100_S128x64 : S128x4608.Slices ![0, 3100] S128x64
  inb_S1x128x4096_S1x128x64_0_0_2752 : ∀ a, (![0, 0, 2752] : Fin 3 → Nat) a + S1x128x64.size a ≤ S1x128x4096.size a
  slices_S128x4608_o0_3172_S128x64 : S128x4608.Slices ![0, 3172] S128x64
  inb_S1x128x4096_S1x128x64_0_0_2816 : ∀ a, (![0, 0, 2816] : Fin 3 → Nat) a + S1x128x64.size a ≤ S1x128x4096.size a
  slices_S128x4608_o0_3244_S128x64 : S128x4608.Slices ![0, 3244] S128x64
  inb_S1x128x4096_S1x128x64_0_0_2880 : ∀ a, (![0, 0, 2880] : Fin 3 → Nat) a + S1x128x64.size a ≤ S1x128x4096.size a
  slices_S128x4608_o0_3316_S128x64 : S128x4608.Slices ![0, 3316] S128x64
  inb_S1x128x4096_S1x128x64_0_0_2944 : ∀ a, (![0, 0, 2944] : Fin 3 → Nat) a + S1x128x64.size a ≤ S1x128x4096.size a
  slices_S128x4608_o0_3388_S128x64 : S128x4608.Slices ![0, 3388] S128x64
  inb_S1x128x4096_S1x128x64_0_0_3008 : ∀ a, (![0, 0, 3008] : Fin 3 → Nat) a + S1x128x64.size a ≤ S1x128x4096.size a
  slices_S128x4608_o0_3460_S128x64 : S128x4608.Slices ![0, 3460] S128x64
  inb_S1x128x4096_S1x128x64_0_0_3072 : ∀ a, (![0, 0, 3072] : Fin 3 → Nat) a + S1x128x64.size a ≤ S1x128x4096.size a
  slices_S128x4608_o0_3532_S128x64 : S128x4608.Slices ![0, 3532] S128x64
  inb_S1x128x4096_S1x128x64_0_0_3136 : ∀ a, (![0, 0, 3136] : Fin 3 → Nat) a + S1x128x64.size a ≤ S1x128x4096.size a
  slices_S128x4608_o0_3604_S128x64 : S128x4608.Slices ![0, 3604] S128x64
  inb_S1x128x4096_S1x128x64_0_0_3200 : ∀ a, (![0, 0, 3200] : Fin 3 → Nat) a + S1x128x64.size a ≤ S1x128x4096.size a
  slices_S128x4608_o0_3676_S128x64 : S128x4608.Slices ![0, 3676] S128x64
  inb_S1x128x4096_S1x128x64_0_0_3264 : ∀ a, (![0, 0, 3264] : Fin 3 → Nat) a + S1x128x64.size a ≤ S1x128x4096.size a
  slices_S128x4608_o0_3748_S128x64 : S128x4608.Slices ![0, 3748] S128x64
  inb_S1x128x4096_S1x128x64_0_0_3328 : ∀ a, (![0, 0, 3328] : Fin 3 → Nat) a + S1x128x64.size a ≤ S1x128x4096.size a
  slices_S128x4608_o0_3820_S128x64 : S128x4608.Slices ![0, 3820] S128x64
  inb_S1x128x4096_S1x128x64_0_0_3392 : ∀ a, (![0, 0, 3392] : Fin 3 → Nat) a + S1x128x64.size a ≤ S1x128x4096.size a
  slices_S128x4608_o0_3892_S128x64 : S128x4608.Slices ![0, 3892] S128x64
  inb_S1x128x4096_S1x128x64_0_0_3456 : ∀ a, (![0, 0, 3456] : Fin 3 → Nat) a + S1x128x64.size a ≤ S1x128x4096.size a
  slices_S128x4608_o0_3964_S128x64 : S128x4608.Slices ![0, 3964] S128x64
  inb_S1x128x4096_S1x128x64_0_0_3520 : ∀ a, (![0, 0, 3520] : Fin 3 → Nat) a + S1x128x64.size a ≤ S1x128x4096.size a
  slices_S128x4608_o0_4036_S128x64 : S128x4608.Slices ![0, 4036] S128x64
  inb_S1x128x4096_S1x128x64_0_0_3584 : ∀ a, (![0, 0, 3584] : Fin 3 → Nat) a + S1x128x64.size a ≤ S1x128x4096.size a
  slices_S128x4608_o0_4108_S128x64 : S128x4608.Slices ![0, 4108] S128x64
  inb_S1x128x4096_S1x128x64_0_0_3648 : ∀ a, (![0, 0, 3648] : Fin 3 → Nat) a + S1x128x64.size a ≤ S1x128x4096.size a
  slices_S128x4608_o0_4180_S128x64 : S128x4608.Slices ![0, 4180] S128x64
  inb_S1x128x4096_S1x128x64_0_0_3712 : ∀ a, (![0, 0, 3712] : Fin 3 → Nat) a + S1x128x64.size a ≤ S1x128x4096.size a
  slices_S128x4608_o0_4252_S128x64 : S128x4608.Slices ![0, 4252] S128x64
  inb_S1x128x4096_S1x128x64_0_0_3776 : ∀ a, (![0, 0, 3776] : Fin 3 → Nat) a + S1x128x64.size a ≤ S1x128x4096.size a
  slices_S128x4608_o0_4324_S128x64 : S128x4608.Slices ![0, 4324] S128x64
  inb_S1x128x4096_S1x128x64_0_0_3840 : ∀ a, (![0, 0, 3840] : Fin 3 → Nat) a + S1x128x64.size a ≤ S1x128x4096.size a
  slices_S128x4608_o0_4396_S128x64 : S128x4608.Slices ![0, 4396] S128x64
  inb_S1x128x4096_S1x128x64_0_0_3904 : ∀ a, (![0, 0, 3904] : Fin 3 → Nat) a + S1x128x64.size a ≤ S1x128x4096.size a
  slices_S128x4608_o0_4468_S128x64 : S128x4608.Slices ![0, 4468] S128x64
  inb_S1x128x4096_S1x128x64_0_0_3968 : ∀ a, (![0, 0, 3968] : Fin 3 → Nat) a + S1x128x64.size a ≤ S1x128x4096.size a
  slices_S128x4608_o0_4540_S128x64 : S128x4608.Slices ![0, 4540] S128x64
  inb_S1x128x4096_S1x128x64_0_0_4032 : ∀ a, (![0, 0, 4032] : Fin 3 → Nat) a + S1x128x64.size a ≤ S1x128x4096.size a
  shapeCasts_S16x128x4096_S16x128x64x64 : S16x128x4096.ShapeCasts S16x128x64x64
  dot_S256x1024_S256x256_S1024x256_0_0_1_1_n_n_wf : DotDims.WF S256x1024 S256x256 S1024x256 [0] [0] [1] [1] [] []
  dot_S128x128_S4864x128_S128x4864_0_1_1_0_n_n_wf : DotDims.WF S128x128 S4864x128 S128x4864 [0] [1] [1] [0] [] []
  dot_S128x256_S256x4608_S128x4608_1_0_0_1_n_n_wf : DotDims.WF S128x256 S256x4608 S128x4608 [1] [0] [0] [1] [] []
  dot_S128x128_S128x4608_S128x4608_1_0_0_1_n_n_wf : DotDims.WF S128x128 S128x4608 S128x4608 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S16x256x1024.size a
  hwx0_0 : ∀ i : grid0.Coords, EltTy.bits .f32 = 32 ∨ (Rect.block (s := S16x256x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x4096.size a ≤ S16x128x4096.size a
  hwx0_1 : ∀ i : grid0.Coords, EltTy.bits .f32 = 32 ∨ (Rect.block (s := S16x128x4096) S1x128x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2952x256.size a ≤ S2952x256.size a
  hwx0_2 : ∀ i : grid0.Coords, EltTy.bits .bf16 = 32 ∨ (Rect.block (s := S2952x256) S2952x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4608.size a ≤ S1x4608.size a
  hwx0_4 : ∀ i : grid0.Coords, EltTy.bits .f32 = 32 ∨ (Rect.block (s := S1x4608) S1x4608.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x4096.size a ≤ S16x128x4096.size a
  hwx0_5 : ∀ i : grid0.Coords, EltTy.bits .f32 = 32 ∨ (Rect.block (s := S16x128x4096) S1x128x4096.size (cc0_transform_5 i) (hinb0_5 i)).WholeWords (EltTy.packing .f32)

variable [Facts₀]

def dot_S256x1024_S256x256_S1024x256_0_0_1_1_n_n : DotDims S256x1024 S256x256 S1024x256 where
  lhsContracting := [0]
  rhsContracting := [0]
  lhsNonContracting := [1]
  rhsNonContracting := [1]
  lhsBatch := []
  rhsBatch := []
  wf := dot_S256x1024_S256x256_S1024x256_0_0_1_1_n_n_wf
def dot_S128x128_S4864x128_S128x4864_0_1_1_0_n_n : DotDims S128x128 S4864x128 S128x4864 where
  lhsContracting := [0]
  rhsContracting := [1]
  lhsNonContracting := [1]
  rhsNonContracting := [0]
  lhsBatch := []
  rhsBatch := []
  wf := dot_S128x128_S4864x128_S128x4864_0_1_1_0_n_n_wf
def dot_S128x256_S256x4608_S128x4608_1_0_0_1_n_n : DotDims S128x256 S256x4608 S128x4608 where
  lhsContracting := [1]
  rhsContracting := [0]
  lhsNonContracting := [0]
  rhsNonContracting := [1]
  lhsBatch := []
  rhsBatch := []
  wf := dot_S128x256_S256x4608_S128x4608_1_0_0_1_n_n_wf
def dot_S128x128_S128x4608_S128x4608_1_0_0_1_n_n : DotDims S128x128 S128x4608 S128x4608 where
  lhsContracting := [1]
  rhsContracting := [0]
  lhsNonContracting := [0]
  rhsNonContracting := [1]
  lhsBatch := []
  rhsBatch := []
  wf := dot_S128x128_S128x4608_S128x4608_1_0_0_1_n_n_wf

abbrev win0_0 : Pipeline.Window sig grid0 :=
  Pipeline.Window.ofSpec (Memref.whole main_v48) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v49) S1x128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v42) S2952x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v47) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v58) S1x4608.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v59) S1x128x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x256x32x32 : Shape := ⟨4, ![16, 256, 32, 32]⟩
abbrev S16x128x64x64 : Shape := ⟨4, ![16, 128, 64, 64]⟩
abbrev S256x128x2x2 : Shape := ⟨4, ![256, 128, 2, 2]⟩
abbrev S128 : Shape := ⟨1, ![128]⟩
abbrev S128x256x3x3 : Shape := ⟨4, ![128, 256, 3, 3]⟩
abbrev S128x128x3x3 : Shape := ⟨4, ![128, 128, 3, 3]⟩
abbrev S16x32x32x256 : Shape := ⟨4, ![16, 32, 32, 256]⟩
abbrev S16x64x64x128 : Shape := ⟨4, ![16, 64, 64, 128]⟩
abbrev S256x2x2x128 : Shape := ⟨4, ![256, 2, 2, 128]⟩
abbrev S256x512 : Shape := ⟨2, ![256, 512]⟩
abbrev S1x128 : Shape := ⟨2, ![1, 128]⟩
abbrev S4x128 : Shape := ⟨2, ![4, 128]⟩
abbrev S512 : Shape := ⟨1, ![512]⟩
abbrev S1x512 : Shape := ⟨2, ![1, 512]⟩
abbrev S16x1024x256 : Shape := ⟨3, ![16, 1024, 256]⟩
abbrev S16x32x2x32x256 : Shape := ⟨5, ![16, 32, 2, 32, 256]⟩
abbrev S1x1024x256 : Shape := ⟨3, ![1, 1024, 256]⟩
abbrev S1x32x2x32x256 : Shape := ⟨5, ![1, 32, 2, 32, 256]⟩
abbrev S1024x256 : Shape := ⟨2, ![1024, 256]⟩
abbrev S1024x512 : Shape := ⟨2, ![1024, 512]⟩
abbrev S32x512 : Shape := ⟨2, ![32, 512]⟩
abbrev S32x256 : Shape := ⟨2, ![32, 256]⟩
abbrev S1x1x1x32x256 : Shape := ⟨5, ![1, 1, 1, 32, 256]⟩
abbrev S_ : Shape := ⟨0, ![]⟩
abbrev S128x1x1x1 : Shape := ⟨4, ![128, 1, 1, 1]⟩
abbrev S3x3x128x128 : Shape := ⟨4, ![3, 3, 128, 128]⟩
abbrev S9x128x128 : Shape := ⟨3, ![9, 128, 128]⟩
abbrev S4352 : Shape := ⟨1, ![4352]⟩
abbrev S4352x1 : Shape := ⟨2, ![4352, 1]⟩
abbrev S16x4352x128 : Shape := ⟨3, ![16, 4352, 128]⟩
abbrev S1x64x64x128 : Shape := ⟨4, ![1, 64, 64, 128]⟩
abbrev S1x4352x128 : Shape := ⟨3, ![1, 4352, 128]⟩
abbrev S4624x128 : Shape := ⟨2, ![4624, 128]⟩
abbrev S1x1x64x128 : Shape := ⟨4, ![1, 1, 64, 128]⟩
abbrev S64x128 : Shape := ⟨2, ![64, 128]⟩
abbrev S4352x128 : Shape := ⟨2, ![4352, 128]⟩
abbrev S1x128x128 : Shape := ⟨3, ![1, 128, 128]⟩
abbrev S128x128 : Shape := ⟨2, ![128, 128]⟩
abbrev S136x128 : Shape := ⟨2, ![136, 128]⟩
abbrev S16x64x68x128 : Shape := ⟨4, ![16, 64, 68, 128]⟩

abbrev nBuf : Space → Nat
  | .hbm => 95
  | .vmem => 21
  | .smem => 0
  | _ => 0

abbrev bufTy : (tb : Table) → Fin (tcTables nBuf tb) → BufTy
  | .hbm, ⟨0, _⟩ => ⟨S16x256x32x32, .f32⟩
  | .hbm, ⟨1, _⟩ => ⟨S16x128x64x64, .f32⟩
  | .hbm, ⟨2, _⟩ => ⟨S256x128x2x2, .f32⟩
  | .hbm, ⟨3, _⟩ => ⟨S128, .f32⟩
  | .hbm, ⟨4, _⟩ => ⟨S128x256x3x3, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x128x3x3, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S16x32x32x256, .f32⟩
  | .hbm, ⟨17, _⟩ => ⟨S16x64x64x128, .f32⟩
  | .hbm, ⟨18, _⟩ => ⟨S256x2x2x128, .f32⟩
  | .hbm, ⟨19, _⟩ => ⟨S256x512, .f32⟩
  | .hbm, ⟨20, _⟩ => ⟨S1x128, .f32⟩
  | .hbm, ⟨21, _⟩ => ⟨S4x128, .f32⟩
  | .hbm, ⟨22, _⟩ => ⟨S512, .f32⟩
  | .hbm, ⟨23, _⟩ => ⟨S1x512, .f32⟩
  | .hbm, ⟨24, _⟩ => ⟨S16x1024x256, .f32⟩
  | .hbm, ⟨25, _⟩ => ⟨S16x32x2x32x256, .f32⟩
  | .hbm, ⟨26, _⟩ => ⟨S16x64x64x128, .f32⟩
  | .hbm, ⟨27, _⟩ => ⟨S_, .f32⟩
  | .hbm, ⟨28, _⟩ => ⟨S128, .f32⟩
  | .hbm, ⟨29, _⟩ => ⟨S128, .f32⟩
  | .hbm, ⟨30, _⟩ => ⟨S128, .f32⟩
  | .hbm, ⟨31, _⟩ => ⟨S128, .f32⟩
  | .hbm, ⟨32, _⟩ => ⟨S128x1x1x1, .f32⟩
  | .hbm, ⟨33, _⟩ => ⟨S128x256x3x3, .f32⟩
  | .hbm, ⟨34, _⟩ => ⟨S128x256x3x3, .f32⟩
  | .hbm, ⟨35, _⟩ => ⟨S128, .f32⟩
  | .hbm, ⟨36, _⟩ => ⟨S128, .f32⟩
  | .hbm, ⟨37, _⟩ => ⟨S128, .f32⟩
  | .hbm, ⟨38, _⟩ => ⟨S_, .f32⟩
  | .hbm, ⟨39, _⟩ => ⟨S128, .f32⟩
  | .hbm, ⟨40, _⟩ => ⟨S128, .f32⟩
  | .hbm, ⟨41, _⟩ => ⟨S128, .f32⟩
  | .hbm, ⟨42, _⟩ => ⟨S128, .f32⟩
  | .hbm, ⟨43, _⟩ => ⟨S128x1x1x1, .f32⟩
  | .hbm, ⟨44, _⟩ => ⟨S128x128x3x3, .f32⟩
  | .hbm, ⟨45, _⟩ => ⟨S128x128x3x3, .f32⟩
  | .hbm, ⟨46, _⟩ => ⟨S128, .f32⟩
  | .hbm, ⟨47, _⟩ => ⟨S128, .f32⟩
  | .hbm, ⟨48, _⟩ => ⟨S128, .f32⟩
  | .hbm, ⟨49, _⟩ => ⟨S128x128x3x3, .f32⟩
  | .hbm, ⟨50, _⟩ => ⟨S3x3x128x128, .f32⟩
  | .hbm, ⟨51, _⟩ => ⟨S9x128x128, .f32⟩
  | .hbm, ⟨52, _⟩ => ⟨S128x128x3x3, .f32⟩
  | .hbm, ⟨53, _⟩ => ⟨S3x3x128x128, .f32⟩
  | .hbm, ⟨54, _⟩ => ⟨S9x128x128, .f32⟩
  | .hbm, ⟨55, _⟩ => ⟨S3x3x128x128, .f32⟩
  | .hbm, ⟨56, _⟩ => ⟨S9x128x128, .f32⟩
  | .hbm, ⟨57, _⟩ => ⟨S1x128, .f32⟩
  | .hbm, ⟨58, _⟩ => ⟨S1x128, .f32⟩
  | .hbm, ⟨59, _⟩ => ⟨S4352, .i32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i1⟩
  | .hbm, ⟨64, _⟩ => ⟨S_, .i32⟩
  | .hbm, ⟨65, _⟩ => ⟨S_, .i32⟩
  | .hbm, ⟨66, _⟩ => ⟨S4352, .i32⟩
  | .hbm, ⟨67, _⟩ => ⟨S4352, .i32⟩
  | .hbm, ⟨68, _⟩ => ⟨S_, .i32⟩
  | .hbm, ⟨69, _⟩ => ⟨S4352, .i32⟩
  | .hbm, ⟨70, _⟩ => ⟨S4352, .i1⟩
  | .hbm, ⟨71, _⟩ => ⟨S_, .i32⟩
  | .hbm, ⟨72, _⟩ => ⟨S4352, .i32⟩
  | .hbm, ⟨73, _⟩ => ⟨S4352, .i1⟩
  | .hbm, ⟨74, _⟩ => ⟨S_, .i32⟩
  | .hbm, ⟨75, _⟩ => ⟨S_, .i1⟩
  | .hbm, ⟨76, _⟩ => ⟨S4352, .i1⟩
  | .hbm, ⟨77, _⟩ => ⟨S4352, .i1⟩
  | .hbm, ⟨78, _⟩ => ⟨S4352, .i1⟩
  | .hbm, ⟨79, _⟩ => ⟨S4352, .i32⟩
  | .hbm, ⟨80, _⟩ => ⟨S4352, .i32⟩
  | .hbm, ⟨81, _⟩ => ⟨S4352, .i32⟩
  | .hbm, ⟨82, _⟩ => ⟨S_, .i32⟩
  | .hbm, ⟨83, _⟩ => ⟨S4352, .i32⟩
  | .hbm, ⟨84, _⟩ => ⟨S4352, .i1⟩
  | .hbm, ⟨85, _⟩ => ⟨S_, .i32⟩
  | .hbm, ⟨86, _⟩ => ⟨S4352, .i32⟩
  | .hbm, ⟨87, _⟩ => ⟨S4352, .i1⟩
  | .hbm, ⟨88, _⟩ => ⟨S4352, .i1⟩
  | .hbm, ⟨89, _⟩ => ⟨S4352, .f32⟩
  | .hbm, ⟨90, _⟩ => ⟨S4352x1, .f32⟩
  | .hbm, ⟨91, _⟩ => ⟨S16x4352x128, .f32⟩
  | .hbm, ⟨92, _⟩ => ⟨S16x64x68x128, .f32⟩
  | .hbm, ⟨93, _⟩ => ⟨S16x64x64x128, .f32⟩
  | .hbm, ⟨94, _⟩ => ⟨S16x128x64x64, .f32⟩
  | .local _ .vmem, ⟨0, _⟩ => ⟨S1x1024x256, .f32⟩
  | .local _ .vmem, ⟨1, _⟩ => ⟨S1x1024x256, .f32⟩
  | .local _ .vmem, ⟨2, _⟩ => ⟨S256x512, .f32⟩
  | .local _ .vmem, ⟨3, _⟩ => ⟨S1x512, .f32⟩
  | .local _ .vmem, ⟨4, _⟩ => ⟨S1x32x2x32x256, .f32⟩
  | .local _ .vmem, ⟨5, _⟩ => ⟨S1x32x2x32x256, .f32⟩
  | .local _ .vmem, ⟨6, _⟩ => ⟨S1x64x64x128, .f32⟩
  | .local _ .vmem, ⟨7, _⟩ => ⟨S1x64x64x128, .f32⟩
  | .local _ .vmem, ⟨8, _⟩ => ⟨S1x64x64x128, .f32⟩
  | .local _ .vmem, ⟨9, _⟩ => ⟨S1x64x64x128, .f32⟩
  | .local _ .vmem, ⟨10, _⟩ => ⟨S4352x1, .f32⟩
  | .local _ .vmem, ⟨11, _⟩ => ⟨S9x128x128, .f32⟩
  | .local _ .vmem, ⟨12, _⟩ => ⟨S9x128x128, .f32⟩
  | .local _ .vmem, ⟨13, _⟩ => ⟨S1x128, .f32⟩
  | .local _ .vmem, ⟨14, _⟩ => ⟨S9x128x128, .f32⟩
  | .local _ .vmem, ⟨15, _⟩ => ⟨S1x128, .f32⟩
  | .local _ .vmem, ⟨16, _⟩ => ⟨S1x4352x128, .f32⟩
  | .local _ .vmem, ⟨17, _⟩ => ⟨S1x4352x128, .f32⟩
  | .local _ .vmem, ⟨18, _⟩ => ⟨S4624x128, .f32⟩
  | .local _ .vmem, ⟨19, _⟩ => ⟨S4624x128, .f32⟩
  | .local _ .vmem, ⟨20, _⟩ => ⟨S4624x128, .f32⟩
  | _, _ => ⟨S16x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_0 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c : Ref sig .tc := ⟨.hbm, 60, rfl⟩
abbrev main_call0_v0 : Ref sig .tc := ⟨.hbm, 61, rfl⟩
abbrev main_call0_c : Ref sig .tc := ⟨.hbm, 62, rfl⟩
abbrev main_call0_v1 : Ref sig .tc := ⟨.hbm, 63, rfl⟩
abbrev main_call0_c_0 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_call0_c_1 : Ref sig .tc := ⟨.hbm, 68, rfl⟩
abbrev main_call0_v5 : Ref sig .tc := ⟨.hbm, 69, rfl⟩
abbrev main_call0_v6 : Ref sig .tc := ⟨.hbm, 70, rfl⟩
abbrev main_call0_c_2 : Ref sig .tc := ⟨.hbm, 71, rfl⟩
abbrev main_call0_v7 : Ref sig .tc := ⟨.hbm, 72, rfl⟩
abbrev main_call0_v8 : Ref sig .tc := ⟨.hbm, 73, rfl⟩
abbrev main_call0_c_3 : Ref sig .tc := ⟨.hbm, 74, rfl⟩
abbrev main_call0_v9 : Ref sig .tc := ⟨.hbm, 75, rfl⟩
abbrev main_call0_v10 : Ref sig .tc := ⟨.hbm, 76, rfl⟩
abbrev main_call0_v11 : Ref sig .tc := ⟨.hbm, 77, rfl⟩
abbrev main_call0_v12 : Ref sig .tc := ⟨.hbm, 78, rfl⟩
abbrev main_call0_v13 : Ref sig .tc := ⟨.hbm, 79, rfl⟩
abbrev main_call0_v14 : Ref sig .tc := ⟨.hbm, 80, rfl⟩
abbrev main_v42 : Ref sig .tc := ⟨.hbm, 81, rfl⟩
abbrev main_c_1 : Ref sig .tc := ⟨.hbm, 82, rfl⟩
abbrev main_v43 : Ref sig .tc := ⟨.hbm, 83, rfl⟩
abbrev main_v44 : Ref sig .tc := ⟨.hbm, 84, rfl⟩
abbrev main_c_2 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg8_1 : Ref sig .tc := ⟨.vmem, 17, rfl⟩
abbrev cc1_scratch0 : Ref sig .tc := ⟨.vmem, 18, rfl⟩
abbrev cc1_scratch1 : Ref sig .tc := ⟨.vmem, 19, rfl⟩
abbrev cc1_scratch2 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x32x2x32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x64x64x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x64x64x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4352x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S9x128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S9x128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S9x128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S1x4352x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  transposes_S16x256x32x32_S16x32x32x256_0_2_3_1 : S16x256x32x32.Transposes [0, 2, 3, 1] S16x32x32x256
  transposes_S16x128x64x64_S16x64x64x128_0_2_3_1 : S16x128x64x64.Transposes [0, 2, 3, 1] S16x64x64x128
  transposes_S256x128x2x2_S256x2x2x128_0_2_3_1 : S256x128x2x2.Transposes [0, 2, 3, 1] S256x2x2x128
  shapeCasts_S256x2x2x128_S256x512 : S256x2x2x128.ShapeCasts S256x512
  shapeCasts_S128_S1x128 : S128.ShapeCasts S1x128
  bcast_S1x128_S4x128_0_1 : S1x128.BroadcastsInDim S4x128 (![0, 1] : Fin 2 → Fin S4x128.rank)
  shapeCasts_S4x128_S512 : S4x128.ShapeCasts S512
  shapeCasts_S512_S1x512 : S512.ShapeCasts S1x512
  shapeCasts_S16x32x32x256_S16x1024x256 : S16x32x32x256.ShapeCasts S16x1024x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  slices_S1024x512_o0_0_S32x512 : S1024x512.Slices ![0, 0] S32x512
  slices_S32x512_o0_0_S32x256 : S32x512.Slices ![0, 0] S32x256
  inb_S1x32x2x32x256_S1x1x1x32x256_0_0_0_0_0 : ∀ a, (![0, 0, 0, 0, 0] : Fin 5 → Nat) a + S1x1x1x32x256.size a ≤ S1x32x2x32x256.size a
  h_S1x1x1x32x256 : 0 < S1x1x1x32x256.numel
  shapeCasts_S1x1x1x32x256_S32x256 : S1x1x1x32x256.ShapeCasts S32x256
  shapeCasts_S32x256_S1x1x1x32x256 : S32x256.ShapeCasts S1x1x1x32x256
  slices_S32x512_o0_256_S32x256 : S32x512.Slices ![0, 256] S32x256
  inb_S1x32x2x32x256_S1x1x1x32x256_0_0_1_0_0 : ∀ a, (![0, 0, 1, 0, 0] : Fin 5 → Nat) a + S1x1x1x32x256.size a ≤ S1x32x2x32x256.size a
  slices_S1024x512_o32_0_S32x512 : S1024x512.Slices ![32, 0] S32x512
  inb_S1x32x2x32x256_S1x1x1x32x256_0_1_0_0_0 : ∀ a, (![0, 1, 0, 0, 0] : Fin 5 → Nat) a + S1x1x1x32x256.size a ≤ S1x32x2x32x256.size a
  inb_S1x32x2x32x256_S1x1x1x32x256_0_1_1_0_0 : ∀ a, (![0, 1, 1, 0, 0] : Fin 5 → Nat) a + S1x1x1x32x256.size a ≤ S1x32x2x32x256.size a
  slices_S1024x512_o64_0_S32x512 : S1024x512.Slices ![64, 0] S32x512
  inb_S1x32x2x32x256_S1x1x1x32x256_0_2_0_0_0 : ∀ a, (![0, 2, 0, 0, 0] : Fin 5 → Nat) a + S1x1x1x32x256.size a ≤ S1x32x2x32x256.size a
  inb_S1x32x2x32x256_S1x1x1x32x256_0_2_1_0_0 : ∀ a, (![0, 2, 1, 0, 0] : Fin 5 → Nat) a + S1x1x1x32x256.size a ≤ S1x32x2x32x256.size a
  slices_S1024x512_o96_0_S32x512 : S1024x512.Slices ![96, 0] S32x512
  inb_S1x32x2x32x256_S1x1x1x32x256_0_3_0_0_0 : ∀ a, (![0, 3, 0, 0, 0] : Fin 5 → Nat) a + S1x1x1x32x256.size a ≤ S1x32x2x32x256.size a
  inb_S1x32x2x32x256_S1x1x1x32x256_0_3_1_0_0 : ∀ a, (![0, 3, 1, 0, 0] : Fin 5 → Nat) a + S1x1x1x32x256.size a ≤ S1x32x2x32x256.size a
  slices_S1024x512_o128_0_S32x512 : S1024x512.Slices ![128, 0] S32x512
  inb_S1x32x2x32x256_S1x1x1x32x256_0_4_0_0_0 : ∀ a, (![0, 4, 0, 0, 0] : Fin 5 → Nat) a + S1x1x1x32x256.size a ≤ S1x32x2x32x256.size a
  inb_S1x32x2x32x256_S1x1x1x32x256_0_4_1_0_0 : ∀ a, (![0, 4, 1, 0, 0] : Fin 5 → Nat) a + S1x1x1x32x256.size a ≤ S1x32x2x32x256.size a
  slices_S1024x512_o160_0_S32x512 : S1024x512.Slices ![160, 0] S32x512
  inb_S1x32x2x32x256_S1x1x1x32x256_0_5_0_0_0 : ∀ a, (![0, 5, 0, 0, 0] : Fin 5 → Nat) a + S1x1x1x32x256.size a ≤ S1x32x2x32x256.size a
  inb_S1x32x2x32x256_S1x1x1x32x256_0_5_1_0_0 : ∀ a, (![0, 5, 1, 0, 0] : Fin 5 → Nat) a + S1x1x1x32x256.size a ≤ S1x32x2x32x256.size a
  slices_S1024x512_o192_0_S32x512 : S1024x512.Slices ![192, 0] S32x512
  inb_S1x32x2x32x256_S1x1x1x32x256_0_6_0_0_0 : ∀ a, (![0, 6, 0, 0, 0] : Fin 5 → Nat) a + S1x1x1x32x256.size a ≤ S1x32x2x32x256.size a
  inb_S1x32x2x32x256_S1x1x1x32x256_0_6_1_0_0 : ∀ a, (![0, 6, 1, 0, 0] : Fin 5 → Nat) a + S1x1x1x32x256.size a ≤ S1x32x2x32x256.size a
  slices_S1024x512_o224_0_S32x512 : S1024x512.Slices ![224, 0] S32x512
  inb_S1x32x2x32x256_S1x1x1x32x256_0_7_0_0_0 : ∀ a, (![0, 7, 0, 0, 0] : Fin 5 → Nat) a + S1x1x1x32x256.size a ≤ S1x32x2x32x256.size a
  inb_S1x32x2x32x256_S1x1x1x32x256_0_7_1_0_0 : ∀ a, (![0, 7, 1, 0, 0] : Fin 5 → Nat) a + S1x1x1x32x256.size a ≤ S1x32x2x32x256.size a
  slices_S1024x512_o256_0_S32x512 : S1024x512.Slices ![256, 0] S32x512
  inb_S1x32x2x32x256_S1x1x1x32x256_0_8_0_0_0 : ∀ a, (![0, 8, 0, 0, 0] : Fin 5 → Nat) a + S1x1x1x32x256.size a ≤ S1x32x2x32x256.size a
  inb_S1x32x2x32x256_S1x1x1x32x256_0_8_1_0_0 : ∀ a, (![0, 8, 1, 0, 0] : Fin 5 → Nat) a + S1x1x1x32x256.size a ≤ S1x32x2x32x256.size a
  slices_S1024x512_o288_0_S32x512 : S1024x512.Slices ![288, 0] S32x512
  inb_S1x32x2x32x256_S1x1x1x32x256_0_9_0_0_0 : ∀ a, (![0, 9, 0, 0, 0] : Fin 5 → Nat) a + S1x1x1x32x256.size a ≤ S1x32x2x32x256.size a
  inb_S1x32x2x32x256_S1x1x1x32x256_0_9_1_0_0 : ∀ a, (![0, 9, 1, 0, 0] : Fin 5 → Nat) a + S1x1x1x32x256.size a ≤ S1x32x2x32x256.size a
  slices_S1024x512_o320_0_S32x512 : S1024x512.Slices ![320, 0] S32x512
  inb_S1x32x2x32x256_S1x1x1x32x256_0_10_0_0_0 : ∀ a, (![0, 10, 0, 0, 0] : Fin 5 → Nat) a + S1x1x1x32x256.size a ≤ S1x32x2x32x256.size a
  inb_S1x32x2x32x256_S1x1x1x32x256_0_10_1_0_0 : ∀ a, (![0, 10, 1, 0, 0] : Fin 5 → Nat) a + S1x1x1x32x256.size a ≤ S1x32x2x32x256.size a
  slices_S1024x512_o352_0_S32x512 : S1024x512.Slices ![352, 0] S32x512
  inb_S1x32x2x32x256_S1x1x1x32x256_0_11_0_0_0 : ∀ a, (![0, 11, 0, 0, 0] : Fin 5 → Nat) a + S1x1x1x32x256.size a ≤ S1x32x2x32x256.size a
  inb_S1x32x2x32x256_S1x1x1x32x256_0_11_1_0_0 : ∀ a, (![0, 11, 1, 0, 0] : Fin 5 → Nat) a + S1x1x1x32x256.size a ≤ S1x32x2x32x256.size a
  slices_S1024x512_o384_0_S32x512 : S1024x512.Slices ![384, 0] S32x512
  inb_S1x32x2x32x256_S1x1x1x32x256_0_12_0_0_0 : ∀ a, (![0, 12, 0, 0, 0] : Fin 5 → Nat) a + S1x1x1x32x256.size a ≤ S1x32x2x32x256.size a
  inb_S1x32x2x32x256_S1x1x1x32x256_0_12_1_0_0 : ∀ a, (![0, 12, 1, 0, 0] : Fin 5 → Nat) a + S1x1x1x32x256.size a ≤ S1x32x2x32x256.size a
  slices_S1024x512_o416_0_S32x512 : S1024x512.Slices ![416, 0] S32x512
  inb_S1x32x2x32x256_S1x1x1x32x256_0_13_0_0_0 : ∀ a, (![0, 13, 0, 0, 0] : Fin 5 → Nat) a + S1x1x1x32x256.size a ≤ S1x32x2x32x256.size a
  inb_S1x32x2x32x256_S1x1x1x32x256_0_13_1_0_0 : ∀ a, (![0, 13, 1, 0, 0] : Fin 5 → Nat) a + S1x1x1x32x256.size a ≤ S1x32x2x32x256.size a
  slices_S1024x512_o448_0_S32x512 : S1024x512.Slices ![448, 0] S32x512
  inb_S1x32x2x32x256_S1x1x1x32x256_0_14_0_0_0 : ∀ a, (![0, 14, 0, 0, 0] : Fin 5 → Nat) a + S1x1x1x32x256.size a ≤ S1x32x2x32x256.size a
  inb_S1x32x2x32x256_S1x1x1x32x256_0_14_1_0_0 : ∀ a, (![0, 14, 1, 0, 0] : Fin 5 → Nat) a + S1x1x1x32x256.size a ≤ S1x32x2x32x256.size a
  slices_S1024x512_o480_0_S32x512 : S1024x512.Slices ![480, 0] S32x512
  inb_S1x32x2x32x256_S1x1x1x32x256_0_15_0_0_0 : ∀ a, (![0, 15, 0, 0, 0] : Fin 5 → Nat) a + S1x1x1x32x256.size a ≤ S1x32x2x32x256.size a
  inb_S1x32x2x32x256_S1x1x1x32x256_0_15_1_0_0 : ∀ a, (![0, 15, 1, 0, 0] : Fin 5 → Nat) a + S1x1x1x32x256.size a ≤ S1x32x2x32x256.size a
  slices_S1024x512_o512_0_S32x512 : S1024x512.Slices ![512, 0] S32x512
  inb_S1x32x2x32x256_S1x1x1x32x256_0_16_0_0_0 : ∀ a, (![0, 16, 0, 0, 0] : Fin 5 → Nat) a + S1x1x1x32x256.size a ≤ S1x32x2x32x256.size a
  inb_S1x32x2x32x256_S1x1x1x32x256_0_16_1_0_0 : ∀ a, (![0, 16, 1, 0, 0] : Fin 5 → Nat) a + S1x1x1x32x256.size a ≤ S1x32x2x32x256.size a
  slices_S1024x512_o544_0_S32x512 : S1024x512.Slices ![544, 0] S32x512
  inb_S1x32x2x32x256_S1x1x1x32x256_0_17_0_0_0 : ∀ a, (![0, 17, 0, 0, 0] : Fin 5 → Nat) a + S1x1x1x32x256.size a ≤ S1x32x2x32x256.size a
  inb_S1x32x2x32x256_S1x1x1x32x256_0_17_1_0_0 : ∀ a, (![0, 17, 1, 0, 0] : Fin 5 → Nat) a + S1x1x1x32x256.size a ≤ S1x32x2x32x256.size a
  slices_S1024x512_o576_0_S32x512 : S1024x512.Slices ![576, 0] S32x512
  inb_S1x32x2x32x256_S1x1x1x32x256_0_18_0_0_0 : ∀ a, (![0, 18, 0, 0, 0] : Fin 5 → Nat) a + S1x1x1x32x256.size a ≤ S1x32x2x32x256.size a
  inb_S1x32x2x32x256_S1x1x1x32x256_0_18_1_0_0 : ∀ a, (![0, 18, 1, 0, 0] : Fin 5 → Nat) a + S1x1x1x32x256.size a ≤ S1x32x2x32x256.size a
  slices_S1024x512_o608_0_S32x512 : S1024x512.Slices ![608, 0] S32x512
  inb_S1x32x2x32x256_S1x1x1x32x256_0_19_0_0_0 : ∀ a, (![0, 19, 0, 0, 0] : Fin 5 → Nat) a + S1x1x1x32x256.size a ≤ S1x32x2x32x256.size a
  inb_S1x32x2x32x256_S1x1x1x32x256_0_19_1_0_0 : ∀ a, (![0, 19, 1, 0, 0] : Fin 5 → Nat) a + S1x1x1x32x256.size a ≤ S1x32x2x32x256.size a
  slices_S1024x512_o640_0_S32x512 : S1024x512.Slices ![640, 0] S32x512
  inb_S1x32x2x32x256_S1x1x1x32x256_0_20_0_0_0 : ∀ a, (![0, 20, 0, 0, 0] : Fin 5 → Nat) a + S1x1x1x32x256.size a ≤ S1x32x2x32x256.size a
  inb_S1x32x2x32x256_S1x1x1x32x256_0_20_1_0_0 : ∀ a, (![0, 20, 1, 0, 0] : Fin 5 → Nat) a + S1x1x1x32x256.size a ≤ S1x32x2x32x256.size a
  slices_S1024x512_o672_0_S32x512 : S1024x512.Slices ![672, 0] S32x512
  inb_S1x32x2x32x256_S1x1x1x32x256_0_21_0_0_0 : ∀ a, (![0, 21, 0, 0, 0] : Fin 5 → Nat) a + S1x1x1x32x256.size a ≤ S1x32x2x32x256.size a
  inb_S1x32x2x32x256_S1x1x1x32x256_0_21_1_0_0 : ∀ a, (![0, 21, 1, 0, 0] : Fin 5 → Nat) a + S1x1x1x32x256.size a ≤ S1x32x2x32x256.size a
  slices_S1024x512_o704_0_S32x512 : S1024x512.Slices ![704, 0] S32x512
  inb_S1x32x2x32x256_S1x1x1x32x256_0_22_0_0_0 : ∀ a, (![0, 22, 0, 0, 0] : Fin 5 → Nat) a + S1x1x1x32x256.size a ≤ S1x32x2x32x256.size a
  inb_S1x32x2x32x256_S1x1x1x32x256_0_22_1_0_0 : ∀ a, (![0, 22, 1, 0, 0] : Fin 5 → Nat) a + S1x1x1x32x256.size a ≤ S1x32x2x32x256.size a
  slices_S1024x512_o736_0_S32x512 : S1024x512.Slices ![736, 0] S32x512
  inb_S1x32x2x32x256_S1x1x1x32x256_0_23_0_0_0 : ∀ a, (![0, 23, 0, 0, 0] : Fin 5 → Nat) a + S1x1x1x32x256.size a ≤ S1x32x2x32x256.size a
  inb_S1x32x2x32x256_S1x1x1x32x256_0_23_1_0_0 : ∀ a, (![0, 23, 1, 0, 0] : Fin 5 → Nat) a + S1x1x1x32x256.size a ≤ S1x32x2x32x256.size a
  slices_S1024x512_o768_0_S32x512 : S1024x512.Slices ![768, 0] S32x512
  inb_S1x32x2x32x256_S1x1x1x32x256_0_24_0_0_0 : ∀ a, (![0, 24, 0, 0, 0] : Fin 5 → Nat) a + S1x1x1x32x256.size a ≤ S1x32x2x32x256.size a
  inb_S1x32x2x32x256_S1x1x1x32x256_0_24_1_0_0 : ∀ a, (![0, 24, 1, 0, 0] : Fin 5 → Nat) a + S1x1x1x32x256.size a ≤ S1x32x2x32x256.size a
  slices_S1024x512_o800_0_S32x512 : S1024x512.Slices ![800, 0] S32x512
  inb_S1x32x2x32x256_S1x1x1x32x256_0_25_0_0_0 : ∀ a, (![0, 25, 0, 0, 0] : Fin 5 → Nat) a + S1x1x1x32x256.size a ≤ S1x32x2x32x256.size a
  inb_S1x32x2x32x256_S1x1x1x32x256_0_25_1_0_0 : ∀ a, (![0, 25, 1, 0, 0] : Fin 5 → Nat) a + S1x1x1x32x256.size a ≤ S1x32x2x32x256.size a
  slices_S1024x512_o832_0_S32x512 : S1024x512.Slices ![832, 0] S32x512
  inb_S1x32x2x32x256_S1x1x1x32x256_0_26_0_0_0 : ∀ a, (![0, 26, 0, 0, 0] : Fin 5 → Nat) a + S1x1x1x32x256.size a ≤ S1x32x2x32x256.size a
  inb_S1x32x2x32x256_S1x1x1x32x256_0_26_1_0_0 : ∀ a, (![0, 26, 1, 0, 0] : Fin 5 → Nat) a + S1x1x1x32x256.size a ≤ S1x32x2x32x256.size a
  slices_S1024x512_o864_0_S32x512 : S1024x512.Slices ![864, 0] S32x512
  inb_S1x32x2x32x256_S1x1x1x32x256_0_27_0_0_0 : ∀ a, (![0, 27, 0, 0, 0] : Fin 5 → Nat) a + S1x1x1x32x256.size a ≤ S1x32x2x32x256.size a
  inb_S1x32x2x32x256_S1x1x1x32x256_0_27_1_0_0 : ∀ a, (![0, 27, 1, 0, 0] : Fin 5 → Nat) a + S1x1x1x32x256.size a ≤ S1x32x2x32x256.size a
  slices_S1024x512_o896_0_S32x512 : S1024x512.Slices ![896, 0] S32x512
  inb_S1x32x2x32x256_S1x1x1x32x256_0_28_0_0_0 : ∀ a, (![0, 28, 0, 0, 0] : Fin 5 → Nat) a + S1x1x1x32x256.size a ≤ S1x32x2x32x256.size a
  inb_S1x32x2x32x256_S1x1x1x32x256_0_28_1_0_0 : ∀ a, (![0, 28, 1, 0, 0] : Fin 5 → Nat) a + S1x1x1x32x256.size a ≤ S1x32x2x32x256.size a
  slices_S1024x512_o928_0_S32x512 : S1024x512.Slices ![928, 0] S32x512
  inb_S1x32x2x32x256_S1x1x1x32x256_0_29_0_0_0 : ∀ a, (![0, 29, 0, 0, 0] : Fin 5 → Nat) a + S1x1x1x32x256.size a ≤ S1x32x2x32x256.size a
  inb_S1x32x2x32x256_S1x1x1x32x256_0_29_1_0_0 : ∀ a, (![0, 29, 1, 0, 0] : Fin 5 → Nat) a + S1x1x1x32x256.size a ≤ S1x32x2x32x256.size a
  slices_S1024x512_o960_0_S32x512 : S1024x512.Slices ![960, 0] S32x512
  inb_S1x32x2x32x256_S1x1x1x32x256_0_30_0_0_0 : ∀ a, (![0, 30, 0, 0, 0] : Fin 5 → Nat) a + S1x1x1x32x256.size a ≤ S1x32x2x32x256.size a
  inb_S1x32x2x32x256_S1x1x1x32x256_0_30_1_0_0 : ∀ a, (![0, 30, 1, 0, 0] : Fin 5 → Nat) a + S1x1x1x32x256.size a ≤ S1x32x2x32x256.size a
  slices_S1024x512_o992_0_S32x512 : S1024x512.Slices ![992, 0] S32x512
  inb_S1x32x2x32x256_S1x1x1x32x256_0_31_0_0_0 : ∀ a, (![0, 31, 0, 0, 0] : Fin 5 → Nat) a + S1x1x1x32x256.size a ≤ S1x32x2x32x256.size a
  inb_S1x32x2x32x256_S1x1x1x32x256_0_31_1_0_0 : ∀ a, (![0, 31, 1, 0, 0] : Fin 5 → Nat) a + S1x1x1x32x256.size a ≤ S1x32x2x32x256.size a
  shapeCasts_S16x32x2x32x256_S16x64x64x128 : S16x32x2x32x256.ShapeCasts S16x64x64x128
  bcast_S_S128 : S_.BroadcastsInDim S128 (![] : Fin 0 → Fin S128.rank)
  bcast_S128_S128x1x1x1_0 : S128.BroadcastsInDim S128x1x1x1 (![0] : Fin 1 → Fin S128x1x1x1.rank)
  bcast_S128x1x1x1_S128x256x3x3_0_1_2_3 : S128x1x1x1.BroadcastsInDim S128x256x3x3 (![0, 1, 2, 3] : Fin 4 → Fin S128x256x3x3.rank)
  bcast_S128x1x1x1_S128x128x3x3_0_1_2_3 : S128x1x1x1.BroadcastsInDim S128x128x3x3 (![0, 1, 2, 3] : Fin 4 → Fin S128x128x3x3.rank)
  slices_S128x256x3x3_S128x128x3x3_0_0_0_0 : S128x256x3x3.Slices ![0, 0, 0, 0] S128x128x3x3
  transposes_S128x128x3x3_S3x3x128x128_2_3_1_0 : S128x128x3x3.Transposes [2, 3, 1, 0] S3x3x128x128
  shapeCasts_S3x3x128x128_S9x128x128 : S3x3x128x128.ShapeCasts S9x128x128
  slices_S128x256x3x3_S128x128x3x3_0_128_0_0 : S128x256x3x3.Slices ![0, 128, 0, 0] S128x128x3x3
  bcast_S_S4352 : S_.BroadcastsInDim S4352 (![] : Fin 0 → Fin S4352.rank)
  shapeCasts_S4352_S4352x1 : S4352.ShapeCasts S4352x1
  inb_S4624x128_S4624x128_0_0 : ∀ a, (![0, 0] : Fin 2 → Nat) a + S4624x128.size a ≤ S4624x128.size a
  h_S4624x128 : 0 < S4624x128.numel
  shapeCasts_S4624x128_S4624x128 : S4624x128.ShapeCasts S4624x128
  inb_S1x64x64x128_S1x1x64x128_0_0_0_0 : ∀ a, (![0, 0, 0, 0] : Fin 4 → Nat) a + S1x1x64x128.size a ≤ S1x64x64x128.size a
  h_S1x1x64x128 : 0 < S1x1x64x128.numel
  shapeCasts_S1x1x64x128_S64x128 : S1x1x64x128.ShapeCasts S64x128
  inb_S4624x128_S64x128_138_0 : ∀ a, (![138, 0] : Fin 2 → Nat) a + S64x128.size a ≤ S4624x128.size a
  h_S64x128 : 0 < S64x128.numel
  shapeCasts_S64x128_S64x128 : S64x128.ShapeCasts S64x128
  inb_S1x64x64x128_S1x1x64x128_0_1_0_0 : ∀ a, (![0, 1, 0, 0] : Fin 4 → Nat) a + S1x1x64x128.size a ≤ S1x64x64x128.size a
  inb_S4624x128_S64x128_206_0 : ∀ a, (![206, 0] : Fin 2 → Nat) a + S64x128.size a ≤ S4624x128.size a
  inb_S1x64x64x128_S1x1x64x128_0_2_0_0 : ∀ a, (![0, 2, 0, 0] : Fin 4 → Nat) a + S1x1x64x128.size a ≤ S1x64x64x128.size a
  inb_S4624x128_S64x128_274_0 : ∀ a, (![274, 0] : Fin 2 → Nat) a + S64x128.size a ≤ S4624x128.size a
  inb_S1x64x64x128_S1x1x64x128_0_3_0_0 : ∀ a, (![0, 3, 0, 0] : Fin 4 → Nat) a + S1x1x64x128.size a ≤ S1x64x64x128.size a
  inb_S4624x128_S64x128_342_0 : ∀ a, (![342, 0] : Fin 2 → Nat) a + S64x128.size a ≤ S4624x128.size a
  inb_S1x64x64x128_S1x1x64x128_0_4_0_0 : ∀ a, (![0, 4, 0, 0] : Fin 4 → Nat) a + S1x1x64x128.size a ≤ S1x64x64x128.size a
  inb_S4624x128_S64x128_410_0 : ∀ a, (![410, 0] : Fin 2 → Nat) a + S64x128.size a ≤ S4624x128.size a
  inb_S1x64x64x128_S1x1x64x128_0_5_0_0 : ∀ a, (![0, 5, 0, 0] : Fin 4 → Nat) a + S1x1x64x128.size a ≤ S1x64x64x128.size a
  inb_S4624x128_S64x128_478_0 : ∀ a, (![478, 0] : Fin 2 → Nat) a + S64x128.size a ≤ S4624x128.size a
  inb_S1x64x64x128_S1x1x64x128_0_6_0_0 : ∀ a, (![0, 6, 0, 0] : Fin 4 → Nat) a + S1x1x64x128.size a ≤ S1x64x64x128.size a
  inb_S4624x128_S64x128_546_0 : ∀ a, (![546, 0] : Fin 2 → Nat) a + S64x128.size a ≤ S4624x128.size a
  inb_S1x64x64x128_S1x1x64x128_0_7_0_0 : ∀ a, (![0, 7, 0, 0] : Fin 4 → Nat) a + S1x1x64x128.size a ≤ S1x64x64x128.size a
  inb_S4624x128_S64x128_614_0 : ∀ a, (![614, 0] : Fin 2 → Nat) a + S64x128.size a ≤ S4624x128.size a
  inb_S1x64x64x128_S1x1x64x128_0_8_0_0 : ∀ a, (![0, 8, 0, 0] : Fin 4 → Nat) a + S1x1x64x128.size a ≤ S1x64x64x128.size a
  inb_S4624x128_S64x128_682_0 : ∀ a, (![682, 0] : Fin 2 → Nat) a + S64x128.size a ≤ S4624x128.size a
  inb_S1x64x64x128_S1x1x64x128_0_9_0_0 : ∀ a, (![0, 9, 0, 0] : Fin 4 → Nat) a + S1x1x64x128.size a ≤ S1x64x64x128.size a
  inb_S4624x128_S64x128_750_0 : ∀ a, (![750, 0] : Fin 2 → Nat) a + S64x128.size a ≤ S4624x128.size a
  inb_S1x64x64x128_S1x1x64x128_0_10_0_0 : ∀ a, (![0, 10, 0, 0] : Fin 4 → Nat) a + S1x1x64x128.size a ≤ S1x64x64x128.size a
  inb_S4624x128_S64x128_818_0 : ∀ a, (![818, 0] : Fin 2 → Nat) a + S64x128.size a ≤ S4624x128.size a
  inb_S1x64x64x128_S1x1x64x128_0_11_0_0 : ∀ a, (![0, 11, 0, 0] : Fin 4 → Nat) a + S1x1x64x128.size a ≤ S1x64x64x128.size a
  inb_S4624x128_S64x128_886_0 : ∀ a, (![886, 0] : Fin 2 → Nat) a + S64x128.size a ≤ S4624x128.size a
  inb_S1x64x64x128_S1x1x64x128_0_12_0_0 : ∀ a, (![0, 12, 0, 0] : Fin 4 → Nat) a + S1x1x64x128.size a ≤ S1x64x64x128.size a
  inb_S4624x128_S64x128_954_0 : ∀ a, (![954, 0] : Fin 2 → Nat) a + S64x128.size a ≤ S4624x128.size a
  inb_S1x64x64x128_S1x1x64x128_0_13_0_0 : ∀ a, (![0, 13, 0, 0] : Fin 4 → Nat) a + S1x1x64x128.size a ≤ S1x64x64x128.size a
  inb_S4624x128_S64x128_1022_0 : ∀ a, (![1022, 0] : Fin 2 → Nat) a + S64x128.size a ≤ S4624x128.size a
  inb_S1x64x64x128_S1x1x64x128_0_14_0_0 : ∀ a, (![0, 14, 0, 0] : Fin 4 → Nat) a + S1x1x64x128.size a ≤ S1x64x64x128.size a
  inb_S4624x128_S64x128_1090_0 : ∀ a, (![1090, 0] : Fin 2 → Nat) a + S64x128.size a ≤ S4624x128.size a
  inb_S1x64x64x128_S1x1x64x128_0_15_0_0 : ∀ a, (![0, 15, 0, 0] : Fin 4 → Nat) a + S1x1x64x128.size a ≤ S1x64x64x128.size a
  inb_S4624x128_S64x128_1158_0 : ∀ a, (![1158, 0] : Fin 2 → Nat) a + S64x128.size a ≤ S4624x128.size a
  inb_S1x64x64x128_S1x1x64x128_0_16_0_0 : ∀ a, (![0, 16, 0, 0] : Fin 4 → Nat) a + S1x1x64x128.size a ≤ S1x64x64x128.size a
  inb_S4624x128_S64x128_1226_0 : ∀ a, (![1226, 0] : Fin 2 → Nat) a + S64x128.size a ≤ S4624x128.size a
  inb_S1x64x64x128_S1x1x64x128_0_17_0_0 : ∀ a, (![0, 17, 0, 0] : Fin 4 → Nat) a + S1x1x64x128.size a ≤ S1x64x64x128.size a
  inb_S4624x128_S64x128_1294_0 : ∀ a, (![1294, 0] : Fin 2 → Nat) a + S64x128.size a ≤ S4624x128.size a
  inb_S1x64x64x128_S1x1x64x128_0_18_0_0 : ∀ a, (![0, 18, 0, 0] : Fin 4 → Nat) a + S1x1x64x128.size a ≤ S1x64x64x128.size a
  inb_S4624x128_S64x128_1362_0 : ∀ a, (![1362, 0] : Fin 2 → Nat) a + S64x128.size a ≤ S4624x128.size a
  inb_S1x64x64x128_S1x1x64x128_0_19_0_0 : ∀ a, (![0, 19, 0, 0] : Fin 4 → Nat) a + S1x1x64x128.size a ≤ S1x64x64x128.size a
  inb_S4624x128_S64x128_1430_0 : ∀ a, (![1430, 0] : Fin 2 → Nat) a + S64x128.size a ≤ S4624x128.size a
  inb_S1x64x64x128_S1x1x64x128_0_20_0_0 : ∀ a, (![0, 20, 0, 0] : Fin 4 → Nat) a + S1x1x64x128.size a ≤ S1x64x64x128.size a
  inb_S4624x128_S64x128_1498_0 : ∀ a, (![1498, 0] : Fin 2 → Nat) a + S64x128.size a ≤ S4624x128.size a
  inb_S1x64x64x128_S1x1x64x128_0_21_0_0 : ∀ a, (![0, 21, 0, 0] : Fin 4 → Nat) a + S1x1x64x128.size a ≤ S1x64x64x128.size a
  inb_S4624x128_S64x128_1566_0 : ∀ a, (![1566, 0] : Fin 2 → Nat) a + S64x128.size a ≤ S4624x128.size a
  inb_S1x64x64x128_S1x1x64x128_0_22_0_0 : ∀ a, (![0, 22, 0, 0] : Fin 4 → Nat) a + S1x1x64x128.size a ≤ S1x64x64x128.size a
  inb_S4624x128_S64x128_1634_0 : ∀ a, (![1634, 0] : Fin 2 → Nat) a + S64x128.size a ≤ S4624x128.size a
  inb_S1x64x64x128_S1x1x64x128_0_23_0_0 : ∀ a, (![0, 23, 0, 0] : Fin 4 → Nat) a + S1x1x64x128.size a ≤ S1x64x64x128.size a
  inb_S4624x128_S64x128_1702_0 : ∀ a, (![1702, 0] : Fin 2 → Nat) a + S64x128.size a ≤ S4624x128.size a
  inb_S1x64x64x128_S1x1x64x128_0_24_0_0 : ∀ a, (![0, 24, 0, 0] : Fin 4 → Nat) a + S1x1x64x128.size a ≤ S1x64x64x128.size a
  inb_S4624x128_S64x128_1770_0 : ∀ a, (![1770, 0] : Fin 2 → Nat) a + S64x128.size a ≤ S4624x128.size a
  inb_S1x64x64x128_S1x1x64x128_0_25_0_0 : ∀ a, (![0, 25, 0, 0] : Fin 4 → Nat) a + S1x1x64x128.size a ≤ S1x64x64x128.size a
  inb_S4624x128_S64x128_1838_0 : ∀ a, (![1838, 0] : Fin 2 → Nat) a + S64x128.size a ≤ S4624x128.size a
  inb_S1x64x64x128_S1x1x64x128_0_26_0_0 : ∀ a, (![0, 26, 0, 0] : Fin 4 → Nat) a + S1x1x64x128.size a ≤ S1x64x64x128.size a
  inb_S4624x128_S64x128_1906_0 : ∀ a, (![1906, 0] : Fin 2 → Nat) a + S64x128.size a ≤ S4624x128.size a
  inb_S1x64x64x128_S1x1x64x128_0_27_0_0 : ∀ a, (![0, 27, 0, 0] : Fin 4 → Nat) a + S1x1x64x128.size a ≤ S1x64x64x128.size a
  inb_S4624x128_S64x128_1974_0 : ∀ a, (![1974, 0] : Fin 2 → Nat) a + S64x128.size a ≤ S4624x128.size a
  inb_S1x64x64x128_S1x1x64x128_0_28_0_0 : ∀ a, (![0, 28, 0, 0] : Fin 4 → Nat) a + S1x1x64x128.size a ≤ S1x64x64x128.size a
  inb_S4624x128_S64x128_2042_0 : ∀ a, (![2042, 0] : Fin 2 → Nat) a + S64x128.size a ≤ S4624x128.size a
  inb_S1x64x64x128_S1x1x64x128_0_29_0_0 : ∀ a, (![0, 29, 0, 0] : Fin 4 → Nat) a + S1x1x64x128.size a ≤ S1x64x64x128.size a
  inb_S4624x128_S64x128_2110_0 : ∀ a, (![2110, 0] : Fin 2 → Nat) a + S64x128.size a ≤ S4624x128.size a
  inb_S1x64x64x128_S1x1x64x128_0_30_0_0 : ∀ a, (![0, 30, 0, 0] : Fin 4 → Nat) a + S1x1x64x128.size a ≤ S1x64x64x128.size a
  inb_S4624x128_S64x128_2178_0 : ∀ a, (![2178, 0] : Fin 2 → Nat) a + S64x128.size a ≤ S4624x128.size a
  inb_S1x64x64x128_S1x1x64x128_0_31_0_0 : ∀ a, (![0, 31, 0, 0] : Fin 4 → Nat) a + S1x1x64x128.size a ≤ S1x64x64x128.size a
  inb_S4624x128_S64x128_2246_0 : ∀ a, (![2246, 0] : Fin 2 → Nat) a + S64x128.size a ≤ S4624x128.size a
  inb_S1x64x64x128_S1x1x64x128_0_32_0_0 : ∀ a, (![0, 32, 0, 0] : Fin 4 → Nat) a + S1x1x64x128.size a ≤ S1x64x64x128.size a
  inb_S4624x128_S64x128_2314_0 : ∀ a, (![2314, 0] : Fin 2 → Nat) a + S64x128.size a ≤ S4624x128.size a
  inb_S1x64x64x128_S1x1x64x128_0_33_0_0 : ∀ a, (![0, 33, 0, 0] : Fin 4 → Nat) a + S1x1x64x128.size a ≤ S1x64x64x128.size a
  inb_S4624x128_S64x128_2382_0 : ∀ a, (![2382, 0] : Fin 2 → Nat) a + S64x128.size a ≤ S4624x128.size a
  inb_S1x64x64x128_S1x1x64x128_0_34_0_0 : ∀ a, (![0, 34, 0, 0] : Fin 4 → Nat) a + S1x1x64x128.size a ≤ S1x64x64x128.size a
  inb_S4624x128_S64x128_2450_0 : ∀ a, (![2450, 0] : Fin 2 → Nat) a + S64x128.size a ≤ S4624x128.size a
  inb_S1x64x64x128_S1x1x64x128_0_35_0_0 : ∀ a, (![0, 35, 0, 0] : Fin 4 → Nat) a + S1x1x64x128.size a ≤ S1x64x64x128.size a
  inb_S4624x128_S64x128_2518_0 : ∀ a, (![2518, 0] : Fin 2 → Nat) a + S64x128.size a ≤ S4624x128.size a
  inb_S1x64x64x128_S1x1x64x128_0_36_0_0 : ∀ a, (![0, 36, 0, 0] : Fin 4 → Nat) a + S1x1x64x128.size a ≤ S1x64x64x128.size a
  inb_S4624x128_S64x128_2586_0 : ∀ a, (![2586, 0] : Fin 2 → Nat) a + S64x128.size a ≤ S4624x128.size a
  inb_S1x64x64x128_S1x1x64x128_0_37_0_0 : ∀ a, (![0, 37, 0, 0] : Fin 4 → Nat) a + S1x1x64x128.size a ≤ S1x64x64x128.size a
  inb_S4624x128_S64x128_2654_0 : ∀ a, (![2654, 0] : Fin 2 → Nat) a + S64x128.size a ≤ S4624x128.size a
  inb_S1x64x64x128_S1x1x64x128_0_38_0_0 : ∀ a, (![0, 38, 0, 0] : Fin 4 → Nat) a + S1x1x64x128.size a ≤ S1x64x64x128.size a
  inb_S4624x128_S64x128_2722_0 : ∀ a, (![2722, 0] : Fin 2 → Nat) a + S64x128.size a ≤ S4624x128.size a
  inb_S1x64x64x128_S1x1x64x128_0_39_0_0 : ∀ a, (![0, 39, 0, 0] : Fin 4 → Nat) a + S1x1x64x128.size a ≤ S1x64x64x128.size a
  inb_S4624x128_S64x128_2790_0 : ∀ a, (![2790, 0] : Fin 2 → Nat) a + S64x128.size a ≤ S4624x128.size a
  inb_S1x64x64x128_S1x1x64x128_0_40_0_0 : ∀ a, (![0, 40, 0, 0] : Fin 4 → Nat) a + S1x1x64x128.size a ≤ S1x64x64x128.size a
  inb_S4624x128_S64x128_2858_0 : ∀ a, (![2858, 0] : Fin 2 → Nat) a + S64x128.size a ≤ S4624x128.size a
  inb_S1x64x64x128_S1x1x64x128_0_41_0_0 : ∀ a, (![0, 41, 0, 0] : Fin 4 → Nat) a + S1x1x64x128.size a ≤ S1x64x64x128.size a
  inb_S4624x128_S64x128_2926_0 : ∀ a, (![2926, 0] : Fin 2 → Nat) a + S64x128.size a ≤ S4624x128.size a
  inb_S1x64x64x128_S1x1x64x128_0_42_0_0 : ∀ a, (![0, 42, 0, 0] : Fin 4 → Nat) a + S1x1x64x128.size a ≤ S1x64x64x128.size a
  inb_S4624x128_S64x128_2994_0 : ∀ a, (![2994, 0] : Fin 2 → Nat) a + S64x128.size a ≤ S4624x128.size a
  inb_S1x64x64x128_S1x1x64x128_0_43_0_0 : ∀ a, (![0, 43, 0, 0] : Fin 4 → Nat) a + S1x1x64x128.size a ≤ S1x64x64x128.size a
  inb_S4624x128_S64x128_3062_0 : ∀ a, (![3062, 0] : Fin 2 → Nat) a + S64x128.size a ≤ S4624x128.size a
  inb_S1x64x64x128_S1x1x64x128_0_44_0_0 : ∀ a, (![0, 44, 0, 0] : Fin 4 → Nat) a + S1x1x64x128.size a ≤ S1x64x64x128.size a
  inb_S4624x128_S64x128_3130_0 : ∀ a, (![3130, 0] : Fin 2 → Nat) a + S64x128.size a ≤ S4624x128.size a
  inb_S1x64x64x128_S1x1x64x128_0_45_0_0 : ∀ a, (![0, 45, 0, 0] : Fin 4 → Nat) a + S1x1x64x128.size a ≤ S1x64x64x128.size a
  inb_S4624x128_S64x128_3198_0 : ∀ a, (![3198, 0] : Fin 2 → Nat) a + S64x128.size a ≤ S4624x128.size a
  inb_S1x64x64x128_S1x1x64x128_0_46_0_0 : ∀ a, (![0, 46, 0, 0] : Fin 4 → Nat) a + S1x1x64x128.size a ≤ S1x64x64x128.size a
  inb_S4624x128_S64x128_3266_0 : ∀ a, (![3266, 0] : Fin 2 → Nat) a + S64x128.size a ≤ S4624x128.size a
  inb_S1x64x64x128_S1x1x64x128_0_47_0_0 : ∀ a, (![0, 47, 0, 0] : Fin 4 → Nat) a + S1x1x64x128.size a ≤ S1x64x64x128.size a
  inb_S4624x128_S64x128_3334_0 : ∀ a, (![3334, 0] : Fin 2 → Nat) a + S64x128.size a ≤ S4624x128.size a
  inb_S1x64x64x128_S1x1x64x128_0_48_0_0 : ∀ a, (![0, 48, 0, 0] : Fin 4 → Nat) a + S1x1x64x128.size a ≤ S1x64x64x128.size a
  inb_S4624x128_S64x128_3402_0 : ∀ a, (![3402, 0] : Fin 2 → Nat) a + S64x128.size a ≤ S4624x128.size a
  inb_S1x64x64x128_S1x1x64x128_0_49_0_0 : ∀ a, (![0, 49, 0, 0] : Fin 4 → Nat) a + S1x1x64x128.size a ≤ S1x64x64x128.size a
  inb_S4624x128_S64x128_3470_0 : ∀ a, (![3470, 0] : Fin 2 → Nat) a + S64x128.size a ≤ S4624x128.size a
  inb_S1x64x64x128_S1x1x64x128_0_50_0_0 : ∀ a, (![0, 50, 0, 0] : Fin 4 → Nat) a + S1x1x64x128.size a ≤ S1x64x64x128.size a
  inb_S4624x128_S64x128_3538_0 : ∀ a, (![3538, 0] : Fin 2 → Nat) a + S64x128.size a ≤ S4624x128.size a
  inb_S1x64x64x128_S1x1x64x128_0_51_0_0 : ∀ a, (![0, 51, 0, 0] : Fin 4 → Nat) a + S1x1x64x128.size a ≤ S1x64x64x128.size a
  inb_S4624x128_S64x128_3606_0 : ∀ a, (![3606, 0] : Fin 2 → Nat) a + S64x128.size a ≤ S4624x128.size a
  inb_S1x64x64x128_S1x1x64x128_0_52_0_0 : ∀ a, (![0, 52, 0, 0] : Fin 4 → Nat) a + S1x1x64x128.size a ≤ S1x64x64x128.size a
  inb_S4624x128_S64x128_3674_0 : ∀ a, (![3674, 0] : Fin 2 → Nat) a + S64x128.size a ≤ S4624x128.size a
  inb_S1x64x64x128_S1x1x64x128_0_53_0_0 : ∀ a, (![0, 53, 0, 0] : Fin 4 → Nat) a + S1x1x64x128.size a ≤ S1x64x64x128.size a
  inb_S4624x128_S64x128_3742_0 : ∀ a, (![3742, 0] : Fin 2 → Nat) a + S64x128.size a ≤ S4624x128.size a
  inb_S1x64x64x128_S1x1x64x128_0_54_0_0 : ∀ a, (![0, 54, 0, 0] : Fin 4 → Nat) a + S1x1x64x128.size a ≤ S1x64x64x128.size a
  inb_S4624x128_S64x128_3810_0 : ∀ a, (![3810, 0] : Fin 2 → Nat) a + S64x128.size a ≤ S4624x128.size a
  inb_S1x64x64x128_S1x1x64x128_0_55_0_0 : ∀ a, (![0, 55, 0, 0] : Fin 4 → Nat) a + S1x1x64x128.size a ≤ S1x64x64x128.size a
  inb_S4624x128_S64x128_3878_0 : ∀ a, (![3878, 0] : Fin 2 → Nat) a + S64x128.size a ≤ S4624x128.size a
  inb_S1x64x64x128_S1x1x64x128_0_56_0_0 : ∀ a, (![0, 56, 0, 0] : Fin 4 → Nat) a + S1x1x64x128.size a ≤ S1x64x64x128.size a
  inb_S4624x128_S64x128_3946_0 : ∀ a, (![3946, 0] : Fin 2 → Nat) a + S64x128.size a ≤ S4624x128.size a
  inb_S1x64x64x128_S1x1x64x128_0_57_0_0 : ∀ a, (![0, 57, 0, 0] : Fin 4 → Nat) a + S1x1x64x128.size a ≤ S1x64x64x128.size a
  inb_S4624x128_S64x128_4014_0 : ∀ a, (![4014, 0] : Fin 2 → Nat) a + S64x128.size a ≤ S4624x128.size a
  inb_S1x64x64x128_S1x1x64x128_0_58_0_0 : ∀ a, (![0, 58, 0, 0] : Fin 4 → Nat) a + S1x1x64x128.size a ≤ S1x64x64x128.size a
  inb_S4624x128_S64x128_4082_0 : ∀ a, (![4082, 0] : Fin 2 → Nat) a + S64x128.size a ≤ S4624x128.size a
  inb_S1x64x64x128_S1x1x64x128_0_59_0_0 : ∀ a, (![0, 59, 0, 0] : Fin 4 → Nat) a + S1x1x64x128.size a ≤ S1x64x64x128.size a
  inb_S4624x128_S64x128_4150_0 : ∀ a, (![4150, 0] : Fin 2 → Nat) a + S64x128.size a ≤ S4624x128.size a
  inb_S1x64x64x128_S1x1x64x128_0_60_0_0 : ∀ a, (![0, 60, 0, 0] : Fin 4 → Nat) a + S1x1x64x128.size a ≤ S1x64x64x128.size a
  inb_S4624x128_S64x128_4218_0 : ∀ a, (![4218, 0] : Fin 2 → Nat) a + S64x128.size a ≤ S4624x128.size a
  inb_S1x64x64x128_S1x1x64x128_0_61_0_0 : ∀ a, (![0, 61, 0, 0] : Fin 4 → Nat) a + S1x1x64x128.size a ≤ S1x64x64x128.size a
  inb_S4624x128_S64x128_4286_0 : ∀ a, (![4286, 0] : Fin 2 → Nat) a + S64x128.size a ≤ S4624x128.size a
  inb_S1x64x64x128_S1x1x64x128_0_62_0_0 : ∀ a, (![0, 62, 0, 0] : Fin 4 → Nat) a + S1x1x64x128.size a ≤ S1x64x64x128.size a
  inb_S4624x128_S64x128_4354_0 : ∀ a, (![4354, 0] : Fin 2 → Nat) a + S64x128.size a ≤ S4624x128.size a
  inb_S1x64x64x128_S1x1x64x128_0_63_0_0 : ∀ a, (![0, 63, 0, 0] : Fin 4 → Nat) a + S1x1x64x128.size a ≤ S1x64x64x128.size a
  inb_S4624x128_S64x128_4422_0 : ∀ a, (![4422, 0] : Fin 2 → Nat) a + S64x128.size a ≤ S4624x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4352x128 : S1x128.Broadcasts S4352x128
  inb_S4624x128_S4352x128_67_0 : ∀ a, (![67, 0] : Fin 2 → Nat) a + S4352x128.size a ≤ S4624x128.size a
  h_S4352x128 : 0 < S4352x128.numel
  inb_S9x128x128_S1x128x128_0_0_0 : ∀ a, (![0, 0, 0] : Fin 3 → Nat) a + S1x128x128.size a ≤ S9x128x128.size a
  h_S1x128x128 : 0 < S1x128x128.numel
  shapeCasts_S1x128x128_S128x128 : S1x128x128.ShapeCasts S128x128
  inb_S4624x128_S4352x128_68_0 : ∀ a, (![68, 0] : Fin 2 → Nat) a + S4352x128.size a ≤ S4624x128.size a
  inb_S9x128x128_S1x128x128_1_0_0 : ∀ a, (![1, 0, 0] : Fin 3 → Nat) a + S1x128x128.size a ≤ S9x128x128.size a
  inb_S4624x128_S4352x128_69_0 : ∀ a, (![69, 0] : Fin 2 → Nat) a + S4352x128.size a ≤ S4624x128.size a
  inb_S9x128x128_S1x128x128_2_0_0 : ∀ a, (![2, 0, 0] : Fin 3 → Nat) a + S1x128x128.size a ≤ S9x128x128.size a
  inb_S4624x128_S4352x128_135_0 : ∀ a, (![135, 0] : Fin 2 → Nat) a + S4352x128.size a ≤ S4624x128.size a
  inb_S9x128x128_S1x128x128_3_0_0 : ∀ a, (![3, 0, 0] : Fin 3 → Nat) a + S1x128x128.size a ≤ S9x128x128.size a
  inb_S4624x128_S4352x128_136_0 : ∀ a, (![136, 0] : Fin 2 → Nat) a + S4352x128.size a ≤ S4624x128.size a
  inb_S9x128x128_S1x128x128_4_0_0 : ∀ a, (![4, 0, 0] : Fin 3 → Nat) a + S1x128x128.size a ≤ S9x128x128.size a
  inb_S4624x128_S4352x128_137_0 : ∀ a, (![137, 0] : Fin 2 → Nat) a + S4352x128.size a ≤ S4624x128.size a
  inb_S9x128x128_S1x128x128_5_0_0 : ∀ a, (![5, 0, 0] : Fin 3 → Nat) a + S1x128x128.size a ≤ S9x128x128.size a
  inb_S4624x128_S4352x128_203_0 : ∀ a, (![203, 0] : Fin 2 → Nat) a + S4352x128.size a ≤ S4624x128.size a
  inb_S9x128x128_S1x128x128_6_0_0 : ∀ a, (![6, 0, 0] : Fin 3 → Nat) a + S1x128x128.size a ≤ S9x128x128.size a
  inb_S4624x128_S4352x128_204_0 : ∀ a, (![204, 0] : Fin 2 → Nat) a + S4352x128.size a ≤ S4624x128.size a
  inb_S9x128x128_S1x128x128_7_0_0 : ∀ a, (![7, 0, 0] : Fin 3 → Nat) a + S1x128x128.size a ≤ S9x128x128.size a
  inb_S4624x128_S4352x128_205_0 : ∀ a, (![205, 0] : Fin 2 → Nat) a + S4352x128.size a ≤ S4624x128.size a
  inb_S9x128x128_S1x128x128_8_0_0 : ∀ a, (![8, 0, 0] : Fin 3 → Nat) a + S1x128x128.size a ≤ S9x128x128.size a
  inb_S4624x128_S136x128_0_0 : ∀ a, (![0, 0] : Fin 2 → Nat) a + S136x128.size a ≤ S4624x128.size a
  h_S136x128 : 0 < S136x128.numel
  shapeCasts_S136x128_S136x128 : S136x128.ShapeCasts S136x128
  inb_S4624x128_S136x128_4488_0 : ∀ a, (![4488, 0] : Fin 2 → Nat) a + S136x128.size a ≤ S4624x128.size a
  inb_S4352x1_S4352x1_0_0 : ∀ a, (![0, 0] : Fin 2 → Nat) a + S4352x1.size a ≤ S4352x1.size a
  h_S4352x1 : 0 < S4352x1.numel
  shapeCasts_S4352x1_S4352x1 : S4352x1.ShapeCasts S4352x1
  broadcasts_S4352x1_S4352x128 : S4352x1.Broadcasts S4352x128
  shapeCasts_S4352x128_S4352x128 : S4352x128.ShapeCasts S4352x128
  inb_S1x4352x128_S1x4352x128_0_0_0 : ∀ a, (![0, 0, 0] : Fin 3 → Nat) a + S1x4352x128.size a ≤ S1x4352x128.size a
  h_S1x4352x128 : 0 < S1x4352x128.numel
  shapeCasts_S1x4352x128_S4352x128 : S1x4352x128.ShapeCasts S4352x128
  shapeCasts_S4352x128_S1x4352x128 : S4352x128.ShapeCasts S1x4352x128
  shapeCasts_S16x4352x128_S16x64x68x128 : S16x4352x128.ShapeCasts S16x64x68x128
  slices_S16x64x68x128_S16x64x64x128_0_0_2_0 : S16x64x68x128.Slices ![0, 0, 2, 0] S16x64x64x128
  transposes_S16x64x64x128_S16x128x64x64_0_3_1_2 : S16x64x64x128.Transposes [0, 3, 1, 2] S16x128x64x64
  dot_S1024x256_S256x512_S1024x512_1_0_0_1_n_n_wf : DotDims.WF S1024x256 S256x512 S1024x512 [1] [0] [0] [1] [] []
  dot_S4352x128_S128x128_S4352x128_1_0_0_1_n_n_wf : DotDims.WF S4352x128 S128x128 S4352x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S16x1024x256.size a
  hwx0_0 : ∀ i : grid0.Coords, EltTy.bits .f32 = 32 ∨ (Rect.block (s := S16x1024x256) S1x1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x2x32x256.size a ≤ S16x32x2x32x256.size a
  hwx0_3 : ∀ i : grid0.Coords, EltTy.bits .f32 = 32 ∨ (Rect.block (s := S16x32x2x32x256) S1x32x2x32x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x64x128.size a ≤ S16x64x64x128.size a
  hwx1_0 : ∀ i : grid1.Coords, EltTy.bits .f32 = 32 ∨ (Rect.block (s := S16x64x64x128) S1x64x64x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x64x128.size a ≤ S16x64x64x128.size a
  hwx1_1 : ∀ i : grid1.Coords, EltTy.bits .f32 = 32 ∨ (Rect.block (s := S16x64x64x128) S1x64x64x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4352x1.size a ≤ S4352x1.size a
  hwx1_2 : ∀ i : grid1.Coords, EltTy.bits .f32 = 32 ∨ (Rect.block (s := S4352x1) S4352x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S9x128x128.size a ≤ S9x128x128.size a
  hwx1_3 : ∀ i : grid1.Coords, EltTy.bits .f32 = 32 ∨ (Rect.block (s := S9x128x128) S9x128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S9x128x128.size a ≤ S9x128x128.size a
  hwx1_4 : ∀ i : grid1.Coords, EltTy.bits .f32 = 32 ∨ (Rect.block (s := S9x128x128) S9x128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S9x128x128.size a ≤ S9x128x128.size a
  hwx1_6 : ∀ i : grid1.Coords, EltTy.bits .f32 = 32 ∨ (Rect.block (s := S9x128x128) S9x128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x4352x128.size a ≤ S16x4352x128.size a
  hwx1_8 : ∀ i : grid1.Coords, EltTy.bits .f32 = 32 ∨ (Rect.block (s := S16x4352x128) S1x4352x128.size (cc1_transform_8 i) (hinb1_8 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S4352x128_S128x128_S4352x128_1_0_0_1_n_n : DotDims S4352x128 S128x128 S4352x128 where
  lhsContracting := [1]
  rhsContracting := [0]
  lhsNonContracting := [0]
  rhsNonContracting := [1]
  lhsBatch := []
  rhsBatch := []
  wf := dot_S4352x128_S128x128_S4352x128_1_0_0_1_n_n_wf

abbrev win0_0 : Pipeline.Window sig grid0 :=
  Pipeline.Window.ofSpec (Memref.whole main_v8) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x32x2x32x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S1x64x64x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1x64x64x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S4352x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S9x128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S9x128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v38) S9x128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v40) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v50) S1x4352x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== Proof.Spec.lean ====
/-
  The mathematics both programs compute, stated once, over plain functions of coordinates.

  One sample of a U-Net "up" block: a 2×2, stride-2 transposed convolution of a 256-channel 32×32 image up to
  128 channels at 64×64; its concatenation BEHIND the 128-channel 64×64 skip image (skip channels first); and two
  3×3 convolutions with zero padding 1, each followed by max(·, 0). The batch-norm scales are already folded into the
  weights `w1`, `w2` and biases `b1`, `b2` the functions here take (both programs fold them by the same host operations).

  Everything is an extended real. Only commutativity and associativity of + and ·, `0 · x = 0`, `1 · x = x` and
  `0 + x = x` relate the two programs to these formulas, so no finiteness is ever needed.
-/
import Idealize.ShloMosaic.PureOps.Ideal
import Idealize.ShloMosaic.Lib.ValueIdx

noncomputable section

namespace Cert.Spec

open Idealize.ShloMosaic Idealize.ShloMosaic.ValueIdx

section core

-- one sample of the low-resolution input: channel, row, column
variable (xa : Fin 256 → Fin 32 → Fin 32 → EReal)
-- one sample of the skip input: channel, row, column
variable (xb : Fin 128 → Fin 64 → Fin 64 → EReal)
-- transposed-convolution weight: input channel, output channel, row parity, column parity
variable (wu : Fin 256 → Fin 128 → Fin 2 → Fin 2 → EReal)
-- transposed-convolution bias: output channel (and the parities it is tiled over)
variable (bu : Fin 128 → Fin 2 → Fin 2 → EReal)
-- first convolution (folded): output channel, input channel, tap row, tap column; and its bias
variable (w1 : Fin 128 → Fin 256 → Fin 3 → Fin 3 → EReal) (b1 : Fin 128 → EReal)
-- second convolution (folded): output channel, input channel, tap row, tap column; and its bias
variable (w2 : Fin 128 → Fin 128 → Fin 3 → Fin 3 → EReal) (b2 : Fin 128 → EReal)

/-- The upsampled image: output pixel (y, x) takes input pixel (y/2, x/2) through the weight of parities (y%2, x%2). -/
def up (c : Fin 128) (y x : Fin 64) : EReal :=
  (∑ ci : Fin 256, xa ci ⟨y.val / 2, by omega⟩ ⟨x.val / 2, by omega⟩
      * wu ci c ⟨y.val % 2, by omega⟩ ⟨x.val % 2, by omega⟩)
    + bu c ⟨y.val % 2, by omega⟩ ⟨x.val % 2, by omega⟩

/-- The concatenated image: channels 0..127 the skip image, channels 128..255 the upsampled one. -/
def cat (ch : Fin 256) (y x : Fin 64) : EReal :=
  if h : ch.val < 128 then xb ⟨ch.val, h⟩ y x else up xa wu bu ⟨ch.val - 128, by omega⟩ y x

-- any 256-channel 64×64 image (the two convolutions below do not care where it came from)
variable (ct : Fin 256 → Fin 64 → Fin 64 → EReal)

/-- An image with a ring of zeros: padded coordinates `yy, xx`, the image at 1..64. -/
def padC (ch : Fin 256) (yy xx : ℕ) : EReal :=
  if h : 1 ≤ yy ∧ yy ≤ 64 ∧ 1 ≤ xx ∧ xx ≤ 64 then ct ch ⟨yy - 1, by omega⟩ ⟨xx - 1, by omega⟩ else 0

/-- The hidden image: first convolution, bias, max with 0. -/
def hid (cm : Fin 128) (y x : Fin 64) : EReal :=
  max (b1 cm + ∑ dh : Fin 3, ∑ dw : Fin 3, ∑ ch : Fin 256,
        w1 cm ch dh dw * padC ct ch (y.val + dh.val) (x.val + dw.val)) 0

/-- The hidden image with a ring of zeros. -/
def hidP (cm : Fin 128) (yy xx : ℕ) : EReal :=
  if h : 1 ≤ yy ∧ yy ≤ 64 ∧ 1 ≤ xx ∧ xx ≤ 64 then hid w1 b1 ct cm ⟨yy - 1, by omega⟩ ⟨xx - 1, by omega⟩ else 0

/-- The result of the two convolutions on the image `ct`: second convolution, bias, max with 0. -/
def outC (co : Fin 128) (y x : Fin 64) : EReal :=
  max (b2 co + ∑ dh : Fin 3, ∑ dw : Fin 3, ∑ cm : Fin 128,
        w2 co cm dh dw * hidP w1 b1 ct cm (y.val + dh.val) (x.val + dw.val)) 0

end core

/-- The argument arrays' types at the ideal instance. -/
abbrev X1 := (⟨4, ![16, 256, 32, 32]⟩ : Shape).Idx → EReal
abbrev X2 := (⟨4, ![16, 128, 64, 64]⟩ : Shape).Idx → EReal
abbrev WT := (⟨4, ![256, 128, 2, 2]⟩ : Shape).Idx → EReal
abbrev V128 := (⟨1, ![128]⟩ : Shape).Idx → EReal
abbrev W1 := (⟨4, ![128, 256, 3, 3]⟩ : Shape).Idx → EReal
abbrev W2 := (⟨4, ![128, 128, 3, 3]⟩ : Shape).Idx → EReal
abbrev Out := (⟨4, ![16, 128, 64, 64]⟩ : Shape).Idx → EReal

/-- The whole result array of the block, from the inputs, the transposed convolution's parameters and the FOLDED
    convolution parameters: sample `n`, channel `co`, pixel `(y, x)`. -/
def out (x1 : X1) (x2 : X2) (wt : WT) (bt : V128) (w1e : W1) (b1e : V128) (w2e : W2) (b2e : V128) : Out :=
  fun i =>
    outC (fun co ch dh dw => w1e (ix4 co ch dh dw)) (fun c => b1e (ix1 c))
      (fun co cm dh dw => w2e (ix4 co cm dh dw)) (fun c => b2e (ix1 c))
      (cat (fun ci r q => x1 (ix4 (i 0) ci r q)) (fun ch r q => x2 (ix4 (i 0) ch r q))
        (fun ci c di dj => wt (ix4 ci c di dj)) (fun c _ _ => bt (ix1 c)))
      (i 1) (i 2) (i 3)

end Cert.Spec

end
-- ==== Proof.Fold.lean ====
/-
  The batch-norm fold. Both programs turn each convolution's weight `w`, bias `b` and the batch-norm parameters
  (scale `g`, shift `be`, running mean `mu`, running variance `v`) into a folded weight and a folded bias by the
  same host operations:

    scale = g / sqrt (v + ε)            (ε the f32 word 0x3727C5AC, one value per output channel)
    w'    = w · scale                   (the scale spread along the output-channel axis 0)
    b'    = (b − mu) · scale + be

  They are stated here once, as the library's own operations at the ideal instance, so that a buffer of either
  program that holds one of them is equal to the term below as it stands. Nothing about them is ever needed
  beyond that equality: the two programs agree on the folded parameters whatever their values are.
-/
import Idealize.ShloMosaic.PureOps.Ideal
import Idealize.ShloMosaic.Lib.ValueIdx
import proofs.«126750_g2000606872001322_pallasbulk_142_34_alg».proof.Proof.Spec

noncomputable section

namespace Cert.Fold

open Idealize.ShloMosaic

/-- The per-channel scale `g / sqrt (v + ε)`. -/
def scale (g v : Spec.V128) : Spec.V128 :=
  Host.divf (F := Ideal) (s := ⟨1, ![128]⟩) (φ := .f32) g
    (Host.sqrt (F := Ideal) (s := ⟨1, ![128]⟩) (φ := .f32)
      (addf (F := Ideal) (s := ⟨1, ![128]⟩) (φ := .f32) v
        (broadcastInDim (s := ⟨0, ![]⟩) ⟨1, ![128]⟩ ![] (by decide)
          (constant (F := Ideal) ⟨0, ![]⟩ .f32 0x3727C5AC#32))))

/-- The first convolution's folded weight: `w · scale`, the scale indexed by the output channel (axis 0). -/
def w1e (w : Spec.W1) (g v : Spec.V128) : Spec.W1 :=
  mulf (F := Ideal) (s := ⟨4, ![128, 256, 3, 3]⟩) (φ := .f32) w
    (broadcastInDim (s := ⟨4, ![128, 1, 1, 1]⟩) ⟨4, ![128, 256, 3, 3]⟩ ![0, 1, 2, 3] (by decide)
      (broadcastInDim (s := ⟨1, ![128]⟩) ⟨4, ![128, 1, 1, 1]⟩ ![0] (by decide) (scale g v)))

/-- The second convolution's folded weight: the same at 128 input channels. -/
def w2e (w : Spec.W2) (g v : Spec.V128) : Spec.W2 :=
  mulf (F := Ideal) (s := ⟨4, ![128, 128, 3, 3]⟩) (φ := .f32) w
    (broadcastInDim (s := ⟨4, ![128, 1, 1, 1]⟩) ⟨4, ![128, 128, 3, 3]⟩ ![0, 1, 2, 3] (by decide)
      (broadcastInDim (s := ⟨1, ![128]⟩) ⟨4, ![128, 1, 1, 1]⟩ ![0] (by decide) (scale g v)))

/-- A folded bias: `(b − mu) · scale + be`. -/
def b1e (b mu g v be : Spec.V128) : Spec.V128 :=
  addf (F := Ideal) (s := ⟨1, ![128]⟩) (φ := .f32)
    (mulf (F := Ideal) (s := ⟨1, ![128]⟩) (φ := .f32)
      (subf (F := Ideal) (s := ⟨1, ![128]⟩) (φ := .f32) b mu) (scale g v)) be

/-- The second convolution's folded bias is the same function of its own parameters. -/
abbrev b2e := b1e

end Cert.Fold

end
-- ==== Proof.KBBody.lean ====
/-
  The kernel's body on any whole staging memrefs, once, for every grid point.

  The body reads its five input blocks (one sample of the low-resolution image, one sample of the skip image, the
  packed weights, the biases, the column mask), fills its four scratch buffers before it reads them, and stores the
  output block in 64 column pieces of 64 lanes. Here: the staging memrefs as the pipeline passes them, the class
  invariant with the scratch buffers as memrefs owned at some contents, the run of the body against a continuation
  (the pieces it leaves in the output's buffer are the witness the run finds), that those pieces tile the block, and
  the block they leave read back.
-/
import proofs.«126750_g2000606872001322_pallasbulk_142_34_alg».proof.Proof.Gen.Kernel.Launch
import proofs.«126750_g2000606872001322_pallasbulk_142_34_alg».proof.Proof.Gen.Kernel.Skeleton
import proofs.«126750_g2000606872001322_pallasbulk_142_34_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The staging memrefs at a point, and the scratch operands -/

/-- One staging buffer of output window 5, through which its contents are stated (any whole buffer of the block's
    shape reads the same pieces back the same). -/
abbrev VO0_5 : View sig .tc .vmem S1x128x4096 .f32 := (Memref.whole cc0_stg5_0 : Memref sig .tc .vmem S1x128x4096 .f32).view
/-- Each window's current staging memref at point `t`, spelled as the pipeline passes it, and its wholeness. -/
abbrev ms0_0 (t : Fin cfg0.N) : Memref sig .tc .vmem S1x256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2952x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4608 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128x4096 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S256x4864 .bf16 := Memref.whole cc0_scratch0
abbrev scM0_1 : Memref sig .tc .vmem S128x4864 .bf16 := Memref.whole cc0_scratch1
abbrev scM0_2 : Memref sig .tc .vmem S1024x512 .f32 := Memref.whole cc0_scratch2
abbrev scM0_3 : Memref sig .tc .vmem S4864x128 .bf16 := Memref.whole cc0_scratch3

/-- The class invariant with the scratch operands as memrefs owned at some contents: the four scratch buffers each at
    some contents, and the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-! ## The body on any staging memrefs: a subtype the run finds -/

-- (the run's proof term is large: the definition's epilogue walks it past the default budget)
set_option maxHeartbeats 8000000 in
/-- What the body's stores leave in the output's staging memref, as pieces (last first), WITH the proof that on whole
    staging memrefs — the inputs' at their contents, the output's at anything, the scratch buffers at anything — the
    body runs to the continuation holding the inputs' as they were, the scratch at some contents, the output's buffer
    with its pieces written. -/
noncomputable def kernelRun0_A (c : Dev nD) (i : grid0.Coords) (arg1 : Memref sig .tc .vmem S1x256x1024 .f32) (harg1 : arg1.IsWhole) (arg2 : Memref sig .tc .vmem S1x128x4096 .f32) (harg2 : arg2.IsWhole) (arg3 : Memref sig .tc .vmem S2952x256 .bf16) (harg3 : arg3.IsWhole) (arg4 : Memref sig .tc .vmem S256x128 .f32) (harg4 : arg4.IsWhole) (arg5 : Memref sig .tc .vmem S1x4608 .f32) (harg5 : arg5.IsWhole) (arg6 : Memref sig .tc .vmem S1x128x4096 .f32) (harg6 : arg6.IsWhole) (arg7 : Memref sig .tc .vmem S256x4864 .bf16) (harg7 : arg7.IsWhole) (arg8 : Memref sig .tc .vmem S128x4864 .bf16) (harg8 : arg8.IsWhole) (arg9 : Memref sig .tc .vmem S1024x512 .f32) (harg9 : arg9.IsWhole) (arg10 : Memref sig .tc .vmem S4864x128 .bf16) (harg10 : arg10.IsWhole)
    (x0 : Vec F S1x256x1024 .f32) (x1 : Vec F S1x128x4096 .f32) (x2 : Vec F S2952x256 .bf16) (x3 : Vec F S256x128 .f32) (x4 : Vec F S1x4608 .f32) :
    { L5 : List (View.Piece (Elt F) S1x128x4096 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_body i arg1 harg1 arg2 harg2 arg3 harg3 arg4 harg4 arg5 harg5 arg6 harg6 arg7 harg7 arg8 harg8 arg9 harg9 arg10 harg10) K } := by
  refine ⟨?_, fun E K => ?run⟩
  case run =>
    simp only [cc0_body_eq_skeleton]; unfold cc0_body_skel
    simp only [k0_part39_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

/-- The run's pieces for the output tile its block (64 stores of 1×128×64 at column offsets 0, 64, …, 4032), so they
    cover it. -/
theorem cover0_A_5 (c : Dev nD) (i : grid0.Coords) (arg1 : Memref sig .tc .vmem S1x256x1024 .f32) (harg1 : arg1.IsWhole) (arg2 : Memref sig .tc .vmem S1x128x4096 .f32) (harg2 : arg2.IsWhole) (arg3 : Memref sig .tc .vmem S2952x256 .bf16) (harg3 : arg3.IsWhole) (arg4 : Memref sig .tc .vmem S256x128 .f32) (harg4 : arg4.IsWhole) (arg5 : Memref sig .tc .vmem S1x4608 .f32) (harg5 : arg5.IsWhole) (arg6 : Memref sig .tc .vmem S1x128x4096 .f32) (harg6 : arg6.IsWhole) (arg7 : Memref sig .tc .vmem S256x4864 .bf16) (harg7 : arg7.IsWhole) (arg8 : Memref sig .tc .vmem S128x4864 .bf16) (harg8 : arg8.IsWhole) (arg9 : Memref sig .tc .vmem S1024x512 .f32) (harg9 : arg9.IsWhole) (arg10 : Memref sig .tc .vmem S4864x128 .bf16) (harg10 : arg10.IsWhole)
    (x0 : Vec F S1x256x1024 .f32) (x1 : Vec F S1x128x4096 .f32) (x2 : Vec F S2952x256 .bf16) (x3 : Vec F S256x128 .f32) (x4 : Vec F S1x4608 .f32) (y : S1x128x4096.Idx) :
    ∃ pc ∈ (kernelRun0_A c i arg1 harg1 arg2 harg2 arg3 harg3 arg4 harg4 arg5 harg5 arg6 harg6 arg7 harg7 arg8 harg8 arg9 harg9 arg10 harg10 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 arg10 harg10 x0 x1 x2 x3 x4).1 S1x128x64.size (by sl_kernel_rfl) y

/-- What the run leaves in the output's staging buffer: its pieces read back over junk. -/
def out0_A_5 (c : Dev nD) (i : grid0.Coords) (arg1 : Memref sig .tc .vmem S1x256x1024 .f32) (harg1 : arg1.IsWhole) (arg2 : Memref sig .tc .vmem S1x128x4096 .f32) (harg2 : arg2.IsWhole) (arg3 : Memref sig .tc .vmem S2952x256 .bf16) (harg3 : arg3.IsWhole) (arg4 : Memref sig .tc .vmem S256x128 .f32) (harg4 : arg4.IsWhole) (arg5 : Memref sig .tc .vmem S1x4608 .f32) (harg5 : arg5.IsWhole) (arg6 : Memref sig .tc .vmem S1x128x4096 .f32) (harg6 : arg6.IsWhole) (arg7 : Memref sig .tc .vmem S256x4864 .bf16) (harg7 : arg7.IsWhole) (arg8 : Memref sig .tc .vmem S128x4864 .bf16) (harg8 : arg8.IsWhole) (arg9 : Memref sig .tc .vmem S1024x512 .f32) (harg9 : arg9.IsWhole) (arg10 : Memref sig .tc .vmem S4864x128 .bf16) (harg10 : arg10.IsWhole)
    (x0 : Vec F S1x256x1024 .f32) (x1 : Vec F S1x128x4096 .f32) (x2 : Vec F S2952x256 .bf16) (x3 : Vec F S256x128 .f32) (x4 : Vec F S1x4608 .f32) : Vec F S1x128x4096 .f32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 x0 x1 x2 x3 x4).1)

end Cert.Kernel.Hand

end
-- ==== Proof.KBFrame.lean ====
/-
  The kernel program's run from launch to return.

  First the one region at a PARAMETER `V` (the TensorCore's buffer contents when the region is entered): each
  window's block at a point, what the output's staging buffer holds after the body there (the body's run at the
  point's staging memrefs and input blocks), the pipeline's proof data over the class invariant (the scratch buffers
  at some contents, the generator register at some state; the body initialises every scratch buffer before it
  reads it, so nothing is carried from point to point), and the body obligation.

  Then the run: the buffer contents at every segment boundary as a fold from the launch memory (nine stretches of
  host operations, the region, one closing reshape), each argument array read back through the fold to its launch
  contents, the region as a segment over "every unscoped buffer at the boundary's contents, the generator register
  at some state, nothing owed", and the run itself: every weakly fair execution terminates, nothing faults, the result
  buffer ends at the fold's last contents and every argument as launched.
-/
import proofs.«126750_g2000606872001322_pallasbulk_142_34_alg».proof.Proof.KBBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (where it is not
    fetched the block index has not moved), for any proof data whose array is `V`'s and whose body leaves the block in
    place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not (where it is not
    fetched the block index has not moved), for any proof data whose array is `V`'s and whose body leaves the block in
    place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not (where it is not
    fetched the block index has not moved), for any proof data whose array is `V`'s and whose body leaves the block in
    place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not (where it is not
    fetched the block index has not moved), for any proof data whose array is `V`'s and whose body leaves the block in
    place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not (where it is not
    fetched the block index has not moved), for any proof data whose array is `V`'s and whose body leaves the block in
    place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## What the output holds after each point -/

/-- What the output's staging buffer holds after the body at point `t`: the run's contents at the point's memrefs and
    input blocks. -/
def outsAt0 (c : Dev nD) (t : Fin cfg0.N) : Vec F S1x128x4096 .f32 :=
  out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (iblk0 V c 0 t) (iblk0 V c 1 t) (iblk0 V c 2 t) (iblk0 V c 3 t) (iblk0 V c 4 t)

/-! ## The pipeline's proof data -/

/-- The proof data of the pipeline on core `c`: the arrays as the region finds them (`V`); after the body at point `t`
    each input's buffer at its block and the output's at `outsAt0`; the class invariant (the scoped rest and the
    generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t))

set_option maxHeartbeats 1200000 in
/-- The body at any point: the inputs' memrefs hold their blocks, so the run applies; the invariant hands the body its
    scratch buffers at some contents (and the generator register) and takes them back at some contents; the core owes
    nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  rw [show (dat0 V c).Φ t.castSucc = Pipeline.ΦA spec0 c from rfl, PhiA0_eq]
  unfold outsAt0
  unfold out0_A_5
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
  iapply ((kernelRun0_A c (grid0.coords t) _ _ _ _ _ _ _ _ _ _ _ _ _ _ _ _ _ _ _ _ (iblk0 V c 0 t) (iblk0 V c 1 t) (iblk0 V c 2 t) (iblk0 V c 3 t) (iblk0 V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  iintro ⟨H0, H1, H2, H3, H4, ⟨%e5, H5⟩, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover0_A_5 c _ _ _ _ _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

/-! # The run: @main's segments from the launch to the return

## The buffer contents at each segment boundary: a fold through @main -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- After `hostOps0_1`. -/
abbrev W2 : Dev nD → Valuation τ sig (Elt F) := fun c => StableHlo.after hostOps0_1 (W1 m ρ c)
/-- After `hostOps0_2`. -/
abbrev W3 : Dev nD → Valuation τ sig (Elt F) := fun c => StableHlo.after hostOps0_2 (W2 m ρ c)
/-- After `hostOps0_3`. -/
abbrev W4 : Dev nD → Valuation τ sig (Elt F) := fun c => StableHlo.after hostOps0_3 (W3 m ρ c)
/-- After `hostOps0_4`. -/
abbrev W5 : Dev nD → Valuation τ sig (Elt F) := fun c => StableHlo.after hostOps0_4 (W4 m ρ c)
/-- After `hostOps0_5`. -/
abbrev W6 : Dev nD → Valuation τ sig (Elt F) := fun c => StableHlo.after hostOps0_5 (W5 m ρ c)
/-- After `hostOps0_6`. -/
abbrev W7 : Dev nD → Valuation τ sig (Elt F) := fun c => StableHlo.after hostOps0_6 (W6 m ρ c)
/-- After `hostOps0_7`. -/
abbrev W8 : Dev nD → Valuation τ sig (Elt F) := fun c => StableHlo.after hostOps0_7 (W7 m ρ c)
/-- After `hostOps0_8`. -/
abbrev W9 : Dev nD → Valuation τ sig (Elt F) := fun c => StableHlo.after hostOps0_8 (W8 m ρ c)
/-- The region's entry contents: after the nine stretches. -/
abbrev Went : Dev nD → Valuation τ sig (Elt F) := W9 m ρ
/-- The same read at the TensorCore's references (what the region's proof data take). -/
abbrev Vent : (c : Dev nD) → (b : Ref sig .tc) → Buf (Elt F) ((c : Thread nD τ).loc b) := fun c b => Went m ρ c b
/-- At the region's exit: its arrays at what the pipeline leaves (the inputs as entered, the output's write-backs
    folded), every other buffer as entered. -/
def Wexit (c : Dev nD) : Valuation τ sig (Elt F) :=
  Pipeline.withArrays spec0 c (Went m ρ c) fun w => (dat0 (Vent m ρ) c).arrAt w cfg0.N
theorem Wexit_arr (c : Dev nD) (w : Fin cfg0.W) :
    Wexit m ρ c (Proc.devRef .tc (Pipeline.arrRef spec0 w)) = (dat0 (Vent m ρ) c).arrAt w cfg0.N := by
  unfold Wexit; exact Pipeline.withArrays_arr spec0 launch0.win.arr_inj c _ _ w
theorem Wexit_of_ne (c : Dev nD) (b : Ref sig .tc) (hb : ∀ w, Pipeline.arrRef spec0 w ≠ b) :
    Wexit m ρ c (Proc.devRef .tc b) = Went m ρ c (Proc.devRef .tc b) := by
  unfold Wexit; exact Pipeline.withArrays_of_ne spec0 c _ _ b hb
/-- The same read at the TensorCore's references (the region's exit contents). -/
abbrev Vexit : (c : Dev nD) → (b : Ref sig .tc) → Buf (Elt F) ((c : Thread nD τ).loc b) := fun c b => Wexit m ρ c b
/-- At the region's exit each of its arrays holds what the pipeline leaves and every other buffer what it held at entry. -/
theorem hF0 (c : Dev nD) (w : Fin cfg0.W) : (dat0 (Vent m ρ) c).arrAt w cfg0.N = Vexit m ρ c (Pipeline.arrRef spec0 w) :=
  (Wexit_arr m ρ c w).symm
theorem hrest0 (c : Dev nD) : ∀ b, b ∉ Finset.univ.image (Pipeline.arrRef spec0) → Vexit m ρ c b = Vent m ρ c b :=
  fun b hb => Wexit_of_ne m ρ c b fun w e => hb (Finset.mem_image.mpr ⟨w, Finset.mem_univ _, e⟩)

/-- After `hostOps1`: the return. -/
abbrev Wfin : Dev nD → Valuation τ sig (Elt F) := fun c => StableHlo.after hostOps1 (Wexit m ρ c)

/-! ### The arguments end as launched: no host operation and no region writes one, so the fold at an argument's buffer
    walks back to the launch memory -/

theorem Wfin_main_arg0 (c : Dev nD) : Wfin m ρ c (Proc.devRef .tc main_arg0) = m ((c : Thread nD τ).loc main_arg0) :=
  calc Wfin m ρ c (Proc.devRef .tc main_arg0)
    _ = Wexit m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W9 m ρ c (Proc.devRef .tc main_arg0) := Wexit_of_ne m ρ c main_arg0 (by decide)
    _ = W8 m ρ c (Proc.devRef .tc main_arg0) := StableHlo.after_of_forall_not_mem (b := Proc.devRef .tc main_arg0) _ _ (List.forall_iff_forall_mem.mp (by
          simp only [hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W7 m ρ c (Proc.devRef .tc main_arg0) := StableHlo.after_of_forall_not_mem (b := Proc.devRef .tc main_arg0) _ _ (List.forall_iff_forall_mem.mp (by
          simp only [hostOps0_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W6 m ρ c (Proc.devRef .tc main_arg0) := StableHlo.after_of_forall_not_mem (b := Proc.devRef .tc main_arg0) _ _ (List.forall_iff_forall_mem.mp (by
          simp only [hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W5 m ρ c (Proc.devRef .tc main_arg0) := StableHlo.after_of_forall_not_mem (b := Proc.devRef .tc main_arg0) _ _ (List.forall_iff_forall_mem.mp (by
          simp only [hostOps0_5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W4 m ρ c (Proc.devRef .tc main_arg0) := StableHlo.after_of_forall_not_mem (b := Proc.devRef .tc main_arg0) _ _ (List.forall_iff_forall_mem.mp (by
          simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W3 m ρ c (Proc.devRef .tc main_arg0) := StableHlo.after_of_forall_not_mem (b := Proc.devRef .tc main_arg0) _ _ (List.forall_iff_forall_mem.mp (by
          simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W2 m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg0) := rfl
theorem Wfin_main_arg1 (c : Dev nD) : Wfin m ρ c (Proc.devRef .tc main_arg1) = m ((c : Thread nD τ).loc main_arg1) :=
  calc Wfin m ρ c (Proc.devRef .tc main_arg1)
    _ = Wexit m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W9 m ρ c (Proc.devRef .tc main_arg1) := Wexit_of_ne m ρ c main_arg1 (by decide)
    _ = W8 m ρ c (Proc.devRef .tc main_arg1) := StableHlo.after_of_forall_not_mem (b := Proc.devRef .tc main_arg1) _ _ (List.forall_iff_forall_mem.mp (by
          simp only [hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W7 m ρ c (Proc.devRef .tc main_arg1) := StableHlo.after_of_forall_not_mem (b := Proc.devRef .tc main_arg1) _ _ (List.forall_iff_forall_mem.mp (by
          simp only [hostOps0_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W6 m ρ c (Proc.devRef .tc main_arg1) := StableHlo.after_of_forall_not_mem (b := Proc.devRef .tc main_arg1) _ _ (List.forall_iff_forall_mem.mp (by
          simp only [hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W5 m ρ c (Proc.devRef .tc main_arg1) := StableHlo.after_of_forall_not_mem (b := Proc.devRef .tc main_arg1) _ _ (List.forall_iff_forall_mem.mp (by
          simp only [hostOps0_5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W4 m ρ c (Proc.devRef .tc main_arg1) := StableHlo.after_of_forall_not_mem (b := Proc.devRef .tc main_arg1) _ _ (List.forall_iff_forall_mem.mp (by
          simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W3 m ρ c (Proc.devRef .tc main_arg1) := StableHlo.after_of_forall_not_mem (b := Proc.devRef .tc main_arg1) _ _ (List.forall_iff_forall_mem.mp (by
          simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W2 m ρ c (Proc.devRef .tc main_arg1) := StableHlo.after_of_forall_not_mem (b := Proc.devRef .tc main_arg1) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg1) := StableHlo.after_of_forall_not_mem (b := Proc.devRef .tc main_arg1) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg1) := rfl
theorem Wfin_main_arg2 (c : Dev nD) : Wfin m ρ c (Proc.devRef .tc main_arg2) = m ((c : Thread nD τ).loc main_arg2) :=
  calc Wfin m ρ c (Proc.devRef .tc main_arg2)
    _ = Wexit m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W9 m ρ c (Proc.devRef .tc main_arg2) := Wexit_of_ne m ρ c main_arg2 (by decide)
    _ = W8 m ρ c (Proc.devRef .tc main_arg2) := StableHlo.after_of_forall_not_mem (b := Proc.devRef .tc main_arg2) _ _ (List.forall_iff_forall_mem.mp (by
          simp only [hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W7 m ρ c (Proc.devRef .tc main_arg2) := StableHlo.after_of_forall_not_mem (b := Proc.devRef .tc main_arg2) _ _ (List.forall_iff_forall_mem.mp (by
          simp only [hostOps0_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W6 m ρ c (Proc.devRef .tc main_arg2) := StableHlo.after_of_forall_not_mem (b := Proc.devRef .tc main_arg2) _ _ (List.forall_iff_forall_mem.mp (by
          simp only [hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W5 m ρ c (Proc.devRef .tc main_arg2) := StableHlo.after_of_forall_not_mem (b := Proc.devRef .tc main_arg2) _ _ (List.forall_iff_forall_mem.mp (by
          simp only [hostOps0_5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W4 m ρ c (Proc.devRef .tc main_arg2) := StableHlo.after_of_forall_not_mem (b := Proc.devRef .tc main_arg2) _ _ (List.forall_iff_forall_mem.mp (by
          simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W3 m ρ c (Proc.devRef .tc main_arg2) := StableHlo.after_of_forall_not_mem (b := Proc.devRef .tc main_arg2) _ _ (List.forall_iff_forall_mem.mp (by
          simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg2) := rfl
theorem Wfin_main_arg3 (c : Dev nD) : Wfin m ρ c (Proc.devRef .tc main_arg3) = m ((c : Thread nD τ).loc main_arg3) :=
  calc Wfin m ρ c (Proc.devRef .tc main_arg3)
    _ = Wexit m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W9 m ρ c (Proc.devRef .tc main_arg3) := Wexit_of_ne m ρ c main_arg3 (by decide)
    _ = W8 m ρ c (Proc.devRef .tc main_arg3) := StableHlo.after_of_forall_not_mem (b := Proc.devRef .tc main_arg3) _ _ (List.forall_iff_forall_mem.mp (by
          simp only [hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W7 m ρ c (Proc.devRef .tc main_arg3) := StableHlo.after_of_forall_not_mem (b := Proc.devRef .tc main_arg3) _ _ (List.forall_iff_forall_mem.mp (by
          simp only [hostOps0_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W6 m ρ c (Proc.devRef .tc main_arg3) := StableHlo.after_of_forall_not_mem (b := Proc.devRef .tc main_arg3) _ _ (List.forall_iff_forall_mem.mp (by
          simp only [hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W5 m ρ c (Proc.devRef .tc main_arg3) := StableHlo.after_of_forall_not_mem (b := Proc.devRef .tc main_arg3) _ _ (List.forall_iff_forall_mem.mp (by
          simp only [hostOps0_5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W4 m ρ c (Proc.devRef .tc main_arg3) := StableHlo.after_of_forall_not_mem (b := Proc.devRef .tc main_arg3) _ _ (List.forall_iff_forall_mem.mp (by
          simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W3 m ρ c (Proc.devRef .tc main_arg3) := StableHlo.after_of_forall_not_mem (b := Proc.devRef .tc main_arg3) _ _ (List.forall_iff_forall_mem.mp (by
          simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg3) := rfl
theorem Wfin_main_arg4 (c : Dev nD) : Wfin m ρ c (Proc.devRef .tc main_arg4) = m ((c : Thread nD τ).loc main_arg4) :=
  calc Wfin m ρ c (Proc.devRef .tc main_arg4)
    _ = Wexit m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W9 m ρ c (Proc.devRef .tc main_arg4) := Wexit_of_ne m ρ c main_arg4 (by decide)
    _ = W8 m ρ c (Proc.devRef .tc main_arg4) := StableHlo.after_of_forall_not_mem (b := Proc.devRef .tc main_arg4) _ _ (List.forall_iff_forall_mem.mp (by
          simp only [hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W7 m ρ c (Proc.devRef .tc main_arg4) := StableHlo.after_of_forall_not_mem (b := Proc.devRef .tc main_arg4) _ _ (List.forall_iff_forall_mem.mp (by
          simp only [hostOps0_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W6 m ρ c (Proc.devRef .tc main_arg4) := StableHlo.after_of_forall_not_mem (b := Proc.devRef .tc main_arg4) _ _ (List.forall_iff_forall_mem.mp (by
          simp only [hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W5 m ρ c (Proc.devRef .tc main_arg4) := StableHlo.after_of_forall_not_mem (b := Proc.devRef .tc main_arg4) _ _ (List.forall_iff_forall_mem.mp (by
          simp only [hostOps0_5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W4 m ρ c (Proc.devRef .tc main_arg4) := StableHlo.after_of_forall_not_mem (b := Proc.devRef .tc main_arg4) _ _ (List.forall_iff_forall_mem.mp (by
          simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W3 m ρ c (Proc.devRef .tc main_arg4) := StableHlo.after_of_forall_not_mem (b := Proc.devRef .tc main_arg4) _ _ (List.forall_iff_forall_mem.mp (by
          simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg4) := rfl
theorem Wfin_main_arg5 (c : Dev nD) : Wfin m ρ c (Proc.devRef .tc main_arg5) = m ((c : Thread nD τ).loc main_arg5) :=
  calc Wfin m ρ c (Proc.devRef .tc main_arg5)
    _ = Wexit m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W9 m ρ c (Proc.devRef .tc main_arg5) := Wexit_of_ne m ρ c main_arg5 (by decide)
    _ = W8 m ρ c (Proc.devRef .tc main_arg5) := StableHlo.after_of_forall_not_mem (b := Proc.devRef .tc main_arg5) _ _ (List.forall_iff_forall_mem.mp (by
          simp only [hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W7 m ρ c (Proc.devRef .tc main_arg5) := StableHlo.after_of_forall_not_mem (b := Proc.devRef .tc main_arg5) _ _ (List.forall_iff_forall_mem.mp (by
          simp only [hostOps0_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W6 m ρ c (Proc.devRef .tc main_arg5) := StableHlo.after_of_forall_not_mem (b := Proc.devRef .tc main_arg5) _ _ (List.forall_iff_forall_mem.mp (by
          simp only [hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W5 m ρ c (Proc.devRef .tc main_arg5) := StableHlo.after_of_forall_not_mem (b := Proc.devRef .tc main_arg5) _ _ (List.forall_iff_forall_mem.mp (by
          simp only [hostOps0_5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W4 m ρ c (Proc.devRef .tc main_arg5) := StableHlo.after_of_forall_not_mem (b := Proc.devRef .tc main_arg5) _ _ (List.forall_iff_forall_mem.mp (by
          simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W3 m ρ c (Proc.devRef .tc main_arg5) := StableHlo.after_of_forall_not_mem (b := Proc.devRef .tc main_arg5) _ _ (List.forall_iff_forall_mem.mp (by
          simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg5) := rfl
theorem Wfin_main_arg6 (c : Dev nD) : Wfin m ρ c (Proc.devRef .tc main_arg6) = m ((c : Thread nD τ).loc main_arg6) :=
  calc Wfin m ρ c (Proc.devRef .tc main_arg6)
    _ = Wexit m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W9 m ρ c (Proc.devRef .tc main_arg6) := Wexit_of_ne m ρ c main_arg6 (by decide)
    _ = W8 m ρ c (Proc.devRef .tc main_arg6) := StableHlo.after_of_forall_not_mem (b := Proc.devRef .tc main_arg6) _ _ (List.forall_iff_forall_mem.mp (by
          simp only [hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W7 m ρ c (Proc.devRef .tc main_arg6) := StableHlo.after_of_forall_not_mem (b := Proc.devRef .tc main_arg6) _ _ (List.forall_iff_forall_mem.mp (by
          simp only [hostOps0_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W6 m ρ c (Proc.devRef .tc main_arg6) := StableHlo.after_of_forall_not_mem (b := Proc.devRef .tc main_arg6) _ _ (List.forall_iff_forall_mem.mp (by
          simp only [hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W5 m ρ c (Proc.devRef .tc main_arg6) := StableHlo.after_of_forall_not_mem (b := Proc.devRef .tc main_arg6) _ _ (List.forall_iff_forall_mem.mp (by
          simp only [hostOps0_5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W4 m ρ c (Proc.devRef .tc main_arg6) := StableHlo.after_of_forall_not_mem (b := Proc.devRef .tc main_arg6) _ _ (List.forall_iff_forall_mem.mp (by
          simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W3 m ρ c (Proc.devRef .tc main_arg6) := StableHlo.after_of_forall_not_mem (b := Proc.devRef .tc main_arg6) _ _ (List.forall_iff_forall_mem.mp (by
          simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W2 m ρ c (Proc.devRef .tc main_arg6) := StableHlo.after_of_forall_not_mem (b := Proc.devRef .tc main_arg6) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg6) := rfl
theorem Wfin_main_arg7 (c : Dev nD) : Wfin m ρ c (Proc.devRef .tc main_arg7) = m ((c : Thread nD τ).loc main_arg7) :=
  calc Wfin m ρ c (Proc.devRef .tc main_arg7)
    _ = Wexit m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W9 m ρ c (Proc.devRef .tc main_arg7) := Wexit_of_ne m ρ c main_arg7 (by decide)
    _ = W8 m ρ c (Proc.devRef .tc main_arg7) := StableHlo.after_of_forall_not_mem (b := Proc.devRef .tc main_arg7) _ _ (List.forall_iff_forall_mem.mp (by
          simp only [hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W7 m ρ c (Proc.devRef .tc main_arg7) := StableHlo.after_of_forall_not_mem (b := Proc.devRef .tc main_arg7) _ _ (List.forall_iff_forall_mem.mp (by
          simp only [hostOps0_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W6 m ρ c (Proc.devRef .tc main_arg7) := StableHlo.after_of_forall_not_mem (b := Proc.devRef .tc main_arg7) _ _ (List.forall_iff_forall_mem.mp (by
          simp only [hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W5 m ρ c (Proc.devRef .tc main_arg7) := StableHlo.after_of_forall_not_mem (b := Proc.devRef .tc main_arg7) _ _ (List.forall_iff_forall_mem.mp (by
          simp only [hostOps0_5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W4 m ρ c (Proc.devRef .tc main_arg7) := StableHlo.after_of_forall_not_mem (b := Proc.devRef .tc main_arg7) _ _ (List.forall_iff_forall_mem.mp (by
          simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W3 m ρ c (Proc.devRef .tc main_arg7) := StableHlo.after_of_forall_not_mem (b := Proc.devRef .tc main_arg7) _ _ (List.forall_iff_forall_mem.mp (by
          simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W2 m ρ c (Proc.devRef .tc main_arg7) := StableHlo.after_of_forall_not_mem (b := Proc.devRef .tc main_arg7) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg7) := StableHlo.after_of_forall_not_mem (b := Proc.devRef .tc main_arg7) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg7) := rfl
theorem Wfin_main_arg8 (c : Dev nD) : Wfin m ρ c (Proc.devRef .tc main_arg8) = m ((c : Thread nD τ).loc main_arg8) :=
  calc Wfin m ρ c (Proc.devRef .tc main_arg8)
    _ = Wexit m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W9 m ρ c (Proc.devRef .tc main_arg8) := Wexit_of_ne m ρ c main_arg8 (by decide)
    _ = W8 m ρ c (Proc.devRef .tc main_arg8) := StableHlo.after_of_forall_not_mem (b := Proc.devRef .tc main_arg8) _ _ (List.forall_iff_forall_mem.mp (by
          simp only [hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W7 m ρ c (Proc.devRef .tc main_arg8) := StableHlo.after_of_forall_not_mem (b := Proc.devRef .tc main_arg8) _ _ (List.forall_iff_forall_mem.mp (by
          simp only [hostOps0_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W6 m ρ c (Proc.devRef .tc main_arg8) := StableHlo.after_of_forall_not_mem (b := Proc.devRef .tc main_arg8) _ _ (List.forall_iff_forall_mem.mp (by
          simp only [hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W5 m ρ c (Proc.devRef .tc main_arg8) := StableHlo.after_of_forall_not_mem (b := Proc.devRef .tc main_arg8) _ _ (List.forall_iff_forall_mem.mp (by
          simp only [hostOps0_5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W4 m ρ c (Proc.devRef .tc main_arg8) := StableHlo.after_of_forall_not_mem (b := Proc.devRef .tc main_arg8) _ _ (List.forall_iff_forall_mem.mp (by
          simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W3 m ρ c (Proc.devRef .tc main_arg8) := StableHlo.after_of_forall_not_mem (b := Proc.devRef .tc main_arg8) _ _ (List.forall_iff_forall_mem.mp (by
          simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W2 m ρ c (Proc.devRef .tc main_arg8) := StableHlo.after_of_forall_not_mem (b := Proc.devRef .tc main_arg8) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg8) := StableHlo.after_of_forall_not_mem (b := Proc.devRef .tc main_arg8) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg8) := rfl
theorem Wfin_main_arg9 (c : Dev nD) : Wfin m ρ c (Proc.devRef .tc main_arg9) = m ((c : Thread nD τ).loc main_arg9) :=
  calc Wfin m ρ c (Proc.devRef .tc main_arg9)
    _ = Wexit m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W9 m ρ c (Proc.devRef .tc main_arg9) := Wexit_of_ne m ρ c main_arg9 (by decide)
    _ = W8 m ρ c (Proc.devRef .tc main_arg9) := StableHlo.after_of_forall_not_mem (b := Proc.devRef .tc main_arg9) _ _ (List.forall_iff_forall_mem.mp (by
          simp only [hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W7 m ρ c (Proc.devRef .tc main_arg9) := StableHlo.after_of_forall_not_mem (b := Proc.devRef .tc main_arg9) _ _ (List.forall_iff_forall_mem.mp (by
          simp only [hostOps0_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W6 m ρ c (Proc.devRef .tc main_arg9) := StableHlo.after_of_forall_not_mem (b := Proc.devRef .tc main_arg9) _ _ (List.forall_iff_forall_mem.mp (by
          simp only [hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W5 m ρ c (Proc.devRef .tc main_arg9) := StableHlo.after_of_forall_not_mem (b := Proc.devRef .tc main_arg9) _ _ (List.forall_iff_forall_mem.mp (by
          simp only [hostOps0_5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W4 m ρ c (Proc.devRef .tc main_arg9) := StableHlo.after_of_forall_not_mem (b := Proc.devRef .tc main_arg9) _ _ (List.forall_iff_forall_mem.mp (by
          simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W3 m ρ c (Proc.devRef .tc main_arg9) := StableHlo.after_of_forall_not_mem (b := Proc.devRef .tc main_arg9) _ _ (List.forall_iff_forall_mem.mp (by
          simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W2 m ρ c (Proc.devRef .tc main_arg9) := StableHlo.after_of_forall_not_mem (b := Proc.devRef .tc main_arg9) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg9) := StableHlo.after_of_forall_not_mem (b := Proc.devRef .tc main_arg9) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg9) := rfl
theorem Wfin_main_arg10 (c : Dev nD) : Wfin m ρ c (Proc.devRef .tc main_arg10) = m ((c : Thread nD τ).loc main_arg10) :=
  calc Wfin m ρ c (Proc.devRef .tc main_arg10)
    _ = Wexit m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W9 m ρ c (Proc.devRef .tc main_arg10) := Wexit_of_ne m ρ c main_arg10 (by decide)
    _ = W8 m ρ c (Proc.devRef .tc main_arg10) := StableHlo.after_of_forall_not_mem (b := Proc.devRef .tc main_arg10) _ _ (List.forall_iff_forall_mem.mp (by
          simp only [hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W7 m ρ c (Proc.devRef .tc main_arg10) := StableHlo.after_of_forall_not_mem (b := Proc.devRef .tc main_arg10) _ _ (List.forall_iff_forall_mem.mp (by
          simp only [hostOps0_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W6 m ρ c (Proc.devRef .tc main_arg10) := StableHlo.after_of_forall_not_mem (b := Proc.devRef .tc main_arg10) _ _ (List.forall_iff_forall_mem.mp (by
          simp only [hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W5 m ρ c (Proc.devRef .tc main_arg10) := StableHlo.after_of_forall_not_mem (b := Proc.devRef .tc main_arg10) _ _ (List.forall_iff_forall_mem.mp (by
          simp only [hostOps0_5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W4 m ρ c (Proc.devRef .tc main_arg10) := StableHlo.after_of_forall_not_mem (b := Proc.devRef .tc main_arg10) _ _ (List.forall_iff_forall_mem.mp (by
          simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W3 m ρ c (Proc.devRef .tc main_arg10) := StableHlo.after_of_forall_not_mem (b := Proc.devRef .tc main_arg10) _ _ (List.forall_iff_forall_mem.mp (by
          simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W2 m ρ c (Proc.devRef .tc main_arg10) := StableHlo.after_of_forall_not_mem (b := Proc.devRef .tc main_arg10) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg10) := StableHlo.after_of_forall_not_mem (b := Proc.devRef .tc main_arg10) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg10) := rfl
theorem Wfin_main_arg11 (c : Dev nD) : Wfin m ρ c (Proc.devRef .tc main_arg11) = m ((c : Thread nD τ).loc main_arg11) :=
  calc Wfin m ρ c (Proc.devRef .tc main_arg11)
    _ = Wexit m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W9 m ρ c (Proc.devRef .tc main_arg11) := Wexit_of_ne m ρ c main_arg11 (by decide)
    _ = W8 m ρ c (Proc.devRef .tc main_arg11) := StableHlo.after_of_forall_not_mem (b := Proc.devRef .tc main_arg11) _ _ (List.forall_iff_forall_mem.mp (by
          simp only [hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W7 m ρ c (Proc.devRef .tc main_arg11) := StableHlo.after_of_forall_not_mem (b := Proc.devRef .tc main_arg11) _ _ (List.forall_iff_forall_mem.mp (by
          simp only [hostOps0_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W6 m ρ c (Proc.devRef .tc main_arg11) := StableHlo.after_of_forall_not_mem (b := Proc.devRef .tc main_arg11) _ _ (List.forall_iff_forall_mem.mp (by
          simp only [hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W5 m ρ c (Proc.devRef .tc main_arg11) := StableHlo.after_of_forall_not_mem (b := Proc.devRef .tc main_arg11) _ _ (List.forall_iff_forall_mem.mp (by
          simp only [hostOps0_5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W4 m ρ c (Proc.devRef .tc main_arg11) := StableHlo.after_of_forall_not_mem (b := Proc.devRef .tc main_arg11) _ _ (List.forall_iff_forall_mem.mp (by
          simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W3 m ρ c (Proc.devRef .tc main_arg11) := StableHlo.after_of_forall_not_mem (b := Proc.devRef .tc main_arg11) _ _ (List.forall_iff_forall_mem.mp (by
          simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W2 m ρ c (Proc.devRef .tc main_arg11) := StableHlo.after_of_forall_not_mem (b := Proc.devRef .tc main_arg11) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg11) := StableHlo.after_of_forall_not_mem (b := Proc.devRef .tc main_arg11) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg11) := rfl
theorem Wfin_main_arg12 (c : Dev nD) : Wfin m ρ c (Proc.devRef .tc main_arg12) = m ((c : Thread nD τ).loc main_arg12) :=
  calc Wfin m ρ c (Proc.devRef .tc main_arg12)
    _ = Wexit m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W9 m ρ c (Proc.devRef .tc main_arg12) := Wexit_of_ne m ρ c main_arg12 (by decide)
    _ = W8 m ρ c (Proc.devRef .tc main_arg12) := StableHlo.after_of_forall_not_mem (b := Proc.devRef .tc main_arg12) _ _ (List.forall_iff_forall_mem.mp (by
          simp only [hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W7 m ρ c (Proc.devRef .tc main_arg12) := StableHlo.after_of_forall_not_mem (b := Proc.devRef .tc main_arg12) _ _ (List.forall_iff_forall_mem.mp (by
          simp only [hostOps0_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W6 m ρ c (Proc.devRef .tc main_arg12) := StableHlo.after_of_forall_not_mem (b := Proc.devRef .tc main_arg12) _ _ (List.forall_iff_forall_mem.mp (by
          simp only [hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W5 m ρ c (Proc.devRef .tc main_arg12) := StableHlo.after_of_forall_not_mem (b := Proc.devRef .tc main_arg12) _ _ (List.forall_iff_forall_mem.mp (by
          simp only [hostOps0_5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W4 m ρ c (Proc.devRef .tc main_arg12) := StableHlo.after_of_forall_not_mem (b := Proc.devRef .tc main_arg12) _ _ (List.forall_iff_forall_mem.mp (by
          simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W3 m ρ c (Proc.devRef .tc main_arg12) := StableHlo.after_of_forall_not_mem (b := Proc.devRef .tc main_arg12) _ _ (List.forall_iff_forall_mem.mp (by
          simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W2 m ρ c (Proc.devRef .tc main_arg12) := StableHlo.after_of_forall_not_mem (b := Proc.devRef .tc main_arg12) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg12) := StableHlo.after_of_forall_not_mem (b := Proc.devRef .tc main_arg12) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg12) := rfl
theorem Wfin_main_arg13 (c : Dev nD) : Wfin m ρ c (Proc.devRef .tc main_arg13) = m ((c : Thread nD τ).loc main_arg13) :=
  calc Wfin m ρ c (Proc.devRef .tc main_arg13)
    _ = Wexit m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W9 m ρ c (Proc.devRef .tc main_arg13) := Wexit_of_ne m ρ c main_arg13 (by decide)
    _ = W8 m ρ c (Proc.devRef .tc main_arg13) := StableHlo.after_of_forall_not_mem (b := Proc.devRef .tc main_arg13) _ _ (List.forall_iff_forall_mem.mp (by
          simp only [hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W7 m ρ c (Proc.devRef .tc main_arg13) := StableHlo.after_of_forall_not_mem (b := Proc.devRef .tc main_arg13) _ _ (List.forall_iff_forall_mem.mp (by
          simp only [hostOps0_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W6 m ρ c (Proc.devRef .tc main_arg13) := StableHlo.after_of_forall_not_mem (b := Proc.devRef .tc main_arg13) _ _ (List.forall_iff_forall_mem.mp (by
          simp only [hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W5 m ρ c (Proc.devRef .tc main_arg13) := StableHlo.after_of_forall_not_mem (b := Proc.devRef .tc main_arg13) _ _ (List.forall_iff_forall_mem.mp (by
          simp only [hostOps0_5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W4 m ρ c (Proc.devRef .tc main_arg13) := StableHlo.after_of_forall_not_mem (b := Proc.devRef .tc main_arg13) _ _ (List.forall_iff_forall_mem.mp (by
          simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W3 m ρ c (Proc.devRef .tc main_arg13) := StableHlo.after_of_forall_not_mem (b := Proc.devRef .tc main_arg13) _ _ (List.forall_iff_forall_mem.mp (by
          simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W2 m ρ c (Proc.devRef .tc main_arg13) := StableHlo.after_of_forall_not_mem (b := Proc.devRef .tc main_arg13) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg13) := StableHlo.after_of_forall_not_mem (b := Proc.devRef .tc main_arg13) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg13) := rfl
theorem Wfin_main_arg14 (c : Dev nD) : Wfin m ρ c (Proc.devRef .tc main_arg14) = m ((c : Thread nD τ).loc main_arg14) :=
  calc Wfin m ρ c (Proc.devRef .tc main_arg14)
    _ = Wexit m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W9 m ρ c (Proc.devRef .tc main_arg14) := Wexit_of_ne m ρ c main_arg14 (by decide)
    _ = W8 m ρ c (Proc.devRef .tc main_arg14) := StableHlo.after_of_forall_not_mem (b := Proc.devRef .tc main_arg14) _ _ (List.forall_iff_forall_mem.mp (by
          simp only [hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W7 m ρ c (Proc.devRef .tc main_arg14) := StableHlo.after_of_forall_not_mem (b := Proc.devRef .tc main_arg14) _ _ (List.forall_iff_forall_mem.mp (by
          simp only [hostOps0_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W6 m ρ c (Proc.devRef .tc main_arg14) := StableHlo.after_of_forall_not_mem (b := Proc.devRef .tc main_arg14) _ _ (List.forall_iff_forall_mem.mp (by
          simp only [hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W5 m ρ c (Proc.devRef .tc main_arg14) := StableHlo.after_of_forall_not_mem (b := Proc.devRef .tc main_arg14) _ _ (List.forall_iff_forall_mem.mp (by
          simp only [hostOps0_5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W4 m ρ c (Proc.devRef .tc main_arg14) := StableHlo.after_of_forall_not_mem (b := Proc.devRef .tc main_arg14) _ _ (List.forall_iff_forall_mem.mp (by
          simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W3 m ρ c (Proc.devRef .tc main_arg14) := StableHlo.after_of_forall_not_mem (b := Proc.devRef .tc main_arg14) _ _ (List.forall_iff_forall_mem.mp (by
          simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W2 m ρ c (Proc.devRef .tc main_arg14) := StableHlo.after_of_forall_not_mem (b := Proc.devRef .tc main_arg14) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg14) := StableHlo.after_of_forall_not_mem (b := Proc.devRef .tc main_arg14) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg14) := rfl
theorem Wfin_main_arg15 (c : Dev nD) : Wfin m ρ c (Proc.devRef .tc main_arg15) = m ((c : Thread nD τ).loc main_arg15) :=
  calc Wfin m ρ c (Proc.devRef .tc main_arg15)
    _ = Wexit m ρ c (Proc.devRef .tc main_arg15) := StableHlo.after_of_forall_not_mem (b := Proc.devRef .tc main_arg15) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W9 m ρ c (Proc.devRef .tc main_arg15) := Wexit_of_ne m ρ c main_arg15 (by decide)
    _ = W8 m ρ c (Proc.devRef .tc main_arg15) := StableHlo.after_of_forall_not_mem (b := Proc.devRef .tc main_arg15) _ _ (List.forall_iff_forall_mem.mp (by
          simp only [hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W7 m ρ c (Proc.devRef .tc main_arg15) := StableHlo.after_of_forall_not_mem (b := Proc.devRef .tc main_arg15) _ _ (List.forall_iff_forall_mem.mp (by
          simp only [hostOps0_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W6 m ρ c (Proc.devRef .tc main_arg15) := StableHlo.after_of_forall_not_mem (b := Proc.devRef .tc main_arg15) _ _ (List.forall_iff_forall_mem.mp (by
          simp only [hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W5 m ρ c (Proc.devRef .tc main_arg15) := StableHlo.after_of_forall_not_mem (b := Proc.devRef .tc main_arg15) _ _ (List.forall_iff_forall_mem.mp (by
          simp only [hostOps0_5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W4 m ρ c (Proc.devRef .tc main_arg15) := StableHlo.after_of_forall_not_mem (b := Proc.devRef .tc main_arg15) _ _ (List.forall_iff_forall_mem.mp (by
          simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W3 m ρ c (Proc.devRef .tc main_arg15) := StableHlo.after_of_forall_not_mem (b := Proc.devRef .tc main_arg15) _ _ (List.forall_iff_forall_mem.mp (by
          simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W2 m ρ c (Proc.devRef .tc main_arg15) := StableHlo.after_of_forall_not_mem (b := Proc.devRef .tc main_arg15) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg15) := StableHlo.after_of_forall_not_mem (b := Proc.devRef .tc main_arg15) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg15) := rfl

/-! ## The proof data family and the thread state -/

/-- The prefetched tables' admissible contents: the pipeline has no table. -/
abbrev adm : (p : Fin 1) → (pcfgs (F := F) p).Adm := fun p => (cfgs p).toPCfg_adm
/-- The pipeline's proof data at the region's entry contents. -/
def pdats : (p : Fin 1) → (c : Dev nD) → Dat τ (Elt F) Unit ℕ (UR sig nD τ) ℕ (Pipeline.pin (pcfgs (F := F)) adm p) c
  | ⟨0, _⟩ => fun c => dat0 (Vent m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of `hostOps0` allocates a buffer. -/
theorem hostOps0_fresh : (hostOps0 : List (HloOp τ sig (Elt F))).Forall fun op => op.fresh = ∅ := by
  simp only [List.Forall]; repeat' constructor
/-- No operation of `hostOps0_1` allocates a buffer. -/
theorem hostOps0_1_fresh : (hostOps0_1 : List (HloOp τ sig (Elt F))).Forall fun op => op.fresh = ∅ := by
  simp only [List.Forall]; repeat' constructor
/-- No operation of `hostOps0_2` allocates a buffer. -/
theorem hostOps0_2_fresh : (hostOps0_2 : List (HloOp τ sig (Elt F))).Forall fun op => op.fresh = ∅ := by
  simp only [List.Forall]; repeat' constructor
/-- No operation of `hostOps0_3` allocates a buffer. -/
theorem hostOps0_3_fresh : (hostOps0_3 : List (HloOp τ sig (Elt F))).Forall fun op => op.fresh = ∅ := by
  simp only [List.Forall]; repeat' constructor
/-- No operation of `hostOps0_4` allocates a buffer. -/
theorem hostOps0_4_fresh : (hostOps0_4 : List (HloOp τ sig (Elt F))).Forall fun op => op.fresh = ∅ := by
  simp only [List.Forall]; repeat' constructor
/-- No operation of `hostOps0_5` allocates a buffer. -/
theorem hostOps0_5_fresh : (hostOps0_5 : List (HloOp τ sig (Elt F))).Forall fun op => op.fresh = ∅ := by
  simp only [List.Forall]; repeat' constructor
/-- No operation of `hostOps0_6` allocates a buffer. -/
theorem hostOps0_6_fresh : (hostOps0_6 : List (HloOp τ sig (Elt F))).Forall fun op => op.fresh = ∅ := by
  simp only [List.Forall]; repeat' constructor
/-- No operation of `hostOps0_7` allocates a buffer. -/
theorem hostOps0_7_fresh : (hostOps0_7 : List (HloOp τ sig (Elt F))).Forall fun op => op.fresh = ∅ := by
  simp only [List.Forall]; repeat' constructor
/-- No operation of `hostOps0_8` allocates a buffer. -/
theorem hostOps0_8_fresh : (hostOps0_8 : List (HloOp τ sig (Elt F))).Forall fun op => op.fresh = ∅ := by
  simp only [List.Forall]; repeat' constructor
/-- No operation of `hostOps1` allocates a buffer. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `Wfin`, the
    generator register at some state. -/
abbrev Tₙ (c : Dev nD) : sProp 𝕄 := iprop(StableHlo.held (c : Thread nD τ) (Pipeline.ucRefs τ sig) (Wfin m ρ c) ∗ ∃ r, prngReg c r)

/-! ## The region as a segment -/

set_option backward.isDefEq.respectTransparency.types false in
/-- The region over the thread state: entered from every unscoped buffer at `Went`, left at `Wexit`. Its arrays split
    out of the unscoped buffers and put back at the exit contents; the generator register into the class invariant and
    out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vent m ρ) c).loose
  hwaits := Pipeline.hwaits_of_owed_zero _ _ _ _ L lv 0 fun _ _ => rfl
  pre c := iprop(StableHlo.held (c : Thread nD τ) (Pipeline.ucRefs τ sig) (Went m ρ c) ∗ R c)
  post c := iprop(StableHlo.held (c : Thread nD τ) (Pipeline.ucRefs τ sig) (Wexit m ρ c) ∗ R c)
  X c := iprop(∃ r, prngReg c r)
  Y c := iprop(∃ r, prngReg c r)
  Z c := Pipeline.unscopedRest (Ix := Unit) (Name := ℕ) (U := UR sig nD τ) (Lvl := ℕ) spec0 c (Vent m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vent m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vent m ρ c) (Vexit m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 11 segments in order: a host segment per stretch from its boundary's contents, the region, the return. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .region (reg0 m ρ),
    .host (hseg hostOps1 hostOps1_sub hostOps1_fresh (Wexit m ρ)) ]
/-- @main IS the run of the segments. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the
    TensorCores terminates, nothing faulting, and every final state has the result buffer at the fold's last contents
    and the argument arrays as launched. -/
theorem run : θ_run defs (onTc (τ := τ) (main (F := F))) ⟨m, fun _ => 0, ρ⟩ (fun r => ∀ c : Dev nD,
      r.2.mem ((c.tc : Thread nD τ).loc main_v60) = Wfin m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wfin m ρ c b)
    (hfin := fun c s' => by
      iintro ⟨⟨Hh, -⟩, HSI⟩
      unfold StableHlo.held
      imodintro
      iapply (pointsTo_read_all (Pipeline.ucRefs τ sig) (fun b => (((c : Thread nD τ)).1, b)) (Wfin m ρ c) s')
      isplitl [Hh] <;> iassumption)
    (hQ := fun s h c =>
      ⟨h c _ (mem_uc main_v60 (by decide)),
       (h c _ (mem_uc main_arg0 (by decide))).trans (Wfin_main_arg0 m ρ c),
       (h c _ (mem_uc main_arg1 (by decide))).trans (Wfin_main_arg1 m ρ c),
       (h c _ (mem_uc main_arg2 (by decide))).trans (Wfin_main_arg2 m ρ c),
       (h c _ (mem_uc main_arg3 (by decide))).trans (Wfin_main_arg3 m ρ c),
       (h c _ (mem_uc main_arg4 (by decide))).trans (Wfin_main_arg4 m ρ c),
       (h c _ (mem_uc main_arg5 (by decide))).trans (Wfin_main_arg5 m ρ c),
       (h c _ (mem_uc main_arg6 (by decide))).trans (Wfin_main_arg6 m ρ c),
       (h c _ (mem_uc main_arg7 (by decide))).trans (Wfin_main_arg7 m ρ c),
       (h c _ (mem_uc main_arg8 (by decide))).trans (Wfin_main_arg8 m ρ c),
       (h c _ (mem_uc main_arg9 (by decide))).trans (Wfin_main_arg9 m ρ c),
       (h c _ (mem_uc main_arg10 (by decide))).trans (Wfin_main_arg10 m ρ c),
       (h c _ (mem_uc main_arg11 (by decide))).trans (Wfin_main_arg11 m ρ c),
       (h c _ (mem_uc main_arg12 (by decide))).trans (Wfin_main_arg12 m ρ c),
       (h c _ (mem_uc main_arg13 (by decide))).trans (Wfin_main_arg13 m ρ c),
       (h c _ (mem_uc main_arg14 (by decide))).trans (Wfin_main_arg14 m ρ c),
       (h c _ (mem_uc main_arg15 (by decide))).trans (Wfin_main_arg15 m ρ c)⟩)

/-- THE FRAME: the run with the result's conjunct dropped — every weakly fair execution terminates, nothing faulting, and
    every final state has the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => (h c).2) (run m ρ)

end Cert.Kernel.Hand

end
-- ==== Proof.KIBody.lean ====
/-
  The kernel's body on any whole staging memrefs, once, for every grid point.

  The body reads its five input blocks (one sample of the low-resolution image, one sample of the skip image, the
  packed weights, the biases, the column mask), fills its four scratch buffers before it reads them, and stores the
  output block in 64 column pieces of 64 lanes. Here: the staging memrefs as the pipeline passes them, the class
  invariant with the scratch buffers as memrefs owned at some contents, the run of the body against a continuation
  (the pieces it leaves in the output's buffer are the witness the run finds), that those pieces tile the block, and
  the block they leave read back.
-/
import proofs.«126750_g2000606872001322_pallasbulk_142_34_alg».proof.Proof.Gen.KernelIdeal.Launch
import proofs.«126750_g2000606872001322_pallasbulk_142_34_alg».proof.Proof.Gen.KernelIdeal.Skeleton
import proofs.«126750_g2000606872001322_pallasbulk_142_34_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The staging memrefs at a point, and the scratch operands -/

/-- One staging buffer of output window 5, through which its contents are stated (any whole buffer of the block's
    shape reads the same pieces back the same). -/
abbrev VO0_5 : View sig .tc .vmem S1x128x4096 .f32 := (Memref.whole cc0_stg5_0 : Memref sig .tc .vmem S1x128x4096 .f32).view
/-- Each window's current staging memref at point `t`, spelled as the pipeline passes it, and its wholeness. -/
abbrev ms0_0 (t : Fin cfg0.N) : Memref sig .tc .vmem S1x256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2952x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4608 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128x4096 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S256x4864 .bf16 := Memref.whole cc0_scratch0
abbrev scM0_1 : Memref sig .tc .vmem S128x4864 .bf16 := Memref.whole cc0_scratch1
abbrev scM0_2 : Memref sig .tc .vmem S1024x512 .f32 := Memref.whole cc0_scratch2
abbrev scM0_3 : Memref sig .tc .vmem S4864x128 .bf16 := Memref.whole cc0_scratch3

/-- The class invariant with the scratch operands as memrefs owned at some contents: the four scratch buffers each at
    some contents, and the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-! ## The body on any staging memrefs: a subtype the run finds -/

-- (the run's proof term is large: the definition's epilogue walks it past the default budget)
set_option maxHeartbeats 8000000 in
/-- What the body's stores leave in the output's staging memref, as pieces (last first), WITH the proof that on whole
    staging memrefs — the inputs' at their contents, the output's at anything, the scratch buffers at anything — the
    body runs to the continuation holding the inputs' as they were, the scratch at some contents, the output's buffer
    with its pieces written. -/
noncomputable def kernelRun0_A (c : Dev nD) (i : grid0.Coords) (arg1 : Memref sig .tc .vmem S1x256x1024 .f32) (harg1 : arg1.IsWhole) (arg2 : Memref sig .tc .vmem S1x128x4096 .f32) (harg2 : arg2.IsWhole) (arg3 : Memref sig .tc .vmem S2952x256 .bf16) (harg3 : arg3.IsWhole) (arg4 : Memref sig .tc .vmem S256x128 .f32) (harg4 : arg4.IsWhole) (arg5 : Memref sig .tc .vmem S1x4608 .f32) (harg5 : arg5.IsWhole) (arg6 : Memref sig .tc .vmem S1x128x4096 .f32) (harg6 : arg6.IsWhole) (arg7 : Memref sig .tc .vmem S256x4864 .bf16) (harg7 : arg7.IsWhole) (arg8 : Memref sig .tc .vmem S128x4864 .bf16) (harg8 : arg8.IsWhole) (arg9 : Memref sig .tc .vmem S1024x512 .f32) (harg9 : arg9.IsWhole) (arg10 : Memref sig .tc .vmem S4864x128 .bf16) (harg10 : arg10.IsWhole)
    (x0 : Vec F S1x256x1024 .f32) (x1 : Vec F S1x128x4096 .f32) (x2 : Vec F S2952x256 .bf16) (x3 : Vec F S256x128 .f32) (x4 : Vec F S1x4608 .f32) :
    { L5 : List (View.Piece (Elt F) S1x128x4096 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_body i arg1 harg1 arg2 harg2 arg3 harg3 arg4 harg4 arg5 harg5 arg6 harg6 arg7 harg7 arg8 harg8 arg9 harg9 arg10 harg10) K } := by
  refine ⟨?_, fun E K => ?run⟩
  case run =>
    simp only [cc0_body_eq_skeleton]; unfold cc0_body_skel
    simp only [k0_part39_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

/-- The run's pieces for the output tile its block (64 stores of 1×128×64 at column offsets 0, 64, …, 4032), so they
    cover it. -/
theorem cover0_A_5 (c : Dev nD) (i : grid0.Coords) (arg1 : Memref sig .tc .vmem S1x256x1024 .f32) (harg1 : arg1.IsWhole) (arg2 : Memref sig .tc .vmem S1x128x4096 .f32) (harg2 : arg2.IsWhole) (arg3 : Memref sig .tc .vmem S2952x256 .bf16) (harg3 : arg3.IsWhole) (arg4 : Memref sig .tc .vmem S256x128 .f32) (harg4 : arg4.IsWhole) (arg5 : Memref sig .tc .vmem S1x4608 .f32) (harg5 : arg5.IsWhole) (arg6 : Memref sig .tc .vmem S1x128x4096 .f32) (harg6 : arg6.IsWhole) (arg7 : Memref sig .tc .vmem S256x4864 .bf16) (harg7 : arg7.IsWhole) (arg8 : Memref sig .tc .vmem S128x4864 .bf16) (harg8 : arg8.IsWhole) (arg9 : Memref sig .tc .vmem S1024x512 .f32) (harg9 : arg9.IsWhole) (arg10 : Memref sig .tc .vmem S4864x128 .bf16) (harg10 : arg10.IsWhole)
    (x0 : Vec F S1x256x1024 .f32) (x1 : Vec F S1x128x4096 .f32) (x2 : Vec F S2952x256 .bf16) (x3 : Vec F S256x128 .f32) (x4 : Vec F S1x4608 .f32) (y : S1x128x4096.Idx) :
    ∃ pc ∈ (kernelRun0_A c i arg1 harg1 arg2 harg2 arg3 harg3 arg4 harg4 arg5 harg5 arg6 harg6 arg7 harg7 arg8 harg8 arg9 harg9 arg10 harg10 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 arg10 harg10 x0 x1 x2 x3 x4).1 S1x128x64.size (by sl_kernel_rfl) y

/-- What the run leaves in the output's staging buffer: its pieces read back over junk. -/
def out0_A_5 (c : Dev nD) (i : grid0.Coords) (arg1 : Memref sig .tc .vmem S1x256x1024 .f32) (harg1 : arg1.IsWhole) (arg2 : Memref sig .tc .vmem S1x128x4096 .f32) (harg2 : arg2.IsWhole) (arg3 : Memref sig .tc .vmem S2952x256 .bf16) (harg3 : arg3.IsWhole) (arg4 : Memref sig .tc .vmem S256x128 .f32) (harg4 : arg4.IsWhole) (arg5 : Memref sig .tc .vmem S1x4608 .f32) (harg5 : arg5.IsWhole) (arg6 : Memref sig .tc .vmem S1x128x4096 .f32) (harg6 : arg6.IsWhole) (arg7 : Memref sig .tc .vmem S256x4864 .bf16) (harg7 : arg7.IsWhole) (arg8 : Memref sig .tc .vmem S128x4864 .bf16) (harg8 : arg8.IsWhole) (arg9 : Memref sig .tc .vmem S1024x512 .f32) (harg9 : arg9.IsWhole) (arg10 : Memref sig .tc .vmem S4864x128 .bf16) (harg10 : arg10.IsWhole)
    (x0 : Vec F S1x256x1024 .f32) (x1 : Vec F S1x128x4096 .f32) (x2 : Vec F S2952x256 .bf16) (x3 : Vec F S256x128 .f32) (x4 : Vec F S1x4608 .f32) : Vec F S1x128x4096 .f32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 x0 x1 x2 x3 x4).1)

end Cert.KernelIdeal.Hand

end
-- ==== Proof.KIFrame.lean ====
/-
  The kernel program's run from launch to return.

  First the one region at a PARAMETER `V` (the TensorCore's buffer contents when the region is entered): each
  window's block at a point, what the output's staging buffer holds after the body there (the body's run at the
  point's staging memrefs and input blocks), the pipeline's proof data over the class invariant (the scratch buffers
  at some contents, the generator register at some state; the body initialises every scratch buffer before it
  reads it, so nothing is carried from point to point), and the body obligation.

  Then the run: the buffer contents at every segment boundary as a fold from the launch memory (nine stretches of
  host operations, the region, one closing reshape), each argument array read back through the fold to its launch
  contents, the region as a segment over "every unscoped buffer at the boundary's contents, the generator register
  at some state, nothing owed", and the run itself: every weakly fair execution terminates, nothing faults, the result
  buffer ends at the fold's last contents and every argument as launched.
-/
import proofs.«126750_g2000606872001322_pallasbulk_142_34_alg».proof.Proof.KIBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (where it is not
    fetched the block index has not moved), for any proof data whose array is `V`'s and whose body leaves the block in
    place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not (where it is not
    fetched the block index has not moved), for any proof data whose array is `V`'s and whose body leaves the block in
    place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not (where it is not
    fetched the block index has not moved), for any proof data whose array is `V`'s and whose body leaves the block in
    place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not (where it is not
    fetched the block index has not moved), for any proof data whose array is `V`'s and whose body leaves the block in
    place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not (where it is not
    fetched the block index has not moved), for any proof data whose array is `V`'s and whose body leaves the block in
    place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## What the output holds after each point -/

/-- What the output's staging buffer holds after the body at point `t`: the run's contents at the point's memrefs and
    input blocks. -/
def outsAt0 (c : Dev nD) (t : Fin cfg0.N) : Vec F S1x128x4096 .f32 :=
  out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (iblk0 V c 0 t) (iblk0 V c 1 t) (iblk0 V c 2 t) (iblk0 V c 3 t) (iblk0 V c 4 t)

/-! ## The pipeline's proof data -/

/-- The proof data of the pipeline on core `c`: the arrays as the region finds them (`V`); after the body at point `t`
    each input's buffer at its block and the output's at `outsAt0`; the class invariant (the scoped rest and the
    generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t))

set_option maxHeartbeats 1200000 in
/-- The body at any point: the inputs' memrefs hold their blocks, so the run applies; the invariant hands the body its
    scratch buffers at some contents (and the generator register) and takes them back at some contents; the core owes
    nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  rw [show (dat0 V c).Φ t.castSucc = Pipeline.ΦA spec0 c from rfl, PhiA0_eq]
  unfold outsAt0
  unfold out0_A_5
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
  iapply ((kernelRun0_A c (grid0.coords t) _ _ _ _ _ _ _ _ _ _ _ _ _ _ _ _ _ _ _ _ (iblk0 V c 0 t) (iblk0 V c 1 t) (iblk0 V c 2 t) (iblk0 V c 3 t) (iblk0 V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  iintro ⟨H0, H1, H2, H3, H4, ⟨%e5, H5⟩, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover0_A_5 c _ _ _ _ _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

/-! # The run: @main's segments from the launch to the return

## The buffer contents at each segment boundary: a fold through @main -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- After `hostOps0_1`. -/
abbrev W2 : Dev nD → Valuation τ sig (Elt F) := fun c => StableHlo.after hostOps0_1 (W1 m ρ c)
/-- After `hostOps0_2`. -/
abbrev W3 : Dev nD → Valuation τ sig (Elt F) := fun c => StableHlo.after hostOps0_2 (W2 m ρ c)
/-- After `hostOps0_3`. -/
abbrev W4 : Dev nD → Valuation τ sig (Elt F) := fun c => StableHlo.after hostOps0_3 (W3 m ρ c)
/-- After `hostOps0_4`. -/
abbrev W5 : Dev nD → Valuation τ sig (Elt F) := fun c => StableHlo.after hostOps0_4 (W4 m ρ c)
/-- After `hostOps0_5`. -/
abbrev W6 : Dev nD → Valuation τ sig (Elt F) := fun c => StableHlo.after hostOps0_5 (W5 m ρ c)
/-- After `hostOps0_6`. -/
abbrev W7 : Dev nD → Valuation τ sig (Elt F) := fun c => StableHlo.after hostOps0_6 (W6 m ρ c)
/-- After `hostOps0_7`. -/
abbrev W8 : Dev nD → Valuation τ sig (Elt F) := fun c => StableHlo.after hostOps0_7 (W7 m ρ c)
/-- After `hostOps0_8`. -/
abbrev W9 : Dev nD → Valuation τ sig (Elt F) := fun c => StableHlo.after hostOps0_8 (W8 m ρ c)
/-- The region's entry contents: after the nine stretches. -/
abbrev Went : Dev nD → Valuation τ sig (Elt F) := W9 m ρ
/-- The same read at the TensorCore's references (what the region's proof data take). -/
abbrev Vent : (c : Dev nD) → (b : Ref sig .tc) → Buf (Elt F) ((c : Thread nD τ).loc b) := fun c b => Went m ρ c b
/-- At the region's exit: its arrays at what the pipeline leaves (the inputs as entered, the output's write-backs
    folded), every other buffer as entered. -/
def Wexit (c : Dev nD) : Valuation τ sig (Elt F) :=
  Pipeline.withArrays spec0 c (Went m ρ c) fun w => (dat0 (Vent m ρ) c).arrAt w cfg0.N
theorem Wexit_arr (c : Dev nD) (w : Fin cfg0.W) :
    Wexit m ρ c (Proc.devRef .tc (Pipeline.arrRef spec0 w)) = (dat0 (Vent m ρ) c).arrAt w cfg0.N := by
  unfold Wexit; exact Pipeline.withArrays_arr spec0 launch0.win.arr_inj c _ _ w
theorem Wexit_of_ne (c : Dev nD) (b : Ref sig .tc) (hb : ∀ w, Pipeline.arrRef spec0 w ≠ b) :
    Wexit m ρ c (Proc.devRef .tc b) = Went m ρ c (Proc.devRef .tc b) := by
  unfold Wexit; exact Pipeline.withArrays_of_ne spec0 c _ _ b hb
/-- The same read at the TensorCore's references (the region's exit contents). -/
abbrev Vexit : (c : Dev nD) → (b : Ref sig .tc) → Buf (Elt F) ((c : Thread nD τ).loc b) := fun c b => Wexit m ρ c b
/-- At the region's exit each of its arrays holds what the pipeline leaves and every other buffer what it held at entry. -/
theorem hF0 (c : Dev nD) (w : Fin cfg0.W) : (dat0 (Vent m ρ) c).arrAt w cfg0.N = Vexit m ρ c (Pipeline.arrRef spec0 w) :=
  (Wexit_arr m ρ c w).symm
theorem hrest0 (c : Dev nD) : ∀ b, b ∉ Finset.univ.image (Pipeline.arrRef spec0) → Vexit m ρ c b = Vent m ρ c b :=
  fun b hb => Wexit_of_ne m ρ c b fun w e => hb (Finset.mem_image.mpr ⟨w, Finset.mem_univ _, e⟩)

/-- After `hostOps1`: the return. -/
abbrev Wfin : Dev nD → Valuation τ sig (Elt F) := fun c => StableHlo.after hostOps1 (Wexit m ρ c)

/-! ### The arguments end as launched: no host operation and no region writes one, so the fold at an argument's buffer
    walks back to the launch memory -/

theorem Wfin_main_arg0 (c : Dev nD) : Wfin m ρ c (Proc.devRef .tc main_arg0) = m ((c : Thread nD τ).loc main_arg0) :=
  calc Wfin m ρ c (Proc.devRef .tc main_arg0)
    _ = Wexit m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W9 m ρ c (Proc.devRef .tc main_arg0) := Wexit_of_ne m ρ c main_arg0 (by decide)
    _ = W8 m ρ c (Proc.devRef .tc main_arg0) := StableHlo.after_of_forall_not_mem (b := Proc.devRef .tc main_arg0) _ _ (List.forall_iff_forall_mem.mp (by
          simp only [hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W7 m ρ c (Proc.devRef .tc main_arg0) := StableHlo.after_of_forall_not_mem (b := Proc.devRef .tc main_arg0) _ _ (List.forall_iff_forall_mem.mp (by
          simp only [hostOps0_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W6 m ρ c (Proc.devRef .tc main_arg0) := StableHlo.after_of_forall_not_mem (b := Proc.devRef .tc main_arg0) _ _ (List.forall_iff_forall_mem.mp (by
          simp only [hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W5 m ρ c (Proc.devRef .tc main_arg0) := StableHlo.after_of_forall_not_mem (b := Proc.devRef .tc main_arg0) _ _ (List.forall_iff_forall_mem.mp (by
          simp only [hostOps0_5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W4 m ρ c (Proc.devRef .tc main_arg0) := StableHlo.after_of_forall_not_mem (b := Proc.devRef .tc main_arg0) _ _ (List.forall_iff_forall_mem.mp (by
          simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W3 m ρ c (Proc.devRef .tc main_arg0) := StableHlo.after_of_forall_not_mem (b := Proc.devRef .tc main_arg0) _ _ (List.forall_iff_forall_mem.mp (by
          simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W2 m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg0) := rfl
theorem Wfin_main_arg1 (c : Dev nD) : Wfin m ρ c (Proc.devRef .tc main_arg1) = m ((c : Thread nD τ).loc main_arg1) :=
  calc Wfin m ρ c (Proc.devRef .tc main_arg1)
    _ = Wexit m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W9 m ρ c (Proc.devRef .tc main_arg1) := Wexit_of_ne m ρ c main_arg1 (by decide)
    _ = W8 m ρ c (Proc.devRef .tc main_arg1) := StableHlo.after_of_forall_not_mem (b := Proc.devRef .tc main_arg1) _ _ (List.forall_iff_forall_mem.mp (by
          simp only [hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W7 m ρ c (Proc.devRef .tc main_arg1) := StableHlo.after_of_forall_not_mem (b := Proc.devRef .tc main_arg1) _ _ (List.forall_iff_forall_mem.mp (by
          simp only [hostOps0_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W6 m ρ c (Proc.devRef .tc main_arg1) := StableHlo.after_of_forall_not_mem (b := Proc.devRef .tc main_arg1) _ _ (List.forall_iff_forall_mem.mp (by
          simp only [hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W5 m ρ c (Proc.devRef .tc main_arg1) := StableHlo.after_of_forall_not_mem (b := Proc.devRef .tc main_arg1) _ _ (List.forall_iff_forall_mem.mp (by
          simp only [hostOps0_5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W4 m ρ c (Proc.devRef .tc main_arg1) := StableHlo.after_of_forall_not_mem (b := Proc.devRef .tc main_arg1) _ _ (List.forall_iff_forall_mem.mp (by
          simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W3 m ρ c (Proc.devRef .tc main_arg1) := StableHlo.after_of_forall_not_mem (b := Proc.devRef .tc main_arg1) _ _ (List.forall_iff_forall_mem.mp (by
          simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W2 m ρ c (Proc.devRef .tc main_arg1) := StableHlo.after_of_forall_not_mem (b := Proc.devRef .tc main_arg1) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg1) := StableHlo.after_of_forall_not_mem (b := Proc.devRef .tc main_arg1) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg1) := rfl
theorem Wfin_main_arg2 (c : Dev nD) : Wfin m ρ c (Proc.devRef .tc main_arg2) = m ((c : Thread nD τ).loc main_arg2) :=
  calc Wfin m ρ c (Proc.devRef .tc main_arg2)
    _ = Wexit m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W9 m ρ c (Proc.devRef .tc main_arg2) := Wexit_of_ne m ρ c main_arg2 (by decide)
    _ = W8 m ρ c (Proc.devRef .tc main_arg2) := StableHlo.after_of_forall_not_mem (b := Proc.devRef .tc main_arg2) _ _ (List.forall_iff_forall_mem.mp (by
          simp only [hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W7 m ρ c (Proc.devRef .tc main_arg2) := StableHlo.after_of_forall_not_mem (b := Proc.devRef .tc main_arg2) _ _ (List.forall_iff_forall_mem.mp (by
          simp only [hostOps0_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W6 m ρ c (Proc.devRef .tc main_arg2) := StableHlo.after_of_forall_not_mem (b := Proc.devRef .tc main_arg2) _ _ (List.forall_iff_forall_mem.mp (by
          simp only [hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W5 m ρ c (Proc.devRef .tc main_arg2) := StableHlo.after_of_forall_not_mem (b := Proc.devRef .tc main_arg2) _ _ (List.forall_iff_forall_mem.mp (by
          simp only [hostOps0_5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W4 m ρ c (Proc.devRef .tc main_arg2) := StableHlo.after_of_forall_not_mem (b := Proc.devRef .tc main_arg2) _ _ (List.forall_iff_forall_mem.mp (by
          simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W3 m ρ c (Proc.devRef .tc main_arg2) := StableHlo.after_of_forall_not_mem (b := Proc.devRef .tc main_arg2) _ _ (List.forall_iff_forall_mem.mp (by
          simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg2) := rfl
theorem Wfin_main_arg3 (c : Dev nD) : Wfin m ρ c (Proc.devRef .tc main_arg3) = m ((c : Thread nD τ).loc main_arg3) :=
  calc Wfin m ρ c (Proc.devRef .tc main_arg3)
    _ = Wexit m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W9 m ρ c (Proc.devRef .tc main_arg3) := Wexit_of_ne m ρ c main_arg3 (by decide)
    _ = W8 m ρ c (Proc.devRef .tc main_arg3) := StableHlo.after_of_forall_not_mem (b := Proc.devRef .tc main_arg3) _ _ (List.forall_iff_forall_mem.mp (by
          simp only [hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W7 m ρ c (Proc.devRef .tc main_arg3) := StableHlo.after_of_forall_not_mem (b := Proc.devRef .tc main_arg3) _ _ (List.forall_iff_forall_mem.mp (by
          simp only [hostOps0_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W6 m ρ c (Proc.devRef .tc main_arg3) := StableHlo.after_of_forall_not_mem (b := Proc.devRef .tc main_arg3) _ _ (List.forall_iff_forall_mem.mp (by
          simp only [hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W5 m ρ c (Proc.devRef .tc main_arg3) := StableHlo.after_of_forall_not_mem (b := Proc.devRef .tc main_arg3) _ _ (List.forall_iff_forall_mem.mp (by
          simp only [hostOps0_5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W4 m ρ c (Proc.devRef .tc main_arg3) := StableHlo.after_of_forall_not_mem (b := Proc.devRef .tc main_arg3) _ _ (List.forall_iff_forall_mem.mp (by
          simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W3 m ρ c (Proc.devRef .tc main_arg3) := StableHlo.after_of_forall_not_mem (b := Proc.devRef .tc main_arg3) _ _ (List.forall_iff_forall_mem.mp (by
          simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg3) := rfl
theorem Wfin_main_arg4 (c : Dev nD) : Wfin m ρ c (Proc.devRef .tc main_arg4) = m ((c : Thread nD τ).loc main_arg4) :=
  calc Wfin m ρ c (Proc.devRef .tc main_arg4)
    _ = Wexit m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W9 m ρ c (Proc.devRef .tc main_arg4) := Wexit_of_ne m ρ c main_arg4 (by decide)
    _ = W8 m ρ c (Proc.devRef .tc main_arg4) := StableHlo.after_of_forall_not_mem (b := Proc.devRef .tc main_arg4) _ _ (List.forall_iff_forall_mem.mp (by
          simp only [hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W7 m ρ c (Proc.devRef .tc main_arg4) := StableHlo.after_of_forall_not_mem (b := Proc.devRef .tc main_arg4) _ _ (List.forall_iff_forall_mem.mp (by
          simp only [hostOps0_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W6 m ρ c (Proc.devRef .tc main_arg4) := StableHlo.after_of_forall_not_mem (b := Proc.devRef .tc main_arg4) _ _ (List.forall_iff_forall_mem.mp (by
          simp only [hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W5 m ρ c (Proc.devRef .tc main_arg4) := StableHlo.after_of_forall_not_mem (b := Proc.devRef .tc main_arg4) _ _ (List.forall_iff_forall_mem.mp (by
          simp only [hostOps0_5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W4 m ρ c (Proc.devRef .tc main_arg4) := StableHlo.after_of_forall_not_mem (b := Proc.devRef .tc main_arg4) _ _ (List.forall_iff_forall_mem.mp (by
          simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W3 m ρ c (Proc.devRef .tc main_arg4) := StableHlo.after_of_forall_not_mem (b := Proc.devRef .tc main_arg4) _ _ (List.forall_iff_forall_mem.mp (by
          simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg4) := rfl
theorem Wfin_main_arg5 (c : Dev nD) : Wfin m ρ c (Proc.devRef .tc main_arg5) = m ((c : Thread nD τ).loc main_arg5) :=
  calc Wfin m ρ c (Proc.devRef .tc main_arg5)
    _ = Wexit m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W9 m ρ c (Proc.devRef .tc main_arg5) := Wexit_of_ne m ρ c main_arg5 (by decide)
    _ = W8 m ρ c (Proc.devRef .tc main_arg5) := StableHlo.after_of_forall_not_mem (b := Proc.devRef .tc main_arg5) _ _ (List.forall_iff_forall_mem.mp (by
          simp only [hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W7 m ρ c (Proc.devRef .tc main_arg5) := StableHlo.after_of_forall_not_mem (b := Proc.devRef .tc main_arg5) _ _ (List.forall_iff_forall_mem.mp (by
          simp only [hostOps0_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W6 m ρ c (Proc.devRef .tc main_arg5) := StableHlo.after_of_forall_not_mem (b := Proc.devRef .tc main_arg5) _ _ (List.forall_iff_forall_mem.mp (by
          simp only [hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W5 m ρ c (Proc.devRef .tc main_arg5) := StableHlo.after_of_forall_not_mem (b := Proc.devRef .tc main_arg5) _ _ (List.forall_iff_forall_mem.mp (by
          simp only [hostOps0_5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W4 m ρ c (Proc.devRef .tc main_arg5) := StableHlo.after_of_forall_not_mem (b := Proc.devRef .tc main_arg5) _ _ (List.forall_iff_forall_mem.mp (by
          simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W3 m ρ c (Proc.devRef .tc main_arg5) := StableHlo.after_of_forall_not_mem (b := Proc.devRef .tc main_arg5) _ _ (List.forall_iff_forall_mem.mp (by
          simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg5) := rfl
theorem Wfin_main_arg6 (c : Dev nD) : Wfin m ρ c (Proc.devRef .tc main_arg6) = m ((c : Thread nD τ).loc main_arg6) :=
  calc Wfin m ρ c (Proc.devRef .tc main_arg6)
    _ = Wexit m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W9 m ρ c (Proc.devRef .tc main_arg6) := Wexit_of_ne m ρ c main_arg6 (by decide)
    _ = W8 m ρ c (Proc.devRef .tc main_arg6) := StableHlo.after_of_forall_not_mem (b := Proc.devRef .tc main_arg6) _ _ (List.forall_iff_forall_mem.mp (by
          simp only [hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W7 m ρ c (Proc.devRef .tc main_arg6) := StableHlo.after_of_forall_not_mem (b := Proc.devRef .tc main_arg6) _ _ (List.forall_iff_forall_mem.mp (by
          simp only [hostOps0_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W6 m ρ c (Proc.devRef .tc main_arg6) := StableHlo.after_of_forall_not_mem (b := Proc.devRef .tc main_arg6) _ _ (List.forall_iff_forall_mem.mp (by
          simp only [hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W5 m ρ c (Proc.devRef .tc main_arg6) := StableHlo.after_of_forall_not_mem (b := Proc.devRef .tc main_arg6) _ _ (List.forall_iff_forall_mem.mp (by
          simp only [hostOps0_5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W4 m ρ c (Proc.devRef .tc main_arg6) := StableHlo.after_of_forall_not_mem (b := Proc.devRef .tc main_arg6) _ _ (List.forall_iff_forall_mem.mp (by
          simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W3 m ρ c (Proc.devRef .tc main_arg6) := StableHlo.after_of_forall_not_mem (b := Proc.devRef .tc main_arg6) _ _ (List.forall_iff_forall_mem.mp (by
          simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W2 m ρ c (Proc.devRef .tc main_arg6) := StableHlo.after_of_forall_not_mem (b := Proc.devRef .tc main_arg6) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg6) := rfl
theorem Wfin_main_arg7 (c : Dev nD) : Wfin m ρ c (Proc.devRef .tc main_arg7) = m ((c : Thread nD τ).loc main_arg7) :=
  calc Wfin m ρ c (Proc.devRef .tc main_arg7)
    _ = Wexit m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W9 m ρ c (Proc.devRef .tc main_arg7) := Wexit_of_ne m ρ c main_arg7 (by decide)
    _ = W8 m ρ c (Proc.devRef .tc main_arg7) := StableHlo.after_of_forall_not_mem (b := Proc.devRef .tc main_arg7) _ _ (List.forall_iff_forall_mem.mp (by
          simp only [hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W7 m ρ c (Proc.devRef .tc main_arg7) := StableHlo.after_of_forall_not_mem (b := Proc.devRef .tc main_arg7) _ _ (List.forall_iff_forall_mem.mp (by
          simp only [hostOps0_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W6 m ρ c (Proc.devRef .tc main_arg7) := StableHlo.after_of_forall_not_mem (b := Proc.devRef .tc main_arg7) _ _ (List.forall_iff_forall_mem.mp (by
          simp only [hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W5 m ρ c (Proc.devRef .tc main_arg7) := StableHlo.after_of_forall_not_mem (b := Proc.devRef .tc main_arg7) _ _ (List.forall_iff_forall_mem.mp (by
          simp only [hostOps0_5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W4 m ρ c (Proc.devRef .tc main_arg7) := StableHlo.after_of_forall_not_mem (b := Proc.devRef .tc main_arg7) _ _ (List.forall_iff_forall_mem.mp (by
          simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W3 m ρ c (Proc.devRef .tc main_arg7) := StableHlo.after_of_forall_not_mem (b := Proc.devRef .tc main_arg7) _ _ (List.forall_iff_forall_mem.mp (by
          simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W2 m ρ c (Proc.devRef .tc main_arg7) := StableHlo.after_of_forall_not_mem (b := Proc.devRef .tc main_arg7) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg7) := StableHlo.after_of_forall_not_mem (b := Proc.devRef .tc main_arg7) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg7) := rfl
theorem Wfin_main_arg8 (c : Dev nD) : Wfin m ρ c (Proc.devRef .tc main_arg8) = m ((c : Thread nD τ).loc main_arg8) :=
  calc Wfin m ρ c (Proc.devRef .tc main_arg8)
    _ = Wexit m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W9 m ρ c (Proc.devRef .tc main_arg8) := Wexit_of_ne m ρ c main_arg8 (by decide)
    _ = W8 m ρ c (Proc.devRef .tc main_arg8) := StableHlo.after_of_forall_not_mem (b := Proc.devRef .tc main_arg8) _ _ (List.forall_iff_forall_mem.mp (by
          simp only [hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W7 m ρ c (Proc.devRef .tc main_arg8) := StableHlo.after_of_forall_not_mem (b := Proc.devRef .tc main_arg8) _ _ (List.forall_iff_forall_mem.mp (by
          simp only [hostOps0_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W6 m ρ c (Proc.devRef .tc main_arg8) := StableHlo.after_of_forall_not_mem (b := Proc.devRef .tc main_arg8) _ _ (List.forall_iff_forall_mem.mp (by
          simp only [hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W5 m ρ c (Proc.devRef .tc main_arg8) := StableHlo.after_of_forall_not_mem (b := Proc.devRef .tc main_arg8) _ _ (List.forall_iff_forall_mem.mp (by
          simp only [hostOps0_5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W4 m ρ c (Proc.devRef .tc main_arg8) := StableHlo.after_of_forall_not_mem (b := Proc.devRef .tc main_arg8) _ _ (List.forall_iff_forall_mem.mp (by
          simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W3 m ρ c (Proc.devRef .tc main_arg8) := StableHlo.after_of_forall_not_mem (b := Proc.devRef .tc main_arg8) _ _ (List.forall_iff_forall_mem.mp (by
          simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W2 m ρ c (Proc.devRef .tc main_arg8) := StableHlo.after_of_forall_not_mem (b := Proc.devRef .tc main_arg8) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg8) := StableHlo.after_of_forall_not_mem (b := Proc.devRef .tc main_arg8) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg8) := rfl
theorem Wfin_main_arg9 (c : Dev nD) : Wfin m ρ c (Proc.devRef .tc main_arg9) = m ((c : Thread nD τ).loc main_arg9) :=
  calc Wfin m ρ c (Proc.devRef .tc main_arg9)
    _ = Wexit m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W9 m ρ c (Proc.devRef .tc main_arg9) := Wexit_of_ne m ρ c main_arg9 (by decide)
    _ = W8 m ρ c (Proc.devRef .tc main_arg9) := StableHlo.after_of_forall_not_mem (b := Proc.devRef .tc main_arg9) _ _ (List.forall_iff_forall_mem.mp (by
          simp only [hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W7 m ρ c (Proc.devRef .tc main_arg9) := StableHlo.after_of_forall_not_mem (b := Proc.devRef .tc main_arg9) _ _ (List.forall_iff_forall_mem.mp (by
          simp only [hostOps0_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W6 m ρ c (Proc.devRef .tc main_arg9) := StableHlo.after_of_forall_not_mem (b := Proc.devRef .tc main_arg9) _ _ (List.forall_iff_forall_mem.mp (by
          simp only [hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W5 m ρ c (Proc.devRef .tc main_arg9) := StableHlo.after_of_forall_not_mem (b := Proc.devRef .tc main_arg9) _ _ (List.forall_iff_forall_mem.mp (by
          simp only [hostOps0_5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W4 m ρ c (Proc.devRef .tc main_arg9) := StableHlo.after_of_forall_not_mem (b := Proc.devRef .tc main_arg9) _ _ (List.forall_iff_forall_mem.mp (by
          simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W3 m ρ c (Proc.devRef .tc main_arg9) := StableHlo.after_of_forall_not_mem (b := Proc.devRef .tc main_arg9) _ _ (List.forall_iff_forall_mem.mp (by
          simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W2 m ρ c (Proc.devRef .tc main_arg9) := StableHlo.after_of_forall_not_mem (b := Proc.devRef .tc main_arg9) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg9) := StableHlo.after_of_forall_not_mem (b := Proc.devRef .tc main_arg9) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg9) := rfl
theorem Wfin_main_arg10 (c : Dev nD) : Wfin m ρ c (Proc.devRef .tc main_arg10) = m ((c : Thread nD τ).loc main_arg10) :=
  calc Wfin m ρ c (Proc.devRef .tc main_arg10)
    _ = Wexit m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W9 m ρ c (Proc.devRef .tc main_arg10) := Wexit_of_ne m ρ c main_arg10 (by decide)
    _ = W8 m ρ c (Proc.devRef .tc main_arg10) := StableHlo.after_of_forall_not_mem (b := Proc.devRef .tc main_arg10) _ _ (List.forall_iff_forall_mem.mp (by
          simp only [hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W7 m ρ c (Proc.devRef .tc main_arg10) := StableHlo.after_of_forall_not_mem (b := Proc.devRef .tc main_arg10) _ _ (List.forall_iff_forall_mem.mp (by
          simp only [hostOps0_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W6 m ρ c (Proc.devRef .tc main_arg10) := StableHlo.after_of_forall_not_mem (b := Proc.devRef .tc main_arg10) _ _ (List.forall_iff_forall_mem.mp (by
          simp only [hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W5 m ρ c (Proc.devRef .tc main_arg10) := StableHlo.after_of_forall_not_mem (b := Proc.devRef .tc main_arg10) _ _ (List.forall_iff_forall_mem.mp (by
          simp only [hostOps0_5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W4 m ρ c (Proc.devRef .tc main_arg10) := StableHlo.after_of_forall_not_mem (b := Proc.devRef .tc main_arg10) _ _ (List.forall_iff_forall_mem.mp (by
          simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W3 m ρ c (Proc.devRef .tc main_arg10) := StableHlo.after_of_forall_not_mem (b := Proc.devRef .tc main_arg10) _ _ (List.forall_iff_forall_mem.mp (by
          simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W2 m ρ c (Proc.devRef .tc main_arg10) := StableHlo.after_of_forall_not_mem (b := Proc.devRef .tc main_arg10) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg10) := StableHlo.after_of_forall_not_mem (b := Proc.devRef .tc main_arg10) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg10) := rfl
theorem Wfin_main_arg11 (c : Dev nD) : Wfin m ρ c (Proc.devRef .tc main_arg11) = m ((c : Thread nD τ).loc main_arg11) :=
  calc Wfin m ρ c (Proc.devRef .tc main_arg11)
    _ = Wexit m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W9 m ρ c (Proc.devRef .tc main_arg11) := Wexit_of_ne m ρ c main_arg11 (by decide)
    _ = W8 m ρ c (Proc.devRef .tc main_arg11) := StableHlo.after_of_forall_not_mem (b := Proc.devRef .tc main_arg11) _ _ (List.forall_iff_forall_mem.mp (by
          simp only [hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W7 m ρ c (Proc.devRef .tc main_arg11) := StableHlo.after_of_forall_not_mem (b := Proc.devRef .tc main_arg11) _ _ (List.forall_iff_forall_mem.mp (by
          simp only [hostOps0_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W6 m ρ c (Proc.devRef .tc main_arg11) := StableHlo.after_of_forall_not_mem (b := Proc.devRef .tc main_arg11) _ _ (List.forall_iff_forall_mem.mp (by
          simp only [hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W5 m ρ c (Proc.devRef .tc main_arg11) := StableHlo.after_of_forall_not_mem (b := Proc.devRef .tc main_arg11) _ _ (List.forall_iff_forall_mem.mp (by
          simp only [hostOps0_5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W4 m ρ c (Proc.devRef .tc main_arg11) := StableHlo.after_of_forall_not_mem (b := Proc.devRef .tc main_arg11) _ _ (List.forall_iff_forall_mem.mp (by
          simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W3 m ρ c (Proc.devRef .tc main_arg11) := StableHlo.after_of_forall_not_mem (b := Proc.devRef .tc main_arg11) _ _ (List.forall_iff_forall_mem.mp (by
          simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W2 m ρ c (Proc.devRef .tc main_arg11) := StableHlo.after_of_forall_not_mem (b := Proc.devRef .tc main_arg11) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg11) := StableHlo.after_of_forall_not_mem (b := Proc.devRef .tc main_arg11) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg11) := rfl
theorem Wfin_main_arg12 (c : Dev nD) : Wfin m ρ c (Proc.devRef .tc main_arg12) = m ((c : Thread nD τ).loc main_arg12) :=
  calc Wfin m ρ c (Proc.devRef .tc main_arg12)
    _ = Wexit m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W9 m ρ c (Proc.devRef .tc main_arg12) := Wexit_of_ne m ρ c main_arg12 (by decide)
    _ = W8 m ρ c (Proc.devRef .tc main_arg12) := StableHlo.after_of_forall_not_mem (b := Proc.devRef .tc main_arg12) _ _ (List.forall_iff_forall_mem.mp (by
          simp only [hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W7 m ρ c (Proc.devRef .tc main_arg12) := StableHlo.after_of_forall_not_mem (b := Proc.devRef .tc main_arg12) _ _ (List.forall_iff_forall_mem.mp (by
          simp only [hostOps0_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W6 m ρ c (Proc.devRef .tc main_arg12) := StableHlo.after_of_forall_not_mem (b := Proc.devRef .tc main_arg12) _ _ (List.forall_iff_forall_mem.mp (by
          simp only [hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W5 m ρ c (Proc.devRef .tc main_arg12) := StableHlo.after_of_forall_not_mem (b := Proc.devRef .tc main_arg12) _ _ (List.forall_iff_forall_mem.mp (by
          simp only [hostOps0_5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W4 m ρ c (Proc.devRef .tc main_arg12) := StableHlo.after_of_forall_not_mem (b := Proc.devRef .tc main_arg12) _ _ (List.forall_iff_forall_mem.mp (by
          simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W3 m ρ c (Proc.devRef .tc main_arg12) := StableHlo.after_of_forall_not_mem (b := Proc.devRef .tc main_arg12) _ _ (List.forall_iff_forall_mem.mp (by
          simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W2 m ρ c (Proc.devRef .tc main_arg12) := StableHlo.after_of_forall_not_mem (b := Proc.devRef .tc main_arg12) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg12) := StableHlo.after_of_forall_not_mem (b := Proc.devRef .tc main_arg12) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg12) := rfl
theorem Wfin_main_arg13 (c : Dev nD) : Wfin m ρ c (Proc.devRef .tc main_arg13) = m ((c : Thread nD τ).loc main_arg13) :=
  calc Wfin m ρ c (Proc.devRef .tc main_arg13)
    _ = Wexit m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W9 m ρ c (Proc.devRef .tc main_arg13) := Wexit_of_ne m ρ c main_arg13 (by decide)
    _ = W8 m ρ c (Proc.devRef .tc main_arg13) := StableHlo.after_of_forall_not_mem (b := Proc.devRef .tc main_arg13) _ _ (List.forall_iff_forall_mem.mp (by
          simp only [hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W7 m ρ c (Proc.devRef .tc main_arg13) := StableHlo.after_of_forall_not_mem (b := Proc.devRef .tc main_arg13) _ _ (List.forall_iff_forall_mem.mp (by
          simp only [hostOps0_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W6 m ρ c (Proc.devRef .tc main_arg13) := StableHlo.after_of_forall_not_mem (b := Proc.devRef .tc main_arg13) _ _ (List.forall_iff_forall_mem.mp (by
          simp only [hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W5 m ρ c (Proc.devRef .tc main_arg13) := StableHlo.after_of_forall_not_mem (b := Proc.devRef .tc main_arg13) _ _ (List.forall_iff_forall_mem.mp (by
          simp only [hostOps0_5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W4 m ρ c (Proc.devRef .tc main_arg13) := StableHlo.after_of_forall_not_mem (b := Proc.devRef .tc main_arg13) _ _ (List.forall_iff_forall_mem.mp (by
          simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W3 m ρ c (Proc.devRef .tc main_arg13) := StableHlo.after_of_forall_not_mem (b := Proc.devRef .tc main_arg13) _ _ (List.forall_iff_forall_mem.mp (by
          simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W2 m ρ c (Proc.devRef .tc main_arg13) := StableHlo.after_of_forall_not_mem (b := Proc.devRef .tc main_arg13) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg13) := StableHlo.after_of_forall_not_mem (b := Proc.devRef .tc main_arg13) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg13) := rfl
theorem Wfin_main_arg14 (c : Dev nD) : Wfin m ρ c (Proc.devRef .tc main_arg14) = m ((c : Thread nD τ).loc main_arg14) :=
  calc Wfin m ρ c (Proc.devRef .tc main_arg14)
    _ = Wexit m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W9 m ρ c (Proc.devRef .tc main_arg14) := Wexit_of_ne m ρ c main_arg14 (by decide)
    _ = W8 m ρ c (Proc.devRef .tc main_arg14) := StableHlo.after_of_forall_not_mem (b := Proc.devRef .tc main_arg14) _ _ (List.forall_iff_forall_mem.mp (by
          simp only [hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W7 m ρ c (Proc.devRef .tc main_arg14) := StableHlo.after_of_forall_not_mem (b := Proc.devRef .tc main_arg14) _ _ (List.forall_iff_forall_mem.mp (by
          simp only [hostOps0_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W6 m ρ c (Proc.devRef .tc main_arg14) := StableHlo.after_of_forall_not_mem (b := Proc.devRef .tc main_arg14) _ _ (List.forall_iff_forall_mem.mp (by
          simp only [hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W5 m ρ c (Proc.devRef .tc main_arg14) := StableHlo.after_of_forall_not_mem (b := Proc.devRef .tc main_arg14) _ _ (List.forall_iff_forall_mem.mp (by
          simp only [hostOps0_5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W4 m ρ c (Proc.devRef .tc main_arg14) := StableHlo.after_of_forall_not_mem (b := Proc.devRef .tc main_arg14) _ _ (List.forall_iff_forall_mem.mp (by
          simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W3 m ρ c (Proc.devRef .tc main_arg14) := StableHlo.after_of_forall_not_mem (b := Proc.devRef .tc main_arg14) _ _ (List.forall_iff_forall_mem.mp (by
          simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W2 m ρ c (Proc.devRef .tc main_arg14) := StableHlo.after_of_forall_not_mem (b := Proc.devRef .tc main_arg14) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg14) := StableHlo.after_of_forall_not_mem (b := Proc.devRef .tc main_arg14) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg14) := rfl
theorem Wfin_main_arg15 (c : Dev nD) : Wfin m ρ c (Proc.devRef .tc main_arg15) = m ((c : Thread nD τ).loc main_arg15) :=
  calc Wfin m ρ c (Proc.devRef .tc main_arg15)
    _ = Wexit m ρ c (Proc.devRef .tc main_arg15) := StableHlo.after_of_forall_not_mem (b := Proc.devRef .tc main_arg15) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W9 m ρ c (Proc.devRef .tc main_arg15) := Wexit_of_ne m ρ c main_arg15 (by decide)
    _ = W8 m ρ c (Proc.devRef .tc main_arg15) := StableHlo.after_of_forall_not_mem (b := Proc.devRef .tc main_arg15) _ _ (List.forall_iff_forall_mem.mp (by
          simp only [hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W7 m ρ c (Proc.devRef .tc main_arg15) := StableHlo.after_of_forall_not_mem (b := Proc.devRef .tc main_arg15) _ _ (List.forall_iff_forall_mem.mp (by
          simp only [hostOps0_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W6 m ρ c (Proc.devRef .tc main_arg15) := StableHlo.after_of_forall_not_mem (b := Proc.devRef .tc main_arg15) _ _ (List.forall_iff_forall_mem.mp (by
          simp only [hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W5 m ρ c (Proc.devRef .tc main_arg15) := StableHlo.after_of_forall_not_mem (b := Proc.devRef .tc main_arg15) _ _ (List.forall_iff_forall_mem.mp (by
          simp only [hostOps0_5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W4 m ρ c (Proc.devRef .tc main_arg15) := StableHlo.after_of_forall_not_mem (b := Proc.devRef .tc main_arg15) _ _ (List.forall_iff_forall_mem.mp (by
          simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W3 m ρ c (Proc.devRef .tc main_arg15) := StableHlo.after_of_forall_not_mem (b := Proc.devRef .tc main_arg15) _ _ (List.forall_iff_forall_mem.mp (by
          simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W2 m ρ c (Proc.devRef .tc main_arg15) := StableHlo.after_of_forall_not_mem (b := Proc.devRef .tc main_arg15) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W1 m ρ c (Proc.devRef .tc main_arg15) := StableHlo.after_of_forall_not_mem (b := Proc.devRef .tc main_arg15) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
          repeat' apply And.intro
          all_goals exact StableHlo.devRef_ne_of_ne (by decide)))
    _ = m ((c : Thread nD τ).loc main_arg15) := rfl

/-! ## The proof data family and the thread state -/

/-- The prefetched tables' admissible contents: the pipeline has no table. -/
abbrev adm : (p : Fin 1) → (pcfgs (F := F) p).Adm := fun p => (cfgs p).toPCfg_adm
/-- The pipeline's proof data at the region's entry contents. -/
def pdats : (p : Fin 1) → (c : Dev nD) → Dat τ (Elt F) Unit ℕ (UR sig nD τ) ℕ (Pipeline.pin (pcfgs (F := F)) adm p) c
  | ⟨0, _⟩ => fun c => dat0 (Vent m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of `hostOps0` allocates a buffer. -/
theorem hostOps0_fresh : (hostOps0 : List (HloOp τ sig (Elt F))).Forall fun op => op.fresh = ∅ := by
  simp only [List.Forall]; repeat' constructor
/-- No operation of `hostOps0_1` allocates a buffer. -/
theorem hostOps0_1_fresh : (hostOps0_1 : List (HloOp τ sig (Elt F))).Forall fun op => op.fresh = ∅ := by
  simp only [List.Forall]; repeat' constructor
/-- No operation of `hostOps0_2` allocates a buffer. -/
theorem hostOps0_2_fresh : (hostOps0_2 : List (HloOp τ sig (Elt F))).Forall fun op => op.fresh = ∅ := by
  simp only [List.Forall]; repeat' constructor
/-- No operation of `hostOps0_3` allocates a buffer. -/
theorem hostOps0_3_fresh : (hostOps0_3 : List (HloOp τ sig (Elt F))).Forall fun op => op.fresh = ∅ := by
  simp only [List.Forall]; repeat' constructor
/-- No operation of `hostOps0_4` allocates a buffer. -/
theorem hostOps0_4_fresh : (hostOps0_4 : List (HloOp τ sig (Elt F))).Forall fun op => op.fresh = ∅ := by
  simp only [List.Forall]; repeat' constructor
/-- No operation of `hostOps0_5` allocates a buffer. -/
theorem hostOps0_5_fresh : (hostOps0_5 : List (HloOp τ sig (Elt F))).Forall fun op => op.fresh = ∅ := by
  simp only [List.Forall]; repeat' constructor
/-- No operation of `hostOps0_6` allocates a buffer. -/
theorem hostOps0_6_fresh : (hostOps0_6 : List (HloOp τ sig (Elt F))).Forall fun op => op.fresh = ∅ := by
  simp only [List.Forall]; repeat' constructor
/-- No operation of `hostOps0_7` allocates a buffer. -/
theorem hostOps0_7_fresh : (hostOps0_7 : List (HloOp τ sig (Elt F))).Forall fun op => op.fresh = ∅ := by
  simp only [List.Forall]; repeat' constructor
/-- No operation of `hostOps0_8` allocates a buffer. -/
theorem hostOps0_8_fresh : (hostOps0_8 : List (HloOp τ sig (Elt F))).Forall fun op => op.fresh = ∅ := by
  simp only [List.Forall]; repeat' constructor
/-- No operation of `hostOps1` allocates a buffer. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `Wfin`, the
    generator register at some state. -/
abbrev Tₙ (c : Dev nD) : sProp 𝕄 := iprop(StableHlo.held (c : Thread nD τ) (Pipeline.ucRefs τ sig) (Wfin m ρ c) ∗ ∃ r, prngReg c r)

/-! ## The region as a segment -/

set_option backward.isDefEq.respectTransparency.types false in
/-- The region over the thread state: entered from every unscoped buffer at `Went`, left at `Wexit`. Its arrays split
    out of the unscoped buffers and put back at the exit contents; the generator register into the class invariant and
    out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vent m ρ) c).loose
  hwaits := Pipeline.hwaits_of_owed_zero _ _ _ _ L lv 0 fun _ _ => rfl
  pre c := iprop(StableHlo.held (c : Thread nD τ) (Pipeline.ucRefs τ sig) (Went m ρ c) ∗ R c)
  post c := iprop(StableHlo.held (c : Thread nD τ) (Pipeline.ucRefs τ sig) (Wexit m ρ c) ∗ R c)
  X c := iprop(∃ r, prngReg c r)
  Y c := iprop(∃ r, prngReg c r)
  Z c := Pipeline.unscopedRest (Ix := Unit) (Name := ℕ) (U := UR sig nD τ) (Lvl := ℕ) spec0 c (Vent m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vent m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vent m ρ c) (Vexit m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 11 segments in order: a host segment per stretch from its boundary's contents, the region, the return. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .region (reg0 m ρ),
    .host (hseg hostOps1 hostOps1_sub hostOps1_fresh (Wexit m ρ)) ]
/-- @main IS the run of the segments. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the
    TensorCores terminates, nothing faulting, and every final state has the result buffer at the fold's last contents
    and the argument arrays as launched. -/
theorem run : θ_run defs (onTc (τ := τ) (main (F := F))) ⟨m, fun _ => 0, ρ⟩ (fun r => ∀ c : Dev nD,
      r.2.mem ((c.tc : Thread nD τ).loc main_v60) = Wfin m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wfin m ρ c b)
    (hfin := fun c s' => by
      iintro ⟨⟨Hh, -⟩, HSI⟩
      unfold StableHlo.held
      imodintro
      iapply (pointsTo_read_all (Pipeline.ucRefs τ sig) (fun b => (((c : Thread nD τ)).1, b)) (Wfin m ρ c) s')
      isplitl [Hh] <;> iassumption)
    (hQ := fun s h c =>
      ⟨h c _ (mem_uc main_v60 (by decide)),
       (h c _ (mem_uc main_arg0 (by decide))).trans (Wfin_main_arg0 m ρ c),
       (h c _ (mem_uc main_arg1 (by decide))).trans (Wfin_main_arg1 m ρ c),
       (h c _ (mem_uc main_arg2 (by decide))).trans (Wfin_main_arg2 m ρ c),
       (h c _ (mem_uc main_arg3 (by decide))).trans (Wfin_main_arg3 m ρ c),
       (h c _ (mem_uc main_arg4 (by decide))).trans (Wfin_main_arg4 m ρ c),
       (h c _ (mem_uc main_arg5 (by decide))).trans (Wfin_main_arg5 m ρ c),
       (h c _ (mem_uc main_arg6 (by decide))).trans (Wfin_main_arg6 m ρ c),
       (h c _ (mem_uc main_arg7 (by decide))).trans (Wfin_main_arg7 m ρ c),
       (h c _ (mem_uc main_arg8 (by decide))).trans (Wfin_main_arg8 m ρ c),
       (h c _ (mem_uc main_arg9 (by decide))).trans (Wfin_main_arg9 m ρ c),
       (h c _ (mem_uc main_arg10 (by decide))).trans (Wfin_main_arg10 m ρ c),
       (h c _ (mem_uc main_arg11 (by decide))).trans (Wfin_main_arg11 m ρ c),
       (h c _ (mem_uc main_arg12 (by decide))).trans (Wfin_main_arg12 m ρ c),
       (h c _ (mem_uc main_arg13 (by decide))).trans (Wfin_main_arg13 m ρ c),
       (h c _ (mem_uc main_arg14 (by decide))).trans (Wfin_main_arg14 m ρ c),
       (h c _ (mem_uc main_arg15 (by decide))).trans (Wfin_main_arg15 m ρ c)⟩)

/-- THE FRAME: the run with the result's conjunct dropped — every weakly fair execution terminates, nothing faulting, and
    every final state has the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => (h c).2) (run m ρ)

end Cert.KernelIdeal.Hand

end
-- ==== Proof.KArray.lean ====
/-
  From the kernel's blocks to its arrays.

  The kernel's one region runs a grid of 16 points, one per sample of the batch. Its output window's block at point
  `t` is sample `t` of the output array, written back at every point; so the array after the region is, sample by
  sample, what the body left at that sample's point. Its input windows 0 and 1 read sample `t` of the two image
  arrays; windows 2, 3 and 4 (the packed weights, the biases, the mask) are whole arrays at every point. After the
  region one reshape splits the pixel axis: the result at `(n, co, y, x)` is the region's output at `(n, co, 64 y + x)`.
-/
import proofs.«126750_g2000606872001322_pallasbulk_142_34_alg».proof.Proof.KIFrame
import Idealize.ShloMosaic.Lib.Pipeline.Value
import Idealize.ShloMosaic.Lib.ValueIdx
import Idealize.ShloMosaic.Lib.Tactic

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]

/-! ## The windows' block indices, decided over the grid -/

/-- Windows 0 and 1 (the two image arrays) and window 5 (the output) move with the sample: block `(t, 0, 0)`. -/
theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx5 : ∀ t : Fin cfg0.N, win0_5.index t (0 : Fin 3) = t.val ∧ win0_5.index t (1 : Fin 3) = 0 ∧ win0_5.index t (2 : Fin 3) = 0 :=
  (by decide +kernel : ∀ t : Fin grid0.N, _)
/-- Windows 2, 3 and 4 stay at block `(0, 0)`: the whole array. -/
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)

/-- The grid point of sample `n`. -/
abbrev pt (n : Fin 16) : Fin cfg0.N := ⟨n.val, by rw [show cfg0.N = 16 from N_0]; exact n.isLt⟩

/-! ## An input window's block read off any contents of its array

A block's coordinate on an axis is always the block index times the block's size plus the coordinate inside the
block; with the indices above that is the sample's slab for windows 0 and 1 and the identity for windows 2, 3, 4. -/

/-- Window 0's block at point `t`: sample `t` of its array. -/
theorem read_blk0 {α : Type} (A : S16x256x1024.Idx → α) (t : Fin cfg0.N) (y : S1x256x1024.Idx) (k : S16x256x1024.Idx)
    (h0 : (k 0).val = t.val) (h1 : (k 1).val = (y 1).val) (h2 : (k 2).val = (y 2).val) :
    A (((cfg0.win 0).blk t).view.emb y) = A k := by
  obtain ⟨e0, e1, e2⟩ := idx0 t
  have hy0 : (y 0).val < 1 := (y 0).isLt
  refine congrArg A (funext fun a => Fin.ext ?_)
  match a with
  | ⟨0, _⟩ => show win0_0.index t (0 : Fin 3) * 1 + 1 * (y 0).val = (k 0).val; omega
  | ⟨1, _⟩ => show win0_0.index t (1 : Fin 3) * 256 + 1 * (y 1).val = (k 1).val; omega
  | ⟨2, _⟩ => show win0_0.index t (2 : Fin 3) * 1024 + 1 * (y 2).val = (k 2).val; omega

/-- Window 1's block at point `t`: sample `t` of its array. -/
theorem read_blk1 {α : Type} (A : S16x128x4096.Idx → α) (t : Fin cfg0.N) (y : S1x128x4096.Idx) (k : S16x128x4096.Idx)
    (h0 : (k 0).val = t.val) (h1 : (k 1).val = (y 1).val) (h2 : (k 2).val = (y 2).val) :
    A (((cfg0.win 1).blk t).view.emb y) = A k := by
  obtain ⟨e0, e1, e2⟩ := idx1 t
  have hy0 : (y 0).val < 1 := (y 0).isLt
  refine congrArg A (funext fun a => Fin.ext ?_)
  match a with
  | ⟨0, _⟩ => show win0_1.index t (0 : Fin 3) * 1 + 1 * (y 0).val = (k 0).val; omega
  | ⟨1, _⟩ => show win0_1.index t (1 : Fin 3) * 128 + 1 * (y 1).val = (k 1).val; omega
  | ⟨2, _⟩ => show win0_1.index t (2 : Fin 3) * 4096 + 1 * (y 2).val = (k 2).val; omega

/-- Windows 2, 3 and 4 are their whole arrays at every point. -/
theorem read_blk2 {α : Type} (A : S2952x256.Idx → α) (t : Fin cfg0.N) (y : S2952x256.Idx) :
    A (((cfg0.win 2).blk t).view.emb y) = A y := by
  obtain ⟨e0, e1⟩ := idx2 t
  refine congrArg A (funext fun a => Fin.ext ?_)
  match a with
  | ⟨0, _⟩ => show win0_2.index t (0 : Fin 2) * 2952 + 1 * (y 0).val = (y 0).val; omega
  | ⟨1, _⟩ => show win0_2.index t (1 : Fin 2) * 256 + 1 * (y 1).val = (y 1).val; omega
theorem read_blk3 {α : Type} (A : S256x128.Idx → α) (t : Fin cfg0.N) (y : S256x128.Idx) :
    A (((cfg0.win 3).blk t).view.emb y) = A y := by
  obtain ⟨e0, e1⟩ := idx3 t
  refine congrArg A (funext fun a => Fin.ext ?_)
  match a with
  | ⟨0, _⟩ => show win0_3.index t (0 : Fin 2) * 256 + 1 * (y 0).val = (y 0).val; omega
  | ⟨1, _⟩ => show win0_3.index t (1 : Fin 2) * 128 + 1 * (y 1).val = (y 1).val; omega
theorem read_blk4 {α : Type} (A : S1x4608.Idx → α) (t : Fin cfg0.N) (y : S1x4608.Idx) :
    A (((cfg0.win 4).blk t).view.emb y) = A y := by
  obtain ⟨e0, e1⟩ := idx4 t
  refine congrArg A (funext fun a => Fin.ext ?_)
  match a with
  | ⟨0, _⟩ => show win0_4.index t (0 : Fin 2) * 1 + 1 * (y 0).val = (y 0).val; omega
  | ⟨1, _⟩ => show win0_4.index t (1 : Fin 2) * 4608 + 1 * (y 1).val = (y 1).val; omega

/-! ## The output array after the region, for any proof data -/

/-- A family of blocks indexed by the grid's points, read at equal points and equal coordinates. -/
theorem fam_congr {α : Type} (O : Fin cfg0.N → S1x128x4096.Idx → α) (t t' : Fin cfg0.N) (y y' : S1x128x4096.Idx)
    (ht : t.val = t'.val) (hy : ∀ a, (y a).val = (y' a).val) : O t y = O t' y' := by
  obtain rfl : t = t' := Fin.ext ht
  obtain rfl : y = y' := funext fun a => Fin.ext (hy a)
  rfl

/-- An index of the output array lies in point `t`'s block iff each coordinate is in the block's range on its axis. -/
theorem mem_blk5 (t : Fin cfg0.N) (i : S16x128x4096.Idx) :
    i ∈ ((cfg0.win 5).blk t).view.set ↔ ∀ a : Fin 3, win0_5.index t a * S1x128x4096.size a ≤ (i a).val ∧ (i a).val < win0_5.index t a * S1x128x4096.size a + S1x128x4096.size a := by
  show i ∈ ((View.whole main_v59).slice (win0_5.rect t)).set ↔ _
  rw [View.set_slice_whole, Rect.mem_set_unit]
  exact Iff.rfl

/-- If the body leaves `O t` in the output's staging buffer at every point `t`, the output array ends holding, at
    sample `n`, what point `n` left: the written-back blocks are the slabs of ONE array (sample `i 0` taken from point
    `i 0`), every point writes back, and point `n` covers sample `n`. -/
theorem arrAt5_of {c : Dev nD} (dat : Dat τ (Elt F) Unit ℕ (UR sig nD τ) ℕ cfg0 c)
    (O : Fin cfg0.N → Vec F S1x128x4096 .f32) (hafter : ∀ t, dat.after 5 t = O t)
    (n : Fin 16) (co : Fin 128) (p : Fin 4096) :
    dat.arrAt 5 cfg0.N (ix3 n co p) = O (pt n) (ix3 0 co p) := by
  have hN : cfg0.N = 16 := N_0
  let G : S16x128x4096.Idx → Elt F .f32 := fun i =>
    O ⟨(i 0).val, by rw [hN]; exact (i 0).isLt⟩ (ix3 0 ⟨(i 1).val, (i 1).isLt⟩ ⟨(i 2).val, (i 2).isLt⟩)
  have hG : ∀ t, (cfg0.win 5).flush t = true → dat.flushed 5 t = ((cfg0.win 5).blk t).view.read (Elt F) G := by
    intro t _
    show (cfg0.win 5).cut (grid0.coords t) (dat.after 5 t) = _
    rw [hafter]
    funext j
    obtain ⟨e0, e1, e2⟩ := idx5 t
    have hj0 : (j 0).val < 1 := (j 0).isLt
    have hj1 : (j 1).val < 128 := (j 1).isLt
    have hj2 : (j 2).val < 4096 := (j 2).isLt
    show O t ((cfg0.win 5).xinj (grid0.coords t) j) = G (((cfg0.win 5).blk t).view.emb j)
    have h0 : ((((cfg0.win 5).blk t).view.emb j) 0).val = t.val := by
      show win0_5.index t (0 : Fin 3) * 1 + 1 * (j 0).val = t.val
      omega
    have h1 : ((((cfg0.win 5).blk t).view.emb j) 1).val = (j 1).val := by
      show win0_5.index t (1 : Fin 3) * 128 + 1 * (j 1).val = (j 1).val
      omega
    have h2 : ((((cfg0.win 5).blk t).view.emb j) 2).val = (j 2).val := by
      show win0_5.index t (2 : Fin 3) * 4096 + 1 * (j 2).val = (j 2).val
      omega
    refine fam_congr O _ _ _ _ h0.symm fun a => ?_
    match a with
    | ⟨0, _⟩ => show (j 0).val = 0; omega
    | ⟨1, _⟩ => exact h1.symm
    | ⟨2, _⟩ => exact h2.symm
  have hcover : ∀ i : S16x128x4096.Idx, ∃ t : Fin cfg0.N, (cfg0.win 5).flush t = true ∧ i ∈ ((cfg0.win 5).blk t).view.set := by
    intro i
    have hi0 : (i 0).val < 16 := (i 0).isLt
    have hi1 : (i 1).val < 128 := (i 1).isLt
    have hi2 : (i 2).val < 4096 := (i 2).isLt
    have hlt : (i 0).val < cfg0.N := by rw [hN]; exact hi0
    refine ⟨⟨(i 0).val, hlt⟩, flush0_5 _, ?_⟩
    rw [mem_blk5]
    obtain ⟨e0', e1, e2⟩ := idx5 ⟨(i 0).val, hlt⟩
    have e0 : win0_5.index (⟨(i 0).val, hlt⟩ : Fin cfg0.N) (0 : Fin 3) = (i 0).val := e0'
    intro a
    match a with
    | ⟨0, _⟩ => show win0_5.index _ (0 : Fin 3) * 1 ≤ (i 0).val ∧ (i 0).val < win0_5.index _ (0 : Fin 3) * 1 + 1; rw [e0]; omega
    | ⟨1, _⟩ => show win0_5.index _ (1 : Fin 3) * 128 ≤ (i 1).val ∧ (i 1).val < win0_5.index _ (1 : Fin 3) * 128 + 128; rw [e1]; omega
    | ⟨2, _⟩ => show win0_5.index _ (2 : Fin 3) * 4096 ≤ (i 2).val ∧ (i 2).val < win0_5.index _ (2 : Fin 3) * 4096 + 4096; rw [e2]; omega
  have hfin : dat.arrAt 5 cfg0.N = G := dat.arrAt_eq_of_cover 5 G hG hcover
  rw [hfin]

/-! ## The reshape after the region, from any contents -/

/-- The one host operation after the region, from any contents `W`: the result array at `(n, co, y, x)` is the
    region's output array at `(n, co, 64 y + x)` (a reshape keeps the row-major position). -/
theorem tail_apply (W : Valuation τ sig (Elt F)) (i : S16x128x64x64.Idx) :
    (StableHlo.after hostOps1 W (Proc.devRef .tc main_v60) : S16x128x64x64.Idx → Elt F .f32) i
      = (W (Proc.devRef .tc main_v59) : S16x128x4096.Idx → Elt F .f32)
          (ix3 (i 0) (i 1) ⟨(i 2).val * 64 + (i 3).val, by have h2 : (i 2).val < 64 := (i 2).isLt; have h3 : (i 3).val < 64 := (i 3).isLt; omega⟩) := by
  have h0 : (i 0).val < 16 := (i 0).isLt
  have h1 : (i 1).val < 128 := (i 1).isLt
  have h2 : (i 2).val < 64 := (i 2).isLt
  have h3 : (i 3).val < 64 := (i 3).isLt
  have hlt : (i 2).val * 64 + (i 3).val < 4096 := by omega
  after_results
  show shapeCast S16x128x64x64 (W (Proc.devRef .tc main_v59) : S16x128x4096.Idx → Elt F .f32) shapeCasts_S16x128x4096_S16x128x64x64 i = _
  refine shapeCast_apply (s := S16x128x4096) (t := S16x128x64x64) _ _ i _ ?_
  have e3 := Shape.rowMajor_val_three (d := ![16, 128, 4096]) (ix3 (i 0) (i 1) ⟨(i 2).val * 64 + (i 3).val, hlt⟩)
  have e4 := Shape.rowMajor_val_four (d := ![16, 128, 64, 64]) i
  refine e3.trans (Eq.trans ?_ e4.symm)
  show ((i 0).val * 128 + (i 1).val) * 4096 + ((i 2).val * 64 + (i 3).val) = (((i 0).val * 128 + (i 1).val) * 64 + (i 2).val) * 64 + (i 3).val
  omega

/-! ## The same at the kernel's own proof data and run -/

section Region
variable (V : (c : Dev nD) → (b : Ref sig .tc) → Buf (Elt F) ((c : Thread nD τ).loc b))

/-- The output array after the region: sample `n` is what the body left at point `n`. -/
theorem arr0_5 (c : Dev nD) (n : Fin 16) (co : Fin 128) (p : Fin 4096) :
    (dat0 V c).arrAt 5 cfg0.N (ix3 n co p) = outsAt0 V c (pt n) (ix3 0 co p) :=
  arrAt5_of (dat0 V c) (outsAt0 V c) (after0_5 V c) n co p

/-- Window 0's block at sample `n`'s point is sample `n` of the first image array. -/
theorem iblk0_0 (c : Dev nD) (n : Fin 16) (y : S1x256x1024.Idx) :
    (iblk0 V c 0 (pt n) : S1x256x1024.Idx → Elt F .f32) y
      = (V c main_v48 : S16x256x1024.Idx → Elt F .f32) (ix3 n ⟨(y 1).val, (y 1).isLt⟩ ⟨(y 2).val, (y 2).isLt⟩) :=
  read_blk0 (V c main_v48 : S16x256x1024.Idx → Elt F .f32) (pt n) y _ rfl rfl rfl

/-- Window 1's block at sample `n`'s point is sample `n` of the second image array. -/
theorem iblk0_1 (c : Dev nD) (n : Fin 16) (y : S1x128x4096.Idx) :
    (iblk0 V c 1 (pt n) : S1x128x4096.Idx → Elt F .f32) y
      = (V c main_v49 : S16x128x4096.Idx → Elt F .f32) (ix3 n ⟨(y 1).val, (y 1).isLt⟩ ⟨(y 2).val, (y 2).isLt⟩) :=
  read_blk1 (V c main_v49 : S16x128x4096.Idx → Elt F .f32) (pt n) y _ rfl rfl rfl

/-- Windows 2, 3 and 4 at any point are the packed weights, the biases and the mask, whole. -/
theorem iblk0_2 (c : Dev nD) (t : Fin cfg0.N) (y : S2952x256.Idx) :
    (iblk0 V c 2 t : S2952x256.Idx → Elt F .bf16) y = (V c main_v42 : S2952x256.Idx → Elt F .bf16) y :=
  read_blk2 (V c main_v42 : S2952x256.Idx → Elt F .bf16) t y
theorem iblk0_3 (c : Dev nD) (t : Fin cfg0.N) (y : S256x128.Idx) :
    (iblk0 V c 3 t : S256x128.Idx → Elt F .f32) y = (V c main_v47 : S256x128.Idx → Elt F .f32) y :=
  read_blk3 (V c main_v47 : S256x128.Idx → Elt F .f32) t y
theorem iblk0_4 (c : Dev nD) (t : Fin cfg0.N) (y : S1x4608.Idx) :
    (iblk0 V c 4 t : S1x4608.Idx → Elt F .f32) y = (V c main_v58 : S1x4608.Idx → Elt F .f32) y :=
  read_blk4 (V c main_v58 : S1x4608.Idx → Elt F .f32) t y

end Region

section Run
variable (m : (ℓ : Loc nD τ sig) → Buf (Elt F) ℓ) (ρ : Dev nD → PrngReg)

/-- The result array is the region's output array with the pixel axis split. -/
theorem Wfin_result (c : Dev nD) (i : S16x128x64x64.Idx) :
    (Wfin m ρ c (Proc.devRef .tc main_v60) : S16x128x64x64.Idx → Elt F .f32) i
      = (Wexit m ρ c (Proc.devRef .tc main_v59) : S16x128x4096.Idx → Elt F .f32)
          (ix3 (i 0) (i 1) ⟨(i 2).val * 64 + (i 3).val, by have h2 : (i 2).val < 64 := (i 2).isLt; have h3 : (i 3).val < 64 := (i 3).isLt; omega⟩) :=
  tail_apply (Wexit m ρ c) i

/-- The result array at `(n, co, y, x)` is what the body left, at sample `n`'s point, at pixel `64 y + x` of channel `co`. -/
theorem result_eq_outsAt (c : Dev nD) (n : Fin 16) (co : Fin 128) (y x : Fin 64) :
    (Wfin m ρ c (Proc.devRef .tc main_v60) : S16x128x64x64.Idx → Elt F .f32) (ix4 n co y x)
      = outsAt0 (Vent m ρ) c (pt n) (ix3 0 co ⟨y.val * 64 + x.val, by have := y.isLt; have := x.isLt; omega⟩) := by
  refine (Wfin_result m ρ c (ix4 n co y x)).trans ?_
  refine Eq.trans ?_ (arr0_5 (Vent m ρ) c n co ⟨y.val * 64 + x.val, by have := y.isLt; have := x.isLt; omega⟩)
  exact congrFun (Wexit_arr m ρ c 5) _

end Run

end Cert.KernelIdeal.Hand

end
-- ==== Proof.KOperands.lean ====
/-
  The kernel's host side: what the region's five operands hold when the region is entered, read at an index, as
  functions of the arguments.

  Before the region the program runs nine stretches of host operations. They fold the batch-norm parameters into the
  two convolutions' weights and biases (`Cert.Fold`), lay the three weight arrays, the transposed convolution's bias
  and a 128 × 128 identity one under the other in ONE array of 2952 rows by 256 columns, put the two folded biases one
  under the other, and flatten the two images' pixels. Every operation here only moves numbers (a transpose, a change
  of shape, a broadcast, a concatenation, padding, a change of float format, which is the identity on extended
  reals), so each entry of an operand IS one entry of one argument (or of a folded parameter, or 0 or 1), and the
  theorems below say which.

  The road: each stretch leaves alone every buffer it does not write (`skipK`); each stretch's results are read off
  the operations from any contents before it (`rdK_…`); composed from the launch memory these give each operand as a
  term over the arguments (`ent_…`), and the layout operations of that term are read at an index, outermost first.
-/
import proofs.«126750_g2000606872001322_pallasbulk_142_34_alg».proof.Proof.KIFrame
import proofs.«126750_g2000606872001322_pallasbulk_142_34_alg».proof.Proof.Fold
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.StableHlo (after_cons after_nil)

variable {F : FTy → Type} [FloatOps F]

/-! ## What each stretch of host operations writes, and that it leaves every other buffer alone -/

section Skips
open StableHlo
variable (V : Valuation τ sig (Elt F))

/-- The buffers stretch 0 writes. -/
abbrev Wr0 : List (Ref sig .tc) := [main_cst, main_v0, main_v1, main_v2, main_v3, main_v4, main_v5, main_v6, main_v7, main_v8, main_v9, main_cst_0, main_v10, main_v11, main_v12, main_v13, main_v14, main_v15, main_v16, main_v17, main_v18, main_v19, main_v20, main_v21, main_v22, main_v23, main_c]
theorem skip0 (r : Ref sig .tc) (hr : r ∉ Wr0) :
    after (hostOps0 (F := F)) V (Proc.devRef .tc r) = V (Proc.devRef .tc r) :=
  after_of_writes_sub _ V (by
    simp only [hostOps0, List.Forall, nullary_writes, unary_writes, binary_writes, ternary_writes, reshape_writes, nary_writes]
    repeat' apply And.intro
    all_goals exact Finset.singleton_subset_iff.mpr (List.mem_toFinset.mpr (List.mem_map_of_mem (by decide)))) hr

/-- The buffers stretch 1 writes. -/
abbrev Wr1 : List (Ref sig .tc) := [main_call0_v0, main_v24]
theorem skip1 (r : Ref sig .tc) (hr : r ∉ Wr1) :
    after (hostOps0_1 (F := F)) V (Proc.devRef .tc r) = V (Proc.devRef .tc r) :=
  after_of_writes_sub _ V (by
    simp only [hostOps0_1, List.Forall, nullary_writes, unary_writes, binary_writes, ternary_writes, reshape_writes, nary_writes]
    repeat' apply And.intro
    all_goals exact Finset.singleton_subset_iff.mpr (List.mem_toFinset.mpr (List.mem_map_of_mem (by decide)))) hr

/-- The buffers stretch 2 writes. -/
abbrev Wr2 : List (Ref sig .tc) := [main_v25, main_v26, main_v27, main_v28, main_v29, main_v30, main_v31, main_v32, main_v33, main_v34, main_c_1, main_v35, main_v36, main_v37, main_v38, main_c_2]
theorem skip2 (r : Ref sig .tc) (hr : r ∉ Wr2) :
    after (hostOps0_2 (F := F)) V (Proc.devRef .tc r) = V (Proc.devRef .tc r) :=
  after_of_writes_sub _ V (by
    simp only [hostOps0_2, List.Forall, nullary_writes, unary_writes, binary_writes, ternary_writes, reshape_writes, nary_writes]
    repeat' apply And.intro
    all_goals exact Finset.singleton_subset_iff.mpr (List.mem_toFinset.mpr (List.mem_map_of_mem (by decide)))) hr

/-- The buffers stretch 3 writes. -/
abbrev Wr3 : List (Ref sig .tc) := [main_call1_v0, main_v39]
theorem skip3 (r : Ref sig .tc) (hr : r ∉ Wr3) :
    after (hostOps0_3 (F := F)) V (Proc.devRef .tc r) = V (Proc.devRef .tc r) :=
  after_of_writes_sub _ V (by
    simp only [hostOps0_3, List.Forall, nullary_writes, unary_writes, binary_writes, ternary_writes, reshape_writes, nary_writes]
    repeat' apply And.intro
    all_goals exact Finset.singleton_subset_iff.mpr (List.mem_toFinset.mpr (List.mem_map_of_mem (by decide)))) hr

/-- The buffers stretch 4 writes. -/
abbrev Wr4 : List (Ref sig .tc) := [main_v40, main_v41, main_c_3]
theorem skip4 (r : Ref sig .tc) (hr : r ∉ Wr4) :
    after (hostOps0_4 (F := F)) V (Proc.devRef .tc r) = V (Proc.devRef .tc r) :=
  after_of_writes_sub _ V (by
    simp only [hostOps0_4, List.Forall, nullary_writes, unary_writes, binary_writes, ternary_writes, reshape_writes, nary_writes]
    repeat' apply And.intro
    all_goals exact Finset.singleton_subset_iff.mpr (List.mem_toFinset.mpr (List.mem_map_of_mem (by decide)))) hr

/-- The buffers stretch 5 writes. -/
abbrev Wr5 : List (Ref sig .tc) := [main_call2_v0, main_v42]
theorem skip5 (r : Ref sig .tc) (hr : r ∉ Wr5) :
    after (hostOps0_5 (F := F)) V (Proc.devRef .tc r) = V (Proc.devRef .tc r) :=
  after_of_writes_sub _ V (by
    simp only [hostOps0_5, List.Forall, nullary_writes, unary_writes, binary_writes, ternary_writes, reshape_writes, nary_writes]
    repeat' apply And.intro
    all_goals exact Finset.singleton_subset_iff.mpr (List.mem_toFinset.mpr (List.mem_map_of_mem (by decide)))) hr

/-- The buffers stretch 6 writes. -/
abbrev Wr6 : List (Ref sig .tc) := [main_v43, main_v44, main_v45, main_v46, main_v47, main_v48, main_v49, main_v50, main_c_4]
theorem skip6 (r : Ref sig .tc) (hr : r ∉ Wr6) :
    after (hostOps0_6 (F := F)) V (Proc.devRef .tc r) = V (Proc.devRef .tc r) :=
  after_of_writes_sub _ V (by
    simp only [hostOps0_6, List.Forall, nullary_writes, unary_writes, binary_writes, ternary_writes, reshape_writes, nary_writes]
    repeat' apply And.intro
    all_goals exact Finset.singleton_subset_iff.mpr (List.mem_toFinset.mpr (List.mem_map_of_mem (by decide)))) hr

/-- The buffers stretch 7 writes. -/
abbrev Wr7 : List (Ref sig .tc) := [main_call3_v0, main_call3_c, main_call3_v1, main_call3_c_0, main_call3_v2, main_call3_v3, main_call3_v4, main_call3_c_1, main_call3_v5, main_call3_v6, main_call3_c_2, main_call3_v7, main_call3_v8, main_call3_c_3, main_call3_v9, main_call3_v10, main_call3_v11, main_call3_v12, main_call3_v13, main_call3_v14, main_v51]
theorem skip7 (r : Ref sig .tc) (hr : r ∉ Wr7) :
    after (hostOps0_7 (F := F)) V (Proc.devRef .tc r) = V (Proc.devRef .tc r) :=
  after_of_writes_sub _ V (by
    simp only [hostOps0_7, List.Forall, nullary_writes, unary_writes, binary_writes, ternary_writes, reshape_writes, nary_writes]
    repeat' apply And.intro
    all_goals exact Finset.singleton_subset_iff.mpr (List.mem_toFinset.mpr (List.mem_map_of_mem (by decide)))) hr

/-- The buffers stretch 8 writes. -/
abbrev Wr8 : List (Ref sig .tc) := [main_c_5, main_v52, main_v53, main_c_6, main_v54, main_v55, main_v56, main_v57, main_v58]
theorem skip8 (r : Ref sig .tc) (hr : r ∉ Wr8) :
    after (hostOps0_8 (F := F)) V (Proc.devRef .tc r) = V (Proc.devRef .tc r) :=
  after_of_writes_sub _ V (by
    simp only [hostOps0_8, List.Forall, nullary_writes, unary_writes, binary_writes, ternary_writes, reshape_writes, nary_writes]
    repeat' apply And.intro
    all_goals exact Finset.singleton_subset_iff.mpr (List.mem_toFinset.mpr (List.mem_map_of_mem (by decide)))) hr

end Skips

/-! ## Each stretch read at the buffers the region's operands are made of, from any contents `V` before it -/

section Reads
open StableHlo
variable (V : Valuation τ sig (Elt Ideal))

theorem rd0_v21 : (after (hostOps0 (F := Ideal)) V (Proc.devRef .tc main_v21) : S1152x256.Idx → EReal)
    = shapeCast S1152x256 (transpose S3x3x128x256 [2, 3, 0, 1]
        (Cert.Fold.w1e (V (Proc.devRef .tc main_arg4) : S128x256x3x3.Idx → EReal) (V (Proc.devRef .tc main_arg6) : S128.Idx → EReal) (V (Proc.devRef .tc main_arg9) : S128.Idx → EReal))
        transposes_S128x256x3x3_S3x3x128x256_2_3_0_1) shapeCasts_S3x3x128x256_S1152x256 := by
  simp only [hostOps0]; after_results_simp <;> rfl
theorem rd0_v23 : (after (hostOps0 (F := Ideal)) V (Proc.devRef .tc main_v23) : S1152x128.Idx → EReal)
    = shapeCast S1152x128 (transpose S3x3x128x128 [2, 3, 0, 1]
        (Cert.Fold.w2e (V (Proc.devRef .tc main_arg10) : S128x128x3x3.Idx → EReal) (V (Proc.devRef .tc main_arg12) : S128.Idx → EReal) (V (Proc.devRef .tc main_arg15) : S128.Idx → EReal))
        transposes_S128x128x3x3_S3x3x128x128_2_3_0_1) shapeCasts_S3x3x128x128_S1152x128 := by
  simp only [hostOps0]; after_results_simp <;> rfl
theorem rd0_v9 : (after (hostOps0 (F := Ideal)) V (Proc.devRef .tc main_v9) : S128.Idx → EReal)
    = Cert.Fold.b1e (V (Proc.devRef .tc main_arg5) : S128.Idx → EReal) (V (Proc.devRef .tc main_arg8) : S128.Idx → EReal) (V (Proc.devRef .tc main_arg6) : S128.Idx → EReal) (V (Proc.devRef .tc main_arg9) : S128.Idx → EReal) (V (Proc.devRef .tc main_arg7) : S128.Idx → EReal) := by
  simp only [hostOps0]; after_results_simp <;> rfl
theorem rd0_v19 : (after (hostOps0 (F := Ideal)) V (Proc.devRef .tc main_v19) : S128.Idx → EReal)
    = Cert.Fold.b1e (V (Proc.devRef .tc main_arg11) : S128.Idx → EReal) (V (Proc.devRef .tc main_arg14) : S128.Idx → EReal) (V (Proc.devRef .tc main_arg12) : S128.Idx → EReal) (V (Proc.devRef .tc main_arg15) : S128.Idx → EReal) (V (Proc.devRef .tc main_arg13) : S128.Idx → EReal) := by
  simp only [hostOps0]; after_results_simp <;> rfl
theorem rd0_c : (after (hostOps0 (F := Ideal)) V (Proc.devRef .tc main_c) : IVec S_ 32) = constantI S_ 32 0#32 := by
  simp only [hostOps0]; after_results_simp <;> rfl

theorem rd1_v24 : (after (hostOps0_1 (F := Ideal)) V (Proc.devRef .tc main_v24) : S1152x256.Idx → EReal)
    = pad S1152x256 ![0, 0] ![0, 128] ![0, 0] (V (Proc.devRef .tc main_v23) : S1152x128.Idx → EReal)
        (sitofp (F := Ideal) .f32 (V (Proc.devRef .tc main_c) : IVec S_ 32)) pads_S1152x128_S1152x256_000_01280 h_S_ := by
  simp only [hostOps0_1]; after_results <;> rfl

theorem rd2_v28 : (after (hostOps0_2 (F := Ideal)) V (Proc.devRef .tc main_v28) : S512x256.Idx → EReal)
    = shapeCast S512x256 (transpose S2x256x256 [1, 0, 2]
        (shapeCast S256x2x256 (transpose S256x2x2x128 [0, 2, 3, 1] (V (Proc.devRef .tc main_arg2) : S256x128x2x2.Idx → EReal)
          transposes_S256x128x2x2_S256x2x2x128_0_2_3_1) shapeCasts_S256x2x2x128_S256x2x256)
        transposes_S256x2x256_S2x256x256_1_0_2) shapeCasts_S2x256x256_S512x256 := by
  simp only [hostOps0_2]; after_results <;> rfl
theorem rd2_v32 : (after (hostOps0_2 (F := Ideal)) V (Proc.devRef .tc main_v32) : S2x256.Idx → EReal)
    = shapeCast S2x256 (shapeCast S512 (broadcastInDim S4x128 ![0, 1] bcast_S1x128_S4x128_0_1
        (shapeCast S1x128 (V (Proc.devRef .tc main_arg3) : S128.Idx → EReal) shapeCasts_S128_S1x128)) shapeCasts_S4x128_S512) shapeCasts_S512_S2x256 := by
  simp only [hostOps0_2]; after_results <;> rfl
theorem rd2_v38 : (after (hostOps0_2 (F := Ideal)) V (Proc.devRef .tc main_v38) : S128x128.Idx → EReal)
    = uitofp (F := Ideal) .f32 (cmpi .eq (addi (iotaInDim S128x128 32 0)
        (broadcastInDim S128x128 ![] bcast_S_S128x128 (constantI S_ 32 0#32))) (iotaInDim S128x128 32 1)) := by
  simp only [hostOps0_2]; after_results <;> rfl
theorem rd2_c2 : (after (hostOps0_2 (F := Ideal)) V (Proc.devRef .tc main_c_2) : IVec S_ 32) = constantI S_ 32 0#32 := by
  simp only [hostOps0_2]; after_results <;> rfl

theorem rd3_v39 : (after (hostOps0_3 (F := Ideal)) V (Proc.devRef .tc main_v39) : S128x256.Idx → EReal)
    = pad S128x256 ![0, 0] ![0, 128] ![0, 0] (V (Proc.devRef .tc main_v38) : S128x128.Idx → EReal)
        (sitofp (F := Ideal) .f32 (V (Proc.devRef .tc main_c_2) : IVec S_ 32)) pads_S128x128_S128x256_000_01280 h_S_ := by
  simp only [hostOps0_3]; after_results <;> rfl

theorem rd4_v41 : (after (hostOps0_4 (F := Ideal)) V (Proc.devRef .tc main_v41) : S2946x256.Idx → EReal)
    = truncf (F := Ideal) (φ := .f32) .bf16 (concatenate S2946x256 0
        [⟨S1152x256, (V (Proc.devRef .tc main_v21) : S1152x256.Idx → EReal)⟩, ⟨S1152x256, (V (Proc.devRef .tc main_v24) : S1152x256.Idx → EReal)⟩,
         ⟨S512x256, (V (Proc.devRef .tc main_v28) : S512x256.Idx → EReal)⟩, ⟨S2x256, (V (Proc.devRef .tc main_v32) : S2x256.Idx → EReal)⟩,
         ⟨S128x256, (V (Proc.devRef .tc main_v39) : S128x256.Idx → EReal)⟩]
        concatenates_S1152x256_S1152x256_S512x256_S2x256_S128x256_S2946x256_d0) bitsLt_bf16_f32 := by
  simp only [hostOps0_4]; after_results <;> rfl
theorem rd4_c3 : (after (hostOps0_4 (F := Ideal)) V (Proc.devRef .tc main_c_3) : IVec S_ 32) = constantI S_ 32 0#32 := by
  simp only [hostOps0_4]; after_results <;> rfl

theorem rd5_v42 : (after (hostOps0_5 (F := Ideal)) V (Proc.devRef .tc main_v42) : S2952x256.Idx → EReal)
    = pad S2952x256 ![0, 0] ![6, 0] ![0, 0] (V (Proc.devRef .tc main_v41) : S2946x256.Idx → EReal)
        (sitofp (F := Ideal) .bf16 (V (Proc.devRef .tc main_c_3) : IVec S_ 32)) pads_S2946x256_S2952x256_060_000 h_S_ := by
  simp only [hostOps0_5]; after_results <;> rfl

theorem rd6_v47 : (after (hostOps0_6 (F := Ideal)) V (Proc.devRef .tc main_v47) : S256x128.Idx → EReal)
    = shapeCast S256x128 (broadcastInDim S1x256x128x1 ![0, 1, 2, 3] bcast_S1x256x1x1_S1x256x128x1_0_1_2_3
        (shapeCast S1x256x1x1 (shapeCast S256x1 (concatenate S256 0
          [⟨S128, (V (Proc.devRef .tc main_v9) : S128.Idx → EReal)⟩, ⟨S128, (V (Proc.devRef .tc main_v19) : S128.Idx → EReal)⟩] concatenates_S128_S128_S256_d0)
          shapeCasts_S256_S256x1) shapeCasts_S256x1_S1x256x1x1)) shapeCasts_S1x256x128x1_S256x128 := by
  simp only [hostOps0_6]; after_results <;> rfl
theorem rd6_v48 : (after (hostOps0_6 (F := Ideal)) V (Proc.devRef .tc main_v48) : S16x256x1024.Idx → EReal)
    = shapeCast S16x256x1024 (V (Proc.devRef .tc main_arg0) : S16x256x32x32.Idx → EReal) shapeCasts_S16x256x32x32_S16x256x1024 := by
  simp only [hostOps0_6]; after_results <;> rfl
theorem rd6_v49 : (after (hostOps0_6 (F := Ideal)) V (Proc.devRef .tc main_v49) : S16x128x4096.Idx → EReal)
    = shapeCast S16x128x4096 (V (Proc.devRef .tc main_arg1) : S16x128x64x64.Idx → EReal) shapeCasts_S16x128x64x64_S16x128x4096 := by
  simp only [hostOps0_6]; after_results <;> rfl

end Reads

/-! ## The operands' contents as functions of the arguments -/

section Pieces
open StableHlo

/-- A [128, 256, 3, 3] weight with the taps first, flattened to rows `(3·kh + kw)·128 + co`, columns the input channel. -/
def P21 (w : S128x256x3x3.Idx → EReal) : S1152x256.Idx → EReal :=
  shapeCast S1152x256 (transpose S3x3x128x256 [2, 3, 0, 1] w transposes_S128x256x3x3_S3x3x128x256_2_3_0_1)
    shapeCasts_S3x3x128x256_S1152x256
/-- The same for a [128, 128, 3, 3] weight. -/
def P23 (w : S128x128x3x3.Idx → EReal) : S1152x128.Idx → EReal :=
  shapeCast S1152x128 (transpose S3x3x128x128 [2, 3, 0, 1] w transposes_S128x128x3x3_S3x3x128x128_2_3_0_1)
    shapeCasts_S3x3x128x128_S1152x128
/-- … widened to 256 columns by 128 columns of the padding value. -/
def P24 (w : S128x128x3x3.Idx → EReal) : S1152x256.Idx → EReal :=
  pad S1152x256 ![0, 0] ![0, 128] ![0, 0] (P23 w) (sitofp (F := Ideal) .f32 (constantI S_ 32 0#32))
    pads_S1152x128_S1152x256_000_01280 h_S_
/-- The transposed convolution's weight [256, 128, 2, 2] re-laid to rows `di·256 + ci`, columns `dj·128 + c'`. -/
def P28 (wt : S256x128x2x2.Idx → EReal) : S512x256.Idx → EReal :=
  shapeCast S512x256 (transpose S2x256x256 [1, 0, 2]
    (shapeCast S256x2x256 (transpose S256x2x2x128 [0, 2, 3, 1] wt transposes_S256x128x2x2_S256x2x2x128_0_2_3_1)
      shapeCasts_S256x2x2x128_S256x2x256)
    transposes_S256x2x256_S2x256x256_1_0_2) shapeCasts_S2x256x256_S512x256
/-- The transposed convolution's bias tiled four times, as two rows of 256. -/
def P32 (bt : S128.Idx → EReal) : S2x256.Idx → EReal :=
  shapeCast S2x256 (shapeCast S512 (broadcastInDim S4x128 ![0, 1] bcast_S1x128_S4x128_0_1
    (shapeCast S1x128 bt shapeCasts_S128_S1x128)) shapeCasts_S4x128_S512) shapeCasts_S512_S2x256
/-- The 128 × 128 identity: where the row's number is the column's. -/
def P38 : S128x128.Idx → EReal :=
  uitofp (F := Ideal) .f32 (cmpi .eq (addi (iotaInDim S128x128 32 0)
    (broadcastInDim S128x128 ![] bcast_S_S128x128 (constantI S_ 32 0#32))) (iotaInDim S128x128 32 1))
/-- … widened to 256 columns. -/
def P39 : S128x256.Idx → EReal :=
  pad S128x256 ![0, 0] ![0, 128] ![0, 0] P38 (sitofp (F := Ideal) .f32 (constantI S_ 32 0#32))
    pads_S128x128_S128x256_000_01280 h_S_
/-- The five pieces one under the other. -/
def CAT (p21 p24 : S1152x256.Idx → EReal) (p28 : S512x256.Idx → EReal) (p32 : S2x256.Idx → EReal)
    (p39 : S128x256.Idx → EReal) : S2946x256.Idx → EReal :=
  concatenate S2946x256 0 [⟨S1152x256, p21⟩, ⟨S1152x256, p24⟩, ⟨S512x256, p28⟩, ⟨S2x256, p32⟩, ⟨S128x256, p39⟩]
    concatenates_S1152x256_S1152x256_S512x256_S2x256_S128x256_S2946x256_d0
/-- The packed weights: the five pieces, in the narrow format (the same numbers), and six more rows. -/
def PACK (p21 p24 : S1152x256.Idx → EReal) (p28 : S512x256.Idx → EReal) (p32 : S2x256.Idx → EReal)
    (p39 : S128x256.Idx → EReal) : S2952x256.Idx → EReal :=
  pad S2952x256 ![0, 0] ![6, 0] ![0, 0]
    (truncf (F := Ideal) (φ := .f32) .bf16 (CAT p21 p24 p28 p32 p39) bitsLt_bf16_f32)
    (sitofp (F := Ideal) .bf16 (constantI S_ 32 0#32)) pads_S2946x256_S2952x256_060_000 h_S_
/-- The two folded biases one under the other, each spread along a row of 128. -/
def FB (b1 b2 : S128.Idx → EReal) : S256x128.Idx → EReal :=
  shapeCast S256x128 (broadcastInDim S1x256x128x1 ![0, 1, 2, 3] bcast_S1x256x1x1_S1x256x128x1_0_1_2_3
    (shapeCast S1x256x1x1 (shapeCast S256x1 (concatenate S256 0 [⟨S128, b1⟩, ⟨S128, b2⟩] concatenates_S128_S128_S256_d0)
      shapeCasts_S256_S256x1) shapeCasts_S256x1_S1x256x1x1)) shapeCasts_S1x256x128x1_S256x128

end Pieces

/-! ## The pieces read at an index -/

section Index

theorem cast_x1 {α : Type} (x : S16x256x32x32.Idx → α) (n : Fin 16) (ci : Fin 256) (r q : Fin 32) (hq : r.val * 32 + q.val < 1024) :
    shapeCast S16x256x1024 x shapeCasts_S16x256x32x32_S16x256x1024 (ix3 n ci ⟨r.val * 32 + q.val, hq⟩) = x (ix4 n ci r q) :=
  shapeCast_apply x _ _ _ (by
    rw [Shape.rowMajor_val_four, Shape.rowMajor_val_three]
    show ((n.val * 256 + ci.val) * 32 + r.val) * 32 + q.val = (n.val * 256 + ci.val) * 1024 + (r.val * 32 + q.val)
    omega)

theorem cast_x2 {α : Type} (x : S16x128x64x64.Idx → α) (n : Fin 16) (ch : Fin 128) (r q : Fin 64) (hq : r.val * 64 + q.val < 4096) :
    shapeCast S16x128x4096 x shapeCasts_S16x128x64x64_S16x128x4096 (ix3 n ch ⟨r.val * 64 + q.val, hq⟩) = x (ix4 n ch r q) :=
  shapeCast_apply x _ _ _ (by
    rw [Shape.rowMajor_val_four, Shape.rowMajor_val_three]
    show ((n.val * 128 + ch.val) * 64 + r.val) * 64 + q.val = (n.val * 128 + ch.val) * 4096 + (r.val * 64 + q.val)
    omega)

theorem P21_apply (w : S128x256x3x3.Idx → EReal) (k : Fin 9) (co : Fin 128) (ch : Fin 256) (h : k.val * 128 + co.val < 1152)
    (h3 : k.val / 3 < 3) (h3' : k.val % 3 < 3) :
    P21 w (ix2 ⟨k.val * 128 + co.val, h⟩ ch) = w (ix4 co ch ⟨k.val / 3, h3⟩ ⟨k.val % 3, h3'⟩) := by
  unfold P21
  refine (shapeCast_apply _ _ _ (ix4 (⟨k.val / 3, h3⟩ : Fin 3) (⟨k.val % 3, h3'⟩ : Fin 3) co ch) ?_).trans ?_
  · rw [Shape.rowMajor_val_four, Shape.rowMajor_val_two]
    show ((k.val / 3 * 3 + k.val % 3) * 128 + co.val) * 256 + ch.val = (k.val * 128 + co.val) * 256 + ch.val
    omega
  · exact transpose_apply _ _ _ _ _ (fun b => by
      match b with | ⟨0, _⟩ => rfl | ⟨1, _⟩ => rfl | ⟨2, _⟩ => rfl | ⟨3, _⟩ => rfl)

theorem P23_apply (w : S128x128x3x3.Idx → EReal) (k : Fin 9) (co cm : Fin 128) (h : k.val * 128 + co.val < 1152)
    (h3 : k.val / 3 < 3) (h3' : k.val % 3 < 3) :
    P23 w (ix2 ⟨k.val * 128 + co.val, h⟩ cm) = w (ix4 co cm ⟨k.val / 3, h3⟩ ⟨k.val % 3, h3'⟩) := by
  unfold P23
  refine (shapeCast_apply _ _ _ (ix4 (⟨k.val / 3, h3⟩ : Fin 3) (⟨k.val % 3, h3'⟩ : Fin 3) co cm) ?_).trans ?_
  · rw [Shape.rowMajor_val_four, Shape.rowMajor_val_two]
    show ((k.val / 3 * 3 + k.val % 3) * 128 + co.val) * 128 + cm.val = (k.val * 128 + co.val) * 128 + cm.val
    omega
  · exact transpose_apply _ _ _ _ _ (fun b => by
      match b with | ⟨0, _⟩ => rfl | ⟨1, _⟩ => rfl | ⟨2, _⟩ => rfl | ⟨3, _⟩ => rfl)

theorem P24_apply (w : S128x128x3x3.Idx → EReal) (r : Fin 1152) (cm : Fin 128) (hc : cm.val < 256) :
    P24 w (ix2 r ⟨cm.val, hc⟩) = P23 w (ix2 r cm) := by
  unfold P24
  exact pad_apply_of_inside _ _ _ _ _ _ _ _ (ix2 r cm) (fun a => by
    match a with | ⟨0, _⟩ => (show r.val = 0 + r.val * (0 + 1); omega) | ⟨1, _⟩ => (show cm.val = 0 + cm.val * (0 + 1); omega))

theorem P28_apply (wt : S256x128x2x2.Idx → EReal) (di : Fin 2) (ci : Fin 256) (dj : Fin 2) (c' : Fin 128)
    (h : di.val * 256 + ci.val < 512) (h' : dj.val * 128 + c'.val < 256) :
    P28 wt (ix2 ⟨di.val * 256 + ci.val, h⟩ ⟨dj.val * 128 + c'.val, h'⟩) = wt (ix4 ci c' di dj) := by
  unfold P28
  refine (shapeCast_apply _ _ _ (ix3 di ci (⟨dj.val * 128 + c'.val, h'⟩ : Fin 256)) ?_).trans ?_
  · rw [Shape.rowMajor_val_three, Shape.rowMajor_val_two]
    show (di.val * 256 + ci.val) * 256 + (dj.val * 128 + c'.val) = (di.val * 256 + ci.val) * 256 + (dj.val * 128 + c'.val)
    rfl
  refine (transpose_apply _ _ _ _ (ix3 ci di (⟨dj.val * 128 + c'.val, h'⟩ : Fin 256)) (fun b => by
      match b with | ⟨0, _⟩ => rfl | ⟨1, _⟩ => rfl | ⟨2, _⟩ => rfl)).trans ?_
  refine (shapeCast_apply _ _ _ (ix4 ci di dj c') ?_).trans ?_
  · rw [Shape.rowMajor_val_four, Shape.rowMajor_val_three]
    show ((ci.val * 2 + di.val) * 2 + dj.val) * 128 + c'.val = (ci.val * 2 + di.val) * 256 + (dj.val * 128 + c'.val)
    omega
  · exact transpose_apply _ _ _ _ _ (fun b => by
      match b with | ⟨0, _⟩ => rfl | ⟨1, _⟩ => rfl | ⟨2, _⟩ => rfl | ⟨3, _⟩ => rfl)

theorem P32_apply (bt : S128.Idx → EReal) (di dj : Fin 2) (c' : Fin 128) (h' : dj.val * 128 + c'.val < 256) :
    P32 bt (ix2 di ⟨dj.val * 128 + c'.val, h'⟩) = bt (ix1 c') := by
  unfold P32
  have h1 : di.val * 256 + (dj.val * 128 + c'.val) < 512 := by have := di.isLt; omega
  have h2 : di.val * 2 + dj.val < 4 := by have := di.isLt; have := dj.isLt; omega
  refine (shapeCast_apply _ _ _ (ix1 (⟨di.val * 256 + (dj.val * 128 + c'.val), h1⟩ : Fin 512)) ?_).trans ?_
  · rw [Shape.rowMajor_val_one, Shape.rowMajor_val_two]; rfl
  refine (shapeCast_apply _ _ _ (ix2 (⟨di.val * 2 + dj.val, h2⟩ : Fin 4) c') ?_).trans ?_
  · rw [Shape.rowMajor_val_two, Shape.rowMajor_val_one]
    show (di.val * 2 + dj.val) * 128 + c'.val = di.val * 256 + (dj.val * 128 + c'.val)
    omega
  refine (broadcastInDim_apply _ _ _ _ (ix2 (0 : Fin 1) c') (fun a => by
      match a with | ⟨0, _⟩ => rfl | ⟨1, _⟩ => rfl)).trans ?_
  exact shapeCast_apply _ _ _ (ix1 c') (by
    rw [Shape.rowMajor_val_one, Shape.rowMajor_val_two]
    show c'.val = 0 * 128 + c'.val
    omega)

theorem P38_apply (i k : Fin 128) : P38 (ix2 i k) = if i = k then 1 else 0 := by
  show (((IntOp.cmpi .eq (IntOp.addi (BitVec.ofNat 32 i.val) 0#32) (BitVec.ofNat 32 k.val)).toNat : ℝ) : EReal) = _
  by_cases h : i = k
  · subst h
    rw [if_pos rfl, (IntOp.cmpi_eq).mpr (by simp [IntOp.addi])]
    simp
  · rw [if_neg h]
    have h0 : IntOp.cmpi .eq (IntOp.addi (BitVec.ofNat 32 i.val) 0#32) (BitVec.ofNat 32 k.val) = 0#1 :=
      eq_zero_of_ne_one (fun h1 => h (Fin.ext (by
        have e := congrArg BitVec.toNat (IntOp.cmpi_eq.mp h1)
        simp [IntOp.addi] at e
        have := i.isLt; have := k.isLt; omega)))
    rw [h0]; simp

theorem P39_apply (i k : Fin 128) (hk : k.val < 256) : P39 (ix2 i ⟨k.val, hk⟩) = if i = k then 1 else 0 := by
  unfold P39
  refine (pad_apply_of_inside _ _ _ _ _ _ _ _ (ix2 i k) (fun a => by
    match a with | ⟨0, _⟩ => (show i.val = 0 + i.val * (0 + 1); omega) | ⟨1, _⟩ => (show k.val = 0 + k.val * (0 + 1); omega))).trans ?_
  exact P38_apply i k

variable (p21 p24 : S1152x256.Idx → EReal) (p28 : S512x256.Idx → EReal) (p32 : S2x256.Idx → EReal) (p39 : S128x256.Idx → EReal)

theorem PACK_row (r : ℕ) (hr : r < 2946) (hr' : r < 2952) (col : Fin 256) :
    PACK p21 p24 p28 p32 p39 (ix2 ⟨r, hr'⟩ col) = CAT p21 p24 p28 p32 p39 (ix2 ⟨r, hr⟩ col) := by
  unfold PACK
  exact pad_apply_of_inside _ _ _ _ _ _ _ _ (ix2 (⟨r, hr⟩ : Fin 2946) col) (fun a => by
    match a with | ⟨0, _⟩ => (show r = 0 + r * (0 + 1); omega) | ⟨1, _⟩ => (show col.val = 0 + col.val * (0 + 1); omega))

theorem CAT_0 (r : ℕ) (hr : r < 1152) (hr' : r < 2946) (col : Fin 256) :
    CAT p21 p24 p28 p32 p39 (ix2 ⟨r, hr'⟩ col) = p21 (ix2 ⟨r, hr⟩ col) := by
  unfold CAT
  exact concatenate_apply_piece (0 : Fin S2946x256.rank) [⟨S1152x256, p21⟩, ⟨S1152x256, p24⟩, ⟨S512x256, p28⟩, ⟨S2x256, p32⟩, ⟨S128x256, p39⟩]
    concatenates_S1152x256_S1152x256_S512x256_S2x256_S128x256_S2946x256_d0 (ix2 (⟨r, hr'⟩ : Fin 2946) col)
    0 (by show (0 : ℕ) < 5; omega) S1152x256 p21 rfl rfl 0 rfl (ix2 (⟨r, hr⟩ : Fin 1152) col)
    (fun b hb => by match b, hb with | ⟨0, _⟩, hb => exact absurd rfl hb | ⟨1, _⟩, _ => rfl) (by show 0 + r = r; omega)
theorem CAT_1 (r : ℕ) (hr : r < 1152) (hr' : 1152 + r < 2946) (col : Fin 256) :
    CAT p21 p24 p28 p32 p39 (ix2 ⟨1152 + r, hr'⟩ col) = p24 (ix2 ⟨r, hr⟩ col) := by
  unfold CAT
  exact concatenate_apply_piece (0 : Fin S2946x256.rank) [⟨S1152x256, p21⟩, ⟨S1152x256, p24⟩, ⟨S512x256, p28⟩, ⟨S2x256, p32⟩, ⟨S128x256, p39⟩]
    concatenates_S1152x256_S1152x256_S512x256_S2x256_S128x256_S2946x256_d0 (ix2 (⟨1152 + r, hr'⟩ : Fin 2946) col)
    1 (by show (1 : ℕ) < 5; omega) S1152x256 p24 rfl rfl 1152 rfl (ix2 (⟨r, hr⟩ : Fin 1152) col)
    (fun b hb => by match b, hb with | ⟨0, _⟩, hb => exact absurd rfl hb | ⟨1, _⟩, _ => rfl) rfl
theorem CAT_2 (r : ℕ) (hr : r < 512) (hr' : 2304 + r < 2946) (col : Fin 256) :
    CAT p21 p24 p28 p32 p39 (ix2 ⟨2304 + r, hr'⟩ col) = p28 (ix2 ⟨r, hr⟩ col) := by
  unfold CAT
  exact concatenate_apply_piece (0 : Fin S2946x256.rank) [⟨S1152x256, p21⟩, ⟨S1152x256, p24⟩, ⟨S512x256, p28⟩, ⟨S2x256, p32⟩, ⟨S128x256, p39⟩]
    concatenates_S1152x256_S1152x256_S512x256_S2x256_S128x256_S2946x256_d0 (ix2 (⟨2304 + r, hr'⟩ : Fin 2946) col)
    2 (by show (2 : ℕ) < 5; omega) S512x256 p28 rfl rfl 2304 rfl (ix2 (⟨r, hr⟩ : Fin 512) col)
    (fun b hb => by match b, hb with | ⟨0, _⟩, hb => exact absurd rfl hb | ⟨1, _⟩, _ => rfl) rfl
theorem CAT_3 (r : ℕ) (hr : r < 2) (hr' : 2816 + r < 2946) (col : Fin 256) :
    CAT p21 p24 p28 p32 p39 (ix2 ⟨2816 + r, hr'⟩ col) = p32 (ix2 ⟨r, hr⟩ col) := by
  unfold CAT
  exact concatenate_apply_piece (0 : Fin S2946x256.rank) [⟨S1152x256, p21⟩, ⟨S1152x256, p24⟩, ⟨S512x256, p28⟩, ⟨S2x256, p32⟩, ⟨S128x256, p39⟩]
    concatenates_S1152x256_S1152x256_S512x256_S2x256_S128x256_S2946x256_d0 (ix2 (⟨2816 + r, hr'⟩ : Fin 2946) col)
    3 (by show (3 : ℕ) < 5; omega) S2x256 p32 rfl rfl 2816 rfl (ix2 (⟨r, hr⟩ : Fin 2) col)
    (fun b hb => by match b, hb with | ⟨0, _⟩, hb => exact absurd rfl hb | ⟨1, _⟩, _ => rfl) rfl
theorem CAT_4 (r : ℕ) (hr : r < 128) (hr' : 2818 + r < 2946) (col : Fin 256) :
    CAT p21 p24 p28 p32 p39 (ix2 ⟨2818 + r, hr'⟩ col) = p39 (ix2 ⟨r, hr⟩ col) := by
  unfold CAT
  exact concatenate_apply_piece (0 : Fin S2946x256.rank) [⟨S1152x256, p21⟩, ⟨S1152x256, p24⟩, ⟨S512x256, p28⟩, ⟨S2x256, p32⟩, ⟨S128x256, p39⟩]
    concatenates_S1152x256_S1152x256_S512x256_S2x256_S128x256_S2946x256_d0 (ix2 (⟨2818 + r, hr'⟩ : Fin 2946) col)
    4 (by show (4 : ℕ) < 5; omega) S128x256 p39 rfl rfl 2818 rfl (ix2 (⟨r, hr⟩ : Fin 128) col)
    (fun b hb => by match b, hb with | ⟨0, _⟩, hb => exact absurd rfl hb | ⟨1, _⟩, _ => rfl) rfl

theorem FB_read (b1 b2 : S128.Idx → EReal) (r : Fin 256) (l : Fin 128) :
    FB b1 b2 (ix2 r l) = concatenate S256 0 [⟨S128, b1⟩, ⟨S128, b2⟩] concatenates_S128_S128_S256_d0 (ix1 r) := by
  unfold FB
  refine (shapeCast_apply _ _ _ (ix4 (0 : Fin 1) r l (0 : Fin 1)) ?_).trans ?_
  · rw [Shape.rowMajor_val_four, Shape.rowMajor_val_two]
    show ((0 * 256 + r.val) * 128 + l.val) * 1 + 0 = r.val * 128 + l.val
    omega
  refine (broadcastInDim_apply _ _ _ _ (ix4 (0 : Fin 1) r (0 : Fin 1) (0 : Fin 1)) (fun a => by
      match a with | ⟨0, _⟩ => rfl | ⟨1, _⟩ => rfl | ⟨2, _⟩ => rfl | ⟨3, _⟩ => rfl)).trans ?_
  refine (shapeCast_apply _ _ _ (ix2 r (0 : Fin 1)) ?_).trans ?_
  · rw [Shape.rowMajor_val_two, Shape.rowMajor_val_four]
    show r.val * 1 + 0 = ((0 * 256 + r.val) * 1 + 0) * 1 + 0
    omega
  exact shapeCast_apply _ _ _ (ix1 r) (by
    rw [Shape.rowMajor_val_one, Shape.rowMajor_val_two]
    show r.val = r.val * 1 + 0
    omega)

theorem FB_b1 (b1 b2 : S128.Idx → EReal) (co : Fin 128) (h : co.val < 256) (l : Fin 128) :
    FB b1 b2 (ix2 ⟨co.val, h⟩ l) = b1 (ix1 co) := by
  refine (FB_read b1 b2 _ l).trans ?_
  exact concatenate_apply_piece (0 : Fin S256.rank) [⟨S128, b1⟩, ⟨S128, b2⟩] concatenates_S128_S128_S256_d0
    (ix1 (⟨co.val, h⟩ : Fin 256)) 0 (by show (0 : ℕ) < 2; omega) S128 b1 rfl rfl 0 rfl (ix1 co)
    (fun b hb => by match b, hb with | ⟨0, _⟩, hb => exact absurd rfl hb) (by show 0 + co.val = co.val; omega)
theorem FB_b2 (b1 b2 : S128.Idx → EReal) (co : Fin 128) (h : 128 + co.val < 256) (l : Fin 128) :
    FB b1 b2 (ix2 ⟨128 + co.val, h⟩ l) = b2 (ix1 co) := by
  refine (FB_read b1 b2 _ l).trans ?_
  exact concatenate_apply_piece (0 : Fin S256.rank) [⟨S128, b1⟩, ⟨S128, b2⟩] concatenates_S128_S128_S256_d0
    (ix1 (⟨128 + co.val, h⟩ : Fin 256)) 1 (by show (1 : ℕ) < 2; omega) S128 b2 rfl rfl 128 rfl (ix1 co)
    (fun b hb => by match b, hb with | ⟨0, _⟩, hb => exact absurd rfl hb) rfl

end Index

/-! ## The contents at the region's entry -/

section Entry
open StableHlo
variable (m : (ℓ : Loc nD τ sig) → Buf (Elt Ideal) ℓ) (ρ : Dev nD → PrngReg) (c : Dev nD)

theorem W2_arg (r : Ref sig .tc) (h0 : r ∉ Wr0) (h1 : r ∉ Wr1) :
    W2 m ρ c (Proc.devRef .tc r) = m ((c : Thread nD τ).loc r) :=
  (skip1 _ r h1).trans (skip0 _ r h0)
theorem W6_arg (r : Ref sig .tc) (h0 : r ∉ Wr0) (h1 : r ∉ Wr1) (h2 : r ∉ Wr2) (h3 : r ∉ Wr3) (h4 : r ∉ Wr4) (h5 : r ∉ Wr5) :
    W6 m ρ c (Proc.devRef .tc r) = m ((c : Thread nD τ).loc r) :=
  (skip5 _ r h5).trans ((skip4 _ r h4).trans ((skip3 _ r h3).trans ((skip2 _ r h2).trans ((skip1 _ r h1).trans (skip0 _ r h0)))))

/-- The folded parameters of the two convolutions, as the arguments give them. -/
abbrev W1E : Cert.Spec.W1 :=
  Cert.Fold.w1e (m ((c : Thread nD τ).loc main_arg4)) (m ((c : Thread nD τ).loc main_arg6)) (m ((c : Thread nD τ).loc main_arg9))
abbrev B1E : Cert.Spec.V128 :=
  Cert.Fold.b1e (m ((c : Thread nD τ).loc main_arg5)) (m ((c : Thread nD τ).loc main_arg8)) (m ((c : Thread nD τ).loc main_arg6))
    (m ((c : Thread nD τ).loc main_arg9)) (m ((c : Thread nD τ).loc main_arg7))
abbrev W2E : Cert.Spec.W2 :=
  Cert.Fold.w2e (m ((c : Thread nD τ).loc main_arg10)) (m ((c : Thread nD τ).loc main_arg12)) (m ((c : Thread nD τ).loc main_arg15))
abbrev B2E : Cert.Spec.V128 :=
  Cert.Fold.b1e (m ((c : Thread nD τ).loc main_arg11)) (m ((c : Thread nD τ).loc main_arg14)) (m ((c : Thread nD τ).loc main_arg12))
    (m ((c : Thread nD τ).loc main_arg15)) (m ((c : Thread nD τ).loc main_arg13))

theorem ent_v48 : (Went m ρ c (Proc.devRef .tc main_v48) : S16x256x1024.Idx → EReal)
    = shapeCast S16x256x1024 (m ((c : Thread nD τ).loc main_arg0) : S16x256x32x32.Idx → EReal) shapeCasts_S16x256x32x32_S16x256x1024 := by
  refine (skip8 _ main_v48 (by decide)).trans ((skip7 _ main_v48 (by decide)).trans ((rd6_v48 (W6 m ρ c)).trans ?_))
  rw [W6_arg m ρ c main_arg0 (by decide) (by decide) (by decide) (by decide) (by decide) (by decide)]
theorem ent_v49 : (Went m ρ c (Proc.devRef .tc main_v49) : S16x128x4096.Idx → EReal)
    = shapeCast S16x128x4096 (m ((c : Thread nD τ).loc main_arg1) : S16x128x64x64.Idx → EReal) shapeCasts_S16x128x64x64_S16x128x4096 := by
  refine (skip8 _ main_v49 (by decide)).trans ((skip7 _ main_v49 (by decide)).trans ((rd6_v49 (W6 m ρ c)).trans ?_))
  rw [W6_arg m ρ c main_arg1 (by decide) (by decide) (by decide) (by decide) (by decide) (by decide)]

theorem ent_v47 : (Went m ρ c (Proc.devRef .tc main_v47) : S256x128.Idx → EReal) = FB (B1E m c) (B2E m c) := by
  refine (skip8 _ main_v47 (by decide)).trans ((skip7 _ main_v47 (by decide)).trans ((rd6_v47 (W6 m ρ c)).trans ?_))
  have e9 : (W6 m ρ c (Proc.devRef .tc main_v9) : S128.Idx → EReal) = B1E m c :=
    (skip5 _ main_v9 (by decide)).trans ((skip4 _ main_v9 (by decide)).trans ((skip3 _ main_v9 (by decide)).trans
      ((skip2 _ main_v9 (by decide)).trans ((skip1 _ main_v9 (by decide)).trans (rd0_v9 (W0 m ρ c))))))
  have e19 : (W6 m ρ c (Proc.devRef .tc main_v19) : S128.Idx → EReal) = B2E m c :=
    (skip5 _ main_v19 (by decide)).trans ((skip4 _ main_v19 (by decide)).trans ((skip3 _ main_v19 (by decide)).trans
      ((skip2 _ main_v19 (by decide)).trans ((skip1 _ main_v19 (by decide)).trans (rd0_v19 (W0 m ρ c))))))
  rw [e9, e19]; rfl

theorem ent_v42 : (Went m ρ c (Proc.devRef .tc main_v42) : S2952x256.Idx → EReal)
    = PACK (P21 (W1E m c)) (P24 (W2E m c)) (P28 (m ((c : Thread nD τ).loc main_arg2))) (P32 (m ((c : Thread nD τ).loc main_arg3))) P39 := by
  have e21 : (W4 m ρ c (Proc.devRef .tc main_v21) : S1152x256.Idx → EReal) = P21 (W1E m c) :=
    (skip3 _ main_v21 (by decide)).trans ((skip2 _ main_v21 (by decide)).trans ((skip1 _ main_v21 (by decide)).trans
      (rd0_v21 (W0 m ρ c))))
  have e23 : (W1 m ρ c (Proc.devRef .tc main_v23) : S1152x128.Idx → EReal) = P23 (W2E m c) := rd0_v23 (W0 m ρ c)
  have ec : (W1 m ρ c (Proc.devRef .tc main_c) : IVec S_ 32) = constantI S_ 32 0#32 := rd0_c (W0 m ρ c)
  have e24 : (W4 m ρ c (Proc.devRef .tc main_v24) : S1152x256.Idx → EReal) = P24 (W2E m c) := by
    refine (skip3 _ main_v24 (by decide)).trans ((skip2 _ main_v24 (by decide)).trans ((rd1_v24 (W1 m ρ c)).trans ?_))
    rw [e23, ec]; rfl
  have e28 : (W4 m ρ c (Proc.devRef .tc main_v28) : S512x256.Idx → EReal) = P28 (m ((c : Thread nD τ).loc main_arg2)) := by
    refine (skip3 _ main_v28 (by decide)).trans ((rd2_v28 (W2 m ρ c)).trans ?_)
    rw [W2_arg m ρ c main_arg2 (by decide) (by decide)]; rfl
  have e32 : (W4 m ρ c (Proc.devRef .tc main_v32) : S2x256.Idx → EReal) = P32 (m ((c : Thread nD τ).loc main_arg3)) := by
    refine (skip3 _ main_v32 (by decide)).trans ((rd2_v32 (W2 m ρ c)).trans ?_)
    rw [W2_arg m ρ c main_arg3 (by decide) (by decide)]; rfl
  have e38 : (W3 m ρ c (Proc.devRef .tc main_v38) : S128x128.Idx → EReal) = P38 := rd2_v38 (W2 m ρ c)
  have ec2 : (W3 m ρ c (Proc.devRef .tc main_c_2) : IVec S_ 32) = constantI S_ 32 0#32 := rd2_c2 (W2 m ρ c)
  have e39 : (W4 m ρ c (Proc.devRef .tc main_v39) : S128x256.Idx → EReal) = P39 := by
    refine (rd3_v39 (W3 m ρ c)).trans ?_
    rw [e38, ec2]; rfl
  have e41 : (W5 m ρ c (Proc.devRef .tc main_v41) : S2946x256.Idx → EReal)
      = truncf (F := Ideal) (φ := .f32) .bf16 (CAT (P21 (W1E m c)) (P24 (W2E m c)) (P28 (m ((c : Thread nD τ).loc main_arg2)))
          (P32 (m ((c : Thread nD τ).loc main_arg3))) P39) bitsLt_bf16_f32 := by
    refine (rd4_v41 (W4 m ρ c)).trans ?_
    rw [e21, e24, e28, e32, e39]; rfl
  have ec3 : (W5 m ρ c (Proc.devRef .tc main_c_3) : IVec S_ 32) = constantI S_ 32 0#32 := rd4_c3 (W4 m ρ c)
  refine (skip8 _ main_v42 (by decide)).trans ((skip7 _ main_v42 (by decide)).trans ((skip6 _ main_v42 (by decide)).trans
    ((rd5_v42 (W5 m ρ c)).trans ?_)))
  rw [e41, ec3]; rfl

end Entry

/-! ## The region's operands at an index, as functions of the arguments -/

section Operands
variable (m : (ℓ : Loc nD τ sig) → Buf (Elt Ideal) ℓ) (ρ : Dev nD → PrngReg) (c : Dev nD)

/-- The low-resolution input, its image flattened: pixel (r, q) at position 32·r + q. -/
theorem Vent_x1r (n : Fin 16) (ci : Fin 256) (r q : Fin 32) :
    (Vent (F := Ideal) m ρ c main_v48 : S16x256x1024.Idx → EReal)
        (ix3 n ci ⟨r.val * 32 + q.val, by have := r.isLt; have := q.isLt; omega⟩)
      = (m ((c : Thread nD τ).loc main_arg0) : S16x256x32x32.Idx → EReal) (ix4 n ci r q) := by
  refine (congrFun (ent_v48 m ρ c) _).trans ?_
  exact cast_x1 _ n ci r q _

/-- The skip input, its image flattened: pixel (r, q) at position 64·r + q. -/
theorem Vent_x2r (n : Fin 16) (ch : Fin 128) (r q : Fin 64) :
    (Vent (F := Ideal) m ρ c main_v49 : S16x128x4096.Idx → EReal)
        (ix3 n ch ⟨r.val * 64 + q.val, by have := r.isLt; have := q.isLt; omega⟩)
      = (m ((c : Thread nD τ).loc main_arg1) : S16x128x64x64.Idx → EReal) (ix4 n ch r q) := by
  refine (congrFun (ent_v49 m ρ c) _).trans ?_
  exact cast_x2 _ n ch r q _

/-- The biases: rows 0..127 the first convolution's folded bias, rows 128..255 the second's, the same in every lane. -/
theorem Vent_fb_b1_lane (co : Fin 128) (l : Fin 128) :
    (Vent (F := Ideal) m ρ c main_v47 : S256x128.Idx → EReal) (ix2 ⟨co.val, by have := co.isLt; omega⟩ l)
      = B1E m c (ix1 co) := by
  refine (congrFun (ent_v47 m ρ c) _).trans ?_
  exact FB_b1 _ _ co _ l
theorem Vent_fb_b2_lane (co : Fin 128) (l : Fin 128) :
    (Vent (F := Ideal) m ρ c main_v47 : S256x128.Idx → EReal) (ix2 ⟨128 + co.val, by have := co.isLt; omega⟩ l)
      = B2E m c (ix1 co) := by
  refine (congrFun (ent_v47 m ρ c) _).trans ?_
  exact FB_b2 _ _ co _ l
theorem Vent_fb_b1 (co : Fin 128) :
    (Vent (F := Ideal) m ρ c main_v47 : S256x128.Idx → EReal) (ix2 ⟨co.val, by have := co.isLt; omega⟩ 0)
      = B1E m c (ix1 co) := Vent_fb_b1_lane m ρ c co 0
theorem Vent_fb_b2 (co : Fin 128) :
    (Vent (F := Ideal) m ρ c main_v47 : S256x128.Idx → EReal) (ix2 ⟨128 + co.val, by have := co.isLt; omega⟩ 0)
      = B2E m c (ix1 co) := Vent_fb_b2_lane m ρ c co 0

/-- The packed weights, rows 0..1151: the first convolution's folded weight, tap `k = 3·kh + kw` at rows `128·k + co`. -/
theorem Vent_wa_w1 (k : Fin 9) (co : Fin 128) (ch : Fin 256) :
    (Vent (F := Ideal) m ρ c main_v42 : S2952x256.Idx → EReal)
        (ix2 ⟨k.val * 128 + co.val, by have := k.isLt; have := co.isLt; omega⟩ ch)
      = W1E m c (ix4 co ch ⟨k.val / 3, by have := k.isLt; omega⟩ ⟨k.val % 3, by omega⟩) := by
  have hk := k.isLt; have hco := co.isLt
  refine (congrFun (ent_v42 m ρ c) _).trans ?_
  refine (PACK_row _ _ _ _ _ (k.val * 128 + co.val) (by omega) _ ch).trans ?_
  refine (CAT_0 _ _ _ _ _ (k.val * 128 + co.val) (by omega) _ ch).trans ?_
  exact P21_apply _ k co ch _ _ _

/-- Rows 1152..2303: the second convolution's folded weight, in the first 128 columns. -/
theorem Vent_wa_w2 (k : Fin 9) (co cm : Fin 128) :
    (Vent (F := Ideal) m ρ c main_v42 : S2952x256.Idx → EReal)
        (ix2 ⟨1152 + k.val * 128 + co.val, by have := k.isLt; have := co.isLt; omega⟩ ⟨cm.val, by have := cm.isLt; omega⟩)
      = W2E m c (ix4 co cm ⟨k.val / 3, by have := k.isLt; omega⟩ ⟨k.val % 3, by omega⟩) := by
  have hk := k.isLt; have hco := co.isLt; have hcm := cm.isLt
  have e : (⟨1152 + k.val * 128 + co.val, by omega⟩ : Fin 2952) = ⟨1152 + (k.val * 128 + co.val), by omega⟩ :=
    Fin.ext (Nat.add_assoc _ _ _)
  rw [e]
  refine (congrFun (ent_v42 m ρ c) _).trans ?_
  refine (PACK_row _ _ _ _ _ (1152 + (k.val * 128 + co.val)) (by omega) _ _).trans ?_
  refine (CAT_1 _ _ _ _ _ (k.val * 128 + co.val) (by omega) _ _).trans ?_
  refine (P24_apply _ ⟨k.val * 128 + co.val, by omega⟩ cm _).trans ?_
  exact P23_apply _ k co cm _ _ _

/-- Rows 2304..2815: the transposed convolution's weight, row `256·di + ci`, column `128·dj + c'`. -/
theorem Vent_wa_wu (di : Fin 2) (ci : Fin 256) (dj : Fin 2) (c' : Fin 128) :
    (Vent (F := Ideal) m ρ c main_v42 : S2952x256.Idx → EReal)
        (ix2 ⟨2304 + di.val * 256 + ci.val, by have := di.isLt; have := ci.isLt; omega⟩
          ⟨dj.val * 128 + c'.val, by have := dj.isLt; have := c'.isLt; omega⟩)
      = (m ((c : Thread nD τ).loc main_arg2) : S256x128x2x2.Idx → EReal) (ix4 ci c' di dj) := by
  have hdi := di.isLt; have hci := ci.isLt; have hdj := dj.isLt; have hc' := c'.isLt
  have e : (⟨2304 + di.val * 256 + ci.val, by omega⟩ : Fin 2952) = ⟨2304 + (di.val * 256 + ci.val), by omega⟩ :=
    Fin.ext (Nat.add_assoc _ _ _)
  rw [e]
  refine (congrFun (ent_v42 m ρ c) _).trans ?_
  refine (PACK_row _ _ _ _ _ (2304 + (di.val * 256 + ci.val)) (by omega) _ _).trans ?_
  refine (CAT_2 _ _ _ _ _ (di.val * 256 + ci.val) (by omega) _ _).trans ?_
  exact P28_apply _ di ci dj c' _ _

/-- Rows 2816, 2817: the transposed convolution's bias, tiled over the four parities. -/
theorem Vent_wa_bt (di dj : Fin 2) (c' : Fin 128) :
    (Vent (F := Ideal) m ρ c main_v42 : S2952x256.Idx → EReal)
        (ix2 ⟨2816 + di.val, by have := di.isLt; omega⟩ ⟨dj.val * 128 + c'.val, by have := dj.isLt; have := c'.isLt; omega⟩)
      = (m ((c : Thread nD τ).loc main_arg3) : S128.Idx → EReal) (ix1 c') := by
  have hdi := di.isLt; have hdj := dj.isLt; have hc' := c'.isLt
  refine (congrFun (ent_v42 m ρ c) _).trans ?_
  refine (PACK_row _ _ _ _ _ (2816 + di.val) (by omega) _ _).trans ?_
  refine (CAT_3 _ _ _ _ _ di.val (by omega) _ _).trans ?_
  exact P32_apply _ di dj c' _

/-- Rows 2818..2945: the 128 × 128 identity, in the first 128 columns. -/
theorem Vent_wa_eye (i k : Fin 128) :
    (Vent (F := Ideal) m ρ c main_v42 : S2952x256.Idx → EReal)
        (ix2 ⟨2818 + i.val, by have := i.isLt; omega⟩ ⟨k.val, by have := k.isLt; omega⟩)
      = (if i = k then (1 : EReal) else 0) := by
  have hi := i.isLt; have hk := k.isLt
  refine (congrFun (ent_v42 m ρ c) _).trans ?_
  refine (PACK_row _ _ _ _ _ (2818 + i.val) (by omega) _ _).trans ?_
  refine (CAT_4 _ _ _ _ _ i.val (by omega) _ _).trans ?_
  exact P39_apply i k _

end Operands

end Cert.KernelIdeal.Hand

end
-- ==== Proof.MaskWords.lean ====
/-
  Word arithmetic behind a 0/1 mask over a flattened image with a ring of padding.

  A position `n` of the flattened padded image is reduced modulo the padded row length `d` by the host's signed
  remainder followed by the sign fix-up that makes the result take the divisor's sign (inert here: both are
  nonnegative); the mask is the conjunction of two signed comparisons of that remainder against small literals,
  converted to a float. For naturals below 2^31 every step is the natural-number one.
-/
import Idealize.ShloMosaic.PureOps.Ideal
import Idealize.ShloMosaic.Lib.WordArith

noncomputable section

namespace Cert.MaskWords

open Idealize.ShloMosaic Idealize.ShloMosaic.WordArith

/-- A natural below 2^31 reads back from its 32-bit word. -/
theorem toNat_small (n : ℕ) (h : n < 2 ^ 31) : (BitVec.ofNat 32 n).toNat = n := by
  rw [BitVec.toNat_ofNat]; exact Nat.mod_eq_of_lt (by omega)

/-- Its sign bit is clear. -/
theorem msb_small (n : ℕ) (h : n < 2 ^ 31) : (BitVec.ofNat 32 n).msb = false := by
  rw [BitVec.msb_eq_false_iff_two_mul_lt, toNat_small n h]; omega

/-- The guard against a zero divisor leaves a positive divisor alone. -/
theorem sel_guard (d : ℕ) (h0 : 0 < d) (h : d < 2 ^ 31) :
    Scalar.select (IntOp.cmpi .eq (BitVec.ofNat 32 d) 0#32) 1#32 (BitVec.ofNat 32 d) = BitVec.ofNat 32 d := by
  have hne : (BitVec.ofNat 32 d == 0#32) = false := by
    rw [beq_eq_false_iff_ne]
    intro e
    have := congrArg BitVec.toNat e
    rw [toNat_small d h] at this
    simp at this
    omega
  unfold Scalar.select IntOp.cmpi
  simp only [hne]
  rfl

/-- The signed remainder of two naturals below 2^31, the divisor positive, is the naturals' remainder, on any unit. -/
theorem remsi_small (u : ArithUnit) (n d : ℕ) (hn : n < 2 ^ 31) (h0 : 0 < d) (h : d < 2 ^ 31) :
    IntOp.remsi u (BitVec.ofNat 32 n) (BitVec.ofNat 32 d) = BitVec.ofNat 32 (n % d) := by
  have hd0 : ¬ (BitVec.ofNat 32 d = 0) := by
    intro e
    have := congrArg BitVec.toNat e
    rw [toNat_small d h] at this
    simp at this
    omega
  have hd1 : ¬ (BitVec.ofNat 32 d = -1) := by
    intro e
    have := congrArg BitVec.toNat e
    rw [toNat_small d h] at this
    simp at this
    omega
  have hc : ¬ IntOp.SDivCorner (BitVec.ofNat 32 n) (BitVec.ofNat 32 d) := by
    unfold IntOp.SDivCorner
    rintro (e | ⟨_, e⟩)
    · exact hd0 e
    · exact hd1 e
  unfold IntOp.remsi
  rw [if_neg hc]
  apply BitVec.eq_of_toNat_eq
  have hlt : n % d < 2 ^ 31 := lt_of_le_of_lt (Nat.mod_le n d) hn
  rw [BitVec.srem, msb_small n hn, msb_small d h]
  show (BitVec.ofNat 32 n % BitVec.ofNat 32 d).toNat = _
  rw [BitVec.toNat_umod, toNat_small n hn, toNat_small d h, toNat_small _ hlt]

/-- A natural below 2^31 is not negative read signed. -/
theorem slt_zero_small (k : ℕ) (h : k < 2 ^ 31) : IntOp.cmpi .slt (BitVec.ofNat 32 k) 0#32 = 0#1 := by
  unfold IntOp.cmpi
  have : (BitVec.ofNat 32 k).slt 0#32 = false := by
    rw [BitVec.slt, toInt_ofNat_small k h]
    simp
  simp only [this]
  rfl

/-- A one-bit word is not different from itself. -/
theorem ne_self (b : BitVec 1) : IntOp.cmpi .ne b b = 0#1 := by
  unfold IntOp.cmpi
  simp

/-- The conjunction with a clear bit is clear. -/
theorem andi_zero_left (b : BitVec 1) : IntOp.andi 0#1 b = 0#1 := by
  unfold IntOp.andi
  simp

/-- The remainder that takes the divisor's sign (the host's signed remainder under the zero-divisor guard, then the sign
    fix-up) of two naturals below 2^31, the divisor positive: the naturals' remainder. -/
theorem floor_rem (n d : ℕ) (hn : n < 2 ^ 31) (h0 : 0 < d) (h : d < 2 ^ 31) :
    Scalar.select
        (IntOp.andi
          (IntOp.cmpi .ne
            (IntOp.cmpi .slt (IntOp.remsi .host (BitVec.ofNat 32 n) (Scalar.select (IntOp.cmpi .eq (BitVec.ofNat 32 d) 0#32) 1#32 (BitVec.ofNat 32 d))) 0#32)
            (IntOp.cmpi .slt (Scalar.select (IntOp.cmpi .eq (BitVec.ofNat 32 d) 0#32) 1#32 (BitVec.ofNat 32 d)) 0#32))
          (IntOp.cmpi .ne (IntOp.remsi .host (BitVec.ofNat 32 n) (Scalar.select (IntOp.cmpi .eq (BitVec.ofNat 32 d) 0#32) 1#32 (BitVec.ofNat 32 d))) 0#32))
        (IntOp.addi (IntOp.remsi .host (BitVec.ofNat 32 n) (Scalar.select (IntOp.cmpi .eq (BitVec.ofNat 32 d) 0#32) 1#32 (BitVec.ofNat 32 d)))
          (Scalar.select (IntOp.cmpi .eq (BitVec.ofNat 32 d) 0#32) 1#32 (BitVec.ofNat 32 d)))
        (IntOp.remsi .host (BitVec.ofNat 32 n) (Scalar.select (IntOp.cmpi .eq (BitVec.ofNat 32 d) 0#32) 1#32 (BitVec.ofNat 32 d)))
      = BitVec.ofNat 32 (n % d) := by
  have hlt : n % d < 2 ^ 31 := lt_of_le_of_lt (Nat.mod_le n d) hn
  rw [sel_guard d h0 h, remsi_small .host n d hn h0 h, slt_zero_small _ hlt, slt_zero_small d h, ne_self, andi_zero_left]
  rfl

/-- Signed comparisons of naturals below 2^31 are the naturals'. -/
theorem sge_small (k b : ℕ) (hk : k < 2 ^ 31) (hb : b < 2 ^ 31) :
    IntOp.cmpi .sge (BitVec.ofNat 32 k) (BitVec.ofNat 32 b) = BitVec.ofBool (decide (b ≤ k)) := by
  unfold IntOp.cmpi
  show BitVec.ofBool ((BitVec.ofNat 32 b).sle (BitVec.ofNat 32 k)) = _
  rw [BitVec.sle, toInt_ofNat_small k hk, toInt_ofNat_small b hb]
  simp
theorem slt_small (k b : ℕ) (hk : k < 2 ^ 31) (hb : b < 2 ^ 31) :
    IntOp.cmpi .slt (BitVec.ofNat 32 k) (BitVec.ofNat 32 b) = BitVec.ofBool (decide (k < b)) := by
  unfold IntOp.cmpi
  show BitVec.ofBool ((BitVec.ofNat 32 k).slt (BitVec.ofNat 32 b)) = _
  rw [BitVec.slt, toInt_ofNat_small k hk, toInt_ofNat_small b hb]
  simp
theorem sle_small (k b : ℕ) (hk : k < 2 ^ 31) (hb : b < 2 ^ 31) :
    IntOp.cmpi .sle (BitVec.ofNat 32 k) (BitVec.ofNat 32 b) = BitVec.ofBool (decide (k ≤ b)) := by
  unfold IntOp.cmpi
  show BitVec.ofBool ((BitVec.ofNat 32 k).sle (BitVec.ofNat 32 b)) = _
  rw [BitVec.sle, toInt_ofNat_small k hk, toInt_ofNat_small b hb]
  simp

/-- A one-bit word converted to an ideal float is 1 or 0. -/
theorem uitofp_ofBool (b : Bool) :
    (FloatOps.uitofp (F := Ideal) .f32 (BitVec.ofBool b) : EReal) = if b then 1 else 0 := by
  cases b
  · show (((0 : ℕ) : ℝ) : EReal) = 0
    simp
  · show (((1 : ℕ) : ℝ) : EReal) = 1
    simp

/-- The mask word "lo ≤ k < hi" on naturals below 2^31, as an ideal float. -/
theorem mask_ge_lt (k lo hi : ℕ) (hk : k < 2 ^ 31) (hlo : lo < 2 ^ 31) (hhi : hi < 2 ^ 31) :
    (FloatOps.uitofp (F := Ideal) .f32
        (IntOp.andi (IntOp.cmpi .sge (BitVec.ofNat 32 k) (BitVec.ofNat 32 lo)) (IntOp.cmpi .slt (BitVec.ofNat 32 k) (BitVec.ofNat 32 hi))) : EReal)
      = if lo ≤ k ∧ k < hi then 1 else 0 := by
  rw [sge_small k lo hk hlo, slt_small k hi hk hhi, andi_ofBool, uitofp_ofBool]
  by_cases h1 : lo ≤ k <;> by_cases h2 : k < hi <;> simp [h1, h2]

/-- The mask word "lo ≤ k ≤ hi" on naturals below 2^31, as an ideal float. -/
theorem mask_ge_le (k lo hi : ℕ) (hk : k < 2 ^ 31) (hlo : lo < 2 ^ 31) (hhi : hi < 2 ^ 31) :
    (FloatOps.uitofp (F := Ideal) .f32
        (IntOp.andi (IntOp.cmpi .sge (BitVec.ofNat 32 k) (BitVec.ofNat 32 lo)) (IntOp.cmpi .sle (BitVec.ofNat 32 k) (BitVec.ofNat 32 hi))) : EReal)
      = if lo ≤ k ∧ k ≤ hi then 1 else 0 := by
  rw [sge_small k lo hk hlo, sle_small k hi hk hhi, andi_ofBool, uitofp_ofBool]
  by_cases h1 : lo ≤ k <;> by_cases h2 : k ≤ hi <;> simp [h1, h2]

end Cert.MaskWords

end
-- ==== Proof.KMask.lean ====
/-
  The kernel program's column mask, read at an index.

  Column `j` of the flattened padded image (64 rows of 72 columns) is a real pixel exactly when its position in its
  row, `j % 72`, lies in 4 … 67. The host computes the positions as the remainder of the column numbers by 72, compares
  them against 4 and 68, and converts the conjunction to a float: the mask is 1 on those columns and 0 elsewhere.
-/
import proofs.«126750_g2000606872001322_pallasbulk_142_34_alg».proof.Proof.KIFrame
import proofs.«126750_g2000606872001322_pallasbulk_142_34_alg».proof.Proof.MaskWords
import Idealize.ShloMosaic.Lib.ValueIdx
import Idealize.ShloMosaic.Lib.ValueLayout

noncomputable section

namespace Cert.KernelIdeal.Hand

open Cert.KernelIdeal Cert.KernelIdeal.Gen
open Idealize.ShloMosaic Idealize.ShloMosaic.TcCoe Idealize.ShloMosaic.StableHlo Idealize.ShloMosaic.ValueIdx

namespace Mask

/-- The remainder stretch as one term of the column numbers `x` and the divisor `y`: the divisor guarded against
    zero, the signed remainder, and the fix-up that gives the result the divisor's sign. -/
def remTerm (x : S4608.Idx → BitVec 32) (y : S_.Idx → BitVec 32) : S4608.Idx → BitVec 32 :=
  let d : S_.Idx → BitVec 32 := select (cmpi .eq y (constantI S_ 32 0#32)) (constantI S_ 32 1#32) y
  let r : S4608.Idx → BitVec 32 := Host.remsi x (broadcastInDim S4608 ![] bcast_S_S4608 d)
  select
    (andi
      (cmpi .ne (cmpi .slt r (broadcastInDim S4608 ![] bcast_S_S4608 (constantI S_ 32 0#32)))
        (broadcastInDim S4608 ![] bcast_S_S4608 (cmpi .slt d (constantI S_ 32 0#32))))
      (cmpi .ne r (broadcastInDim S4608 ![] bcast_S_S4608 (constantI S_ 32 0#32))))
    (addi r (broadcastInDim S4608 ![] bcast_S_S4608 d)) r

/-- The comparison stretch as one term of the positions `k`: 1 where `4 ≤ k < 68`, as a one-row array. -/
def maskTerm (k : S4608.Idx → BitVec 32) : S1x4608.Idx → EReal :=
  shapeCast S1x4608
    (uitofp (F := Ideal) .f32
      (andi (cmpi .sge k (broadcastInDim S4608 ![] bcast_S_S4608 (constantI S_ 32 4#32)))
        (cmpi .slt k (broadcastInDim S4608 ![] bcast_S_S4608 (constantI S_ 32 68#32)))) : S4608.Idx → EReal)
    shapeCasts_S4608_S1x4608

/-- The seventh stretch leaves the column numbers 0 … 4607 and the padded row length 72, from any contents. -/
theorem after6_v50 (V : Valuation τ sig (Elt Ideal)) :
    (StableHlo.after hostOps0_6 V (Proc.devRef .tc main_v50) : S4608.Idx → BitVec 32) = iotaInDim S4608 32 0 := by
  after_results
theorem after6_c4 (V : Valuation τ sig (Elt Ideal)) :
    (StableHlo.after hostOps0_6 V (Proc.devRef .tc main_c_4) : S_.Idx → BitVec 32) = constantI S_ 32 72#32 := by
  after_results

set_option maxHeartbeats 4000000 in
/-- The eighth stretch leaves the remainder term of the two. -/
theorem after7_v51 (V : Valuation τ sig (Elt Ideal)) :
    (StableHlo.after hostOps0_7 V (Proc.devRef .tc main_v51) : S4608.Idx → BitVec 32)
      = remTerm (V (Proc.devRef .tc main_v50)) (V (Proc.devRef .tc main_c_4)) := by
  simp only [hostOps0_7]; after_results_simp <;> rfl

set_option maxHeartbeats 4000000 in
/-- The ninth stretch leaves the mask term of the positions. -/
theorem after8_v58 (V : Valuation τ sig (Elt Ideal)) :
    (StableHlo.after hostOps0_8 V (Proc.devRef .tc main_v58) : S1x4608.Idx → EReal)
      = maskTerm (V (Proc.devRef .tc main_v51)) := by
  simp only [hostOps0_8]; after_results_simp <;> rfl

/-- The remainder term of the column numbers by 72, at a column: its position in its row. -/
theorem remTerm_apply (i : S4608.Idx) :
    remTerm (iotaInDim S4608 32 0) (constantI S_ 32 72#32) i = BitVec.ofNat 32 ((i 0).val % 72) := by
  have hi : (i 0).val < 4608 := (i 0).isLt
  exact MaskWords.floor_rem (i 0).val 72 (by omega) (by omega) (by omega)

/-- The mask term of the positions, at a column. -/
theorem maskTerm_apply (j : Fin 4608) :
    maskTerm (fun i => BitVec.ofNat 32 ((i 0).val % 72)) (ix2 (0 : Fin 1) j)
      = if 4 ≤ j.val % 72 ∧ j.val % 72 < 68 then (1 : EReal) else 0 := by
  have hk : j.val % 72 < 2 ^ 31 := lt_of_le_of_lt (Nat.mod_le _ _) (by have := j.isLt; omega)
  unfold maskTerm
  rw [shapeCast_a_1a_apply]
  exact MaskWords.mask_ge_lt (j.val % 72) 4 68 hk (by omega) (by omega)

end Mask

variable (m : (ℓ : Loc nD τ sig) → Buf (Elt Ideal) ℓ) (ρ : Dev nD → PrngReg)

/-- THE MASK: at the region's entry, column `j` of the mask operand holds 1 when `4 ≤ j % 72 < 68` and 0 otherwise. -/
theorem Vent_mask (c : Dev nD) (j : Fin 4608) :
    (Vent (F := Ideal) m ρ c main_v58 : S1x4608.Idx → EReal) (ix2 (0 : Fin 1) j)
      = if 4 ≤ j.val % 72 ∧ j.val % 72 < 68 then (1 : EReal) else 0 := by
  show StableHlo.after hostOps0_8 (StableHlo.after hostOps0_7 (StableHlo.after hostOps0_6 (W6 m ρ c))) (Proc.devRef .tc main_v58) (ix2 (0 : Fin 1) j) = _
  rw [Mask.after8_v58, Mask.after7_v51, Mask.after6_v50, Mask.after6_c4]
  rw [show Mask.remTerm (iotaInDim S4608 32 0) (constantI S_ 32 72#32) = fun i => BitVec.ofNat 32 ((i 0).val % 72) from funext Mask.remTerm_apply]
  exact Mask.maskTerm_apply j

end Cert.KernelIdeal.Hand

end
-- ==== Proof.KCanon.lean ====
/-
  Reading a buffer that a list of slice stores filled, one store at a time and many tiles at once.

  A list of stores is written newest first, and the newest store whose rectangle holds an index decides what is read
  there. Two one-step readings for a unit-stride rectangle (under it: its payload at the index minus the offsets; off it
  on one axis: what the rest of the list left), and a reading of a whole run of equal-sized tiles that are all blocks of
  ONE function `G` of the buffer's index, written over whatever earlier stores there were: under some tile the buffer
  reads `G`, off every tile it reads what the earlier stores left.
-/
import Idealize.ShloMosaic.Lib.Pipeline.Value

noncomputable section

namespace Cert.KernelIdeal.Hand

open Idealize.ShloMosaic

variable {Val : EltTy → Type} [∀ e, Nonempty (Val e)] {S : Shape} {e : EltTy}

/-- An index at position `x` of the newest store's unit-stride rectangle reads that store's payload at `x`. -/
theorem canon_cons_unit_of_mem {off size : Fin S.rank → ℕ} (inb : ∀ a, off a + size a ≤ S.size a)
    (w : (Rect.unit off size inb).shape.Idx → Val e) (L : List (View.Piece Val S e)) (y : S.Idx)
    (x : (Rect.unit off size inb).shape.Idx) (hx : ∀ a, (y a).val = off a + (x a).val) :
    View.canon ((⟨Rect.unit off size inb, w⟩ : View.Piece Val S e) :: L) y = w x := by
  have hy : (Rect.unit off size inb).emb x = y := funext fun a => Fin.ext (by
    show off a + 1 * (x a).val = (y a).val
    rw [hx a, Nat.one_mul])
  rw [← hy]
  exact View.canon_cons_emb _ w L x

/-- An index that misses the newest store's unit-stride rectangle on axis `a` reads what the rest of the list left. -/
theorem canon_cons_unit_of_not_mem {off size : Fin S.rank → ℕ} (inb : ∀ a, off a + size a ≤ S.size a)
    (w : (Rect.unit off size inb).shape.Idx → Val e) (L : List (View.Piece Val S e)) (y : S.Idx) (a : Fin S.rank)
    (ha : (y a).val < off a ∨ off a + size a ≤ (y a).val) :
    View.canon ((⟨Rect.unit off size inb, w⟩ : View.Piece Val S e) :: L) y = View.canon L y := by
  refine View.canon_cons_of_not_mem _ L ?_
  rw [Rect.mem_set_unit]
  intro hall
  have := hall a
  omega

/-- `TilesThen G size offOf L' os L`: the list `L` is, newest first, one store per number `o` of `os` through the
    unit-stride rectangle of sizes `size` at offsets `offOf o`, each store's payload the block of `G` under its rectangle,
    followed by the earlier stores `L'`. -/
inductive TilesThen (G : S.Idx → Val e) (size : Fin S.rank → ℕ) (offOf : ℕ → Fin S.rank → ℕ)
    (L' : List (View.Piece Val S e)) : List ℕ → List (View.Piece Val S e) → Prop
  | done : TilesThen G size offOf L' [] L'
  | cons (o : ℕ) (inb : ∀ a, offOf o a + size a ≤ S.size a)
      (w : (Rect.unit (offOf o) size inb).shape.Idx → Val e)
      (hw : ∀ x, w x = G ((Rect.unit (offOf o) size inb).emb x)) {os : List ℕ} {L : List (View.Piece Val S e)}
      (h : TilesThen G size offOf L' os L) :
      TilesThen G size offOf L' (o :: os) ((⟨Rect.unit (offOf o) size inb, w⟩ : View.Piece Val S e) :: L)

/-- Under one of the tiles the buffer reads `G` (every newer tile that also holds the index is a block of `G` too). -/
theorem TilesThen.canon_of_mem {G : S.Idx → Val e} {size : Fin S.rank → ℕ} {offOf : ℕ → Fin S.rank → ℕ}
    {L' : List (View.Piece Val S e)} {os : List ℕ} {L : List (View.Piece Val S e)} (h : TilesThen G size offOf L' os L)
    (y : S.Idx) (o : ℕ) (ho : o ∈ os) (hy : ∀ a, offOf o a ≤ (y a).val ∧ (y a).val < offOf o a + size a) :
    View.canon L y = G y := by
  induction h with
  | done => exact absurd ho List.not_mem_nil
  | cons o' inb w hw h ih =>
    by_cases hm : y ∈ (Rect.unit (offOf o') size inb).set
    · obtain ⟨x, rfl⟩ := (Rect.unit (offOf o') size inb).exists_idx_of_mem hm
      rw [show (Rect.unit (offOf o') size inb).idx x = (Rect.unit (offOf o') size inb).emb x from rfl,
        View.canon_cons_emb]
      exact hw x
    · rw [View.canon_cons_of_not_mem _ _ hm]
      rcases List.mem_cons.mp ho with rfl | ho'
      · exact absurd (Rect.mem_set_unit.mpr hy) hm
      · exact ih ho'

/-- Off every tile the buffer reads what the earlier stores left. -/
theorem TilesThen.canon_of_not_mem {G : S.Idx → Val e} {size : Fin S.rank → ℕ} {offOf : ℕ → Fin S.rank → ℕ}
    {L' : List (View.Piece Val S e)} {os : List ℕ} {L : List (View.Piece Val S e)} (h : TilesThen G size offOf L' os L)
    (y : S.Idx) (hy : ∀ o ∈ os, ∃ a, (y a).val < offOf o a ∨ offOf o a + size a ≤ (y a).val) :
    View.canon L y = View.canon L' y := by
  induction h with
  | done => rfl
  | cons o' inb w hw h ih =>
    obtain ⟨a, ha⟩ := hy o' List.mem_cons_self
    rw [canon_cons_unit_of_not_mem inb w _ y a ha]
    exact ih fun o ho => hy o (List.mem_cons_of_mem _ ho)

end Cert.KernelIdeal.Hand

end
-- ==== Proof.KDefs.lean ====
/-
  What each of the body's four scratch buffers holds when the body reads it, named once.

  The run of the body leaves, for each scratch buffer, the list of slice stores made into it before it is read (newest
  first). What a later load reads of the buffer is the newest store under each index: `View.canon` of that list. Here
  those four contents are named (the upconv planes, the upsampled rows, the concatenated slab, the hidden slab), each also
  as a function of plain natural coordinates (0 outside the buffer), together with the parameters of the two convolutions
  as the packed weight and bias arrays hold them, tap by tap.
-/
import proofs.«126750_g2000606872001322_pallasbulk_142_34_alg».proof.Proof.KIBody
import Idealize.ShloMosaic.Lib.ValueIdx
import Idealize.ShloMosaic.Lib.Pipeline.Value

noncomputable section

namespace Cert.KernelIdeal.Hand

open Idealize.ShloMosaic Idealize.ShloMosaic.ValueIdx Cert.KernelIdeal Cert.KernelIdeal.Gen

variable (c : Dev nD) (arg1 : Memref sig .tc .vmem S1x256x1024 .f32) (harg1 : arg1.IsWhole) (arg2 : Memref sig .tc .vmem S1x128x4096 .f32) (harg2 : arg2.IsWhole) (arg3 : Memref sig .tc .vmem S2952x256 .bf16) (harg3 : arg3.IsWhole) (arg4 : Memref sig .tc .vmem S256x128 .f32) (harg4 : arg4.IsWhole) (arg5 : Memref sig .tc .vmem S1x4608 .f32) (harg5 : arg5.IsWhole) (arg7 : Memref sig .tc .vmem S256x4864 .bf16) (arg8 : Memref sig .tc .vmem S128x4864 .bf16) (arg9 : Memref sig .tc .vmem S1024x512 .f32) (arg10 : Memref sig .tc .vmem S4864x128 .bf16)
  (x0 : Vec Ideal S1x256x1024 .f32) (x1 : Vec Ideal S1x128x4096 .f32) (x2 : Vec Ideal S2952x256 .bf16) (x3 : Vec Ideal S256x128 .f32) (x4 : Vec Ideal S1x4608 .f32)

/-- The upconv planes buffer [1024,512] after its two plane stores. -/
def PsC : S1024x512.Idx → EReal :=
  View.canon (kernelRun0_A.sl.HS2_2 (F := Ideal) c arg1 harg1 arg3 harg3 x0 x2)
/-- The upsampled-rows buffer [4864,128] after its zero fill and its 64 row-block stores. -/
def UpsC : S4864x128.Idx → EReal :=
  View.canon (kernelRun0_A.sl.HS3_65 (F := Ideal) c arg1 harg1 arg3 harg3 arg9 x0 x2)
/-- The concatenated slab [256,4864] after the zero fill of its lower half, the 64 skip-image stores and the upper half's store. -/
def SlabC : S256x4864.Idx → EReal :=
  View.canon (kernelRun0_A.sl.HS0_66 (F := Ideal) c arg1 harg1 arg2 harg2 arg3 harg3 arg9 arg10 x0 x1 x2)
/-- The hidden slab [128,4864] after its two zero margins and its band store. -/
def HsC : S128x4864.Idx → EReal :=
  View.canon (kernelRun0_A.sl.HS1_3 (F := Ideal) c arg1 harg1 arg2 harg2 arg3 harg3 arg4 harg4 arg5 harg5 arg7 arg9 arg10 x0 x1 x2 x3 x4)

/-- The same four over natural coordinates, 0 outside the buffer. -/
def PsN (p q : ℕ) : EReal :=
  if h : p < 1024 ∧ q < 512 then PsC c arg1 harg1 arg3 harg3 x0 x2 (ix2 ⟨p, h.1⟩ ⟨q, h.2⟩) else 0
def UpsN (p : ℕ) (k : Fin 128) : EReal :=
  if h : p < 4864 then UpsC c arg1 harg1 arg3 harg3 arg9 x0 x2 (ix2 ⟨p, h⟩ k) else 0
def SlabN (ch : Fin 256) (p : ℕ) : EReal :=
  if h : p < 4864 then SlabC c arg1 harg1 arg2 harg2 arg3 harg3 arg9 arg10 x0 x1 x2 (ix2 ch ⟨p, h⟩) else 0
def HsN (cm : Fin 128) (p : ℕ) : EReal :=
  if h : p < 4864 then HsC c arg1 harg1 arg2 harg2 arg3 harg3 arg4 harg4 arg5 harg5 arg7 arg9 arg10 x0 x1 x2 x3 x4 (ix2 cm ⟨p, h⟩) else 0

/-- Tap `k` of the first convolution's weights: rows 128·k … of the packed weight array. -/
def w1k (k : Fin 9) (cm : Fin 128) (ch : Fin 256) : EReal :=
  x2 (ix2 ⟨k.val * 128 + cm.val, by have := k.isLt; have := cm.isLt; omega⟩ ch)
/-- Tap `k` of the second convolution's weights: rows 1152 + 128·k …, the first 128 columns. -/
def w2k (k : Fin 9) (co : Fin 128) (cm : Fin 128) : EReal :=
  x2 (ix2 ⟨1152 + k.val * 128 + co.val, by have := k.isLt; have := co.isLt; omega⟩ ⟨cm.val, by have := cm.isLt; omega⟩)
/-- The two folded biases: column 0 of the bias array, rows 0…127 and 128…255. -/
def b1v (cm : Fin 128) : EReal := x3 (ix2 ⟨cm.val, by have := cm.isLt; omega⟩ 0)
def b2v (co : Fin 128) : EReal := x3 (ix2 ⟨128 + co.val, by have := co.isLt; omega⟩ 0)
/-- The column mask over natural positions, 0 beyond the band. -/
def mN (j : ℕ) : EReal := if h : j < 4608 then x4 (ix2 0 ⟨j, h⟩) else 0

end Cert.KernelIdeal.Hand

end
-- ==== Proof.KPay.lean ====
/-
  The body's arithmetic read at one index, over plain vectors.

  Every store of the body writes a value computed from loaded vectors by matrix products onto a zero accumulator, sums,
  maxima, products, broadcasts, slices and reshapes. Read at the ideal values, each of these at an output index is the
  textbook expression in the operands' entries: a product is the sum over the contracted coordinate, a change of float
  format is the identity, a reshape or slice reads one entry of its operand. These are the index forms the readings of the
  scratch buffers are built from.
-/
import proofs.«126750_g2000606872001322_pallasbulk_142_34_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Hand

open Idealize.ShloMosaic Idealize.ShloMosaic.ValueIdx Cert.KernelIdeal Cert.KernelIdeal.Gen
open scoped BigOperators

/-! ## The four matrix products, each read at an output index

Every product of the body accumulates onto the zero array, so at an output index it is the plain sum over the one
contracted coordinate of the products of the two operands' entries. -/

/-- The transposed-convolution product: the low-resolution sample (channels × positions), transposed, times one weight plane (channels × columns): at (position, column) the sum over the input channels. -/
theorem mm_up_apply (l : FVec Ideal S256x1024 .bf16) (r : FVec Ideal S256x256 .bf16) (p : Fin 1024) (q : Fin 256) :
    matmul dot_S256x1024_S256x256_S1024x256_0_0_1_1_n_n none l r (constant (F := Ideal) S1024x256 .f32 0x00000000#32) (ix2 p q)
      = ∑ k : Fin 256, l (ix2 k p) * r (ix2 k q) := by
  show FloatOps.matmul _ none l r _ (ix2 p q) = _
  rw [Ideal.matmul_constant_zero_apply, ← Equiv.sum_comp (contrEquiv1 dot_S256x1024_S256x256_S1024x256_0_0_1_1_n_n 256 rfl rfl).symm]
  refine Finset.sum_congr rfl fun k _ => ?_
  have c2 := contrEquiv1_symm_val dot_S256x1024_S256x256_S1024x256_0_0_1_1_n_n 256 rfl rfl k
  have l2 : dot_S256x1024_S256x256_S1024x256_0_0_1_1_n_n.lhsIdx (ix2 p q) ((contrEquiv1 _ 256 rfl rfl).symm k) = ix2 k p := by
    funext ax; apply Fin.ext
    match ax with
    | ⟨0, _⟩ => simp [DotDims.lhsIdx, dot_S256x1024_S256x256_S1024x256_0_0_1_1_n_n]; first | exact c2 | rfl
    | ⟨1, _⟩ => simp [DotDims.lhsIdx, dot_S256x1024_S256x256_S1024x256_0_0_1_1_n_n]; first | exact c2 | rfl
  have r2 : dot_S256x1024_S256x256_S1024x256_0_0_1_1_n_n.rhsIdx (ix2 p q) ((contrEquiv1 _ 256 rfl rfl).symm k) = ix2 k q := by
    funext ax; apply Fin.ext
    match ax with
    | ⟨0, _⟩ => simp [DotDims.rhsIdx, dot_S256x1024_S256x256_S1024x256_0_0_1_1_n_n]; first | exact c2 | rfl
    | ⟨1, _⟩ => simp [DotDims.rhsIdx, dot_S256x1024_S256x256_S1024x256_0_0_1_1_n_n]; first | exact c2 | rfl
  rw [l2, r2]

/-- The product that transposes the upsampled rows into the slab: both operands contracted on their channel axis. -/
theorem mm_tr_apply (l : FVec Ideal S128x128 .bf16) (r : FVec Ideal S4864x128 .bf16) (c : Fin 128) (p : Fin 4864) :
    matmul dot_S128x128_S4864x128_S128x4864_0_1_1_0_n_n none l r (constant (F := Ideal) S128x4864 .f32 0x00000000#32) (ix2 c p)
      = ∑ k : Fin 128, l (ix2 k c) * r (ix2 p k) := by
  show FloatOps.matmul _ none l r _ (ix2 c p) = _
  rw [Ideal.matmul_constant_zero_apply, ← Equiv.sum_comp (contrEquiv1 dot_S128x128_S4864x128_S128x4864_0_1_1_0_n_n 128 rfl rfl).symm]
  refine Finset.sum_congr rfl fun k _ => ?_
  have c2 := contrEquiv1_symm_val dot_S128x128_S4864x128_S128x4864_0_1_1_0_n_n 128 rfl rfl k
  have l2 : dot_S128x128_S4864x128_S128x4864_0_1_1_0_n_n.lhsIdx (ix2 c p) ((contrEquiv1 _ 128 rfl rfl).symm k) = ix2 k c := by
    funext ax; apply Fin.ext
    match ax with
    | ⟨0, _⟩ => simp [DotDims.lhsIdx, dot_S128x128_S4864x128_S128x4864_0_1_1_0_n_n]; first | exact c2 | rfl
    | ⟨1, _⟩ => simp [DotDims.lhsIdx, dot_S128x128_S4864x128_S128x4864_0_1_1_0_n_n]; first | exact c2 | rfl
  have r2 : dot_S128x128_S4864x128_S128x4864_0_1_1_0_n_n.rhsIdx (ix2 c p) ((contrEquiv1 _ 128 rfl rfl).symm k) = ix2 p k := by
    funext ax; apply Fin.ext
    match ax with
    | ⟨0, _⟩ => simp [DotDims.rhsIdx, dot_S128x128_S4864x128_S128x4864_0_1_1_0_n_n]; first | exact c2 | rfl
    | ⟨1, _⟩ => simp [DotDims.rhsIdx, dot_S128x128_S4864x128_S128x4864_0_1_1_0_n_n]; first | exact c2 | rfl
  rw [l2, r2]

/-- One tap of the first convolution: a weight block (output channel × input channel) times a window of the slab (input channel × position). -/
theorem mm_conv1_apply (l : FVec Ideal S128x256 .bf16) (r : FVec Ideal S256x4608 .bf16) (c : Fin 128) (j : Fin 4608) :
    matmul dot_S128x256_S256x4608_S128x4608_1_0_0_1_n_n none l r (constant (F := Ideal) S128x4608 .f32 0x00000000#32) (ix2 c j)
      = ∑ k : Fin 256, l (ix2 c k) * r (ix2 k j) := by
  show FloatOps.matmul _ none l r _ (ix2 c j) = _
  rw [Ideal.matmul_constant_zero_apply, ← Equiv.sum_comp (contrEquiv1 dot_S128x256_S256x4608_S128x4608_1_0_0_1_n_n 256 rfl rfl).symm]
  refine Finset.sum_congr rfl fun k _ => ?_
  have c2 := contrEquiv1_symm_val dot_S128x256_S256x4608_S128x4608_1_0_0_1_n_n 256 rfl rfl k
  have l2 : dot_S128x256_S256x4608_S128x4608_1_0_0_1_n_n.lhsIdx (ix2 c j) ((contrEquiv1 _ 256 rfl rfl).symm k) = ix2 c k := by
    funext ax; apply Fin.ext
    match ax with
    | ⟨0, _⟩ => simp [DotDims.lhsIdx, dot_S128x256_S256x4608_S128x4608_1_0_0_1_n_n]; first | exact c2 | rfl
    | ⟨1, _⟩ => simp [DotDims.lhsIdx, dot_S128x256_S256x4608_S128x4608_1_0_0_1_n_n]; first | exact c2 | rfl
  have r2 : dot_S128x256_S256x4608_S128x4608_1_0_0_1_n_n.rhsIdx (ix2 c j) ((contrEquiv1 _ 256 rfl rfl).symm k) = ix2 k j := by
    funext ax; apply Fin.ext
    match ax with
    | ⟨0, _⟩ => simp [DotDims.rhsIdx, dot_S128x256_S256x4608_S128x4608_1_0_0_1_n_n]; first | exact c2 | rfl
    | ⟨1, _⟩ => simp [DotDims.rhsIdx, dot_S128x256_S256x4608_S128x4608_1_0_0_1_n_n]; first | exact c2 | rfl
  rw [l2, r2]

/-- One tap of the second convolution: a weight block times a window of the hidden slab. -/
theorem mm_conv2_apply (l : FVec Ideal S128x128 .bf16) (r : FVec Ideal S128x4608 .bf16) (c : Fin 128) (j : Fin 4608) :
    matmul dot_S128x128_S128x4608_S128x4608_1_0_0_1_n_n none l r (constant (F := Ideal) S128x4608 .f32 0x00000000#32) (ix2 c j)
      = ∑ k : Fin 128, l (ix2 c k) * r (ix2 k j) := by
  show FloatOps.matmul _ none l r _ (ix2 c j) = _
  rw [Ideal.matmul_constant_zero_apply, ← Equiv.sum_comp (contrEquiv1 dot_S128x128_S128x4608_S128x4608_1_0_0_1_n_n 128 rfl rfl).symm]
  refine Finset.sum_congr rfl fun k _ => ?_
  have c2 := contrEquiv1_symm_val dot_S128x128_S128x4608_S128x4608_1_0_0_1_n_n 128 rfl rfl k
  have l2 : dot_S128x128_S128x4608_S128x4608_1_0_0_1_n_n.lhsIdx (ix2 c j) ((contrEquiv1 _ 128 rfl rfl).symm k) = ix2 c k := by
    funext ax; apply Fin.ext
    match ax with
    | ⟨0, _⟩ => simp [DotDims.lhsIdx, dot_S128x128_S128x4608_S128x4608_1_0_0_1_n_n]; first | exact c2 | rfl
    | ⟨1, _⟩ => simp [DotDims.lhsIdx, dot_S128x128_S128x4608_S128x4608_1_0_0_1_n_n]; first | exact c2 | rfl
  have r2 : dot_S128x128_S128x4608_S128x4608_1_0_0_1_n_n.rhsIdx (ix2 c j) ((contrEquiv1 _ 128 rfl rfl).symm k) = ix2 k j := by
    funext ax; apply Fin.ext
    match ax with
    | ⟨0, _⟩ => simp [DotDims.rhsIdx, dot_S128x128_S128x4608_S128x4608_1_0_0_1_n_n]; first | exact c2 | rfl
    | ⟨1, _⟩ => simp [DotDims.rhsIdx, dot_S128x128_S128x4608_S128x4608_1_0_0_1_n_n]; first | exact c2 | rfl
  rw [l2, r2]

/-! ## Zero constants -/

/-- The half-precision zero word is the extended real zero. -/
theorem ofBits_zero_bf16 : (Scalar.ofBits .bf16 0x0000#16 : Ideal .bf16) = 0 := by
  show Ideal.ofBits .bf16 0x0000#16 = 0
  simp [Ideal.ofBits, Ideal.ieee]

/-- The single-precision zero word, as a scalar, is the extended real zero. -/
theorem ofBits_zero_f32' : (Scalar.ofBits .f32 0x00000000#32 : Ideal .f32) = 0 := by
  show Ideal.ofBits .f32 0x00000000#32 = 0
  exact Ideal.ofBits_zero_f32

/-! ## Layout operations of the body read at an index -/

/-- The reshape of a 32×256 block of the planes to 64×128 (each row of 256 lanes becomes two rows of 128), narrowed to half
    precision (the identity on values): entry (m, c) is the block's entry (m / 2, (m % 2)·128 + c). -/
theorem reshape_apply (v : FVec Ideal S32x256 .f32) (m : Fin 64) (c : Fin 128) :
    (shapeCast S64x128 (truncf .bf16 (shapeCast S64x128 v shapeCasts_S32x256_S64x128) bitsLt_bf16_f32)
        shapeCasts_S64x128_S64x128 : FVec Ideal S64x128 .bf16) (ix2 m c)
      = v (ix2 ⟨m.val / 2, by have := m.isLt; omega⟩ ⟨(m.val % 2) * 128 + c.val, by have := c.isLt; omega⟩) := by
  rw [shapeCast_self]
  show (shapeCast S64x128 v shapeCasts_S32x256_S64x128) (ix2 m c) = _
  refine shapeCast_apply v shapeCasts_S32x256_S64x128 (ix2 m c) _ ?_
  rw [Shape.rowMajor_val_two, Shape.rowMajor_val_two]
  show (m.val / 2) * 256 + ((m.val % 2) * 128 + c.val) = m.val * 128 + c.val
  omega

/-- A 64-lane window of the skip sample (its leading unit axis dropped), narrowed to half precision: entry (c, q) is
    the sample's entry (0, c, off + q). -/
theorem xslice_apply (v : Vec Ideal S1x128x4096 .f32) (off : ℕ) (hs : S128x4096.Slices ![0, off] S128x64)
    (c : Fin 128) (q : Fin 64) (hq : off + q.val < 4096) :
    (shapeCast S128x64 (truncf .bf16 (extractStridedSlice S128x64 ![0, off]
        (shapeCast S128x4096 v shapeCasts_S1x128x4096_S128x4096) hs) bitsLt_bf16_f32) shapeCasts_S128x64_S128x64
        : FVec Ideal S128x64 .bf16) (ix2 c q)
      = v (ix3 0 c ⟨off + q.val, hq⟩) := by
  rw [shapeCast_self]
  show (extractStridedSlice S128x64 ![0, off] (shapeCast S128x4096 v shapeCasts_S1x128x4096_S128x4096) hs) (ix2 c q) = _
  refine (extractStridedSlice_apply ![0, off] _ hs (ix2 c q) (ix2 c ⟨off + q.val, hq⟩) ?_).trans ?_
  · intro a
    match a with
    | ⟨0, _⟩ => show c.val = 0 + c.val; omega
    | ⟨1, _⟩ => rfl
  · refine shapeCast_apply v shapeCasts_S1x128x4096_S128x4096 _ (ix3 0 c ⟨off + q.val, hq⟩) ?_
    rw [Shape.rowMajor_val_two, Shape.rowMajor_val_three]
    show (0 * 128 + c.val) * 4096 + (off + q.val) = c.val * 4096 + (off + q.val)
    omega

/-- A 64-lane window of a 128×4608 array, given a leading unit axis: entry (0, c, q) is the array's entry (c, off + q). -/
theorem oslice_apply (v : FVec Ideal S128x4608 .f32) (off : ℕ) (hs : S128x4608.Slices ![0, off] S128x64)
    (z : Fin 1) (c : Fin 128) (q : Fin 64) (hq : off + q.val < 4608) :
    (shapeCast S1x128x64 (extractStridedSlice S128x64 ![0, off] v hs) shapeCasts_S128x64_S1x128x64
        : FVec Ideal S1x128x64 .f32) (ix3 z c q)
      = v (ix2 c ⟨off + q.val, hq⟩) := by
  refine (shapeCast_apply _ shapeCasts_S128x64_S1x128x64 (ix3 z c q) (ix2 c q) ?_).trans ?_
  · rw [Shape.rowMajor_val_two, Shape.rowMajor_val_three]
    show c.val * 64 + q.val = (z.val * 128 + c.val) * 64 + q.val
    have := z.isLt
    omega
  · refine extractStridedSlice_apply ![0, off] v hs (ix2 c q) (ix2 c ⟨off + q.val, hq⟩) ?_
    intro a
    match a with
    | ⟨0, _⟩ => show c.val = 0 + c.val; omega
    | ⟨1, _⟩ => rfl

/-! ## The body's arithmetic payloads read at an index -/

/-- The low-resolution sample with its unit axis dropped and narrowed to half precision: entry (ci, p). -/
theorem pay3_apply (v0 : Vec Ideal S1x256x1024 .f32) (ci : Fin 256) (p : Fin 1024) :
    k0_pay3 (F := Ideal) v0 (ix2 ci p) = v0 (ix3 0 ci p) := by
  unfold k0_pay3
  show (shapeCast S256x1024 v0 shapeCasts_S1x256x1024_S256x1024) (ix2 ci p) = _
  refine shapeCast_apply v0 shapeCasts_S1x256x1024_S256x1024 (ix2 ci p) (ix3 0 ci p) ?_
  rw [Shape.rowMajor_val_two, Shape.rowMajor_val_three]
  show (0 * 256 + ci.val) * 1024 + p.val = ci.val * 1024 + p.val
  omega

/-- A row vector [1,256] broadcast down 1024 rows reads its column. -/
theorem bcast_row_apply (b : FVec Ideal S1x256 .f32) (p : Fin 1024) (q : Fin 256) :
    (broadcastTo S1024x256 b broadcasts_S1x256_S1024x256 : FVec Ideal S1024x256 .f32) (ix2 p q) = b (ix2 0 q) := by
  refine broadcastTo_apply b broadcasts_S1x256_S1024x256 (ix2 p q) (ix2 0 q) ?_
  intro a
  match a with
  | ⟨0, _⟩ => rfl
  | ⟨1, _⟩ => rfl

/-- One plane of the transposed convolution: at (position p, column q) the sum over the input channels of the sample
    times the weight plane, plus the bias row. -/
theorem pay4_apply (v0 : Vec Ideal S1x256x1024 .f32) (w : Vec Ideal S256x256 .bf16) (b : Vec Ideal S1x256 .bf16)
    (p : Fin 1024) (q : Fin 256) :
    k0_pay4 (F := Ideal) v0 w b (ix2 p q) = (∑ ci : Fin 256, v0 (ix3 0 ci p) * w (ix2 ci q)) + b (ix2 0 q) := by
  unfold k0_pay4
  simp only [shapeCast_self]
  show matmul dot_S256x1024_S256x256_S1024x256_0_0_1_1_n_n none (k0_pay3 v0) w (constant (F := Ideal) S1024x256 .f32 0x00000000#32) (ix2 p q)
      + (broadcastTo S1024x256 (extf .f32 b bitsLt_bf16_f32) broadcasts_S1x256_S1024x256 : FVec Ideal S1024x256 .f32) (ix2 p q) = _
  rw [mm_up_apply, bcast_row_apply]
  refine congrArg₂ (· + ·) (Finset.sum_congr rfl fun ci _ => ?_) rfl
  rw [pay3_apply]

/-- The second plane is the same function of its operands. -/
theorem pay5_apply (v0 : Vec Ideal S1x256x1024 .f32) (w : Vec Ideal S256x256 .bf16) (b : Vec Ideal S1x256 .bf16)
    (p : Fin 1024) (q : Fin 256) :
    k0_pay5 (F := Ideal) v0 w b (ix2 p q) = (∑ ci : Fin 256, v0 (ix3 0 ci p) * w (ix2 ci q)) + b (ix2 0 q) :=
  pay4_apply v0 w b p q

/-- The product with the identity block that moves the upsampled rows into the slab, narrowed to half precision. -/
theorem pay152_apply (eye : FVec Ideal S128x128 .bf16) (ups : Vec Ideal S4864x128 .bf16) (c : Fin 128) (p : Fin 4864) :
    k0_pay152 (F := Ideal) eye ups (ix2 c p) = ∑ k : Fin 128, eye (ix2 k c) * ups (ix2 p k) := by
  unfold k0_pay152
  simp only [shapeCast_self]
  exact mm_tr_apply eye ups c p

/-- The identity block as loaded (a shape cast to its own shape). -/
theorem pay78_apply (v : Vec Ideal S128x128 .bf16) : k0_pay78 (F := Ideal) v = v := by
  unfold k0_pay78
  simp only [shapeCast_self]

/-- A column [128,1] broadcast along 4608 positions reads its row. -/
theorem bcast_col_apply (b : FVec Ideal S128x1 .f32) (c : Fin 128) (j : Fin 4608) :
    (broadcastTo S128x4608 b broadcasts_S128x1_S128x4608 : FVec Ideal S128x4608 .f32) (ix2 c j) = b (ix2 c 0) := by
  refine broadcastTo_apply b broadcasts_S128x1_S128x4608 (ix2 c j) (ix2 c 0) ?_
  intro a
  match a with
  | ⟨0, _⟩ => rfl
  | ⟨1, _⟩ => rfl

/-- The mask row [1,4608] broadcast down 128 rows reads its column. -/
theorem bcast_mask_apply (b : FVec Ideal S1x4608 .f32) (c : Fin 128) (j : Fin 4608) :
    (broadcastTo S128x4608 b broadcasts_S1x4608_S128x4608 : FVec Ideal S128x4608 .f32) (ix2 c j) = b (ix2 0 j) := by
  refine broadcastTo_apply b broadcasts_S1x4608_S128x4608 (ix2 c j) (ix2 0 j) ?_
  intro a
  match a with
  | ⟨0, _⟩ => rfl
  | ⟨1, _⟩ => rfl

end Cert.KernelIdeal.Hand

end
-- ==== Proof.KBufs.lean ====
/-
  What three of the body's scratch buffers hold when they are read: the upconv planes, the upsampled rows, the slab.

  The planes buffer [1024,512] is two side-by-side stores, each the low-resolution sample (transposed) times one plane of
  the transposed convolution's weights plus that plane's bias row. The upsampled-rows buffer [4864,128] is a zero fill and
  then 64 row blocks: block r (rows 128 + 72·r + 4 …, 64 of them) is the 32×256 block (32·(r/2), 256·(r%2)) of the planes
  buffer with every row of 256 lanes cut into two rows of 128. The slab [256,4864] has, in rows 0…127, a zero fill and then
  64 column blocks (columns 128 + 72·r + 4 …) holding lanes 64·r … of the skip sample, and, in rows 128…255, the product of
  the identity block of the packed weights with the upsampled rows, contracted on the lane axis.

  The 64-store buffers are read by describing the stores as tiles of one function of the buffer's index written over
  the fill: under a tile the buffer reads the function, off every tile it reads the fill.
-/
import proofs.«126750_g2000606872001322_pallasbulk_142_34_alg».proof.Proof.KIBody
import proofs.«126750_g2000606872001322_pallasbulk_142_34_alg».proof.Proof.KCanon
import proofs.«126750_g2000606872001322_pallasbulk_142_34_alg».proof.Proof.KDefs
import proofs.«126750_g2000606872001322_pallasbulk_142_34_alg».proof.Proof.KPay
import Idealize.ShloMosaic.Lib.ValueIdx
import Idealize.ShloMosaic.Lib.Pipeline.Value
import Idealize.ShloMosaic.Lib.WholeRead

-- the store lists are 65 and 66 pieces long: the structural walk over them recurses once per piece
set_option maxRecDepth 65536

noncomputable section

namespace Cert.KernelIdeal.Hand

open Idealize.ShloMosaic Idealize.ShloMosaic.ValueIdx Cert.KernelIdeal Cert.KernelIdeal.Gen
open scoped BigOperators

/-! ## Loads read at an index -/

section Loads
variable {sig' : RefSig} {κ : Kind} {sp : Space} {S : Shape} {e : EltTy} {Val : EltTy → Type}

/-- A load through a unit-stride rectangle of a whole memref held at the contents that read `X` reads `X` at the
    rectangle's offsets plus the load's index. -/
theorem readAt_unit_unread {m : Memref sig' κ sp S e} (h : m.IsWhole) (X : S.Idx → Val e) {off size : Fin S.rank → ℕ}
    (inb : ∀ a, off a + size a ≤ S.size a) (j : (Rect.unit off size inb).shape.Idx) (k : S.Idx)
    (hk : ∀ a, (k a).val = off a + (j a).val) :
    View.readAt Val m.view (Rect.unit off size inb).toLoadRect (h.unread X) j = X k := by
  rw [h.readAt_unread]
  exact congrArg X (funext fun a => Fin.ext (by
    show off a + 1 * (j a).val = (k a).val
    rw [hk a, Nat.one_mul]))

/-- A load through a unit-stride rectangle after a list of stores reads what the stores left at the rectangle's offsets
    plus the load's index. -/
theorem readCov_unit [∀ e, Nonempty (Val e)] (v : View sig' κ sp S e) (L : List (View.Piece Val S e)) {off size : Fin S.rank → ℕ}
    (inb : ∀ a, off a + size a ≤ S.size a) (j : (Rect.unit off size inb).shape.Idx) (k : S.Idx)
    (hk : ∀ a, (k a).val = off a + (j a).val) :
    v.readCov L (Rect.unit off size inb).toLoadRect j = View.canon L k := by
  rw [View.readCov_eq_canon']
  exact congrArg (View.canon L) (funext fun a => Fin.ext (by
    show off a + 1 * (j a).val = (k a).val
    rw [hk a, Nat.one_mul]))

end Loads

section Bufs
variable (c : Dev nD) (arg1 : Memref sig .tc .vmem S1x256x1024 .f32) (harg1 : arg1.IsWhole) (arg2 : Memref sig .tc .vmem S1x128x4096 .f32) (harg2 : arg2.IsWhole) (arg3 : Memref sig .tc .vmem S2952x256 .bf16) (harg3 : arg3.IsWhole) (arg4 : Memref sig .tc .vmem S256x128 .f32) (harg4 : arg4.IsWhole) (arg5 : Memref sig .tc .vmem S1x4608 .f32) (harg5 : arg5.IsWhole) (arg7 : Memref sig .tc .vmem S256x4864 .bf16) (arg8 : Memref sig .tc .vmem S128x4864 .bf16) (arg9 : Memref sig .tc .vmem S1024x512 .f32) (arg10 : Memref sig .tc .vmem S4864x128 .bf16)
  (x0 : Vec Ideal S1x256x1024 .f32) (x1 : Vec Ideal S1x128x4096 .f32) (x2 : Vec Ideal S2952x256 .bf16) (x3 : Vec Ideal S256x128 .f32) (x4 : Vec Ideal S1x4608 .f32)

/-! ## The planes buffer: two stores side by side -/

/-- Entry (p, q) of the planes buffer: with di = q / 256 the plane and q % 256 the column inside it, the sum over the input
    channels of the sample at position p times the plane's weight, plus the plane's bias row. -/
theorem ps_value (p : Fin 1024) (q : Fin 512) :
    PsC c arg1 harg1 arg3 harg3 x0 x2 (ix2 p q)
      = (∑ ci : Fin 256, x0 (ix3 0 ci p)
            * x2 (ix2 ⟨2304 + 256 * (q.val / 256) + ci.val, by have := ci.isLt; have := q.isLt; omega⟩
                ⟨q.val % 256, Nat.mod_lt _ (by decide)⟩))
        + x2 (ix2 ⟨2816 + q.val / 256, by have := q.isLt; omega⟩ ⟨q.val % 256, Nat.mod_lt _ (by decide)⟩) := by
  have hqlt := q.isLt
  unfold PsC
  delta kernelRun0_A.sl.HS2_2
  by_cases hq : q.val < 256
  · refine (canon_cons_unit_of_not_mem _ _ _ (ix2 p q) (⟨1, by decide⟩ : Fin 2) (Or.inl ?_)).trans ?_
    · show q.val < 256; exact hq
    refine (canon_cons_unit_of_mem _ _ _ (ix2 p q) (ix2 p ⟨q.val, hq⟩) ?_).trans ?_
    · intro a
      match a with
      | ⟨0, _⟩ => show p.val = 0 + p.val; omega
      | ⟨1, _⟩ => show q.val = 0 + q.val; omega
    rw [pay4_apply]
    have e1 : q.val / 256 = 0 := by omega
    have e2 : q.val % 256 = q.val := by omega
    refine congrArg₂ (· + ·) (Finset.sum_congr rfl fun ci _ => congrArg₂ (· * ·) ?_ ?_) ?_
    · refine readAt_unit_unread harg1 x0 _ _ _ ?_
      intro a
      match a with
      | ⟨0, _⟩ => rfl
      | ⟨1, _⟩ => show ci.val = 0 + ci.val; omega
      | ⟨2, _⟩ => show p.val = 0 + p.val; omega
    · refine readAt_unit_unread harg3 x2 _ _ _ ?_
      intro a
      match a with
      | ⟨0, _⟩ => show 2304 + 256 * (q.val / 256) + ci.val = 2304 + ci.val; omega
      | ⟨1, _⟩ => show q.val % 256 = 0 + q.val; omega
    · refine readAt_unit_unread harg3 x2 _ _ _ ?_
      intro a
      match a with
      | ⟨0, _⟩ => show 2816 + q.val / 256 = 2816 + 0; omega
      | ⟨1, _⟩ => show q.val % 256 = 0 + q.val; omega
  · refine (canon_cons_unit_of_mem _ _ _ (ix2 p q) (ix2 p ⟨q.val - 256, by omega⟩) ?_).trans ?_
    · intro a
      match a with
      | ⟨0, _⟩ => show p.val = 0 + p.val; omega
      | ⟨1, _⟩ => show q.val = 256 + (q.val - 256); omega
    rw [pay5_apply]
    refine congrArg₂ (· + ·) (Finset.sum_congr rfl fun ci _ => congrArg₂ (· * ·) ?_ ?_) ?_
    · refine readAt_unit_unread harg1 x0 _ _ _ ?_
      intro a
      match a with
      | ⟨0, _⟩ => rfl
      | ⟨1, _⟩ => show ci.val = 0 + ci.val; omega
      | ⟨2, _⟩ => show p.val = 0 + p.val; omega
    · refine readAt_unit_unread harg3 x2 _ _ _ ?_
      intro a
      match a with
      | ⟨0, _⟩ => show 2304 + 256 * (q.val / 256) + ci.val = 2560 + ci.val; omega
      | ⟨1, _⟩ => show q.val % 256 = 0 + (q.val - 256); omega
    · refine readAt_unit_unread harg3 x2 _ _ _ ?_
      intro a
      match a with
      | ⟨0, _⟩ => show 2816 + q.val / 256 = 2817 + 0; omega
      | ⟨1, _⟩ => show q.val % 256 = 0 + (q.val - 256); omega

end Bufs

section Bufs2
variable (c : Dev nD) (arg1 : Memref sig .tc .vmem S1x256x1024 .f32) (harg1 : arg1.IsWhole) (arg2 : Memref sig .tc .vmem S1x128x4096 .f32) (harg2 : arg2.IsWhole) (arg3 : Memref sig .tc .vmem S2952x256 .bf16) (harg3 : arg3.IsWhole) (arg4 : Memref sig .tc .vmem S256x128 .f32) (harg4 : arg4.IsWhole) (arg5 : Memref sig .tc .vmem S1x4608 .f32) (harg5 : arg5.IsWhole) (arg7 : Memref sig .tc .vmem S256x4864 .bf16) (arg8 : Memref sig .tc .vmem S128x4864 .bf16) (arg9 : Memref sig .tc .vmem S1024x512 .f32) (arg10 : Memref sig .tc .vmem S4864x128 .bf16)
  (x0 : Vec Ideal S1x256x1024 .f32) (x1 : Vec Ideal S1x128x4096 .f32) (x2 : Vec Ideal S2952x256 .bf16) (x3 : Vec Ideal S256x128 .f32) (x4 : Vec Ideal S1x4608 .f32)

theorem PsN_eq (p q : ℕ) (h : p < 1024 ∧ q < 512) :
    PsN c arg1 harg1 arg3 harg3 x0 x2 p q = PsC c arg1 harg1 arg3 harg3 x0 x2 (ix2 ⟨p, h.1⟩ ⟨q, h.2⟩) := dif_pos h

/-- A 32×256 block of the planes buffer loaded at offsets `off` reads the buffer there. -/
theorem ps_load (off : Fin 2 → ℕ) (inb : ∀ a, off a + S32x256.size a ≤ S1024x512.size a) (a : Fin 32) (b : Fin 256) :
    arg9.view.readCov (kernelRun0_A.sl.HS2_2 (F := Ideal) c arg1 harg1 arg3 harg3 x0 x2)
        (Rect.unit (s := S1024x512) off S32x256.size inb).toLoadRect (ix2 a b)
      = PsN c arg1 harg1 arg3 harg3 x0 x2 (off ⟨0, by decide⟩ + a.val) (off ⟨1, by decide⟩ + b.val) := by
  have h0 : off ⟨0, by decide⟩ + 32 ≤ 1024 := by
    have h := inb ⟨0, (by decide : 0 < 2)⟩
    exact h
  have h1 : off ⟨1, by decide⟩ + 256 ≤ 512 := by
    have h := inb ⟨1, (by decide : 1 < 2)⟩
    exact h
  have ha := a.isLt; have hb := b.isLt
  rw [PsN_eq _ _ _ _ _ _ _ _ _ ⟨by omega, by omega⟩]
  unfold PsC
  refine readCov_unit (S := S1024x512) (off := off) (size := S32x256.size) _ _ inb (ix2 a b) _ ?_
  intro x
  match x with
  | ⟨0, _⟩ => rfl
  | ⟨1, _⟩ => rfl

/-- The function the 64 row-block stores into the upsampled-rows buffer are blocks of: at row 128 + 72·r + 4 + m
    (r, m < 64), lane k, the planes buffer's entry (32·(r/2) + m/2, 256·(r%2) + 128·(m%2) + k); 0 at every other row. -/
def UpsG : S4864x128.Idx → EReal := fun y =>
  if 128 ≤ (y ⟨0, by decide⟩).val ∧ (y ⟨0, by decide⟩).val < 4736 ∧ 4 ≤ ((y ⟨0, by decide⟩).val - 128) % 72
      ∧ ((y ⟨0, by decide⟩).val - 128) % 72 < 68 then
    PsN c arg1 harg1 arg3 harg3 x0 x2
      (32 * ((((y ⟨0, by decide⟩).val - 128) / 72) / 2) + (((y ⟨0, by decide⟩).val - 128) % 72 - 4) / 2)
      (256 * ((((y ⟨0, by decide⟩).val - 128) / 72) % 2) + 128 * ((((y ⟨0, by decide⟩).val - 128) % 72 - 4) % 2)
        + (y ⟨1, by decide⟩).val)
  else 0

/-- One row-block store is the block of `UpsG` under its rectangle: the reshape of the 32×256 block of the planes buffer
    at (i, d) = (32·(r/2), 256·(r%2)), stored at rows o = 132 + 72·r. -/
theorem ups_tile (v : FVec Ideal S32x256 .f32) (o : ℕ)
    (inb : ∀ a, (![o, 0] : Fin 2 → ℕ) a + S64x128.size a ≤ S4864x128.size a) (i d : ℕ)
    (hv : ∀ (a : Fin 32) (b : Fin 256), v (ix2 a b) = PsN c arg1 harg1 arg3 harg3 x0 x2 (i + a.val) (d + b.val))
    (hr : (o - 132) % 72 = 0 ∧ 132 ≤ o ∧ (o - 132) / 72 < 64 ∧ i = 32 * (((o - 132) / 72) / 2)
      ∧ d = 256 * (((o - 132) / 72) % 2))
    (x : (Rect.unit (s := S4864x128) ![o, 0] S64x128.size inb).shape.Idx) :
    (shapeCast S64x128 (truncf .bf16 (shapeCast S64x128 v shapeCasts_S32x256_S64x128) bitsLt_bf16_f32)
        shapeCasts_S64x128_S64x128 : FVec Ideal S64x128 .bf16) x
      = UpsG c arg1 harg1 arg3 harg3 x0 x2 ((Rect.unit (s := S4864x128) ![o, 0] S64x128.size inb).emb x) := by
  obtain ⟨h1, h2, h3, rfl, rfl⟩ := hr
  obtain ⟨m, cc, rfl⟩ : ∃ (m : Fin 64) (cc : Fin 128), x = ix2 m cc := ⟨x 0, x 1, eq_ix2 x⟩
  have hm := m.isLt; have hc := cc.isLt
  rw [reshape_apply, hv]
  unfold UpsG
  have e0 : (((Rect.unit (s := S4864x128) ![o, 0] S64x128.size inb).emb (ix2 m cc)) ⟨0, by decide⟩).val = o + m.val := by
    show o + 1 * m.val = _; omega
  have e1 : (((Rect.unit (s := S4864x128) ![o, 0] S64x128.size inb).emb (ix2 m cc)) ⟨1, by decide⟩).val = cc.val := by
    show 0 + 1 * cc.val = _; omega
  simp only [e0, e1]
  rw [if_pos (by omega)]
  refine congrArg₂ (PsN c arg1 harg1 arg3 harg3 x0 x2) ?_ ?_
  · show 32 * (((o - 132) / 72) / 2) + m.val / 2 = _; omega
  · show 256 * (((o - 132) / 72) % 2) + (m.val % 2 * 128 + cc.val) = _; omega

/-- The zero fill of the upsampled-rows buffer reads 0 everywhere. -/
theorem pay6_apply (y : S4864x128.Idx) : k0_pay6 (F := Ideal) y = 0 := by
  unfold k0_pay6
  simp only [shapeCast_self]
  exact ofBits_zero_bf16

set_option maxHeartbeats 4000000 in
/-- The stores into the upsampled-rows buffer are 64 row blocks of `UpsG` written over a fill that reads 0. -/
theorem ups_tiles : ∃ L', TilesThen (Val := Elt Ideal) (S := S4864x128) (e := .bf16) (UpsG c arg1 harg1 arg3 harg3 x0 x2) S64x128.size (fun o => ![o, 0]) L'
      ((List.range 64).reverse.map fun r => 132 + 72 * r)
      (kernelRun0_A.sl.HS3_65 (F := Ideal) c arg1 harg1 arg3 harg3 arg9 x0 x2)
    ∧ ∀ y, (View.canon L' y : EReal) = 0 := by
  refine Exists.intro ?L' ⟨?tiles, ?zero⟩
  case tiles =>
    delta kernelRun0_A.sl.HS3_65 kernelRun0_A.sl.HS3_50
    repeat' (first | refine TilesThen.cons _ _ _ ?_ ?_ | exact TilesThen.done)
    all_goals
      intro x
      refine ups_tile c arg1 harg1 arg3 harg3 x0 x2 _ _ _ _ _
        (fun a b => ps_load c arg1 harg1 arg3 harg3 arg9 x0 x2 _ _ a b) (by decide) x
  case zero =>
    intro y
    rw [View.canon_unit_zero (by funext a; match a with | ⟨0, _⟩ => rfl | ⟨1, _⟩ => rfl)]
    exact pay6_apply y

end Bufs2

section Bufs3
variable (c : Dev nD) (arg1 : Memref sig .tc .vmem S1x256x1024 .f32) (harg1 : arg1.IsWhole) (arg2 : Memref sig .tc .vmem S1x128x4096 .f32) (harg2 : arg2.IsWhole) (arg3 : Memref sig .tc .vmem S2952x256 .bf16) (harg3 : arg3.IsWhole) (arg4 : Memref sig .tc .vmem S256x128 .f32) (harg4 : arg4.IsWhole) (arg5 : Memref sig .tc .vmem S1x4608 .f32) (harg5 : arg5.IsWhole) (arg7 : Memref sig .tc .vmem S256x4864 .bf16) (arg8 : Memref sig .tc .vmem S128x4864 .bf16) (arg9 : Memref sig .tc .vmem S1024x512 .f32) (arg10 : Memref sig .tc .vmem S4864x128 .bf16)
  (x0 : Vec Ideal S1x256x1024 .f32) (x1 : Vec Ideal S1x128x4096 .f32) (x2 : Vec Ideal S2952x256 .bf16) (x3 : Vec Ideal S256x128 .f32) (x4 : Vec Ideal S1x4608 .f32)

theorem UpsN_eq (p : ℕ) (k : Fin 128) (h : p < 4864) :
    UpsN c arg1 harg1 arg3 harg3 arg9 x0 x2 p k = UpsC c arg1 harg1 arg3 harg3 arg9 x0 x2 (ix2 ⟨p, h⟩ k) := dif_pos h
theorem SlabN_eq (ch : Fin 256) (p : ℕ) (h : p < 4864) :
    SlabN c arg1 harg1 arg2 harg2 arg3 harg3 arg9 arg10 x0 x1 x2 ch p
      = SlabC c arg1 harg1 arg2 harg2 arg3 harg3 arg9 arg10 x0 x1 x2 (ix2 ch ⟨p, h⟩) := dif_pos h

/-- The function the 64 column-block stores into the slab's lower half are blocks of: row ch < 128, column
    128 + 72·r + 4 + q (r, q < 64) holds the skip sample's entry (ch, 64·r + q); 0 elsewhere. -/
def SlabLoG : S256x4864.Idx → EReal := fun y =>
  if h : (y ⟨0, by decide⟩).val < 128 ∧ 128 ≤ (y ⟨1, by decide⟩).val ∧ (y ⟨1, by decide⟩).val < 4736
      ∧ 4 ≤ ((y ⟨1, by decide⟩).val - 128) % 72 ∧ ((y ⟨1, by decide⟩).val - 128) % 72 < 68 then
    x1 (ix3 0 ⟨(y ⟨0, by decide⟩).val, h.1⟩
      ⟨64 * (((y ⟨1, by decide⟩).val - 128) / 72) + (((y ⟨1, by decide⟩).val - 128) % 72 - 4), by omega⟩)
  else 0

/-- The skip sample as the body loads it whole. -/
theorem read_x1 (inb : ∀ a, (![0, 0, 0] : Fin 3 → ℕ) a + S1x128x4096.size a ≤ S1x128x4096.size a) :
    View.readAt (Elt Ideal) arg2.view (Rect.unit ![0, 0, 0] S1x128x4096.size inb).toLoadRect (harg2.unread x1) = x1 := by
  funext j
  refine readAt_unit_unread harg2 x1 inb j j ?_
  intro a
  match a with
  | ⟨0, _⟩ => show _ = 0 + _; omega
  | ⟨1, _⟩ => show _ = 0 + _; omega
  | ⟨2, _⟩ => show _ = 0 + _; omega

/-- One column-block store is the block of `SlabLoG` under its rectangle: columns o = 132 + 72·r hold the skip
    sample's lanes src = 64·r …. -/
theorem slab_tile (v : Vec Ideal S1x128x4096 .f32) (hv : v = x1) (o src : ℕ)
    (inb : ∀ a, (![0, o] : Fin 2 → ℕ) a + S128x64.size a ≤ S256x4864.size a)
    (hs : S128x4096.Slices ![0, src] S128x64)
    (hr : (o - 132) % 72 = 0 ∧ 132 ≤ o ∧ (o - 132) / 72 < 64 ∧ src = 64 * ((o - 132) / 72))
    (x : (Rect.unit (s := S256x4864) ![0, o] S128x64.size inb).shape.Idx) :
    (shapeCast S128x64 (truncf .bf16 (extractStridedSlice S128x64 ![0, src]
        (shapeCast S128x4096 v shapeCasts_S1x128x4096_S128x4096) hs) bitsLt_bf16_f32) shapeCasts_S128x64_S128x64
        : FVec Ideal S128x64 .bf16) x
      = SlabLoG x1 ((Rect.unit (s := S256x4864) ![0, o] S128x64.size inb).emb x) := by
  subst hv
  obtain ⟨h1, h2, h3, rfl⟩ := hr
  obtain ⟨cc, q, rfl⟩ : ∃ (cc : Fin 128) (q : Fin 64), x = ix2 cc q := ⟨x 0, x 1, eq_ix2 x⟩
  have hq := q.isLt; have hc := cc.isLt
  rw [xslice_apply v _ hs cc q (by omega)]
  unfold SlabLoG
  have e0 : (((Rect.unit (s := S256x4864) ![0, o] S128x64.size inb).emb (ix2 cc q)) ⟨0, by decide⟩).val = cc.val := by
    show 0 + 1 * cc.val = _; omega
  have e1 : (((Rect.unit (s := S256x4864) ![0, o] S128x64.size inb).emb (ix2 cc q)) ⟨1, by decide⟩).val = o + q.val := by
    show o + 1 * q.val = _; omega
  rw [dif_pos (by rw [e0, e1]; omega)]
  refine congrArg v ?_
  funext a
  match a with
  | ⟨0, _⟩ => rfl
  | ⟨1, _⟩ => exact Fin.ext (by show cc.val = _; rw [e0])
  | ⟨2, _⟩ => exact Fin.ext (by show 64 * ((o - 132) / 72) + q.val = _; simp only [e1]; omega)

/-- The zero fill of the slab's lower half reads 0. -/
theorem pay79_apply (y : S128x4864.Idx) : k0_pay79 (F := Ideal) y = 0 := by
  unfold k0_pay79
  simp only [shapeCast_self]
  exact ofBits_zero_bf16

end Bufs3

section Bufs4
variable (c : Dev nD) (arg1 : Memref sig .tc .vmem S1x256x1024 .f32) (harg1 : arg1.IsWhole) (arg2 : Memref sig .tc .vmem S1x128x4096 .f32) (harg2 : arg2.IsWhole) (arg3 : Memref sig .tc .vmem S2952x256 .bf16) (harg3 : arg3.IsWhole) (arg4 : Memref sig .tc .vmem S256x128 .f32) (harg4 : arg4.IsWhole) (arg5 : Memref sig .tc .vmem S1x4608 .f32) (harg5 : arg5.IsWhole) (arg7 : Memref sig .tc .vmem S256x4864 .bf16) (arg8 : Memref sig .tc .vmem S128x4864 .bf16) (arg9 : Memref sig .tc .vmem S1024x512 .f32) (arg10 : Memref sig .tc .vmem S4864x128 .bf16)
  (x0 : Vec Ideal S1x256x1024 .f32) (x1 : Vec Ideal S1x128x4096 .f32) (x2 : Vec Ideal S2952x256 .bf16) (x3 : Vec Ideal S256x128 .f32) (x4 : Vec Ideal S1x4608 .f32)

/-! ## The upsampled-rows buffer read at a row -/

/-- At row 128 + 72·r + 4 + m the buffer holds the planes buffer's entry the reshape puts there. -/
theorem ups_pix (r m : Fin 64) (k : Fin 128) (p : ℕ) (hp : p = 128 + r.val * 72 + 4 + m.val) :
    UpsN c arg1 harg1 arg3 harg3 arg9 x0 x2 p k
      = PsN c arg1 harg1 arg3 harg3 x0 x2 (32 * (r.val / 2) + m.val / 2) (256 * (r.val % 2) + 128 * (m.val % 2) + k.val) := by
  have hr := r.isLt; have hm := m.isLt; have hk := k.isLt
  have hp' : p < 4864 := by omega
  obtain ⟨L', hT, -⟩ := ups_tiles c arg1 harg1 arg3 harg3 arg9 x0 x2
  rw [UpsN_eq _ _ _ _ _ _ _ _ p k hp']
  unfold UpsC
  rw [hT.canon_of_mem (ix2 ⟨p, hp'⟩ k) (132 + 72 * r.val) (List.mem_map.2 ⟨r.val, List.mem_reverse.2 (List.mem_range.2 r.isLt), rfl⟩) ?_]
  · unfold UpsG
    have e0 : ((ix2 (⟨p, hp'⟩ : Fin 4864) k : S4864x128.Idx) ⟨0, by decide⟩).val = p := rfl
    have e1 : ((ix2 (⟨p, hp'⟩ : Fin 4864) k : S4864x128.Idx) ⟨1, by decide⟩).val = k.val := rfl
    simp only [e0, e1]
    rw [if_pos (by omega)]
    refine congrArg₂ (PsN c arg1 harg1 arg3 harg3 x0 x2) ?_ ?_ <;> omega
  · intro a
    match a with
    | ⟨0, _⟩ => show 132 + 72 * r.val ≤ p ∧ p < 132 + 72 * r.val + 64; omega
    | ⟨1, _⟩ => show 0 ≤ k.val ∧ k.val < 0 + 128; omega

/-- At every other row the buffer holds 0. -/
theorem ups_zero (p : ℕ) (hp : p < 4864) (hne : ∀ r q : Fin 64, p ≠ 128 + r.val * 72 + 4 + q.val) (k : Fin 128) :
    UpsN c arg1 harg1 arg3 harg3 arg9 x0 x2 p k = 0 := by
  obtain ⟨L', hT, hz⟩ := ups_tiles c arg1 harg1 arg3 harg3 arg9 x0 x2
  rw [UpsN_eq _ _ _ _ _ _ _ _ p k hp]
  unfold UpsC
  rw [hT.canon_of_not_mem (ix2 ⟨p, hp⟩ k) ?_]
  · exact hz _
  · intro o ho
    obtain ⟨r, hr, rfl⟩ := List.mem_map.1 ho
    have hr' : r < 64 := List.mem_range.1 (List.mem_reverse.1 hr)
    refine ⟨⟨0, by decide⟩, ?_⟩
    show p < 132 + 72 * r ∨ 132 + 72 * r + 64 ≤ p
    by_contra hcon
    exact hne ⟨r, hr'⟩ ⟨p - (132 + 72 * r), by omega⟩ (by show p = 128 + r * 72 + 4 + (p - (132 + 72 * r)); omega)

/-! ## The slab: the upper half's store, then the lower half's 64 column blocks over a zero fill -/

set_option maxHeartbeats 4000000 in
/-- The stores into the slab, newest first: the upper half's product, then 64 column blocks of `SlabLoG` written over a
    fill of the lower half that reads 0. -/
theorem slab_split : ∃ T L',
    kernelRun0_A.sl.HS0_66 (F := Ideal) c arg1 harg1 arg2 harg2 arg3 harg3 arg9 arg10 x0 x1 x2
      = (⟨Rect.unit ![128, 0] S128x4864.size inb_S256x4864_S128x4864_128_0,
          k0_pay152 (kernelRun0_A.sl.r_8 c arg3 harg3 x2) (kernelRun0_A.sl.v867 c arg1 harg1 arg3 harg3 arg9 arg10 x0 x2)⟩
            : View.Piece (Elt Ideal) S256x4864 .bf16) :: T
    ∧ TilesThen (Val := Elt Ideal) (S := S256x4864) (e := .bf16) (SlabLoG x1) S128x64.size (fun o => ![0, o]) L'
        ((List.range 64).reverse.map fun r => 132 + 72 * r) T
    ∧ ∀ y : S256x4864.Idx, (y ⟨0, by decide⟩).val < 128 → (View.canon L' y : EReal) = 0 := by
  refine Exists.intro ?T (Exists.intro ?L' ⟨?split, ?tiles, ?zero⟩)
  case split =>
    delta kernelRun0_A.sl.HS0_66 kernelRun0_A.sl.HS0_38
    rfl
  case tiles =>
    repeat' (first | refine TilesThen.cons _ _ _ ?_ ?_ | exact TilesThen.done)
    all_goals
      intro x
      exact slab_tile x1 _ (read_x1 arg2 harg2 x1 _) _ _ _ (by decide) (by decide) x
  case zero =>
    intro y hy
    refine Eq.trans (canon_cons_unit_of_mem _ _ _ y (ix2 ⟨(y ⟨0, by decide⟩).val, hy⟩ (y ⟨1, by decide⟩)) ?_) ?_
    · intro a
      match a with
      | ⟨0, _⟩ => show (y ⟨0, _⟩).val = 0 + (y ⟨0, _⟩).val; omega
      | ⟨1, _⟩ => show (y ⟨1, _⟩).val = 0 + (y ⟨1, _⟩).val; omega
    · exact pay79_apply _

/-- Row 128 + cc of the slab at position p: the identity block's column cc against row p of the upsampled-rows buffer. -/
theorem slab_hi (cc : Fin 128) (ch : Fin 256) (hch : ch.val = 128 + cc.val) (p : ℕ) (hp : p < 4864) :
    SlabN c arg1 harg1 arg2 harg2 arg3 harg3 arg9 arg10 x0 x1 x2 ch p
      = ∑ k : Fin 128, x2 (ix2 ⟨2818 + k.val, by have := k.isLt; omega⟩ ⟨cc.val, by have := cc.isLt; omega⟩)
          * UpsN c arg1 harg1 arg3 harg3 arg9 x0 x2 p k := by
  have hcc := cc.isLt
  obtain ⟨T, L', hsplit, -, -⟩ := slab_split c arg1 harg1 arg2 harg2 arg3 harg3 arg9 arg10 x0 x1 x2
  rw [SlabN_eq _ _ _ _ _ _ _ _ _ _ _ _ ch p hp]
  unfold SlabC
  rw [hsplit]
  refine (canon_cons_unit_of_mem _ _ _ (ix2 ch ⟨p, hp⟩) (ix2 cc ⟨p, hp⟩) ?_).trans ?_
  · intro a
    match a with
    | ⟨0, _⟩ => show ch.val = 128 + cc.val; exact hch
    | ⟨1, _⟩ => show p = 0 + p; omega
  rw [pay152_apply]
  refine Finset.sum_congr rfl fun k _ => congrArg₂ (· * ·) ?_ ?_
  · delta kernelRun0_A.sl.r_8
    rw [pay78_apply]
    refine readAt_unit_unread harg3 x2 _ _ _ ?_
    intro a
    match a with
    | ⟨0, _⟩ => rfl
    | ⟨1, _⟩ => show cc.val = 0 + cc.val; omega
  · rw [UpsN_eq _ _ _ _ _ _ _ _ p k hp]
    unfold UpsC
    delta kernelRun0_A.sl.v867
    refine readCov_unit (S := S4864x128) (off := ![0, 0]) (size := S4864x128.size) _ _ _ (ix2 ⟨p, hp⟩ k) _ ?_
    intro a
    match a with
    | ⟨0, _⟩ => show p = 0 + p; omega
    | ⟨1, _⟩ => show k.val = 0 + k.val; omega

/-- Row cc < 128 of the slab at column 128 + 72·r + 4 + q: the skip sample's entry (cc, 64·r + q). -/
theorem slab_lo_pix (cc : Fin 128) (ch : Fin 256) (hch : ch.val = cc.val) (r q : Fin 64) (p : ℕ)
    (hp : p = 128 + r.val * 72 + 4 + q.val) :
    SlabN c arg1 harg1 arg2 harg2 arg3 harg3 arg9 arg10 x0 x1 x2 ch p
      = x1 (ix3 0 cc ⟨r.val * 64 + q.val, by have := r.isLt; have := q.isLt; omega⟩) := by
  have hr := r.isLt; have hq := q.isLt; have hcc := cc.isLt
  have hp' : p < 4864 := by omega
  obtain ⟨T, L', hsplit, hT, -⟩ := slab_split c arg1 harg1 arg2 harg2 arg3 harg3 arg9 arg10 x0 x1 x2
  rw [SlabN_eq _ _ _ _ _ _ _ _ _ _ _ _ ch p hp']
  unfold SlabC
  rw [hsplit]
  refine (canon_cons_unit_of_not_mem _ _ _ (ix2 ch ⟨p, hp'⟩) (⟨0, by decide⟩ : Fin 2) (Or.inl ?_)).trans ?_
  · show ch.val < 128; omega
  rw [hT.canon_of_mem (ix2 ch ⟨p, hp'⟩) (132 + 72 * r.val) (List.mem_map.2 ⟨r.val, List.mem_reverse.2 (List.mem_range.2 r.isLt), rfl⟩) ?_]
  · unfold SlabLoG
    have e0 : ((ix2 ch (⟨p, hp'⟩ : Fin 4864) : S256x4864.Idx) ⟨0, by decide⟩).val = ch.val := rfl
    have e1 : ((ix2 ch (⟨p, hp'⟩ : Fin 4864) : S256x4864.Idx) ⟨1, by decide⟩).val = p := rfl
    rw [dif_pos (by rw [e0, e1]; omega)]
    refine congrArg x1 ?_
    funext a
    match a with
    | ⟨0, _⟩ => rfl
    | ⟨1, _⟩ => exact Fin.ext (by show ch.val = cc.val; exact hch)
    | ⟨2, _⟩ => exact Fin.ext (by show 64 * ((p - 128) / 72) + ((p - 128) % 72 - 4) = r.val * 64 + q.val; omega)
  · intro a
    match a with
    | ⟨0, _⟩ => show 0 ≤ ch.val ∧ ch.val < 0 + 128; omega
    | ⟨1, _⟩ => show 132 + 72 * r.val ≤ p ∧ p < 132 + 72 * r.val + 64; omega

/-- Row cc < 128 of the slab at every other column: 0. -/
theorem slab_lo_zero (cc : Fin 128) (ch : Fin 256) (hch : ch.val = cc.val) (p : ℕ) (hp : p < 4864)
    (hne : ∀ r q : Fin 64, p ≠ 128 + r.val * 72 + 4 + q.val) :
    SlabN c arg1 harg1 arg2 harg2 arg3 harg3 arg9 arg10 x0 x1 x2 ch p = 0 := by
  have hcc := cc.isLt
  obtain ⟨T, L', hsplit, hT, hz⟩ := slab_split c arg1 harg1 arg2 harg2 arg3 harg3 arg9 arg10 x0 x1 x2
  rw [SlabN_eq _ _ _ _ _ _ _ _ _ _ _ _ ch p hp]
  unfold SlabC
  rw [hsplit]
  refine (canon_cons_unit_of_not_mem _ _ _ (ix2 ch ⟨p, hp⟩) (⟨0, by decide⟩ : Fin 2) (Or.inl ?_)).trans ?_
  · show ch.val < 128; omega
  rw [hT.canon_of_not_mem (ix2 ch ⟨p, hp⟩) ?_]
  · exact hz _ (by show ch.val < 128; omega)
  · intro o ho
    obtain ⟨r, hr, rfl⟩ := List.mem_map.1 ho
    have hr' : r < 64 := List.mem_range.1 (List.mem_reverse.1 hr)
    refine ⟨⟨1, by decide⟩, ?_⟩
    show p < 132 + 72 * r ∨ 132 + 72 * r + 64 ≤ p
    by_contra hcon
    exact hne ⟨r, hr'⟩ ⟨p - (132 + 72 * r), by omega⟩ (by show p = 128 + r * 72 + 4 + (p - (132 + 72 * r)); omega)

end Bufs4

end Cert.KernelIdeal.Hand

end
-- ==== Proof.KConv.lean ====
/-
  The kernel's layout of the two 3×3 convolutions and of the 2×2 upsampling, as pure mathematics.

  A 64×64 image is kept FLAT with row pitch 72: pixel (r, q) sits at position 128 + 72·r + 4 + q, every other
  position holds 0 (four zero columns on each side of a row, zero guard rows before and after the band of 64·72
  positions that starts at 128). The tap (dh, dw) of a 3×3 convolution with zero padding 1 then reads, for the
  band position j = 72·y + 4 + x of the output pixel (y, x), the flat position (55 + 72·dh + dw) + j: that is the
  position of pixel (y+dh-1, x+dw-1) when this pixel exists, and a zero otherwise. So nine shifted slices of the flat
  image, each contracted with its tap's weight matrix and added one after another onto the bias, give the
  convolution of the specification at the band positions of true pixels.
-/
import proofs.«126750_g2000606872001322_pallasbulk_142_34_alg».proof.Proof.Spec

noncomputable section

namespace Cert.KernelIdeal.Conv

open Cert.Spec

/-! ### Nine terms added one after another -/

/-- Nine terms added one after another onto `b + 0` are `b` plus the double sum over tap row and tap column. -/
theorem chain9 (b : EReal) (t : Fin 3 → Fin 3 → EReal) :
    (((((((((b + 0) + t 0 0) + t 0 1) + t 0 2) + t 1 0) + t 1 1) + t 1 2) + t 2 0) + t 2 1) + t 2 2
      = b + ∑ dh : Fin 3, ∑ dw : Fin 3, t dh dw := by
  simp only [Fin.sum_univ_three, add_zero]
  abel

/-! ### The flat layout of pitch 72 -/

/-- Start of the slice the tap (dh, dw) reads: 128 + (dh - 1)·72 + (dw - 1). -/
def off (dh dw : ℕ) : ℕ := 55 + 72 * dh + dw

/-- The flat layout of an image: pixel (r, q) at 128 + 72·r + 4 + q, zero everywhere else. -/
def flat (im : Fin 64 → Fin 64 → EReal) (p : ℕ) : EReal :=
  if h : 128 ≤ p ∧ p < 4736 ∧ 4 ≤ (p - 128) % 72 ∧ (p - 128) % 72 < 68 then
    im ⟨(p - 128) / 72, by omega⟩ ⟨(p - 128) % 72 - 4, by omega⟩
  else 0

/-- At a pixel's position the flat layout holds the pixel. -/
theorem flat_pixel (im : Fin 64 → Fin 64 → EReal) (r q : Fin 64) :
    flat im (128 + r.val * 72 + 4 + q.val) = im r q := by
  have hr := r.isLt; have hq := q.isLt
  unfold flat
  rw [dif_pos (by omega)]
  congr 1 <;> (apply Fin.ext; simp only []; omega)

/-- A slice read by a tap, at the band position of an output pixel, is the zero-padded image of the specification. -/
theorem flat_tap (ct : Fin 256 → Fin 64 → Fin 64 → EReal) (ch : Fin 256) (dh dw : Fin 3) (y x : Fin 64) :
    flat (ct ch) (off dh.val dw.val + (72 * y.val + 4 + x.val))
      = padC ct ch (y.val + dh.val) (x.val + dw.val) := by
  have hdh := dh.isLt; have hdw := dw.isLt; have hy := y.isLt; have hx := x.isLt
  unfold flat padC off
  by_cases h : 1 ≤ y.val + dh.val ∧ y.val + dh.val ≤ 64 ∧ 1 ≤ x.val + dw.val ∧ x.val + dw.val ≤ 64
  · rw [dif_pos h, dif_pos (by omega)]
    congr 1 <;> (apply Fin.ext; simp only []; omega)
  · rw [dif_neg h, dif_neg (by omega)]

/-- A function that holds the pixels at their positions and 0 at every other position below the extent IS the flat layout. -/
theorem eq_flat_of (im : Fin 64 → Fin 64 → EReal) (S : ℕ → EReal)
    (hpix : ∀ r q : Fin 64, S (128 + r.val * 72 + 4 + q.val) = im r q)
    (hzero : ∀ p, p < 4864 → (∀ r q : Fin 64, p ≠ 128 + r.val * 72 + 4 + q.val) → S p = 0)
    (p : ℕ) (hp : p < 4864) : S p = flat im p := by
  unfold flat
  by_cases h : 128 ≤ p ∧ p < 4736 ∧ 4 ≤ (p - 128) % 72 ∧ (p - 128) % 72 < 68
  · rw [dif_pos h]
    have e : p = 128 + (⟨(p - 128) / 72, by omega⟩ : Fin 64).val * 72 + 4
        + (⟨(p - 128) % 72 - 4, by omega⟩ : Fin 64).val := by
      simp only []; omega
    rw [← hpix]
    exact congrArg S e
  · rw [dif_neg h]
    refine hzero p hp (fun r q hpq => h ?_)
    have hr := r.isLt; have hq := q.isLt
    omega

/-! ### The hidden image's flat layout: max with 0, then the column mask, inside the band; 0 outside -/

/-- The column mask over band positions: 1 at the 64 true columns of a pitch row, 0 at the 8 others. -/
def mask (j : ℕ) : EReal := if 4 ≤ j % 72 ∧ j % 72 < 68 then 1 else 0

/-- The hidden flat image made from an accumulator over band positions. -/
def hsOf (a : ℕ → EReal) (p : ℕ) : EReal :=
  if 128 ≤ p ∧ p < 4736 then max (a (p - 128)) 0 * mask (p - 128) else 0

/-- If the accumulator, after max with 0, is the hidden image at true pixels, a tap's slice of the hidden flat image is
    the zero-ringed hidden image of the specification. -/
theorem hsOf_tap (w1 : Fin 128 → Fin 256 → Fin 3 → Fin 3 → EReal) (b1 : Fin 128 → EReal)
    (ct : Fin 256 → Fin 64 → Fin 64 → EReal) (cm : Fin 128) (a : ℕ → EReal)
    (ha : ∀ r q : Fin 64, max (a (72 * r.val + 4 + q.val)) 0 = hid w1 b1 ct cm r q)
    (dh dw : Fin 3) (y x : Fin 64) :
    hsOf a (off dh.val dw.val + (72 * y.val + 4 + x.val))
      = hidP w1 b1 ct cm (y.val + dh.val) (x.val + dw.val) := by
  have hdh := dh.isLt; have hdw := dw.isLt; have hy := y.isLt; have hx := x.isLt
  unfold hsOf hidP off mask
  by_cases h : 1 ≤ y.val + dh.val ∧ y.val + dh.val ≤ 64 ∧ 1 ≤ x.val + dw.val ∧ x.val + dw.val ≤ 64
  · rw [dif_pos h, if_pos (by omega), if_pos (by omega), mul_one, ← ha]
    congr 2
    simp only []
    omega
  · rw [dif_neg h]
    by_cases hb : 128 ≤ 55 + 72 * dh.val + dw.val + (72 * y.val + 4 + x.val)
        ∧ 55 + 72 * dh.val + dw.val + (72 * y.val + 4 + x.val) < 4736
    · rw [if_pos hb, if_neg (by omega), mul_zero]
    · rw [if_neg hb]

/-! ### The nine-tap accumulator over flat slices -/

/-- Bias plus nine tap terms added one after another; tap k = 3·dh + dw contracts its weight matrix with the slice of the
    flat images that starts at 55 + 72·dh + dw. -/
def acc {n : ℕ} (wk : Fin 9 → Fin 128 → Fin n → EReal) (b : Fin 128 → EReal) (S : Fin n → ℕ → EReal)
    (c : Fin 128) (j : ℕ) : EReal :=
  (((((((((b c + 0)
    + ∑ i : Fin n, wk 0 c i * S i (55 + j)) + ∑ i : Fin n, wk 1 c i * S i (56 + j))
    + ∑ i : Fin n, wk 2 c i * S i (57 + j)) + ∑ i : Fin n, wk 3 c i * S i (127 + j))
    + ∑ i : Fin n, wk 4 c i * S i (128 + j)) + ∑ i : Fin n, wk 5 c i * S i (129 + j))
    + ∑ i : Fin n, wk 6 c i * S i (199 + j)) + ∑ i : Fin n, wk 7 c i * S i (200 + j))
    + ∑ i : Fin n, wk 8 c i * S i (201 + j)

/-- The tap number 3·dh + dw. -/
def tap (dh dw : Fin 3) : Fin 9 := ⟨dh.val * 3 + dw.val, by have := dh.isLt; have := dw.isLt; omega⟩

/-- The accumulator as bias plus the double sum over tap row and tap column. -/
theorem acc_eq {n : ℕ} (wk : Fin 9 → Fin 128 → Fin n → EReal) (b : Fin 128 → EReal) (S : Fin n → ℕ → EReal)
    (c : Fin 128) (j : ℕ) :
    acc wk b S c j
      = b c + ∑ dh : Fin 3, ∑ dw : Fin 3, ∑ i : Fin n, wk (tap dh dw) c i * S i (off dh.val dw.val + j) := by
  unfold acc
  exact chain9 (b c) (fun dh dw => ∑ i : Fin n, wk (tap dh dw) c i * S i (off dh.val dw.val + j))

/-- First convolution: over the flat layout of an image, the accumulator after max with 0 is the hidden image. -/
theorem acc1_hid (w1k : Fin 9 → Fin 128 → Fin 256 → EReal) (b1 : Fin 128 → EReal)
    (ct : Fin 256 → Fin 64 → Fin 64 → EReal) (S : Fin 256 → ℕ → EReal)
    (hS : ∀ ch p, p < 4864 → S ch p = flat (ct ch) p) (cm : Fin 128) (r q : Fin 64) :
    max (acc w1k b1 S cm (72 * r.val + 4 + q.val)) 0
      = hid (fun cm ch dh dw => w1k (tap dh dw) cm ch) b1 ct cm r q := by
  have hr := r.isLt; have hq := q.isLt
  unfold hid
  rw [acc_eq]
  congr 2
  refine Finset.sum_congr rfl (fun dh _ => Finset.sum_congr rfl (fun dw _ => Finset.sum_congr rfl (fun ch _ => ?_)))
  have hdh := dh.isLt; have hdw := dw.isLt
  rw [hS ch _ (by unfold off; omega), flat_tap]

/-- Both convolutions: over the flat layout of the image `ct`, with the hidden flat image made from the first accumulator,
    the second accumulator after max with 0, at the band position 72·y + 4 + x, is the specification's result pixel. -/
theorem conv_eq_outC (w1k : Fin 9 → Fin 128 → Fin 256 → EReal) (b1 : Fin 128 → EReal)
    (w2k : Fin 9 → Fin 128 → Fin 128 → EReal) (b2 : Fin 128 → EReal)
    (ct : Fin 256 → Fin 64 → Fin 64 → EReal) (S : Fin 256 → ℕ → EReal)
    (hS : ∀ ch p, p < 4864 → S ch p = flat (ct ch) p)
    (Hs : Fin 128 → ℕ → EReal) (hH : ∀ cm p, p < 4864 → Hs cm p = hsOf (acc w1k b1 S cm) p)
    (co : Fin 128) (y x : Fin 64) :
    max (acc w2k b2 Hs co (72 * y.val + 4 + x.val)) 0
      = outC (fun cm ch dh dw => w1k (tap dh dw) cm ch) b1 (fun co cm dh dw => w2k (tap dh dw) co cm) b2 ct co y x := by
  have hy := y.isLt; have hx := x.isLt
  unfold outC
  rw [acc_eq]
  congr 2
  refine Finset.sum_congr rfl (fun dh _ => Finset.sum_congr rfl (fun dw _ => Finset.sum_congr rfl (fun cm _ => ?_)))
  have hdh := dh.isLt; have hdw := dw.isLt
  rw [hH cm _ (by unfold off; omega)]
  rw [hsOf_tap (fun cm ch dh dw => w1k (tap dh dw) cm ch) b1 ct cm (acc w1k b1 S cm)
    (fun r q => acc1_hid w1k b1 ct S hS cm r q)]

/-! ### The upsampled half: matmul planes, the reshape of row blocks, the transpose by the identity matrix -/

/-- Contracting with a row of the identity matrix picks one entry (only `0 · x = 0`, `1 · x = x` and `0 + x = x`). -/
theorem eye_sum {n : ℕ} (U : Fin n → EReal) (c : Fin n) :
    ∑ k : Fin n, (if c = k then (1 : EReal) else 0) * U k = U c := by
  simp only [ite_mul, one_mul, zero_mul, Finset.sum_ite_eq, Finset.mem_univ, if_true]

/-- The transpose by the identity matrix of any position-major array: entry (c, p) of the product is entry (p, c). -/
theorem eye_transpose {n : ℕ} (eye : Fin n → Fin n → EReal) (heye : ∀ c k, eye c k = if c = k then 1 else 0)
    (Ups : ℕ → Fin n → EReal) (c : Fin n) (p : ℕ) :
    ∑ k : Fin n, eye c k * Ups p k = Ups p c := by
  simp only [heye]
  exact eye_sum (Ups p) c

/-- The matmul planes at the entry the reshape of a row block puts at image pixel (r, q), channel c, are the
    upsampled image of the specification. -/
theorem plane_eq_up (xa : Fin 256 → Fin 32 → Fin 32 → EReal) (wu : Fin 256 → Fin 128 → Fin 2 → Fin 2 → EReal)
    (bu : Fin 128 → Fin 2 → Fin 2 → EReal) (P : Fin 1024 → Fin 512 → EReal)
    (hP : ∀ (p : Fin 1024) (di dj : Fin 2) (c : Fin 128),
      P p ⟨di.val * 256 + dj.val * 128 + c.val, by have := di.isLt; have := dj.isLt; have := c.isLt; omega⟩
        = (∑ ci : Fin 256, xa ci ⟨p.val / 32, by have := p.isLt; omega⟩ ⟨p.val % 32, by omega⟩ * wu ci c di dj)
          + bu c di dj)
    (c : Fin 128) (r q : Fin 64) :
    P ⟨(r.val / 2) * 32 + q.val / 2, by have := r.isLt; have := q.isLt; omega⟩
      ⟨(r.val % 2) * 256 + (q.val % 2) * 128 + c.val, by have := c.isLt; omega⟩
      = up xa wu bu c r q := by
  have hr := r.isLt; have hq := q.isLt
  have h := hP ⟨(r.val / 2) * 32 + q.val / 2, by omega⟩ ⟨r.val % 2, by omega⟩ ⟨q.val % 2, by omega⟩ c
  simp only [] at h
  rw [h]
  unfold up
  have e1 : (r.val / 2 * 32 + q.val / 2) / 32 = r.val / 2 := by omega
  have e2 : (r.val / 2 * 32 + q.val / 2) % 32 = q.val / 2 := by omega
  simp only [e1, e2]

/-- An image whose channels below 128 are the skip image and whose channels 128 + c are the upsampled image is the
    concatenated image of the specification. -/
theorem eq_cat (xa : Fin 256 → Fin 32 → Fin 32 → EReal) (xb : Fin 128 → Fin 64 → Fin 64 → EReal)
    (wu : Fin 256 → Fin 128 → Fin 2 → Fin 2 → EReal) (bu : Fin 128 → Fin 2 → Fin 2 → EReal)
    (ct : Fin 256 → Fin 64 → Fin 64 → EReal)
    (hlo : ∀ (c : Fin 128) (r q : Fin 64), ct ⟨c.val, by have := c.isLt; omega⟩ r q = xb c r q)
    (hhi : ∀ (c : Fin 128) (r q : Fin 64), ct ⟨128 + c.val, by have := c.isLt; omega⟩ r q = up xa wu bu c r q) :
    ct = cat xa xb wu bu := by
  funext ch r q
  have hch := ch.isLt
  unfold cat
  by_cases h : ch.val < 128
  · rw [dif_pos h, ← hlo ⟨ch.val, h⟩ r q]
  · rw [dif_neg h, ← hhi ⟨ch.val - 128, by omega⟩ r q]
    congr 1
    apply Fin.ext
    simp only []
    omega

/-! ### The pieces put together -/

/-- The upsampled half of the flat images: the product of the identity matrix with a position-major array that holds the
    reshaped matmul planes at pixel positions and 0 elsewhere is the flat layout of the upsampled image. -/
theorem up_half_flat (xa : Fin 256 → Fin 32 → Fin 32 → EReal) (wu : Fin 256 → Fin 128 → Fin 2 → Fin 2 → EReal)
    (bu : Fin 128 → Fin 2 → Fin 2 → EReal) (P : Fin 1024 → Fin 512 → EReal)
    (hP : ∀ (p : Fin 1024) (di dj : Fin 2) (c : Fin 128),
      P p ⟨di.val * 256 + dj.val * 128 + c.val, by have := di.isLt; have := dj.isLt; have := c.isLt; omega⟩
        = (∑ ci : Fin 256, xa ci ⟨p.val / 32, by have := p.isLt; omega⟩ ⟨p.val % 32, by omega⟩ * wu ci c di dj)
          + bu c di dj)
    (Ups : ℕ → Fin 128 → EReal)
    (hpix : ∀ (r q : Fin 64) (c : Fin 128), Ups (128 + r.val * 72 + 4 + q.val) c
      = P ⟨(r.val / 2) * 32 + q.val / 2, by have := r.isLt; have := q.isLt; omega⟩
          ⟨(r.val % 2) * 256 + (q.val % 2) * 128 + c.val, by have := c.isLt; omega⟩)
    (hzero : ∀ p, p < 4864 → (∀ r q : Fin 64, p ≠ 128 + r.val * 72 + 4 + q.val) → ∀ c, Ups p c = 0)
    (eye : Fin 128 → Fin 128 → EReal) (heye : ∀ c k, eye c k = if c = k then 1 else 0)
    (c : Fin 128) (p : ℕ) (hp : p < 4864) :
    ∑ k : Fin 128, eye c k * Ups p k = flat (up xa wu bu c) p := by
  rw [eye_transpose eye heye Ups c p]
  exact eq_flat_of (up xa wu bu c) (fun p => Ups p c)
    (fun r q => (hpix r q c).trans (plane_eq_up xa wu bu P hP c r q))
    (fun p hp hne => hzero p hp hne c) p hp

/-- Flat images whose first 128 channels lay out the skip image and whose last 128 lay out the upsampled image lay out
    the concatenated image of the specification. -/
theorem slab_flat_cat (xa : Fin 256 → Fin 32 → Fin 32 → EReal) (xb : Fin 128 → Fin 64 → Fin 64 → EReal)
    (wu : Fin 256 → Fin 128 → Fin 2 → Fin 2 → EReal) (bu : Fin 128 → Fin 2 → Fin 2 → EReal)
    (S : Fin 256 → ℕ → EReal)
    (hlo : ∀ (c : Fin 128) p, p < 4864 → S ⟨c.val, by have := c.isLt; omega⟩ p = flat (xb c) p)
    (hhi : ∀ (c : Fin 128) p, p < 4864 → S ⟨128 + c.val, by have := c.isLt; omega⟩ p = flat (up xa wu bu c) p)
    (ch : Fin 256) (p : ℕ) (hp : p < 4864) : S ch p = flat (cat xa xb wu bu ch) p := by
  have hch := ch.isLt
  by_cases h : ch.val < 128
  · have e : cat xa xb wu bu ch = xb ⟨ch.val, h⟩ := by
      funext r q; unfold cat; rw [dif_pos h]
    rw [e, ← hlo ⟨ch.val, h⟩ p hp]
  · have e : cat xa xb wu bu ch = up xa wu bu ⟨ch.val - 128, by omega⟩ := by
      funext r q; unfold cat; rw [dif_neg h]
    rw [e, ← hhi ⟨ch.val - 128, by omega⟩ p hp]
    congr 1
    apply Fin.ext
    simp only []
    omega

/-- Both convolutions with the column mask given as any function that is the mask on the band. -/
theorem conv_eq_outC_mask (w1k : Fin 9 → Fin 128 → Fin 256 → EReal) (b1 : Fin 128 → EReal)
    (w2k : Fin 9 → Fin 128 → Fin 128 → EReal) (b2 : Fin 128 → EReal)
    (ct : Fin 256 → Fin 64 → Fin 64 → EReal) (S : Fin 256 → ℕ → EReal)
    (hS : ∀ ch p, p < 4864 → S ch p = flat (ct ch) p)
    (m : ℕ → EReal) (hm : ∀ j, j < 4608 → m j = mask j)
    (Hs : Fin 128 → ℕ → EReal)
    (hH : ∀ cm p, p < 4864 → Hs cm p
      = if 128 ≤ p ∧ p < 4736 then max (acc w1k b1 S cm (p - 128)) 0 * m (p - 128) else 0)
    (co : Fin 128) (y x : Fin 64) :
    max (acc w2k b2 Hs co (72 * y.val + 4 + x.val)) 0
      = outC (fun cm ch dh dw => w1k (tap dh dw) cm ch) b1 (fun co cm dh dw => w2k (tap dh dw) co cm) b2 ct co y x := by
  refine conv_eq_outC w1k b1 w2k b2 ct S hS Hs (fun cm p hp => ?_) co y x
  rw [hH cm p hp]
  unfold hsOf
  by_cases hb : 128 ≤ p ∧ p < 4736
  · rw [if_pos hb, if_pos hb, hm (p - 128) (by omega)]
  · rw [if_neg hb, if_neg hb]

/-! ### The same statements with the indices given by their values (any way of writing the arithmetic fits) -/

/-- `eq_flat_of` with the pixel positions given by value. -/
theorem eq_flat_of' (im : Fin 64 → Fin 64 → EReal) (S : ℕ → EReal)
    (hpix : ∀ (r q : Fin 64) (p : ℕ), p = 128 + r.val * 72 + 4 + q.val → S p = im r q)
    (hzero : ∀ p, p < 4864 → (∀ r q : Fin 64, p ≠ 128 + r.val * 72 + 4 + q.val) → S p = 0)
    (p : ℕ) (hp : p < 4864) : S p = flat im p :=
  eq_flat_of im S (fun r q => hpix r q _ rfl) hzero p hp

/-- `plane_eq_up` with the plane's row and column given by value. -/
theorem plane_eq_up' (xa : Fin 256 → Fin 32 → Fin 32 → EReal) (wu : Fin 256 → Fin 128 → Fin 2 → Fin 2 → EReal)
    (bu : Fin 128 → Fin 2 → Fin 2 → EReal) (P : Fin 1024 → Fin 512 → EReal)
    (hP : ∀ (p : Fin 1024) (di dj : Fin 2) (c : Fin 128) (cc : Fin 512),
      cc.val = di.val * 256 + dj.val * 128 + c.val →
      P p cc = (∑ ci : Fin 256, xa ci ⟨p.val / 32, by have := p.isLt; omega⟩ ⟨p.val % 32, by omega⟩ * wu ci c di dj)
          + bu c di dj)
    (c : Fin 128) (r q : Fin 64) (pp : Fin 1024) (cc : Fin 512)
    (hpp : pp.val = (r.val / 2) * 32 + q.val / 2)
    (hcc : cc.val = (r.val % 2) * 256 + (q.val % 2) * 128 + c.val) :
    P pp cc = up xa wu bu c r q := by
  have hr := r.isLt; have hq := q.isLt; have hc := c.isLt
  have e1 : pp = ⟨(r.val / 2) * 32 + q.val / 2, by omega⟩ := Fin.ext hpp
  have e2 : cc = ⟨(r.val % 2) * 256 + (q.val % 2) * 128 + c.val, by omega⟩ := Fin.ext hcc
  rw [e1, e2]
  exact plane_eq_up xa wu bu P (fun p di dj c => hP p di dj c _ rfl) c r q

/-- `up_half_flat` with positions, plane rows and plane columns given by value. -/
theorem up_half_flat' (xa : Fin 256 → Fin 32 → Fin 32 → EReal) (wu : Fin 256 → Fin 128 → Fin 2 → Fin 2 → EReal)
    (bu : Fin 128 → Fin 2 → Fin 2 → EReal) (P : Fin 1024 → Fin 512 → EReal)
    (hP : ∀ (p : Fin 1024) (di dj : Fin 2) (c : Fin 128) (cc : Fin 512),
      cc.val = di.val * 256 + dj.val * 128 + c.val →
      P p cc = (∑ ci : Fin 256, xa ci ⟨p.val / 32, by have := p.isLt; omega⟩ ⟨p.val % 32, by omega⟩ * wu ci c di dj)
          + bu c di dj)
    (Ups : ℕ → Fin 128 → EReal)
    (hpix : ∀ (r q : Fin 64) (c : Fin 128) (p : ℕ) (pp : Fin 1024) (cc : Fin 512),
      p = 128 + r.val * 72 + 4 + q.val → pp.val = (r.val / 2) * 32 + q.val / 2 →
      cc.val = (r.val % 2) * 256 + (q.val % 2) * 128 + c.val → Ups p c = P pp cc)
    (hzero : ∀ p, p < 4864 → (∀ r q : Fin 64, p ≠ 128 + r.val * 72 + 4 + q.val) → ∀ c, Ups p c = 0)
    (eye : Fin 128 → Fin 128 → EReal) (heye : ∀ c k, eye c k = if c = k then 1 else 0)
    (c : Fin 128) (p : ℕ) (hp : p < 4864) :
    ∑ k : Fin 128, eye c k * Ups p k = flat (up xa wu bu c) p := by
  rw [eye_transpose eye heye Ups c p]
  refine eq_flat_of (up xa wu bu c) (fun p => Ups p c) (fun r q => ?_) (fun p hp hne => hzero p hp hne c) p hp
  have hr := r.isLt; have hq := q.isLt; have hc := c.isLt
  exact (hpix r q c _ ⟨(r.val / 2) * 32 + q.val / 2, by omega⟩
      ⟨(r.val % 2) * 256 + (q.val % 2) * 128 + c.val, by omega⟩ rfl rfl rfl).trans
    (plane_eq_up' xa wu bu P hP c r q _ _ rfl rfl)

/-- `slab_flat_cat` with the channel index given by value. -/
theorem slab_flat_cat' (xa : Fin 256 → Fin 32 → Fin 32 → EReal) (xb : Fin 128 → Fin 64 → Fin 64 → EReal)
    (wu : Fin 256 → Fin 128 → Fin 2 → Fin 2 → EReal) (bu : Fin 128 → Fin 2 → Fin 2 → EReal)
    (S : Fin 256 → ℕ → EReal)
    (hlo : ∀ (c : Fin 128) (ch : Fin 256) p, ch.val = c.val → p < 4864 → S ch p = flat (xb c) p)
    (hhi : ∀ (c : Fin 128) (ch : Fin 256) p, ch.val = 128 + c.val → p < 4864 → S ch p = flat (up xa wu bu c) p)
    (ch : Fin 256) (p : ℕ) (hp : p < 4864) : S ch p = flat (cat xa xb wu bu ch) p :=
  slab_flat_cat xa xb wu bu S (fun c p hp => hlo c _ p rfl hp) (fun c p hp => hhi c _ p rfl hp) ch p hp

end Cert.KernelIdeal.Conv

end
-- ==== Proof.KAssembly.lean ====
/-
  From the buffers to the specification.

  The slab holds the flat layout of the specification's concatenated image: rows 0…127 the skip sample, pixel (r, q) at
  column 128 + 72·r + 4 + q and 0 elsewhere; rows 128…255 the transposed convolution of the low-resolution sample in the same
  layout, because the upsampled rows hold exactly the reshaped planes at pixel rows and 0 elsewhere and the product with the
  identity block transposes them. With the hidden slab read as max(first accumulator, 0) times the column mask inside the
  band, and an output entry read as max(second accumulator, 0) at flat position 72·y + 4 + x, the two convolutions over
  flat layouts are the specification's two 3×3 convolutions with zero padding.
-/
import proofs.«126750_g2000606872001322_pallasbulk_142_34_alg».proof.Proof.KBufs
import proofs.«126750_g2000606872001322_pallasbulk_142_34_alg».proof.Proof.KConv

noncomputable section

namespace Cert.KernelIdeal.Hand

open Idealize.ShloMosaic Idealize.ShloMosaic.ValueIdx Cert.KernelIdeal Cert.KernelIdeal.Gen
open scoped BigOperators

section Assembly
variable (c : Dev nD) (arg1 : Memref sig .tc .vmem S1x256x1024 .f32) (harg1 : arg1.IsWhole) (arg2 : Memref sig .tc .vmem S1x128x4096 .f32) (harg2 : arg2.IsWhole) (arg3 : Memref sig .tc .vmem S2952x256 .bf16) (harg3 : arg3.IsWhole) (arg4 : Memref sig .tc .vmem S256x128 .f32) (harg4 : arg4.IsWhole) (arg5 : Memref sig .tc .vmem S1x4608 .f32) (harg5 : arg5.IsWhole) (arg7 : Memref sig .tc .vmem S256x4864 .bf16) (arg8 : Memref sig .tc .vmem S128x4864 .bf16) (arg9 : Memref sig .tc .vmem S1024x512 .f32) (arg10 : Memref sig .tc .vmem S4864x128 .bf16)
  (x0 : Vec Ideal S1x256x1024 .f32) (x1 : Vec Ideal S1x128x4096 .f32) (x2 : Vec Ideal S2952x256 .bf16) (x3 : Vec Ideal S256x128 .f32) (x4 : Vec Ideal S1x4608 .f32)

/-- The slab holds the flat layout of the concatenated image of the specification: its lower half the skip sample, its
    upper half the transposed convolution of the low-resolution sample, moved there by the product with the identity block
    (`heye`: that block of the packed weights IS the identity). -/
theorem slab_is_cat
    (heye : ∀ i k : Fin 128, x2 (ix2 ⟨2818 + i.val, by omega⟩ ⟨k.val, by omega⟩) = if i = k then 1 else 0)
    (ch : Fin 256) (p : ℕ) (hp : p < 4864) :
    SlabN c arg1 harg1 arg2 harg2 arg3 harg3 arg9 arg10 x0 x1 x2 ch p
      = Conv.flat (Cert.Spec.cat (fun ci r q => x0 (ix3 0 ci ⟨r.val*32+q.val, by omega⟩))
          (fun ch r q => x1 (ix3 0 ch ⟨r.val*64+q.val, by omega⟩))
          (fun ci c' di dj => x2 (ix2 ⟨2304 + di.val*256 + ci.val, by omega⟩ ⟨dj.val*128 + c'.val, by omega⟩))
          (fun c' di dj => x2 (ix2 ⟨2816 + di.val, by omega⟩ ⟨dj.val*128 + c'.val, by omega⟩)) ch) p := by
  refine Conv.slab_flat_cat' _ _ _ _ (SlabN c arg1 harg1 arg2 harg2 arg3 harg3 arg9 arg10 x0 x1 x2) ?lo ?hi ch p hp
  case lo =>
    intro c' ch' p' hch hp'
    exact Conv.eq_flat_of' _ (fun p => SlabN c arg1 harg1 arg2 harg2 arg3 harg3 arg9 arg10 x0 x1 x2 ch' p)
      (fun r q p hpq => slab_lo_pix c arg1 harg1 arg2 harg2 arg3 harg3 arg9 arg10 x0 x1 x2 c' ch' hch r q p hpq)
      (fun p hp hne => slab_lo_zero c arg1 harg1 arg2 harg2 arg3 harg3 arg9 arg10 x0 x1 x2 c' ch' hch p hp hne) p' hp'
  case hi =>
    intro c' ch' p' hch hp'
    rw [slab_hi c arg1 harg1 arg2 harg2 arg3 harg3 arg9 arg10 x0 x1 x2 c' ch' hch p' hp']
    refine Conv.up_half_flat' _ _ _ (fun p q => PsN c arg1 harg1 arg3 harg3 x0 x2 p.val q.val) ?hP (UpsN c arg1 harg1 arg3 harg3 arg9 x0 x2) ?hpix ?hzero
      (fun c k => x2 (ix2 ⟨2818 + k.val, by omega⟩ ⟨c.val, by omega⟩)) ?heye c' p' hp'
    case hP =>
      intro p di dj cc q hq
      have hp := p.isLt; have hdi := di.isLt; have hdj := dj.isLt; have hcc := cc.isLt
      show PsN c arg1 harg1 arg3 harg3 x0 x2 p.val q.val = _
      rw [PsN_eq c arg1 harg1 arg3 harg3 x0 x2 p.val q.val ⟨p.isLt, q.isLt⟩, ps_value c arg1 harg1 arg3 harg3 x0 x2 ⟨p.val, p.isLt⟩ ⟨q.val, q.isLt⟩]
      refine congrArg₂ (· + ·) (Finset.sum_congr rfl fun ci _ => congrArg₂ (· * ·) (congrArg x0 ?_) (congrArg x2 ?_)) (congrArg x2 ?_)
      · funext a
        match a with
        | ⟨0, _⟩ => rfl
        | ⟨1, _⟩ => rfl
        | ⟨2, _⟩ => exact Fin.ext (by show p.val = p.val / 32 * 32 + p.val % 32; omega)
      · funext a
        match a with
        | ⟨0, _⟩ => exact Fin.ext (by show 2304 + 256 * (q.val / 256) + ci.val = 2304 + di.val * 256 + ci.val; omega)
        | ⟨1, _⟩ => exact Fin.ext (by show q.val % 256 = dj.val * 128 + cc.val; omega)
      · funext a
        match a with
        | ⟨0, _⟩ => exact Fin.ext (by show 2816 + q.val / 256 = 2816 + di.val; omega)
        | ⟨1, _⟩ => exact Fin.ext (by show q.val % 256 = dj.val * 128 + cc.val; omega)
    case hpix =>
      intro r q cc p pp qq hp hpp hqq
      rw [ups_pix c arg1 harg1 arg3 harg3 arg9 x0 x2 r q cc p hp]
      have hr := r.isLt; have hq := q.isLt
      refine congrArg₂ (PsN c arg1 harg1 arg3 harg3 x0 x2) ?_ ?_ <;> omega
    case hzero =>
      intro p hp hne cc
      exact ups_zero c arg1 harg1 arg3 harg3 arg9 x0 x2 p hp hne cc
    case heye =>
      intro cc k
      rw [heye k cc]
      by_cases h : cc = k
      · rw [if_pos h, if_pos h.symm]
      · rw [if_neg h, if_neg (fun h' => h h'.symm)]

/-- The block the body leaves is the specification's, GIVEN the two readings of the hidden slab and of the output pieces
    in the accumulator form: the hidden slab is max(first accumulator, 0) times the mask inside the band and 0 outside,
    the output entry is max(second accumulator, 0) at flat position 72·y + 4 + x. -/
theorem block_value_of
    (heye : ∀ i k : Fin 128, x2 (ix2 ⟨2818 + i.val, by omega⟩ ⟨k.val, by omega⟩) = if i = k then 1 else 0)
    (hmask : ∀ j : Fin 4608, x4 (ix2 0 j) = if 4 ≤ j.val % 72 ∧ j.val % 72 < 68 then 1 else 0)
    (hH : ∀ (cm : Fin 128) (p : ℕ), p < 4864 → HsN c arg1 harg1 arg2 harg2 arg3 harg3 arg4 harg4 arg5 harg5 arg7 arg9 arg10 x0 x1 x2 x3 x4 cm p
        = if 128 ≤ p ∧ p < 4736 then max (Conv.acc (w1k x2) (b1v x3) (SlabN c arg1 harg1 arg2 harg2 arg3 harg3 arg9 arg10 x0 x1 x2) cm (p - 128)) 0 * mN x4 (p - 128) else 0)
    (co : Fin 128) (y x : Fin 64) :
    max (Conv.acc (w2k x2) (b2v x3) (HsN c arg1 harg1 arg2 harg2 arg3 harg3 arg4 harg4 arg5 harg5 arg7 arg9 arg10 x0 x1 x2 x3 x4) co (72 * y.val + 4 + x.val)) 0
      = Cert.Spec.outC (fun cm ch dh dw => x2 (ix2 ⟨(dh.val*3+dw.val)*128 + cm.val, by omega⟩ ch)) (fun cm => x3 (ix2 ⟨cm.val, by omega⟩ 0)) (fun co' cm dh dw => x2 (ix2 ⟨1152 + (dh.val*3+dw.val)*128 + co'.val, by omega⟩ ⟨cm.val, by omega⟩)) (fun co' => x3 (ix2 ⟨128 + co'.val, by omega⟩ 0)) (Cert.Spec.cat (fun ci r q => x0 (ix3 0 ci ⟨r.val*32+q.val, by omega⟩)) (fun ch r q => x1 (ix3 0 ch ⟨r.val*64+q.val, by omega⟩)) (fun ci c' di dj => x2 (ix2 ⟨2304 + di.val*256 + ci.val, by omega⟩ ⟨dj.val*128 + c'.val, by omega⟩)) (fun c' di dj => x2 (ix2 ⟨2816 + di.val, by omega⟩ ⟨dj.val*128 + c'.val, by omega⟩))) co y x := by
  have hm : ∀ j, j < 4608 → mN x4 j = Conv.mask j := by
    intro j hj
    unfold mN Conv.mask
    rw [dif_pos hj, hmask ⟨j, hj⟩]
  refine (Conv.conv_eq_outC_mask (w1k x2) (b1v x3) (w2k x2) (b2v x3)
    (Cert.Spec.cat (fun ci r q => x0 (ix3 0 ci ⟨r.val*32+q.val, by omega⟩)) (fun ch r q => x1 (ix3 0 ch ⟨r.val*64+q.val, by omega⟩)) (fun ci c' di dj => x2 (ix2 ⟨2304 + di.val*256 + ci.val, by omega⟩ ⟨dj.val*128 + c'.val, by omega⟩)) (fun c' di dj => x2 (ix2 ⟨2816 + di.val, by omega⟩ ⟨dj.val*128 + c'.val, by omega⟩)))
    (SlabN c arg1 harg1 arg2 harg2 arg3 harg3 arg9 arg10 x0 x1 x2)
    (slab_is_cat c arg1 harg1 arg2 harg2 arg3 harg3 arg9 arg10 x0 x1 x2 heye) (mN x4) hm (HsN c arg1 harg1 arg2 harg2 arg3 harg3 arg4 harg4 arg5 harg5 arg7 arg9 arg10 x0 x1 x2 x3 x4) hH co y x).trans ?_
  rfl

end Assembly

end Cert.KernelIdeal.Hand

end
-- ==== Proof.KHidden.lean ====
/-
  The hidden slab, as the second convolution reads it.

  The body fills the hidden slab [128, 4864] by three stores: zeros into the 128 positions before the band, zeros into
  the 128 positions after it, and into the band's 4608 positions the first convolution's result. That result is built
  over the band, channel by channel and position by position: the bias plus a zero accumulator, then nine tap terms
  added one after another, tap k contracting rows 128·k … 128·k + 127 of the packed weights with the window of the
  concatenated slab that starts at position 55 + 72·(k / 3) + k % 3; then max with 0; then times the column mask.

  Read at channel cm and position p < 4864 this is: inside the band, max(acc₁ cm (p - 128), 0) · mask (p - 128), with
  acc₁ the nine-tap accumulator over the concatenated slab; in the two margins, 0. Every step is pointwise at an index
  except the nine matrix products, each of which is the plain sum over its contracted coordinate.
-/
import proofs.«126750_g2000606872001322_pallasbulk_142_34_alg».proof.Proof.KDefs
import proofs.«126750_g2000606872001322_pallasbulk_142_34_alg».proof.Proof.KConv
import proofs.«126750_g2000606872001322_pallasbulk_142_34_alg».proof.Proof.KCanon
import proofs.«126750_g2000606872001322_pallasbulk_142_34_alg».proof.Proof.KPay
import Idealize.ShloMosaic.Lib.WholeRead
import Idealize.ShloMosaic.PureOps.Ideal.Laws

noncomputable section

namespace Cert.KernelIdeal.Hand

open Idealize.ShloMosaic Idealize.ShloMosaic.ValueIdx Cert.KernelIdeal Cert.KernelIdeal.Gen
open scoped BigOperators

/-! ## The payloads of the first convolution read at an index -/

/-- The zero accumulator. -/
theorem pay153_apply (c : Fin 128) (j : Fin 4608) : k0_pay153 (F := Ideal) (ix2 c j) = 0 := by
  unfold k0_pay153
  show (Scalar.ofBits .f32 0x00000000#32 : Ideal .f32) = 0
  exact ofBits_zero_f32'

/-- The bias column spread along the band reads its row. -/
theorem pay154_apply (v : Vec Ideal S128x1 .f32) (c : Fin 128) (j : Fin 4608) :
    k0_pay154 (F := Ideal) v (ix2 c j) = v (ix2 c 0) := by
  unfold k0_pay154
  simp only [shapeCast_self]
  exact bcast_col_apply v c j

/-- Bias plus zero plus the first five taps, added one after another. -/
theorem pay155_apply (z b : FVec Ideal S128x4608 .f32)
    (w0 : Vec Ideal S128x256 .bf16) (s0 : Vec Ideal S256x4608 .bf16) (w1 : Vec Ideal S128x256 .bf16) (s1 : Vec Ideal S256x4608 .bf16)
    (w2 : Vec Ideal S128x256 .bf16) (s2 : Vec Ideal S256x4608 .bf16) (w3 : Vec Ideal S128x256 .bf16) (s3 : Vec Ideal S256x4608 .bf16)
    (w4 : Vec Ideal S128x256 .bf16) (s4 : Vec Ideal S256x4608 .bf16) (c : Fin 128) (j : Fin 4608) :
    k0_pay155 (F := Ideal) z b w0 s0 w1 s1 w2 s2 w3 s3 w4 s4 (ix2 c j)
      = (((((b (ix2 c j) + z (ix2 c j)) + ∑ k : Fin 256, w0 (ix2 c k) * s0 (ix2 k j))
          + ∑ k : Fin 256, w1 (ix2 c k) * s1 (ix2 k j)) + ∑ k : Fin 256, w2 (ix2 c k) * s2 (ix2 k j))
          + ∑ k : Fin 256, w3 (ix2 c k) * s3 (ix2 k j)) + ∑ k : Fin 256, w4 (ix2 c k) * s4 (ix2 k j) := by
  unfold k0_pay155
  simp only [shapeCast_self]
  show (((((b (ix2 c j) + z (ix2 c j))
      + matmul dot_S128x256_S256x4608_S128x4608_1_0_0_1_n_n none w0 s0 (constant (F := Ideal) S128x4608 .f32 0x00000000#32) (ix2 c j))
      + matmul dot_S128x256_S256x4608_S128x4608_1_0_0_1_n_n none w1 s1 (constant (F := Ideal) S128x4608 .f32 0x00000000#32) (ix2 c j))
      + matmul dot_S128x256_S256x4608_S128x4608_1_0_0_1_n_n none w2 s2 (constant (F := Ideal) S128x4608 .f32 0x00000000#32) (ix2 c j))
      + matmul dot_S128x256_S256x4608_S128x4608_1_0_0_1_n_n none w3 s3 (constant (F := Ideal) S128x4608 .f32 0x00000000#32) (ix2 c j))
      + matmul dot_S128x256_S256x4608_S128x4608_1_0_0_1_n_n none w4 s4 (constant (F := Ideal) S128x4608 .f32 0x00000000#32) (ix2 c j) = _
  rw [mm_conv1_apply, mm_conv1_apply, mm_conv1_apply, mm_conv1_apply, mm_conv1_apply]

/-- The sixth tap by itself. -/
theorem pay156_apply (w : Vec Ideal S128x256 .bf16) (s : Vec Ideal S256x4608 .bf16) (c : Fin 128) (j : Fin 4608) :
    k0_pay156 (F := Ideal) w s (ix2 c j) = ∑ k : Fin 256, w (ix2 c k) * s (ix2 k j) := by
  unfold k0_pay156
  simp only [shapeCast_self]
  exact mm_conv1_apply w s c j

/-- The last three taps added on, max with 0, times the mask row. -/
theorem pay159_apply (a a5 : FVec Ideal S128x4608 .f32)
    (w6 : Vec Ideal S128x256 .bf16) (s6 : Vec Ideal S256x4608 .bf16) (w7 : Vec Ideal S128x256 .bf16) (s7 : Vec Ideal S256x4608 .bf16)
    (w8 : Vec Ideal S128x256 .bf16) (s8 : Vec Ideal S256x4608 .bf16) (m : Vec Ideal S1x4608 .f32) (c : Fin 128) (j : Fin 4608) :
    k0_pay159 (F := Ideal) a a5 w6 s6 w7 s7 w8 s8 m (ix2 c j)
      = max ((((a (ix2 c j) + a5 (ix2 c j)) + ∑ k : Fin 256, w6 (ix2 c k) * s6 (ix2 k j))
          + ∑ k : Fin 256, w7 (ix2 c k) * s7 (ix2 k j)) + ∑ k : Fin 256, w8 (ix2 c k) * s8 (ix2 k j)) 0 * m (ix2 0 j) := by
  unfold k0_pay159
  simp only [shapeCast_self]
  show max ((((a (ix2 c j) + a5 (ix2 c j))
      + matmul dot_S128x256_S256x4608_S128x4608_1_0_0_1_n_n none w6 s6 (constant (F := Ideal) S128x4608 .f32 0x00000000#32) (ix2 c j))
      + matmul dot_S128x256_S256x4608_S128x4608_1_0_0_1_n_n none w7 s7 (constant (F := Ideal) S128x4608 .f32 0x00000000#32) (ix2 c j))
      + matmul dot_S128x256_S256x4608_S128x4608_1_0_0_1_n_n none w8 s8 (constant (F := Ideal) S128x4608 .f32 0x00000000#32) (ix2 c j))
      (Scalar.ofBits .f32 0x00000000#32 : Ideal .f32)
      * (broadcastTo S128x4608 m broadcasts_S1x4608_S128x4608 : FVec Ideal S128x4608 .f32) (ix2 c j) = _
  rw [mm_conv1_apply, mm_conv1_apply, mm_conv1_apply, bcast_mask_apply, ofBits_zero_f32']

/-- The band's store carries the masked hidden values unchanged. -/
theorem pay160_apply (v : FVec Ideal S128x4608 .bf16) : k0_pay160 (F := Ideal) v = v := by
  unfold k0_pay160
  simp only [shapeCast_self]

/-- The two margin stores carry zeros. -/
theorem pay157_apply (i : S128x128.Idx) : k0_pay157 (F := Ideal) i = 0 := by
  unfold k0_pay157
  simp only [shapeCast_self]
  show (Scalar.ofBits .bf16 0x0000#16 : Ideal .bf16) = 0
  exact ofBits_zero_bf16
theorem pay158_apply (i : S128x128.Idx) : k0_pay158 (F := Ideal) i = 0 := by
  unfold k0_pay158
  simp only [shapeCast_self]
  show (Scalar.ofBits .bf16 0x0000#16 : Ideal .bf16) = 0
  exact ofBits_zero_bf16

/-! ## The loads of the first convolution read at an index -/

section Run
variable (c : Dev nD) (arg1 : Memref sig .tc .vmem S1x256x1024 .f32) (harg1 : arg1.IsWhole) (arg2 : Memref sig .tc .vmem S1x128x4096 .f32) (harg2 : arg2.IsWhole) (arg3 : Memref sig .tc .vmem S2952x256 .bf16) (harg3 : arg3.IsWhole) (arg4 : Memref sig .tc .vmem S256x128 .f32) (harg4 : arg4.IsWhole) (arg5 : Memref sig .tc .vmem S1x4608 .f32) (harg5 : arg5.IsWhole) (arg7 : Memref sig .tc .vmem S256x4864 .bf16) (arg8 : Memref sig .tc .vmem S128x4864 .bf16) (arg9 : Memref sig .tc .vmem S1024x512 .f32) (arg10 : Memref sig .tc .vmem S4864x128 .bf16)
  (x0 : Vec Ideal S1x256x1024 .f32) (x1 : Vec Ideal S1x128x4096 .f32) (x2 : Vec Ideal S2952x256 .bf16) (x3 : Vec Ideal S256x128 .f32) (x4 : Vec Ideal S1x4608 .f32)

/-- Tap k's weight block, loaded from rows 128·k … of the packed weights. -/
theorem w1load_apply (k : Fin 9) (off : ℕ) (hoff : off = 128 * k.val)
    (inb : ∀ a, (![off, 0] : Fin 2 → ℕ) a + S128x256.size a ≤ S2952x256.size a) (cm : Fin 128) (i : Fin 256) :
    View.readAt (Elt Ideal) arg3.view (Rect.unit (s := S2952x256) ![off, 0] S128x256.size inb).toLoadRect (harg3.unread x2) (ix2 cm i)
      = w1k x2 k cm i := by
  refine (Memref.IsWhole.readAt_unread harg3 x2 (Rect.unit (s := S2952x256) ![off, 0] S128x256.size inb).toLoadRect (ix2 cm i)).trans ?_
  unfold w1k
  refine congrArg x2 (funext fun a => Fin.ext ?_)
  match a with
  | ⟨0, _⟩ => show off + 1 * cm.val = k.val * 128 + cm.val; omega
  | ⟨1, _⟩ => show 0 + 1 * i.val = i.val; omega

/-- A window of 4608 positions of the slab, read after the slab's stores. -/
theorem slabwin_apply (off : ℕ) (hoff : off + 4608 ≤ 4864)
    (inb : ∀ a, (![0, off] : Fin 2 → ℕ) a + S256x4608.size a ≤ S256x4864.size a) (i : Fin 256) (j : Fin 4608) :
    arg7.view.readCov (kernelRun0_A.sl.HS0_66 (F := Ideal) c arg1 harg1 arg2 harg2 arg3 harg3 arg9 arg10 x0 x1 x2)
        (Rect.unit (s := S256x4864) ![0, off] S256x4608.size inb).toLoadRect (ix2 i j)
      = SlabN c arg1 harg1 arg2 harg2 arg3 harg3 arg9 arg10 x0 x1 x2 i (off + j.val) := by
  have hj := j.isLt
  rw [View.readCov_eq_canon']
  unfold SlabN SlabC
  rw [dif_pos (by omega)]
  refine congrArg _ (funext fun a => Fin.ext ?_)
  match a with
  | ⟨0, _⟩ => show 0 + 1 * i.val = i.val; omega
  | ⟨1, _⟩ => show off + 1 * j.val = off + j.val; omega

/-- One tap's product at an index: the tap's weights against the slab's window. -/
theorem tap1_apply (k : Fin 9) (offW offS : ℕ) (hW : offW = 128 * k.val) (hS : offS + 4608 ≤ 4864)
    (inbW : ∀ a, (![offW, 0] : Fin 2 → ℕ) a + S128x256.size a ≤ S2952x256.size a)
    (inbS : ∀ a, (![0, offS] : Fin 2 → ℕ) a + S256x4608.size a ≤ S256x4864.size a) (cm : Fin 128) (j : Fin 4608) :
    (∑ i : Fin 256,
      View.readAt (Elt Ideal) arg3.view (Rect.unit (s := S2952x256) ![offW, 0] S128x256.size inbW).toLoadRect (harg3.unread x2) (ix2 cm i)
        * arg7.view.readCov (kernelRun0_A.sl.HS0_66 (F := Ideal) c arg1 harg1 arg2 harg2 arg3 harg3 arg9 arg10 x0 x1 x2)
            (Rect.unit (s := S256x4864) ![0, offS] S256x4608.size inbS).toLoadRect (ix2 i j))
      = ∑ i : Fin 256, w1k x2 k cm i * SlabN c arg1 harg1 arg2 harg2 arg3 harg3 arg9 arg10 x0 x1 x2 i (offS + j.val) :=
  Finset.sum_congr rfl fun i _ => by
    rw [w1load_apply arg3 harg3 x2 k offW hW inbW cm i,
      slabwin_apply c arg1 harg1 arg2 harg2 arg3 harg3 arg7 arg9 arg10 x0 x1 x2 offS hS inbS i j]

/-- The bias column as loaded: column 0 of rows 0…127 of the bias array. -/
theorem b1load_apply (inb : ∀ a, (![0, 0] : Fin 2 → ℕ) a + S128x1.size a ≤ S256x128.size a) (cm : Fin 128) :
    View.readAt (Elt Ideal) arg4.view (Rect.unit (s := S256x128) ![0, 0] S128x1.size inb).toLoadRect (harg4.unread x3) (ix2 cm 0)
      = b1v x3 cm := by
  refine (Memref.IsWhole.readAt_unread harg4 x3 (Rect.unit (s := S256x128) ![0, 0] S128x1.size inb).toLoadRect (ix2 cm 0)).trans ?_
  unfold b1v
  refine congrArg x3 (funext fun a => Fin.ext ?_)
  match a with
  | ⟨0, _⟩ => show 0 + 1 * cm.val = cm.val; omega
  | ⟨1, _⟩ => rfl

/-- The mask row as loaded. -/
theorem mload_apply (inb : ∀ a, (![0, 0] : Fin 2 → ℕ) a + S1x4608.size a ≤ S1x4608.size a) (j : Fin 4608) :
    View.readAt (Elt Ideal) arg5.view (Rect.unit (s := S1x4608) ![0, 0] S1x4608.size inb).toLoadRect (harg5.unread x4) (ix2 0 j)
      = mN x4 j.val := by
  refine (Memref.IsWhole.readAt_unread harg5 x4 (Rect.unit (s := S1x4608) ![0, 0] S1x4608.size inb).toLoadRect (ix2 0 j)).trans ?_
  unfold mN
  rw [dif_pos j.isLt]
  refine congrArg x4 (funext fun a => Fin.ext ?_)
  match a with
  | ⟨0, _⟩ => rfl
  | ⟨1, _⟩ => show 0 + 1 * j.val = j.val; omega

/-! ## The first convolution's accumulator, as the run builds it -/

/-- The bias spread along the band. -/
theorem r19_apply (cm : Fin 128) (j : Fin 4608) :
    kernelRun0_A.sl.r_19 (F := Ideal) c arg4 harg4 x3 (ix2 cm j) = b1v x3 cm := by
  unfold kernelRun0_A.sl.r_19
  refine (pay154_apply _ cm j).trans ?_
  exact b1load_apply arg4 harg4 x3 _ cm

/-- Bias, zero and taps 0…4. -/
theorem r20_apply (cm : Fin 128) (j : Fin 4608) :
    kernelRun0_A.sl.r_20 (F := Ideal) c arg1 harg1 arg2 harg2 arg3 harg3 arg4 harg4 arg7 arg9 arg10 x0 x1 x2 x3 (ix2 cm j)
      = (((((b1v x3 cm + 0) + ∑ i : Fin 256, w1k x2 0 cm i * SlabN c arg1 harg1 arg2 harg2 arg3 harg3 arg9 arg10 x0 x1 x2 i (55 + j.val))
          + ∑ i : Fin 256, w1k x2 1 cm i * SlabN c arg1 harg1 arg2 harg2 arg3 harg3 arg9 arg10 x0 x1 x2 i (56 + j.val))
          + ∑ i : Fin 256, w1k x2 2 cm i * SlabN c arg1 harg1 arg2 harg2 arg3 harg3 arg9 arg10 x0 x1 x2 i (57 + j.val))
          + ∑ i : Fin 256, w1k x2 3 cm i * SlabN c arg1 harg1 arg2 harg2 arg3 harg3 arg9 arg10 x0 x1 x2 i (127 + j.val))
          + ∑ i : Fin 256, w1k x2 4 cm i * SlabN c arg1 harg1 arg2 harg2 arg3 harg3 arg9 arg10 x0 x1 x2 i (128 + j.val) := by
  unfold kernelRun0_A.sl.r_20
  refine (pay155_apply _ _ _ _ _ _ _ _ _ _ _ _ cm j).trans ?_
  rw [r19_apply, pay153_apply]
  unfold kernelRun0_A.sl.v880 kernelRun0_A.sl.v885 kernelRun0_A.sl.v890 kernelRun0_A.sl.v895 kernelRun0_A.sl.v900
  rw [tap1_apply c arg1 harg1 arg2 harg2 arg3 harg3 arg7 arg9 arg10 x0 x1 x2 0 0 55 (by decide) (by omega), tap1_apply c arg1 harg1 arg2 harg2 arg3 harg3 arg7 arg9 arg10 x0 x1 x2 1 128 56 (by decide) (by omega), tap1_apply c arg1 harg1 arg2 harg2 arg3 harg3 arg7 arg9 arg10 x0 x1 x2 2 256 57 (by decide) (by omega),
    tap1_apply c arg1 harg1 arg2 harg2 arg3 harg3 arg7 arg9 arg10 x0 x1 x2 3 384 127 (by decide) (by omega), tap1_apply c arg1 harg1 arg2 harg2 arg3 harg3 arg7 arg9 arg10 x0 x1 x2 4 512 128 (by decide) (by omega)]

/-- Tap 5. -/
theorem r21_apply (cm : Fin 128) (j : Fin 4608) :
    kernelRun0_A.sl.r_21 (F := Ideal) c arg1 harg1 arg2 harg2 arg3 harg3 arg7 arg9 arg10 x0 x1 x2 (ix2 cm j)
      = ∑ i : Fin 256, w1k x2 5 cm i * SlabN c arg1 harg1 arg2 harg2 arg3 harg3 arg9 arg10 x0 x1 x2 i (129 + j.val) := by
  unfold kernelRun0_A.sl.r_21
  refine (pay156_apply _ _ cm j).trans ?_
  unfold kernelRun0_A.sl.v905
  exact tap1_apply c arg1 harg1 arg2 harg2 arg3 harg3 arg7 arg9 arg10 x0 x1 x2 5 640 129 (by decide) (by omega) _ _ cm j

/-- The masked hidden values over the band: the nine-tap accumulator, max with 0, times the mask. -/
theorem r22_apply (cm : Fin 128) (j : Fin 4608) :
    kernelRun0_A.sl.r_22 (F := Ideal) c arg1 harg1 arg2 harg2 arg3 harg3 arg4 harg4 arg5 harg5 arg7 arg9 arg10 x0 x1 x2 x3 x4 (ix2 cm j)
      = max (Conv.acc (w1k x2) (b1v x3) (SlabN c arg1 harg1 arg2 harg2 arg3 harg3 arg9 arg10 x0 x1 x2) cm j.val) 0 * mN x4 j.val := by
  unfold kernelRun0_A.sl.r_22
  refine (pay159_apply _ _ _ _ _ _ _ _ _ cm j).trans ?_
  rw [r20_apply, r21_apply, mload_apply]
  unfold kernelRun0_A.sl.v910 kernelRun0_A.sl.v915 kernelRun0_A.sl.v920
  rw [tap1_apply c arg1 harg1 arg2 harg2 arg3 harg3 arg7 arg9 arg10 x0 x1 x2 6 768 199 (by decide) (by omega), tap1_apply c arg1 harg1 arg2 harg2 arg3 harg3 arg7 arg9 arg10 x0 x1 x2 7 896 200 (by decide) (by omega), tap1_apply c arg1 harg1 arg2 harg2 arg3 harg3 arg7 arg9 arg10 x0 x1 x2 8 1024 201 (by decide) (by omega)]
  rfl

/-! ## The hidden slab as the second convolution reads it -/

/-- The hidden slab at channel cm, position p: inside the band the masked hidden value, in the two margins zero. -/
theorem hs_value (cm : Fin 128) (p : ℕ) (hp : p < 4864) :
    HsN c arg1 harg1 arg2 harg2 arg3 harg3 arg4 harg4 arg5 harg5 arg7 arg9 arg10 x0 x1 x2 x3 x4 cm p
      = if 128 ≤ p ∧ p < 4736 then
          max (Conv.acc (w1k x2) (b1v x3) (SlabN c arg1 harg1 arg2 harg2 arg3 harg3 arg9 arg10 x0 x1 x2) cm (p - 128)) 0 * mN x4 (p - 128)
        else 0 := by
  unfold HsN HsC
  rw [dif_pos hp]
  unfold kernelRun0_A.sl.HS1_3
  by_cases hb : 128 ≤ p ∧ p < 4736
  · rw [if_pos hb]
    refine (canon_cons_unit_of_mem _ _ _ (ix2 cm ⟨p, hp⟩) (ix2 cm (⟨p - 128, by omega⟩ : Fin 4608)) ?_).trans ?_
    · intro a
      match a with
      | ⟨0, _⟩ => show cm.val = 0 + cm.val; omega
      | ⟨1, _⟩ => show p = 128 + (p - 128); omega
    · rw [pay160_apply]
      exact r22_apply c arg1 harg1 arg2 harg2 arg3 harg3 arg4 harg4 arg5 harg5 arg7 arg9 arg10 x0 x1 x2 x3 x4 cm ⟨p - 128, by omega⟩
  · rw [if_neg hb]
    by_cases hlo : p < 128
    · refine (canon_cons_unit_of_not_mem _ _ _ (ix2 cm ⟨p, hp⟩) ⟨1, by decide⟩ (Or.inl hlo)).trans ?_
      refine (canon_cons_unit_of_not_mem _ _ _ (ix2 cm ⟨p, hp⟩) ⟨1, by decide⟩ (Or.inl (show p < 4736 by omega))).trans ?_
      refine (canon_cons_unit_of_mem _ _ _ (ix2 cm ⟨p, hp⟩) (ix2 cm (⟨p, hlo⟩ : Fin 128)) ?_).trans (pay157_apply _)
      intro a
      match a with
      | ⟨0, _⟩ => show cm.val = 0 + cm.val; omega
      | ⟨1, _⟩ => show p = 0 + p; omega
    · have hhi : 4736 ≤ p := by omega
      refine (canon_cons_unit_of_not_mem _ _ _ (ix2 cm ⟨p, hp⟩) ⟨1, by decide⟩ (Or.inr (show 128 + 4608 ≤ p by omega))).trans ?_
      refine (canon_cons_unit_of_mem _ _ _ (ix2 cm ⟨p, hp⟩) (ix2 cm (⟨p - 4736, by omega⟩ : Fin 128)) ?_).trans (pay158_apply _)
      intro a
      match a with
      | ⟨0, _⟩ => show cm.val = 0 + cm.val; omega
      | ⟨1, _⟩ => show p = 4736 + (p - 4736); omega

end Run

end Cert.KernelIdeal.Hand

end
-- ==== Proof.KOutput.lean ====
/-
  The output block, as the body leaves it.

  The second convolution is built over the band exactly as the first: the second bias plus a zero accumulator, then
  nine tap terms added one after another, tap k contracting rows 1152 + 128·k … of the packed weights (their first 128
  columns) with the window of the HIDDEN slab that starts at position 55 + 72·(k / 3) + k % 3; then max with 0. Call
  the result V, an array over (channel, band position).

  The body then stores 64 windows of V into the output's block [1, 128, 4096], one per image row r: the 64 band
  positions 72·r + 4 … 72·r + 67 (the true columns of pitch row r) go to columns 64·r … 64·r + 63. Every one of these
  stores carries the block, under its own rectangle, of ONE function of the block's index: entry (z, co, 64·y + x) is
  V at (co, 72·y + 4 + x). The stores tile the block, so the block IS that function; and V at the band position of
  pixel (y, x) is max(acc₂ co (72·y + 4 + x), 0) with acc₂ the nine-tap accumulator over the hidden slab.
-/
import proofs.«126750_g2000606872001322_pallasbulk_142_34_alg».proof.Proof.KHidden

noncomputable section

namespace Cert.KernelIdeal.Hand

open Idealize.ShloMosaic Idealize.ShloMosaic.ValueIdx Cert.KernelIdeal Cert.KernelIdeal.Gen
open scoped BigOperators

/-! ## The payloads of the second convolution read at an index -/

/-- Bias plus zero plus the first four taps, added one after another. -/
theorem pay161_apply (b : Vec Ideal S128x1 .f32)
    (w0 : Vec Ideal S128x128 .bf16) (s0 : Vec Ideal S128x4608 .bf16) (w1 : Vec Ideal S128x128 .bf16) (s1 : Vec Ideal S128x4608 .bf16)
    (w2 : Vec Ideal S128x128 .bf16) (s2 : Vec Ideal S128x4608 .bf16) (w3 : Vec Ideal S128x128 .bf16) (s3 : Vec Ideal S128x4608 .bf16)
    (c : Fin 128) (j : Fin 4608) :
    k0_pay161 (F := Ideal) b w0 s0 w1 s1 w2 s2 w3 s3 (ix2 c j)
      = ((((b (ix2 c 0) + 0) + ∑ k : Fin 128, w0 (ix2 c k) * s0 (ix2 k j))
          + ∑ k : Fin 128, w1 (ix2 c k) * s1 (ix2 k j)) + ∑ k : Fin 128, w2 (ix2 c k) * s2 (ix2 k j))
          + ∑ k : Fin 128, w3 (ix2 c k) * s3 (ix2 k j) := by
  unfold k0_pay161
  simp only [shapeCast_self]
  show (((((broadcastTo S128x4608 b broadcasts_S128x1_S128x4608 : FVec Ideal S128x4608 .f32) (ix2 c j)
        + (Scalar.ofBits .f32 0x00000000#32 : Ideal .f32))
      + matmul dot_S128x128_S128x4608_S128x4608_1_0_0_1_n_n none w0 s0 (constant (F := Ideal) S128x4608 .f32 0x00000000#32) (ix2 c j))
      + matmul dot_S128x128_S128x4608_S128x4608_1_0_0_1_n_n none w1 s1 (constant (F := Ideal) S128x4608 .f32 0x00000000#32) (ix2 c j))
      + matmul dot_S128x128_S128x4608_S128x4608_1_0_0_1_n_n none w2 s2 (constant (F := Ideal) S128x4608 .f32 0x00000000#32) (ix2 c j))
      + matmul dot_S128x128_S128x4608_S128x4608_1_0_0_1_n_n none w3 s3 (constant (F := Ideal) S128x4608 .f32 0x00000000#32) (ix2 c j) = _
  rw [mm_conv2_apply, mm_conv2_apply, mm_conv2_apply, mm_conv2_apply, bcast_col_apply, ofBits_zero_f32']

/-- The fifth tap by itself. -/
theorem pay162_apply (w : Vec Ideal S128x128 .bf16) (s : Vec Ideal S128x4608 .bf16) (c : Fin 128) (j : Fin 4608) :
    k0_pay162 (F := Ideal) w s (ix2 c j) = ∑ k : Fin 128, w (ix2 c k) * s (ix2 k j) := by
  unfold k0_pay162
  simp only [shapeCast_self]
  exact mm_conv2_apply w s c j

/-- The last four taps added on, then max with 0. -/
theorem pay163_apply (a a4 : FVec Ideal S128x4608 .f32)
    (w5 : Vec Ideal S128x128 .bf16) (s5 : Vec Ideal S128x4608 .bf16) (w6 : Vec Ideal S128x128 .bf16) (s6 : Vec Ideal S128x4608 .bf16)
    (w7 : Vec Ideal S128x128 .bf16) (s7 : Vec Ideal S128x4608 .bf16) (w8 : Vec Ideal S128x128 .bf16) (s8 : Vec Ideal S128x4608 .bf16)
    (c : Fin 128) (j : Fin 4608) :
    k0_pay163 (F := Ideal) a a4 w5 s5 w6 s6 w7 s7 w8 s8 (ix2 c j)
      = max (((((a (ix2 c j) + a4 (ix2 c j)) + ∑ k : Fin 128, w5 (ix2 c k) * s5 (ix2 k j))
          + ∑ k : Fin 128, w6 (ix2 c k) * s6 (ix2 k j)) + ∑ k : Fin 128, w7 (ix2 c k) * s7 (ix2 k j))
          + ∑ k : Fin 128, w8 (ix2 c k) * s8 (ix2 k j)) 0 := by
  unfold k0_pay163
  simp only [shapeCast_self]
  show max (((((a (ix2 c j) + a4 (ix2 c j))
      + matmul dot_S128x128_S128x4608_S128x4608_1_0_0_1_n_n none w5 s5 (constant (F := Ideal) S128x4608 .f32 0x00000000#32) (ix2 c j))
      + matmul dot_S128x128_S128x4608_S128x4608_1_0_0_1_n_n none w6 s6 (constant (F := Ideal) S128x4608 .f32 0x00000000#32) (ix2 c j))
      + matmul dot_S128x128_S128x4608_S128x4608_1_0_0_1_n_n none w7 s7 (constant (F := Ideal) S128x4608 .f32 0x00000000#32) (ix2 c j))
      + matmul dot_S128x128_S128x4608_S128x4608_1_0_0_1_n_n none w8 s8 (constant (F := Ideal) S128x4608 .f32 0x00000000#32) (ix2 c j))
      (Scalar.ofBits .f32 0x00000000#32 : Ideal .f32) = _
  rw [mm_conv2_apply, mm_conv2_apply, mm_conv2_apply, mm_conv2_apply, ofBits_zero_f32']

/-! ## The loads of the second convolution read at an index -/

section Run2
variable (c : Dev nD) (arg1 : Memref sig .tc .vmem S1x256x1024 .f32) (harg1 : arg1.IsWhole) (arg2 : Memref sig .tc .vmem S1x128x4096 .f32) (harg2 : arg2.IsWhole) (arg3 : Memref sig .tc .vmem S2952x256 .bf16) (harg3 : arg3.IsWhole) (arg4 : Memref sig .tc .vmem S256x128 .f32) (harg4 : arg4.IsWhole) (arg5 : Memref sig .tc .vmem S1x4608 .f32) (harg5 : arg5.IsWhole) (arg7 : Memref sig .tc .vmem S256x4864 .bf16) (arg8 : Memref sig .tc .vmem S128x4864 .bf16) (arg9 : Memref sig .tc .vmem S1024x512 .f32) (arg10 : Memref sig .tc .vmem S4864x128 .bf16)
  (x0 : Vec Ideal S1x256x1024 .f32) (x1 : Vec Ideal S1x128x4096 .f32) (x2 : Vec Ideal S2952x256 .bf16) (x3 : Vec Ideal S256x128 .f32) (x4 : Vec Ideal S1x4608 .f32)

/-- Tap k's weight block of the second convolution, loaded from rows 1152 + 128·k … of the packed weights. -/
theorem w2load_apply (k : Fin 9) (off : ℕ) (hoff : off = 1152 + 128 * k.val)
    (inb : ∀ a, (![off, 0] : Fin 2 → ℕ) a + S128x128.size a ≤ S2952x256.size a) (co : Fin 128) (cm : Fin 128) :
    View.readAt (Elt Ideal) arg3.view (Rect.unit (s := S2952x256) ![off, 0] S128x128.size inb).toLoadRect (harg3.unread x2) (ix2 co cm)
      = w2k x2 k co cm := by
  refine (Memref.IsWhole.readAt_unread harg3 x2 (Rect.unit (s := S2952x256) ![off, 0] S128x128.size inb).toLoadRect (ix2 co cm)).trans ?_
  unfold w2k
  refine congrArg x2 (funext fun a => Fin.ext ?_)
  match a with
  | ⟨0, _⟩ => show off + 1 * co.val = 1152 + k.val * 128 + co.val; omega
  | ⟨1, _⟩ => show 0 + 1 * cm.val = cm.val; omega

/-- A window of 4608 positions of the hidden slab, read after the hidden slab's stores. -/
theorem hswin_apply (off : ℕ) (hoff : off + 4608 ≤ 4864)
    (inb : ∀ a, (![0, off] : Fin 2 → ℕ) a + S128x4608.size a ≤ S128x4864.size a) (cm : Fin 128) (j : Fin 4608) :
    arg8.view.readCov (kernelRun0_A.sl.HS1_3 (F := Ideal) c arg1 harg1 arg2 harg2 arg3 harg3 arg4 harg4 arg5 harg5 arg7 arg9 arg10 x0 x1 x2 x3 x4)
        (Rect.unit (s := S128x4864) ![0, off] S128x4608.size inb).toLoadRect (ix2 cm j)
      = HsN c arg1 harg1 arg2 harg2 arg3 harg3 arg4 harg4 arg5 harg5 arg7 arg9 arg10 x0 x1 x2 x3 x4 cm (off + j.val) := by
  have hj := j.isLt
  rw [View.readCov_eq_canon']
  unfold HsN HsC
  rw [dif_pos (by omega)]
  refine congrArg _ (funext fun a => Fin.ext ?_)
  match a with
  | ⟨0, _⟩ => show 0 + 1 * cm.val = cm.val; omega
  | ⟨1, _⟩ => show off + 1 * j.val = off + j.val; omega

/-- One tap's product at an index: the tap's weights against the hidden slab's window. -/
theorem tap2_apply (k : Fin 9) (offW offS : ℕ) (hW : offW = 1152 + 128 * k.val) (hS : offS + 4608 ≤ 4864)
    (inbW : ∀ a, (![offW, 0] : Fin 2 → ℕ) a + S128x128.size a ≤ S2952x256.size a)
    (inbS : ∀ a, (![0, offS] : Fin 2 → ℕ) a + S128x4608.size a ≤ S128x4864.size a) (co : Fin 128) (j : Fin 4608) :
    (∑ cm : Fin 128,
      View.readAt (Elt Ideal) arg3.view (Rect.unit (s := S2952x256) ![offW, 0] S128x128.size inbW).toLoadRect (harg3.unread x2) (ix2 co cm)
        * arg8.view.readCov (kernelRun0_A.sl.HS1_3 (F := Ideal) c arg1 harg1 arg2 harg2 arg3 harg3 arg4 harg4 arg5 harg5 arg7 arg9 arg10 x0 x1 x2 x3 x4)
            (Rect.unit (s := S128x4864) ![0, offS] S128x4608.size inbS).toLoadRect (ix2 cm j))
      = ∑ cm : Fin 128, w2k x2 k co cm * HsN c arg1 harg1 arg2 harg2 arg3 harg3 arg4 harg4 arg5 harg5 arg7 arg9 arg10 x0 x1 x2 x3 x4 cm (offS + j.val) :=
  Finset.sum_congr rfl fun cm _ => by
    rw [w2load_apply arg3 harg3 x2 k offW hW inbW co cm,
      hswin_apply c arg1 harg1 arg2 harg2 arg3 harg3 arg4 harg4 arg5 harg5 arg7 arg8 arg9 arg10 x0 x1 x2 x3 x4 offS hS inbS cm j]

/-- The second bias column as loaded: column 0 of rows 128…255 of the bias array. -/
theorem b2load_apply (inb : ∀ a, (![128, 0] : Fin 2 → ℕ) a + S128x1.size a ≤ S256x128.size a) (co : Fin 128) :
    View.readAt (Elt Ideal) arg4.view (Rect.unit (s := S256x128) ![128, 0] S128x1.size inb).toLoadRect (harg4.unread x3) (ix2 co 0)
      = b2v x3 co := by
  refine (Memref.IsWhole.readAt_unread harg4 x3 (Rect.unit (s := S256x128) ![128, 0] S128x1.size inb).toLoadRect (ix2 co 0)).trans ?_
  unfold b2v
  refine congrArg x3 (funext fun a => Fin.ext ?_)
  match a with
  | ⟨0, _⟩ => show 128 + 1 * co.val = 128 + co.val; omega
  | ⟨1, _⟩ => rfl

/-! ## The second convolution's accumulator, as the run builds it -/

/-- Bias, zero and taps 0…3. -/
theorem r23_apply (co : Fin 128) (j : Fin 4608) :
    kernelRun0_A.sl.r_23 (F := Ideal) c arg1 harg1 arg2 harg2 arg3 harg3 arg4 harg4 arg5 harg5 arg7 arg8 arg9 arg10 x0 x1 x2 x3 x4 (ix2 co j)
      = ((((b2v x3 co + 0) + ∑ cm : Fin 128, w2k x2 0 co cm * HsN c arg1 harg1 arg2 harg2 arg3 harg3 arg4 harg4 arg5 harg5 arg7 arg9 arg10 x0 x1 x2 x3 x4 cm (55 + j.val))
          + ∑ cm : Fin 128, w2k x2 1 co cm * HsN c arg1 harg1 arg2 harg2 arg3 harg3 arg4 harg4 arg5 harg5 arg7 arg9 arg10 x0 x1 x2 x3 x4 cm (56 + j.val))
          + ∑ cm : Fin 128, w2k x2 2 co cm * HsN c arg1 harg1 arg2 harg2 arg3 harg3 arg4 harg4 arg5 harg5 arg7 arg9 arg10 x0 x1 x2 x3 x4 cm (57 + j.val))
          + ∑ cm : Fin 128, w2k x2 3 co cm * HsN c arg1 harg1 arg2 harg2 arg3 harg3 arg4 harg4 arg5 harg5 arg7 arg9 arg10 x0 x1 x2 x3 x4 cm (127 + j.val) := by
  unfold kernelRun0_A.sl.r_23
  refine (pay161_apply _ _ _ _ _ _ _ _ _ co j).trans ?_
  rw [b2load_apply]
  unfold kernelRun0_A.sl.v948 kernelRun0_A.sl.v953 kernelRun0_A.sl.v958 kernelRun0_A.sl.v963
  rw [tap2_apply c arg1 harg1 arg2 harg2 arg3 harg3 arg4 harg4 arg5 harg5 arg7 arg8 arg9 arg10 x0 x1 x2 x3 x4 0 1152 55 (by decide) (by omega), tap2_apply c arg1 harg1 arg2 harg2 arg3 harg3 arg4 harg4 arg5 harg5 arg7 arg8 arg9 arg10 x0 x1 x2 x3 x4 1 1280 56 (by decide) (by omega),
    tap2_apply c arg1 harg1 arg2 harg2 arg3 harg3 arg4 harg4 arg5 harg5 arg7 arg8 arg9 arg10 x0 x1 x2 x3 x4 2 1408 57 (by decide) (by omega), tap2_apply c arg1 harg1 arg2 harg2 arg3 harg3 arg4 harg4 arg5 harg5 arg7 arg8 arg9 arg10 x0 x1 x2 x3 x4 3 1536 127 (by decide) (by omega)]

/-- Tap 4. -/
theorem r24_apply (co : Fin 128) (j : Fin 4608) :
    kernelRun0_A.sl.r_24 (F := Ideal) c arg1 harg1 arg2 harg2 arg3 harg3 arg4 harg4 arg5 harg5 arg7 arg8 arg9 arg10 x0 x1 x2 x3 x4 (ix2 co j)
      = ∑ cm : Fin 128, w2k x2 4 co cm * HsN c arg1 harg1 arg2 harg2 arg3 harg3 arg4 harg4 arg5 harg5 arg7 arg9 arg10 x0 x1 x2 x3 x4 cm (128 + j.val) := by
  unfold kernelRun0_A.sl.r_24
  refine (pay162_apply _ _ co j).trans ?_
  unfold kernelRun0_A.sl.v968
  exact tap2_apply c arg1 harg1 arg2 harg2 arg3 harg3 arg4 harg4 arg5 harg5 arg7 arg8 arg9 arg10 x0 x1 x2 x3 x4 4 1664 128 (by decide) (by omega) _ _ co j

/-- The second convolution's result over the band: the nine-tap accumulator over the hidden slab, max with 0. -/
theorem r25_apply (co : Fin 128) (j : Fin 4608) :
    kernelRun0_A.sl.r_25 (F := Ideal) c arg1 harg1 arg2 harg2 arg3 harg3 arg4 harg4 arg5 harg5 arg7 arg8 arg9 arg10 x0 x1 x2 x3 x4 (ix2 co j)
      = max (Conv.acc (w2k x2) (b2v x3) (HsN c arg1 harg1 arg2 harg2 arg3 harg3 arg4 harg4 arg5 harg5 arg7 arg9 arg10 x0 x1 x2 x3 x4) co j.val) 0 := by
  unfold kernelRun0_A.sl.r_25
  refine (pay163_apply _ _ _ _ _ _ _ _ _ _ co j).trans ?_
  rw [r23_apply, r24_apply]
  unfold kernelRun0_A.sl.v973 kernelRun0_A.sl.v978 kernelRun0_A.sl.v983 kernelRun0_A.sl.v988
  rw [tap2_apply c arg1 harg1 arg2 harg2 arg3 harg3 arg4 harg4 arg5 harg5 arg7 arg8 arg9 arg10 x0 x1 x2 x3 x4 5 1792 129 (by decide) (by omega), tap2_apply c arg1 harg1 arg2 harg2 arg3 harg3 arg4 harg4 arg5 harg5 arg7 arg8 arg9 arg10 x0 x1 x2 x3 x4 6 1920 199 (by decide) (by omega),
    tap2_apply c arg1 harg1 arg2 harg2 arg3 harg3 arg4 harg4 arg5 harg5 arg7 arg8 arg9 arg10 x0 x1 x2 x3 x4 7 2048 200 (by decide) (by omega), tap2_apply c arg1 harg1 arg2 harg2 arg3 harg3 arg4 harg4 arg5 harg5 arg7 arg8 arg9 arg10 x0 x1 x2 x3 x4 8 2176 201 (by decide) (by omega)]
  rfl

end Run2

/-! ## The output block: 64 windows of the band, one per image row -/

/-- The output block as ONE function of a band array V: entry (z, co, 64·y + x) is V at (co, 72·y + 4 + x), the band
    position of pixel (y, x). -/
def outG (V : S128x4608.Idx → EReal) : S1x128x4096.Idx → EReal := fun y =>
  V (ix2 (y 1) ⟨72 * ((y 2).val / 64) + 4 + (y 2).val % 64, by
    have h : (y 2).val < 4096 := (y 2).isLt
    omega⟩)

/-- A window of 64 band positions starting at 72·r + 4, given a leading unit axis and stored at columns 64·r …, is the
    block of `outG V` under the store's rectangle. -/
theorem opiece_apply (V : FVec Ideal S128x4608 .f32) (o off : ℕ) (ho : o % 64 = 0) (ho' : o + 64 ≤ 4096)
    (hoff : off = 72 * (o / 64) + 4) (hs : S128x4608.Slices ![0, off] S128x64)
    (inb : ∀ a, (![0, 0, o] : Fin 3 → ℕ) a + (![1, 128, 64] : Fin 3 → ℕ) a ≤ S1x128x4096.size a)
    (x : (Rect.unit (s := S1x128x4096) ![0, 0, o] ![1, 128, 64] inb).shape.Idx) :
    (shapeCast S1x128x64 (extractStridedSlice S128x64 ![0, off] V hs) shapeCasts_S128x64_S1x128x64
        : FVec Ideal S1x128x64 .f32) x
      = outG V ((Rect.unit (s := S1x128x4096) ![0, 0, o] ![1, 128, 64] inb).emb x) := by
  obtain ⟨z, c, q, rfl⟩ : ∃ (z : Fin 1) (c : Fin 128) (q : Fin 64), x = ix3 z c q := ⟨x 0, x 1, x 2, eq_ix3 x⟩
  have hq := q.isLt
  refine (oslice_apply V off hs z c q (by omega)).trans ?_
  unfold outG
  refine congrArg V (funext fun a => Fin.ext ?_)
  match a with
  | ⟨0, _⟩ => show c.val = 0 + 1 * c.val; omega
  | ⟨1, _⟩ => show off + q.val = 72 * ((o + 1 * q.val) / 64) + 4 + (o + 1 * q.val) % 64; omega

section Out
variable (c : Dev nD) (i : grid0.Coords) (arg1 : Memref sig .tc .vmem S1x256x1024 .f32) (harg1 : arg1.IsWhole) (arg2 : Memref sig .tc .vmem S1x128x4096 .f32) (harg2 : arg2.IsWhole) (arg3 : Memref sig .tc .vmem S2952x256 .bf16) (harg3 : arg3.IsWhole) (arg4 : Memref sig .tc .vmem S256x128 .f32) (harg4 : arg4.IsWhole) (arg5 : Memref sig .tc .vmem S1x4608 .f32) (harg5 : arg5.IsWhole) (arg6 : Memref sig .tc .vmem S1x128x4096 .f32) (harg6 : arg6.IsWhole) (arg7 : Memref sig .tc .vmem S256x4864 .bf16) (harg7 : arg7.IsWhole) (arg8 : Memref sig .tc .vmem S128x4864 .bf16) (harg8 : arg8.IsWhole) (arg9 : Memref sig .tc .vmem S1024x512 .f32) (harg9 : arg9.IsWhole) (arg10 : Memref sig .tc .vmem S4864x128 .bf16) (harg10 : arg10.IsWhole)
  (x0 : Vec Ideal S1x256x1024 .f32) (x1 : Vec Ideal S1x128x4096 .f32) (x2 : Vec Ideal S2952x256 .bf16) (x3 : Vec Ideal S256x128 .f32) (x4 : Vec Ideal S1x4608 .f32)

/-- Every one of the 64 stores into the output's block carries the block of `outG` of the second convolution's band result. -/
theorem out_pieces :
    ∀ p ∈ (kernelRun0_A (F := Ideal) c i arg1 harg1 arg2 harg2 arg3 harg3 arg4 harg4 arg5 harg5 arg6 harg6 arg7 harg7 arg8 harg8 arg9 harg9 arg10 harg10 x0 x1 x2 x3 x4).1, ∀ x' : p.1.shape.Idx,
      p.2 x' = outG (kernelRun0_A.sl.r_25 (F := Ideal) c arg1 harg1 arg2 harg2 arg3 harg3 arg4 harg4 arg5 harg5 arg7 arg8 arg9 arg10 x0 x1 x2 x3 x4) (p.1.emb x') := by
  unfold kernelRun0_A
  dsimp only
  unfold kernelRun0_A.sl.r_26 kernelRun0_A.sl.r_27 kernelRun0_A.sl.r_28 kernelRun0_A.sl.r_29 kernelRun0_A.sl.r_25
  unfold k0_pay173 k0_pay189 k0_pay205 k0_pay221
  repeat' (refine List.forall_mem_cons.2 ⟨?_, ?_⟩)
  all_goals first
    | (dsimp only; exact fun x' => opiece_apply _ _ _ (by omega) (by omega) (by omega) _ _ x')
    | exact fun p hp => absurd hp List.not_mem_nil
    | fail "a piece is not a window of the band"

/-- The output block at channel co, pixel (y, x): the second convolution's nine-tap accumulator over the hidden slab at the
    pixel's band position, max with 0. -/
theorem out_value (co : Fin 128) (y x : Fin 64) :
    out0_A_5 (F := Ideal) c i arg1 harg1 arg2 harg2 arg3 harg3 arg4 harg4 arg5 harg5 arg6 harg6 arg7 harg7 arg8 harg8 arg9 harg9 arg10 harg10 x0 x1 x2 x3 x4
        (ix3 0 co ⟨y.val * 64 + x.val, by have := y.isLt; have := x.isLt; omega⟩)
      = max (Conv.acc (w2k x2) (b2v x3) (HsN c arg1 harg1 arg2 harg2 arg3 harg3 arg4 harg4 arg5 harg5 arg7 arg9 arg10 x0 x1 x2 x3 x4) co (72 * y.val + 4 + x.val)) 0 := by
  have hy := y.isLt; have hx := x.isLt
  unfold out0_A_5
  rw [View.read_writes_junk_eq_canon]
  refine (View.canon_apply_of_pieces (outG (kernelRun0_A.sl.r_25 (F := Ideal) c arg1 harg1 arg2 harg2 arg3 harg3 arg4 harg4 arg5 harg5 arg7 arg8 arg9 arg10 x0 x1 x2 x3 x4)) _
    (out_pieces c i arg1 harg1 arg2 harg2 arg3 harg3 arg4 harg4 arg5 harg5 arg6 harg6 arg7 harg7 arg8 harg8 arg9 harg9 arg10 harg10 x0 x1 x2 x3 x4) _
    (cover0_A_5 c i arg1 harg1 arg2 harg2 arg3 harg3 arg4 harg4 arg5 harg5 arg6 harg6 arg7 harg7 arg8 harg8 arg9 harg9 arg10 harg10 x0 x1 x2 x3 x4 _)).trans ?_
  unfold outG
  refine (congrArg (kernelRun0_A.sl.r_25 (F := Ideal) c arg1 harg1 arg2 harg2 arg3 harg3 arg4 harg4 arg5 harg5 arg7 arg8 arg9 arg10 x0 x1 x2 x3 x4) (funext fun a => Fin.ext ?_)).trans
    (r25_apply c arg1 harg1 arg2 harg2 arg3 harg3 arg4 harg4 arg5 harg5 arg7 arg8 arg9 arg10 x0 x1 x2 x3 x4 co ⟨72 * y.val + 4 + x.val, by omega⟩)
  match a with
  | ⟨0, _⟩ => rfl
  | ⟨1, _⟩ => show 72 * ((y.val * 64 + x.val) / 64) + 4 + (y.val * 64 + x.val) % 64 = 72 * y.val + 4 + x.val; omega

end Out

end Cert.KernelIdeal.Hand

end
-- ==== Proof.KBodyValue.lean ====
/-
  The body's output block as a value.

  What the body leaves in the output block at (0, co, 64·y + x), read off the pieces its run finds, is the
  specification's result of the two 3×3 convolutions on the concatenated image at channel co, pixel (y, x): the image is
  the skip sample behind which sits the 2×2, stride-2 transposed convolution of the low-resolution sample, the weights and
  biases are the rows of the packed arrays, tap by tap. Two facts about the packed operands are assumed as the program's
  own host operations establish them: the identity block (`heye`) and the column mask (`hmask`).
-/
import proofs.«126750_g2000606872001322_pallasbulk_142_34_alg».proof.Proof.KAssembly
import proofs.«126750_g2000606872001322_pallasbulk_142_34_alg».proof.Proof.KHidden
import proofs.«126750_g2000606872001322_pallasbulk_142_34_alg».proof.Proof.KOutput

noncomputable section

namespace Cert.KernelIdeal.Hand

open Idealize.ShloMosaic Idealize.ShloMosaic.ValueIdx Cert.KernelIdeal Cert.KernelIdeal.Gen
open scoped BigOperators

/-- The output block the body leaves, entry by entry, is the specification's two convolutions of the concatenated image. -/
theorem kernel_block_value (c : Dev nD) (i : grid0.Coords) (arg1 : Memref sig .tc .vmem S1x256x1024 .f32) (harg1 : arg1.IsWhole) (arg2 : Memref sig .tc .vmem S1x128x4096 .f32) (harg2 : arg2.IsWhole) (arg3 : Memref sig .tc .vmem S2952x256 .bf16) (harg3 : arg3.IsWhole) (arg4 : Memref sig .tc .vmem S256x128 .f32) (harg4 : arg4.IsWhole) (arg5 : Memref sig .tc .vmem S1x4608 .f32) (harg5 : arg5.IsWhole) (arg6 : Memref sig .tc .vmem S1x128x4096 .f32) (harg6 : arg6.IsWhole) (arg7 : Memref sig .tc .vmem S256x4864 .bf16) (harg7 : arg7.IsWhole) (arg8 : Memref sig .tc .vmem S128x4864 .bf16) (harg8 : arg8.IsWhole) (arg9 : Memref sig .tc .vmem S1024x512 .f32) (harg9 : arg9.IsWhole) (arg10 : Memref sig .tc .vmem S4864x128 .bf16) (harg10 : arg10.IsWhole)
    (x0 : Vec Ideal S1x256x1024 .f32) (x1 : Vec Ideal S1x128x4096 .f32) (x2 : Vec Ideal S2952x256 .bf16) (x3 : Vec Ideal S256x128 .f32) (x4 : Vec Ideal S1x4608 .f32)
    (heye : ∀ i k : Fin 128, x2 (ix2 ⟨2818 + i.val, by omega⟩ ⟨k.val, by omega⟩) = if i = k then 1 else 0)
    (hmask : ∀ j : Fin 4608, x4 (ix2 0 j) = if 4 ≤ j.val % 72 ∧ j.val % 72 < 68 then 1 else 0)
    (co : Fin 128) (y x : Fin 64) :
    out0_A_5 (F := Ideal) c i arg1 harg1 arg2 harg2 arg3 harg3 arg4 harg4 arg5 harg5 arg6 harg6 arg7 harg7 arg8 harg8 arg9 harg9 arg10 harg10 x0 x1 x2 x3 x4 (ix3 0 co ⟨y.val*64 + x.val, by omega⟩)
      = Cert.Spec.outC (fun cm ch dh dw => x2 (ix2 ⟨(dh.val*3+dw.val)*128 + cm.val, by omega⟩ ch)) (fun cm => x3 (ix2 ⟨cm.val, by omega⟩ 0)) (fun co' cm dh dw => x2 (ix2 ⟨1152 + (dh.val*3+dw.val)*128 + co'.val, by omega⟩ ⟨cm.val, by omega⟩)) (fun co' => x3 (ix2 ⟨128 + co'.val, by omega⟩ 0)) (Cert.Spec.cat (fun ci r q => x0 (ix3 0 ci ⟨r.val*32+q.val, by omega⟩)) (fun ch r q => x1 (ix3 0 ch ⟨r.val*64+q.val, by omega⟩)) (fun ci c' di dj => x2 (ix2 ⟨2304 + di.val*256 + ci.val, by omega⟩ ⟨dj.val*128 + c'.val, by omega⟩)) (fun c' di dj => x2 (ix2 ⟨2816 + di.val, by omega⟩ ⟨dj.val*128 + c'.val, by omega⟩))) co y x := by
  rw [out_value c i arg1 harg1 arg2 harg2 arg3 harg3 arg4 harg4 arg5 harg5 arg6 harg6 arg7 harg7 arg8 harg8 arg9 harg9 arg10 harg10 x0 x1 x2 x3 x4 co y x]
  exact block_value_of c arg1 harg1 arg2 harg2 arg3 harg3 arg4 harg4 arg5 harg5 arg7 arg9 arg10 x0 x1 x2 x3 x4 heye hmask
    (hs_value c arg1 harg1 arg2 harg2 arg3 harg3 arg4 harg4 arg5 harg5 arg7 arg9 arg10 x0 x1 x2 x3 x4) co y x

end Cert.KernelIdeal.Hand

end
-- ==== Proof.KValue.lean ====
/-
  The kernel's result is the specification.

  The result array at `(n, co, y, x)` is, through the closing reshape and the write-backs, what the body left at sample
  `n`'s grid point at pixel `64 y + x` of channel `co`. The body's value there is the two 3×3 convolutions on the
  concatenation of the skip image with the upsampled image, as a function of its five input blocks; and the blocks
  are sample `n` of the two image arrays, the packed weights, the biases and the mask as the region finds them. Read
  at the rows the body reads them at, the packed weights are the folded convolution weights (tap `3 dh + dw` of output
  channel `co` at row `128 (3 dh + dw) + co`), the transposed convolution's weight and bias, and the identity block;
  the biases array holds the two folded biases; the mask is the interior-column indicator. Substituting, accessor by
  accessor, gives `Spec.out` of the argument arrays and the folded parameters.
-/
import proofs.«126750_g2000606872001322_pallasbulk_142_34_alg».proof.Proof.KArray
import proofs.«126750_g2000606872001322_pallasbulk_142_34_alg».proof.Proof.KOperands
import proofs.«126750_g2000606872001322_pallasbulk_142_34_alg».proof.Proof.KMask
import proofs.«126750_g2000606872001322_pallasbulk_142_34_alg».proof.Proof.KBodyValue
import proofs.«126750_g2000606872001322_pallasbulk_142_34_alg».proof.Proof.Fold

noncomputable section

namespace Cert.KernelIdeal.Hand

open Cert.KernelIdeal Cert.KernelIdeal.Gen Idealize.ShloMosaic Idealize.ShloMosaic.TcCoe Idealize.SL.Sem
open Idealize.ShloMosaic.ValueIdx

/-- The tap index `3 dh + dw` splits back into its row and column. -/
private theorem tap_div (dh dw : Fin 3) (h : (dh.val * 3 + dw.val) / 3 < 3) : (⟨(dh.val * 3 + dw.val) / 3, h⟩ : Fin 3) = dh :=
  Fin.ext (by show (dh.val * 3 + dw.val) / 3 = dh.val; have := dw.isLt; omega)
private theorem tap_mod (dh dw : Fin 3) (h : (dh.val * 3 + dw.val) % 3 < 3) : (⟨(dh.val * 3 + dw.val) % 3, h⟩ : Fin 3) = dw :=
  Fin.ext (by show (dh.val * 3 + dw.val) % 3 = dw.val; have := dw.isLt; omega)

/-- The two convolutions on the concatenated image, of equal parameters and equal inputs. -/
private theorem outC_cat_congr {w1 w1' : Fin 128 → Fin 256 → Fin 3 → Fin 3 → EReal} {b1 b1' : Fin 128 → EReal}
    {w2 w2' : Fin 128 → Fin 128 → Fin 3 → Fin 3 → EReal} {b2 b2' : Fin 128 → EReal}
    {xa xa' : Fin 256 → Fin 32 → Fin 32 → EReal} {xb xb' : Fin 128 → Fin 64 → Fin 64 → EReal}
    {wu wu' : Fin 256 → Fin 128 → Fin 2 → Fin 2 → EReal} {bu bu' : Fin 128 → Fin 2 → Fin 2 → EReal}
    (h1 : w1 = w1') (h2 : b1 = b1') (h3 : w2 = w2') (h4 : b2 = b2') (h5 : xa = xa') (h6 : xb = xb') (h7 : wu = wu') (h8 : bu = bu')
    (co : Fin 128) (y x : Fin 64) :
    Cert.Spec.outC w1 b1 w2 b2 (Cert.Spec.cat xa xb wu bu) co y x
      = Cert.Spec.outC w1' b1' w2' b2' (Cert.Spec.cat xa' xb' wu' bu') co y x := by
  subst h1 h2 h3 h4 h5 h6 h7 h8; rfl

section Assembly
variable (m : (ℓ : Loc nD τ sig) → Buf (Elt Ideal) ℓ) (ρ : Dev nD → PrngReg) (c : Dev nD)

theorem kernel_value :
    (Wfin (F := Ideal) m ρ c (Proc.devRef .tc main_v60) : Cert.Spec.Out)
      = Cert.Spec.out (m ((c : Thread nD τ).loc main_arg0)) (m ((c : Thread nD τ).loc main_arg1))
          (m ((c : Thread nD τ).loc main_arg2)) (m ((c : Thread nD τ).loc main_arg3))
          (Cert.Fold.w1e (m ((c : Thread nD τ).loc main_arg4)) (m ((c : Thread nD τ).loc main_arg6)) (m ((c : Thread nD τ).loc main_arg9)))
          (Cert.Fold.b1e (m ((c : Thread nD τ).loc main_arg5)) (m ((c : Thread nD τ).loc main_arg8)) (m ((c : Thread nD τ).loc main_arg6)) (m ((c : Thread nD τ).loc main_arg9)) (m ((c : Thread nD τ).loc main_arg7)))
          (Cert.Fold.w2e (m ((c : Thread nD τ).loc main_arg10)) (m ((c : Thread nD τ).loc main_arg12)) (m ((c : Thread nD τ).loc main_arg15)))
          (Cert.Fold.b1e (m ((c : Thread nD τ).loc main_arg11)) (m ((c : Thread nD τ).loc main_arg14)) (m ((c : Thread nD τ).loc main_arg12)) (m ((c : Thread nD τ).loc main_arg15)) (m ((c : Thread nD τ).loc main_arg13))) := by
  funext i
  obtain ⟨n, co, y, x, rfl⟩ : ∃ (n : Fin 16) (co : Fin 128) (y x : Fin 64), i = ix4 n co y x := ⟨i 0, i 1, i 2, i 3, eq_ix4 i⟩
  refine (result_eq_outsAt m ρ c n co y x).trans ?_
  unfold outsAt0
  refine (kernel_block_value c (grid0.coords (pt n)) (ms0_0 (pt n)) (hs0_0 (pt n)) (ms0_1 (pt n)) (hs0_1 (pt n)) (ms0_2 (pt n)) (hs0_2 (pt n)) (ms0_3 (pt n)) (hs0_3 (pt n)) (ms0_4 (pt n)) (hs0_4 (pt n)) (ms0_5 (pt n)) (hs0_5 (pt n)) scM0_0 (Memref.isWhole_whole _) scM0_1 (Memref.isWhole_whole _) scM0_2 (Memref.isWhole_whole _) scM0_3 (Memref.isWhole_whole _)
    (iblk0 (Vent m ρ) c 0 (pt n)) (iblk0 (Vent m ρ) c 1 (pt n)) (iblk0 (Vent m ρ) c 2 (pt n)) (iblk0 (Vent m ρ) c 3 (pt n)) (iblk0 (Vent m ρ) c 4 (pt n))
    (fun i k => (iblk0_2 (Vent m ρ) c (pt n) _).trans (Vent_wa_eye m ρ c i k))
    (fun j => (iblk0_4 (Vent m ρ) c (pt n) _).trans (Vent_mask m ρ c j)) co y x).trans ?_
  show _ = Cert.Spec.outC _ _ _ _ (Cert.Spec.cat _ _ _ _) co y x
  refine outC_cat_congr ?_ ?_ ?_ ?_ ?_ ?_ ?_ ?_ co y x
  · funext cm ch dh dw
    refine (iblk0_2 (Vent m ρ) c (pt n) _).trans ?_
    refine (Vent_wa_w1 m ρ c ⟨dh.val * 3 + dw.val, by have := dh.isLt; have := dw.isLt; omega⟩ cm ch).trans ?_
    exact congrArg₂ (fun a b => Cert.Fold.w1e (m ((c : Thread nD τ).loc main_arg4)) (m ((c : Thread nD τ).loc main_arg6)) (m ((c : Thread nD τ).loc main_arg9)) (ix4 cm ch a b)) (tap_div dh dw _) (tap_mod dh dw _)
  · funext cm
    exact (iblk0_3 (Vent m ρ) c (pt n) _).trans (Vent_fb_b1 m ρ c cm)
  · funext co' cm dh dw
    refine (iblk0_2 (Vent m ρ) c (pt n) _).trans ?_
    refine (Vent_wa_w2 m ρ c ⟨dh.val * 3 + dw.val, by have := dh.isLt; have := dw.isLt; omega⟩ co' cm).trans ?_
    exact congrArg₂ (fun a b => Cert.Fold.w2e (m ((c : Thread nD τ).loc main_arg10)) (m ((c : Thread nD τ).loc main_arg12)) (m ((c : Thread nD τ).loc main_arg15)) (ix4 co' cm a b)) (tap_div dh dw _) (tap_mod dh dw _)
  · funext co'
    exact (iblk0_3 (Vent m ρ) c (pt n) _).trans (Vent_fb_b2 m ρ c co')
  · funext ci r q
    exact (iblk0_0 (Vent m ρ) c n _).trans (Vent_x1r m ρ c n ci r q)
  · funext ch r q
    exact (iblk0_1 (Vent m ρ) c n _).trans (Vent_x2r m ρ c n ch r q)
  · funext ci c' di dj
    exact (iblk0_2 (Vent m ρ) c (pt n) _).trans (Vent_wa_wu m ρ c di ci dj c')
  · funext c' di dj
    exact (iblk0_2 (Vent m ρ) c (pt n) _).trans (Vent_wa_bt m ρ c di dj c')

end Assembly

end Cert.KernelIdeal.Hand

end
-- ==== Proof.RRun.lean ====
/-
  The reference program's run with its result named.

  Every weakly fair execution of the reference's @main from a memory with zero counters terminates without a fault;
  in the final state the result buffer holds the last host stretch's value `W7` (the fold of the buffer contents
  through @main: host operations, the two regions' write-backs, host operations) and every argument array is as
  launched. The run is the launch theorem over @main's segments; the final thread state owns every unscoped buffer at
  `W7`, so each buffer of the final memory is read off it.
-/
import proofs.«126750_g2000606872001322_pallasbulk_142_34_alg».proof.Proof.Gen.ReferenceIdeal.Frame

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The reference's run: it terminates, nothing faults, the result buffer `main_v53` ends at `W7` and the sixteen
    argument arrays end as launched. -/
theorem run : θ_run defs (onTc (τ := τ) (main (F := F))) ⟨m, fun _ => 0, ρ⟩ (fun r => ∀ c : Dev nD,
      r.2.mem ((c.tc : Thread nD τ).loc main_v53) = Gen.W7 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v53 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c),
       (h c _ (mem_uc main_arg15 (by decide))).trans (W7_main_arg15 m ρ c)⟩)

end Cert.ReferenceIdeal.Hand

end
-- ==== Proof.RArray.lean ====
/-
  The reference's result array, read at an index.

  The result is the transpose [0,3,1,2] of the slice [0:16, 0:64, 2:66, 0:128] of the reshape
  [16,4352,128] → [16,64,68,128] of region 1's output array: entry (n, co, y, x) of the result is entry
  (n, 68·y + x + 2, co) of that array (`W7_result`). Region 1's output window has one block per sample — rows of
  sample n, all 4352 × 128 of them — written back at every point, so the array after the region holds, at
  (n, p, co), what the body left at point n at (0, p, co) (`arr1_8`): the array is ONE function of the index, each
  point's write-back is that function read through the point's block, and the sixteen blocks cover the array.
-/
import proofs.«126750_g2000606872001322_pallasbulk_142_34_alg».proof.Proof.Gen.ReferenceIdeal.Frame
import Idealize.ShloMosaic.Lib.Pipeline.Value
import Idealize.ShloMosaic.Lib.ValueIdx
import Idealize.ShloMosaic.Lib.ValueLayout
import Idealize.ShloMosaic.Lib.Tactic

noncomputable section

namespace Cert.ReferenceIdeal.Hand

open Cert.ReferenceIdeal Cert.ReferenceIdeal.Gen
open Idealize.ShloMosaic Idealize.ShloMosaic.TcCoe Idealize.ShloMosaic.ValueIdx Idealize.SL.Sem
open Idealize.ShloMosaic.Pipeline (Dat)

/-! ## Region 1's output array from its blocks -/

section Blocks

variable {F : FTy → Type} [FloatOps F]
variable (V : (c : Dev nD) → (b : Ref sig .tc) → Buf (Elt F) ((c : Thread nD τ).loc b))

theorem lt_N1 {k : ℕ} (h : k < 16) : k < cfg1.N := by rw [show cfg1.N = 16 from N_1]; exact h

/-- The output array as one function of its index: sample `n`'s rows are what the body leaves at point `n`. -/
def resArr (c : Dev nD) : S16x4352x128.Idx → Elt F .f32 :=
  fun i => Gen.outsAt1 V c ⟨(i 0).val, lt_N1 (i 0).isLt⟩ (ix3 (0 : Fin 1) (i 1) (i 2))

/-- The output window's block index at point `t` is `(t, 0, 0)`. -/
theorem index8 : ∀ t : Fin cfg1.N, win1_8.index t (0 : Fin 3) = t.val ∧ win1_8.index t (1 : Fin 3) = 0
    ∧ win1_8.index t (2 : Fin 3) = 0 :=
  (by decide +kernel : ∀ t : Fin grid1.N, win1_8.index t (0 : Fin 3) = t.val ∧ win1_8.index t (1 : Fin 3) = 0
    ∧ win1_8.index t (2 : Fin 3) = 0)

theorem outsAt1_congr (c : Dev nD) (t t' : Fin cfg1.N) (a b : S1x4352x128.Idx) (ht : t = t') (hab : a = b) :
    Gen.outsAt1 V c t a = Gen.outsAt1 V c t' b := by subst ht; subst hab; rfl

/-- Reading any array function through point `t`'s block of the output window is the function at the block's
    embedded index. -/
theorem read8_apply (G : S16x4352x128.Idx → Elt F .f32) (t : Fin cfg1.N)
    (j : ((cfg1.win 8).xblock (grid1.coords t)).Idx) :
    ((cfg1.win 8).blk t).view.read (Elt F) G j = G (((cfg1.win 8).blk t).view.emb j) := rfl

/-- The part of a block's contents a write-back moves, at an index. -/
theorem cut8_apply (X : S1x4352x128.Idx → Elt F .f32) (t : Fin cfg1.N)
    (j : ((cfg1.win 8).xblock (grid1.coords t)).Idx) :
    (cfg1.win 8).cut (grid1.coords t) X j = X ((cfg1.win 8).xinj (grid1.coords t) j) := rfl

/-- What point `t` writes back is the array function read through `t`'s block. -/
theorem flushed8 (c : Dev nD) (t : Fin cfg1.N) :
    (Gen.dat1 V c).flushed 8 t = ((cfg1.win 8).blk t).view.read (Elt F) (resArr V c) := by
  show (cfg1.win 8).cut (grid1.coords t) ((Gen.dat1 V c).after 8 t) = _
  rw [Gen.after1_8]
  obtain ⟨e0, e1, e2⟩ := index8 t
  funext j
  rw [read8_apply, cut8_apply]
  have h0 : (j 0).val < 1 := (j 0).isLt
  unfold resArr
  refine outsAt1_congr V c _ _ _ _ (Fin.ext ?_) (funext fun a => Fin.ext ?_)
  · show t.val = win1_8.index t (0 : Fin 3) * 1 + 1 * (j 0).val
    rw [e0]; omega
  · match a with
    | ⟨0, _⟩ => show (j 0).val = 0; omega
    | ⟨1, _⟩ => show (j 1).val = win1_8.index t (1 : Fin 3) * 4352 + 1 * (j 1).val; rw [e1]; omega
    | ⟨2, _⟩ => show (j 2).val = win1_8.index t (2 : Fin 3) * 128 + 1 * (j 2).val; rw [e2]; omega

/-- An index of the array is in point `t`'s block iff each coordinate is in the block's range on its axis. -/
theorem mem_blk8 (t : Fin cfg1.N) (i : S16x4352x128.Idx) :
    i ∈ ((cfg1.win 8).blk t).view.set ↔ ∀ a : Fin 3, win1_8.index t a * S1x4352x128.size a ≤ (i a).val
      ∧ (i a).val < win1_8.index t a * S1x4352x128.size a + S1x4352x128.size a := by
  show i ∈ ((View.whole main_v50).slice (win1_8.rect t)).set ↔ _
  rw [View.set_slice_whole, Rect.mem_set_unit]
  exact Iff.rfl

/-- Sample `n`'s rows lie in point `n`'s block: the sixteen blocks cover the array. -/
theorem cover8 (i : S16x4352x128.Idx) :
    ∃ t : Fin cfg1.N, (cfg1.win 8).flush t = true ∧ i ∈ ((cfg1.win 8).blk t).view.set := by
  refine ⟨⟨(i 0).val, lt_N1 (i 0).isLt⟩, Gen.flush1_8 _, ?_⟩
  obtain ⟨e0, e1, e2⟩ := index8 ⟨(i 0).val, lt_N1 (i 0).isLt⟩
  rw [mem_blk8]
  have h1 : (i 1).val < 4352 := (i 1).isLt
  have h2 : (i 2).val < 128 := (i 2).isLt
  intro a
  match a with
  | ⟨0, _⟩ =>
    show win1_8.index _ (0 : Fin 3) * 1 ≤ (i 0).val ∧ (i 0).val < win1_8.index _ (0 : Fin 3) * 1 + 1
    rw [e0]; show (i 0).val * 1 ≤ (i 0).val ∧ (i 0).val < (i 0).val * 1 + 1; omega
  | ⟨1, _⟩ =>
    show win1_8.index _ (1 : Fin 3) * 4352 ≤ (i 1).val ∧ (i 1).val < win1_8.index _ (1 : Fin 3) * 4352 + 4352
    rw [e1]; omega
  | ⟨2, _⟩ =>
    show win1_8.index _ (2 : Fin 3) * 128 ≤ (i 2).val ∧ (i 2).val < win1_8.index _ (2 : Fin 3) * 128 + 128
    rw [e2]; omega

/-- The output array after region 1 is the array function. -/
theorem arr1_8_eq (c : Dev nD) : (Gen.dat1 V c).arrAt 8 cfg1.N = resArr V c :=
  (Gen.dat1 V c).arrAt_eq_of_cover 8 (resArr V c) (fun t _ => flushed8 V c t) (cover8)

/-- Region 1's output array at (n, p, co) is what the body left at point `n` at (0, p, co). -/
theorem arr1_8 (c : Dev nD) (n : Fin 16) (p : Fin 4352) (co : Fin 128) :
    ((Gen.dat1 V c).arrAt 8 cfg1.N : S16x4352x128.Idx → Elt F .f32) (ix3 n p co)
      = Gen.outsAt1 V c ⟨n.val, lt_N1 n.isLt⟩ (ix3 (0 : Fin 1) p co) := by
  rw [arr1_8_eq V c]
  rfl

/-! ## The input windows' blocks, read off the arrays as the region finds them

Windows 0 and 1 (the skip image and the upsampled image, channel-last) have one block per sample; windows 2–7 (the
column mask, the two halves of the first convolution's weight, its bias, the second convolution's weight, its bias)
are whole arrays at every point. -/

/-- Window 0's block index at point `t` is `(t, 0, 0, 0)`. -/
theorem index1_0 : ∀ t : Fin cfg1.N, win1_0.index t (0 : Fin 4) = t.val ∧ win1_0.index t (1 : Fin 4) = 0
    ∧ win1_0.index t (2 : Fin 4) = 0 ∧ win1_0.index t (3 : Fin 4) = 0 :=
  (by decide +kernel : ∀ t : Fin grid1.N, win1_0.index t (0 : Fin 4) = t.val ∧ win1_0.index t (1 : Fin 4) = 0
    ∧ win1_0.index t (2 : Fin 4) = 0 ∧ win1_0.index t (3 : Fin 4) = 0)

/-- Window 1's block index at point `t` is `(t, 0, 0, 0)`. -/
theorem index1_1 : ∀ t : Fin cfg1.N, win1_1.index t (0 : Fin 4) = t.val ∧ win1_1.index t (1 : Fin 4) = 0
    ∧ win1_1.index t (2 : Fin 4) = 0 ∧ win1_1.index t (3 : Fin 4) = 0 :=
  (by decide +kernel : ∀ t : Fin grid1.N, win1_1.index t (0 : Fin 4) = t.val ∧ win1_1.index t (1 : Fin 4) = 0
    ∧ win1_1.index t (2 : Fin 4) = 0 ∧ win1_1.index t (3 : Fin 4) = 0)

/-- Window 0's block at point `n` is sample `n` of its array. -/
theorem iblk1_0_apply (c : Dev nD) (n : Fin 16) (r q : Fin 64) (ch : Fin 128) :
    (Gen.iblk1 V c 0 ⟨n.val, lt_N1 n.isLt⟩ : S1x64x64x128.Idx → Elt F .f32) (ix4 (0 : Fin 1) r q ch)
      = (V c main_v1 : S16x64x64x128.Idx → Elt F .f32) (ix4 n r q ch) := by
  obtain ⟨e0, e1, e2, e3⟩ := index1_0 ⟨n.val, lt_N1 n.isLt⟩
  have e0' : win1_0.index ⟨n.val, lt_N1 n.isLt⟩ (0 : Fin 4) = n.val := e0
  unfold Gen.iblk1
  rw [View.read_apply]
  show (V c main_v1 : S16x64x64x128.Idx → Elt F .f32) _ = V c main_v1 _
  refine congrArg (V c main_v1 : S16x64x64x128.Idx → Elt F .f32) (funext fun a => Fin.ext ?_)
  match a with
  | ⟨0, _⟩ => show win1_0.index _ (0 : Fin 4) * 1 + 1 * 0 = n.val; rw [e0']; omega
  | ⟨1, _⟩ => show win1_0.index _ (1 : Fin 4) * 64 + 1 * r.val = r.val; rw [e1]; omega
  | ⟨2, _⟩ => show win1_0.index _ (2 : Fin 4) * 64 + 1 * q.val = q.val; rw [e2]; omega
  | ⟨3, _⟩ => show win1_0.index _ (3 : Fin 4) * 128 + 1 * ch.val = ch.val; rw [e3]; omega

/-- Window 1's block at point `n` is sample `n` of its array. -/
theorem iblk1_1_apply (c : Dev nD) (n : Fin 16) (r q : Fin 64) (ch : Fin 128) :
    (Gen.iblk1 V c 1 ⟨n.val, lt_N1 n.isLt⟩ : S1x64x64x128.Idx → Elt F .f32) (ix4 (0 : Fin 1) r q ch)
      = (V c main_v10 : S16x64x64x128.Idx → Elt F .f32) (ix4 n r q ch) := by
  obtain ⟨e0, e1, e2, e3⟩ := index1_1 ⟨n.val, lt_N1 n.isLt⟩
  have e0' : win1_1.index ⟨n.val, lt_N1 n.isLt⟩ (0 : Fin 4) = n.val := e0
  unfold Gen.iblk1
  rw [View.read_apply]
  show (V c main_v10 : S16x64x64x128.Idx → Elt F .f32) _ = V c main_v10 _
  refine congrArg (V c main_v10 : S16x64x64x128.Idx → Elt F .f32) (funext fun a => Fin.ext ?_)
  match a with
  | ⟨0, _⟩ => show win1_1.index _ (0 : Fin 4) * 1 + 1 * 0 = n.val; rw [e0']; omega
  | ⟨1, _⟩ => show win1_1.index _ (1 : Fin 4) * 64 + 1 * r.val = r.val; rw [e1]; omega
  | ⟨2, _⟩ => show win1_1.index _ (2 : Fin 4) * 64 + 1 * q.val = q.val; rw [e2]; omega
  | ⟨3, _⟩ => show win1_1.index _ (3 : Fin 4) * 128 + 1 * ch.val = ch.val; rw [e3]; omega

/-- Window 2's block index is zero at every point. -/
theorem index1_2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)

/-- Window 2's block at any point is its whole array. -/
theorem iblk1_2_apply (c : Dev nD) (t : Fin cfg1.N) (j : S4352x1.Idx) :
    (Gen.iblk1 V c 2 t : S4352x1.Idx → Elt F .f32) j = (V c main_v49 : S4352x1.Idx → Elt F .f32) j := by
  obtain ⟨e0, e1⟩ := index1_2 t
  unfold Gen.iblk1
  rw [View.read_apply]
  show (V c main_v49 : S4352x1.Idx → Elt F .f32) _ = V c main_v49 _
  refine congrArg (V c main_v49 : S4352x1.Idx → Elt F .f32) (funext fun a => Fin.ext ?_)
  match a with
  | ⟨0, _⟩ => show win1_2.index t (0 : Fin 2) * 4352 + 1 * (j 0).val = (j 0).val; rw [e0]; omega
  | ⟨1, _⟩ => show win1_2.index t (1 : Fin 2) * 1 + 1 * (j 1).val = (j 1).val; rw [e1]; omega

/-- Window 3's block index is zero at every point. -/
theorem index1_3 : ∀ t : Fin cfg1.N, win1_3.index t (0 : Fin 3) = 0 ∧ win1_3.index t (1 : Fin 3) = 0 ∧ win1_3.index t (2 : Fin 3) = 0 :=
  (by decide +kernel : ∀ t : Fin grid1.N, win1_3.index t (0 : Fin 3) = 0 ∧ win1_3.index t (1 : Fin 3) = 0 ∧ win1_3.index t (2 : Fin 3) = 0)

/-- Window 3's block at any point is its whole array. -/
theorem iblk1_3_apply (c : Dev nD) (t : Fin cfg1.N) (j : S9x128x128.Idx) :
    (Gen.iblk1 V c 3 t : S9x128x128.Idx → Elt F .f32) j = (V c main_v33 : S9x128x128.Idx → Elt F .f32) j := by
  obtain ⟨e0, e1, e2⟩ := index1_3 t
  unfold Gen.iblk1
  rw [View.read_apply]
  show (V c main_v33 : S9x128x128.Idx → Elt F .f32) _ = V c main_v33 _
  refine congrArg (V c main_v33 : S9x128x128.Idx → Elt F .f32) (funext fun a => Fin.ext ?_)
  match a with
  | ⟨0, _⟩ => show win1_3.index t (0 : Fin 3) * 9 + 1 * (j 0).val = (j 0).val; rw [e0]; omega
  | ⟨1, _⟩ => show win1_3.index t (1 : Fin 3) * 128 + 1 * (j 1).val = (j 1).val; rw [e1]; omega
  | ⟨2, _⟩ => show win1_3.index t (2 : Fin 3) * 128 + 1 * (j 2).val = (j 2).val; rw [e2]; omega

/-- Window 4's block index is zero at every point. -/
theorem index1_4 : ∀ t : Fin cfg1.N, win1_4.index t (0 : Fin 3) = 0 ∧ win1_4.index t (1 : Fin 3) = 0 ∧ win1_4.index t (2 : Fin 3) = 0 :=
  (by decide +kernel : ∀ t : Fin grid1.N, win1_4.index t (0 : Fin 3) = 0 ∧ win1_4.index t (1 : Fin 3) = 0 ∧ win1_4.index t (2 : Fin 3) = 0)

/-- Window 4's block at any point is its whole array. -/
theorem iblk1_4_apply (c : Dev nD) (t : Fin cfg1.N) (j : S9x128x128.Idx) :
    (Gen.iblk1 V c 4 t : S9x128x128.Idx → Elt F .f32) j = (V c main_v36 : S9x128x128.Idx → Elt F .f32) j := by
  obtain ⟨e0, e1, e2⟩ := index1_4 t
  unfold Gen.iblk1
  rw [View.read_apply]
  show (V c main_v36 : S9x128x128.Idx → Elt F .f32) _ = V c main_v36 _
  refine congrArg (V c main_v36 : S9x128x128.Idx → Elt F .f32) (funext fun a => Fin.ext ?_)
  match a with
  | ⟨0, _⟩ => show win1_4.index t (0 : Fin 3) * 9 + 1 * (j 0).val = (j 0).val; rw [e0]; omega
  | ⟨1, _⟩ => show win1_4.index t (1 : Fin 3) * 128 + 1 * (j 1).val = (j 1).val; rw [e1]; omega
  | ⟨2, _⟩ => show win1_4.index t (2 : Fin 3) * 128 + 1 * (j 2).val = (j 2).val; rw [e2]; omega

/-- Window 5's block index is zero at every point. -/
theorem index1_5 : ∀ t : Fin cfg1.N, win1_5.index t (0 : Fin 2) = 0 ∧ win1_5.index t (1 : Fin 2) = 0 :=
  (by decide +kernel : ∀ t : Fin grid1.N, win1_5.index t (0 : Fin 2) = 0 ∧ win1_5.index t (1 : Fin 2) = 0)

/-- Window 5's block at any point is its whole array. -/
theorem iblk1_5_apply (c : Dev nD) (t : Fin cfg1.N) (j : S1x128.Idx) :
    (Gen.iblk1 V c 5 t : S1x128.Idx → Elt F .f32) j = (V c main_v39 : S1x128.Idx → Elt F .f32) j := by
  obtain ⟨e0, e1⟩ := index1_5 t
  unfold Gen.iblk1
  rw [View.read_apply]
  show (V c main_v39 : S1x128.Idx → Elt F .f32) _ = V c main_v39 _
  refine congrArg (V c main_v39 : S1x128.Idx → Elt F .f32) (funext fun a => Fin.ext ?_)
  match a with
  | ⟨0, _⟩ => show win1_5.index t (0 : Fin 2) * 1 + 1 * (j 0).val = (j 0).val; rw [e0]; omega
  | ⟨1, _⟩ => show win1_5.index t (1 : Fin 2) * 128 + 1 * (j 1).val = (j 1).val; rw [e1]; omega

/-- Window 6's block index is zero at every point. -/
theorem index1_6 : ∀ t : Fin cfg1.N, win1_6.index t (0 : Fin 3) = 0 ∧ win1_6.index t (1 : Fin 3) = 0 ∧ win1_6.index t (2 : Fin 3) = 0 :=
  (by decide +kernel : ∀ t : Fin grid1.N, win1_6.index t (0 : Fin 3) = 0 ∧ win1_6.index t (1 : Fin 3) = 0 ∧ win1_6.index t (2 : Fin 3) = 0)

/-- Window 6's block at any point is its whole array. -/
theorem iblk1_6_apply (c : Dev nD) (t : Fin cfg1.N) (j : S9x128x128.Idx) :
    (Gen.iblk1 V c 6 t : S9x128x128.Idx → Elt F .f32) j = (V c main_v38 : S9x128x128.Idx → Elt F .f32) j := by
  obtain ⟨e0, e1, e2⟩ := index1_6 t
  unfold Gen.iblk1
  rw [View.read_apply]
  show (V c main_v38 : S9x128x128.Idx → Elt F .f32) _ = V c main_v38 _
  refine congrArg (V c main_v38 : S9x128x128.Idx → Elt F .f32) (funext fun a => Fin.ext ?_)
  match a with
  | ⟨0, _⟩ => show win1_6.index t (0 : Fin 3) * 9 + 1 * (j 0).val = (j 0).val; rw [e0]; omega
  | ⟨1, _⟩ => show win1_6.index t (1 : Fin 3) * 128 + 1 * (j 1).val = (j 1).val; rw [e1]; omega
  | ⟨2, _⟩ => show win1_6.index t (2 : Fin 3) * 128 + 1 * (j 2).val = (j 2).val; rw [e2]; omega

/-- Window 7's block index is zero at every point. -/
theorem index1_7 : ∀ t : Fin cfg1.N, win1_7.index t (0 : Fin 2) = 0 ∧ win1_7.index t (1 : Fin 2) = 0 :=
  (by decide +kernel : ∀ t : Fin grid1.N, win1_7.index t (0 : Fin 2) = 0 ∧ win1_7.index t (1 : Fin 2) = 0)

/-- Window 7's block at any point is its whole array. -/
theorem iblk1_7_apply (c : Dev nD) (t : Fin cfg1.N) (j : S1x128.Idx) :
    (Gen.iblk1 V c 7 t : S1x128.Idx → Elt F .f32) j = (V c main_v40 : S1x128.Idx → Elt F .f32) j := by
  obtain ⟨e0, e1⟩ := index1_7 t
  unfold Gen.iblk1
  rw [View.read_apply]
  show (V c main_v40 : S1x128.Idx → Elt F .f32) _ = V c main_v40 _
  refine congrArg (V c main_v40 : S1x128.Idx → Elt F .f32) (funext fun a => Fin.ext ?_)
  match a with
  | ⟨0, _⟩ => show win1_7.index t (0 : Fin 2) * 1 + 1 * (j 0).val = (j 0).val; rw [e0]; omega
  | ⟨1, _⟩ => show win1_7.index t (1 : Fin 2) * 128 + 1 * (j 1).val = (j 1).val; rw [e1]; omega

end Blocks

/-! ## The host operations after region 1 -/

variable (m : (ℓ : Loc nD τ sig) → Buf (Elt Ideal) ℓ) (ρ : Dev nD → PrngReg)

/-- The result at (n, co, y, x) is region 1's output array at (n, 68·y + x + 2, co): transpose, slice with offset 2
    on the third axis, reshape of 4352 rows as 64 × 68. -/
theorem W7_result_at (c : Dev nD) (n : Fin 16) (co : Fin 128) (y x : Fin 64) :
    (Gen.W7 (F := Ideal) m ρ c (Proc.devRef .tc main_v53) : S16x128x64x64.Idx → EReal) (ix4 n co y x)
      = (Gen.W6 (F := Ideal) m ρ c (Proc.devRef .tc main_v50) : S16x4352x128.Idx → EReal)
          (ix3 n ⟨y.val * 68 + x.val + 2, by omega⟩ co) := by
  show (StableHlo.after Gen.hostOps2 (Gen.W6 (F := Ideal) m ρ c) (Proc.devRef .tc main_v53) : S16x128x64x64.Idx → EReal) _ = _
  after_results
  refine (transpose_apply _ _ _ (ix4 n co y x) (ix4 n y x co) (fun b => match b with
    | ⟨0, _⟩ => rfl | ⟨1, _⟩ => rfl | ⟨2, _⟩ => rfl | ⟨3, _⟩ => rfl)).trans ?_
  refine (extractStridedSlice_apply _ _ _ (ix4 n y x co) (ix4 n y (⟨x.val + 2, by omega⟩ : Fin 68) co) (fun a => match a with
    | ⟨0, _⟩ => by show n.val = 0 + n.val; omega
    | ⟨1, _⟩ => by show y.val = 0 + y.val; omega
    | ⟨2, _⟩ => by show x.val + 2 = 2 + x.val; omega
    | ⟨3, _⟩ => by show co.val = 0 + co.val; omega)).trans ?_
  show shapeCast S16x64x68x128 (Gen.W6 (F := Ideal) m ρ c (Proc.devRef .tc main_v50) : S16x4352x128.Idx → EReal)
    shapeCasts_S16x4352x128_S16x64x68x128 (ix4 n y (⟨x.val + 2, by omega⟩ : Fin 68) co) = _
  exact shapeCast_apply (s := S16x4352x128) (t := S16x64x68x128) _ _ _ _ (by
    show (S16x4352x128.rowMajor (ix3 n (⟨y.val * 68 + x.val + 2, by omega⟩ : Fin 4352) co)).val
      = (S16x64x68x128.rowMajor (ix4 n y (⟨x.val + 2, by omega⟩ : Fin 68) co)).val
    rw [Shape.rowMajor_val_three, Shape.rowMajor_val_four]
    show (n.val * 4352 + (y.val * 68 + x.val + 2)) * 128 + co.val = ((n.val * 64 + y.val) * 68 + (x.val + 2)) * 128 + co.val
    omega)

/-- The same at an index of the result's shape. -/
theorem W7_result (c : Dev nD) (i : S16x128x64x64.Idx) :
    (Gen.W7 (F := Ideal) m ρ c (Proc.devRef .tc main_v53) : S16x128x64x64.Idx → EReal) i
      = (Gen.W6 (F := Ideal) m ρ c (Proc.devRef .tc main_v50) : S16x4352x128.Idx → EReal)
          (ix3 (i 0 : Fin 16) (⟨(i 2).val * 68 + (i 3).val + 2, by
            have h2 : (i 2).val < 64 := (i 2).isLt
            have h3 : (i 3).val < 64 := (i 3).isLt
            omega⟩ : Fin 4352) (i 1 : Fin 128)) :=
  (congrArg (Gen.W7 (F := Ideal) m ρ c (Proc.devRef .tc main_v53) : S16x128x64x64.Idx → EReal) (eq_ix4 i)).trans
    (W7_result_at m ρ c (i 0) (i 1) (i 2) (i 3))

/-- Region 1's output array as the run leaves it, at (n, p, co): what the body left at point `n` at (0, p, co), the
    region entered at the contents `V5`. -/
theorem W6_result (c : Dev nD) (n : Fin 16) (p : Fin 4352) (co : Fin 128) :
    (Gen.W6 (F := Ideal) m ρ c (Proc.devRef .tc main_v50) : S16x4352x128.Idx → EReal) (ix3 n p co)
      = Gen.outsAt1 (Gen.V5 m ρ) c ⟨n.val, lt_N1 n.isLt⟩ (ix3 (0 : Fin 1) p co) := by
  show (Gen.W6 (F := Ideal) m ρ c (Proc.devRef .tc (Pipeline.arrRef spec1 8)) : S16x4352x128.Idx → EReal) _ = _
  rw [Gen.W6_arr m ρ c 8]
  exact arr1_8 (Gen.V5 m ρ) c n p co

end Cert.ReferenceIdeal.Hand

end
-- ==== Proof.ROperands.lean ====
/-
  What region 1 of the reference finds in its operands other than the upsampled image and the padding mask, as
  functions of the argument arrays: the skip image with its channels moved last, the two folded convolution weights
  re-laid tap by tap (the first one in two halves of its input channels), and the two folded biases as rows.

  None of these buffers is written by region 0, so each is read through the host operations that compute it: a
  transpose of an argument, or the batch-norm fold (kept as the one term `Cert.Fold` names) followed by a slice, a
  permutation of axes and a merge of the two tap axes.
-/
import proofs.«126750_g2000606872001322_pallasbulk_142_34_alg».proof.Proof.Gen.ReferenceIdeal.Frame
import proofs.«126750_g2000606872001322_pallasbulk_142_34_alg».proof.Proof.Spec
import proofs.«126750_g2000606872001322_pallasbulk_142_34_alg».proof.Proof.Fold
import Idealize.ShloMosaic.Lib.Pipeline.Value

noncomputable section

namespace Cert.ReferenceIdeal.Hand

open Idealize.ShloMosaic Idealize.ShloMosaic.ValueIdx Idealize.ShloMosaic.TcCoe Idealize.SL.Sem
open Cert.ReferenceIdeal Cert.ReferenceIdeal.Gen

namespace Ops

/-- A buffer that no operation of a stretch of host operations writes keeps its contents through the stretch. -/
macro "not_written " h:ident : tactic => `(tactic| (
  refine StableHlo.after_of_forall_not_mem _ _ (List.forall_iff_forall_mem.mp ?_)
  simp only [$h:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

variable (m : (ℓ : Loc nD τ sig) → Buf (Elt Ideal) ℓ) (ρ : Dev nD → PrngReg) (c : Dev nD)

/-! ## The arguments, and the buffers region 0 does not write, walked back through region 0

Region 0 writes one array, its result. Every other buffer holds after it what it held before it, and no host
operation before region 0 writes an argument: at region 0's exit an argument's buffer holds the argument. -/

theorem W2_arg4 : Gen.W2 (F := Ideal) m ρ c (Proc.devRef .tc main_arg4) = m ((c : Thread nD τ).loc main_arg4) :=
  calc Gen.W2 (F := Ideal) m ρ c (Proc.devRef .tc main_arg4)
    _ = Gen.W1 (F := Ideal) m ρ c (Proc.devRef .tc main_arg4) := Gen.W2_of_ne m ρ c main_arg4 (by decide)
    _ = Gen.W0 (F := Ideal) m ρ c (Proc.devRef .tc main_arg4) := by not_written hostOps0
    _ = m ((c : Thread nD τ).loc main_arg4) := rfl

theorem W2_arg5 : Gen.W2 (F := Ideal) m ρ c (Proc.devRef .tc main_arg5) = m ((c : Thread nD τ).loc main_arg5) :=
  calc Gen.W2 (F := Ideal) m ρ c (Proc.devRef .tc main_arg5)
    _ = Gen.W1 (F := Ideal) m ρ c (Proc.devRef .tc main_arg5) := Gen.W2_of_ne m ρ c main_arg5 (by decide)
    _ = Gen.W0 (F := Ideal) m ρ c (Proc.devRef .tc main_arg5) := by not_written hostOps0
    _ = m ((c : Thread nD τ).loc main_arg5) := rfl

theorem W2_arg6 : Gen.W2 (F := Ideal) m ρ c (Proc.devRef .tc main_arg6) = m ((c : Thread nD τ).loc main_arg6) :=
  calc Gen.W2 (F := Ideal) m ρ c (Proc.devRef .tc main_arg6)
    _ = Gen.W1 (F := Ideal) m ρ c (Proc.devRef .tc main_arg6) := Gen.W2_of_ne m ρ c main_arg6 (by decide)
    _ = Gen.W0 (F := Ideal) m ρ c (Proc.devRef .tc main_arg6) := by not_written hostOps0
    _ = m ((c : Thread nD τ).loc main_arg6) := rfl

theorem W2_arg7 : Gen.W2 (F := Ideal) m ρ c (Proc.devRef .tc main_arg7) = m ((c : Thread nD τ).loc main_arg7) :=
  calc Gen.W2 (F := Ideal) m ρ c (Proc.devRef .tc main_arg7)
    _ = Gen.W1 (F := Ideal) m ρ c (Proc.devRef .tc main_arg7) := Gen.W2_of_ne m ρ c main_arg7 (by decide)
    _ = Gen.W0 (F := Ideal) m ρ c (Proc.devRef .tc main_arg7) := by not_written hostOps0
    _ = m ((c : Thread nD τ).loc main_arg7) := rfl

theorem W2_arg8 : Gen.W2 (F := Ideal) m ρ c (Proc.devRef .tc main_arg8) = m ((c : Thread nD τ).loc main_arg8) :=
  calc Gen.W2 (F := Ideal) m ρ c (Proc.devRef .tc main_arg8)
    _ = Gen.W1 (F := Ideal) m ρ c (Proc.devRef .tc main_arg8) := Gen.W2_of_ne m ρ c main_arg8 (by decide)
    _ = Gen.W0 (F := Ideal) m ρ c (Proc.devRef .tc main_arg8) := by not_written hostOps0
    _ = m ((c : Thread nD τ).loc main_arg8) := rfl

theorem W2_arg9 : Gen.W2 (F := Ideal) m ρ c (Proc.devRef .tc main_arg9) = m ((c : Thread nD τ).loc main_arg9) :=
  calc Gen.W2 (F := Ideal) m ρ c (Proc.devRef .tc main_arg9)
    _ = Gen.W1 (F := Ideal) m ρ c (Proc.devRef .tc main_arg9) := Gen.W2_of_ne m ρ c main_arg9 (by decide)
    _ = Gen.W0 (F := Ideal) m ρ c (Proc.devRef .tc main_arg9) := by not_written hostOps0
    _ = m ((c : Thread nD τ).loc main_arg9) := rfl

theorem W2_arg10 : Gen.W2 (F := Ideal) m ρ c (Proc.devRef .tc main_arg10) = m ((c : Thread nD τ).loc main_arg10) :=
  calc Gen.W2 (F := Ideal) m ρ c (Proc.devRef .tc main_arg10)
    _ = Gen.W1 (F := Ideal) m ρ c (Proc.devRef .tc main_arg10) := Gen.W2_of_ne m ρ c main_arg10 (by decide)
    _ = Gen.W0 (F := Ideal) m ρ c (Proc.devRef .tc main_arg10) := by not_written hostOps0
    _ = m ((c : Thread nD τ).loc main_arg10) := rfl

theorem W2_arg11 : Gen.W2 (F := Ideal) m ρ c (Proc.devRef .tc main_arg11) = m ((c : Thread nD τ).loc main_arg11) :=
  calc Gen.W2 (F := Ideal) m ρ c (Proc.devRef .tc main_arg11)
    _ = Gen.W1 (F := Ideal) m ρ c (Proc.devRef .tc main_arg11) := Gen.W2_of_ne m ρ c main_arg11 (by decide)
    _ = Gen.W0 (F := Ideal) m ρ c (Proc.devRef .tc main_arg11) := by not_written hostOps0
    _ = m ((c : Thread nD τ).loc main_arg11) := rfl

theorem W2_arg12 : Gen.W2 (F := Ideal) m ρ c (Proc.devRef .tc main_arg12) = m ((c : Thread nD τ).loc main_arg12) :=
  calc Gen.W2 (F := Ideal) m ρ c (Proc.devRef .tc main_arg12)
    _ = Gen.W1 (F := Ideal) m ρ c (Proc.devRef .tc main_arg12) := Gen.W2_of_ne m ρ c main_arg12 (by decide)
    _ = Gen.W0 (F := Ideal) m ρ c (Proc.devRef .tc main_arg12) := by not_written hostOps0
    _ = m ((c : Thread nD τ).loc main_arg12) := rfl

theorem W2_arg13 : Gen.W2 (F := Ideal) m ρ c (Proc.devRef .tc main_arg13) = m ((c : Thread nD τ).loc main_arg13) :=
  calc Gen.W2 (F := Ideal) m ρ c (Proc.devRef .tc main_arg13)
    _ = Gen.W1 (F := Ideal) m ρ c (Proc.devRef .tc main_arg13) := Gen.W2_of_ne m ρ c main_arg13 (by decide)
    _ = Gen.W0 (F := Ideal) m ρ c (Proc.devRef .tc main_arg13) := by not_written hostOps0
    _ = m ((c : Thread nD τ).loc main_arg13) := rfl

theorem W2_arg14 : Gen.W2 (F := Ideal) m ρ c (Proc.devRef .tc main_arg14) = m ((c : Thread nD τ).loc main_arg14) :=
  calc Gen.W2 (F := Ideal) m ρ c (Proc.devRef .tc main_arg14)
    _ = Gen.W1 (F := Ideal) m ρ c (Proc.devRef .tc main_arg14) := Gen.W2_of_ne m ρ c main_arg14 (by decide)
    _ = Gen.W0 (F := Ideal) m ρ c (Proc.devRef .tc main_arg14) := by not_written hostOps0
    _ = m ((c : Thread nD τ).loc main_arg14) := rfl

theorem W2_arg15 : Gen.W2 (F := Ideal) m ρ c (Proc.devRef .tc main_arg15) = m ((c : Thread nD τ).loc main_arg15) :=
  calc Gen.W2 (F := Ideal) m ρ c (Proc.devRef .tc main_arg15)
    _ = Gen.W1 (F := Ideal) m ρ c (Proc.devRef .tc main_arg15) := Gen.W2_of_ne m ρ c main_arg15 (by decide)
    _ = Gen.W0 (F := Ideal) m ρ c (Proc.devRef .tc main_arg15) := by not_written hostOps0
    _ = m ((c : Thread nD τ).loc main_arg15) := rfl

/-! The folded parameters are computed in the stretch right after region 0; the two stretches after it (the padding
mask's) write none of them. -/

theorem V5_eq_W3_main_v33 : Gen.V5 (F := Ideal) m ρ c main_v33 = Gen.W3 (F := Ideal) m ρ c (Proc.devRef .tc main_v33) :=
  calc Gen.W5 (F := Ideal) m ρ c (Proc.devRef .tc main_v33)
    _ = Gen.W4 (F := Ideal) m ρ c (Proc.devRef .tc main_v33) := by not_written hostOps1_2
    _ = Gen.W3 (F := Ideal) m ρ c (Proc.devRef .tc main_v33) := by not_written hostOps1_1

theorem V5_eq_W3_main_v36 : Gen.V5 (F := Ideal) m ρ c main_v36 = Gen.W3 (F := Ideal) m ρ c (Proc.devRef .tc main_v36) :=
  calc Gen.W5 (F := Ideal) m ρ c (Proc.devRef .tc main_v36)
    _ = Gen.W4 (F := Ideal) m ρ c (Proc.devRef .tc main_v36) := by not_written hostOps1_2
    _ = Gen.W3 (F := Ideal) m ρ c (Proc.devRef .tc main_v36) := by not_written hostOps1_1

theorem V5_eq_W3_main_v38 : Gen.V5 (F := Ideal) m ρ c main_v38 = Gen.W3 (F := Ideal) m ρ c (Proc.devRef .tc main_v38) :=
  calc Gen.W5 (F := Ideal) m ρ c (Proc.devRef .tc main_v38)
    _ = Gen.W4 (F := Ideal) m ρ c (Proc.devRef .tc main_v38) := by not_written hostOps1_2
    _ = Gen.W3 (F := Ideal) m ρ c (Proc.devRef .tc main_v38) := by not_written hostOps1_1

theorem V5_eq_W3_main_v39 : Gen.V5 (F := Ideal) m ρ c main_v39 = Gen.W3 (F := Ideal) m ρ c (Proc.devRef .tc main_v39) :=
  calc Gen.W5 (F := Ideal) m ρ c (Proc.devRef .tc main_v39)
    _ = Gen.W4 (F := Ideal) m ρ c (Proc.devRef .tc main_v39) := by not_written hostOps1_2
    _ = Gen.W3 (F := Ideal) m ρ c (Proc.devRef .tc main_v39) := by not_written hostOps1_1

theorem V5_eq_W3_main_v40 : Gen.V5 (F := Ideal) m ρ c main_v40 = Gen.W3 (F := Ideal) m ρ c (Proc.devRef .tc main_v40) :=
  calc Gen.W5 (F := Ideal) m ρ c (Proc.devRef .tc main_v40)
    _ = Gen.W4 (F := Ideal) m ρ c (Proc.devRef .tc main_v40) := by not_written hostOps1_2
    _ = Gen.W3 (F := Ideal) m ρ c (Proc.devRef .tc main_v40) := by not_written hostOps1_1

/-! ## The skip image: the second argument with its channel axis moved last -/

/-- Written before region 0 and by nothing later. -/
theorem V5_eq_V1_main_v1 : Gen.V5 (F := Ideal) m ρ c main_v1 = Gen.V1 (F := Ideal) m ρ c main_v1 :=
  calc Gen.W5 (F := Ideal) m ρ c (Proc.devRef .tc main_v1)
    _ = Gen.W4 (F := Ideal) m ρ c (Proc.devRef .tc main_v1) := by not_written hostOps1_2
    _ = Gen.W3 (F := Ideal) m ρ c (Proc.devRef .tc main_v1) := by not_written hostOps1_1
    _ = Gen.W2 (F := Ideal) m ρ c (Proc.devRef .tc main_v1) := by not_written hostOps1
    _ = Gen.W1 (F := Ideal) m ρ c (Proc.devRef .tc main_v1) := Gen.W2_of_ne m ρ c main_v1 (by decide)

theorem V1_main_v1 : (Gen.V1 (F := Ideal) m ρ c main_v1 : S16x64x64x128.Idx → EReal)
    = transpose S16x64x64x128 [0, 2, 3, 1] (m ((c : Thread nD τ).loc main_arg1)) transposes_S16x128x64x64_S16x64x64x128_0_2_3_1 := by
  show StableHlo.after hostOps0 (Gen.W0 m ρ c) (Proc.devRef .tc main_v1) = _
  after_results

end Ops

open Ops

variable (m : (ℓ : Loc nD τ sig) → Buf (Elt Ideal) ℓ) (ρ : Dev nD → PrngReg) (c : Dev nD)

/-- Sample `n`, pixel `(y, x)`, channel `ch` of the re-laid skip image is the argument at `(n, ch, y, x)`. -/
theorem V5_x2 (n : Fin 16) (y x : Fin 64) (ch : Fin 128) :
    Gen.V5 (F := Ideal) m ρ c main_v1 (ix4 n y x ch) = m ((c : Thread nD τ).loc main_arg1) (ix4 n ch y x) := by
  rw [V5_eq_V1_main_v1, V1_main_v1]
  refine (transpose_apply _ _ _ (ix4 n y x ch) (ix4 n ch y x) ?_).trans rfl
  intro b
  match b with
  | ⟨0, _⟩ => rfl
  | ⟨1, _⟩ => rfl
  | ⟨2, _⟩ => rfl
  | ⟨3, _⟩ => rfl

/-! ## The folded weights, re-laid as region 1 takes them: tap `3 dh + dw`, input channel, output channel

Each is the folded weight `[output channel, input channel, dh, dw]` (for the first convolution one half of its
input channels) with its axes permuted to `[dh, dw, input channel, output channel]` and the two tap axes merged. -/

set_option maxHeartbeats 1000000 in
/-- The first convolution's folded weight on the skip image's channels `0 … 127`. -/
theorem V5_w1a (k : Fin 9) (ci co : Fin 128) :
    Gen.V5 (F := Ideal) m ρ c main_v33 (ix3 k ci co)
      = Cert.Fold.w1e (m ((c : Thread nD τ).loc main_arg4)) (m ((c : Thread nD τ).loc main_arg6)) (m ((c : Thread nD τ).loc main_arg9))
          (ix4 co ⟨ci.val, by omega⟩ ⟨k.val / 3, by omega⟩ ⟨k.val % 3, by omega⟩) := by
  rw [V5_eq_W3_main_v33]
  show StableHlo.after hostOps1 (Gen.W2 m ρ c) (Proc.devRef .tc main_v33) (ix3 k ci co) = _
  have e4 := W2_arg4 m ρ c
  have e6 := W2_arg6 m ρ c
  have e9 := W2_arg9 m ρ c
  generalize Gen.W2 (F := Ideal) m ρ c = V2 at e4 e6 e9 ⊢
  after_results
  rw [e4, e6, e9]
  clear e4 e6 e9
  refine (shapeCast_apply _ _ (ix3 k ci co) (ix4 ⟨k.val / 3, by omega⟩ ⟨k.val % 3, by omega⟩ ci co) ?_).trans ?_
  · rw [Shape.rowMajor_val_four, Shape.rowMajor_val_three]
    show ((k.val / 3 * 3 + k.val % 3) * 128 + ci.val) * 128 + co.val = (k.val * 128 + ci.val) * 128 + co.val
    omega
  refine (transpose_apply _ _ _ _ (ix4 co ci ⟨k.val / 3, by omega⟩ ⟨k.val % 3, by omega⟩) ?_).trans ?_
  · intro b
    match b with
    | ⟨0, _⟩ => rfl
    | ⟨1, _⟩ => rfl
    | ⟨2, _⟩ => rfl
    | ⟨3, _⟩ => rfl
  refine (extractStridedSlice_apply _ _ _ _ (ix4 co ⟨ci.val, by omega⟩ ⟨k.val / 3, by omega⟩ ⟨k.val % 3, by omega⟩) ?_).trans ?_
  · intro a
    match a with
    | ⟨0, _⟩ => show co.val = 0 + co.val; omega
    | ⟨1, _⟩ => show ci.val = 0 + ci.val; omega
    | ⟨2, _⟩ => show k.val / 3 = 0 + k.val / 3; omega
    | ⟨3, _⟩ => show k.val % 3 = 0 + k.val % 3; omega
  rfl

set_option maxHeartbeats 1000000 in
/-- The first convolution's folded weight on the upsampled image's channels `128 … 255`. -/
theorem V5_w1b (k : Fin 9) (ci co : Fin 128) :
    Gen.V5 (F := Ideal) m ρ c main_v36 (ix3 k ci co)
      = Cert.Fold.w1e (m ((c : Thread nD τ).loc main_arg4)) (m ((c : Thread nD τ).loc main_arg6)) (m ((c : Thread nD τ).loc main_arg9))
          (ix4 co ⟨ci.val + 128, by omega⟩ ⟨k.val / 3, by omega⟩ ⟨k.val % 3, by omega⟩) := by
  rw [V5_eq_W3_main_v36]
  show StableHlo.after hostOps1 (Gen.W2 m ρ c) (Proc.devRef .tc main_v36) (ix3 k ci co) = _
  have e4 := W2_arg4 m ρ c
  have e6 := W2_arg6 m ρ c
  have e9 := W2_arg9 m ρ c
  generalize Gen.W2 (F := Ideal) m ρ c = V2 at e4 e6 e9 ⊢
  after_results
  rw [e4, e6, e9]
  clear e4 e6 e9
  refine (shapeCast_apply _ _ (ix3 k ci co) (ix4 ⟨k.val / 3, by omega⟩ ⟨k.val % 3, by omega⟩ ci co) ?_).trans ?_
  · rw [Shape.rowMajor_val_four, Shape.rowMajor_val_three]
    show ((k.val / 3 * 3 + k.val % 3) * 128 + ci.val) * 128 + co.val = (k.val * 128 + ci.val) * 128 + co.val
    omega
  refine (transpose_apply _ _ _ _ (ix4 co ci ⟨k.val / 3, by omega⟩ ⟨k.val % 3, by omega⟩) ?_).trans ?_
  · intro b
    match b with
    | ⟨0, _⟩ => rfl
    | ⟨1, _⟩ => rfl
    | ⟨2, _⟩ => rfl
    | ⟨3, _⟩ => rfl
  refine (extractStridedSlice_apply _ _ _ _ (ix4 co ⟨ci.val + 128, by omega⟩ ⟨k.val / 3, by omega⟩ ⟨k.val % 3, by omega⟩) ?_).trans ?_
  · intro a
    match a with
    | ⟨0, _⟩ => show co.val = 0 + co.val; omega
    | ⟨1, _⟩ => show ci.val + 128 = 128 + ci.val; omega
    | ⟨2, _⟩ => show k.val / 3 = 0 + k.val / 3; omega
    | ⟨3, _⟩ => show k.val % 3 = 0 + k.val % 3; omega
  rfl

set_option maxHeartbeats 1000000 in
/-- The second convolution's folded weight. -/
theorem V5_w2r (k : Fin 9) (cm co : Fin 128) :
    Gen.V5 (F := Ideal) m ρ c main_v38 (ix3 k cm co)
      = Cert.Fold.w2e (m ((c : Thread nD τ).loc main_arg10)) (m ((c : Thread nD τ).loc main_arg12)) (m ((c : Thread nD τ).loc main_arg15))
          (ix4 co cm ⟨k.val / 3, by omega⟩ ⟨k.val % 3, by omega⟩) := by
  rw [V5_eq_W3_main_v38]
  show StableHlo.after hostOps1 (Gen.W2 m ρ c) (Proc.devRef .tc main_v38) (ix3 k cm co) = _
  have e10 := W2_arg10 m ρ c
  have e12 := W2_arg12 m ρ c
  have e15 := W2_arg15 m ρ c
  generalize Gen.W2 (F := Ideal) m ρ c = V2 at e10 e12 e15 ⊢
  after_results
  rw [e10, e12, e15]
  clear e10 e12 e15
  refine (shapeCast_apply _ _ (ix3 k cm co) (ix4 ⟨k.val / 3, by omega⟩ ⟨k.val % 3, by omega⟩ cm co) ?_).trans ?_
  · rw [Shape.rowMajor_val_four, Shape.rowMajor_val_three]
    show ((k.val / 3 * 3 + k.val % 3) * 128 + cm.val) * 128 + co.val = (k.val * 128 + cm.val) * 128 + co.val
    omega
  refine (transpose_apply _ _ _ _ (ix4 co cm ⟨k.val / 3, by omega⟩ ⟨k.val % 3, by omega⟩) ?_).trans ?_
  · intro b
    match b with
    | ⟨0, _⟩ => rfl
    | ⟨1, _⟩ => rfl
    | ⟨2, _⟩ => rfl
    | ⟨3, _⟩ => rfl
  rfl

/-! ## The folded biases, as one-row arrays -/

set_option maxHeartbeats 1000000 in
theorem V5_b1r (co : Fin 128) :
    Gen.V5 (F := Ideal) m ρ c main_v39 (ix2 0 co)
      = Cert.Fold.b1e (m ((c : Thread nD τ).loc main_arg5)) (m ((c : Thread nD τ).loc main_arg8)) (m ((c : Thread nD τ).loc main_arg6)) (m ((c : Thread nD τ).loc main_arg9)) (m ((c : Thread nD τ).loc main_arg7)) (ix1 co) := by
  rw [V5_eq_W3_main_v39]
  show StableHlo.after hostOps1 (Gen.W2 m ρ c) (Proc.devRef .tc main_v39) (ix2 0 co) = _
  have e5 := W2_arg5 m ρ c
  have e6 := W2_arg6 m ρ c
  have e7 := W2_arg7 m ρ c
  have e8 := W2_arg8 m ρ c
  have e9 := W2_arg9 m ρ c
  generalize Gen.W2 (F := Ideal) m ρ c = V2 at e5 e6 e7 e8 e9 ⊢
  after_results
  rw [e5, e6, e7, e8, e9]
  clear e5 e6 e7 e8 e9
  refine (shapeCast_apply _ _ (ix2 0 co) (ix1 co) ?_).trans ?_
  · rw [Shape.rowMajor_val_one, Shape.rowMajor_val_two]
    show co.val = 0 * 128 + co.val
    omega
  rfl

set_option maxHeartbeats 1000000 in
theorem V5_b2r (co : Fin 128) :
    Gen.V5 (F := Ideal) m ρ c main_v40 (ix2 0 co)
      = Cert.Fold.b1e (m ((c : Thread nD τ).loc main_arg11)) (m ((c : Thread nD τ).loc main_arg14)) (m ((c : Thread nD τ).loc main_arg12)) (m ((c : Thread nD τ).loc main_arg15)) (m ((c : Thread nD τ).loc main_arg13)) (ix1 co) := by
  rw [V5_eq_W3_main_v40]
  show StableHlo.after hostOps1 (Gen.W2 m ρ c) (Proc.devRef .tc main_v40) (ix2 0 co) = _
  have e11 := W2_arg11 m ρ c
  have e12 := W2_arg12 m ρ c
  have e13 := W2_arg13 m ρ c
  have e14 := W2_arg14 m ρ c
  have e15 := W2_arg15 m ρ c
  generalize Gen.W2 (F := Ideal) m ρ c = V2 at e11 e12 e13 e14 e15 ⊢
  after_results
  rw [e11, e12, e13, e14, e15]
  clear e11 e12 e13 e14 e15
  refine (shapeCast_apply _ _ (ix2 0 co) (ix1 co) ?_).trans ?_
  · rw [Shape.rowMajor_val_one, Shape.rowMajor_val_two]
    show co.val = 0 * 128 + co.val
    omega
  rfl

end Cert.ReferenceIdeal.Hand

end
-- ==== Proof.RUpBlock.lean ====
/-
  Region 0 of the reference (the 2×2, stride-2 transposed convolution), from its output block to its output array.

  The body forms ONE matrix product of the sample's 1024×256 pixel-by-channel matrix with the 256×512 weight matrix,
  adds the bias row, and stores the 1024×512 result as 64 pieces: for each image row h < 32, rows 32h … 32h+31 of
  the product, columns 0 … 255 to block entry [0, h, 0, :, :] and columns 256 … 511 to [0, h, 1, :, :]. So block
  entry (0, h, di, w, j) is the product-plus-bias at row 32h + w, column 256 di + j. Grid point n writes its block
  back as sample n of the [16, 32, 2, 32, 256] array, and no two points' blocks meet.
-/
import proofs.«126750_g2000606872001322_pallasbulk_142_34_alg».proof.Proof.Gen.ReferenceIdeal.Frame
import Idealize.ShloMosaic.Lib.Pipeline.Value
import Idealize.ShloMosaic.Lib.ValueIdx
import Idealize.ShloMosaic.PureOps.Ideal.Laws

noncomputable section

namespace Cert.ReferenceIdeal.Hand

open Idealize.ShloMosaic Idealize.ShloMosaic.ValueIdx Idealize.ShloMosaic.TcCoe Idealize.SL.Sem
open Idealize.ShloMosaic.Pipeline (Dat)
open Cert.ReferenceIdeal Cert.ReferenceIdeal.Gen

/-! ## Region 0's body: one matrix product plus a bias row, cut into 64 row-and-column pieces -/

/-- The dimension numbers of the body's one matrix product: [1024,256] times [256,512]. -/
abbrev Dm : DotDims S1024x256 S256x512 S1024x512 := dot_S1024x256_S256x512_S1024x512_1_0_0_1_n_n

theorem Dm_lhs0 (i : S1024x512.Idx) (q : Dm.contr.Idx) : (Dm.lhsIdx i q 0).val = (i 0).val := by
  unfold DotDims.lhsIdx
  rw [dif_neg (show ¬(0 : Fin S1024x256.rank) ∈ Dm.lhsBatch by decide), dif_pos (show (0 : Fin S1024x256.rank) ∈ Dm.lhsNonContracting by decide)]
  rfl
theorem Dm_lhs1 (i : S1024x512.Idx) (q : Dm.contr.Idx) : (Dm.lhsIdx i q 1).val = (q ⟨0, by decide⟩).val :=
  Dm.lhsIdx_val_of_single rfl i q
theorem Dm_rhs0 (i : S1024x512.Idx) (q : Dm.contr.Idx) : (Dm.rhsIdx i q 0).val = (q ⟨0, by decide⟩).val :=
  Dm.rhsIdx_val_of_single rfl i q
theorem Dm_rhs1 (i : S1024x512.Idx) (q : Dm.contr.Idx) : (Dm.rhsIdx i q 1).val = (i 1).val := by
  unfold DotDims.rhsIdx
  rw [dif_neg (show ¬(1 : Fin S256x512.rank) ∈ Dm.rhsBatch by decide), dif_pos (show (1 : Fin S256x512.rank) ∈ Dm.rhsNonContracting by decide)]
  rfl

/-- The product-plus-bias at row `r`, column `q`: the sum over the 256 input channels, plus the bias row's entry. -/
theorem pay5_apply (x0 : Vec Ideal S1x1024x256 .f32) (x1 : Vec Ideal S256x512 .f32) (x2 : Vec Ideal S1x512 .f32)
    (r : Fin 1024) (q : Fin 512) :
    k0_pay5 x0 x1 x2 (ix2 r q) = (∑ k : Fin 256, x0 (ix3 0 r k) * x1 (ix2 k q)) + x2 (ix2 0 q) := by
  unfold k0_pay5
  refine (addf_apply _ _ _).trans ?_
  refine congrArg₂ (· + ·) ?_ ?_
  · refine (Ideal.matmul_constant_zero_apply Dm none _ _ (ix2 r q)).trans ?_
    rw [← Equiv.sum_comp (contrEquiv1 Dm 256 rfl rfl).symm]
    refine Finset.sum_congr rfl fun k _ => ?_
    have hk := contrEquiv1_symm_val Dm 256 rfl rfl k
    refine congrArg₂ (· * ·) ?_ ?_
    · refine shapeCast_apply _ _ _ (ix3 0 r k) ?_
      rw [Shape.rowMajor_val_three, Shape.rowMajor_val_two, Dm_lhs0, Dm_lhs1, hk]
      show (0 * 1024 + r.val) * 256 + k.val = r.val * 256 + k.val
      omega
    · rw [shapeCast_self]
      refine congrArg x1 (funext fun a => Fin.ext ?_)
      match a with
      | ⟨0, _⟩ => exact (Dm_rhs0 _ _).trans hk
      | ⟨1, _⟩ => exact Dm_rhs1 _ _
  · refine (broadcastTo_apply _ _ (ix2 r q) (ix2 0 q) ?_).trans ?_
    · intro a
      match a with
      | ⟨0, _⟩ => rfl
      | ⟨1, _⟩ => rfl
    · rw [shapeCast_self]

/-- A row slice, then a column slice, then the cast to a [1,1,1,32,256] piece, read at an index of the piece. -/
theorem piece_apply (v8 : FVec Ideal S1024x512 .f32) (r0 c0 : ℕ)
    (h1 : S1024x512.Slices ![r0, 0] S32x512) (h2 : S32x512.Slices ![0, c0] S32x256)
    (h3 : S32x256.ShapeCasts S1x1x1x32x256) (x : S1x1x1x32x256.Idx) (k : S1024x512.Idx)
    (hk0 : (k 0).val = r0 + (x 3).val) (hk1 : (k 1).val = c0 + (x 4).val) :
    shapeCast S1x1x1x32x256 (extractStridedSlice S32x256 ![0, c0] (extractStridedSlice S32x512 ![r0, 0] v8 h1) h2) h3 x = v8 k := by
  have hx0 : (x 0).val < 1 := (x 0).isLt
  have hx1 : (x 1).val < 1 := (x 1).isLt
  have hx2 : (x 2).val < 1 := (x 2).isLt
  have hx3 : (x 3).val < 32 := (x 3).isLt
  have hx4 : (x 4).val < 256 := (x 4).isLt
  refine (shapeCast_apply _ h3 x (ix2 ⟨(x 3).val, hx3⟩ ⟨(x 4).val, hx4⟩) ?_).trans ?_
  · rw [Shape.rowMajor_val_two, Shape.rowMajor_val_five]
    show (x 3).val * 256 + (x 4).val = (((((x 0).val * 1 + (x 1).val) * 1 + (x 2).val) * 32 + (x 3).val) * 256 + (x 4).val)
    omega
  have hc : c0 + 256 ≤ 512 := h2.2 1
  refine (extractStridedSlice_apply _ _ h2 _ (ix2 ⟨(x 3).val, hx3⟩ ⟨c0 + (x 4).val, by omega⟩) ?_).trans ?_
  · intro a
    match a with
    | ⟨0, _⟩ => show (x 3).val = 0 + (x 3).val; omega
    | ⟨1, _⟩ => rfl
  refine extractStridedSlice_apply _ _ h1 _ k ?_
  intro a
  match a with
  | ⟨0, _⟩ => exact hk0
  | ⟨1, _⟩ => show (k 1).val = 0 + (c0 + (x 4).val); omega

/-- The block region 0 writes at one grid point, as one function of the product-plus-bias `v8` of that point:
    block entry `(0, h, di, w, j)` is `v8` at row `32 h + w`, column `256 di + j`. -/
def blockOf (v8 : FVec Ideal S1024x512 .f32) : Vec Ideal S1x32x2x32x256 .f32 := fun y =>
  v8 (ix2 ⟨(y 1).val * 32 + (y 3).val, by
        have h1 : (y 1).val < 32 := (y 1).isLt
        have h3 : (y 3).val < 32 := (y 3).isLt
        omega⟩ ⟨(y 2).val * 256 + (y 4).val, by
        have h2 : (y 2).val < 2 := (y 2).isLt
        have h4 : (y 4).val < 256 := (y 4).isLt
        omega⟩)

/-- The piece stored at rows `32 h …`, columns `256 di …` is `blockOf` under the store's rectangle `(0, h, di, 0, 0)`. -/
theorem piece_at (V8 : FVec Ideal S1024x512 .f32) (r0 c0 h di : ℕ) (hr : r0 = 32 * h) (hc : c0 = 256 * di)
    (inb : ∀ a, (![0, h, di, 0, 0] : Fin 5 → ℕ) a + S1x1x1x32x256.size a ≤ S1x32x2x32x256.size a)
    (h1 : S1024x512.Slices ![r0, 0] S32x512) (h2 : S32x512.Slices ![0, c0] S32x256)
    (h3 : S32x256.ShapeCasts S1x1x1x32x256) (x : S1x1x1x32x256.Idx) :
    shapeCast S1x1x1x32x256 (extractStridedSlice S32x256 ![0, c0] (extractStridedSlice S32x512 ![r0, 0] V8 h1) h2) h3 x
      = blockOf V8 ((Rect.unit (s := S1x32x2x32x256) ![0, h, di, 0, 0] S1x1x1x32x256.size inb).emb x) := by
  have hx1 : (x 1).val < 1 := (x 1).isLt
  have hx2 : (x 2).val < 1 := (x 2).isLt
  refine piece_apply V8 r0 c0 h1 h2 h3 x _ ?_ ?_
  · show (h + 1 * (x 1).val) * 32 + (0 + 1 * (x 3).val) = r0 + (x 3).val
    omega
  · show (di + 1 * (x 2).val) * 256 + (0 + 1 * (x 4).val) = c0 + (x 4).val
    omega

/-- What region 0's body leaves in its output block: `blockOf` of the product-plus-bias of the loaded blocks. The 64
    stores are 64 pieces of that one function, and they tile the block. -/
theorem out0_3_eq (x0 : Vec Ideal S1x1024x256 .f32) (x1 : Vec Ideal S256x512 .f32) (x2 : Vec Ideal S1x512 .f32)
    (y : S1x32x2x32x256.Idx) :
    out0_3 (F := Ideal) x0 x1 x2 y = blockOf (k0_pay5 (View.ld x0 r0_0) (View.ld x1 r0_1) (View.ld x2 r0_2)) y := by
  unfold out0_3
  refine View.canon_apply_of_pieces (Val := Elt Ideal) (blockOf (k0_pay5 (View.ld x0 r0_0) (View.ld x1 r0_1) (View.ld x2 r0_2))) _ ?_ y
    (cover0_3 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  intro p hp x
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals
    dsimp only [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106]
    exact piece_at _ _ _ _ _ (by rfl) (by rfl) _ _ _ _ x

theorem zeros3 : (![0, 0, 0] : Fin 3 → ℕ) = fun _ => 0 :=
  funext fun a => match a with | ⟨0, _⟩ => rfl | ⟨1, _⟩ => rfl | ⟨2, _⟩ => rfl
theorem zeros2 : (![0, 0] : Fin 2 → ℕ) = fun _ => 0 :=
  funext fun a => match a with | ⟨0, _⟩ => rfl | ⟨1, _⟩ => rfl

/-- Region 0's output block at entry (0, h, di, w, j): the sum over the 256 input channels of the pixel
    (row 32h + w of the flattened image) times the weight column 256 di + j, plus that column's bias. -/
theorem out0_3_apply (x0 : Vec Ideal S1x1024x256 .f32) (x1 : Vec Ideal S256x512 .f32) (x2 : Vec Ideal S1x512 .f32)
    (h : Fin 32) (di : Fin 2) (w : Fin 32) (j : Fin 256) :
    Gen.out0_3 (F := Ideal) x0 x1 x2 (ValueIdx.ix5 0 h di w j)
      = (∑ k : Fin 256, x0 (ValueIdx.ix3 0 ⟨h.val * 32 + w.val, by omega⟩ k)
            * x1 (ValueIdx.ix2 k ⟨di.val * 256 + j.val, by omega⟩))
          + x2 (ValueIdx.ix2 0 ⟨di.val * 256 + j.val, by omega⟩) := by
  rw [out0_3_eq, View.ld_unit_zero (S := S1x1024x256) zeros3, View.ld_unit_zero (S := S256x512) zeros2,
    View.ld_unit_zero (S := S1x512) zeros2]
  exact pay5_apply x0 x1 x2 ⟨h.val * 32 + w.val, by omega⟩ ⟨di.val * 256 + j.val, by omega⟩

/-! ## From the block to the array: grid point n writes sample n -/

/-- Distinct grid points write distinct blocks of the output array. -/
theorem idx_inj3 : ∀ t t' : Fin cfg0.N, win0_3.index t = win0_3.index t' → t = t' :=
  (by decide +kernel : ∀ t t' : Fin grid0.N, win0_3.index t = win0_3.index t' → t = t')

/-- So no two points' blocks share an index of the array. -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- Point t's block index is (t, 0, 0, 0, 0): the block is sample t. -/
theorem idx3 : ∀ t : Fin cfg0.N, win0_3.index t (0 : Fin 5) = t.val ∧ win0_3.index t (1 : Fin 5) = 0
    ∧ win0_3.index t (2 : Fin 5) = 0 ∧ win0_3.index t (3 : Fin 5) = 0 ∧ win0_3.index t (4 : Fin 5) = 0 :=
  (by decide +kernel : ∀ t : Fin grid0.N, _)

/-- The output array after the region, at (n, h, di, w, j): what point n's body left in its block at (0, h, di, w, j),
    computed from the three input blocks of point n. The blocks are disjoint, so each array entry is written once. -/
theorem arr0_3 (V : (c : Dev nD) → (b : Ref sig .tc) → Buf (Elt Ideal) ((c : Thread nD τ).loc b)) (c : Dev nD)
    (n : Fin 16) (h : Fin 32) (di : Fin 2) (w : Fin 32) (j : Fin 256) :
    (Gen.dat0 (F := Ideal) V c).arrAt 3 cfg0.N (ValueIdx.ix5 n h di w j)
      = Gen.out0_3 (Gen.iblk0 V c 0 ⟨n.val, n.isLt⟩) (Gen.iblk0 V c 1 ⟨n.val, n.isLt⟩) (Gen.iblk0 V c 2 ⟨n.val, n.isLt⟩)
          (ValueIdx.ix5 0 h di w j) := by
  obtain ⟨e0, e1, e2, e3, e4⟩ := idx3 ⟨n.val, n.isLt⟩
  have e0' : win0_3.index ⟨n.val, n.isLt⟩ (0 : Fin 5) = n.val := e0
  have hemb : ((cfg0.win 3).blk ⟨n.val, n.isLt⟩).view.emb (ValueIdx.ix5 0 h di w j) = ValueIdx.ix5 n h di w j := by
    funext a; apply Fin.ext
    match a with
    | ⟨0, _⟩ => show win0_3.index ⟨n.val, n.isLt⟩ (0 : Fin 5) * 1 + 1 * 0 = n.val; omega
    | ⟨1, _⟩ => show win0_3.index ⟨n.val, n.isLt⟩ (1 : Fin 5) * 32 + 1 * h.val = h.val; omega
    | ⟨2, _⟩ => show win0_3.index ⟨n.val, n.isLt⟩ (2 : Fin 5) * 2 + 1 * di.val = di.val; omega
    | ⟨3, _⟩ => show win0_3.index ⟨n.val, n.isLt⟩ (3 : Fin 5) * 32 + 1 * w.val = w.val; omega
    | ⟨4, _⟩ => show win0_3.index ⟨n.val, n.isLt⟩ (4 : Fin 5) * 256 + 1 * j.val = j.val; omega
  rw [← hemb, (Gen.dat0 (F := Ideal) V c).arrAt_emb_eq_flushed 3 disjoint3 ⟨n.val, n.isLt⟩ (flush0_3 _) (ValueIdx.ix5 0 h di w j)]
  show (cfg0.win 3).cut (grid0.coords ⟨n.val, n.isLt⟩) ((Gen.dat0 (F := Ideal) V c).after 3 ⟨n.val, n.isLt⟩) (ValueIdx.ix5 0 h di w j) = _
  rw [after0_3]
  rfl

end Cert.ReferenceIdeal.Hand

end
-- ==== Proof.RUp.lean ====
/-
  The upsampled image the reference's second region finds, as a function of the argument arrays.

  The reference computes the 2×2, stride-2 transposed convolution in its first region as ONE matrix product per
  sample: the [1024, 256] matrix of the sample's 32×32 pixels by channels, times the [256, 512] matrix of the weight
  with its (row parity, column parity, output channel) axes merged, plus the bias repeated four times; the region
  stores the product as [32, 2, 32, 256] — (h, row parity, w, (column parity, channel)) —, and a reshape reads it as
  [64, 64, 128]: row `2 h + di`, column `2 w + dj`.

  Here: what region 0's three operands hold at its entry (host transposes and reshapes of the arguments, read at an
  index); region 0's input blocks read off those arrays; and the result array, reshaped, at an index — the
  specification's `up`.
-/
import proofs.«126750_g2000606872001322_pallasbulk_142_34_alg».proof.Proof.Gen.ReferenceIdeal.Frame
import proofs.«126750_g2000606872001322_pallasbulk_142_34_alg».proof.Proof.Spec
import proofs.«126750_g2000606872001322_pallasbulk_142_34_alg».proof.Proof.RUpBlock
import Idealize.ShloMosaic.Lib.Pipeline.Value

noncomputable section

namespace Cert.ReferenceIdeal.Hand

open Idealize.ShloMosaic Idealize.ShloMosaic.ValueIdx Idealize.ShloMosaic.TcCoe Idealize.SL.Sem
open Idealize.ShloMosaic.Pipeline (Dat)
open Cert.ReferenceIdeal Cert.ReferenceIdeal.Gen

namespace Up

/-- A buffer that no operation of a stretch of host operations writes keeps its contents through the stretch. -/
macro "not_written " h:ident : tactic => `(tactic| (
  refine StableHlo.after_of_forall_not_mem _ _ (List.forall_iff_forall_mem.mp ?_)
  simp only [$h:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## Region 0's three operands at its entry, as functions of the arguments -/

section entry
variable (m : (ℓ : Loc nD τ sig) → Buf (Elt Ideal) ℓ) (ρ : Dev nD → PrngReg) (c : Dev nD)

set_option maxHeartbeats 1000000 in
/-- The low-resolution input: channels moved last, then the 32×32 pixels merged into one axis of 1024. Row
    `32 h + w` of sample `n`, column `k`, is the argument at `(n, k, h, w)`. -/
theorem V1_main_v8_apply (n : Fin 16) (h w : Fin 32) (k : Fin 256) (r : Fin 1024) (hr : r.val = h.val * 32 + w.val) :
    (Gen.V1 (F := Ideal) m ρ c main_v8 : S16x1024x256.Idx → EReal) (ix3 n r k)
      = m ((c : Thread nD τ).loc main_arg0) (ix4 n k h w) := by
  show StableHlo.after hostOps0 (Gen.W0 m ρ c) (Proc.devRef .tc main_v8) (ix3 n r k) = _
  have e0 : Gen.W0 (F := Ideal) m ρ c (Proc.devRef .tc main_arg0) = m ((c : Thread nD τ).loc main_arg0) := rfl
  generalize Gen.W0 (F := Ideal) m ρ c = V0 at e0 ⊢
  after_results
  rw [e0]
  clear e0
  refine (shapeCast_apply _ _ (ix3 n r k) (ix4 n h w k) ?_).trans ?_
  · rw [Shape.rowMajor_val_four, Shape.rowMajor_val_three]
    show ((n.val * 32 + h.val) * 32 + w.val) * 256 + k.val = (n.val * 1024 + r.val) * 256 + k.val
    omega
  refine transpose_apply _ _ _ _ (ix4 n k h w) ?_
  intro b
  match b with
  | ⟨0, _⟩ => rfl
  | ⟨1, _⟩ => rfl
  | ⟨2, _⟩ => rfl
  | ⟨3, _⟩ => rfl

set_option maxHeartbeats 1000000 in
/-- The transposed convolution's weight: output channels moved last, then the two parities and the 128 output channels
    merged into one axis of 512. Row `k`, column `256 di + 128 dj + ch`, is the argument at `(k, ch, di, dj)`. -/
theorem V1_main_v3_apply (k : Fin 256) (di dj : Fin 2) (ch : Fin 128) (q : Fin 512)
    (hq : q.val = di.val * 256 + dj.val * 128 + ch.val) :
    (Gen.V1 (F := Ideal) m ρ c main_v3 : S256x512.Idx → EReal) (ix2 k q)
      = m ((c : Thread nD τ).loc main_arg2) (ix4 k ch di dj) := by
  show StableHlo.after hostOps0 (Gen.W0 m ρ c) (Proc.devRef .tc main_v3) (ix2 k q) = _
  have e2 : Gen.W0 (F := Ideal) m ρ c (Proc.devRef .tc main_arg2) = m ((c : Thread nD τ).loc main_arg2) := rfl
  generalize Gen.W0 (F := Ideal) m ρ c = V0 at e2 ⊢
  after_results
  rw [e2]
  clear e2
  refine (shapeCast_apply _ _ (ix2 k q) (ix4 k di dj ch) ?_).trans ?_
  · rw [Shape.rowMajor_val_four, Shape.rowMajor_val_two]
    show ((k.val * 2 + di.val) * 2 + dj.val) * 128 + ch.val = k.val * 512 + q.val
    omega
  refine transpose_apply _ _ _ _ (ix4 k ch di dj) ?_
  intro b
  match b with
  | ⟨0, _⟩ => rfl
  | ⟨1, _⟩ => rfl
  | ⟨2, _⟩ => rfl
  | ⟨3, _⟩ => rfl

set_option maxHeartbeats 1000000 in
/-- The transposed convolution's bias, repeated four times along one row of 512: column `128 a + ch` is the argument
    at `ch`. -/
theorem V1_main_v7_apply (a : Fin 4) (ch : Fin 128) (q : Fin 512) (hq : q.val = a.val * 128 + ch.val) :
    (Gen.V1 (F := Ideal) m ρ c main_v7 : S1x512.Idx → EReal) (ix2 0 q)
      = m ((c : Thread nD τ).loc main_arg3) (ix1 ch) := by
  show StableHlo.after hostOps0 (Gen.W0 m ρ c) (Proc.devRef .tc main_v7) (ix2 0 q) = _
  have e3 : Gen.W0 (F := Ideal) m ρ c (Proc.devRef .tc main_arg3) = m ((c : Thread nD τ).loc main_arg3) := rfl
  generalize Gen.W0 (F := Ideal) m ρ c = V0 at e3 ⊢
  after_results
  rw [e3]
  clear e3
  refine (shapeCast_apply _ _ (ix2 0 q) (ix1 q) ?_).trans ?_
  · rw [Shape.rowMajor_val_one, Shape.rowMajor_val_two]
    show q.val = 0 * 512 + q.val
    omega
  refine (shapeCast_apply _ _ (ix1 q) (ix2 a ch) ?_).trans ?_
  · rw [Shape.rowMajor_val_two, Shape.rowMajor_val_one]
    show a.val * 128 + ch.val = q.val
    omega
  refine (broadcastInDim_apply _ _ _ (ix2 a ch) (ix2 0 ch) ?_).trans ?_
  · intro b
    match b with
    | ⟨0, _⟩ => rfl
    | ⟨1, _⟩ => rfl
  refine shapeCast_apply _ _ (ix2 0 ch) (ix1 ch) ?_
  rw [Shape.rowMajor_val_one, Shape.rowMajor_val_two]
  show ch.val = 0 * 128 + ch.val
  omega

end entry

/-! ## Region 0's input blocks, read off the arrays it finds

Grid point `t` is sample `t`: the first window's block is sample `t` of its array, the other two windows are whole
arrays at every point. -/

/-- The three input windows' block indices at every grid point (decided over the 16 points). -/
theorem idx0 : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

section blocks
variable (V : (c : Dev nD) → (b : Ref sig .tc) → Buf (Elt Ideal) ((c : Thread nD τ).loc b)) (c : Dev nD)

theorem iblk0_0_apply (t : Fin cfg0.N) (n : Fin 16) (hn : t.val = n.val) (r : Fin 1024) (k : Fin 256) :
    (Gen.iblk0 (F := Ideal) V c 0 t : Vec Ideal S1x1024x256 .f32) (ix3 0 r k)
      = (V c main_v8 : S16x1024x256.Idx → EReal) (ix3 n r k) := by
  obtain ⟨e0, e1, e2, -⟩ := idx0 t
  unfold Gen.iblk0
  rw [View.read_apply]
  show V c main_v8 _ = V c main_v8 _
  refine congrArg _ (funext fun a => Fin.ext ?_)
  match a with
  | ⟨0, _⟩ => show win0_0.index t (0 : Fin 3) * 1 + 1 * 0 = n.val; omega
  | ⟨1, _⟩ => show win0_0.index t (1 : Fin 3) * 1024 + 1 * r.val = r.val; omega
  | ⟨2, _⟩ => show win0_0.index t (2 : Fin 3) * 256 + 1 * k.val = k.val; omega

theorem iblk0_1_apply (t : Fin cfg0.N) (k : Fin 256) (q : Fin 512) :
    (Gen.iblk0 (F := Ideal) V c 1 t : Vec Ideal S256x512 .f32) (ix2 k q)
      = (V c main_v3 : S256x512.Idx → EReal) (ix2 k q) := by
  obtain ⟨-, -, -, e0, e1, -⟩ := idx0 t
  unfold Gen.iblk0
  rw [View.read_apply]
  show V c main_v3 _ = V c main_v3 _
  refine congrArg _ (funext fun a => Fin.ext ?_)
  match a with
  | ⟨0, _⟩ => show win0_1.index t (0 : Fin 2) * 256 + 1 * k.val = k.val; omega
  | ⟨1, _⟩ => show win0_1.index t (1 : Fin 2) * 512 + 1 * q.val = q.val; omega

theorem iblk0_2_apply (t : Fin cfg0.N) (q : Fin 512) :
    (Gen.iblk0 (F := Ideal) V c 2 t : Vec Ideal S1x512 .f32) (ix2 0 q)
      = (V c main_v7 : S1x512.Idx → EReal) (ix2 0 q) := by
  obtain ⟨-, -, -, -, -, e0, e1⟩ := idx0 t
  unfold Gen.iblk0
  rw [View.read_apply]
  show V c main_v7 _ = V c main_v7 _
  refine congrArg _ (funext fun a => Fin.ext ?_)
  match a with
  | ⟨0, _⟩ => show win0_2.index t (0 : Fin 2) * 1 + 1 * 0 = 0; omega
  | ⟨1, _⟩ => show win0_2.index t (1 : Fin 2) * 512 + 1 * q.val = q.val; omega

end blocks

/-! ## The upsampled image region 1 finds: region 0's result, re-read as [16, 64, 64, 128]

Region 0's result array has axes (sample, h, row parity, w, 256 lanes), a lane being (column parity, channel). Read as
(sample, row, column, channel) with row `2 h + di` and column `2 w + dj` it is the transposed convolution. -/

section exit
variable (m : (ℓ : Loc nD τ sig) → Buf (Elt Ideal) ℓ) (ρ : Dev nD → PrngReg) (c : Dev nD)

/-- Computed by the first host operation after region 0 and written by nothing later. -/
theorem V5_eq_W3_main_v10 : Gen.V5 (F := Ideal) m ρ c main_v10 = Gen.W3 (F := Ideal) m ρ c (Proc.devRef .tc main_v10) :=
  calc Gen.W5 (F := Ideal) m ρ c (Proc.devRef .tc main_v10)
    _ = Gen.W4 (F := Ideal) m ρ c (Proc.devRef .tc main_v10) := by not_written hostOps1_2
    _ = Gen.W3 (F := Ideal) m ρ c (Proc.devRef .tc main_v10) := by not_written hostOps1_1

/-- At region 0's exit its result array holds what the region's write-backs leave. -/
theorem W2_main_v9 : Gen.W2 (F := Ideal) m ρ c (Proc.devRef .tc main_v9) = (Gen.dat0 (Gen.V1 (F := Ideal) m ρ) c).arrAt 3 cfg0.N :=
  Gen.W2_arr m ρ c 3

end exit

end Up

open Up

variable (m : (ℓ : Loc nD τ sig) → Buf (Elt Ideal) ℓ) (ρ : Dev nD → PrngReg) (c : Dev nD)

set_option maxHeartbeats 1000000 in
/-- THE UPSAMPLED IMAGE at region 1's entry is the specification's transposed convolution of the arguments. -/
theorem V5_up (n : Fin 16) (y x : Fin 64) (ch : Fin 128) :
    Gen.V5 (F := Ideal) m ρ c main_v10 (ix4 n y x ch)
      = Cert.Spec.up (fun ci r q => m ((c : Thread nD τ).loc main_arg0) (ix4 n ci r q))
          (fun ci c' di dj => m ((c : Thread nD τ).loc main_arg2) (ix4 ci c' di dj))
          (fun c' _ _ => m ((c : Thread nD τ).loc main_arg3) (ix1 c')) ch y x := by
  rw [V5_eq_W3_main_v10]
  show StableHlo.after hostOps1 (Gen.W2 m ρ c) (Proc.devRef .tc main_v10) (ix4 n y x ch) = _
  have e9 := W2_main_v9 m ρ c
  generalize Gen.W2 (F := Ideal) m ρ c = V2 at e9 ⊢
  after_results
  rw [e9]
  clear e9
  refine (shapeCast_apply _ _ (ix4 n y x ch)
    (ix5 n ⟨y.val / 2, by omega⟩ ⟨y.val % 2, by omega⟩ ⟨x.val / 2, by omega⟩ ⟨x.val % 2 * 128 + ch.val, by omega⟩) ?_).trans ?_
  · rw [Shape.rowMajor_val_five, Shape.rowMajor_val_four]
    show (((n.val * 32 + y.val / 2) * 2 + y.val % 2) * 32 + x.val / 2) * 256 + (x.val % 2 * 128 + ch.val)
      = ((n.val * 64 + y.val) * 64 + x.val) * 128 + ch.val
    omega
  refine (arr0_3 (Gen.V1 (F := Ideal) m ρ) c n _ _ _ _).trans ?_
  refine (out0_3_apply _ _ _ _ _ _ _).trans ?_
  unfold Cert.Spec.up
  refine congrArg₂ (· + ·) (Finset.sum_congr rfl fun k _ => congrArg₂ (· * ·) ?_ ?_) ?_
  · exact (iblk0_0_apply (Gen.V1 (F := Ideal) m ρ) c ⟨n.val, n.isLt⟩ n rfl _ k).trans
      (V1_main_v8_apply m ρ c n ⟨y.val / 2, by omega⟩ ⟨x.val / 2, by omega⟩ k _ rfl)
  · exact (iblk0_1_apply (Gen.V1 (F := Ideal) m ρ) c ⟨n.val, n.isLt⟩ k _).trans
      (V1_main_v3_apply m ρ c k ⟨y.val % 2, by omega⟩ ⟨x.val % 2, by omega⟩ ch _
        (by show y.val % 2 * 256 + (x.val % 2 * 128 + ch.val) = y.val % 2 * 256 + x.val % 2 * 128 + ch.val; omega))
  · exact (iblk0_2_apply (Gen.V1 (F := Ideal) m ρ) c ⟨n.val, n.isLt⟩ _).trans
      (V1_main_v7_apply m ρ c ⟨y.val % 2 * 2 + x.val % 2, by omega⟩ ch _
        (by show y.val % 2 * 256 + (x.val % 2 * 128 + ch.val) = (y.val % 2 * 2 + x.val % 2) * 128 + ch.val; omega))

end Cert.ReferenceIdeal.Hand

end
-- ==== Proof.RMask.lean ====
/-
  The reference's row mask at the second region's entry, at an index.

  The host program builds it before the region: the position `p` of a padded row of 4352 = 64 · 68 pixels is taken
  modulo 68 (a pixel's column in its padded line of 68), and the mask is 1 where that column is between 2 and 65 — the
  64 columns that hold the image — and 0 on the two columns of padding on either side. The remainder is computed on
  32-bit words by the host's signed remainder followed by a correction for operands of different signs; on the
  nonnegative words here the correction's condition fails, so the word is the remainder of the naturals.
-/
import proofs.«126750_g2000606872001322_pallasbulk_142_34_alg».proof.Proof.Gen.ReferenceIdeal.Frame
import Idealize.ShloMosaic.Lib.StableHlo.Run
import Idealize.ShloMosaic.Lib.Pipeline.Value
import Idealize.ShloMosaic.Lib.ValueIdx
import Idealize.ShloMosaic.Lib.ValueLayout
import Idealize.ShloMosaic.Lib.Affine

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx
open Idealize.SL.Sem

namespace RMask

/-! ## The words: a small number's remainder by 68, and the two compares -/

section Words

theorem toInt_small (k : ℕ) (hk : k < 2 ^ 31) : (BitVec.ofNat 32 k).toInt = (k : ℤ) := by
  have h1 : (BitVec.ofNat 32 k).toNat = k := by rw [BitVec.toNat_ofNat]; omega
  rw [BitVec.toInt_eq_toNat_of_lt (by rw [h1]; omega), h1]

/-- The host's remainder of a small nonnegative word by 68, sign fix-up included, is the remainder: the remainder
    of a nonnegative word by a positive one is nonnegative, so the fix-up's condition fails. -/
theorem rem68_word (p : ℕ) (hp : p < 4352) :
    Scalar.select
      (IntOp.andi
        (IntOp.cmpi .ne
          (IntOp.cmpi .slt (IntOp.remsi .host (BitVec.ofNat 32 p) (Scalar.select (IntOp.cmpi .eq 68#32 0#32) 1#32 68#32)) 0#32)
          (IntOp.cmpi .slt (Scalar.select (IntOp.cmpi .eq 68#32 0#32) 1#32 68#32) 0#32))
        (IntOp.cmpi .ne (IntOp.remsi .host (BitVec.ofNat 32 p) (Scalar.select (IntOp.cmpi .eq 68#32 0#32) 1#32 68#32)) 0#32))
      (IntOp.addi (IntOp.remsi .host (BitVec.ofNat 32 p) (Scalar.select (IntOp.cmpi .eq 68#32 0#32) 1#32 68#32))
        (Scalar.select (IntOp.cmpi .eq 68#32 0#32) 1#32 68#32))
      (IntOp.remsi .host (BitVec.ofNat 32 p) (Scalar.select (IntOp.cmpi .eq 68#32 0#32) 1#32 68#32))
    = BitVec.ofNat 32 (p % 68) := by
  have hs : Scalar.select (IntOp.cmpi .eq 68#32 0#32) 1#32 68#32 = BitVec.ofNat 32 68 := by decide
  rw [hs]
  have hr : IntOp.remsi .host (BitVec.ofNat 32 p) (BitVec.ofNat 32 68) = BitVec.ofNat 32 (p % 68) := by
    apply BitVec.eq_of_toNat_eq
    rw [IntOp.toNat_remsi .host (by rw [BitVec.toNat_ofNat]; omega) 68 (by omega) (by omega), BitVec.toNat_ofNat,
      BitVec.toNat_ofNat]
    omega
  rw [hr]
  have h1 : IntOp.cmpi .slt (BitVec.ofNat 32 (p % 68)) 0#32 = 0#1 := eq_zero_of_ne_one (fun h => by
    rw [IntOp.cmpi_slt, toInt_small _ (by omega)] at h
    have : (0#32 : BitVec 32).toInt = 0 := by decide
    omega)
  have h2 : IntOp.cmpi .slt (BitVec.ofNat 32 68) 0#32 = 0#1 := by decide
  rw [h1, h2]
  have h3 : ∀ x : BitVec 1, IntOp.andi (IntOp.cmpi .ne 0#1 0#1) x = 0#1 := by decide
  rw [h3]
  exact select_zero _ _

/-- The mask's entry from the remainder: 1 where the remainder is between 2 and 65. -/
theorem mask_word (k : ℕ) (hk : k < 68) :
    (((IntOp.andi (IntOp.cmpi .sge (BitVec.ofNat 32 k) 2#32) (IntOp.cmpi .sle (BitVec.ofNat 32 k) 65#32)).toNat : ℝ) : EReal)
      = if 2 ≤ k ∧ k ≤ 65 then 1 else 0 := by
  have ti := toInt_small k (by omega)
  have t2 : (2#32 : BitVec 32).toInt = 2 := by decide
  have t65 : (65#32 : BitVec 32).toInt = 65 := by decide
  by_cases h : 2 ≤ k ∧ k ≤ 65
  · rw [if_pos h, IntOp.cmpi_sge.mpr (by rw [ti, t2]; omega), IntOp.cmpi_sle.mpr (by rw [ti, t65]; omega)]
    simp [IntOp.andi]
  · rw [if_neg h]
    have h0 : IntOp.andi (IntOp.cmpi .sge (BitVec.ofNat 32 k) 2#32) (IntOp.cmpi .sle (BitVec.ofNat 32 k) 65#32) = 0#1 :=
      eq_zero_of_ne_one (fun h1 => h (by
        rw [IntOp.andi_eq_one, IntOp.cmpi_sge, IntOp.cmpi_sle, ti, t2, t65] at h1
        omega))
    rw [h0]; simp

end Words

/-! ## The three stretches before the second region, read at the buffers the mask is made of -/

section Reads
open StableHlo
variable (V : Valuation τ sig (Elt Ideal))

/-- The remainder of a word array by a scalar as the host program computes it: the host remainder, moved by the
    divisor where it is not zero and its sign differs from the divisor's. -/
def remT (io : IVec S4352 32) (n : IVec S_ 32) : IVec S4352 32 :=
  select
    (andi
      (cmpi .ne
        (cmpi .slt (Host.remsi io (broadcastInDim S4352 ![] bcast_S_S4352 (select (cmpi .eq n (constantI S_ 32 0#32)) (constantI S_ 32 1#32) n)))
          (broadcastInDim S4352 ![] bcast_S_S4352 (constantI S_ 32 0#32)))
        (broadcastInDim S4352 ![] bcast_S_S4352
          (cmpi .slt (select (cmpi .eq n (constantI S_ 32 0#32)) (constantI S_ 32 1#32) n) (constantI S_ 32 0#32))))
      (cmpi .ne (Host.remsi io (broadcastInDim S4352 ![] bcast_S_S4352 (select (cmpi .eq n (constantI S_ 32 0#32)) (constantI S_ 32 1#32) n)))
        (broadcastInDim S4352 ![] bcast_S_S4352 (constantI S_ 32 0#32))))
    (addi (Host.remsi io (broadcastInDim S4352 ![] bcast_S_S4352 (select (cmpi .eq n (constantI S_ 32 0#32)) (constantI S_ 32 1#32) n)))
      (broadcastInDim S4352 ![] bcast_S_S4352 (select (cmpi .eq n (constantI S_ 32 0#32)) (constantI S_ 32 1#32) n)))
    (Host.remsi io (broadcastInDim S4352 ![] bcast_S_S4352 (select (cmpi .eq n (constantI S_ 32 0#32)) (constantI S_ 32 1#32) n)))

theorem rd0_v41 : (after (hostOps1 (F := Ideal)) V (Proc.devRef .tc main_v41) : IVec S4352 32) = iotaInDim S4352 32 0 := by
  simp only [hostOps1]; after_results <;> rfl
theorem rd0_c : (after (hostOps1 (F := Ideal)) V (Proc.devRef .tc main_c) : IVec S_ 32) = constantI S_ 32 68#32 := by
  simp only [hostOps1]; after_results <;> rfl

set_option maxHeartbeats 4000000 in
theorem rd1_v42 : (after (hostOps1_1 (F := Ideal)) V (Proc.devRef .tc main_v42) : IVec S4352 32)
    = remT (V (Proc.devRef .tc main_v41) : IVec S4352 32) (V (Proc.devRef .tc main_c) : IVec S_ 32) := by
  simp only [hostOps1_1]; after_results_simp <;> rfl

theorem rd2_v49 : (after (hostOps1_2 (F := Ideal)) V (Proc.devRef .tc main_v49) : S4352x1.Idx → EReal)
    = shapeCast S4352x1 (uitofp (F := Ideal) .f32 (andi
        (cmpi .sge (V (Proc.devRef .tc main_v42) : IVec S4352 32) (broadcastInDim S4352 ![] bcast_S_S4352 (constantI S_ 32 2#32)))
        (cmpi .sle (V (Proc.devRef .tc main_v42) : IVec S4352 32) (broadcastInDim S4352 ![] bcast_S_S4352 (constantI S_ 32 65#32)))))
        shapeCasts_S4352_S4352x1 := by
  simp only [hostOps1_2]; after_results <;> rfl

end Reads

/-! ## The mask's array at the region's entry, and an entry of it -/

section Entry
open StableHlo
variable (m : (ℓ : Loc nD τ sig) → Buf (Elt Ideal) ℓ) (ρ : Dev nD → PrngReg) (c : Dev nD)

theorem ent_v49 : (Gen.V5 (F := Ideal) m ρ c main_v49 : S4352x1.Idx → EReal)
    = shapeCast S4352x1 (uitofp (F := Ideal) .f32 (andi
        (cmpi .sge (remT (iotaInDim S4352 32 0) (constantI S_ 32 68#32)) (broadcastInDim S4352 ![] bcast_S_S4352 (constantI S_ 32 2#32)))
        (cmpi .sle (remT (iotaInDim S4352 32 0) (constantI S_ 32 68#32)) (broadcastInDim S4352 ![] bcast_S_S4352 (constantI S_ 32 65#32)))))
        shapeCasts_S4352_S4352x1 := by
  have e41 : (W3 m ρ c (Proc.devRef .tc main_v41) : IVec S4352 32) = iotaInDim S4352 32 0 := rd0_v41 (W2 m ρ c)
  have ec : (W3 m ρ c (Proc.devRef .tc main_c) : IVec S_ 32) = constantI S_ 32 68#32 := rd0_c (W2 m ρ c)
  have e42 : (W4 m ρ c (Proc.devRef .tc main_v42) : IVec S4352 32) = remT (iotaInDim S4352 32 0) (constantI S_ 32 68#32) := by
    refine (rd1_v42 (W3 m ρ c)).trans ?_
    rw [e41, ec]
  refine (rd2_v49 (W4 m ρ c)).trans ?_
  rw [e42]

end Entry

end RMask

section Mask
variable (m : (ℓ : Loc nD τ sig) → Buf (Elt Ideal) ℓ) (ρ : Dev nD → PrngReg) (c : Dev nD)

/-- The mask at padded position `p`: 1 where `p`'s column in its padded line of 68 holds a pixel of the image. -/
theorem V5_mask (p : Fin 4352) :
    (Gen.V5 (F := Ideal) m ρ c main_v49 : S4352x1.Idx → EReal) (ix2 p (0 : Fin 1))
      = (if 2 ≤ p.val % 68 ∧ p.val % 68 ≤ 65 then (1 : EReal) else 0) := by
  refine (congrFun (RMask.ent_v49 m ρ c) _).trans ?_
  refine (shapeCast_apply _ _ _ (ix1 p) ?_).trans ?_
  · rw [Shape.rowMajor_val_one, Shape.rowMajor_val_two]
    show p.val = p.val * 1 + 0
    omega
  have hw : RMask.remT (iotaInDim S4352 32 0) (constantI S_ 32 68#32) (ix1 p) = BitVec.ofNat 32 (p.val % 68) :=
    RMask.rem68_word p.val p.isLt
  show (((IntOp.andi (IntOp.cmpi .sge (RMask.remT (iotaInDim S4352 32 0) (constantI S_ 32 68#32) (ix1 p)) 2#32)
    (IntOp.cmpi .sle (RMask.remT (iotaInDim S4352 32 0) (constantI S_ 32 68#32) (ix1 p)) 65#32)).toNat : ℝ) : EReal) = _
  rw [hw]
  exact RMask.mask_word _ (Nat.mod_lt _ (by omega))

end Mask

end Cert.ReferenceIdeal.Hand

end
-- ==== Proof.RConv.lean ====
/-
  Two 3×3 convolutions over flat slabs of row pitch 68, and Spec's two convolutions.

  A 64×64 image is laid into a flat slab of 68·68 zeros with a ring two wide, pixel (r, q) at position
  (r+2)*68 + (q+2). A 3×3 convolution with zero padding 1 then reads, for the band row j = y*68 + x + 2 of pixel
  (y, x), tap (dh, dw) at slab position 67 + dh*68 + dw + j = (y+dh+1)*68 + (x+dw+1): the pixel (y+dh-1, x+dw-1)
  when that is inside the image, and a zero of the ring otherwise — Spec's `padC` at (y+dh, x+dw). The hidden
  image is kept in a slab of the same pitch: zero outside the band, and inside it multiplied by a column mask that
  is 0 at the pitch's four ring columns (`x * 0 = 0`) and 1 elsewhere (`x * 1 = x`) — Spec's `hidP`. Sums over the
  256 concatenated channels split into the two slabs' 128; nine taps added one after another are the double sum
  over the taps. Only commutativity and associativity of + and ·, `0 + x = x`, `x * 0 = 0` and `x * 1 = x` are used.
-/
import proofs.«126750_g2000606872001322_pallasbulk_142_34_alg».proof.Proof.Spec

noncomputable section

namespace Cert.ReferenceIdeal.Conv

open Cert.Spec

/-! ### The flat slab of an image -/

/-- A 128-channel 64×64 image laid out in a flat slab of zeros of row pitch 68 with a ring two wide:
    image pixel (r, q) sits at position (r+2)*68 + (q+2); every other position is 0. -/
def slab (im : Fin 64 → Fin 64 → Fin 128 → EReal) (p : ℕ) (c : Fin 128) : EReal :=
  if h : 2 ≤ p / 68 ∧ p / 68 ≤ 65 ∧ 2 ≤ p % 68 ∧ p % 68 ≤ 65 then
    im ⟨p / 68 - 2, by omega⟩ ⟨p % 68 - 2, by omega⟩ c
  else 0

/-- The slab read at padded coordinates (yy, xx) of the one-wide ring is the image with a ring of zeros. -/
theorem slab_pad (im : Fin 64 → Fin 64 → Fin 128 → EReal) (yy xx : ℕ) (hy : yy ≤ 65) (hx : xx ≤ 65)
    (c : Fin 128) :
    slab im ((yy + 1) * 68 + (xx + 1)) c
      = if h : 1 ≤ yy ∧ yy ≤ 64 ∧ 1 ≤ xx ∧ xx ≤ 64 then im ⟨yy - 1, by omega⟩ ⟨xx - 1, by omega⟩ c else 0 := by
  have hd : ((yy + 1) * 68 + (xx + 1)) / 68 = yy + 1 := by omega
  have hm : ((yy + 1) * 68 + (xx + 1)) % 68 = xx + 1 := by omega
  unfold slab
  by_cases h : 1 ≤ yy ∧ yy ≤ 64 ∧ 1 ≤ xx ∧ xx ≤ 64
  · rw [dif_pos h, dif_pos (by omega)]
    congr 1 <;> (apply Fin.ext; simp only; omega)
  · rw [dif_neg h, dif_neg (by omega)]

/-- Tap (dh, dw) of band row y*68 + x + 2 reads slab position (y+dh+1)*68 + (x+dw+1). -/
theorem tap_index (y x dh dw : ℕ) :
    67 + dh * 68 + dw + (y * 68 + x + 2) = (y + dh + 1) * 68 + (x + dw + 1) := by omega

/-! ### The concatenated image and the folded weights, from the per-slab pieces -/

/-- The 256-channel image: channels 0..127 the first image, 128..255 the second (both channel-last). -/
def catIm (skip upim : Fin 64 → Fin 64 → Fin 128 → EReal) (ch : Fin 256) (r q : Fin 64) : EReal :=
  if h : ch.val < 128 then skip r q ⟨ch.val, h⟩ else upim r q ⟨ch.val - 128, by omega⟩

/-- The first convolution's weight from its two per-tap halves (tap, input channel, output channel). -/
def w1Of (w1a w1b : Fin 9 → Fin 128 → Fin 128 → EReal) (cm : Fin 128) (ch : Fin 256) (dh dw : Fin 3) : EReal :=
  if h : ch.val < 128 then w1a ⟨dh.val * 3 + dw.val, by omega⟩ ⟨ch.val, h⟩ cm
  else w1b ⟨dh.val * 3 + dw.val, by omega⟩ ⟨ch.val - 128, by omega⟩ cm

/-- The second convolution's weight from its per-tap form (tap, input channel, output channel). -/
def w2Of (w2r : Fin 9 → Fin 128 → Fin 128 → EReal) (co cm : Fin 128) (dh dw : Fin 3) : EReal :=
  w2r ⟨dh.val * 3 + dw.val, by omega⟩ cm co

variable (skip upim : Fin 64 → Fin 64 → Fin 128 → EReal)
variable (w1a w1b w2r : Fin 9 → Fin 128 → Fin 128 → EReal) (b1 b2 : Fin 128 → EReal)

theorem padC_lo (ci : Fin 128) (yy xx : ℕ) (hy : yy ≤ 65) (hx : xx ≤ 65) :
    padC (catIm skip upim) (Fin.castAdd 128 ci) yy xx = slab skip ((yy + 1) * 68 + (xx + 1)) ci := by
  rw [slab_pad _ _ _ hy hx]
  unfold padC catIm
  have hc : (Fin.castAdd 128 ci).val < 128 := by simp
  by_cases h : 1 ≤ yy ∧ yy ≤ 64 ∧ 1 ≤ xx ∧ xx ≤ 64
  · rw [dif_pos h, dif_pos h, dif_pos hc]; rfl
  · rw [dif_neg h, dif_neg h]

theorem padC_hi (ci : Fin 128) (yy xx : ℕ) (hy : yy ≤ 65) (hx : xx ≤ 65) :
    padC (catIm skip upim) (Fin.natAdd 128 ci) yy xx = slab upim ((yy + 1) * 68 + (xx + 1)) ci := by
  rw [slab_pad _ _ _ hy hx]
  unfold padC catIm
  have hc : ¬ (Fin.natAdd 128 ci).val < 128 := by simp
  by_cases h : 1 ≤ yy ∧ yy ≤ 64 ∧ 1 ≤ xx ∧ xx ≤ 64
  · rw [dif_pos h, dif_pos h, dif_neg hc]
    congr 1; apply Fin.ext; simp
  · rw [dif_neg h, dif_neg h]

theorem w1Of_lo (cm ci : Fin 128) (dh dw : Fin 3) :
    w1Of w1a w1b cm (Fin.castAdd 128 ci) dh dw = w1a ⟨dh.val * 3 + dw.val, by omega⟩ ci cm := by
  unfold w1Of
  rw [dif_pos (by simp : (Fin.castAdd 128 ci).val < 128)]; rfl

theorem w1Of_hi (cm ci : Fin 128) (dh dw : Fin 3) :
    w1Of w1a w1b cm (Fin.natAdd 128 ci) dh dw = w1b ⟨dh.val * 3 + dw.val, by omega⟩ ci cm := by
  unfold w1Of
  rw [dif_neg (by simp : ¬ (Fin.natAdd 128 ci).val < 128)]
  congr 1; apply Fin.ext; simp

/-- A sum over the 256 channels is the sum over the first 128 plus the sum over the last 128. -/
theorem sum256 (f : Fin 256 → EReal) :
    ∑ ch : Fin 256, f ch = ∑ ci : Fin 128, f (Fin.castAdd 128 ci) + ∑ ci : Fin 128, f (Fin.natAdd 128 ci) :=
  Fin.sum_univ_add (M := EReal) (a := 128) (b := 128) f

/-- One tap of the first convolution: the two slabs' channel contractions are the 256-channel contraction of Spec. -/
theorem tap1 (cm : Fin 128) (dh dw : Fin 3) (yy xx : ℕ) (hy : yy ≤ 65) (hx : xx ≤ 65) :
    (∑ ci : Fin 128, slab skip ((yy + 1) * 68 + (xx + 1)) ci * w1a ⟨dh.val * 3 + dw.val, by omega⟩ ci cm)
      + (∑ ci : Fin 128, slab upim ((yy + 1) * 68 + (xx + 1)) ci * w1b ⟨dh.val * 3 + dw.val, by omega⟩ ci cm)
      = ∑ ch : Fin 256, w1Of w1a w1b cm ch dh dw * padC (catIm skip upim) ch yy xx := by
  rw [sum256]
  congr 1
  · refine Finset.sum_congr rfl fun ci _ => ?_
    rw [padC_lo _ _ _ _ _ hy hx, w1Of_lo, mul_comm]
  · refine Finset.sum_congr rfl fun ci _ => ?_
    rw [padC_hi _ _ _ _ _ hy hx, w1Of_hi, mul_comm]

/-! ### The hidden slab -/

/-- The column mask of a band row: 1 at the pitch's columns 2..65, 0 at its four ring columns. -/
def mask (j : ℕ) : EReal := if 2 ≤ j % 68 ∧ j % 68 ≤ 65 then 1 else 0

/-- The hidden slab made from band values `g`: zero outside the band (positions 136..4487), inside it
    max(g, 0) times the column mask. -/
def hslab (g : ℕ → Fin 128 → EReal) (p : ℕ) (cm : Fin 128) : EReal :=
  if 136 ≤ p ∧ p < 4488 then max (g (p - 136) cm) 0 * mask (p - 136) else 0

/-- If the band values at the image's rows are the first convolution's sums, the hidden slab read at padded
    coordinates of the one-wide ring is Spec's hidden image with its ring of zeros: outside the band 0, at a ring
    column `· * 0`, at an image column `· * 1`. -/
theorem hslab_pad (g : ℕ → Fin 128 → EReal)
    (w1 : Fin 128 → Fin 256 → Fin 3 → Fin 3 → EReal) (b1 : Fin 128 → EReal) (ct : Fin 256 → Fin 64 → Fin 64 → EReal)
    (hg : ∀ (y x : Fin 64) (cm : Fin 128), g (y.val * 68 + x.val + 2) cm
        = b1 cm + ∑ dh : Fin 3, ∑ dw : Fin 3, ∑ ch : Fin 256,
            w1 cm ch dh dw * padC ct ch (y.val + dh.val) (x.val + dw.val))
    (cm : Fin 128) (yy xx : ℕ) (hy : yy ≤ 65) (hx : xx ≤ 65) :
    hslab g ((yy + 1) * 68 + (xx + 1)) cm = hidP w1 b1 ct cm yy xx := by
  unfold hslab hidP
  by_cases h : 1 ≤ yy ∧ yy ≤ 64 ∧ 1 ≤ xx ∧ xx ≤ 64
  · rw [dif_pos h, if_pos (by omega)]
    have hj : (yy + 1) * 68 + (xx + 1) - 136 = (yy - 1) * 68 + (xx - 1) + 2 := by omega
    have hm : mask ((yy - 1) * 68 + (xx - 1) + 2) = 1 := by
      unfold mask; rw [if_pos (by omega)]
    rw [hj, hm, mul_one]
    unfold hid
    have := hg ⟨yy - 1, by omega⟩ ⟨xx - 1, by omega⟩ cm
    simp only at this
    rw [this]
  · rw [dif_neg h]
    by_cases hb : 136 ≤ (yy + 1) * 68 + (xx + 1) ∧ (yy + 1) * 68 + (xx + 1) < 4488
    · rw [if_pos hb]
      have hm : mask ((yy + 1) * 68 + (xx + 1) - 136) = 0 := by
        unfold mask; rw [if_neg (by omega)]
      rw [hm, mul_zero]
    · rw [if_neg hb]

/-- One tap of the second convolution over any slab that reads as Spec's padded hidden image. -/
theorem tap2 (Hs : ℕ → Fin 128 → EReal)
    (w1 : Fin 128 → Fin 256 → Fin 3 → Fin 3 → EReal) (b1 : Fin 128 → EReal) (ct : Fin 256 → Fin 64 → Fin 64 → EReal)
    (hH : ∀ (cm : Fin 128) (yy xx : ℕ), yy ≤ 65 → xx ≤ 65 →
        Hs ((yy + 1) * 68 + (xx + 1)) cm = hidP w1 b1 ct cm yy xx)
    (co : Fin 128) (dh dw : Fin 3) (yy xx : ℕ) (hy : yy ≤ 65) (hx : xx ≤ 65) :
    (∑ cm : Fin 128, Hs ((yy + 1) * 68 + (xx + 1)) cm * w2r ⟨dh.val * 3 + dw.val, by omega⟩ cm co)
      = ∑ cm : Fin 128, w2Of w2r co cm dh dw * hidP w1 b1 ct cm yy xx := by
  refine Finset.sum_congr rfl fun cm _ => ?_
  rw [hH cm yy xx hy hx, mul_comm]; rfl

/-! ### Nine taps in a chain -/

/-- Nine terms added one after another onto `c` are `c` plus the double sum over the 3×3 taps. -/
theorem chain9 (c : EReal) (f : Fin 3 → Fin 3 → EReal) :
    c + f 0 0 + f 0 1 + f 0 2 + f 1 0 + f 1 1 + f 1 2 + f 2 0 + f 2 1 + f 2 2
      = c + ∑ dh : Fin 3, ∑ dw : Fin 3, f dh dw := by
  simp only [Fin.sum_univ_three]
  abel

/-- Eighteen terms (two per tap) added one after another onto `c`. -/
theorem chain18 (c : EReal) (a b : Fin 3 → Fin 3 → EReal) :
    c + a 0 0 + b 0 0 + a 0 1 + b 0 1 + a 0 2 + b 0 2 + a 1 0 + b 1 0 + a 1 1 + b 1 1 + a 1 2 + b 1 2
        + a 2 0 + b 2 0 + a 2 1 + b 2 1 + a 2 2 + b 2 2
      = c + ∑ dh : Fin 3, ∑ dw : Fin 3, (a dh dw + b dh dw) := by
  simp only [Fin.sum_univ_three]
  abel

/-! ### The two convolutions over the flat slabs are Spec's -/

/-- The first convolution's value at band row `j`: the bias plus, tap by tap, the two slabs' channel contractions
    of their rows `67 + dh*68 + dw + j` with the tap's weights. -/
def conv1 (A B : ℕ → Fin 128 → EReal) (j : ℕ) (cm : Fin 128) : EReal :=
  b1 cm + ∑ dh : Fin 3, ∑ dw : Fin 3,
    ((∑ ci : Fin 128, A (67 + dh.val * 68 + dw.val + j) ci * w1a ⟨dh.val * 3 + dw.val, by omega⟩ ci cm)
      + (∑ ci : Fin 128, B (67 + dh.val * 68 + dw.val + j) ci * w1b ⟨dh.val * 3 + dw.val, by omega⟩ ci cm))

/-- The second convolution's value at band row `j` over a hidden slab `Hs`. -/
def conv2 (Hs : ℕ → Fin 128 → EReal) (j : ℕ) (co : Fin 128) : EReal :=
  max (b2 co + ∑ dh : Fin 3, ∑ dw : Fin 3,
    ∑ cm : Fin 128, Hs (67 + dh.val * 68 + dw.val + j) cm * w2r ⟨dh.val * 3 + dw.val, by omega⟩ cm co) 0

/-- The first convolution over the two image slabs, at the band row of pixel (y, x), is Spec's sum. -/
theorem conv1_eq (y x : Fin 64) (cm : Fin 128) :
    conv1 w1a w1b b1 (slab skip) (slab upim) (y.val * 68 + x.val + 2) cm
      = b1 cm + ∑ dh : Fin 3, ∑ dw : Fin 3, ∑ ch : Fin 256,
          w1Of w1a w1b cm ch dh dw * padC (catIm skip upim) ch (y.val + dh.val) (x.val + dw.val) := by
  unfold conv1
  congr 1
  refine Finset.sum_congr rfl fun dh _ => Finset.sum_congr rfl fun dw _ => ?_
  rw [tap_index]
  exact tap1 skip upim w1a w1b cm dh dw (y.val + dh.val) (x.val + dw.val) (by omega) (by omega)

/-- The hidden slab of the first convolution reads as Spec's padded hidden image. -/
theorem hslab_conv1 (cm : Fin 128) (yy xx : ℕ) (hy : yy ≤ 65) (hx : xx ≤ 65) :
    hslab (conv1 w1a w1b b1 (slab skip) (slab upim)) ((yy + 1) * 68 + (xx + 1)) cm
      = hidP (w1Of w1a w1b) b1 (catIm skip upim) cm yy xx :=
  hslab_pad _ _ _ _ (conv1_eq skip upim w1a w1b b1) cm yy xx hy hx

/-- The second convolution over any slab that reads as Spec's padded hidden image, at the band row of pixel
    (y, x), is Spec's result. -/
theorem conv2_eq (Hs : ℕ → Fin 128 → EReal)
    (w1 : Fin 128 → Fin 256 → Fin 3 → Fin 3 → EReal) (ct : Fin 256 → Fin 64 → Fin 64 → EReal)
    (hH : ∀ (cm : Fin 128) (yy xx : ℕ), yy ≤ 65 → xx ≤ 65 →
        Hs ((yy + 1) * 68 + (xx + 1)) cm = hidP w1 b1 ct cm yy xx)
    (co : Fin 128) (y x : Fin 64) :
    conv2 w2r b2 Hs (y.val * 68 + x.val + 2) co = outC w1 b1 (w2Of w2r) b2 ct co y x := by
  unfold conv2 outC
  congr 2
  refine Finset.sum_congr rfl fun dh _ => Finset.sum_congr rfl fun dw _ => ?_
  rw [tap_index]
  exact tap2 w2r Hs w1 b1 ct hH co dh dw (y.val + dh.val) (x.val + dw.val) (by omega) (by omega)

/-- The flat form of the whole: both convolutions over the two image slabs give Spec's `outC` at pixel (y, x),
    read at band row y*68 + x + 2. -/
theorem flat_eq_outC (co : Fin 128) (y x : Fin 64) :
    conv2 w2r b2 (hslab (conv1 w1a w1b b1 (slab skip) (slab upim))) (y.val * 68 + x.val + 2) co
      = outC (w1Of w1a w1b) b1 (w2Of w2r) b2 (catIm skip upim) co y x :=
  conv2_eq w2r b1 b2 _ _ _ (fun cm yy xx hy hx => hslab_conv1 skip upim w1a w1b b1 cm yy xx hy hx) co y x

/-! ### The same with Spec's own weights and image -/

theorem fin256_lo (ch : Fin 256) (h : ch.val < 128) : ch = Fin.castAdd 128 (⟨ch.val, h⟩ : Fin 128) :=
  Fin.ext rfl

theorem fin256_hi (ch : Fin 256) (h : ¬ ch.val < 128) :
    ch = Fin.natAdd 128 (⟨ch.val - 128, by omega⟩ : Fin 128) :=
  Fin.ext (by simp only [Fin.coe_natAdd]; omega)

/-- Spec's concatenated image at a channel of the first half is the skip image. -/
theorem cat_lo (xa : Fin 256 → Fin 32 → Fin 32 → EReal) (xb : Fin 128 → Fin 64 → Fin 64 → EReal)
    (wu : Fin 256 → Fin 128 → Fin 2 → Fin 2 → EReal) (bu : Fin 128 → Fin 2 → Fin 2 → EReal)
    (ci : Fin 128) (r q : Fin 64) :
    cat xa xb wu bu (Fin.castAdd 128 ci) r q = xb ci r q := by
  unfold cat
  rw [dif_pos (by simp : (Fin.castAdd 128 ci).val < 128)]; rfl

/-- Spec's concatenated image at a channel of the second half is the upsampled image. -/
theorem cat_hi (xa : Fin 256 → Fin 32 → Fin 32 → EReal) (xb : Fin 128 → Fin 64 → Fin 64 → EReal)
    (wu : Fin 256 → Fin 128 → Fin 2 → Fin 2 → EReal) (bu : Fin 128 → Fin 2 → Fin 2 → EReal)
    (ci : Fin 128) (r q : Fin 64) :
    cat xa xb wu bu (Fin.natAdd 128 ci) r q = up xa wu bu ci r q := by
  unfold cat
  rw [dif_neg (by simp : ¬ (Fin.natAdd 128 ci).val < 128)]
  congr 1; apply Fin.ext; simp

theorem catIm_eq (ct : Fin 256 → Fin 64 → Fin 64 → EReal)
    (hs : ∀ (r q : Fin 64) (ci : Fin 128), skip r q ci = ct (Fin.castAdd 128 ci) r q)
    (hu : ∀ (r q : Fin 64) (ci : Fin 128), upim r q ci = ct (Fin.natAdd 128 ci) r q) :
    catIm skip upim = ct := by
  funext ch r q
  unfold catIm
  by_cases h : ch.val < 128
  · rw [dif_pos h, hs, ← fin256_lo ch h]
  · rw [dif_neg h, hu, ← fin256_hi ch h]

theorem w1Of_eq (w1 : Fin 128 → Fin 256 → Fin 3 → Fin 3 → EReal)
    (ha : ∀ (cm ci : Fin 128) (dh dw : Fin 3),
      w1a ⟨dh.val * 3 + dw.val, by omega⟩ ci cm = w1 cm (Fin.castAdd 128 ci) dh dw)
    (hb : ∀ (cm ci : Fin 128) (dh dw : Fin 3),
      w1b ⟨dh.val * 3 + dw.val, by omega⟩ ci cm = w1 cm (Fin.natAdd 128 ci) dh dw) :
    w1Of w1a w1b = w1 := by
  funext cm ch dh dw
  unfold w1Of
  by_cases h : ch.val < 128
  · rw [dif_pos h, ha, ← fin256_lo ch h]
  · rw [dif_neg h, hb, ← fin256_hi ch h]

theorem w2Of_eq (w2 : Fin 128 → Fin 128 → Fin 3 → Fin 3 → EReal)
    (h2 : ∀ (co cm : Fin 128) (dh dw : Fin 3), w2r ⟨dh.val * 3 + dw.val, by omega⟩ cm co = w2 co cm dh dw) :
    w2Of w2r = w2 := by
  funext co cm dh dw
  exact h2 co cm dh dw

/-- The flat form against any weights and image of Spec's types that the per-slab pieces are the halves of. -/
theorem flat_eq_outC' (w1 : Fin 128 → Fin 256 → Fin 3 → Fin 3 → EReal)
    (w2 : Fin 128 → Fin 128 → Fin 3 → Fin 3 → EReal) (ct : Fin 256 → Fin 64 → Fin 64 → EReal)
    (hs : ∀ (r q : Fin 64) (ci : Fin 128), skip r q ci = ct (Fin.castAdd 128 ci) r q)
    (hu : ∀ (r q : Fin 64) (ci : Fin 128), upim r q ci = ct (Fin.natAdd 128 ci) r q)
    (ha : ∀ (cm ci : Fin 128) (dh dw : Fin 3),
      w1a ⟨dh.val * 3 + dw.val, by omega⟩ ci cm = w1 cm (Fin.castAdd 128 ci) dh dw)
    (hb : ∀ (cm ci : Fin 128) (dh dw : Fin 3),
      w1b ⟨dh.val * 3 + dw.val, by omega⟩ ci cm = w1 cm (Fin.natAdd 128 ci) dh dw)
    (h2 : ∀ (co cm : Fin 128) (dh dw : Fin 3), w2r ⟨dh.val * 3 + dw.val, by omega⟩ cm co = w2 co cm dh dw)
    (co : Fin 128) (y x : Fin 64) :
    conv2 w2r b2 (hslab (conv1 w1a w1b b1 (slab skip) (slab upim))) (y.val * 68 + x.val + 2) co
      = outC w1 b1 w2 b2 ct co y x := by
  rw [flat_eq_outC, catIm_eq skip upim ct hs hu, w1Of_eq w1a w1b w1 ha hb, w2Of_eq w2r w2 h2]

/-! ### The unrolled forms: taps added one after another, literal rows and tap numbers -/

/-- The first convolution with its nine taps written out (two contractions per tap, each added onto the running
    sum that starts at `0 + b1 cm`; tap k reads rows 67, 68, 69, 135, 136, 137, 203, 204, 205 + j) is `conv1`. -/
theorem conv1_unrolled (A B : ℕ → Fin 128 → EReal) (j : ℕ) (cm : Fin 128) :
    (((((((((((((((((((0 + b1 cm)
      + ∑ ci : Fin 128, A (67 + j) ci * w1a 0 ci cm)
      + ∑ ci : Fin 128, B (67 + j) ci * w1b 0 ci cm)
      + ∑ ci : Fin 128, A (68 + j) ci * w1a 1 ci cm)
      + ∑ ci : Fin 128, B (68 + j) ci * w1b 1 ci cm)
      + ∑ ci : Fin 128, A (69 + j) ci * w1a 2 ci cm)
      + ∑ ci : Fin 128, B (69 + j) ci * w1b 2 ci cm)
      + ∑ ci : Fin 128, A (135 + j) ci * w1a 3 ci cm)
      + ∑ ci : Fin 128, B (135 + j) ci * w1b 3 ci cm)
      + ∑ ci : Fin 128, A (136 + j) ci * w1a 4 ci cm)
      + ∑ ci : Fin 128, B (136 + j) ci * w1b 4 ci cm)
      + ∑ ci : Fin 128, A (137 + j) ci * w1a 5 ci cm)
      + ∑ ci : Fin 128, B (137 + j) ci * w1b 5 ci cm)
      + ∑ ci : Fin 128, A (203 + j) ci * w1a 6 ci cm)
      + ∑ ci : Fin 128, B (203 + j) ci * w1b 6 ci cm)
      + ∑ ci : Fin 128, A (204 + j) ci * w1a 7 ci cm)
      + ∑ ci : Fin 128, B (204 + j) ci * w1b 7 ci cm)
      + ∑ ci : Fin 128, A (205 + j) ci * w1a 8 ci cm)
      + ∑ ci : Fin 128, B (205 + j) ci * w1b 8 ci cm)
      = conv1 w1a w1b b1 A B j cm := by
  unfold conv1
  rw [zero_add (b1 cm)]
  exact chain18 (b1 cm)
    (fun dh dw => ∑ ci : Fin 128, A (67 + dh.val * 68 + dw.val + j) ci * w1a ⟨dh.val * 3 + dw.val, by omega⟩ ci cm)
    (fun dh dw => ∑ ci : Fin 128, B (67 + dh.val * 68 + dw.val + j) ci * w1b ⟨dh.val * 3 + dw.val, by omega⟩ ci cm)

/-- The second convolution with its nine taps written out is `conv2`. -/
theorem conv2_unrolled (Hs : ℕ → Fin 128 → EReal) (j : ℕ) (co : Fin 128) :
    max ((((((((((0 + b2 co)
      + ∑ cm : Fin 128, Hs (67 + j) cm * w2r 0 cm co)
      + ∑ cm : Fin 128, Hs (68 + j) cm * w2r 1 cm co)
      + ∑ cm : Fin 128, Hs (69 + j) cm * w2r 2 cm co)
      + ∑ cm : Fin 128, Hs (135 + j) cm * w2r 3 cm co)
      + ∑ cm : Fin 128, Hs (136 + j) cm * w2r 4 cm co)
      + ∑ cm : Fin 128, Hs (137 + j) cm * w2r 5 cm co)
      + ∑ cm : Fin 128, Hs (203 + j) cm * w2r 6 cm co)
      + ∑ cm : Fin 128, Hs (204 + j) cm * w2r 7 cm co)
      + ∑ cm : Fin 128, Hs (205 + j) cm * w2r 8 cm co) 0
      = conv2 w2r b2 Hs j co := by
  unfold conv2
  rw [zero_add (b2 co)]
  exact congrArg (fun t => max t 0) (chain9 (b2 co)
    (fun dh dw => ∑ cm : Fin 128, Hs (67 + dh.val * 68 + dw.val + j) cm * w2r ⟨dh.val * 3 + dw.val, by omega⟩ cm co))

/-- The unrolled first convolution as a function of the band row and the channel. -/
theorem conv1_unrolled_fun (A B : ℕ → Fin 128 → EReal) :
    (fun (j : ℕ) (cm : Fin 128) =>
    (((((((((((((((((((0 + b1 cm)
      + ∑ ci : Fin 128, A (67 + j) ci * w1a 0 ci cm)
      + ∑ ci : Fin 128, B (67 + j) ci * w1b 0 ci cm)
      + ∑ ci : Fin 128, A (68 + j) ci * w1a 1 ci cm)
      + ∑ ci : Fin 128, B (68 + j) ci * w1b 1 ci cm)
      + ∑ ci : Fin 128, A (69 + j) ci * w1a 2 ci cm)
      + ∑ ci : Fin 128, B (69 + j) ci * w1b 2 ci cm)
      + ∑ ci : Fin 128, A (135 + j) ci * w1a 3 ci cm)
      + ∑ ci : Fin 128, B (135 + j) ci * w1b 3 ci cm)
      + ∑ ci : Fin 128, A (136 + j) ci * w1a 4 ci cm)
      + ∑ ci : Fin 128, B (136 + j) ci * w1b 4 ci cm)
      + ∑ ci : Fin 128, A (137 + j) ci * w1a 5 ci cm)
      + ∑ ci : Fin 128, B (137 + j) ci * w1b 5 ci cm)
      + ∑ ci : Fin 128, A (203 + j) ci * w1a 6 ci cm)
      + ∑ ci : Fin 128, B (203 + j) ci * w1b 6 ci cm)
      + ∑ ci : Fin 128, A (204 + j) ci * w1a 7 ci cm)
      + ∑ ci : Fin 128, B (204 + j) ci * w1b 7 ci cm)
      + ∑ ci : Fin 128, A (205 + j) ci * w1a 8 ci cm)
      + ∑ ci : Fin 128, B (205 + j) ci * w1b 8 ci cm))
      = conv1 w1a w1b b1 A B :=
  funext fun j => funext fun cm => conv1_unrolled w1a w1b b1 A B j cm

end Cert.ReferenceIdeal.Conv

end
-- ==== Proof.RSlab.lean ====
/-
  The two padded image slabs of the reference's second region, read back as functions.

  The body zero-fills a [4624,128] scratch slab and then stores the 64 rows of a 64×64, 128-channel image block into it,
  image row r at slab rows (r+2)*68 + 2 … (r+2)*68 + 65: a flat picture of the image with a ring of zeros two wide at
  row pitch 68. What the stores leave is followed store by store: after the zero fill and the first n row stores the
  slab reads as `slabN im n` (the image's first n rows in place, zero elsewhere), and after all 64 it is the flat slab
  `Conv.slab im`. Also here: one matrix product of the body read at an index (a sum over the 128 input channels), and
  the reads of one weight tap and of one image row through their rectangles.
-/
import proofs.«126750_g2000606872001322_pallasbulk_142_34_alg».proof.Proof.Gen.ReferenceIdeal.Frame
import proofs.«126750_g2000606872001322_pallasbulk_142_34_alg».proof.Proof.Spec
import proofs.«126750_g2000606872001322_pallasbulk_142_34_alg».proof.Proof.RConv
import Idealize.ShloMosaic.Lib.Pipeline.Value
import Idealize.ShloMosaic.Lib.Tactic
import Idealize.ShloMosaic.PureOps.Ideal.Laws
import Idealize.ShloMosaic.Lib.ValueIdx

set_option maxRecDepth 16384

noncomputable section

open Idealize.ShloMosaic Idealize.ShloMosaic.TcCoe Idealize.SL.Sem Idealize.ShloMosaic.Tactic
open Idealize.ShloMosaic.ValueIdx
open Idealize.ShloMosaic.Pipeline (Dat)

namespace Cert.ReferenceIdeal.Hand

open Cert.ReferenceIdeal Cert.ReferenceIdeal.Gen
open Cert.ReferenceIdeal.Conv (slab mask hslab conv1 conv2)

/-- A matmul of the body read at an index: the contraction over the 128 input channels. -/
theorem mm_apply (L : FVec Ideal S4352x128 .f32) (W : FVec Ideal S128x128 .f32) (j : Fin 4352) (cm : Fin 128) :
    matmul dot_S4352x128_S128x128_S4352x128_1_0_0_1_n_n none L W (constant S4352x128 .f32 0x00000000#32) (ix2 j cm)
      = ∑ ci : Fin 128, L (ix2 j ci) * W (ix2 ci cm) := by
  simp only [matmul]
  rw [Ideal.matmul_constant_zero_apply]
  rw [← Equiv.sum_comp (contrEquiv1 dot_S4352x128_S128x128_S4352x128_1_0_0_1_n_n 128 rfl rfl).symm]
  refine Finset.sum_congr rfl fun ci _ => ?_
  have hl : dot_S4352x128_S128x128_S4352x128_1_0_0_1_n_n.lhsIdx (ix2 j cm)
      ((contrEquiv1 dot_S4352x128_S128x128_S4352x128_1_0_0_1_n_n 128 rfl rfl).symm ci) = ix2 j ci := by
    funext a
    match a with
    | ⟨0, _⟩ => rfl
    | ⟨1, _⟩ =>
      apply Fin.ext
      show (dot_S4352x128_S128x128_S4352x128_1_0_0_1_n_n.lhsIdx (ix2 j cm)
        ((contrEquiv1 dot_S4352x128_S128x128_S4352x128_1_0_0_1_n_n 128 rfl rfl).symm ci) (1 : Fin 2)).val = ci.val
      rw [DotDims.lhsIdx_val_of_single dot_S4352x128_S128x128_S4352x128_1_0_0_1_n_n (cl := (1 : Fin 2)) rfl]
      exact contrEquiv1_symm_val dot_S4352x128_S128x128_S4352x128_1_0_0_1_n_n 128 rfl rfl ci
  have hr : dot_S4352x128_S128x128_S4352x128_1_0_0_1_n_n.rhsIdx (ix2 j cm)
      ((contrEquiv1 dot_S4352x128_S128x128_S4352x128_1_0_0_1_n_n 128 rfl rfl).symm ci) = ix2 ci cm := by
    funext a
    match a with
    | ⟨0, _⟩ =>
      apply Fin.ext
      show (dot_S4352x128_S128x128_S4352x128_1_0_0_1_n_n.rhsIdx (ix2 j cm)
        ((contrEquiv1 dot_S4352x128_S128x128_S4352x128_1_0_0_1_n_n 128 rfl rfl).symm ci) (0 : Fin 2)).val = ci.val
      rw [DotDims.rhsIdx_val_of_single dot_S4352x128_S128x128_S4352x128_1_0_0_1_n_n (cr := (0 : Fin 2)) rfl]
      exact contrEquiv1_symm_val dot_S4352x128_S128x128_S4352x128_1_0_0_1_n_n 128 rfl rfl ci
    | ⟨1, _⟩ => rfl
  rw [hl, hr]

/-- A weight tap read: the [1,128,128] block at tap k viewed [128,128]. -/
theorem wtap_apply (x : Vec Ideal S9x128x128 .f32) (k : ℕ) (inb) (hsc) (ci cm : Fin 128) (hk : k < 9) :
    shapeCast S128x128 (View.ld x (Rect.unit (s := S9x128x128) ![k, 0, 0] S1x128x128.size inb)) hsc (ix2 ci cm)
      = x (ix3 ⟨k, hk⟩ ci cm) := by
  refine (shapeCast_apply _ hsc (ix2 ci cm) (ix3 0 ci cm) ?_).trans ?_
  · rw [Shape.rowMajor_val_three, Shape.rowMajor_val_two]
    show ((0 : ℕ) * 128 + ci.val) * 128 + cm.val = ci.val * 128 + cm.val
    omega
  · show x _ = x _
    congr 1
    funext a
    match a with
    | ⟨0, _⟩ => exact Fin.ext (by show k + 1 * 0 = k; omega)
    | ⟨1, _⟩ => exact Fin.ext (by show 0 + 1 * ci.val = ci.val; omega)
    | ⟨2, _⟩ => exact Fin.ext (by show 0 + 1 * cm.val = cm.val; omega)

/-- An image row read: row n of a [1,64,64,128] block viewed [64,128]. -/
theorem row_apply (x : Vec Ideal S1x64x64x128 .f32) (n : ℕ) (hn : n < 64) (inb) (hsc) (q : Fin 64) (ch : Fin 128) :
    shapeCast S64x128 (View.ld x (Rect.unit (s := S1x64x64x128) ![0, n, 0, 0] S1x1x64x128.size inb)) hsc (ix2 q ch)
      = x (ix4 0 ⟨n, hn⟩ q ch) := by
  refine (shapeCast_apply _ hsc (ix2 q ch) (ix4 0 0 q ch) ?_).trans ?_
  · rw [Shape.rowMajor_val_four, Shape.rowMajor_val_two]
    show (((0 : ℕ) * 1 + 0) * 64 + q.val) * 128 + ch.val = q.val * 128 + ch.val
    omega
  · show x _ = x _
    congr 1
    funext a
    match a with
    | ⟨0, _⟩ => exact Fin.ext (by show 0 + 1 * 0 = 0; omega)
    | ⟨1, _⟩ => exact Fin.ext (by show n + 1 * 0 = n; omega)
    | ⟨2, _⟩ => exact Fin.ext (by show 0 + 1 * q.val = q.val; omega)
    | ⟨3, _⟩ => exact Fin.ext (by show 0 + 1 * ch.val = ch.val; omega)

/-- The image a [1,64,64,128] block holds: row, column, channel. -/
def imgOf (x : Vec Ideal S1x64x64x128 .f32) : Fin 64 → Fin 64 → Fin 128 → EReal := fun r q ch => x (ix4 0 r q ch)

/-- The flat slab after the first n image rows have been stored over the zero fill: image pixel (r, q), r < n,
    at position (r+2)*68 + (q+2); every other position 0. -/
def slabN (im : Fin 64 → Fin 64 → Fin 128 → EReal) (n p : ℕ) (c : Fin 128) : EReal :=
  if h : 2 ≤ p / 68 ∧ p / 68 < n + 2 ∧ p / 68 ≤ 65 ∧ 2 ≤ p % 68 ∧ p % 68 ≤ 65 then
    im ⟨p / 68 - 2, by omega⟩ ⟨p % 68 - 2, by omega⟩ c
  else 0

theorem slabN_64 (im : Fin 64 → Fin 64 → Fin 128 → EReal) (p : ℕ) (c : Fin 128) : slabN im 64 p c = slab im p c := by
  unfold slabN slab
  by_cases h : 2 ≤ p / 68 ∧ p / 68 ≤ 65 ∧ 2 ≤ p % 68 ∧ p % 68 ≤ 65
  · rw [dif_pos h, dif_pos ⟨h.1, by omega, h.2.1, h.2.2.1, h.2.2.2⟩]
  · rw [dif_neg h, dif_neg (fun h' => h ⟨h'.1, h'.2.2.1, h'.2.2.2.1, h'.2.2.2.2⟩)]

/-- What a list of stores into a [4624,128] scratch slab reads back as, after n image rows. -/
def SlabInv (im : Fin 64 → Fin 64 → Fin 128 → EReal) (L : List (View.Piece (Elt Ideal) S4624x128 .f32)) (n : ℕ) : Prop :=
  ∀ (p : Fin 4624) (ch : Fin 128), View.canon L (ix2 p ch) = slabN im n p.val ch

theorem hz2 : (![0, 0] : Fin 2 → Nat) = fun _ => 0 := funext fun a => by fin_cases a <;> rfl

/-- The zero fill alone: no image row yet. -/
theorem slab_base (im : Fin 64 → Fin 64 → Fin 128 → EReal) (inb) (w : S4624x128.Idx → EReal) (hw : ∀ i, w i = 0) :
    SlabInv im [(⟨Rect.unit (s := S4624x128) ![0, 0] S4624x128.size inb, w⟩ : View.Piece (Elt Ideal) S4624x128 .f32)] 0 := by
  intro p ch
  rw [View.canon_unit_zero hz2, hw]
  unfold slabN
  rw [dif_neg (by omega)]

/-- One more row store: image row n goes to positions 138 + 68 n … + 63, the rest is as before. -/
theorem slab_step (im : Fin 64 → Fin 64 → Fin 128 → EReal) (L : List (View.Piece (Elt Ideal) S4624x128 .f32)) (n : ℕ) (hn : n < 64)
    (off : ℕ) (hoff : off = 138 + 68 * n) (inb) (w : S64x128.Idx → EReal)
    (hw : ∀ (q : Fin 64) (ch : Fin 128), w (ix2 q ch) = im ⟨n, hn⟩ q ch) (h : SlabInv im L n) :
    SlabInv im ((⟨Rect.unit (s := S4624x128) ![off, 0] S64x128.size inb, w⟩ : View.Piece (Elt Ideal) S4624x128 .f32) :: L) (n + 1) := by
  subst hoff
  intro p ch
  by_cases hm : 138 + 68 * n ≤ p.val ∧ p.val < 138 + 68 * n + 64
  · have hq : p.val - (138 + 68 * n) < 64 := by omega
    have he : ix2 p ch = (Rect.unit (s := S4624x128) ![138 + 68 * n, 0] S64x128.size inb).emb (ix2 ⟨p.val - (138 + 68 * n), hq⟩ ch) := by
      funext a
      match a with
      | ⟨0, _⟩ => exact Fin.ext (by show p.val = (138 + 68 * n) + 1 * (p.val - (138 + 68 * n)); omega)
      | ⟨1, _⟩ => exact Fin.ext (by show ch.val = 0 + 1 * ch.val; omega)
    rw [he, View.canon_cons_emb, hw]
    unfold slabN
    rw [dif_pos (by omega)]
    refine congrArg₂ (fun a b => im a b ch) (Fin.ext ?_) (Fin.ext ?_)
    · show n = p.val / 68 - 2; omega
    · show p.val - (138 + 68 * n) = p.val % 68 - 2; omega
  · have hnm : ix2 p ch ∉ (Rect.unit (s := S4624x128) ![138 + 68 * n, 0] S64x128.size inb).set := by
      rw [Rect.mem_set_unit]
      intro hall
      have h0 := hall 0
      exact hm ⟨h0.1, h0.2⟩
    rw [View.canon_cons_of_not_mem (⟨Rect.unit (s := S4624x128) ![138 + 68 * n, 0] S64x128.size inb, w⟩ : View.Piece (Elt Ideal) S4624x128 .f32) L hnm, h p ch]
    unfold slabN
    by_cases hc : 2 ≤ p.val / 68 ∧ p.val / 68 < n + 2 ∧ p.val / 68 ≤ 65 ∧ 2 ≤ p.val % 68 ∧ p.val % 68 ≤ 65
    · rw [dif_pos hc, dif_pos (by omega)]
    · rw [dif_neg hc, dif_neg (by omega)]

/-- A load of 4352 rows from row `off` of a finished slab. -/
theorem slab_read (im : Fin 64 → Fin 64 → Fin 128 → EReal) (L : List (View.Piece (Elt Ideal) S4624x128 .f32)) (hL : SlabInv im L 64)
    (M : Memref sig .tc .vmem S4624x128 .f32) (off : ℕ) (inb) (hoff : off + 4352 ≤ 4624) (j : Fin 4352) (ci : Fin 128) :
    M.view.readCov L (Rect.unit (s := S4624x128) ![off, 0] S4352x128.size inb).toLoadRect (ix2 j ci) = slab im (off + j.val) ci := by
  rw [View.readCov_eq_canon']
  have he : (Rect.unit (s := S4624x128) ![off, 0] S4352x128.size inb).toLoadRect.idx (ix2 j ci) = ix2 ⟨off + j.val, by omega⟩ ci := by
    funext a
    match a with
    | ⟨0, _⟩ => exact Fin.ext (by show off + 1 * j.val = off + j.val; omega)
    | ⟨1, _⟩ => exact Fin.ext (by show 0 + 1 * ci.val = ci.val; omega)
  show View.canon L ((Rect.unit (s := S4624x128) ![off, 0] S4352x128.size inb).toLoadRect.idx (ix2 j ci)) = _
  rw [he, hL, slabN_64]

/-! ## The skip image's slab: the stores one after another -/

theorem invA_4 (c : Dev nD) (arg1 : Memref sig .tc .vmem S1x64x64x128 .f32) (harg1 : arg1.IsWhole) (x0 : Vec Ideal S1x64x64x128 .f32) :
    SlabInv (imgOf x0) (kernelRun1_A.sl.HS0_4 (F := Ideal) c arg1 harg1 x0) 3 := by
  unfold kernelRun1_A.sl.HS0_4
  refine slab_step _ _ 2 (by omega) _ rfl _ _ (fun q ch => ?_) (slab_step _ _ 1 (by omega) _ rfl _ _ (fun q ch => ?_) (slab_step _ _ 0 (by omega) _ rfl _ _ (fun q ch => ?_) (slab_base _ _ _ (fun i => ?_))))
  · simp only [k1_pay4, k1_pay5, k1_pay6, k1_pay7, shapeCast_self, View.readAt_eq_ld, harg1.read_unread]
    exact row_apply x0 2 (by omega) _ _ q ch
  · simp only [k1_pay4, k1_pay5, k1_pay6, k1_pay7, shapeCast_self, View.readAt_eq_ld, harg1.read_unread]
    exact row_apply x0 1 (by omega) _ _ q ch
  · simp only [k1_pay4, k1_pay5, k1_pay6, k1_pay7, shapeCast_self, View.readAt_eq_ld, harg1.read_unread]
    exact row_apply x0 0 (by omega) _ _ q ch
  · simp only [k1_pay2, shapeCast_self, broadcast_apply]
    exact Ideal.ofBits_zero_f32

theorem invA_5 (c : Dev nD) (arg1 : Memref sig .tc .vmem S1x64x64x128 .f32) (harg1 : arg1.IsWhole) (x0 : Vec Ideal S1x64x64x128 .f32) :
    SlabInv (imgOf x0) (kernelRun1_A.sl.HS0_5 (F := Ideal) c arg1 harg1 x0) 4 := by
  unfold kernelRun1_A.sl.HS0_5
  refine slab_step _ _ 3 (by omega) _ rfl _ _ (fun q ch => ?_) (invA_4 c arg1 harg1 x0)
  sl_unfold_run_names
  simp only [k1_pay4, k1_pay5, k1_pay6, k1_pay7, shapeCast_self, View.readAt_eq_ld, harg1.read_unread]
  exact row_apply x0 3 (by omega) _ _ q ch

theorem invA_6 (c : Dev nD) (arg1 : Memref sig .tc .vmem S1x64x64x128 .f32) (harg1 : arg1.IsWhole) (x0 : Vec Ideal S1x64x64x128 .f32) :
    SlabInv (imgOf x0) (kernelRun1_A.sl.HS0_6 (F := Ideal) c arg1 harg1 x0) 5 := by
  unfold kernelRun1_A.sl.HS0_6
  refine slab_step _ _ 4 (by omega) _ rfl _ _ (fun q ch => ?_) (invA_5 c arg1 harg1 x0)
  sl_unfold_run_names
  simp only [k1_pay4, k1_pay5, k1_pay6, k1_pay7, shapeCast_self, View.readAt_eq_ld, harg1.read_unread]
  exact row_apply x0 4 (by omega) _ _ q ch

theorem invA_7 (c : Dev nD) (arg1 : Memref sig .tc .vmem S1x64x64x128 .f32) (harg1 : arg1.IsWhole) (x0 : Vec Ideal S1x64x64x128 .f32) :
    SlabInv (imgOf x0) (kernelRun1_A.sl.HS0_7 (F := Ideal) c arg1 harg1 x0) 6 := by
  unfold kernelRun1_A.sl.HS0_7
  refine slab_step _ _ 5 (by omega) _ rfl _ _ (fun q ch => ?_) (invA_6 c arg1 harg1 x0)
  sl_unfold_run_names
  simp only [k1_pay4, k1_pay5, k1_pay6, k1_pay7, shapeCast_self, View.readAt_eq_ld, harg1.read_unread]
  exact row_apply x0 5 (by omega) _ _ q ch

theorem invA_8 (c : Dev nD) (arg1 : Memref sig .tc .vmem S1x64x64x128 .f32) (harg1 : arg1.IsWhole) (x0 : Vec Ideal S1x64x64x128 .f32) :
    SlabInv (imgOf x0) (kernelRun1_A.sl.HS0_8 (F := Ideal) c arg1 harg1 x0) 7 := by
  unfold kernelRun1_A.sl.HS0_8
  refine slab_step _ _ 6 (by omega) _ rfl _ _ (fun q ch => ?_) (invA_7 c arg1 harg1 x0)
  sl_unfold_run_names
  simp only [k1_pay4, k1_pay5, k1_pay6, k1_pay7, shapeCast_self, View.readAt_eq_ld, harg1.read_unread]
  exact row_apply x0 6 (by omega) _ _ q ch

theorem invA_9 (c : Dev nD) (arg1 : Memref sig .tc .vmem S1x64x64x128 .f32) (harg1 : arg1.IsWhole) (x0 : Vec Ideal S1x64x64x128 .f32) :
    SlabInv (imgOf x0) (kernelRun1_A.sl.HS0_9 (F := Ideal) c arg1 harg1 x0) 8 := by
  unfold kernelRun1_A.sl.HS0_9
  refine slab_step _ _ 7 (by omega) _ rfl _ _ (fun q ch => ?_) (invA_8 c arg1 harg1 x0)
  sl_unfold_run_names
  simp only [k1_pay4, k1_pay5, k1_pay6, k1_pay7, shapeCast_self, View.readAt_eq_ld, harg1.read_unread]
  exact row_apply x0 7 (by omega) _ _ q ch

theorem invA_10 (c : Dev nD) (arg1 : Memref sig .tc .vmem S1x64x64x128 .f32) (harg1 : arg1.IsWhole) (x0 : Vec Ideal S1x64x64x128 .f32) :
    SlabInv (imgOf x0) (kernelRun1_A.sl.HS0_10 (F := Ideal) c arg1 harg1 x0) 9 := by
  unfold kernelRun1_A.sl.HS0_10
  refine slab_step _ _ 8 (by omega) _ rfl _ _ (fun q ch => ?_) (invA_9 c arg1 harg1 x0)
  sl_unfold_run_names
  simp only [k1_pay4, k1_pay5, k1_pay6, k1_pay7, shapeCast_self, View.readAt_eq_ld, harg1.read_unread]
  exact row_apply x0 8 (by omega) _ _ q ch

theorem invA_11 (c : Dev nD) (arg1 : Memref sig .tc .vmem S1x64x64x128 .f32) (harg1 : arg1.IsWhole) (x0 : Vec Ideal S1x64x64x128 .f32) :
    SlabInv (imgOf x0) (kernelRun1_A.sl.HS0_11 (F := Ideal) c arg1 harg1 x0) 10 := by
  unfold kernelRun1_A.sl.HS0_11
  refine slab_step _ _ 9 (by omega) _ rfl _ _ (fun q ch => ?_) (invA_10 c arg1 harg1 x0)
  sl_unfold_run_names
  simp only [k1_pay4, k1_pay5, k1_pay6, k1_pay7, shapeCast_self, View.readAt_eq_ld, harg1.read_unread]
  exact row_apply x0 9 (by omega) _ _ q ch

theorem invA_12 (c : Dev nD) (arg1 : Memref sig .tc .vmem S1x64x64x128 .f32) (harg1 : arg1.IsWhole) (x0 : Vec Ideal S1x64x64x128 .f32) :
    SlabInv (imgOf x0) (kernelRun1_A.sl.HS0_12 (F := Ideal) c arg1 harg1 x0) 11 := by
  unfold kernelRun1_A.sl.HS0_12
  refine slab_step _ _ 10 (by omega) _ rfl _ _ (fun q ch => ?_) (invA_11 c arg1 harg1 x0)
  sl_unfold_run_names
  simp only [k1_pay4, k1_pay5, k1_pay6, k1_pay7, shapeCast_self, View.readAt_eq_ld, harg1.read_unread]
  exact row_apply x0 10 (by omega) _ _ q ch

theorem invA_13 (c : Dev nD) (arg1 : Memref sig .tc .vmem S1x64x64x128 .f32) (harg1 : arg1.IsWhole) (x0 : Vec Ideal S1x64x64x128 .f32) :
    SlabInv (imgOf x0) (kernelRun1_A.sl.HS0_13 (F := Ideal) c arg1 harg1 x0) 12 := by
  unfold kernelRun1_A.sl.HS0_13
  refine slab_step _ _ 11 (by omega) _ rfl _ _ (fun q ch => ?_) (invA_12 c arg1 harg1 x0)
  sl_unfold_run_names
  simp only [k1_pay4, k1_pay5, k1_pay6, k1_pay7, shapeCast_self, View.readAt_eq_ld, harg1.read_unread]
  exact row_apply x0 11 (by omega) _ _ q ch

theorem invA_14 (c : Dev nD) (arg1 : Memref sig .tc .vmem S1x64x64x128 .f32) (harg1 : arg1.IsWhole) (x0 : Vec Ideal S1x64x64x128 .f32) :
    SlabInv (imgOf x0) (kernelRun1_A.sl.HS0_14 (F := Ideal) c arg1 harg1 x0) 13 := by
  unfold kernelRun1_A.sl.HS0_14
  refine slab_step _ _ 12 (by omega) _ rfl _ _ (fun q ch => ?_) (invA_13 c arg1 harg1 x0)
  sl_unfold_run_names
  simp only [k1_pay4, k1_pay5, k1_pay6, k1_pay7, shapeCast_self, View.readAt_eq_ld, harg1.read_unread]
  exact row_apply x0 12 (by omega) _ _ q ch

theorem invA_15 (c : Dev nD) (arg1 : Memref sig .tc .vmem S1x64x64x128 .f32) (harg1 : arg1.IsWhole) (x0 : Vec Ideal S1x64x64x128 .f32) :
    SlabInv (imgOf x0) (kernelRun1_A.sl.HS0_15 (F := Ideal) c arg1 harg1 x0) 14 := by
  unfold kernelRun1_A.sl.HS0_15
  refine slab_step _ _ 13 (by omega) _ rfl _ _ (fun q ch => ?_) (invA_14 c arg1 harg1 x0)
  sl_unfold_run_names
  simp only [k1_pay4, k1_pay5, k1_pay6, k1_pay7, shapeCast_self, View.readAt_eq_ld, harg1.read_unread]
  exact row_apply x0 13 (by omega) _ _ q ch

theorem invA_16 (c : Dev nD) (arg1 : Memref sig .tc .vmem S1x64x64x128 .f32) (harg1 : arg1.IsWhole) (x0 : Vec Ideal S1x64x64x128 .f32) :
    SlabInv (imgOf x0) (kernelRun1_A.sl.HS0_16 (F := Ideal) c arg1 harg1 x0) 15 := by
  unfold kernelRun1_A.sl.HS0_16
  refine slab_step _ _ 14 (by omega) _ rfl _ _ (fun q ch => ?_) (invA_15 c arg1 harg1 x0)
  sl_unfold_run_names
  simp only [k1_pay4, k1_pay5, k1_pay6, k1_pay7, shapeCast_self, View.readAt_eq_ld, harg1.read_unread]
  exact row_apply x0 14 (by omega) _ _ q ch

theorem invA_17 (c : Dev nD) (arg1 : Memref sig .tc .vmem S1x64x64x128 .f32) (harg1 : arg1.IsWhole) (x0 : Vec Ideal S1x64x64x128 .f32) :
    SlabInv (imgOf x0) (kernelRun1_A.sl.HS0_17 (F := Ideal) c arg1 harg1 x0) 16 := by
  unfold kernelRun1_A.sl.HS0_17
  refine slab_step _ _ 15 (by omega) _ rfl _ _ (fun q ch => ?_) (invA_16 c arg1 harg1 x0)
  sl_unfold_run_names
  simp only [k1_pay4, k1_pay5, k1_pay6, k1_pay7, shapeCast_self, View.readAt_eq_ld, harg1.read_unread]
  exact row_apply x0 15 (by omega) _ _ q ch

theorem invA_18 (c : Dev nD) (arg1 : Memref sig .tc .vmem S1x64x64x128 .f32) (harg1 : arg1.IsWhole) (x0 : Vec Ideal S1x64x64x128 .f32) :
    SlabInv (imgOf x0) (kernelRun1_A.sl.HS0_18 (F := Ideal) c arg1 harg1 x0) 17 := by
  unfold kernelRun1_A.sl.HS0_18
  refine slab_step _ _ 16 (by omega) _ rfl _ _ (fun q ch => ?_) (invA_17 c arg1 harg1 x0)
  sl_unfold_run_names
  simp only [k1_pay4, k1_pay5, k1_pay6, k1_pay7, shapeCast_self, View.readAt_eq_ld, harg1.read_unread]
  exact row_apply x0 16 (by omega) _ _ q ch

theorem invA_19 (c : Dev nD) (arg1 : Memref sig .tc .vmem S1x64x64x128 .f32) (harg1 : arg1.IsWhole) (x0 : Vec Ideal S1x64x64x128 .f32) :
    SlabInv (imgOf x0) (kernelRun1_A.sl.HS0_19 (F := Ideal) c arg1 harg1 x0) 18 := by
  unfold kernelRun1_A.sl.HS0_19
  refine slab_step _ _ 17 (by omega) _ rfl _ _ (fun q ch => ?_) (invA_18 c arg1 harg1 x0)
  sl_unfold_run_names
  simp only [k1_pay4, k1_pay5, k1_pay6, k1_pay7, shapeCast_self, View.readAt_eq_ld, harg1.read_unread]
  exact row_apply x0 17 (by omega) _ _ q ch

theorem invA_20 (c : Dev nD) (arg1 : Memref sig .tc .vmem S1x64x64x128 .f32) (harg1 : arg1.IsWhole) (x0 : Vec Ideal S1x64x64x128 .f32) :
    SlabInv (imgOf x0) (kernelRun1_A.sl.HS0_20 (F := Ideal) c arg1 harg1 x0) 19 := by
  unfold kernelRun1_A.sl.HS0_20
  refine slab_step _ _ 18 (by omega) _ rfl _ _ (fun q ch => ?_) (invA_19 c arg1 harg1 x0)
  sl_unfold_run_names
  simp only [k1_pay4, k1_pay5, k1_pay6, k1_pay7, shapeCast_self, View.readAt_eq_ld, harg1.read_unread]
  exact row_apply x0 18 (by omega) _ _ q ch

theorem invA_21 (c : Dev nD) (arg1 : Memref sig .tc .vmem S1x64x64x128 .f32) (harg1 : arg1.IsWhole) (x0 : Vec Ideal S1x64x64x128 .f32) :
    SlabInv (imgOf x0) (kernelRun1_A.sl.HS0_21 (F := Ideal) c arg1 harg1 x0) 20 := by
  unfold kernelRun1_A.sl.HS0_21
  refine slab_step _ _ 19 (by omega) _ rfl _ _ (fun q ch => ?_) (invA_20 c arg1 harg1 x0)
  sl_unfold_run_names
  simp only [k1_pay4, k1_pay5, k1_pay6, k1_pay7, shapeCast_self, View.readAt_eq_ld, harg1.read_unread]
  exact row_apply x0 19 (by omega) _ _ q ch

theorem invA_22 (c : Dev nD) (arg1 : Memref sig .tc .vmem S1x64x64x128 .f32) (harg1 : arg1.IsWhole) (x0 : Vec Ideal S1x64x64x128 .f32) :
    SlabInv (imgOf x0) (kernelRun1_A.sl.HS0_22 (F := Ideal) c arg1 harg1 x0) 21 := by
  unfold kernelRun1_A.sl.HS0_22
  refine slab_step _ _ 20 (by omega) _ rfl _ _ (fun q ch => ?_) (invA_21 c arg1 harg1 x0)
  sl_unfold_run_names
  simp only [k1_pay4, k1_pay5, k1_pay6, k1_pay7, shapeCast_self, View.readAt_eq_ld, harg1.read_unread]
  exact row_apply x0 20 (by omega) _ _ q ch

theorem invA_23 (c : Dev nD) (arg1 : Memref sig .tc .vmem S1x64x64x128 .f32) (harg1 : arg1.IsWhole) (x0 : Vec Ideal S1x64x64x128 .f32) :
    SlabInv (imgOf x0) (kernelRun1_A.sl.HS0_23 (F := Ideal) c arg1 harg1 x0) 22 := by
  unfold kernelRun1_A.sl.HS0_23
  refine slab_step _ _ 21 (by omega) _ rfl _ _ (fun q ch => ?_) (invA_22 c arg1 harg1 x0)
  sl_unfold_run_names
  simp only [k1_pay4, k1_pay5, k1_pay6, k1_pay7, shapeCast_self, View.readAt_eq_ld, harg1.read_unread]
  exact row_apply x0 21 (by omega) _ _ q ch

theorem invA_24 (c : Dev nD) (arg1 : Memref sig .tc .vmem S1x64x64x128 .f32) (harg1 : arg1.IsWhole) (x0 : Vec Ideal S1x64x64x128 .f32) :
    SlabInv (imgOf x0) (kernelRun1_A.sl.HS0_24 (F := Ideal) c arg1 harg1 x0) 23 := by
  unfold kernelRun1_A.sl.HS0_24
  refine slab_step _ _ 22 (by omega) _ rfl _ _ (fun q ch => ?_) (invA_23 c arg1 harg1 x0)
  sl_unfold_run_names
  simp only [k1_pay4, k1_pay5, k1_pay6, k1_pay7, shapeCast_self, View.readAt_eq_ld, harg1.read_unread]
  exact row_apply x0 22 (by omega) _ _ q ch

theorem invA_25 (c : Dev nD) (arg1 : Memref sig .tc .vmem S1x64x64x128 .f32) (harg1 : arg1.IsWhole) (x0 : Vec Ideal S1x64x64x128 .f32) :
    SlabInv (imgOf x0) (kernelRun1_A.sl.HS0_25 (F := Ideal) c arg1 harg1 x0) 24 := by
  unfold kernelRun1_A.sl.HS0_25
  refine slab_step _ _ 23 (by omega) _ rfl _ _ (fun q ch => ?_) (invA_24 c arg1 harg1 x0)
  sl_unfold_run_names
  simp only [k1_pay4, k1_pay5, k1_pay6, k1_pay7, shapeCast_self, View.readAt_eq_ld, harg1.read_unread]
  exact row_apply x0 23 (by omega) _ _ q ch

theorem invA_26 (c : Dev nD) (arg1 : Memref sig .tc .vmem S1x64x64x128 .f32) (harg1 : arg1.IsWhole) (x0 : Vec Ideal S1x64x64x128 .f32) :
    SlabInv (imgOf x0) (kernelRun1_A.sl.HS0_26 (F := Ideal) c arg1 harg1 x0) 25 := by
  unfold kernelRun1_A.sl.HS0_26
  refine slab_step _ _ 24 (by omega) _ rfl _ _ (fun q ch => ?_) (invA_25 c arg1 harg1 x0)
  sl_unfold_run_names
  simp only [k1_pay4, k1_pay5, k1_pay6, k1_pay7, shapeCast_self, View.readAt_eq_ld, harg1.read_unread]
  exact row_apply x0 24 (by omega) _ _ q ch

theorem invA_27 (c : Dev nD) (arg1 : Memref sig .tc .vmem S1x64x64x128 .f32) (harg1 : arg1.IsWhole) (x0 : Vec Ideal S1x64x64x128 .f32) :
    SlabInv (imgOf x0) (kernelRun1_A.sl.HS0_27 (F := Ideal) c arg1 harg1 x0) 26 := by
  unfold kernelRun1_A.sl.HS0_27
  refine slab_step _ _ 25 (by omega) _ rfl _ _ (fun q ch => ?_) (invA_26 c arg1 harg1 x0)
  sl_unfold_run_names
  simp only [k1_pay4, k1_pay5, k1_pay6, k1_pay7, shapeCast_self, View.readAt_eq_ld, harg1.read_unread]
  exact row_apply x0 25 (by omega) _ _ q ch

theorem invA_28 (c : Dev nD) (arg1 : Memref sig .tc .vmem S1x64x64x128 .f32) (harg1 : arg1.IsWhole) (x0 : Vec Ideal S1x64x64x128 .f32) :
    SlabInv (imgOf x0) (kernelRun1_A.sl.HS0_28 (F := Ideal) c arg1 harg1 x0) 27 := by
  unfold kernelRun1_A.sl.HS0_28
  refine slab_step _ _ 26 (by omega) _ rfl _ _ (fun q ch => ?_) (invA_27 c arg1 harg1 x0)
  sl_unfold_run_names
  simp only [k1_pay4, k1_pay5, k1_pay6, k1_pay7, shapeCast_self, View.readAt_eq_ld, harg1.read_unread]
  exact row_apply x0 26 (by omega) _ _ q ch

theorem invA_29 (c : Dev nD) (arg1 : Memref sig .tc .vmem S1x64x64x128 .f32) (harg1 : arg1.IsWhole) (x0 : Vec Ideal S1x64x64x128 .f32) :
    SlabInv (imgOf x0) (kernelRun1_A.sl.HS0_29 (F := Ideal) c arg1 harg1 x0) 28 := by
  unfold kernelRun1_A.sl.HS0_29
  refine slab_step _ _ 27 (by omega) _ rfl _ _ (fun q ch => ?_) (invA_28 c arg1 harg1 x0)
  sl_unfold_run_names
  simp only [k1_pay4, k1_pay5, k1_pay6, k1_pay7, shapeCast_self, View.readAt_eq_ld, harg1.read_unread]
  exact row_apply x0 27 (by omega) _ _ q ch

theorem invA_30 (c : Dev nD) (arg1 : Memref sig .tc .vmem S1x64x64x128 .f32) (harg1 : arg1.IsWhole) (x0 : Vec Ideal S1x64x64x128 .f32) :
    SlabInv (imgOf x0) (kernelRun1_A.sl.HS0_30 (F := Ideal) c arg1 harg1 x0) 29 := by
  unfold kernelRun1_A.sl.HS0_30
  refine slab_step _ _ 28 (by omega) _ rfl _ _ (fun q ch => ?_) (invA_29 c arg1 harg1 x0)
  sl_unfold_run_names
  simp only [k1_pay4, k1_pay5, k1_pay6, k1_pay7, shapeCast_self, View.readAt_eq_ld, harg1.read_unread]
  exact row_apply x0 28 (by omega) _ _ q ch

theorem invA_31 (c : Dev nD) (arg1 : Memref sig .tc .vmem S1x64x64x128 .f32) (harg1 : arg1.IsWhole) (x0 : Vec Ideal S1x64x64x128 .f32) :
    SlabInv (imgOf x0) (kernelRun1_A.sl.HS0_31 (F := Ideal) c arg1 harg1 x0) 30 := by
  unfold kernelRun1_A.sl.HS0_31
  refine slab_step _ _ 29 (by omega) _ rfl _ _ (fun q ch => ?_) (invA_30 c arg1 harg1 x0)
  sl_unfold_run_names
  simp only [k1_pay4, k1_pay5, k1_pay6, k1_pay7, shapeCast_self, View.readAt_eq_ld, harg1.read_unread]
  exact row_apply x0 29 (by omega) _ _ q ch

theorem invA_32 (c : Dev nD) (arg1 : Memref sig .tc .vmem S1x64x64x128 .f32) (harg1 : arg1.IsWhole) (x0 : Vec Ideal S1x64x64x128 .f32) :
    SlabInv (imgOf x0) (kernelRun1_A.sl.HS0_32 (F := Ideal) c arg1 harg1 x0) 31 := by
  unfold kernelRun1_A.sl.HS0_32
  refine slab_step _ _ 30 (by omega) _ rfl _ _ (fun q ch => ?_) (invA_31 c arg1 harg1 x0)
  sl_unfold_run_names
  simp only [k1_pay4, k1_pay5, k1_pay6, k1_pay7, shapeCast_self, View.readAt_eq_ld, harg1.read_unread]
  exact row_apply x0 30 (by omega) _ _ q ch

theorem invA_33 (c : Dev nD) (arg1 : Memref sig .tc .vmem S1x64x64x128 .f32) (harg1 : arg1.IsWhole) (x0 : Vec Ideal S1x64x64x128 .f32) :
    SlabInv (imgOf x0) (kernelRun1_A.sl.HS0_33 (F := Ideal) c arg1 harg1 x0) 32 := by
  unfold kernelRun1_A.sl.HS0_33
  refine slab_step _ _ 31 (by omega) _ rfl _ _ (fun q ch => ?_) (invA_32 c arg1 harg1 x0)
  sl_unfold_run_names
  simp only [k1_pay4, k1_pay5, k1_pay6, k1_pay7, shapeCast_self, View.readAt_eq_ld, harg1.read_unread]
  exact row_apply x0 31 (by omega) _ _ q ch

theorem invA_34 (c : Dev nD) (arg1 : Memref sig .tc .vmem S1x64x64x128 .f32) (harg1 : arg1.IsWhole) (x0 : Vec Ideal S1x64x64x128 .f32) :
    SlabInv (imgOf x0) (kernelRun1_A.sl.HS0_34 (F := Ideal) c arg1 harg1 x0) 33 := by
  unfold kernelRun1_A.sl.HS0_34
  refine slab_step _ _ 32 (by omega) _ rfl _ _ (fun q ch => ?_) (invA_33 c arg1 harg1 x0)
  sl_unfold_run_names
  simp only [k1_pay4, k1_pay5, k1_pay6, k1_pay7, shapeCast_self, View.readAt_eq_ld, harg1.read_unread]
  exact row_apply x0 32 (by omega) _ _ q ch

theorem invA_35 (c : Dev nD) (arg1 : Memref sig .tc .vmem S1x64x64x128 .f32) (harg1 : arg1.IsWhole) (x0 : Vec Ideal S1x64x64x128 .f32) :
    SlabInv (imgOf x0) (kernelRun1_A.sl.HS0_35 (F := Ideal) c arg1 harg1 x0) 34 := by
  unfold kernelRun1_A.sl.HS0_35
  refine slab_step _ _ 33 (by omega) _ rfl _ _ (fun q ch => ?_) (invA_34 c arg1 harg1 x0)
  sl_unfold_run_names
  simp only [k1_pay4, k1_pay5, k1_pay6, k1_pay7, shapeCast_self, View.readAt_eq_ld, harg1.read_unread]
  exact row_apply x0 33 (by omega) _ _ q ch

theorem invA_36 (c : Dev nD) (arg1 : Memref sig .tc .vmem S1x64x64x128 .f32) (harg1 : arg1.IsWhole) (x0 : Vec Ideal S1x64x64x128 .f32) :
    SlabInv (imgOf x0) (kernelRun1_A.sl.HS0_36 (F := Ideal) c arg1 harg1 x0) 35 := by
  unfold kernelRun1_A.sl.HS0_36
  refine slab_step _ _ 34 (by omega) _ rfl _ _ (fun q ch => ?_) (invA_35 c arg1 harg1 x0)
  sl_unfold_run_names
  simp only [k1_pay4, k1_pay5, k1_pay6, k1_pay7, shapeCast_self, View.readAt_eq_ld, harg1.read_unread]
  exact row_apply x0 34 (by omega) _ _ q ch

theorem invA_37 (c : Dev nD) (arg1 : Memref sig .tc .vmem S1x64x64x128 .f32) (harg1 : arg1.IsWhole) (x0 : Vec Ideal S1x64x64x128 .f32) :
    SlabInv (imgOf x0) (kernelRun1_A.sl.HS0_37 (F := Ideal) c arg1 harg1 x0) 36 := by
  unfold kernelRun1_A.sl.HS0_37
  refine slab_step _ _ 35 (by omega) _ rfl _ _ (fun q ch => ?_) (invA_36 c arg1 harg1 x0)
  sl_unfold_run_names
  simp only [k1_pay4, k1_pay5, k1_pay6, k1_pay7, shapeCast_self, View.readAt_eq_ld, harg1.read_unread]
  exact row_apply x0 35 (by omega) _ _ q ch

theorem invA_38 (c : Dev nD) (arg1 : Memref sig .tc .vmem S1x64x64x128 .f32) (harg1 : arg1.IsWhole) (x0 : Vec Ideal S1x64x64x128 .f32) :
    SlabInv (imgOf x0) (kernelRun1_A.sl.HS0_38 (F := Ideal) c arg1 harg1 x0) 37 := by
  unfold kernelRun1_A.sl.HS0_38
  refine slab_step _ _ 36 (by omega) _ rfl _ _ (fun q ch => ?_) (invA_37 c arg1 harg1 x0)
  sl_unfold_run_names
  simp only [k1_pay4, k1_pay5, k1_pay6, k1_pay7, shapeCast_self, View.readAt_eq_ld, harg1.read_unread]
  exact row_apply x0 36 (by omega) _ _ q ch

theorem invA_39 (c : Dev nD) (arg1 : Memref sig .tc .vmem S1x64x64x128 .f32) (harg1 : arg1.IsWhole) (x0 : Vec Ideal S1x64x64x128 .f32) :
    SlabInv (imgOf x0) (kernelRun1_A.sl.HS0_39 (F := Ideal) c arg1 harg1 x0) 38 := by
  unfold kernelRun1_A.sl.HS0_39
  refine slab_step _ _ 37 (by omega) _ rfl _ _ (fun q ch => ?_) (invA_38 c arg1 harg1 x0)
  sl_unfold_run_names
  simp only [k1_pay4, k1_pay5, k1_pay6, k1_pay7, shapeCast_self, View.readAt_eq_ld, harg1.read_unread]
  exact row_apply x0 37 (by omega) _ _ q ch

theorem invA_40 (c : Dev nD) (arg1 : Memref sig .tc .vmem S1x64x64x128 .f32) (harg1 : arg1.IsWhole) (x0 : Vec Ideal S1x64x64x128 .f32) :
    SlabInv (imgOf x0) (kernelRun1_A.sl.HS0_40 (F := Ideal) c arg1 harg1 x0) 39 := by
  unfold kernelRun1_A.sl.HS0_40
  refine slab_step _ _ 38 (by omega) _ rfl _ _ (fun q ch => ?_) (invA_39 c arg1 harg1 x0)
  sl_unfold_run_names
  simp only [k1_pay4, k1_pay5, k1_pay6, k1_pay7, shapeCast_self, View.readAt_eq_ld, harg1.read_unread]
  exact row_apply x0 38 (by omega) _ _ q ch

theorem invA_41 (c : Dev nD) (arg1 : Memref sig .tc .vmem S1x64x64x128 .f32) (harg1 : arg1.IsWhole) (x0 : Vec Ideal S1x64x64x128 .f32) :
    SlabInv (imgOf x0) (kernelRun1_A.sl.HS0_41 (F := Ideal) c arg1 harg1 x0) 40 := by
  unfold kernelRun1_A.sl.HS0_41
  refine slab_step _ _ 39 (by omega) _ rfl _ _ (fun q ch => ?_) (invA_40 c arg1 harg1 x0)
  sl_unfold_run_names
  simp only [k1_pay4, k1_pay5, k1_pay6, k1_pay7, shapeCast_self, View.readAt_eq_ld, harg1.read_unread]
  exact row_apply x0 39 (by omega) _ _ q ch

theorem invA_42 (c : Dev nD) (arg1 : Memref sig .tc .vmem S1x64x64x128 .f32) (harg1 : arg1.IsWhole) (x0 : Vec Ideal S1x64x64x128 .f32) :
    SlabInv (imgOf x0) (kernelRun1_A.sl.HS0_42 (F := Ideal) c arg1 harg1 x0) 41 := by
  unfold kernelRun1_A.sl.HS0_42
  refine slab_step _ _ 40 (by omega) _ rfl _ _ (fun q ch => ?_) (invA_41 c arg1 harg1 x0)
  sl_unfold_run_names
  simp only [k1_pay4, k1_pay5, k1_pay6, k1_pay7, shapeCast_self, View.readAt_eq_ld, harg1.read_unread]
  exact row_apply x0 40 (by omega) _ _ q ch

theorem invA_43 (c : Dev nD) (arg1 : Memref sig .tc .vmem S1x64x64x128 .f32) (harg1 : arg1.IsWhole) (x0 : Vec Ideal S1x64x64x128 .f32) :
    SlabInv (imgOf x0) (kernelRun1_A.sl.HS0_43 (F := Ideal) c arg1 harg1 x0) 42 := by
  unfold kernelRun1_A.sl.HS0_43
  refine slab_step _ _ 41 (by omega) _ rfl _ _ (fun q ch => ?_) (invA_42 c arg1 harg1 x0)
  sl_unfold_run_names
  simp only [k1_pay4, k1_pay5, k1_pay6, k1_pay7, shapeCast_self, View.readAt_eq_ld, harg1.read_unread]
  exact row_apply x0 41 (by omega) _ _ q ch

theorem invA_44 (c : Dev nD) (arg1 : Memref sig .tc .vmem S1x64x64x128 .f32) (harg1 : arg1.IsWhole) (x0 : Vec Ideal S1x64x64x128 .f32) :
    SlabInv (imgOf x0) (kernelRun1_A.sl.HS0_44 (F := Ideal) c arg1 harg1 x0) 43 := by
  unfold kernelRun1_A.sl.HS0_44
  refine slab_step _ _ 42 (by omega) _ rfl _ _ (fun q ch => ?_) (invA_43 c arg1 harg1 x0)
  sl_unfold_run_names
  simp only [k1_pay4, k1_pay5, k1_pay6, k1_pay7, shapeCast_self, View.readAt_eq_ld, harg1.read_unread]
  exact row_apply x0 42 (by omega) _ _ q ch

theorem invA_45 (c : Dev nD) (arg1 : Memref sig .tc .vmem S1x64x64x128 .f32) (harg1 : arg1.IsWhole) (x0 : Vec Ideal S1x64x64x128 .f32) :
    SlabInv (imgOf x0) (kernelRun1_A.sl.HS0_45 (F := Ideal) c arg1 harg1 x0) 44 := by
  unfold kernelRun1_A.sl.HS0_45
  refine slab_step _ _ 43 (by omega) _ rfl _ _ (fun q ch => ?_) (invA_44 c arg1 harg1 x0)
  sl_unfold_run_names
  simp only [k1_pay4, k1_pay5, k1_pay6, k1_pay7, shapeCast_self, View.readAt_eq_ld, harg1.read_unread]
  exact row_apply x0 43 (by omega) _ _ q ch

theorem invA_46 (c : Dev nD) (arg1 : Memref sig .tc .vmem S1x64x64x128 .f32) (harg1 : arg1.IsWhole) (x0 : Vec Ideal S1x64x64x128 .f32) :
    SlabInv (imgOf x0) (kernelRun1_A.sl.HS0_46 (F := Ideal) c arg1 harg1 x0) 45 := by
  unfold kernelRun1_A.sl.HS0_46
  refine slab_step _ _ 44 (by omega) _ rfl _ _ (fun q ch => ?_) (invA_45 c arg1 harg1 x0)
  sl_unfold_run_names
  simp only [k1_pay4, k1_pay5, k1_pay6, k1_pay7, shapeCast_self, View.readAt_eq_ld, harg1.read_unread]
  exact row_apply x0 44 (by omega) _ _ q ch

theorem invA_47 (c : Dev nD) (arg1 : Memref sig .tc .vmem S1x64x64x128 .f32) (harg1 : arg1.IsWhole) (x0 : Vec Ideal S1x64x64x128 .f32) :
    SlabInv (imgOf x0) (kernelRun1_A.sl.HS0_47 (F := Ideal) c arg1 harg1 x0) 46 := by
  unfold kernelRun1_A.sl.HS0_47
  refine slab_step _ _ 45 (by omega) _ rfl _ _ (fun q ch => ?_) (invA_46 c arg1 harg1 x0)
  sl_unfold_run_names
  simp only [k1_pay4, k1_pay5, k1_pay6, k1_pay7, shapeCast_self, View.readAt_eq_ld, harg1.read_unread]
  exact row_apply x0 45 (by omega) _ _ q ch

theorem invA_48 (c : Dev nD) (arg1 : Memref sig .tc .vmem S1x64x64x128 .f32) (harg1 : arg1.IsWhole) (x0 : Vec Ideal S1x64x64x128 .f32) :
    SlabInv (imgOf x0) (kernelRun1_A.sl.HS0_48 (F := Ideal) c arg1 harg1 x0) 47 := by
  unfold kernelRun1_A.sl.HS0_48
  refine slab_step _ _ 46 (by omega) _ rfl _ _ (fun q ch => ?_) (invA_47 c arg1 harg1 x0)
  sl_unfold_run_names
  simp only [k1_pay4, k1_pay5, k1_pay6, k1_pay7, shapeCast_self, View.readAt_eq_ld, harg1.read_unread]
  exact row_apply x0 46 (by omega) _ _ q ch

theorem invA_49 (c : Dev nD) (arg1 : Memref sig .tc .vmem S1x64x64x128 .f32) (harg1 : arg1.IsWhole) (x0 : Vec Ideal S1x64x64x128 .f32) :
    SlabInv (imgOf x0) (kernelRun1_A.sl.HS0_49 (F := Ideal) c arg1 harg1 x0) 48 := by
  unfold kernelRun1_A.sl.HS0_49
  refine slab_step _ _ 47 (by omega) _ rfl _ _ (fun q ch => ?_) (invA_48 c arg1 harg1 x0)
  sl_unfold_run_names
  simp only [k1_pay4, k1_pay5, k1_pay6, k1_pay7, shapeCast_self, View.readAt_eq_ld, harg1.read_unread]
  exact row_apply x0 47 (by omega) _ _ q ch

theorem invA_50 (c : Dev nD) (arg1 : Memref sig .tc .vmem S1x64x64x128 .f32) (harg1 : arg1.IsWhole) (x0 : Vec Ideal S1x64x64x128 .f32) :
    SlabInv (imgOf x0) (kernelRun1_A.sl.HS0_50 (F := Ideal) c arg1 harg1 x0) 49 := by
  unfold kernelRun1_A.sl.HS0_50
  refine slab_step _ _ 48 (by omega) _ rfl _ _ (fun q ch => ?_) (invA_49 c arg1 harg1 x0)
  sl_unfold_run_names
  simp only [k1_pay4, k1_pay5, k1_pay6, k1_pay7, shapeCast_self, View.readAt_eq_ld, harg1.read_unread]
  exact row_apply x0 48 (by omega) _ _ q ch

theorem invA_51 (c : Dev nD) (arg1 : Memref sig .tc .vmem S1x64x64x128 .f32) (harg1 : arg1.IsWhole) (x0 : Vec Ideal S1x64x64x128 .f32) :
    SlabInv (imgOf x0) (kernelRun1_A.sl.HS0_51 (F := Ideal) c arg1 harg1 x0) 50 := by
  unfold kernelRun1_A.sl.HS0_51
  refine slab_step _ _ 49 (by omega) _ rfl _ _ (fun q ch => ?_) (invA_50 c arg1 harg1 x0)
  sl_unfold_run_names
  simp only [k1_pay4, k1_pay5, k1_pay6, k1_pay7, shapeCast_self, View.readAt_eq_ld, harg1.read_unread]
  exact row_apply x0 49 (by omega) _ _ q ch

theorem invA_52 (c : Dev nD) (arg1 : Memref sig .tc .vmem S1x64x64x128 .f32) (harg1 : arg1.IsWhole) (x0 : Vec Ideal S1x64x64x128 .f32) :
    SlabInv (imgOf x0) (kernelRun1_A.sl.HS0_52 (F := Ideal) c arg1 harg1 x0) 51 := by
  unfold kernelRun1_A.sl.HS0_52
  refine slab_step _ _ 50 (by omega) _ rfl _ _ (fun q ch => ?_) (invA_51 c arg1 harg1 x0)
  sl_unfold_run_names
  simp only [k1_pay4, k1_pay5, k1_pay6, k1_pay7, shapeCast_self, View.readAt_eq_ld, harg1.read_unread]
  exact row_apply x0 50 (by omega) _ _ q ch

theorem invA_53 (c : Dev nD) (arg1 : Memref sig .tc .vmem S1x64x64x128 .f32) (harg1 : arg1.IsWhole) (x0 : Vec Ideal S1x64x64x128 .f32) :
    SlabInv (imgOf x0) (kernelRun1_A.sl.HS0_53 (F := Ideal) c arg1 harg1 x0) 52 := by
  unfold kernelRun1_A.sl.HS0_53
  refine slab_step _ _ 51 (by omega) _ rfl _ _ (fun q ch => ?_) (invA_52 c arg1 harg1 x0)
  sl_unfold_run_names
  simp only [k1_pay4, k1_pay5, k1_pay6, k1_pay7, shapeCast_self, View.readAt_eq_ld, harg1.read_unread]
  exact row_apply x0 51 (by omega) _ _ q ch

theorem invA_54 (c : Dev nD) (arg1 : Memref sig .tc .vmem S1x64x64x128 .f32) (harg1 : arg1.IsWhole) (x0 : Vec Ideal S1x64x64x128 .f32) :
    SlabInv (imgOf x0) (kernelRun1_A.sl.HS0_54 (F := Ideal) c arg1 harg1 x0) 53 := by
  unfold kernelRun1_A.sl.HS0_54
  refine slab_step _ _ 52 (by omega) _ rfl _ _ (fun q ch => ?_) (invA_53 c arg1 harg1 x0)
  sl_unfold_run_names
  simp only [k1_pay4, k1_pay5, k1_pay6, k1_pay7, shapeCast_self, View.readAt_eq_ld, harg1.read_unread]
  exact row_apply x0 52 (by omega) _ _ q ch

theorem invA_55 (c : Dev nD) (arg1 : Memref sig .tc .vmem S1x64x64x128 .f32) (harg1 : arg1.IsWhole) (x0 : Vec Ideal S1x64x64x128 .f32) :
    SlabInv (imgOf x0) (kernelRun1_A.sl.HS0_55 (F := Ideal) c arg1 harg1 x0) 54 := by
  unfold kernelRun1_A.sl.HS0_55
  refine slab_step _ _ 53 (by omega) _ rfl _ _ (fun q ch => ?_) (invA_54 c arg1 harg1 x0)
  sl_unfold_run_names
  simp only [k1_pay4, k1_pay5, k1_pay6, k1_pay7, shapeCast_self, View.readAt_eq_ld, harg1.read_unread]
  exact row_apply x0 53 (by omega) _ _ q ch

theorem invA_56 (c : Dev nD) (arg1 : Memref sig .tc .vmem S1x64x64x128 .f32) (harg1 : arg1.IsWhole) (x0 : Vec Ideal S1x64x64x128 .f32) :
    SlabInv (imgOf x0) (kernelRun1_A.sl.HS0_56 (F := Ideal) c arg1 harg1 x0) 55 := by
  unfold kernelRun1_A.sl.HS0_56
  refine slab_step _ _ 54 (by omega) _ rfl _ _ (fun q ch => ?_) (invA_55 c arg1 harg1 x0)
  sl_unfold_run_names
  simp only [k1_pay4, k1_pay5, k1_pay6, k1_pay7, shapeCast_self, View.readAt_eq_ld, harg1.read_unread]
  exact row_apply x0 54 (by omega) _ _ q ch

theorem invA_57 (c : Dev nD) (arg1 : Memref sig .tc .vmem S1x64x64x128 .f32) (harg1 : arg1.IsWhole) (x0 : Vec Ideal S1x64x64x128 .f32) :
    SlabInv (imgOf x0) (kernelRun1_A.sl.HS0_57 (F := Ideal) c arg1 harg1 x0) 56 := by
  unfold kernelRun1_A.sl.HS0_57
  refine slab_step _ _ 55 (by omega) _ rfl _ _ (fun q ch => ?_) (invA_56 c arg1 harg1 x0)
  sl_unfold_run_names
  simp only [k1_pay4, k1_pay5, k1_pay6, k1_pay7, shapeCast_self, View.readAt_eq_ld, harg1.read_unread]
  exact row_apply x0 55 (by omega) _ _ q ch

theorem invA_58 (c : Dev nD) (arg1 : Memref sig .tc .vmem S1x64x64x128 .f32) (harg1 : arg1.IsWhole) (x0 : Vec Ideal S1x64x64x128 .f32) :
    SlabInv (imgOf x0) (kernelRun1_A.sl.HS0_58 (F := Ideal) c arg1 harg1 x0) 57 := by
  unfold kernelRun1_A.sl.HS0_58
  refine slab_step _ _ 56 (by omega) _ rfl _ _ (fun q ch => ?_) (invA_57 c arg1 harg1 x0)
  sl_unfold_run_names
  simp only [k1_pay4, k1_pay5, k1_pay6, k1_pay7, shapeCast_self, View.readAt_eq_ld, harg1.read_unread]
  exact row_apply x0 56 (by omega) _ _ q ch

theorem invA_59 (c : Dev nD) (arg1 : Memref sig .tc .vmem S1x64x64x128 .f32) (harg1 : arg1.IsWhole) (x0 : Vec Ideal S1x64x64x128 .f32) :
    SlabInv (imgOf x0) (kernelRun1_A.sl.HS0_59 (F := Ideal) c arg1 harg1 x0) 58 := by
  unfold kernelRun1_A.sl.HS0_59
  refine slab_step _ _ 57 (by omega) _ rfl _ _ (fun q ch => ?_) (invA_58 c arg1 harg1 x0)
  sl_unfold_run_names
  simp only [k1_pay4, k1_pay5, k1_pay6, k1_pay7, shapeCast_self, View.readAt_eq_ld, harg1.read_unread]
  exact row_apply x0 57 (by omega) _ _ q ch

theorem invA_60 (c : Dev nD) (arg1 : Memref sig .tc .vmem S1x64x64x128 .f32) (harg1 : arg1.IsWhole) (x0 : Vec Ideal S1x64x64x128 .f32) :
    SlabInv (imgOf x0) (kernelRun1_A.sl.HS0_60 (F := Ideal) c arg1 harg1 x0) 59 := by
  unfold kernelRun1_A.sl.HS0_60
  refine slab_step _ _ 58 (by omega) _ rfl _ _ (fun q ch => ?_) (invA_59 c arg1 harg1 x0)
  sl_unfold_run_names
  simp only [k1_pay4, k1_pay5, k1_pay6, k1_pay7, shapeCast_self, View.readAt_eq_ld, harg1.read_unread]
  exact row_apply x0 58 (by omega) _ _ q ch

theorem invA_61 (c : Dev nD) (arg1 : Memref sig .tc .vmem S1x64x64x128 .f32) (harg1 : arg1.IsWhole) (x0 : Vec Ideal S1x64x64x128 .f32) :
    SlabInv (imgOf x0) (kernelRun1_A.sl.HS0_61 (F := Ideal) c arg1 harg1 x0) 60 := by
  unfold kernelRun1_A.sl.HS0_61
  refine slab_step _ _ 59 (by omega) _ rfl _ _ (fun q ch => ?_) (invA_60 c arg1 harg1 x0)
  sl_unfold_run_names
  simp only [k1_pay4, k1_pay5, k1_pay6, k1_pay7, shapeCast_self, View.readAt_eq_ld, harg1.read_unread]
  exact row_apply x0 59 (by omega) _ _ q ch

theorem invA_62 (c : Dev nD) (arg1 : Memref sig .tc .vmem S1x64x64x128 .f32) (harg1 : arg1.IsWhole) (x0 : Vec Ideal S1x64x64x128 .f32) :
    SlabInv (imgOf x0) (kernelRun1_A.sl.HS0_62 (F := Ideal) c arg1 harg1 x0) 61 := by
  unfold kernelRun1_A.sl.HS0_62
  refine slab_step _ _ 60 (by omega) _ rfl _ _ (fun q ch => ?_) (invA_61 c arg1 harg1 x0)
  sl_unfold_run_names
  simp only [k1_pay4, k1_pay5, k1_pay6, k1_pay7, shapeCast_self, View.readAt_eq_ld, harg1.read_unread]
  exact row_apply x0 60 (by omega) _ _ q ch

theorem invA_63 (c : Dev nD) (arg1 : Memref sig .tc .vmem S1x64x64x128 .f32) (harg1 : arg1.IsWhole) (x0 : Vec Ideal S1x64x64x128 .f32) :
    SlabInv (imgOf x0) (kernelRun1_A.sl.HS0_63 (F := Ideal) c arg1 harg1 x0) 62 := by
  unfold kernelRun1_A.sl.HS0_63
  refine slab_step _ _ 61 (by omega) _ rfl _ _ (fun q ch => ?_) (invA_62 c arg1 harg1 x0)
  sl_unfold_run_names
  simp only [k1_pay4, k1_pay5, k1_pay6, k1_pay7, shapeCast_self, View.readAt_eq_ld, harg1.read_unread]
  exact row_apply x0 61 (by omega) _ _ q ch

theorem invA_64 (c : Dev nD) (arg1 : Memref sig .tc .vmem S1x64x64x128 .f32) (harg1 : arg1.IsWhole) (x0 : Vec Ideal S1x64x64x128 .f32) :
    SlabInv (imgOf x0) (kernelRun1_A.sl.HS0_64 (F := Ideal) c arg1 harg1 x0) 63 := by
  unfold kernelRun1_A.sl.HS0_64
  refine slab_step _ _ 62 (by omega) _ rfl _ _ (fun q ch => ?_) (invA_63 c arg1 harg1 x0)
  sl_unfold_run_names
  simp only [k1_pay4, k1_pay5, k1_pay6, k1_pay7, shapeCast_self, View.readAt_eq_ld, harg1.read_unread]
  exact row_apply x0 62 (by omega) _ _ q ch

theorem invA_65 (c : Dev nD) (arg1 : Memref sig .tc .vmem S1x64x64x128 .f32) (harg1 : arg1.IsWhole) (x0 : Vec Ideal S1x64x64x128 .f32) :
    SlabInv (imgOf x0) (kernelRun1_A.sl.HS0_65 (F := Ideal) c arg1 harg1 x0) 64 := by
  unfold kernelRun1_A.sl.HS0_65
  refine slab_step _ _ 63 (by omega) _ rfl _ _ (fun q ch => ?_) (invA_64 c arg1 harg1 x0)
  sl_unfold_run_names
  simp only [k1_pay4, k1_pay5, k1_pay6, k1_pay7, shapeCast_self, View.readAt_eq_ld, harg1.read_unread]
  exact row_apply x0 63 (by omega) _ _ q ch

/-! ## The upsampled image's slab -/

theorem invB_1 :
    ∀ (im : Fin 64 → Fin 64 → Fin 128 → EReal), SlabInv im (kernelRun1_A.sl.HS1_1 (F := Ideal)) 0 := by
  intro im
  unfold kernelRun1_A.sl.HS1_1
  refine slab_base _ _ _ (fun i => ?_)
  simp only [k1_pay3, shapeCast_self, broadcast_apply]
  exact Ideal.ofBits_zero_f32

theorem invB_2 (c : Dev nD) (arg2 : Memref sig .tc .vmem S1x64x64x128 .f32) (harg2 : arg2.IsWhole) (x1 : Vec Ideal S1x64x64x128 .f32) :
    SlabInv (imgOf x1) (kernelRun1_A.sl.HS1_2 (F := Ideal) c arg2 harg2 x1) 1 := by
  unfold kernelRun1_A.sl.HS1_2
  refine slab_step _ _ 0 (by omega) _ rfl _ _ (fun q ch => ?_) (invB_1 _)
  sl_unfold_run_names
  simp only [k1_pay152, k1_pay153, k1_pay154, k1_pay155, k1_pay156, shapeCast_self, View.readAt_eq_ld, harg2.read_unread]
  exact row_apply x1 0 (by omega) _ _ q ch

theorem invB_3 (c : Dev nD) (arg2 : Memref sig .tc .vmem S1x64x64x128 .f32) (harg2 : arg2.IsWhole) (x1 : Vec Ideal S1x64x64x128 .f32) :
    SlabInv (imgOf x1) (kernelRun1_A.sl.HS1_3 (F := Ideal) c arg2 harg2 x1) 2 := by
  unfold kernelRun1_A.sl.HS1_3
  refine slab_step _ _ 1 (by omega) _ rfl _ _ (fun q ch => ?_) (invB_2 c arg2 harg2 x1)
  sl_unfold_run_names
  simp only [k1_pay152, k1_pay153, k1_pay154, k1_pay155, k1_pay156, shapeCast_self, View.readAt_eq_ld, harg2.read_unread]
  exact row_apply x1 1 (by omega) _ _ q ch

theorem invB_4 (c : Dev nD) (arg2 : Memref sig .tc .vmem S1x64x64x128 .f32) (harg2 : arg2.IsWhole) (x1 : Vec Ideal S1x64x64x128 .f32) :
    SlabInv (imgOf x1) (kernelRun1_A.sl.HS1_4 (F := Ideal) c arg2 harg2 x1) 3 := by
  unfold kernelRun1_A.sl.HS1_4
  refine slab_step _ _ 2 (by omega) _ rfl _ _ (fun q ch => ?_) (invB_3 c arg2 harg2 x1)
  sl_unfold_run_names
  simp only [k1_pay152, k1_pay153, k1_pay154, k1_pay155, k1_pay156, shapeCast_self, View.readAt_eq_ld, harg2.read_unread]
  exact row_apply x1 2 (by omega) _ _ q ch

theorem invB_5 (c : Dev nD) (arg2 : Memref sig .tc .vmem S1x64x64x128 .f32) (harg2 : arg2.IsWhole) (x1 : Vec Ideal S1x64x64x128 .f32) :
    SlabInv (imgOf x1) (kernelRun1_A.sl.HS1_5 (F := Ideal) c arg2 harg2 x1) 4 := by
  unfold kernelRun1_A.sl.HS1_5
  refine slab_step _ _ 3 (by omega) _ rfl _ _ (fun q ch => ?_) (invB_4 c arg2 harg2 x1)
  sl_unfold_run_names
  simp only [k1_pay152, k1_pay153, k1_pay154, k1_pay155, k1_pay156, shapeCast_self, View.readAt_eq_ld, harg2.read_unread]
  exact row_apply x1 3 (by omega) _ _ q ch

theorem invB_6 (c : Dev nD) (arg2 : Memref sig .tc .vmem S1x64x64x128 .f32) (harg2 : arg2.IsWhole) (x1 : Vec Ideal S1x64x64x128 .f32) :
    SlabInv (imgOf x1) (kernelRun1_A.sl.HS1_6 (F := Ideal) c arg2 harg2 x1) 5 := by
  unfold kernelRun1_A.sl.HS1_6
  refine slab_step _ _ 4 (by omega) _ rfl _ _ (fun q ch => ?_) (invB_5 c arg2 harg2 x1)
  sl_unfold_run_names
  simp only [k1_pay152, k1_pay153, k1_pay154, k1_pay155, k1_pay156, shapeCast_self, View.readAt_eq_ld, harg2.read_unread]
  exact row_apply x1 4 (by omega) _ _ q ch

theorem invB_7 (c : Dev nD) (arg2 : Memref sig .tc .vmem S1x64x64x128 .f32) (harg2 : arg2.IsWhole) (x1 : Vec Ideal S1x64x64x128 .f32) :
    SlabInv (imgOf x1) (kernelRun1_A.sl.HS1_7 (F := Ideal) c arg2 harg2 x1) 6 := by
  unfold kernelRun1_A.sl.HS1_7
  refine slab_step _ _ 5 (by omega) _ rfl _ _ (fun q ch => ?_) (invB_6 c arg2 harg2 x1)
  sl_unfold_run_names
  simp only [k1_pay152, k1_pay153, k1_pay154, k1_pay155, k1_pay156, shapeCast_self, View.readAt_eq_ld, harg2.read_unread]
  exact row_apply x1 5 (by omega) _ _ q ch

theorem invB_8 (c : Dev nD) (arg2 : Memref sig .tc .vmem S1x64x64x128 .f32) (harg2 : arg2.IsWhole) (x1 : Vec Ideal S1x64x64x128 .f32) :
    SlabInv (imgOf x1) (kernelRun1_A.sl.HS1_8 (F := Ideal) c arg2 harg2 x1) 7 := by
  unfold kernelRun1_A.sl.HS1_8
  refine slab_step _ _ 6 (by omega) _ rfl _ _ (fun q ch => ?_) (invB_7 c arg2 harg2 x1)
  sl_unfold_run_names
  simp only [k1_pay152, k1_pay153, k1_pay154, k1_pay155, k1_pay156, shapeCast_self, View.readAt_eq_ld, harg2.read_unread]
  exact row_apply x1 6 (by omega) _ _ q ch

theorem invB_9 (c : Dev nD) (arg2 : Memref sig .tc .vmem S1x64x64x128 .f32) (harg2 : arg2.IsWhole) (x1 : Vec Ideal S1x64x64x128 .f32) :
    SlabInv (imgOf x1) (kernelRun1_A.sl.HS1_9 (F := Ideal) c arg2 harg2 x1) 8 := by
  unfold kernelRun1_A.sl.HS1_9
  refine slab_step _ _ 7 (by omega) _ rfl _ _ (fun q ch => ?_) (invB_8 c arg2 harg2 x1)
  sl_unfold_run_names
  simp only [k1_pay152, k1_pay153, k1_pay154, k1_pay155, k1_pay156, shapeCast_self, View.readAt_eq_ld, harg2.read_unread]
  exact row_apply x1 7 (by omega) _ _ q ch

theorem invB_10 (c : Dev nD) (arg2 : Memref sig .tc .vmem S1x64x64x128 .f32) (harg2 : arg2.IsWhole) (x1 : Vec Ideal S1x64x64x128 .f32) :
    SlabInv (imgOf x1) (kernelRun1_A.sl.HS1_10 (F := Ideal) c arg2 harg2 x1) 9 := by
  unfold kernelRun1_A.sl.HS1_10
  refine slab_step _ _ 8 (by omega) _ rfl _ _ (fun q ch => ?_) (invB_9 c arg2 harg2 x1)
  sl_unfold_run_names
  simp only [k1_pay152, k1_pay153, k1_pay154, k1_pay155, k1_pay156, shapeCast_self, View.readAt_eq_ld, harg2.read_unread]
  exact row_apply x1 8 (by omega) _ _ q ch

theorem invB_11 (c : Dev nD) (arg2 : Memref sig .tc .vmem S1x64x64x128 .f32) (harg2 : arg2.IsWhole) (x1 : Vec Ideal S1x64x64x128 .f32) :
    SlabInv (imgOf x1) (kernelRun1_A.sl.HS1_11 (F := Ideal) c arg2 harg2 x1) 10 := by
  unfold kernelRun1_A.sl.HS1_11
  refine slab_step _ _ 9 (by omega) _ rfl _ _ (fun q ch => ?_) (invB_10 c arg2 harg2 x1)
  sl_unfold_run_names
  simp only [k1_pay152, k1_pay153, k1_pay154, k1_pay155, k1_pay156, shapeCast_self, View.readAt_eq_ld, harg2.read_unread]
  exact row_apply x1 9 (by omega) _ _ q ch

theorem invB_12 (c : Dev nD) (arg2 : Memref sig .tc .vmem S1x64x64x128 .f32) (harg2 : arg2.IsWhole) (x1 : Vec Ideal S1x64x64x128 .f32) :
    SlabInv (imgOf x1) (kernelRun1_A.sl.HS1_12 (F := Ideal) c arg2 harg2 x1) 11 := by
  unfold kernelRun1_A.sl.HS1_12
  refine slab_step _ _ 10 (by omega) _ rfl _ _ (fun q ch => ?_) (invB_11 c arg2 harg2 x1)
  sl_unfold_run_names
  simp only [k1_pay152, k1_pay153, k1_pay154, k1_pay155, k1_pay156, shapeCast_self, View.readAt_eq_ld, harg2.read_unread]
  exact row_apply x1 10 (by omega) _ _ q ch

theorem invB_13 (c : Dev nD) (arg2 : Memref sig .tc .vmem S1x64x64x128 .f32) (harg2 : arg2.IsWhole) (x1 : Vec Ideal S1x64x64x128 .f32) :
    SlabInv (imgOf x1) (kernelRun1_A.sl.HS1_13 (F := Ideal) c arg2 harg2 x1) 12 := by
  unfold kernelRun1_A.sl.HS1_13
  refine slab_step _ _ 11 (by omega) _ rfl _ _ (fun q ch => ?_) (invB_12 c arg2 harg2 x1)
  sl_unfold_run_names
  simp only [k1_pay152, k1_pay153, k1_pay154, k1_pay155, k1_pay156, shapeCast_self, View.readAt_eq_ld, harg2.read_unread]
  exact row_apply x1 11 (by omega) _ _ q ch

theorem invB_14 (c : Dev nD) (arg2 : Memref sig .tc .vmem S1x64x64x128 .f32) (harg2 : arg2.IsWhole) (x1 : Vec Ideal S1x64x64x128 .f32) :
    SlabInv (imgOf x1) (kernelRun1_A.sl.HS1_14 (F := Ideal) c arg2 harg2 x1) 13 := by
  unfold kernelRun1_A.sl.HS1_14
  refine slab_step _ _ 12 (by omega) _ rfl _ _ (fun q ch => ?_) (invB_13 c arg2 harg2 x1)
  sl_unfold_run_names
  simp only [k1_pay152, k1_pay153, k1_pay154, k1_pay155, k1_pay156, shapeCast_self, View.readAt_eq_ld, harg2.read_unread]
  exact row_apply x1 12 (by omega) _ _ q ch

theorem invB_15 (c : Dev nD) (arg2 : Memref sig .tc .vmem S1x64x64x128 .f32) (harg2 : arg2.IsWhole) (x1 : Vec Ideal S1x64x64x128 .f32) :
    SlabInv (imgOf x1) (kernelRun1_A.sl.HS1_15 (F := Ideal) c arg2 harg2 x1) 14 := by
  unfold kernelRun1_A.sl.HS1_15
  refine slab_step _ _ 13 (by omega) _ rfl _ _ (fun q ch => ?_) (invB_14 c arg2 harg2 x1)
  sl_unfold_run_names
  simp only [k1_pay152, k1_pay153, k1_pay154, k1_pay155, k1_pay156, shapeCast_self, View.readAt_eq_ld, harg2.read_unread]
  exact row_apply x1 13 (by omega) _ _ q ch

theorem invB_16 (c : Dev nD) (arg2 : Memref sig .tc .vmem S1x64x64x128 .f32) (harg2 : arg2.IsWhole) (x1 : Vec Ideal S1x64x64x128 .f32) :
    SlabInv (imgOf x1) (kernelRun1_A.sl.HS1_16 (F := Ideal) c arg2 harg2 x1) 15 := by
  unfold kernelRun1_A.sl.HS1_16
  refine slab_step _ _ 14 (by omega) _ rfl _ _ (fun q ch => ?_) (invB_15 c arg2 harg2 x1)
  sl_unfold_run_names
  simp only [k1_pay152, k1_pay153, k1_pay154, k1_pay155, k1_pay156, shapeCast_self, View.readAt_eq_ld, harg2.read_unread]
  exact row_apply x1 14 (by omega) _ _ q ch

theorem invB_17 (c : Dev nD) (arg2 : Memref sig .tc .vmem S1x64x64x128 .f32) (harg2 : arg2.IsWhole) (x1 : Vec Ideal S1x64x64x128 .f32) :
    SlabInv (imgOf x1) (kernelRun1_A.sl.HS1_17 (F := Ideal) c arg2 harg2 x1) 16 := by
  unfold kernelRun1_A.sl.HS1_17
  refine slab_step _ _ 15 (by omega) _ rfl _ _ (fun q ch => ?_) (invB_16 c arg2 harg2 x1)
  sl_unfold_run_names
  simp only [k1_pay152, k1_pay153, k1_pay154, k1_pay155, k1_pay156, shapeCast_self, View.readAt_eq_ld, harg2.read_unread]
  exact row_apply x1 15 (by omega) _ _ q ch

theorem invB_18 (c : Dev nD) (arg2 : Memref sig .tc .vmem S1x64x64x128 .f32) (harg2 : arg2.IsWhole) (x1 : Vec Ideal S1x64x64x128 .f32) :
    SlabInv (imgOf x1) (kernelRun1_A.sl.HS1_18 (F := Ideal) c arg2 harg2 x1) 17 := by
  unfold kernelRun1_A.sl.HS1_18
  refine slab_step _ _ 16 (by omega) _ rfl _ _ (fun q ch => ?_) (invB_17 c arg2 harg2 x1)
  sl_unfold_run_names
  simp only [k1_pay152, k1_pay153, k1_pay154, k1_pay155, k1_pay156, shapeCast_self, View.readAt_eq_ld, harg2.read_unread]
  exact row_apply x1 16 (by omega) _ _ q ch

theorem invB_19 (c : Dev nD) (arg2 : Memref sig .tc .vmem S1x64x64x128 .f32) (harg2 : arg2.IsWhole) (x1 : Vec Ideal S1x64x64x128 .f32) :
    SlabInv (imgOf x1) (kernelRun1_A.sl.HS1_19 (F := Ideal) c arg2 harg2 x1) 18 := by
  unfold kernelRun1_A.sl.HS1_19
  refine slab_step _ _ 17 (by omega) _ rfl _ _ (fun q ch => ?_) (invB_18 c arg2 harg2 x1)
  sl_unfold_run_names
  simp only [k1_pay152, k1_pay153, k1_pay154, k1_pay155, k1_pay156, shapeCast_self, View.readAt_eq_ld, harg2.read_unread]
  exact row_apply x1 17 (by omega) _ _ q ch

theorem invB_20 (c : Dev nD) (arg2 : Memref sig .tc .vmem S1x64x64x128 .f32) (harg2 : arg2.IsWhole) (x1 : Vec Ideal S1x64x64x128 .f32) :
    SlabInv (imgOf x1) (kernelRun1_A.sl.HS1_20 (F := Ideal) c arg2 harg2 x1) 19 := by
  unfold kernelRun1_A.sl.HS1_20
  refine slab_step _ _ 18 (by omega) _ rfl _ _ (fun q ch => ?_) (invB_19 c arg2 harg2 x1)
  sl_unfold_run_names
  simp only [k1_pay152, k1_pay153, k1_pay154, k1_pay155, k1_pay156, shapeCast_self, View.readAt_eq_ld, harg2.read_unread]
  exact row_apply x1 18 (by omega) _ _ q ch

theorem invB_21 (c : Dev nD) (arg2 : Memref sig .tc .vmem S1x64x64x128 .f32) (harg2 : arg2.IsWhole) (x1 : Vec Ideal S1x64x64x128 .f32) :
    SlabInv (imgOf x1) (kernelRun1_A.sl.HS1_21 (F := Ideal) c arg2 harg2 x1) 20 := by
  unfold kernelRun1_A.sl.HS1_21
  refine slab_step _ _ 19 (by omega) _ rfl _ _ (fun q ch => ?_) (invB_20 c arg2 harg2 x1)
  sl_unfold_run_names
  simp only [k1_pay152, k1_pay153, k1_pay154, k1_pay155, k1_pay156, shapeCast_self, View.readAt_eq_ld, harg2.read_unread]
  exact row_apply x1 19 (by omega) _ _ q ch

theorem invB_22 (c : Dev nD) (arg2 : Memref sig .tc .vmem S1x64x64x128 .f32) (harg2 : arg2.IsWhole) (x1 : Vec Ideal S1x64x64x128 .f32) :
    SlabInv (imgOf x1) (kernelRun1_A.sl.HS1_22 (F := Ideal) c arg2 harg2 x1) 21 := by
  unfold kernelRun1_A.sl.HS1_22
  refine slab_step _ _ 20 (by omega) _ rfl _ _ (fun q ch => ?_) (invB_21 c arg2 harg2 x1)
  sl_unfold_run_names
  simp only [k1_pay152, k1_pay153, k1_pay154, k1_pay155, k1_pay156, shapeCast_self, View.readAt_eq_ld, harg2.read_unread]
  exact row_apply x1 20 (by omega) _ _ q ch

theorem invB_23 (c : Dev nD) (arg2 : Memref sig .tc .vmem S1x64x64x128 .f32) (harg2 : arg2.IsWhole) (x1 : Vec Ideal S1x64x64x128 .f32) :
    SlabInv (imgOf x1) (kernelRun1_A.sl.HS1_23 (F := Ideal) c arg2 harg2 x1) 22 := by
  unfold kernelRun1_A.sl.HS1_23
  refine slab_step _ _ 21 (by omega) _ rfl _ _ (fun q ch => ?_) (invB_22 c arg2 harg2 x1)
  sl_unfold_run_names
  simp only [k1_pay152, k1_pay153, k1_pay154, k1_pay155, k1_pay156, shapeCast_self, View.readAt_eq_ld, harg2.read_unread]
  exact row_apply x1 21 (by omega) _ _ q ch

theorem invB_24 (c : Dev nD) (arg2 : Memref sig .tc .vmem S1x64x64x128 .f32) (harg2 : arg2.IsWhole) (x1 : Vec Ideal S1x64x64x128 .f32) :
    SlabInv (imgOf x1) (kernelRun1_A.sl.HS1_24 (F := Ideal) c arg2 harg2 x1) 23 := by
  unfold kernelRun1_A.sl.HS1_24
  refine slab_step _ _ 22 (by omega) _ rfl _ _ (fun q ch => ?_) (invB_23 c arg2 harg2 x1)
  sl_unfold_run_names
  simp only [k1_pay152, k1_pay153, k1_pay154, k1_pay155, k1_pay156, shapeCast_self, View.readAt_eq_ld, harg2.read_unread]
  exact row_apply x1 22 (by omega) _ _ q ch

theorem invB_25 (c : Dev nD) (arg2 : Memref sig .tc .vmem S1x64x64x128 .f32) (harg2 : arg2.IsWhole) (x1 : Vec Ideal S1x64x64x128 .f32) :
    SlabInv (imgOf x1) (kernelRun1_A.sl.HS1_25 (F := Ideal) c arg2 harg2 x1) 24 := by
  unfold kernelRun1_A.sl.HS1_25
  refine slab_step _ _ 23 (by omega) _ rfl _ _ (fun q ch => ?_) (invB_24 c arg2 harg2 x1)
  sl_unfold_run_names
  simp only [k1_pay152, k1_pay153, k1_pay154, k1_pay155, k1_pay156, shapeCast_self, View.readAt_eq_ld, harg2.read_unread]
  exact row_apply x1 23 (by omega) _ _ q ch

theorem invB_26 (c : Dev nD) (arg2 : Memref sig .tc .vmem S1x64x64x128 .f32) (harg2 : arg2.IsWhole) (x1 : Vec Ideal S1x64x64x128 .f32) :
    SlabInv (imgOf x1) (kernelRun1_A.sl.HS1_26 (F := Ideal) c arg2 harg2 x1) 25 := by
  unfold kernelRun1_A.sl.HS1_26
  refine slab_step _ _ 24 (by omega) _ rfl _ _ (fun q ch => ?_) (invB_25 c arg2 harg2 x1)
  sl_unfold_run_names
  simp only [k1_pay152, k1_pay153, k1_pay154, k1_pay155, k1_pay156, shapeCast_self, View.readAt_eq_ld, harg2.read_unread]
  exact row_apply x1 24 (by omega) _ _ q ch

theorem invB_27 (c : Dev nD) (arg2 : Memref sig .tc .vmem S1x64x64x128 .f32) (harg2 : arg2.IsWhole) (x1 : Vec Ideal S1x64x64x128 .f32) :
    SlabInv (imgOf x1) (kernelRun1_A.sl.HS1_27 (F := Ideal) c arg2 harg2 x1) 26 := by
  unfold kernelRun1_A.sl.HS1_27
  refine slab_step _ _ 25 (by omega) _ rfl _ _ (fun q ch => ?_) (invB_26 c arg2 harg2 x1)
  sl_unfold_run_names
  simp only [k1_pay152, k1_pay153, k1_pay154, k1_pay155, k1_pay156, shapeCast_self, View.readAt_eq_ld, harg2.read_unread]
  exact row_apply x1 25 (by omega) _ _ q ch

theorem invB_28 (c : Dev nD) (arg2 : Memref sig .tc .vmem S1x64x64x128 .f32) (harg2 : arg2.IsWhole) (x1 : Vec Ideal S1x64x64x128 .f32) :
    SlabInv (imgOf x1) (kernelRun1_A.sl.HS1_28 (F := Ideal) c arg2 harg2 x1) 27 := by
  unfold kernelRun1_A.sl.HS1_28
  refine slab_step _ _ 26 (by omega) _ rfl _ _ (fun q ch => ?_) (invB_27 c arg2 harg2 x1)
  sl_unfold_run_names
  simp only [k1_pay152, k1_pay153, k1_pay154, k1_pay155, k1_pay156, shapeCast_self, View.readAt_eq_ld, harg2.read_unread]
  exact row_apply x1 26 (by omega) _ _ q ch

theorem invB_29 (c : Dev nD) (arg2 : Memref sig .tc .vmem S1x64x64x128 .f32) (harg2 : arg2.IsWhole) (x1 : Vec Ideal S1x64x64x128 .f32) :
    SlabInv (imgOf x1) (kernelRun1_A.sl.HS1_29 (F := Ideal) c arg2 harg2 x1) 28 := by
  unfold kernelRun1_A.sl.HS1_29
  refine slab_step _ _ 27 (by omega) _ rfl _ _ (fun q ch => ?_) (invB_28 c arg2 harg2 x1)
  sl_unfold_run_names
  simp only [k1_pay152, k1_pay153, k1_pay154, k1_pay155, k1_pay156, shapeCast_self, View.readAt_eq_ld, harg2.read_unread]
  exact row_apply x1 27 (by omega) _ _ q ch

theorem invB_30 (c : Dev nD) (arg2 : Memref sig .tc .vmem S1x64x64x128 .f32) (harg2 : arg2.IsWhole) (x1 : Vec Ideal S1x64x64x128 .f32) :
    SlabInv (imgOf x1) (kernelRun1_A.sl.HS1_30 (F := Ideal) c arg2 harg2 x1) 29 := by
  unfold kernelRun1_A.sl.HS1_30
  refine slab_step _ _ 28 (by omega) _ rfl _ _ (fun q ch => ?_) (invB_29 c arg2 harg2 x1)
  sl_unfold_run_names
  simp only [k1_pay152, k1_pay153, k1_pay154, k1_pay155, k1_pay156, shapeCast_self, View.readAt_eq_ld, harg2.read_unread]
  exact row_apply x1 28 (by omega) _ _ q ch

theorem invB_31 (c : Dev nD) (arg2 : Memref sig .tc .vmem S1x64x64x128 .f32) (harg2 : arg2.IsWhole) (x1 : Vec Ideal S1x64x64x128 .f32) :
    SlabInv (imgOf x1) (kernelRun1_A.sl.HS1_31 (F := Ideal) c arg2 harg2 x1) 30 := by
  unfold kernelRun1_A.sl.HS1_31
  refine slab_step _ _ 29 (by omega) _ rfl _ _ (fun q ch => ?_) (invB_30 c arg2 harg2 x1)
  sl_unfold_run_names
  simp only [k1_pay152, k1_pay153, k1_pay154, k1_pay155, k1_pay156, shapeCast_self, View.readAt_eq_ld, harg2.read_unread]
  exact row_apply x1 29 (by omega) _ _ q ch

theorem invB_32 (c : Dev nD) (arg2 : Memref sig .tc .vmem S1x64x64x128 .f32) (harg2 : arg2.IsWhole) (x1 : Vec Ideal S1x64x64x128 .f32) :
    SlabInv (imgOf x1) (kernelRun1_A.sl.HS1_32 (F := Ideal) c arg2 harg2 x1) 31 := by
  unfold kernelRun1_A.sl.HS1_32
  refine slab_step _ _ 30 (by omega) _ rfl _ _ (fun q ch => ?_) (invB_31 c arg2 harg2 x1)
  sl_unfold_run_names
  simp only [k1_pay152, k1_pay153, k1_pay154, k1_pay155, k1_pay156, shapeCast_self, View.readAt_eq_ld, harg2.read_unread]
  exact row_apply x1 30 (by omega) _ _ q ch

theorem invB_33 (c : Dev nD) (arg2 : Memref sig .tc .vmem S1x64x64x128 .f32) (harg2 : arg2.IsWhole) (x1 : Vec Ideal S1x64x64x128 .f32) :
    SlabInv (imgOf x1) (kernelRun1_A.sl.HS1_33 (F := Ideal) c arg2 harg2 x1) 32 := by
  unfold kernelRun1_A.sl.HS1_33
  refine slab_step _ _ 31 (by omega) _ rfl _ _ (fun q ch => ?_) (invB_32 c arg2 harg2 x1)
  sl_unfold_run_names
  simp only [k1_pay152, k1_pay153, k1_pay154, k1_pay155, k1_pay156, shapeCast_self, View.readAt_eq_ld, harg2.read_unread]
  exact row_apply x1 31 (by omega) _ _ q ch

theorem invB_34 (c : Dev nD) (arg2 : Memref sig .tc .vmem S1x64x64x128 .f32) (harg2 : arg2.IsWhole) (x1 : Vec Ideal S1x64x64x128 .f32) :
    SlabInv (imgOf x1) (kernelRun1_A.sl.HS1_34 (F := Ideal) c arg2 harg2 x1) 33 := by
  unfold kernelRun1_A.sl.HS1_34
  refine slab_step _ _ 32 (by omega) _ rfl _ _ (fun q ch => ?_) (invB_33 c arg2 harg2 x1)
  sl_unfold_run_names
  simp only [k1_pay152, k1_pay153, k1_pay154, k1_pay155, k1_pay156, shapeCast_self, View.readAt_eq_ld, harg2.read_unread]
  exact row_apply x1 32 (by omega) _ _ q ch

theorem invB_35 (c : Dev nD) (arg2 : Memref sig .tc .vmem S1x64x64x128 .f32) (harg2 : arg2.IsWhole) (x1 : Vec Ideal S1x64x64x128 .f32) :
    SlabInv (imgOf x1) (kernelRun1_A.sl.HS1_35 (F := Ideal) c arg2 harg2 x1) 34 := by
  unfold kernelRun1_A.sl.HS1_35
  refine slab_step _ _ 33 (by omega) _ rfl _ _ (fun q ch => ?_) (invB_34 c arg2 harg2 x1)
  sl_unfold_run_names
  simp only [k1_pay152, k1_pay153, k1_pay154, k1_pay155, k1_pay156, shapeCast_self, View.readAt_eq_ld, harg2.read_unread]
  exact row_apply x1 33 (by omega) _ _ q ch

theorem invB_36 (c : Dev nD) (arg2 : Memref sig .tc .vmem S1x64x64x128 .f32) (harg2 : arg2.IsWhole) (x1 : Vec Ideal S1x64x64x128 .f32) :
    SlabInv (imgOf x1) (kernelRun1_A.sl.HS1_36 (F := Ideal) c arg2 harg2 x1) 35 := by
  unfold kernelRun1_A.sl.HS1_36
  refine slab_step _ _ 34 (by omega) _ rfl _ _ (fun q ch => ?_) (invB_35 c arg2 harg2 x1)
  sl_unfold_run_names
  simp only [k1_pay152, k1_pay153, k1_pay154, k1_pay155, k1_pay156, shapeCast_self, View.readAt_eq_ld, harg2.read_unread]
  exact row_apply x1 34 (by omega) _ _ q ch

theorem invB_37 (c : Dev nD) (arg2 : Memref sig .tc .vmem S1x64x64x128 .f32) (harg2 : arg2.IsWhole) (x1 : Vec Ideal S1x64x64x128 .f32) :
    SlabInv (imgOf x1) (kernelRun1_A.sl.HS1_37 (F := Ideal) c arg2 harg2 x1) 36 := by
  unfold kernelRun1_A.sl.HS1_37
  refine slab_step _ _ 35 (by omega) _ rfl _ _ (fun q ch => ?_) (invB_36 c arg2 harg2 x1)
  sl_unfold_run_names
  simp only [k1_pay152, k1_pay153, k1_pay154, k1_pay155, k1_pay156, shapeCast_self, View.readAt_eq_ld, harg2.read_unread]
  exact row_apply x1 35 (by omega) _ _ q ch

theorem invB_38 (c : Dev nD) (arg2 : Memref sig .tc .vmem S1x64x64x128 .f32) (harg2 : arg2.IsWhole) (x1 : Vec Ideal S1x64x64x128 .f32) :
    SlabInv (imgOf x1) (kernelRun1_A.sl.HS1_38 (F := Ideal) c arg2 harg2 x1) 37 := by
  unfold kernelRun1_A.sl.HS1_38
  refine slab_step _ _ 36 (by omega) _ rfl _ _ (fun q ch => ?_) (invB_37 c arg2 harg2 x1)
  sl_unfold_run_names
  simp only [k1_pay152, k1_pay153, k1_pay154, k1_pay155, k1_pay156, shapeCast_self, View.readAt_eq_ld, harg2.read_unread]
  exact row_apply x1 36 (by omega) _ _ q ch

theorem invB_39 (c : Dev nD) (arg2 : Memref sig .tc .vmem S1x64x64x128 .f32) (harg2 : arg2.IsWhole) (x1 : Vec Ideal S1x64x64x128 .f32) :
    SlabInv (imgOf x1) (kernelRun1_A.sl.HS1_39 (F := Ideal) c arg2 harg2 x1) 38 := by
  unfold kernelRun1_A.sl.HS1_39
  refine slab_step _ _ 37 (by omega) _ rfl _ _ (fun q ch => ?_) (invB_38 c arg2 harg2 x1)
  sl_unfold_run_names
  simp only [k1_pay152, k1_pay153, k1_pay154, k1_pay155, k1_pay156, shapeCast_self, View.readAt_eq_ld, harg2.read_unread]
  exact row_apply x1 37 (by omega) _ _ q ch

theorem invB_40 (c : Dev nD) (arg2 : Memref sig .tc .vmem S1x64x64x128 .f32) (harg2 : arg2.IsWhole) (x1 : Vec Ideal S1x64x64x128 .f32) :
    SlabInv (imgOf x1) (kernelRun1_A.sl.HS1_40 (F := Ideal) c arg2 harg2 x1) 39 := by
  unfold kernelRun1_A.sl.HS1_40
  refine slab_step _ _ 38 (by omega) _ rfl _ _ (fun q ch => ?_) (invB_39 c arg2 harg2 x1)
  sl_unfold_run_names
  simp only [k1_pay152, k1_pay153, k1_pay154, k1_pay155, k1_pay156, shapeCast_self, View.readAt_eq_ld, harg2.read_unread]
  exact row_apply x1 38 (by omega) _ _ q ch

theorem invB_41 (c : Dev nD) (arg2 : Memref sig .tc .vmem S1x64x64x128 .f32) (harg2 : arg2.IsWhole) (x1 : Vec Ideal S1x64x64x128 .f32) :
    SlabInv (imgOf x1) (kernelRun1_A.sl.HS1_41 (F := Ideal) c arg2 harg2 x1) 40 := by
  unfold kernelRun1_A.sl.HS1_41
  refine slab_step _ _ 39 (by omega) _ rfl _ _ (fun q ch => ?_) (invB_40 c arg2 harg2 x1)
  sl_unfold_run_names
  simp only [k1_pay152, k1_pay153, k1_pay154, k1_pay155, k1_pay156, shapeCast_self, View.readAt_eq_ld, harg2.read_unread]
  exact row_apply x1 39 (by omega) _ _ q ch

theorem invB_42 (c : Dev nD) (arg2 : Memref sig .tc .vmem S1x64x64x128 .f32) (harg2 : arg2.IsWhole) (x1 : Vec Ideal S1x64x64x128 .f32) :
    SlabInv (imgOf x1) (kernelRun1_A.sl.HS1_42 (F := Ideal) c arg2 harg2 x1) 41 := by
  unfold kernelRun1_A.sl.HS1_42
  refine slab_step _ _ 40 (by omega) _ rfl _ _ (fun q ch => ?_) (invB_41 c arg2 harg2 x1)
  sl_unfold_run_names
  simp only [k1_pay152, k1_pay153, k1_pay154, k1_pay155, k1_pay156, shapeCast_self, View.readAt_eq_ld, harg2.read_unread]
  exact row_apply x1 40 (by omega) _ _ q ch

theorem invB_43 (c : Dev nD) (arg2 : Memref sig .tc .vmem S1x64x64x128 .f32) (harg2 : arg2.IsWhole) (x1 : Vec Ideal S1x64x64x128 .f32) :
    SlabInv (imgOf x1) (kernelRun1_A.sl.HS1_43 (F := Ideal) c arg2 harg2 x1) 42 := by
  unfold kernelRun1_A.sl.HS1_43
  refine slab_step _ _ 41 (by omega) _ rfl _ _ (fun q ch => ?_) (invB_42 c arg2 harg2 x1)
  sl_unfold_run_names
  simp only [k1_pay152, k1_pay153, k1_pay154, k1_pay155, k1_pay156, shapeCast_self, View.readAt_eq_ld, harg2.read_unread]
  exact row_apply x1 41 (by omega) _ _ q ch

theorem invB_44 (c : Dev nD) (arg2 : Memref sig .tc .vmem S1x64x64x128 .f32) (harg2 : arg2.IsWhole) (x1 : Vec Ideal S1x64x64x128 .f32) :
    SlabInv (imgOf x1) (kernelRun1_A.sl.HS1_44 (F := Ideal) c arg2 harg2 x1) 43 := by
  unfold kernelRun1_A.sl.HS1_44
  refine slab_step _ _ 42 (by omega) _ rfl _ _ (fun q ch => ?_) (invB_43 c arg2 harg2 x1)
  sl_unfold_run_names
  simp only [k1_pay152, k1_pay153, k1_pay154, k1_pay155, k1_pay156, shapeCast_self, View.readAt_eq_ld, harg2.read_unread]
  exact row_apply x1 42 (by omega) _ _ q ch

theorem invB_45 (c : Dev nD) (arg2 : Memref sig .tc .vmem S1x64x64x128 .f32) (harg2 : arg2.IsWhole) (x1 : Vec Ideal S1x64x64x128 .f32) :
    SlabInv (imgOf x1) (kernelRun1_A.sl.HS1_45 (F := Ideal) c arg2 harg2 x1) 44 := by
  unfold kernelRun1_A.sl.HS1_45
  refine slab_step _ _ 43 (by omega) _ rfl _ _ (fun q ch => ?_) (invB_44 c arg2 harg2 x1)
  sl_unfold_run_names
  simp only [k1_pay152, k1_pay153, k1_pay154, k1_pay155, k1_pay156, shapeCast_self, View.readAt_eq_ld, harg2.read_unread]
  exact row_apply x1 43 (by omega) _ _ q ch

theorem invB_46 (c : Dev nD) (arg2 : Memref sig .tc .vmem S1x64x64x128 .f32) (harg2 : arg2.IsWhole) (x1 : Vec Ideal S1x64x64x128 .f32) :
    SlabInv (imgOf x1) (kernelRun1_A.sl.HS1_46 (F := Ideal) c arg2 harg2 x1) 45 := by
  unfold kernelRun1_A.sl.HS1_46
  refine slab_step _ _ 44 (by omega) _ rfl _ _ (fun q ch => ?_) (invB_45 c arg2 harg2 x1)
  sl_unfold_run_names
  simp only [k1_pay152, k1_pay153, k1_pay154, k1_pay155, k1_pay156, shapeCast_self, View.readAt_eq_ld, harg2.read_unread]
  exact row_apply x1 44 (by omega) _ _ q ch

theorem invB_47 (c : Dev nD) (arg2 : Memref sig .tc .vmem S1x64x64x128 .f32) (harg2 : arg2.IsWhole) (x1 : Vec Ideal S1x64x64x128 .f32) :
    SlabInv (imgOf x1) (kernelRun1_A.sl.HS1_47 (F := Ideal) c arg2 harg2 x1) 46 := by
  unfold kernelRun1_A.sl.HS1_47
  refine slab_step _ _ 45 (by omega) _ rfl _ _ (fun q ch => ?_) (invB_46 c arg2 harg2 x1)
  sl_unfold_run_names
  simp only [k1_pay152, k1_pay153, k1_pay154, k1_pay155, k1_pay156, shapeCast_self, View.readAt_eq_ld, harg2.read_unread]
  exact row_apply x1 45 (by omega) _ _ q ch

theorem invB_48 (c : Dev nD) (arg2 : Memref sig .tc .vmem S1x64x64x128 .f32) (harg2 : arg2.IsWhole) (x1 : Vec Ideal S1x64x64x128 .f32) :
    SlabInv (imgOf x1) (kernelRun1_A.sl.HS1_48 (F := Ideal) c arg2 harg2 x1) 47 := by
  unfold kernelRun1_A.sl.HS1_48
  refine slab_step _ _ 46 (by omega) _ rfl _ _ (fun q ch => ?_) (invB_47 c arg2 harg2 x1)
  sl_unfold_run_names
  simp only [k1_pay152, k1_pay153, k1_pay154, k1_pay155, k1_pay156, shapeCast_self, View.readAt_eq_ld, harg2.read_unread]
  exact row_apply x1 46 (by omega) _ _ q ch

theorem invB_49 (c : Dev nD) (arg2 : Memref sig .tc .vmem S1x64x64x128 .f32) (harg2 : arg2.IsWhole) (x1 : Vec Ideal S1x64x64x128 .f32) :
    SlabInv (imgOf x1) (kernelRun1_A.sl.HS1_49 (F := Ideal) c arg2 harg2 x1) 48 := by
  unfold kernelRun1_A.sl.HS1_49
  refine slab_step _ _ 47 (by omega) _ rfl _ _ (fun q ch => ?_) (invB_48 c arg2 harg2 x1)
  sl_unfold_run_names
  simp only [k1_pay152, k1_pay153, k1_pay154, k1_pay155, k1_pay156, shapeCast_self, View.readAt_eq_ld, harg2.read_unread]
  exact row_apply x1 47 (by omega) _ _ q ch

theorem invB_50 (c : Dev nD) (arg2 : Memref sig .tc .vmem S1x64x64x128 .f32) (harg2 : arg2.IsWhole) (x1 : Vec Ideal S1x64x64x128 .f32) :
    SlabInv (imgOf x1) (kernelRun1_A.sl.HS1_50 (F := Ideal) c arg2 harg2 x1) 49 := by
  unfold kernelRun1_A.sl.HS1_50
  refine slab_step _ _ 48 (by omega) _ rfl _ _ (fun q ch => ?_) (invB_49 c arg2 harg2 x1)
  sl_unfold_run_names
  simp only [k1_pay152, k1_pay153, k1_pay154, k1_pay155, k1_pay156, shapeCast_self, View.readAt_eq_ld, harg2.read_unread]
  exact row_apply x1 48 (by omega) _ _ q ch

theorem invB_51 (c : Dev nD) (arg2 : Memref sig .tc .vmem S1x64x64x128 .f32) (harg2 : arg2.IsWhole) (x1 : Vec Ideal S1x64x64x128 .f32) :
    SlabInv (imgOf x1) (kernelRun1_A.sl.HS1_51 (F := Ideal) c arg2 harg2 x1) 50 := by
  unfold kernelRun1_A.sl.HS1_51
  refine slab_step _ _ 49 (by omega) _ rfl _ _ (fun q ch => ?_) (invB_50 c arg2 harg2 x1)
  sl_unfold_run_names
  simp only [k1_pay152, k1_pay153, k1_pay154, k1_pay155, k1_pay156, shapeCast_self, View.readAt_eq_ld, harg2.read_unread]
  exact row_apply x1 49 (by omega) _ _ q ch

theorem invB_52 (c : Dev nD) (arg2 : Memref sig .tc .vmem S1x64x64x128 .f32) (harg2 : arg2.IsWhole) (x1 : Vec Ideal S1x64x64x128 .f32) :
    SlabInv (imgOf x1) (kernelRun1_A.sl.HS1_52 (F := Ideal) c arg2 harg2 x1) 51 := by
  unfold kernelRun1_A.sl.HS1_52
  refine slab_step _ _ 50 (by omega) _ rfl _ _ (fun q ch => ?_) (invB_51 c arg2 harg2 x1)
  sl_unfold_run_names
  simp only [k1_pay152, k1_pay153, k1_pay154, k1_pay155, k1_pay156, shapeCast_self, View.readAt_eq_ld, harg2.read_unread]
  exact row_apply x1 50 (by omega) _ _ q ch

theorem invB_53 (c : Dev nD) (arg2 : Memref sig .tc .vmem S1x64x64x128 .f32) (harg2 : arg2.IsWhole) (x1 : Vec Ideal S1x64x64x128 .f32) :
    SlabInv (imgOf x1) (kernelRun1_A.sl.HS1_53 (F := Ideal) c arg2 harg2 x1) 52 := by
  unfold kernelRun1_A.sl.HS1_53
  refine slab_step _ _ 51 (by omega) _ rfl _ _ (fun q ch => ?_) (invB_52 c arg2 harg2 x1)
  sl_unfold_run_names
  simp only [k1_pay152, k1_pay153, k1_pay154, k1_pay155, k1_pay156, shapeCast_self, View.readAt_eq_ld, harg2.read_unread]
  exact row_apply x1 51 (by omega) _ _ q ch

theorem invB_54 (c : Dev nD) (arg2 : Memref sig .tc .vmem S1x64x64x128 .f32) (harg2 : arg2.IsWhole) (x1 : Vec Ideal S1x64x64x128 .f32) :
    SlabInv (imgOf x1) (kernelRun1_A.sl.HS1_54 (F := Ideal) c arg2 harg2 x1) 53 := by
  unfold kernelRun1_A.sl.HS1_54
  refine slab_step _ _ 52 (by omega) _ rfl _ _ (fun q ch => ?_) (invB_53 c arg2 harg2 x1)
  sl_unfold_run_names
  simp only [k1_pay152, k1_pay153, k1_pay154, k1_pay155, k1_pay156, shapeCast_self, View.readAt_eq_ld, harg2.read_unread]
  exact row_apply x1 52 (by omega) _ _ q ch

theorem invB_55 (c : Dev nD) (arg2 : Memref sig .tc .vmem S1x64x64x128 .f32) (harg2 : arg2.IsWhole) (x1 : Vec Ideal S1x64x64x128 .f32) :
    SlabInv (imgOf x1) (kernelRun1_A.sl.HS1_55 (F := Ideal) c arg2 harg2 x1) 54 := by
  unfold kernelRun1_A.sl.HS1_55
  refine slab_step _ _ 53 (by omega) _ rfl _ _ (fun q ch => ?_) (invB_54 c arg2 harg2 x1)
  sl_unfold_run_names
  simp only [k1_pay152, k1_pay153, k1_pay154, k1_pay155, k1_pay156, shapeCast_self, View.readAt_eq_ld, harg2.read_unread]
  exact row_apply x1 53 (by omega) _ _ q ch

theorem invB_56 (c : Dev nD) (arg2 : Memref sig .tc .vmem S1x64x64x128 .f32) (harg2 : arg2.IsWhole) (x1 : Vec Ideal S1x64x64x128 .f32) :
    SlabInv (imgOf x1) (kernelRun1_A.sl.HS1_56 (F := Ideal) c arg2 harg2 x1) 55 := by
  unfold kernelRun1_A.sl.HS1_56
  refine slab_step _ _ 54 (by omega) _ rfl _ _ (fun q ch => ?_) (invB_55 c arg2 harg2 x1)
  sl_unfold_run_names
  simp only [k1_pay152, k1_pay153, k1_pay154, k1_pay155, k1_pay156, shapeCast_self, View.readAt_eq_ld, harg2.read_unread]
  exact row_apply x1 54 (by omega) _ _ q ch

theorem invB_57 (c : Dev nD) (arg2 : Memref sig .tc .vmem S1x64x64x128 .f32) (harg2 : arg2.IsWhole) (x1 : Vec Ideal S1x64x64x128 .f32) :
    SlabInv (imgOf x1) (kernelRun1_A.sl.HS1_57 (F := Ideal) c arg2 harg2 x1) 56 := by
  unfold kernelRun1_A.sl.HS1_57
  refine slab_step _ _ 55 (by omega) _ rfl _ _ (fun q ch => ?_) (invB_56 c arg2 harg2 x1)
  sl_unfold_run_names
  simp only [k1_pay152, k1_pay153, k1_pay154, k1_pay155, k1_pay156, shapeCast_self, View.readAt_eq_ld, harg2.read_unread]
  exact row_apply x1 55 (by omega) _ _ q ch

theorem invB_58 (c : Dev nD) (arg2 : Memref sig .tc .vmem S1x64x64x128 .f32) (harg2 : arg2.IsWhole) (x1 : Vec Ideal S1x64x64x128 .f32) :
    SlabInv (imgOf x1) (kernelRun1_A.sl.HS1_58 (F := Ideal) c arg2 harg2 x1) 57 := by
  unfold kernelRun1_A.sl.HS1_58
  refine slab_step _ _ 56 (by omega) _ rfl _ _ (fun q ch => ?_) (invB_57 c arg2 harg2 x1)
  sl_unfold_run_names
  simp only [k1_pay152, k1_pay153, k1_pay154, k1_pay155, k1_pay156, shapeCast_self, View.readAt_eq_ld, harg2.read_unread]
  exact row_apply x1 56 (by omega) _ _ q ch

theorem invB_59 (c : Dev nD) (arg2 : Memref sig .tc .vmem S1x64x64x128 .f32) (harg2 : arg2.IsWhole) (x1 : Vec Ideal S1x64x64x128 .f32) :
    SlabInv (imgOf x1) (kernelRun1_A.sl.HS1_59 (F := Ideal) c arg2 harg2 x1) 58 := by
  unfold kernelRun1_A.sl.HS1_59
  refine slab_step _ _ 57 (by omega) _ rfl _ _ (fun q ch => ?_) (invB_58 c arg2 harg2 x1)
  sl_unfold_run_names
  simp only [k1_pay152, k1_pay153, k1_pay154, k1_pay155, k1_pay156, shapeCast_self, View.readAt_eq_ld, harg2.read_unread]
  exact row_apply x1 57 (by omega) _ _ q ch

theorem invB_65 (c : Dev nD) (arg2 : Memref sig .tc .vmem S1x64x64x128 .f32) (harg2 : arg2.IsWhole) (x1 : Vec Ideal S1x64x64x128 .f32) :
    SlabInv (imgOf x1) (kernelRun1_A.sl.HS1_65 (F := Ideal) c arg2 harg2 x1) 64 := by
  unfold kernelRun1_A.sl.HS1_65
  refine slab_step _ _ 63 (by omega) _ rfl _ _ (fun q ch => ?_) (slab_step _ _ 62 (by omega) _ rfl _ _ (fun q ch => ?_) (slab_step _ _ 61 (by omega) _ rfl _ _ (fun q ch => ?_) (slab_step _ _ 60 (by omega) _ rfl _ _ (fun q ch => ?_) (slab_step _ _ 59 (by omega) _ rfl _ _ (fun q ch => ?_) (slab_step _ _ 58 (by omega) _ rfl _ _ (fun q ch => ?_) (invB_59 c arg2 harg2 x1))))))
  · sl_unfold_run_names
    simp only [k1_pay152, k1_pay153, k1_pay154, k1_pay155, k1_pay156, shapeCast_self, View.readAt_eq_ld, harg2.read_unread]
    exact row_apply x1 63 (by omega) _ _ q ch
  · sl_unfold_run_names
    simp only [k1_pay152, k1_pay153, k1_pay154, k1_pay155, k1_pay156, shapeCast_self, View.readAt_eq_ld, harg2.read_unread]
    exact row_apply x1 62 (by omega) _ _ q ch
  · sl_unfold_run_names
    simp only [k1_pay152, k1_pay153, k1_pay154, k1_pay155, k1_pay156, shapeCast_self, View.readAt_eq_ld, harg2.read_unread]
    exact row_apply x1 61 (by omega) _ _ q ch
  · sl_unfold_run_names
    simp only [k1_pay152, k1_pay153, k1_pay154, k1_pay155, k1_pay156, shapeCast_self, View.readAt_eq_ld, harg2.read_unread]
    exact row_apply x1 60 (by omega) _ _ q ch
  · sl_unfold_run_names
    simp only [k1_pay152, k1_pay153, k1_pay154, k1_pay155, k1_pay156, shapeCast_self, View.readAt_eq_ld, harg2.read_unread]
    exact row_apply x1 59 (by omega) _ _ q ch
  · sl_unfold_run_names
    simp only [k1_pay152, k1_pay153, k1_pay154, k1_pay155, k1_pay156, shapeCast_self, View.readAt_eq_ld, harg2.read_unread]
    exact row_apply x1 58 (by omega) _ _ q ch

end Cert.ReferenceIdeal.Hand

end
-- ==== Proof.RHSlab.lean ====
/-
  The hidden slab of the reference's second region, read back as a function.

  The body writes the [4624,128] hidden slab with three stores: zeros into rows 0 … 135, zeros into rows 4488 … 4623, and
  into the band rows 136 … 4487 the first convolution's values, max with 0, times the column mask. What the three stores
  leave reads, at row p and channel cm, as `Conv.hslab g p cm`: 0 outside the band, `max (g (p - 136) cm) 0 * mask (p - 136)`
  inside it. A load of 4352 rows from row `off` of that slab reads `hslab g (off + j) cm` at its row j.
-/
import proofs.«126750_g2000606872001322_pallasbulk_142_34_alg».proof.Proof.RSlab

set_option maxRecDepth 16384

noncomputable section

open Idealize.ShloMosaic Idealize.ShloMosaic.TcCoe Idealize.SL.Sem
open Idealize.ShloMosaic.ValueIdx

namespace Cert.ReferenceIdeal.Hand

open Cert.ReferenceIdeal Cert.ReferenceIdeal.Gen
open Cert.ReferenceIdeal.Conv (slab mask hslab conv1 conv2)

/-- What a list of stores into the [4624,128] hidden slab reads back as: the hidden slab of the band values `g`. -/
def HInv (g : ℕ → Fin 128 → EReal) (L : List (View.Piece (Elt Ideal) S4624x128 .f32)) : Prop :=
  ∀ (p : Fin 4624) (cm : Fin 128), View.canon L (ix2 p cm) = hslab g p.val cm

/-- A store of `r` whole rows from row `off`, listed first, read at a row it covers: its payload at the row's offset. -/
theorem canon_cons_rows_mem (off r : ℕ) (inb) (w : (⟨2, ![r, 128]⟩ : Shape).Idx → EReal)
    (L : List (View.Piece (Elt Ideal) S4624x128 .f32)) (p : Fin 4624) (cm : Fin 128)
    (h1 : off ≤ p.val) (h2 : p.val < off + r) :
    View.canon ((⟨Rect.unit (s := S4624x128) ![off, 0] (⟨2, ![r, 128]⟩ : Shape).size inb, w⟩ :
        View.Piece (Elt Ideal) S4624x128 .f32) :: L) (ix2 p cm)
      = w (ix2 ⟨p.val - off, by omega⟩ cm) := by
  have he : ix2 p cm = (Rect.unit (s := S4624x128) ![off, 0] (⟨2, ![r, 128]⟩ : Shape).size inb).emb
      (ix2 ⟨p.val - off, by omega⟩ cm) := by
    funext a
    match a with
    | ⟨0, _⟩ => exact Fin.ext (by show p.val = off + 1 * (p.val - off); omega)
    | ⟨1, _⟩ => exact Fin.ext (by show cm.val = 0 + 1 * cm.val; omega)
  rw [he, View.canon_cons_emb]

/-- The same store read at a row it does not cover: what the earlier stores left. -/
theorem canon_cons_rows_not_mem (off r : ℕ) (inb) (w : (⟨2, ![r, 128]⟩ : Shape).Idx → EReal)
    (L : List (View.Piece (Elt Ideal) S4624x128 .f32)) (p : Fin 4624) (cm : Fin 128)
    (h : ¬ (off ≤ p.val ∧ p.val < off + r)) :
    View.canon ((⟨Rect.unit (s := S4624x128) ![off, 0] (⟨2, ![r, 128]⟩ : Shape).size inb, w⟩ :
        View.Piece (Elt Ideal) S4624x128 .f32) :: L) (ix2 p cm)
      = View.canon L (ix2 p cm) := by
  have hn : ix2 p cm ∉ (Rect.unit (s := S4624x128) ![off, 0] (⟨2, ![r, 128]⟩ : Shape).size inb).set := by
    rw [Rect.mem_set_unit]
    intro hall
    have h0 := hall 0
    exact h ⟨h0.1, h0.2⟩
  exact View.canon_cons_of_not_mem
    (⟨Rect.unit (s := S4624x128) ![off, 0] (⟨2, ![r, 128]⟩ : Shape).size inb, w⟩ : View.Piece (Elt Ideal) S4624x128 .f32) L hn

/-- The three stores — the band last, before it the zeros of rows 4488 … 4623, first the zeros of rows 0 … 135 — leave
    the hidden slab: a row of the band reads the band store, a row above or below it one of the two zero stores. -/
theorem hslab_canon (g : ℕ → Fin 128 → EReal) (inb1) (inb2) (inb3)
    (w : S4352x128.Idx → EReal) (z1 z0 : S136x128.Idx → EReal)
    (hw : ∀ (j : Fin 4352) (cm : Fin 128), w (ix2 j cm) = max (g j.val cm) 0 * mask j.val)
    (h1 : ∀ i, z1 i = 0) (h0 : ∀ i, z0 i = 0) :
    HInv g [(⟨Rect.unit (s := S4624x128) ![136, 0] S4352x128.size inb1, w⟩ : View.Piece (Elt Ideal) S4624x128 .f32),
      ⟨Rect.unit (s := S4624x128) ![4488, 0] S136x128.size inb2, z1⟩,
      ⟨Rect.unit (s := S4624x128) ![0, 0] S136x128.size inb3, z0⟩] := by
  intro p cm
  have hp : p.val < 4624 := p.isLt
  unfold hslab
  by_cases hb : 136 ≤ p.val ∧ p.val < 4488
  · rw [if_pos hb]
    refine (canon_cons_rows_mem 136 4352 inb1 w _ p cm hb.1 (by omega)).trans ?_
    exact hw _ cm
  · rw [if_neg hb]
    refine (canon_cons_rows_not_mem 136 4352 inb1 w _ p cm (by omega)).trans ?_
    by_cases ht : 4488 ≤ p.val
    · refine (canon_cons_rows_mem 4488 136 inb2 z1 _ p cm ht (by omega)).trans ?_
      exact h1 _
    · refine (canon_cons_rows_not_mem 4488 136 inb2 z1 _ p cm (by omega)).trans ?_
      refine (canon_cons_rows_mem 0 136 inb3 z0 _ p cm (by omega) (by omega)).trans ?_
      exact h0 _

/-- A load of 4352 rows from row `off` of the hidden slab. -/
theorem hslab_read (g : ℕ → Fin 128 → EReal) (L : List (View.Piece (Elt Ideal) S4624x128 .f32)) (hL : HInv g L)
    (M : Memref sig .tc .vmem S4624x128 .f32) (off : ℕ) (inb) (hoff : off + 4352 ≤ 4624) (j : Fin 4352) (cm : Fin 128) :
    M.view.readCov L (Rect.unit (s := S4624x128) ![off, 0] S4352x128.size inb).toLoadRect (ix2 j cm)
      = hslab g (off + j.val) cm := by
  rw [View.readCov_eq_canon']
  have he : (Rect.unit (s := S4624x128) ![off, 0] S4352x128.size inb).toLoadRect.idx (ix2 j cm)
      = ix2 ⟨off + j.val, by omega⟩ cm := by
    funext a
    match a with
    | ⟨0, _⟩ => exact Fin.ext (by show off + 1 * j.val = off + j.val; omega)
    | ⟨1, _⟩ => exact Fin.ext (by show 0 + 1 * cm.val = cm.val; omega)
  show View.canon L ((Rect.unit (s := S4624x128) ![off, 0] S4352x128.size inb).toLoadRect.idx (ix2 j cm)) = _
  rw [he, hL]

end Cert.ReferenceIdeal.Hand

end
-- ==== Proof.RFlatSpec.lean ====
/-
  The flat form over the region's blocks, and Spec's `outC` over the same blocks.

  With the two image slabs built from the [1,64,64,128] blocks (row, column, channel), the per-tap weights from the
  [9,128,128] blocks (tap, input channel, output channel) and the biases from the [1,128] blocks, the two convolutions
  over the flat slabs are Spec's `outC` of the 256-channel image and the folded weights those blocks are the halves of.
-/
import proofs.«126750_g2000606872001322_pallasbulk_142_34_alg».proof.Proof.RConv
import Idealize.ShloMosaic.Lib.ValueIdx

noncomputable section

namespace Cert.ReferenceIdeal.Conv

open Idealize.ShloMosaic Idealize.ShloMosaic.ValueIdx

/-- Both convolutions over the flat slabs of the blocks `x0`, `x1` (images), `x3`, `x4`, `x6` (per-tap weights), `x5`, `x7`
    (biases), read at band row y*68 + x + 2, are Spec's `outC` at pixel (y, x). -/
theorem flat_to_spec (x0 x1 : (⟨4, ![1, 64, 64, 128]⟩ : Shape).Idx → EReal)
    (x3 x4 x6 : (⟨3, ![9, 128, 128]⟩ : Shape).Idx → EReal) (x5 x7 : (⟨2, ![1, 128]⟩ : Shape).Idx → EReal)
    (co : Fin 128) (y x : Fin 64) :
    conv2 (fun k cm co' => x6 (ix3 k cm co')) (fun co' => x7 (ix2 0 co'))
        (hslab (conv1 (fun k ci cm => x3 (ix3 k ci cm)) (fun k ci cm => x4 (ix3 k ci cm)) (fun cm => x5 (ix2 0 cm))
          (slab (fun r q ch => x0 (ix4 0 r q ch))) (slab (fun r q ch => x1 (ix4 0 r q ch)))))
        (y.val * 68 + x.val + 2) co
      = Cert.Spec.outC (fun cm ch dh dw => if h : ch.val < 128 then x3 (ix3 ⟨dh.val * 3 + dw.val, by omega⟩ ⟨ch.val, h⟩ cm) else x4 (ix3 ⟨dh.val * 3 + dw.val, by omega⟩ ⟨ch.val - 128, by omega⟩ cm))
          (fun cm => x5 (ix2 0 cm)) (fun co' cm dh dw => x6 (ix3 ⟨dh.val * 3 + dw.val, by omega⟩ cm co')) (fun co' => x7 (ix2 0 co'))
          (fun ch r q => if h : ch.val < 128 then x0 (ix4 0 r q ⟨ch.val, h⟩) else x1 (ix4 0 r q ⟨ch.val - 128, by omega⟩)) co y x :=
  flat_eq_outC (fun r q ch => x0 (ix4 0 r q ch)) (fun r q ch => x1 (ix4 0 r q ch))
    (fun k ci cm => x3 (ix3 k ci cm)) (fun k ci cm => x4 (ix3 k ci cm)) (fun k cm co' => x6 (ix3 k cm co'))
    (fun cm => x5 (ix2 0 cm)) (fun co' => x7 (ix2 0 co')) co y x

end Cert.ReferenceIdeal.Conv

end
-- ==== Proof.RBody.lean ====
/-
  The body of the reference's second region as a value.

  The body works on three flat [4624,128] slabs of row pitch 68. Two of them hold the 64×64, 128-channel skip block
  and upsampled block, each with a ring of zeros two wide (image pixel (r, q) at slab row (r+2)·68 + (q+2): RSlab's
  `Conv.slab`). A 3×3 tap (dh, dw), numbered k = 3·dh + dw, of a convolution over such a slab is a shift of the rows
  by 67 + 68·dh + dw, so the first convolution's value at band row j and hidden channel cm is the bias plus, tap by
  tap, the two slabs' contractions over their 128 channels with that tap's [128,128] weights: the body adds these
  eighteen sums one after another onto 0 + b1, which is `Conv.conv1` (`Conv.conv1_unrolled`). The third slab then
  holds the hidden image: zero on its first and last 136 rows, max(·, 0) of those values times the column mask on
  the 4352 band rows (`Conv.hslab`, read back by RHSlab). The second convolution is the same nine shifts over
  that slab, added onto 0 + b2, and a last max(·, 0): `Conv.conv2`. Read at band row y·68 + x + 2 this is Spec's
  `outC` of the concatenated blocks at pixel (y, x) (RFlatSpec).
-/
import proofs.«126750_g2000606872001322_pallasbulk_142_34_alg».proof.Proof.Gen.ReferenceIdeal.Frame
import proofs.«126750_g2000606872001322_pallasbulk_142_34_alg».proof.Proof.Spec
import proofs.«126750_g2000606872001322_pallasbulk_142_34_alg».proof.Proof.RConv
import Idealize.ShloMosaic.Lib.Pipeline.Value
import Idealize.ShloMosaic.Lib.Tactic
import Idealize.ShloMosaic.PureOps.Ideal.Laws
import Idealize.ShloMosaic.Lib.ValueIdx
import proofs.«126750_g2000606872001322_pallasbulk_142_34_alg».proof.Proof.RSlab
import proofs.«126750_g2000606872001322_pallasbulk_142_34_alg».proof.Proof.RHSlab
import proofs.«126750_g2000606872001322_pallasbulk_142_34_alg».proof.Proof.RFlatSpec

set_option maxRecDepth 16384

noncomputable section

open Idealize.ShloMosaic Idealize.ShloMosaic.TcCoe Idealize.SL.Sem Idealize.ShloMosaic.Tactic
open Idealize.ShloMosaic.ValueIdx
open Idealize.ShloMosaic.Pipeline (Dat)

namespace Cert.ReferenceIdeal.Hand

open Cert.ReferenceIdeal Cert.ReferenceIdeal.Gen
open Cert.ReferenceIdeal.Conv (slab mask hslab conv1 conv2)

/-! ## Reads -/

theorem sob0 : Scalar.ofBits (F := Ideal) .f32 0x00000000#32 = (0 : EReal) := Ideal.ofBits_zero_f32

/-- A [1,128] row broadcast down the 4352 band rows reads its column. -/
theorem bias_apply (x : FVec Ideal S1x128 .f32) (hb) (j : Fin 4352) (cm : Fin 128) :
    broadcastTo S4352x128 x hb (ix2 j cm) = x (ix2 0 cm) := by
  refine broadcastTo_apply x hb (ix2 j cm) (ix2 0 cm) (fun a => ?_)
  match a with
  | ⟨0, _⟩ => rfl
  | ⟨1, _⟩ => rfl

/-- A [4352,1] column broadcast across the 128 channels reads its row. -/
theorem maskcol_apply (x : FVec Ideal S4352x1 .f32) (hb) (j : Fin 4352) (cm : Fin 128) :
    broadcastTo S4352x128 x hb (ix2 j cm) = x (ix2 j 0) := by
  refine broadcastTo_apply x hb (ix2 j cm) (ix2 j 0) (fun a => ?_)
  match a with
  | ⟨0, _⟩ => rfl
  | ⟨1, _⟩ => rfl

/-! ### The nine shifted reads of each image slab -/

theorem rdA67 (c : Dev nD) (arg1 : Memref sig .tc .vmem S1x64x64x128 .f32) (harg1 : arg1.IsWhole) (arg10 : Memref sig .tc .vmem S4624x128 .f32) (x0 : Vec Ideal S1x64x64x128 .f32) (j : Fin 4352) (ci : Fin 128) :
    kernelRun1_A.sl.v653 (F := Ideal) c arg1 harg1 arg10 x0 (ix2 j ci) = slab (imgOf x0) (67 + j.val) ci := by
  unfold kernelRun1_A.sl.v653
  exact slab_read _ _ (invA_65 c arg1 harg1 x0) arg10 67 _ (by omega) j ci

theorem rdB67 (c : Dev nD) (arg2 : Memref sig .tc .vmem S1x64x64x128 .f32) (harg2 : arg2.IsWhole) (arg11 : Memref sig .tc .vmem S4624x128 .f32) (x1 : Vec Ideal S1x64x64x128 .f32) (j : Fin 4352) (ci : Fin 128) :
    kernelRun1_A.sl.v658 (F := Ideal) c arg2 harg2 arg11 x1 (ix2 j ci) = slab (imgOf x1) (67 + j.val) ci := by
  unfold kernelRun1_A.sl.v658
  exact slab_read _ _ (invB_65 c arg2 harg2 x1) arg11 67 _ (by omega) j ci

theorem rdA68 (c : Dev nD) (arg1 : Memref sig .tc .vmem S1x64x64x128 .f32) (harg1 : arg1.IsWhole) (arg10 : Memref sig .tc .vmem S4624x128 .f32) (x0 : Vec Ideal S1x64x64x128 .f32) (j : Fin 4352) (ci : Fin 128) :
    kernelRun1_A.sl.v663 (F := Ideal) c arg1 harg1 arg10 x0 (ix2 j ci) = slab (imgOf x0) (68 + j.val) ci := by
  unfold kernelRun1_A.sl.v663
  exact slab_read _ _ (invA_65 c arg1 harg1 x0) arg10 68 _ (by omega) j ci

theorem rdB68 (c : Dev nD) (arg2 : Memref sig .tc .vmem S1x64x64x128 .f32) (harg2 : arg2.IsWhole) (arg11 : Memref sig .tc .vmem S4624x128 .f32) (x1 : Vec Ideal S1x64x64x128 .f32) (j : Fin 4352) (ci : Fin 128) :
    kernelRun1_A.sl.v668 (F := Ideal) c arg2 harg2 arg11 x1 (ix2 j ci) = slab (imgOf x1) (68 + j.val) ci := by
  unfold kernelRun1_A.sl.v668
  exact slab_read _ _ (invB_65 c arg2 harg2 x1) arg11 68 _ (by omega) j ci

theorem rdA69 (c : Dev nD) (arg1 : Memref sig .tc .vmem S1x64x64x128 .f32) (harg1 : arg1.IsWhole) (arg10 : Memref sig .tc .vmem S4624x128 .f32) (x0 : Vec Ideal S1x64x64x128 .f32) (j : Fin 4352) (ci : Fin 128) :
    kernelRun1_A.sl.v673 (F := Ideal) c arg1 harg1 arg10 x0 (ix2 j ci) = slab (imgOf x0) (69 + j.val) ci := by
  unfold kernelRun1_A.sl.v673
  exact slab_read _ _ (invA_65 c arg1 harg1 x0) arg10 69 _ (by omega) j ci

theorem rdB69 (c : Dev nD) (arg2 : Memref sig .tc .vmem S1x64x64x128 .f32) (harg2 : arg2.IsWhole) (arg11 : Memref sig .tc .vmem S4624x128 .f32) (x1 : Vec Ideal S1x64x64x128 .f32) (j : Fin 4352) (ci : Fin 128) :
    kernelRun1_A.sl.v678 (F := Ideal) c arg2 harg2 arg11 x1 (ix2 j ci) = slab (imgOf x1) (69 + j.val) ci := by
  unfold kernelRun1_A.sl.v678
  exact slab_read _ _ (invB_65 c arg2 harg2 x1) arg11 69 _ (by omega) j ci

theorem rdA135 (c : Dev nD) (arg1 : Memref sig .tc .vmem S1x64x64x128 .f32) (harg1 : arg1.IsWhole) (arg10 : Memref sig .tc .vmem S4624x128 .f32) (x0 : Vec Ideal S1x64x64x128 .f32) (j : Fin 4352) (ci : Fin 128) :
    kernelRun1_A.sl.v683 (F := Ideal) c arg1 harg1 arg10 x0 (ix2 j ci) = slab (imgOf x0) (135 + j.val) ci := by
  unfold kernelRun1_A.sl.v683
  exact slab_read _ _ (invA_65 c arg1 harg1 x0) arg10 135 _ (by omega) j ci

theorem rdB135 (c : Dev nD) (arg2 : Memref sig .tc .vmem S1x64x64x128 .f32) (harg2 : arg2.IsWhole) (arg11 : Memref sig .tc .vmem S4624x128 .f32) (x1 : Vec Ideal S1x64x64x128 .f32) (j : Fin 4352) (ci : Fin 128) :
    kernelRun1_A.sl.v688 (F := Ideal) c arg2 harg2 arg11 x1 (ix2 j ci) = slab (imgOf x1) (135 + j.val) ci := by
  unfold kernelRun1_A.sl.v688
  exact slab_read _ _ (invB_65 c arg2 harg2 x1) arg11 135 _ (by omega) j ci

theorem rdA136 (c : Dev nD) (arg1 : Memref sig .tc .vmem S1x64x64x128 .f32) (harg1 : arg1.IsWhole) (arg10 : Memref sig .tc .vmem S4624x128 .f32) (x0 : Vec Ideal S1x64x64x128 .f32) (j : Fin 4352) (ci : Fin 128) :
    kernelRun1_A.sl.v693 (F := Ideal) c arg1 harg1 arg10 x0 (ix2 j ci) = slab (imgOf x0) (136 + j.val) ci := by
  unfold kernelRun1_A.sl.v693
  exact slab_read _ _ (invA_65 c arg1 harg1 x0) arg10 136 _ (by omega) j ci

theorem rdB136 (c : Dev nD) (arg2 : Memref sig .tc .vmem S1x64x64x128 .f32) (harg2 : arg2.IsWhole) (arg11 : Memref sig .tc .vmem S4624x128 .f32) (x1 : Vec Ideal S1x64x64x128 .f32) (j : Fin 4352) (ci : Fin 128) :
    kernelRun1_A.sl.v698 (F := Ideal) c arg2 harg2 arg11 x1 (ix2 j ci) = slab (imgOf x1) (136 + j.val) ci := by
  unfold kernelRun1_A.sl.v698
  exact slab_read _ _ (invB_65 c arg2 harg2 x1) arg11 136 _ (by omega) j ci

theorem rdA137 (c : Dev nD) (arg1 : Memref sig .tc .vmem S1x64x64x128 .f32) (harg1 : arg1.IsWhole) (arg10 : Memref sig .tc .vmem S4624x128 .f32) (x0 : Vec Ideal S1x64x64x128 .f32) (j : Fin 4352) (ci : Fin 128) :
    kernelRun1_A.sl.v703 (F := Ideal) c arg1 harg1 arg10 x0 (ix2 j ci) = slab (imgOf x0) (137 + j.val) ci := by
  unfold kernelRun1_A.sl.v703
  exact slab_read _ _ (invA_65 c arg1 harg1 x0) arg10 137 _ (by omega) j ci

theorem rdB137 (c : Dev nD) (arg2 : Memref sig .tc .vmem S1x64x64x128 .f32) (harg2 : arg2.IsWhole) (arg11 : Memref sig .tc .vmem S4624x128 .f32) (x1 : Vec Ideal S1x64x64x128 .f32) (j : Fin 4352) (ci : Fin 128) :
    kernelRun1_A.sl.v708 (F := Ideal) c arg2 harg2 arg11 x1 (ix2 j ci) = slab (imgOf x1) (137 + j.val) ci := by
  unfold kernelRun1_A.sl.v708
  exact slab_read _ _ (invB_65 c arg2 harg2 x1) arg11 137 _ (by omega) j ci

theorem rdA203 (c : Dev nD) (arg1 : Memref sig .tc .vmem S1x64x64x128 .f32) (harg1 : arg1.IsWhole) (arg10 : Memref sig .tc .vmem S4624x128 .f32) (x0 : Vec Ideal S1x64x64x128 .f32) (j : Fin 4352) (ci : Fin 128) :
    kernelRun1_A.sl.v713 (F := Ideal) c arg1 harg1 arg10 x0 (ix2 j ci) = slab (imgOf x0) (203 + j.val) ci := by
  unfold kernelRun1_A.sl.v713
  exact slab_read _ _ (invA_65 c arg1 harg1 x0) arg10 203 _ (by omega) j ci

theorem rdB203 (c : Dev nD) (arg2 : Memref sig .tc .vmem S1x64x64x128 .f32) (harg2 : arg2.IsWhole) (arg11 : Memref sig .tc .vmem S4624x128 .f32) (x1 : Vec Ideal S1x64x64x128 .f32) (j : Fin 4352) (ci : Fin 128) :
    kernelRun1_A.sl.v718 (F := Ideal) c arg2 harg2 arg11 x1 (ix2 j ci) = slab (imgOf x1) (203 + j.val) ci := by
  unfold kernelRun1_A.sl.v718
  exact slab_read _ _ (invB_65 c arg2 harg2 x1) arg11 203 _ (by omega) j ci

theorem rdA204 (c : Dev nD) (arg1 : Memref sig .tc .vmem S1x64x64x128 .f32) (harg1 : arg1.IsWhole) (arg10 : Memref sig .tc .vmem S4624x128 .f32) (x0 : Vec Ideal S1x64x64x128 .f32) (j : Fin 4352) (ci : Fin 128) :
    kernelRun1_A.sl.v723 (F := Ideal) c arg1 harg1 arg10 x0 (ix2 j ci) = slab (imgOf x0) (204 + j.val) ci := by
  unfold kernelRun1_A.sl.v723
  exact slab_read _ _ (invA_65 c arg1 harg1 x0) arg10 204 _ (by omega) j ci

theorem rdB204 (c : Dev nD) (arg2 : Memref sig .tc .vmem S1x64x64x128 .f32) (harg2 : arg2.IsWhole) (arg11 : Memref sig .tc .vmem S4624x128 .f32) (x1 : Vec Ideal S1x64x64x128 .f32) (j : Fin 4352) (ci : Fin 128) :
    kernelRun1_A.sl.v728 (F := Ideal) c arg2 harg2 arg11 x1 (ix2 j ci) = slab (imgOf x1) (204 + j.val) ci := by
  unfold kernelRun1_A.sl.v728
  exact slab_read _ _ (invB_65 c arg2 harg2 x1) arg11 204 _ (by omega) j ci

theorem rdA205 (c : Dev nD) (arg1 : Memref sig .tc .vmem S1x64x64x128 .f32) (harg1 : arg1.IsWhole) (arg10 : Memref sig .tc .vmem S4624x128 .f32) (x0 : Vec Ideal S1x64x64x128 .f32) (j : Fin 4352) (ci : Fin 128) :
    kernelRun1_A.sl.v733 (F := Ideal) c arg1 harg1 arg10 x0 (ix2 j ci) = slab (imgOf x0) (205 + j.val) ci := by
  unfold kernelRun1_A.sl.v733
  exact slab_read _ _ (invA_65 c arg1 harg1 x0) arg10 205 _ (by omega) j ci

theorem rdB205 (c : Dev nD) (arg2 : Memref sig .tc .vmem S1x64x64x128 .f32) (harg2 : arg2.IsWhole) (arg11 : Memref sig .tc .vmem S4624x128 .f32) (x1 : Vec Ideal S1x64x64x128 .f32) (j : Fin 4352) (ci : Fin 128) :
    kernelRun1_A.sl.v738 (F := Ideal) c arg2 harg2 arg11 x1 (ix2 j ci) = slab (imgOf x1) (205 + j.val) ci := by
  unfold kernelRun1_A.sl.v738
  exact slab_read _ _ (invB_65 c arg2 harg2 x1) arg11 205 _ (by omega) j ci

/-- A weight tap as a [128,128] matrix: tap k of a [9,128,128] array (k is below 9: the block lies inside the array). -/
theorem wtapF (x : Vec Ideal S9x128x128 .f32) (k : ℕ) (inb) (hsc : S1x128x128.ShapeCasts S128x128) :
    shapeCast (s := S1x128x128) S128x128 (View.ld x (Rect.unit (s := S9x128x128) ![k, 0, 0] ![1, 128, 128] inb)) hsc
      = fun i => x (ix3 ⟨k % 9, Nat.mod_lt _ (by decide)⟩ (i 0) (i 1)) := by
  have hk : k < 9 := by
    have h0 := inb 0
    change k + 1 ≤ 9 at h0
    omega
  funext i
  obtain ⟨ci, cm, rfl⟩ : ∃ (ci cm : Fin 128), i = ix2 ci cm := ⟨i 0, i 1, eq_ix2 i⟩
  refine (wtap_apply x k inb hsc ci cm hk).trans ?_
  exact congrArg (fun t => x (ix3 t ci cm)) (Fin.ext (Nat.mod_eq_of_lt hk).symm)

/-! ## The first convolution's running sum, part by part -/

theorem r_2_apply (c : Dev nD) (arg1 : Memref sig .tc .vmem S1x64x64x128 .f32) (harg1 : arg1.IsWhole) (arg2 : Memref sig .tc .vmem S1x64x64x128 .f32) (harg2 : arg2.IsWhole) (arg4 : Memref sig .tc .vmem S9x128x128 .f32) (harg4 : arg4.IsWhole) (arg5 : Memref sig .tc .vmem S9x128x128 .f32) (harg5 : arg5.IsWhole) (arg6 : Memref sig .tc .vmem S1x128 .f32) (harg6 : arg6.IsWhole) (arg10 arg11 : Memref sig .tc .vmem S4624x128 .f32) (x0 x1 : Vec Ideal S1x64x64x128 .f32) (x3 x4 : Vec Ideal S9x128x128 .f32) (x5 : Vec Ideal S1x128 .f32) (j : Fin 4352) (cm : Fin 128) :
    kernelRun1_A.sl.r_2 (F := Ideal) c arg1 harg1 arg2 harg2 arg4 harg4 arg5 harg5 arg6 harg6 arg10 arg11 x0 x1 x3 x4 x5 (ix2 j cm)
      = ((((((0 + x5 (ix2 0 cm))
      + ∑ ci : Fin 128, slab (imgOf x0) (67 + j.val) ci * x3 (ix3 0 ci cm))
      + ∑ ci : Fin 128, slab (imgOf x1) (67 + j.val) ci * x4 (ix3 0 ci cm))
      + ∑ ci : Fin 128, slab (imgOf x0) (68 + j.val) ci * x3 (ix3 1 ci cm))
      + ∑ ci : Fin 128, slab (imgOf x1) (68 + j.val) ci * x4 (ix3 1 ci cm))
      + ∑ ci : Fin 128, slab (imgOf x0) (69 + j.val) ci * x3 (ix3 2 ci cm)) := by
  unfold kernelRun1_A.sl.r_2 kernelRun1_A.sl.r_1 k1_pay159 k1_pay157 k1_pay158
  simp only [View.readAt_eq_ld, harg4.read_unread, harg5.read_unread, harg6.read_unread]
  rw [wtapF x3 0, wtapF x4 0, wtapF x3 1, wtapF x4 1, wtapF x3 2]
  simp only [addf_apply, mm_apply, broadcast_apply, bias_apply, shapeCast_self, View.ld_unit_zero (S := S1x128) hz2, sob0, rdA67, rdB67, rdA68, rdB68, rdA69, rdB69, rdA135, rdB135, rdA136, rdB136, rdA137, rdB137, rdA203, rdB203, rdA204, rdB204, rdA205, rdB205]
  rfl

theorem r_3_apply (c : Dev nD) (arg1 : Memref sig .tc .vmem S1x64x64x128 .f32) (harg1 : arg1.IsWhole) (arg2 : Memref sig .tc .vmem S1x64x64x128 .f32) (harg2 : arg2.IsWhole) (arg4 : Memref sig .tc .vmem S9x128x128 .f32) (harg4 : arg4.IsWhole) (arg5 : Memref sig .tc .vmem S9x128x128 .f32) (harg5 : arg5.IsWhole) (arg6 : Memref sig .tc .vmem S1x128 .f32) (harg6 : arg6.IsWhole) (arg10 arg11 : Memref sig .tc .vmem S4624x128 .f32) (x0 x1 : Vec Ideal S1x64x64x128 .f32) (x3 x4 : Vec Ideal S9x128x128 .f32) (x5 : Vec Ideal S1x128 .f32) (j : Fin 4352) (cm : Fin 128) :
    kernelRun1_A.sl.r_3 (F := Ideal) c arg1 harg1 arg2 harg2 arg4 harg4 arg5 harg5 arg6 harg6 arg10 arg11 x0 x1 x3 x4 x5 (ix2 j cm)
      = (((((kernelRun1_A.sl.r_2 (F := Ideal) c arg1 harg1 arg2 harg2 arg4 harg4 arg5 harg5 arg6 harg6 arg10 arg11 x0 x1 x3 x4 x5 (ix2 j cm)
      + ∑ ci : Fin 128, slab (imgOf x1) (69 + j.val) ci * x4 (ix3 2 ci cm))
      + ∑ ci : Fin 128, slab (imgOf x0) (135 + j.val) ci * x3 (ix3 3 ci cm))
      + ∑ ci : Fin 128, slab (imgOf x1) (135 + j.val) ci * x4 (ix3 3 ci cm))
      + ∑ ci : Fin 128, slab (imgOf x0) (136 + j.val) ci * x3 (ix3 4 ci cm))
      + ∑ ci : Fin 128, slab (imgOf x1) (136 + j.val) ci * x4 (ix3 4 ci cm)) := by
  unfold kernelRun1_A.sl.r_3 k1_pay160
  simp only [View.readAt_eq_ld, harg4.read_unread, harg5.read_unread, harg6.read_unread]
  rw [wtapF x4 2, wtapF x3 3, wtapF x4 3, wtapF x3 4, wtapF x4 4]
  simp only [addf_apply, mm_apply, broadcast_apply, bias_apply, shapeCast_self, View.ld_unit_zero (S := S1x128) hz2, sob0, rdA67, rdB67, rdA68, rdB68, rdA69, rdB69, rdA135, rdB135, rdA136, rdB136, rdA137, rdB137, rdA203, rdB203, rdA204, rdB204, rdA205, rdB205]
  rfl

theorem r_5_apply (c : Dev nD) (arg1 : Memref sig .tc .vmem S1x64x64x128 .f32) (harg1 : arg1.IsWhole) (arg2 : Memref sig .tc .vmem S1x64x64x128 .f32) (harg2 : arg2.IsWhole) (arg4 : Memref sig .tc .vmem S9x128x128 .f32) (harg4 : arg4.IsWhole) (arg5 : Memref sig .tc .vmem S9x128x128 .f32) (harg5 : arg5.IsWhole) (arg6 : Memref sig .tc .vmem S1x128 .f32) (harg6 : arg6.IsWhole) (arg10 arg11 : Memref sig .tc .vmem S4624x128 .f32) (x0 x1 : Vec Ideal S1x64x64x128 .f32) (x3 x4 : Vec Ideal S9x128x128 .f32) (x5 : Vec Ideal S1x128 .f32) (j : Fin 4352) (cm : Fin 128) :
    kernelRun1_A.sl.r_5 (F := Ideal) c arg1 harg1 arg2 harg2 arg4 harg4 arg5 harg5 arg6 harg6 arg10 arg11 x0 x1 x3 x4 x5 (ix2 j cm)
      = ((((((kernelRun1_A.sl.r_3 (F := Ideal) c arg1 harg1 arg2 harg2 arg4 harg4 arg5 harg5 arg6 harg6 arg10 arg11 x0 x1 x3 x4 x5 (ix2 j cm)
      + ∑ ci : Fin 128, slab (imgOf x0) (137 + j.val) ci * x3 (ix3 5 ci cm))
      + ∑ ci : Fin 128, slab (imgOf x1) (137 + j.val) ci * x4 (ix3 5 ci cm))
      + ∑ ci : Fin 128, slab (imgOf x0) (203 + j.val) ci * x3 (ix3 6 ci cm))
      + ∑ ci : Fin 128, slab (imgOf x1) (203 + j.val) ci * x4 (ix3 6 ci cm))
      + ∑ ci : Fin 128, slab (imgOf x0) (204 + j.val) ci * x3 (ix3 7 ci cm))
      + ∑ ci : Fin 128, slab (imgOf x1) (204 + j.val) ci * x4 (ix3 7 ci cm)) := by
  unfold kernelRun1_A.sl.r_5 kernelRun1_A.sl.r_4 kernelRun1_A.sl.cst_707 k1_pay162 k1_pay161
  simp only [View.readAt_eq_ld, harg4.read_unread, harg5.read_unread, harg6.read_unread]
  rw [wtapF x3 5, wtapF x4 5, wtapF x3 6, wtapF x4 6, wtapF x3 7, wtapF x4 7]
  simp only [addf_apply, mm_apply, broadcast_apply, bias_apply, shapeCast_self, View.ld_unit_zero (S := S1x128) hz2, sob0, rdA67, rdB67, rdA68, rdB68, rdA69, rdB69, rdA135, rdB135, rdA136, rdB136, rdA137, rdB137, rdA203, rdB203, rdA204, rdB204, rdA205, rdB205]
  rfl

/-! ## The hidden slab -/

/-- The first convolution's band values: the bias plus, over the nine taps, both image slabs' channel contractions. -/
def g1 (x0 x1 : Vec Ideal S1x64x64x128 .f32) (x3 x4 : Vec Ideal S9x128x128 .f32) (x5 : Vec Ideal S1x128 .f32) : ℕ → Fin 128 → EReal :=
  conv1 (fun k ci cm => x3 (ix3 k ci cm)) (fun k ci cm => x4 (ix3 k ci cm)) (fun cm => x5 (ix2 0 cm)) (slab (imgOf x0)) (slab (imgOf x1))

/-- The third scratch slab after its three stores (two zero margins and the masked band max(acc, 0) · mask) reads as
    the hidden slab of the first convolution's band values. -/
theorem invH (c : Dev nD) (arg1 : Memref sig .tc .vmem S1x64x64x128 .f32) (harg1 : arg1.IsWhole) (arg2 : Memref sig .tc .vmem S1x64x64x128 .f32) (harg2 : arg2.IsWhole) (arg3 : Memref sig .tc .vmem S4352x1 .f32) (harg3 : arg3.IsWhole) (arg4 : Memref sig .tc .vmem S9x128x128 .f32) (harg4 : arg4.IsWhole) (arg5 : Memref sig .tc .vmem S9x128x128 .f32) (harg5 : arg5.IsWhole) (arg6 : Memref sig .tc .vmem S1x128 .f32) (harg6 : arg6.IsWhole) (arg10 arg11 : Memref sig .tc .vmem S4624x128 .f32) (x0 x1 : Vec Ideal S1x64x64x128 .f32) (x2 : Vec Ideal S4352x1 .f32) (x3 x4 : Vec Ideal S9x128x128 .f32) (x5 : Vec Ideal S1x128 .f32) (hmask : ∀ p : Fin 4352, x2 (ix2 p 0) = if 2 ≤ p.val % 68 ∧ p.val % 68 ≤ 65 then 1 else 0) :
    HInv (g1 x0 x1 x3 x4 x5) (kernelRun1_A.sl.HS2_3 (F := Ideal) c arg1 harg1 arg2 harg2 arg3 harg3 arg4 harg4 arg5 harg5 arg6 harg6 arg10 arg11 x0 x1 x2 x3 x4 x5) := by
  unfold kernelRun1_A.sl.HS2_3
  refine hslab_canon _ _ _ _ _ _ _ (fun j cm => ?_) (fun i => ?_) (fun i => ?_)
  · unfold k1_pay165
    simp only [View.readAt_eq_ld, harg3.read_unread, harg4.read_unread, harg5.read_unread]
    rw [wtapF x3 8, wtapF x4 8]
    simp only [mulf_apply, maximumf_apply, addf_apply, mm_apply, broadcast_apply, bias_apply, shapeCast_self, View.ld_unit_zero (S := S1x128) hz2, sob0, rdA67, rdB67, rdA68, rdB68, rdA69, rdB69, rdA135, rdB135, rdA136, rdB136, rdA137, rdB137, rdA203, rdB203, rdA204, rdB204, rdA205, rdB205, maskcol_apply, View.ld_unit_zero (S := S4352x1) hz2, r_5_apply, r_3_apply, r_2_apply]
    rw [hmask j]
    exact congrArg (fun t => max t 0 * mask j.val) (Conv.conv1_unrolled (fun k ci cm => x3 (ix3 k ci cm)) (fun k ci cm => x4 (ix3 k ci cm)) (fun cm => x5 (ix2 0 cm)) (slab (imgOf x0)) (slab (imgOf x1)) j.val cm)
  · simp only [k1_pay164, shapeCast_self, broadcast_apply]
    exact sob0
  · simp only [k1_pay163, shapeCast_self, broadcast_apply]
    exact sob0

/-! ### The nine shifted reads of the hidden slab -/

theorem rdH67 (c : Dev nD) (arg1 : Memref sig .tc .vmem S1x64x64x128 .f32) (harg1 : arg1.IsWhole) (arg2 : Memref sig .tc .vmem S1x64x64x128 .f32) (harg2 : arg2.IsWhole) (arg3 : Memref sig .tc .vmem S4352x1 .f32) (harg3 : arg3.IsWhole) (arg4 : Memref sig .tc .vmem S9x128x128 .f32) (harg4 : arg4.IsWhole) (arg5 : Memref sig .tc .vmem S9x128x128 .f32) (harg5 : arg5.IsWhole) (arg6 : Memref sig .tc .vmem S1x128 .f32) (harg6 : arg6.IsWhole) (arg10 arg11 arg12 : Memref sig .tc .vmem S4624x128 .f32) (x0 x1 : Vec Ideal S1x64x64x128 .f32) (x2 : Vec Ideal S4352x1 .f32) (x3 x4 : Vec Ideal S9x128x128 .f32) (x5 : Vec Ideal S1x128 .f32) (hmask : ∀ p : Fin 4352, x2 (ix2 p 0) = if 2 ≤ p.val % 68 ∧ p.val % 68 ≤ 65 then 1 else 0) (j : Fin 4352) (cm : Fin 128) :
    kernelRun1_A.sl.v765 (F := Ideal) c arg1 harg1 arg2 harg2 arg3 harg3 arg4 harg4 arg5 harg5 arg6 harg6 arg10 arg11 arg12 x0 x1 x2 x3 x4 x5 (ix2 j cm) = hslab (g1 x0 x1 x3 x4 x5) (67 + j.val) cm := by
  unfold kernelRun1_A.sl.v765
  exact hslab_read _ _ (invH c arg1 harg1 arg2 harg2 arg3 harg3 arg4 harg4 arg5 harg5 arg6 harg6 arg10 arg11 x0 x1 x2 x3 x4 x5 hmask) arg12 67 _ (by omega) j cm

theorem rdH68 (c : Dev nD) (arg1 : Memref sig .tc .vmem S1x64x64x128 .f32) (harg1 : arg1.IsWhole) (arg2 : Memref sig .tc .vmem S1x64x64x128 .f32) (harg2 : arg2.IsWhole) (arg3 : Memref sig .tc .vmem S4352x1 .f32) (harg3 : arg3.IsWhole) (arg4 : Memref sig .tc .vmem S9x128x128 .f32) (harg4 : arg4.IsWhole) (arg5 : Memref sig .tc .vmem S9x128x128 .f32) (harg5 : arg5.IsWhole) (arg6 : Memref sig .tc .vmem S1x128 .f32) (harg6 : arg6.IsWhole) (arg10 arg11 arg12 : Memref sig .tc .vmem S4624x128 .f32) (x0 x1 : Vec Ideal S1x64x64x128 .f32) (x2 : Vec Ideal S4352x1 .f32) (x3 x4 : Vec Ideal S9x128x128 .f32) (x5 : Vec Ideal S1x128 .f32) (hmask : ∀ p : Fin 4352, x2 (ix2 p 0) = if 2 ≤ p.val % 68 ∧ p.val % 68 ≤ 65 then 1 else 0) (j : Fin 4352) (cm : Fin 128) :
    kernelRun1_A.sl.v770 (F := Ideal) c arg1 harg1 arg2 harg2 arg3 harg3 arg4 harg4 arg5 harg5 arg6 harg6 arg10 arg11 arg12 x0 x1 x2 x3 x4 x5 (ix2 j cm) = hslab (g1 x0 x1 x3 x4 x5) (68 + j.val) cm := by
  unfold kernelRun1_A.sl.v770
  exact hslab_read _ _ (invH c arg1 harg1 arg2 harg2 arg3 harg3 arg4 harg4 arg5 harg5 arg6 harg6 arg10 arg11 x0 x1 x2 x3 x4 x5 hmask) arg12 68 _ (by omega) j cm

theorem rdH69 (c : Dev nD) (arg1 : Memref sig .tc .vmem S1x64x64x128 .f32) (harg1 : arg1.IsWhole) (arg2 : Memref sig .tc .vmem S1x64x64x128 .f32) (harg2 : arg2.IsWhole) (arg3 : Memref sig .tc .vmem S4352x1 .f32) (harg3 : arg3.IsWhole) (arg4 : Memref sig .tc .vmem S9x128x128 .f32) (harg4 : arg4.IsWhole) (arg5 : Memref sig .tc .vmem S9x128x128 .f32) (harg5 : arg5.IsWhole) (arg6 : Memref sig .tc .vmem S1x128 .f32) (harg6 : arg6.IsWhole) (arg10 arg11 arg12 : Memref sig .tc .vmem S4624x128 .f32) (x0 x1 : Vec Ideal S1x64x64x128 .f32) (x2 : Vec Ideal S4352x1 .f32) (x3 x4 : Vec Ideal S9x128x128 .f32) (x5 : Vec Ideal S1x128 .f32) (hmask : ∀ p : Fin 4352, x2 (ix2 p 0) = if 2 ≤ p.val % 68 ∧ p.val % 68 ≤ 65 then 1 else 0) (j : Fin 4352) (cm : Fin 128) :
    kernelRun1_A.sl.v775 (F := Ideal) c arg1 harg1 arg2 harg2 arg3 harg3 arg4 harg4 arg5 harg5 arg6 harg6 arg10 arg11 arg12 x0 x1 x2 x3 x4 x5 (ix2 j cm) = hslab (g1 x0 x1 x3 x4 x5) (69 + j.val) cm := by
  unfold kernelRun1_A.sl.v775
  exact hslab_read _ _ (invH c arg1 harg1 arg2 harg2 arg3 harg3 arg4 harg4 arg5 harg5 arg6 harg6 arg10 arg11 x0 x1 x2 x3 x4 x5 hmask) arg12 69 _ (by omega) j cm

theorem rdH135 (c : Dev nD) (arg1 : Memref sig .tc .vmem S1x64x64x128 .f32) (harg1 : arg1.IsWhole) (arg2 : Memref sig .tc .vmem S1x64x64x128 .f32) (harg2 : arg2.IsWhole) (arg3 : Memref sig .tc .vmem S4352x1 .f32) (harg3 : arg3.IsWhole) (arg4 : Memref sig .tc .vmem S9x128x128 .f32) (harg4 : arg4.IsWhole) (arg5 : Memref sig .tc .vmem S9x128x128 .f32) (harg5 : arg5.IsWhole) (arg6 : Memref sig .tc .vmem S1x128 .f32) (harg6 : arg6.IsWhole) (arg10 arg11 arg12 : Memref sig .tc .vmem S4624x128 .f32) (x0 x1 : Vec Ideal S1x64x64x128 .f32) (x2 : Vec Ideal S4352x1 .f32) (x3 x4 : Vec Ideal S9x128x128 .f32) (x5 : Vec Ideal S1x128 .f32) (hmask : ∀ p : Fin 4352, x2 (ix2 p 0) = if 2 ≤ p.val % 68 ∧ p.val % 68 ≤ 65 then 1 else 0) (j : Fin 4352) (cm : Fin 128) :
    kernelRun1_A.sl.v780 (F := Ideal) c arg1 harg1 arg2 harg2 arg3 harg3 arg4 harg4 arg5 harg5 arg6 harg6 arg10 arg11 arg12 x0 x1 x2 x3 x4 x5 (ix2 j cm) = hslab (g1 x0 x1 x3 x4 x5) (135 + j.val) cm := by
  unfold kernelRun1_A.sl.v780
  exact hslab_read _ _ (invH c arg1 harg1 arg2 harg2 arg3 harg3 arg4 harg4 arg5 harg5 arg6 harg6 arg10 arg11 x0 x1 x2 x3 x4 x5 hmask) arg12 135 _ (by omega) j cm

theorem rdH136 (c : Dev nD) (arg1 : Memref sig .tc .vmem S1x64x64x128 .f32) (harg1 : arg1.IsWhole) (arg2 : Memref sig .tc .vmem S1x64x64x128 .f32) (harg2 : arg2.IsWhole) (arg3 : Memref sig .tc .vmem S4352x1 .f32) (harg3 : arg3.IsWhole) (arg4 : Memref sig .tc .vmem S9x128x128 .f32) (harg4 : arg4.IsWhole) (arg5 : Memref sig .tc .vmem S9x128x128 .f32) (harg5 : arg5.IsWhole) (arg6 : Memref sig .tc .vmem S1x128 .f32) (harg6 : arg6.IsWhole) (arg10 arg11 arg12 : Memref sig .tc .vmem S4624x128 .f32) (x0 x1 : Vec Ideal S1x64x64x128 .f32) (x2 : Vec Ideal S4352x1 .f32) (x3 x4 : Vec Ideal S9x128x128 .f32) (x5 : Vec Ideal S1x128 .f32) (hmask : ∀ p : Fin 4352, x2 (ix2 p 0) = if 2 ≤ p.val % 68 ∧ p.val % 68 ≤ 65 then 1 else 0) (j : Fin 4352) (cm : Fin 128) :
    kernelRun1_A.sl.v785 (F := Ideal) c arg1 harg1 arg2 harg2 arg3 harg3 arg4 harg4 arg5 harg5 arg6 harg6 arg10 arg11 arg12 x0 x1 x2 x3 x4 x5 (ix2 j cm) = hslab (g1 x0 x1 x3 x4 x5) (136 + j.val) cm := by
  unfold kernelRun1_A.sl.v785
  exact hslab_read _ _ (invH c arg1 harg1 arg2 harg2 arg3 harg3 arg4 harg4 arg5 harg5 arg6 harg6 arg10 arg11 x0 x1 x2 x3 x4 x5 hmask) arg12 136 _ (by omega) j cm

theorem rdH137 (c : Dev nD) (arg1 : Memref sig .tc .vmem S1x64x64x128 .f32) (harg1 : arg1.IsWhole) (arg2 : Memref sig .tc .vmem S1x64x64x128 .f32) (harg2 : arg2.IsWhole) (arg3 : Memref sig .tc .vmem S4352x1 .f32) (harg3 : arg3.IsWhole) (arg4 : Memref sig .tc .vmem S9x128x128 .f32) (harg4 : arg4.IsWhole) (arg5 : Memref sig .tc .vmem S9x128x128 .f32) (harg5 : arg5.IsWhole) (arg6 : Memref sig .tc .vmem S1x128 .f32) (harg6 : arg6.IsWhole) (arg10 arg11 arg12 : Memref sig .tc .vmem S4624x128 .f32) (x0 x1 : Vec Ideal S1x64x64x128 .f32) (x2 : Vec Ideal S4352x1 .f32) (x3 x4 : Vec Ideal S9x128x128 .f32) (x5 : Vec Ideal S1x128 .f32) (hmask : ∀ p : Fin 4352, x2 (ix2 p 0) = if 2 ≤ p.val % 68 ∧ p.val % 68 ≤ 65 then 1 else 0) (j : Fin 4352) (cm : Fin 128) :
    kernelRun1_A.sl.v790 (F := Ideal) c arg1 harg1 arg2 harg2 arg3 harg3 arg4 harg4 arg5 harg5 arg6 harg6 arg10 arg11 arg12 x0 x1 x2 x3 x4 x5 (ix2 j cm) = hslab (g1 x0 x1 x3 x4 x5) (137 + j.val) cm := by
  unfold kernelRun1_A.sl.v790
  exact hslab_read _ _ (invH c arg1 harg1 arg2 harg2 arg3 harg3 arg4 harg4 arg5 harg5 arg6 harg6 arg10 arg11 x0 x1 x2 x3 x4 x5 hmask) arg12 137 _ (by omega) j cm

theorem rdH203 (c : Dev nD) (arg1 : Memref sig .tc .vmem S1x64x64x128 .f32) (harg1 : arg1.IsWhole) (arg2 : Memref sig .tc .vmem S1x64x64x128 .f32) (harg2 : arg2.IsWhole) (arg3 : Memref sig .tc .vmem S4352x1 .f32) (harg3 : arg3.IsWhole) (arg4 : Memref sig .tc .vmem S9x128x128 .f32) (harg4 : arg4.IsWhole) (arg5 : Memref sig .tc .vmem S9x128x128 .f32) (harg5 : arg5.IsWhole) (arg6 : Memref sig .tc .vmem S1x128 .f32) (harg6 : arg6.IsWhole) (arg10 arg11 arg12 : Memref sig .tc .vmem S4624x128 .f32) (x0 x1 : Vec Ideal S1x64x64x128 .f32) (x2 : Vec Ideal S4352x1 .f32) (x3 x4 : Vec Ideal S9x128x128 .f32) (x5 : Vec Ideal S1x128 .f32) (hmask : ∀ p : Fin 4352, x2 (ix2 p 0) = if 2 ≤ p.val % 68 ∧ p.val % 68 ≤ 65 then 1 else 0) (j : Fin 4352) (cm : Fin 128) :
    kernelRun1_A.sl.v795 (F := Ideal) c arg1 harg1 arg2 harg2 arg3 harg3 arg4 harg4 arg5 harg5 arg6 harg6 arg10 arg11 arg12 x0 x1 x2 x3 x4 x5 (ix2 j cm) = hslab (g1 x0 x1 x3 x4 x5) (203 + j.val) cm := by
  unfold kernelRun1_A.sl.v795
  exact hslab_read _ _ (invH c arg1 harg1 arg2 harg2 arg3 harg3 arg4 harg4 arg5 harg5 arg6 harg6 arg10 arg11 x0 x1 x2 x3 x4 x5 hmask) arg12 203 _ (by omega) j cm

theorem rdH204 (c : Dev nD) (arg1 : Memref sig .tc .vmem S1x64x64x128 .f32) (harg1 : arg1.IsWhole) (arg2 : Memref sig .tc .vmem S1x64x64x128 .f32) (harg2 : arg2.IsWhole) (arg3 : Memref sig .tc .vmem S4352x1 .f32) (harg3 : arg3.IsWhole) (arg4 : Memref sig .tc .vmem S9x128x128 .f32) (harg4 : arg4.IsWhole) (arg5 : Memref sig .tc .vmem S9x128x128 .f32) (harg5 : arg5.IsWhole) (arg6 : Memref sig .tc .vmem S1x128 .f32) (harg6 : arg6.IsWhole) (arg10 arg11 arg12 : Memref sig .tc .vmem S4624x128 .f32) (x0 x1 : Vec Ideal S1x64x64x128 .f32) (x2 : Vec Ideal S4352x1 .f32) (x3 x4 : Vec Ideal S9x128x128 .f32) (x5 : Vec Ideal S1x128 .f32) (hmask : ∀ p : Fin 4352, x2 (ix2 p 0) = if 2 ≤ p.val % 68 ∧ p.val % 68 ≤ 65 then 1 else 0) (j : Fin 4352) (cm : Fin 128) :
    kernelRun1_A.sl.v800 (F := Ideal) c arg1 harg1 arg2 harg2 arg3 harg3 arg4 harg4 arg5 harg5 arg6 harg6 arg10 arg11 arg12 x0 x1 x2 x3 x4 x5 (ix2 j cm) = hslab (g1 x0 x1 x3 x4 x5) (204 + j.val) cm := by
  unfold kernelRun1_A.sl.v800
  exact hslab_read _ _ (invH c arg1 harg1 arg2 harg2 arg3 harg3 arg4 harg4 arg5 harg5 arg6 harg6 arg10 arg11 x0 x1 x2 x3 x4 x5 hmask) arg12 204 _ (by omega) j cm

theorem rdH205 (c : Dev nD) (arg1 : Memref sig .tc .vmem S1x64x64x128 .f32) (harg1 : arg1.IsWhole) (arg2 : Memref sig .tc .vmem S1x64x64x128 .f32) (harg2 : arg2.IsWhole) (arg3 : Memref sig .tc .vmem S4352x1 .f32) (harg3 : arg3.IsWhole) (arg4 : Memref sig .tc .vmem S9x128x128 .f32) (harg4 : arg4.IsWhole) (arg5 : Memref sig .tc .vmem S9x128x128 .f32) (harg5 : arg5.IsWhole) (arg6 : Memref sig .tc .vmem S1x128 .f32) (harg6 : arg6.IsWhole) (arg10 arg11 arg12 : Memref sig .tc .vmem S4624x128 .f32) (x0 x1 : Vec Ideal S1x64x64x128 .f32) (x2 : Vec Ideal S4352x1 .f32) (x3 x4 : Vec Ideal S9x128x128 .f32) (x5 : Vec Ideal S1x128 .f32) (hmask : ∀ p : Fin 4352, x2 (ix2 p 0) = if 2 ≤ p.val % 68 ∧ p.val % 68 ≤ 65 then 1 else 0) (j : Fin 4352) (cm : Fin 128) :
    kernelRun1_A.sl.v805 (F := Ideal) c arg1 harg1 arg2 harg2 arg3 harg3 arg4 harg4 arg5 harg5 arg6 harg6 arg10 arg11 arg12 x0 x1 x2 x3 x4 x5 (ix2 j cm) = hslab (g1 x0 x1 x3 x4 x5) (205 + j.val) cm := by
  unfold kernelRun1_A.sl.v805
  exact hslab_read _ _ (invH c arg1 harg1 arg2 harg2 arg3 harg3 arg4 harg4 arg5 harg5 arg6 harg6 arg10 arg11 x0 x1 x2 x3 x4 x5 hmask) arg12 205 _ (by omega) j cm

/-! ## The second convolution's running sum, part by part -/

theorem r_7_apply (c : Dev nD) (arg1 : Memref sig .tc .vmem S1x64x64x128 .f32) (harg1 : arg1.IsWhole) (arg2 : Memref sig .tc .vmem S1x64x64x128 .f32) (harg2 : arg2.IsWhole) (arg3 : Memref sig .tc .vmem S4352x1 .f32) (harg3 : arg3.IsWhole) (arg4 : Memref sig .tc .vmem S9x128x128 .f32) (harg4 : arg4.IsWhole) (arg5 : Memref sig .tc .vmem S9x128x128 .f32) (harg5 : arg5.IsWhole) (arg6 : Memref sig .tc .vmem S1x128 .f32) (harg6 : arg6.IsWhole) (arg7 : Memref sig .tc .vmem S9x128x128 .f32) (harg7 : arg7.IsWhole) (arg8 : Memref sig .tc .vmem S1x128 .f32) (harg8 : arg8.IsWhole) (arg10 arg11 arg12 : Memref sig .tc .vmem S4624x128 .f32) (x0 x1 : Vec Ideal S1x64x64x128 .f32) (x2 : Vec Ideal S4352x1 .f32) (x3 x4 : Vec Ideal S9x128x128 .f32) (x5 : Vec Ideal S1x128 .f32) (x6 : Vec Ideal S9x128x128 .f32) (x7 : Vec Ideal S1x128 .f32) (hmask : ∀ p : Fin 4352, x2 (ix2 p 0) = if 2 ≤ p.val % 68 ∧ p.val % 68 ≤ 65 then 1 else 0) (j : Fin 4352) (co : Fin 128) :
    kernelRun1_A.sl.r_7 (F := Ideal) c arg1 harg1 arg2 harg2 arg3 harg3 arg4 harg4 arg5 harg5 arg6 harg6 arg7 harg7 arg8 harg8 arg10 arg11 arg12 x0 x1 x2 x3 x4 x5 x6 x7 (ix2 j co)
      = ((((((0 + x7 (ix2 0 co))
      + ∑ cm : Fin 128, hslab (g1 x0 x1 x3 x4 x5) (67 + j.val) cm * x6 (ix3 0 cm co))
      + ∑ cm : Fin 128, hslab (g1 x0 x1 x3 x4 x5) (68 + j.val) cm * x6 (ix3 1 cm co))
      + ∑ cm : Fin 128, hslab (g1 x0 x1 x3 x4 x5) (69 + j.val) cm * x6 (ix3 2 cm co))
      + ∑ cm : Fin 128, hslab (g1 x0 x1 x3 x4 x5) (135 + j.val) cm * x6 (ix3 3 cm co))
      + ∑ cm : Fin 128, hslab (g1 x0 x1 x3 x4 x5) (136 + j.val) cm * x6 (ix3 4 cm co)) := by
  unfold kernelRun1_A.sl.r_7 kernelRun1_A.sl.r_6 k1_pay167 k1_pay166
  simp only [View.readAt_eq_ld, harg7.read_unread, harg8.read_unread]
  rw [wtapF x6 0, wtapF x6 1, wtapF x6 2, wtapF x6 3, wtapF x6 4]
  simp only [addf_apply, mm_apply, broadcast_apply, bias_apply, shapeCast_self, View.ld_unit_zero (S := S1x128) hz2, sob0, rdH67 c arg1 harg1 arg2 harg2 arg3 harg3 arg4 harg4 arg5 harg5 arg6 harg6 arg10 arg11 arg12 x0 x1 x2 x3 x4 x5 hmask, rdH68 c arg1 harg1 arg2 harg2 arg3 harg3 arg4 harg4 arg5 harg5 arg6 harg6 arg10 arg11 arg12 x0 x1 x2 x3 x4 x5 hmask, rdH69 c arg1 harg1 arg2 harg2 arg3 harg3 arg4 harg4 arg5 harg5 arg6 harg6 arg10 arg11 arg12 x0 x1 x2 x3 x4 x5 hmask, rdH135 c arg1 harg1 arg2 harg2 arg3 harg3 arg4 harg4 arg5 harg5 arg6 harg6 arg10 arg11 arg12 x0 x1 x2 x3 x4 x5 hmask, rdH136 c arg1 harg1 arg2 harg2 arg3 harg3 arg4 harg4 arg5 harg5 arg6 harg6 arg10 arg11 arg12 x0 x1 x2 x3 x4 x5 hmask, rdH137 c arg1 harg1 arg2 harg2 arg3 harg3 arg4 harg4 arg5 harg5 arg6 harg6 arg10 arg11 arg12 x0 x1 x2 x3 x4 x5 hmask, rdH203 c arg1 harg1 arg2 harg2 arg3 harg3 arg4 harg4 arg5 harg5 arg6 harg6 arg10 arg11 arg12 x0 x1 x2 x3 x4 x5 hmask, rdH204 c arg1 harg1 arg2 harg2 arg3 harg3 arg4 harg4 arg5 harg5 arg6 harg6 arg10 arg11 arg12 x0 x1 x2 x3 x4 x5 hmask, rdH205 c arg1 harg1 arg2 harg2 arg3 harg3 arg4 harg4 arg5 harg5 arg6 harg6 arg10 arg11 arg12 x0 x1 x2 x3 x4 x5 hmask]
  rfl

theorem r_9_apply (c : Dev nD) (arg1 : Memref sig .tc .vmem S1x64x64x128 .f32) (harg1 : arg1.IsWhole) (arg2 : Memref sig .tc .vmem S1x64x64x128 .f32) (harg2 : arg2.IsWhole) (arg3 : Memref sig .tc .vmem S4352x1 .f32) (harg3 : arg3.IsWhole) (arg4 : Memref sig .tc .vmem S9x128x128 .f32) (harg4 : arg4.IsWhole) (arg5 : Memref sig .tc .vmem S9x128x128 .f32) (harg5 : arg5.IsWhole) (arg6 : Memref sig .tc .vmem S1x128 .f32) (harg6 : arg6.IsWhole) (arg7 : Memref sig .tc .vmem S9x128x128 .f32) (harg7 : arg7.IsWhole) (arg8 : Memref sig .tc .vmem S1x128 .f32) (harg8 : arg8.IsWhole) (arg10 arg11 arg12 : Memref sig .tc .vmem S4624x128 .f32) (x0 x1 : Vec Ideal S1x64x64x128 .f32) (x2 : Vec Ideal S4352x1 .f32) (x3 x4 : Vec Ideal S9x128x128 .f32) (x5 : Vec Ideal S1x128 .f32) (x6 : Vec Ideal S9x128x128 .f32) (x7 : Vec Ideal S1x128 .f32) (hmask : ∀ p : Fin 4352, x2 (ix2 p 0) = if 2 ≤ p.val % 68 ∧ p.val % 68 ≤ 65 then 1 else 0) (j : Fin 4352) (co : Fin 128) :
    kernelRun1_A.sl.r_9 (F := Ideal) c arg1 harg1 arg2 harg2 arg3 harg3 arg4 harg4 arg5 harg5 arg6 harg6 arg7 harg7 arg8 harg8 arg10 arg11 arg12 x0 x1 x2 x3 x4 x5 x6 x7 (ix2 j co)
      = (((kernelRun1_A.sl.r_7 (F := Ideal) c arg1 harg1 arg2 harg2 arg3 harg3 arg4 harg4 arg5 harg5 arg6 harg6 arg7 harg7 arg8 harg8 arg10 arg11 arg12 x0 x1 x2 x3 x4 x5 x6 x7 (ix2 j co)
      + ∑ cm : Fin 128, hslab (g1 x0 x1 x3 x4 x5) (137 + j.val) cm * x6 (ix3 5 cm co))
      + ∑ cm : Fin 128, hslab (g1 x0 x1 x3 x4 x5) (203 + j.val) cm * x6 (ix3 6 cm co))
      + ∑ cm : Fin 128, hslab (g1 x0 x1 x3 x4 x5) (204 + j.val) cm * x6 (ix3 7 cm co)) := by
  unfold kernelRun1_A.sl.r_9 kernelRun1_A.sl.r_8 k1_pay168
  simp only [View.readAt_eq_ld, harg7.read_unread, harg8.read_unread]
  rw [wtapF x6 5, wtapF x6 6, wtapF x6 7]
  simp only [addf_apply, mm_apply, broadcast_apply, bias_apply, shapeCast_self, View.ld_unit_zero (S := S1x128) hz2, sob0, rdH67 c arg1 harg1 arg2 harg2 arg3 harg3 arg4 harg4 arg5 harg5 arg6 harg6 arg10 arg11 arg12 x0 x1 x2 x3 x4 x5 hmask, rdH68 c arg1 harg1 arg2 harg2 arg3 harg3 arg4 harg4 arg5 harg5 arg6 harg6 arg10 arg11 arg12 x0 x1 x2 x3 x4 x5 hmask, rdH69 c arg1 harg1 arg2 harg2 arg3 harg3 arg4 harg4 arg5 harg5 arg6 harg6 arg10 arg11 arg12 x0 x1 x2 x3 x4 x5 hmask, rdH135 c arg1 harg1 arg2 harg2 arg3 harg3 arg4 harg4 arg5 harg5 arg6 harg6 arg10 arg11 arg12 x0 x1 x2 x3 x4 x5 hmask, rdH136 c arg1 harg1 arg2 harg2 arg3 harg3 arg4 harg4 arg5 harg5 arg6 harg6 arg10 arg11 arg12 x0 x1 x2 x3 x4 x5 hmask, rdH137 c arg1 harg1 arg2 harg2 arg3 harg3 arg4 harg4 arg5 harg5 arg6 harg6 arg10 arg11 arg12 x0 x1 x2 x3 x4 x5 hmask, rdH203 c arg1 harg1 arg2 harg2 arg3 harg3 arg4 harg4 arg5 harg5 arg6 harg6 arg10 arg11 arg12 x0 x1 x2 x3 x4 x5 hmask, rdH204 c arg1 harg1 arg2 harg2 arg3 harg3 arg4 harg4 arg5 harg5 arg6 harg6 arg10 arg11 arg12 x0 x1 x2 x3 x4 x5 hmask, rdH205 c arg1 harg1 arg2 harg2 arg3 harg3 arg4 harg4 arg5 harg5 arg6 harg6 arg10 arg11 arg12 x0 x1 x2 x3 x4 x5 hmask]
  rfl

/-! ## The body's result -/

theorem hz3 : (![0, 0, 0] : Fin 3 → Nat) = fun _ => 0 := funext fun a => by fin_cases a <;> rfl

/-- A [4352,128] value stored as a [1,4352,128] block reads (0, j, co) at (j, co). -/
theorem out_cast_apply (v : FVec Ideal S4352x128 .f32) (h) (J : Fin 4352) (co : Fin 128) :
    shapeCast S1x4352x128 v h (ix3 0 J co) = v (ix2 J co) := by
  refine shapeCast_apply v h (ix3 0 J co) (ix2 J co) ?_
  rw [Shape.rowMajor_val_two, Shape.rowMajor_val_three]
  show J.val * 128 + co.val = ((0 : ℕ) * 4352 + J.val) * 128 + co.val
  omega

/-- What the body leaves in the output block at band row j, channel co: the second convolution over the hidden slab. -/
theorem ref_block_flat (c : Dev nD) (i : grid1.Coords) (arg1 : Memref sig .tc .vmem S1x64x64x128 .f32) (harg1 : arg1.IsWhole) (arg2 : Memref sig .tc .vmem S1x64x64x128 .f32) (harg2 : arg2.IsWhole) (arg3 : Memref sig .tc .vmem S4352x1 .f32) (harg3 : arg3.IsWhole) (arg4 : Memref sig .tc .vmem S9x128x128 .f32) (harg4 : arg4.IsWhole) (arg5 : Memref sig .tc .vmem S9x128x128 .f32) (harg5 : arg5.IsWhole) (arg6 : Memref sig .tc .vmem S1x128 .f32) (harg6 : arg6.IsWhole) (arg7 : Memref sig .tc .vmem S9x128x128 .f32) (harg7 : arg7.IsWhole) (arg8 : Memref sig .tc .vmem S1x128 .f32) (harg8 : arg8.IsWhole) (arg9 : Memref sig .tc .vmem S1x4352x128 .f32) (harg9 : arg9.IsWhole) (arg10 : Memref sig .tc .vmem S4624x128 .f32) (harg10 : arg10.IsWhole) (arg11 : Memref sig .tc .vmem S4624x128 .f32) (harg11 : arg11.IsWhole) (arg12 : Memref sig .tc .vmem S4624x128 .f32) (harg12 : arg12.IsWhole) (x0 x1 : Vec Ideal S1x64x64x128 .f32) (x2 : Vec Ideal S4352x1 .f32) (x3 x4 : Vec Ideal S9x128x128 .f32) (x5 : Vec Ideal S1x128 .f32) (x6 : Vec Ideal S9x128x128 .f32) (x7 : Vec Ideal S1x128 .f32)
    (hmask : ∀ p : Fin 4352, x2 (ix2 p 0) = if 2 ≤ p.val % 68 ∧ p.val % 68 ≤ 65 then 1 else 0) (j : Fin 4352) (co : Fin 128) :
    Gen.out1_A_8 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 (ix3 0 j co)
      = conv2 (fun k cm co' => x6 (ix3 k cm co')) (fun co' => x7 (ix2 0 co')) (hslab (g1 x0 x1 x3 x4 x5)) j.val co := by
  unfold Gen.out1_A_8
  rw [View.read_writes_eq_canon _ _ _ (Gen.cover1_A_8 c i arg1 harg1 arg2 harg2 arg3 harg3 arg4 harg4 arg5 harg5 arg6 harg6 arg7 harg7 arg8 harg8 arg9 harg9 arg10 harg10 arg11 harg11 arg12 harg12 x0 x1 x2 x3 x4 x5 x6 x7)]
  unfold Gen.kernelRun1_A
  dsimp only
  rw [View.canon_unit_zero hz3]
  unfold k1_pay1
  simp only [View.readAt_eq_ld, harg7.read_unread]
  rw [wtapF x6 8]
  simp only [out_cast_apply, maximumf_apply, addf_apply, mm_apply, broadcast_apply, bias_apply, shapeCast_self, View.ld_unit_zero (S := S1x128) hz2, sob0, rdH67 c arg1 harg1 arg2 harg2 arg3 harg3 arg4 harg4 arg5 harg5 arg6 harg6 arg10 arg11 arg12 x0 x1 x2 x3 x4 x5 hmask, rdH68 c arg1 harg1 arg2 harg2 arg3 harg3 arg4 harg4 arg5 harg5 arg6 harg6 arg10 arg11 arg12 x0 x1 x2 x3 x4 x5 hmask, rdH69 c arg1 harg1 arg2 harg2 arg3 harg3 arg4 harg4 arg5 harg5 arg6 harg6 arg10 arg11 arg12 x0 x1 x2 x3 x4 x5 hmask, rdH135 c arg1 harg1 arg2 harg2 arg3 harg3 arg4 harg4 arg5 harg5 arg6 harg6 arg10 arg11 arg12 x0 x1 x2 x3 x4 x5 hmask, rdH136 c arg1 harg1 arg2 harg2 arg3 harg3 arg4 harg4 arg5 harg5 arg6 harg6 arg10 arg11 arg12 x0 x1 x2 x3 x4 x5 hmask, rdH137 c arg1 harg1 arg2 harg2 arg3 harg3 arg4 harg4 arg5 harg5 arg6 harg6 arg10 arg11 arg12 x0 x1 x2 x3 x4 x5 hmask, rdH203 c arg1 harg1 arg2 harg2 arg3 harg3 arg4 harg4 arg5 harg5 arg6 harg6 arg10 arg11 arg12 x0 x1 x2 x3 x4 x5 hmask, rdH204 c arg1 harg1 arg2 harg2 arg3 harg3 arg4 harg4 arg5 harg5 arg6 harg6 arg10 arg11 arg12 x0 x1 x2 x3 x4 x5 hmask, rdH205 c arg1 harg1 arg2 harg2 arg3 harg3 arg4 harg4 arg5 harg5 arg6 harg6 arg10 arg11 arg12 x0 x1 x2 x3 x4 x5 hmask, r_9_apply c arg1 harg1 arg2 harg2 arg3 harg3 arg4 harg4 arg5 harg5 arg6 harg6 arg7 harg7 arg8 harg8 arg10 arg11 arg12 x0 x1 x2 x3 x4 x5 x6 x7 hmask, r_7_apply c arg1 harg1 arg2 harg2 arg3 harg3 arg4 harg4 arg5 harg5 arg6 harg6 arg7 harg7 arg8 harg8 arg10 arg11 arg12 x0 x1 x2 x3 x4 x5 x6 x7 hmask]
  exact Conv.conv2_unrolled (fun k cm co' => x6 (ix3 k cm co')) (fun co' => x7 (ix2 0 co')) (hslab (g1 x0 x1 x3 x4 x5)) j.val co

/-- The body's result at pixel (y, x), channel co, is Spec's two convolutions of the concatenated blocks. -/
theorem ref_block_value (c : Dev nD) (i : grid1.Coords) (arg1 : Memref sig .tc .vmem S1x64x64x128 .f32) (harg1 : arg1.IsWhole) (arg2 : Memref sig .tc .vmem S1x64x64x128 .f32) (harg2 : arg2.IsWhole) (arg3 : Memref sig .tc .vmem S4352x1 .f32) (harg3 : arg3.IsWhole) (arg4 : Memref sig .tc .vmem S9x128x128 .f32) (harg4 : arg4.IsWhole) (arg5 : Memref sig .tc .vmem S9x128x128 .f32) (harg5 : arg5.IsWhole) (arg6 : Memref sig .tc .vmem S1x128 .f32) (harg6 : arg6.IsWhole) (arg7 : Memref sig .tc .vmem S9x128x128 .f32) (harg7 : arg7.IsWhole) (arg8 : Memref sig .tc .vmem S1x128 .f32) (harg8 : arg8.IsWhole) (arg9 : Memref sig .tc .vmem S1x4352x128 .f32) (harg9 : arg9.IsWhole) (arg10 : Memref sig .tc .vmem S4624x128 .f32) (harg10 : arg10.IsWhole) (arg11 : Memref sig .tc .vmem S4624x128 .f32) (harg11 : arg11.IsWhole) (arg12 : Memref sig .tc .vmem S4624x128 .f32) (harg12 : arg12.IsWhole) (x0 x1 : Vec Ideal S1x64x64x128 .f32) (x2 : Vec Ideal S4352x1 .f32) (x3 x4 : Vec Ideal S9x128x128 .f32) (x5 : Vec Ideal S1x128 .f32) (x6 : Vec Ideal S9x128x128 .f32) (x7 : Vec Ideal S1x128 .f32)
    (hmask : ∀ p : Fin 4352, x2 (ix2 p 0) = if 2 ≤ p.val % 68 ∧ p.val % 68 ≤ 65 then 1 else 0) (co : Fin 128) (y x : Fin 64) :
    Gen.out1_A_8 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 (ix3 0 ⟨y.val * 68 + x.val + 2, by omega⟩ co)
      = Cert.Spec.outC (fun cm ch dh dw => if h : ch.val < 128 then x3 (ix3 ⟨dh.val * 3 + dw.val, by omega⟩ ⟨ch.val, h⟩ cm) else x4 (ix3 ⟨dh.val * 3 + dw.val, by omega⟩ ⟨ch.val - 128, by omega⟩ cm))
          (fun cm => x5 (ix2 0 cm)) (fun co' cm dh dw => x6 (ix3 ⟨dh.val * 3 + dw.val, by omega⟩ cm co')) (fun co' => x7 (ix2 0 co'))
          (fun ch r q => if h : ch.val < 128 then x0 (ix4 0 r q ⟨ch.val, h⟩) else x1 (ix4 0 r q ⟨ch.val - 128, by omega⟩)) co y x :=
  (ref_block_flat c i arg1 harg1 arg2 harg2 arg3 harg3 arg4 harg4 arg5 harg5 arg6 harg6 arg7 harg7 arg8 harg8 arg9 harg9 arg10 harg10 arg11 harg11 arg12 harg12 x0 x1 x2 x3 x4 x5 x6 x7 hmask ⟨y.val * 68 + x.val + 2, by omega⟩ co).trans
    (Conv.flat_to_spec x0 x1 x3 x4 x6 x5 x7 co y x)

end Cert.ReferenceIdeal.Hand

end
-- ==== Proof.RValue.lean ====
/-
  The reference's value: its result array is the specification's `out`.

  The chain, entry by entry. The result's entry (n, co, y, x) is row 68·y + x + 2, channel co of region 1's output
  array at sample n (the host operations after the region: reshape, slice, transpose). That array's sample n is what
  region 1's body leaves at grid point n (one block per sample, written back at every point). The body's block at
  those rows is the specification's two convolutions `outC` of the blocks the body reads. And those blocks are, read
  at the coordinates their layouts put them at: sample n of the skip image and of the upsampled image (the two halves
  of the concatenated image), the column mask, and the folded weights and biases of the two convolutions — so the five
  parameters of `outC` are the specification's own.
-/
import proofs.«126750_g2000606872001322_pallasbulk_142_34_alg».proof.Proof.RArray
import proofs.«126750_g2000606872001322_pallasbulk_142_34_alg».proof.Proof.ROperands
import proofs.«126750_g2000606872001322_pallasbulk_142_34_alg».proof.Proof.RUp
import proofs.«126750_g2000606872001322_pallasbulk_142_34_alg».proof.Proof.RMask
import proofs.«126750_g2000606872001322_pallasbulk_142_34_alg».proof.Proof.RBody
import proofs.«126750_g2000606872001322_pallasbulk_142_34_alg».proof.Proof.Fold

noncomputable section

namespace Cert.ReferenceIdeal.Hand

open Cert.ReferenceIdeal Cert.ReferenceIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The specification's result at (n, co, y, x): the two convolutions of sample `n`'s concatenated image. -/
theorem out_at (x1 : Cert.Spec.X1) (x2 : Cert.Spec.X2) (wt : Cert.Spec.WT) (bt : Cert.Spec.V128) (w1e : Cert.Spec.W1)
    (b1e : Cert.Spec.V128) (w2e : Cert.Spec.W2) (b2e : Cert.Spec.V128) (n : Fin 16) (co : Fin 128) (y x : Fin 64) :
    Cert.Spec.out x1 x2 wt bt w1e b1e w2e b2e (ix4 n co y x)
      = Cert.Spec.outC (fun co ch dh dw => w1e (ix4 co ch dh dw)) (fun c => b1e (ix1 c))
          (fun co cm dh dw => w2e (ix4 co cm dh dw)) (fun c => b2e (ix1 c))
          (Cert.Spec.cat (fun ci r q => x1 (ix4 n ci r q)) (fun ch r q => x2 (ix4 n ch r q))
            (fun ci c di dj => wt (ix4 ci c di dj)) (fun c _ _ => bt (ix1 c))) co y x := rfl

/-- The two convolutions depend on their five parameters only. -/
theorem outC_congr {w1 w1' : Fin 128 → Fin 256 → Fin 3 → Fin 3 → EReal} {b1 b1' : Fin 128 → EReal}
    {w2 w2' : Fin 128 → Fin 128 → Fin 3 → Fin 3 → EReal} {b2 b2' : Fin 128 → EReal}
    {ct ct' : Fin 256 → Fin 64 → Fin 64 → EReal}
    (h1 : w1 = w1') (h2 : b1 = b1') (h3 : w2 = w2') (h4 : b2 = b2') (h5 : ct = ct') (co : Fin 128) (y x : Fin 64) :
    Cert.Spec.outC w1 b1 w2 b2 ct co y x = Cert.Spec.outC w1' b1' w2' b2' ct' co y x := by
  subst h1; subst h2; subst h3; subst h4; subst h5; rfl

/-- THE REFERENCE'S VALUE: its result array is the specification's `out` of its arguments and the folded
    parameters. Entry (n, co, y, x) is row 68·y + x + 2, channel co of what region 1's body leaves at point `n`;
    that is `outC` of the blocks the body reads; and each block is the argument (or the upsampled image, or the
    folded parameter) the specification names, read at the coordinates the layouts put it at. -/
theorem reference_value (c : Dev nD) :
    Gen.W7 (F := Ideal) m ρ c (Proc.devRef .tc main_v53)
      = Cert.Spec.out (m ((c.tc : Thread nD τ).loc main_arg0)) (m ((c.tc : Thread nD τ).loc main_arg1)) (m ((c.tc : Thread nD τ).loc main_arg2)) (m ((c.tc : Thread nD τ).loc main_arg3))
        (Cert.Fold.w1e (m ((c.tc : Thread nD τ).loc main_arg4)) (m ((c.tc : Thread nD τ).loc main_arg6)) (m ((c.tc : Thread nD τ).loc main_arg9)))
        (Cert.Fold.b1e (m ((c.tc : Thread nD τ).loc main_arg5)) (m ((c.tc : Thread nD τ).loc main_arg8)) (m ((c.tc : Thread nD τ).loc main_arg6)) (m ((c.tc : Thread nD τ).loc main_arg9)) (m ((c.tc : Thread nD τ).loc main_arg7)))
        (Cert.Fold.w2e (m ((c.tc : Thread nD τ).loc main_arg10)) (m ((c.tc : Thread nD τ).loc main_arg12)) (m ((c.tc : Thread nD τ).loc main_arg15)))
        (Cert.Fold.b1e (m ((c.tc : Thread nD τ).loc main_arg11)) (m ((c.tc : Thread nD τ).loc main_arg14)) (m ((c.tc : Thread nD τ).loc main_arg12)) (m ((c.tc : Thread nD τ).loc main_arg15)) (m ((c.tc : Thread nD τ).loc main_arg13))) := by
  funext i
  obtain ⟨n, co, y, x, rfl⟩ : ∃ (n : Fin 16) (co : Fin 128) (y x : Fin 64), i = ix4 n co y x :=
    ⟨i 0, i 1, i 2, i 3, eq_ix4 i⟩
  refine (W7_result_at m ρ c n co y x).trans ?_
  refine (W6_result m ρ c n _ co).trans ?_
  refine Eq.trans ?_ (out_at _ _ _ _ _ _ _ _ n co y x).symm
  unfold Gen.outsAt1
  refine (ref_block_value c (grid1.coords ⟨n.val, lt_N1 n.isLt⟩) (ms1_0 ⟨n.val, lt_N1 n.isLt⟩) (hs1_0 ⟨n.val, lt_N1 n.isLt⟩) (ms1_1 ⟨n.val, lt_N1 n.isLt⟩) (hs1_1 ⟨n.val, lt_N1 n.isLt⟩)
    (ms1_2 ⟨n.val, lt_N1 n.isLt⟩) (hs1_2 ⟨n.val, lt_N1 n.isLt⟩) (ms1_3 ⟨n.val, lt_N1 n.isLt⟩) (hs1_3 ⟨n.val, lt_N1 n.isLt⟩) (ms1_4 ⟨n.val, lt_N1 n.isLt⟩) (hs1_4 ⟨n.val, lt_N1 n.isLt⟩)
    (ms1_5 ⟨n.val, lt_N1 n.isLt⟩) (hs1_5 ⟨n.val, lt_N1 n.isLt⟩) (ms1_6 ⟨n.val, lt_N1 n.isLt⟩) (hs1_6 ⟨n.val, lt_N1 n.isLt⟩) (ms1_7 ⟨n.val, lt_N1 n.isLt⟩) (hs1_7 ⟨n.val, lt_N1 n.isLt⟩)
    (ms1_8 ⟨n.val, lt_N1 n.isLt⟩) (hs1_8 ⟨n.val, lt_N1 n.isLt⟩) scM1_0 (Memref.isWhole_whole _) scM1_1 (Memref.isWhole_whole _)
    scM1_2 (Memref.isWhole_whole _)
    (Gen.iblk1 (Gen.V5 m ρ) c 0 ⟨n.val, lt_N1 n.isLt⟩) (Gen.iblk1 (Gen.V5 m ρ) c 1 ⟨n.val, lt_N1 n.isLt⟩) (Gen.iblk1 (Gen.V5 m ρ) c 2 ⟨n.val, lt_N1 n.isLt⟩)
    (Gen.iblk1 (Gen.V5 m ρ) c 3 ⟨n.val, lt_N1 n.isLt⟩) (Gen.iblk1 (Gen.V5 m ρ) c 4 ⟨n.val, lt_N1 n.isLt⟩) (Gen.iblk1 (Gen.V5 m ρ) c 5 ⟨n.val, lt_N1 n.isLt⟩)
    (Gen.iblk1 (Gen.V5 m ρ) c 6 ⟨n.val, lt_N1 n.isLt⟩) (Gen.iblk1 (Gen.V5 m ρ) c 7 ⟨n.val, lt_N1 n.isLt⟩)
    (fun p => (iblk1_2_apply (Gen.V5 m ρ) c ⟨n.val, lt_N1 n.isLt⟩ (ix2 p (0 : Fin 1))).trans (V5_mask m ρ c p)) co y x).trans ?_
  refine outC_congr ?_ ?_ ?_ ?_ ?_ co y x
  · -- the first convolution's weight: its two per-tap halves are the folded weight's two channel halves
    funext cm ch dh dw
    by_cases h : ch.val < 128
    · refine (dif_pos h).trans ?_
      refine (iblk1_3_apply (Gen.V5 m ρ) c ⟨n.val, lt_N1 n.isLt⟩ _).trans ?_
      refine (V5_w1a m ρ c _ _ _).trans ?_
      refine congrArg (Cert.Fold.w1e (m ((c.tc : Thread nD τ).loc main_arg4)) (m ((c.tc : Thread nD τ).loc main_arg6)) (m ((c.tc : Thread nD τ).loc main_arg9))) (funext fun a => Fin.ext ?_)
      match a with
      | ⟨0, _⟩ => rfl
      | ⟨1, _⟩ => rfl
      | ⟨2, _⟩ => show (dh.val * 3 + dw.val) / 3 = dh.val; omega
      | ⟨3, _⟩ => show (dh.val * 3 + dw.val) % 3 = dw.val; omega
    · refine (dif_neg h).trans ?_
      refine (iblk1_4_apply (Gen.V5 m ρ) c ⟨n.val, lt_N1 n.isLt⟩ _).trans ?_
      refine (V5_w1b m ρ c _ _ _).trans ?_
      refine congrArg (Cert.Fold.w1e (m ((c.tc : Thread nD τ).loc main_arg4)) (m ((c.tc : Thread nD τ).loc main_arg6)) (m ((c.tc : Thread nD τ).loc main_arg9))) (funext fun a => Fin.ext ?_)
      match a with
      | ⟨0, _⟩ => rfl
      | ⟨1, _⟩ => show ch.val - 128 + 128 = ch.val; omega
      | ⟨2, _⟩ => show (dh.val * 3 + dw.val) / 3 = dh.val; omega
      | ⟨3, _⟩ => show (dh.val * 3 + dw.val) % 3 = dw.val; omega
  · -- the first convolution's bias
    funext cm
    exact (iblk1_5_apply (Gen.V5 m ρ) c ⟨n.val, lt_N1 n.isLt⟩ _).trans (V5_b1r m ρ c cm)
  · -- the second convolution's weight
    funext co' cm dh dw
    refine (iblk1_6_apply (Gen.V5 m ρ) c ⟨n.val, lt_N1 n.isLt⟩ _).trans ?_
    refine (V5_w2r m ρ c _ _ _).trans ?_
    refine congrArg (Cert.Fold.w2e (m ((c.tc : Thread nD τ).loc main_arg10)) (m ((c.tc : Thread nD τ).loc main_arg12)) (m ((c.tc : Thread nD τ).loc main_arg15))) (funext fun a => Fin.ext ?_)
    match a with
    | ⟨0, _⟩ => rfl
    | ⟨1, _⟩ => rfl
    | ⟨2, _⟩ => show (dh.val * 3 + dw.val) / 3 = dh.val; omega
    | ⟨3, _⟩ => show (dh.val * 3 + dw.val) % 3 = dw.val; omega
  · -- the second convolution's bias
    funext co'
    exact (iblk1_7_apply (Gen.V5 m ρ) c ⟨n.val, lt_N1 n.isLt⟩ _).trans (V5_b2r m ρ c co')
  · -- the concatenated image: the skip image's channels, then the upsampled image's
    funext ch r q
    unfold Cert.Spec.cat
    by_cases h : ch.val < 128
    · refine (dif_pos h).trans (Eq.trans ?_ (dif_pos h).symm)
      exact (iblk1_0_apply (Gen.V5 m ρ) c n r q _).trans (V5_x2 m ρ c n r q _)
    · refine (dif_neg h).trans (Eq.trans ?_ (dif_neg h).symm)
      exact (iblk1_1_apply (Gen.V5 m ρ) c n r q _).trans (V5_up m ρ c n r q _)

end Cert.ReferenceIdeal.Hand

end
-- ==== Proof.lean ====
/-
  One sample of a U-Net "up" block, three ways: a single fused kernel (word level and idealized) and a reference of two
  kernels. All three take a 256-channel 32×32 image to 128 channels at 64×64 by a 2×2, stride-2 transposed convolution, put it
  behind the 128-channel skip image, and apply two 3×3 convolutions with zero padding, each with its batch-norm scale folded
  into the weights and followed by max(·, 0).

  Over the extended reals the fused kernel and the reference compute the same array, `Cert.Spec.out`, of the same
  arguments: the fused kernel keeps the concatenated image transposed (channels × flat positions, row pitch 72) and
  contracts all 256 channels in one product per tap; the reference keeps two position-major slabs (row pitch 68) and
  contracts them separately; the fused kernel transposes the upsampled half by a product with the identity matrix and
  both multiply the hidden image by a 0/1 mask. Only commutativity and associativity of + and ·, `0 · x = 0`, `1 · x = x`
  and `0 + x = x` are used, so the precondition is never opened. The batch-norm fold is the same chain of host
  operations in both programs and is carried as one function (`Cert.Fold`).

  The three frames: the reference's is read off its segments' run; the fused kernel's, at both instances, from the
  body's run at a generic point (every scratch buffer is rewritten inside a point before it is read, so nothing is
  carried between points). No rewrite separates the word-level kernel from its idealization.
-/
import proofs.«126750_g2000606872001322_pallasbulk_142_34_alg».proof.Defs
import proofs.«126750_g2000606872001322_pallasbulk_142_34_alg».proof.Proof.Gen.Kernel
import proofs.«126750_g2000606872001322_pallasbulk_142_34_alg».proof.Proof.Gen.KernelIdeal
import proofs.«126750_g2000606872001322_pallasbulk_142_34_alg».proof.Proof.Gen.ReferenceIdeal
import proofs.«126750_g2000606872001322_pallasbulk_142_34_alg».proof.Proof.Gen.ReferenceIdeal.Frame
import proofs.«126750_g2000606872001322_pallasbulk_142_34_alg».proof.Proof.Gen.Pre_finite_inputs
import proofs.«126750_g2000606872001322_pallasbulk_142_34_alg».proof.Proof.Spec
import proofs.«126750_g2000606872001322_pallasbulk_142_34_alg».proof.Proof.Fold
import proofs.«126750_g2000606872001322_pallasbulk_142_34_alg».proof.Proof.KBFrame
import proofs.«126750_g2000606872001322_pallasbulk_142_34_alg».proof.Proof.KIFrame
import proofs.«126750_g2000606872001322_pallasbulk_142_34_alg».proof.Proof.KValue
import proofs.«126750_g2000606872001322_pallasbulk_142_34_alg».proof.Proof.RRun
import proofs.«126750_g2000606872001322_pallasbulk_142_34_alg».proof.Proof.RValue
import Idealize.ShloMosaic.Adequacy
import Idealize.ShloMosaic.Init

noncomputable section

namespace Cert.Proof

open Idealize.ShloMosaic Idealize.SL.Sem

/-- `Spec.out` of the folded parameters respects equality of the sixteen argument arrays. -/
theorem out_congr {a0 a0' : Cert.Spec.X1} {a1 a1' : Cert.Spec.X2} {a2 a2' : Cert.Spec.WT} {a3 a3' : Cert.Spec.V128}
    {a4 a4' : Cert.Spec.W1} {a5 a5' a6 a6' a7 a7' a8 a8' a9 a9' : Cert.Spec.V128} {a10 a10' : Cert.Spec.W2}
    {a11 a11' a12 a12' a13 a13' a14 a14' a15 a15' : Cert.Spec.V128}
    (h0 : a0' = a0) (h1 : a1' = a1) (h2 : a2' = a2) (h3 : a3' = a3) (h4 : a4' = a4) (h5 : a5' = a5) (h6 : a6' = a6) (h7 : a7' = a7)
    (h8 : a8' = a8) (h9 : a9' = a9) (h10 : a10' = a10) (h11 : a11' = a11) (h12 : a12' = a12) (h13 : a13' = a13) (h14 : a14' = a14) (h15 : a15' = a15) :
    Cert.Spec.out a0' a1' a2' a3' (Cert.Fold.w1e a4' a6' a9') (Cert.Fold.b1e a5' a8' a6' a9' a7') (Cert.Fold.w2e a10' a12' a15') (Cert.Fold.b1e a11' a14' a12' a15' a13')
      = Cert.Spec.out a0 a1 a2 a3 (Cert.Fold.w1e a4 a6 a9) (Cert.Fold.b1e a5 a8 a6 a9 a7) (Cert.Fold.w2e a10 a12 a15) (Cert.Fold.b1e a11 a14 a12 a15 a13) := by
  subst h0 h1 h2 h3 h4 h5 h6 h7 h8 h9 h10 h11 h12 h13 h14 h15; rfl

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ => Cert.ReferenceIdeal.Gen.frame m ρ

/-- Both runs end with the result array at `Cert.Spec.out` of the (agreeing) arguments. -/
theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (Cert.Fold.w1e (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg9))) (Cert.Fold.b1e (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg6)) (m ((c.tc : Thread Cert.KernelIdeal.nD Cert.KernelIdeal.τ).loc Cert.KernelIdeal.main_arg9)) (m ((c.tc : Thread Cert.KernelIdeal.nD Cert.KernelIdeal.τ).loc Cert.KernelIdeal.main_arg7))) (Cert.Fold.w2e (m ((c.tc : Thread Cert.KernelIdeal.nD Cert.KernelIdeal.τ).loc Cert.KernelIdeal.main_arg10)) (m ((c.tc : Thread Cert.KernelIdeal.nD Cert.KernelIdeal.τ).loc Cert.KernelIdeal.main_arg12)) (m ((c.tc : Thread Cert.KernelIdeal.nD Cert.KernelIdeal.τ).loc Cert.KernelIdeal.main_arg15))) (Cert.Fold.b1e (m ((c.tc : Thread Cert.KernelIdeal.nD Cert.KernelIdeal.τ).loc Cert.KernelIdeal.main_arg11)) (m ((c.tc : Thread Cert.KernelIdeal.nD Cert.KernelIdeal.τ).loc Cert.KernelIdeal.main_arg14)) (m ((c.tc : Thread Cert.KernelIdeal.nD Cert.KernelIdeal.τ).loc Cert.KernelIdeal.main_arg12)) (m ((c.tc : Thread Cert.KernelIdeal.nD Cert.KernelIdeal.τ).loc Cert.KernelIdeal.main_arg15)) (m ((c.tc : Thread Cert.KernelIdeal.nD Cert.KernelIdeal.τ).loc Cert.KernelIdeal.main_arg13))), ?_, ?_⟩
  · exact (θ_run Cert.KernelIdeal.defs _ _).mono (fun r h c => ⟨(h c).1.trans (Cert.KernelIdeal.Hand.kernel_value m ρ c), (h c).2⟩)
      (Cert.KernelIdeal.Hand.run (F := Ideal) m ρ)
  · refine (θ_run Cert.ReferenceIdeal.defs _ _).mono (fun r h c => ⟨(h c).1.trans ?_, (h c).2⟩)
      (Cert.ReferenceIdeal.Hand.run (F := Ideal) m' ρ')
    obtain ⟨e0, e1, e2, e3, e4, e5, e6, e7, e8, e9, e10, e11, e12, e13, e14, e15⟩ := hagree c
    exact (Cert.ReferenceIdeal.Hand.reference_value m' ρ' c).trans (out_congr e0 e1 e2 e3 e4 e5 e6 e7 e8 e9 e10 e11 e12 e13 e14 e15)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
